-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S50000 : Shape := ⟨1, ![50000]⟩
abbrev S2x800000 : Shape := ⟨2, ![2, 800000]⟩
abbrev S120x64 : Shape := ⟨2, ![120, 64]⟩
abbrev S3x128x64 : Shape := ⟨3, ![3, 128, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S120x64 : S_.BroadcastsInDim S120x64 (![] : Fin 0 → Fin S120x64.rank)
  reducesTo_S120x64_S_d0_1 : S120x64.ReducesTo [0, 1] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg0 : IVec S50000 32) (main_arg1 : IVec S2x800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S50000 32 := broadcastInDim S50000 ![] bcast_S_S50000 main_c_20
  let main_v55 : IVec S50000 1 := cmpi .sge main_arg0 main_v54
  let main_c_21 : IVec S_ 32 := constantI S_ 32 119#32
  let main_v56 : IVec S50000 32 := broadcastInDim S50000 ![] bcast_S_S50000 main_c_21
  let main_v57 : IVec S50000 1 := cmpi .sle main_arg0 main_v56
  let main_v58 : IVec S50000 1 := andi main_v55 main_v57
  let main_c_22 : IVec S_ 1 := constantI S_ 1 1#1
  let main_v59 : IVec S_ 1 := (fun x v => Host.reduce IntOp.andi x v reducesTo_S50000_S_d0 h_S_) main_v58 main_c_22
  let main_v60 : IVec S_ 1 := andi main_v53 main_v59
  let main_c_23 : IVec S_ 32 := constantI S_ 32 0#32
  let main_v61 : IVec S2x800000 32 := broadcastInDim S2x800000 ![] bcast_S_S2x800000 main_c_23
  let main_v62 : IVec S2x800000 1 := cmpi .sge main_arg1 main_v61
  let main_c_24 : IVec S_ 32 := constantI S_ 32 49999#32
  let main_v63 : IVec S2x800000 32 := broadcastInDim S2x800000 ![] bcast_S_S2x800000 main_c_24
  let main_v64 : IVec S2x800000 1 := cmpi .sle main_arg1 main_v63
  let main_v65 : IVec S2x800000 1 := andi main_v62 main_v64
  let main_c_25 : IVec S_ 1 := constantI S_ 1 1#1
  let main_v66 : IVec S_ 1 := (fun x v => Host.reduce IntOp.andi x v reducesTo_S2x800000_S_d0_1 h_S_) main_v65 main_c_25
  let main_v67 : IVec S_ 1 := andi main_v60 main_v66
  main_v67

def fn_part2 {F : FTy → Type} [FloatOps F] (main_arg0 : IVec S50000 32) (main_arg1 : IVec S2x800000 32) (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg0 main_arg1 main_v48 main_v49 main_v50

def fn_part1 {F : FTy → Type} [FloatOps F] (main_arg0 : IVec S50000 32) (main_arg1 : IVec S2x800000 32) (main_arg6 : FVec F S3x64 .f32) (main_arg7 : FVec F S3x64x64 .f32) (main_arg8 : FVec F S3x64 .f32) (main_arg9 : FVec F S64x64 .f32) (main_arg10 : FVec F S64 .f32) (main_arg11 : FVec F S64x1 .f32) (main_arg12 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg0 main_arg1 main_arg9 main_arg10 main_arg11 main_arg12 main_v33

def fn {F : FTy → Type} [FloatOps F] (main_arg0 : IVec S50000 32) (main_arg1 : IVec S2x800000 32) (main_arg2 : FVec F S120x64 .f32) (main_arg3 : FVec F S3x128x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S64x64 .f32) (main_arg10 : FVec F S64 .f32) (main_arg11 : FVec F S64x1 .f32) (main_arg12 : FVec F S1 .f32) : IVec S_ 1 :=
  let main_v0 : FVec F S120x64 .f32 := Host.absf main_arg2
  let main_cst : FVec F S_ .f32 := constant S_ .f32 0x7F800000#32
  let main_v1 : FVec F S120x64 .f32 := broadcastInDim S120x64 ![] bcast_S_S120x64 main_cst
  let main_v2 : IVec S120x64 1 := cmpf .olt main_v0 main_v1
  let main_c : IVec S_ 1 := constantI S_ 1 1#1
  let main_v3 : IVec S_ 1 := (fun x v => Host.reduce IntOp.andi x v reducesTo_S120x64_S_d0_1 h_S_) main_v2 main_c
  let main_v4 : FVec F S3x128x64 .f32 := Host.absf main_arg3
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg0 main_arg1 main_arg6 main_arg7 main_arg8 main_arg9 main_arg10 main_arg11 main_arg12 main_v13 main_v16
-- ==== Kernel.lean ====
abbrev S50000 : Shape := ⟨1, ![50000]⟩
abbrev S2x800000 : Shape := ⟨2, ![2, 800000]⟩
abbrev S120x64 : Shape := ⟨2, ![120, 64]⟩
abbrev S3x128x64 : Shape := ⟨3, ![3, 128, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S50000x1 : Shape := ⟨2, ![50000, 1]⟩
abbrev S1x800000 : Shape := ⟨2, ![1, 800000]⟩
abbrev S800000 : Shape := ⟨1, ![800000]⟩
abbrev S_ : Shape := ⟨0, ![]⟩
abbrev S19200 : Shape := ⟨1, ![19200]⟩
abbrev S819200 : Shape := ⟨1, ![819200]⟩
abbrev S800000x1 : Shape := ⟨2, ![800000, 1]⟩
abbrev S1x128x64 : Shape := ⟨3, ![1, 128, 64]⟩
abbrev S128x64 : Shape := ⟨2, ![128, 64]⟩
abbrev S1x64 : Shape := ⟨2, ![1, 64]⟩
abbrev S64x128 : Shape := ⟨2, ![64, 128]⟩
abbrev S128 : Shape := ⟨1, ![128]⟩
abbrev S1x128 : Shape := ⟨2, ![1, 128]⟩
abbrev S50000x64 : Shape := ⟨2, ![50000, 64]⟩
abbrev S50008x128 : Shape := ⟨2, ![50008, 128]⟩
abbrev S2000x1 : Shape := ⟨2, ![2000, 1]⟩
abbrev S2000x64 : Shape := ⟨2, ![2000, 64]⟩
abbrev S2000x128 : Shape := ⟨2, ![2000, 128]⟩
abbrev S2000x120 : Shape := ⟨2, ![2000, 120]⟩
abbrev S819200x64 : Shape := ⟨2, ![819200, 64]⟩
abbrev S16 : Shape := ⟨1, ![16]⟩
abbrev S1x16 : Shape := ⟨2, ![1, 16]⟩
abbrev S800000x64 : Shape := ⟨2, ![800000, 64]⟩
abbrev S1x64x64 : Shape := ⟨3, ![1, 64, 64]⟩
abbrev S1x1 : Shape := ⟨2, ![1, 1]⟩

abbrev nBuf : Table → Nat
  | .hbm => 121
  | .local .tc .vmem => 57
  | .local .scVector .vmem => 15
  | _ => 0

abbrev bufTy : (tb : Table) → Fin (nBuf tb) → BufTy
  | .hbm, ⟨0, _⟩ => ⟨S50000, .i32⟩
  | .hbm, ⟨1, _⟩ => ⟨S2x800000, .i32⟩
  | .hbm, ⟨2, _⟩ => ⟨S120x64, .f32⟩
  | .hbm, ⟨3, _⟩ => ⟨S3x128x64, .f32⟩
  | .hbm, ⟨4, _⟩ => ⟨S3x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S50000x1, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S19200, .i32⟩
  | .hbm, ⟨20, _⟩ => ⟨S819200, .i32⟩
  | .hbm, ⟨21, _⟩ => ⟨S_, .i32⟩
  | .hbm, ⟨22, _⟩ => ⟨S19200, .i32⟩
  | .hbm, ⟨23, _⟩ => ⟨S819200, .i32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S50000x1, .f32⟩
  | .hbm, ⟨31, _⟩ => ⟨S1x128x64, .f32⟩
  | .hbm, ⟨32, _⟩ => ⟨S128x64, .f32⟩
  | .hbm, ⟨33, _⟩ => ⟨S1x64, .f32⟩
  | .hbm, ⟨34, _⟩ => ⟨S64, .f32⟩
  | .hbm, ⟨35, _⟩ => ⟨S64x64, .f32⟩
  | .hbm, ⟨36, _⟩ => ⟨S64x64, .f32⟩
  | .hbm, ⟨37, _⟩ => ⟨S64x128, .f32⟩
  | .hbm, ⟨38, _⟩ => ⟨S_, .f32⟩
  | .hbm, ⟨39, _⟩ => ⟨S64, .f32⟩
  | .hbm, ⟨40, _⟩ => ⟨S128, .f32⟩
  | .hbm, ⟨41, _⟩ => ⟨S1x128, .f32⟩
  | .hbm, ⟨42, _⟩ => ⟨S50000x64, .f32⟩
  | .hbm, ⟨43, _⟩ => ⟨S50008x128, .f32⟩
  | .hbm, ⟨44, _⟩ => ⟨S819200x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64x64, .f32⟩
  | .hbm, ⟨51, _⟩ => ⟨S64x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S1x128x64, .f32⟩
  | .hbm, ⟨61, _⟩ => ⟨S128x64, .f32⟩
  | .hbm, ⟨62, _⟩ => ⟨S1x64, .f32⟩
  | .hbm, ⟨63, _⟩ => ⟨S64, .f32⟩
  | .hbm, ⟨64, _⟩ => ⟨S64x64, .f32⟩
  | .hbm, ⟨65, _⟩ => ⟨S64x64, .f32⟩
  | .hbm, ⟨66, _⟩ => ⟨S64x128, .f32⟩
  | .hbm, ⟨67, _⟩ => ⟨S_, .f32⟩
  | .hbm, ⟨68, _⟩ => ⟨S64, .f32⟩
  | .hbm, ⟨69, _⟩ => ⟨S128, .f32⟩
  | .hbm, ⟨70, _⟩ => ⟨S1x128, .f32⟩
  | .hbm, ⟨71, _⟩ => ⟨S50000x64, .f32⟩
  | .hbm, ⟨72, _⟩ => ⟨S50008x128, .f32⟩
  | .hbm, ⟨73, _⟩ => ⟨S819200x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S1x64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S1x128x64, .f32⟩
  | .hbm, ⟨90, _⟩ => ⟨S128x64, .f32⟩
  | .hbm, ⟨91, _⟩ => ⟨S1x64, .f32⟩
  | .hbm, ⟨92, _⟩ => ⟨S64, .f32⟩
  | .hbm, ⟨93, _⟩ => ⟨S64x64, .f32⟩
  | .hbm, ⟨94, _⟩ => ⟨S64x64, .f32⟩
  | .hbm, ⟨95, _⟩ => ⟨S64x128, .f32⟩
  | .hbm, ⟨96, _⟩ => ⟨S_, .f32⟩
  | .hbm, ⟨97, _⟩ => ⟨S64, .f32⟩
  | .hbm, ⟨98, _⟩ => ⟨S128, .f32⟩
  | .hbm, ⟨99, _⟩ => ⟨S1x128, .f32⟩
  | .hbm, ⟨100, _⟩ => ⟨S50000x64, .f32⟩
  | .hbm, ⟨101, _⟩ => ⟨S50008x128, .f32⟩
  | .hbm, ⟨102, _⟩ => ⟨S819200x64, .f32⟩
  | .hbm, ⟨103, _⟩ => ⟨S800000x64, .f32⟩
  | .hbm, ⟨104, _⟩ => ⟨S_, .f32⟩
  | .hbm, ⟨105, _⟩ => ⟨S50000x64, .f32⟩
  | .hbm, ⟨106, _⟩ => ⟨S800000x1, .i32⟩
  | .hbm, ⟨107, _⟩ => ⟨S50000x64, .f32⟩
  | .hbm, ⟨108, _⟩ => ⟨S1x64x64, .f32⟩
  | .hbm, ⟨109, _⟩ => ⟨S64x64, .f32⟩
  | .hbm, ⟨110, _⟩ => ⟨S1x64, .f32⟩
  | .hbm, ⟨111, _⟩ => ⟨S64, .f32⟩
  | .hbm, ⟨112, _⟩ => ⟨S1x64, .f32⟩
  | .hbm, ⟨113, _⟩ => ⟨S1x64x64, .f32⟩
  | .hbm, ⟨114, _⟩ => ⟨S64x64, .f32⟩
  | .hbm, ⟨115, _⟩ => ⟨S1x64, .f32⟩
  | .hbm, ⟨116, _⟩ => ⟨S64, .f32⟩
  | .hbm, ⟨117, _⟩ => ⟨S1x64, .f32⟩
  | .hbm, ⟨118, _⟩ => ⟨S1x64, .f32⟩
  | .hbm, ⟨119, _⟩ => ⟨S1x1, .f32⟩
  | .hbm, ⟨120, _⟩ => ⟨S1x1, .f32⟩
  | .local .tc .vmem, ⟨0, _⟩ => ⟨S2000x1, .i32⟩
  | .local .tc .vmem, ⟨1, _⟩ => ⟨S2000x1, .i32⟩
  | .local .tc .vmem, ⟨2, _⟩ => ⟨S120x64, .f32⟩
  | .local .tc .vmem, ⟨3, _⟩ => ⟨S64x128, .f32⟩
  | .local .tc .vmem, ⟨4, _⟩ => ⟨S1x128, .f32⟩
  | .local .tc .vmem, ⟨5, _⟩ => ⟨S2000x64, .f32⟩
  | .local .tc .vmem, ⟨6, _⟩ => ⟨S2000x64, .f32⟩
  | .local .tc .vmem, ⟨7, _⟩ => ⟨S2000x128, .f32⟩
  | .local .tc .vmem, ⟨8, _⟩ => ⟨S2000x128, .f32⟩
  | .local .tc .vmem, ⟨9, _⟩ => ⟨S2000x64, .f32⟩
  | .local .tc .vmem, ⟨10, _⟩ => ⟨S2000x64, .f32⟩
  | .local .tc .vmem, ⟨11, _⟩ => ⟨S2000x64, .f32⟩
  | .local .tc .vmem, ⟨12, _⟩ => ⟨S2000x64, .f32⟩
  | .local .tc .vmem, ⟨13, _⟩ => ⟨S2000x1, .f32⟩
  | .local .tc .vmem, ⟨14, _⟩ => ⟨S2000x1, .f32⟩
  | .local .tc .vmem, ⟨15, _⟩ => ⟨S64x64, .f32⟩
  | .local .tc .vmem, ⟨16, _⟩ => ⟨S1x64, .f32⟩
  | .local .tc .vmem, ⟨17, _⟩ => ⟨S64x64, .f32⟩
  | .local .tc .vmem, ⟨18, _⟩ => ⟨S1x64, .f32⟩
  | .local .tc .vmem, ⟨19, _⟩ => ⟨S64x128, .f32⟩
  | .local .tc .vmem, ⟨20, _⟩ => ⟨S1x128, .f32⟩
  | .local .tc .vmem, ⟨21, _⟩ => ⟨S2000x64, .f32⟩
  | .local .tc .vmem, ⟨22, _⟩ => ⟨S2000x64, .f32⟩
  | .local .tc .vmem, ⟨23, _⟩ => ⟨S2000x128, .f32⟩
  | .local .tc .vmem, ⟨24, _⟩ => ⟨S2000x128, .f32⟩
  | .local .tc .vmem, ⟨25, _⟩ => ⟨S2000x64, .f32⟩
  | .local .tc .vmem, ⟨26, _⟩ => ⟨S2000x64, .f32⟩
  | .local .tc .vmem, ⟨27, _⟩ => ⟨S2000x64, .f32⟩
  | .local .tc .vmem, ⟨28, _⟩ => ⟨S2000x64, .f32⟩
  | .local .tc .vmem, ⟨29, _⟩ => ⟨S2000x1, .f32⟩
  | .local .tc .vmem, ⟨30, _⟩ => ⟨S2000x1, .f32⟩
  | .local .tc .vmem, ⟨31, _⟩ => ⟨S64x64, .f32⟩
  | .local .tc .vmem, ⟨32, _⟩ => ⟨S1x64, .f32⟩
  | .local .tc .vmem, ⟨33, _⟩ => ⟨S64x64, .f32⟩
  | .local .tc .vmem, ⟨34, _⟩ => ⟨S1x64, .f32⟩
  | .local .tc .vmem, ⟨35, _⟩ => ⟨S64x128, .f32⟩
  | .local .tc .vmem, ⟨36, _⟩ => ⟨S1x128, .f32⟩
  | .local .tc .vmem, ⟨37, _⟩ => ⟨S2000x64, .f32⟩
  | .local .tc .vmem, ⟨38, _⟩ => ⟨S2000x64, .f32⟩
  | .local .tc .vmem, ⟨39, _⟩ => ⟨S2000x128, .f32⟩
  | .local .tc .vmem, ⟨40, _⟩ => ⟨S2000x128, .f32⟩
  | .local .tc .vmem, ⟨41, _⟩ => ⟨S2000x64, .f32⟩
  | .local .tc .vmem, ⟨42, _⟩ => ⟨S2000x64, .f32⟩
  | .local .tc .vmem, ⟨43, _⟩ => ⟨S2000x64, .f32⟩
  | .local .tc .vmem, ⟨44, _⟩ => ⟨S2000x64, .f32⟩
  | .local .tc .vmem, ⟨45, _⟩ => ⟨S2000x1, .f32⟩
  | .local .tc .vmem, ⟨46, _⟩ => ⟨S2000x1, .f32⟩
  | .local .tc .vmem, ⟨47, _⟩ => ⟨S64x64, .f32⟩
  | .local .tc .vmem, ⟨48, _⟩ => ⟨S1x64, .f32⟩
  | .local .tc .vmem, ⟨49, _⟩ => ⟨S64x64, .f32⟩
  | .local .tc .vmem, ⟨50, _⟩ => ⟨S1x64, .f32⟩
  | .local .tc .vmem, ⟨51, _⟩ => ⟨S64x64, .f32⟩
  | .local .tc .vmem, ⟨52, _⟩ => ⟨S1x64, .f32⟩
  | .local .tc .vmem, ⟨53, _⟩ => ⟨S64x1, .f32⟩
  | .local .tc .vmem, ⟨54, _⟩ => ⟨S1x1, .f32⟩
  | .local .tc .vmem, ⟨55, _⟩ => ⟨S1x1, .f32⟩
  | .local .tc .vmem, ⟨56, _⟩ => ⟨S1x64, .f32⟩
  | .local .scVector .vmem, ⟨0, _⟩ => ⟨S64, .i32⟩
  | .local .scVector .vmem, ⟨1, _⟩ => ⟨S64, .i32⟩
  | .local .scVector .vmem, ⟨2, _⟩ => ⟨S64x128, .f32⟩
  | .local .scVector .vmem, ⟨3, _⟩ => ⟨S64x128, .f32⟩
  | .local .scVector .vmem, ⟨4, _⟩ => ⟨S64x64, .f32⟩
  | .local .scVector .vmem, ⟨5, _⟩ => ⟨S64, .i32⟩
  | .local .scVector .vmem, ⟨6, _⟩ => ⟨S64, .i32⟩
  | .local .scVector .vmem, ⟨7, _⟩ => ⟨S64x128, .f32⟩
  | .local .scVector .vmem, ⟨8, _⟩ => ⟨S64x128, .f32⟩
  | .local .scVector .vmem, ⟨9, _⟩ => ⟨S64x64, .f32⟩
  | .local .scVector .vmem, ⟨10, _⟩ => ⟨S64, .i32⟩
  | .local .scVector .vmem, ⟨11, _⟩ => ⟨S64, .i32⟩
  | .local .scVector .vmem, ⟨12, _⟩ => ⟨S64x128, .f32⟩
  | .local .scVector .vmem, ⟨13, _⟩ => ⟨S64x128, .f32⟩
  | .local .scVector .vmem, ⟨14, _⟩ => ⟨S64x64, .f32⟩
  | _, _ => ⟨S50000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => false
  | ⟨31, _⟩ => false
  | ⟨32, _⟩ => false
  | ⟨33, _⟩ => false
  | ⟨34, _⟩ => false
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTables nBuf rfl bufTy 4 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50_0 : Ref sig .tc := ⟨.hbm, 71, rfl⟩
abbrev main_v50_1 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_6 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76_0 : Ref sig .tc := ⟨.hbm, 100, rfl⟩
abbrev main_v76_1 : Ref sig .tc := ⟨.hbm, 101, rfl⟩
abbrev main_v77 : Ref sig .tc := ⟨.hbm, 102, rfl⟩
abbrev main_v78 : Ref sig .tc := ⟨.hbm, 103, rfl⟩
abbrev main_cst_7 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v24_1_scv : Ref sig .scVector := ⟨.hbm, 43, rfl⟩
abbrev main_v6_scv : Ref sig .scVector := ⟨.hbm, 20, rfl⟩
abbrev main_v8_scv : Ref sig .scVector := ⟨.hbm, 23, rfl⟩
abbrev main_v25_scv : Ref sig .scVector := ⟨.hbm, 44, rfl⟩
abbrev main_v50_1_scv : Ref sig .scVector := ⟨.hbm, 72, rfl⟩
abbrev main_v51_scv : Ref sig .scVector := ⟨.hbm, 73, rfl⟩
abbrev main_v76_1_scv : Ref sig .scVector := ⟨.hbm, 101, rfl⟩
abbrev main_v77_scv : Ref sig .scVector := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc2_stg10_0 : Ref sig .tc := ⟨.vmem, 23, rfl⟩
abbrev cc2_stg10_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg9_1 : Ref sig .tc := ⟨.vmem, 38, rfl⟩
abbrev cc4_stg10_0 : Ref sig .tc := ⟨.vmem, 39, rfl⟩
abbrev cc4_stg10_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg7_0 : Ref sig .tc := ⟨.vmem, 51, rfl⟩
abbrev cc6_stg8_0 : Ref sig .tc := ⟨.vmem, 52, rfl⟩
abbrev cc6_stg9_0 : Ref sig .tc := ⟨.vmem, 53, rfl⟩
abbrev cc6_stg10_0 : Ref sig .tc := ⟨.vmem, 54, rfl⟩
abbrev cc6_stg11_0 : Ref sig .tc := ⟨.vmem, 55, rfl⟩
abbrev cc6_scratch0 : Ref sig .tc := ⟨.vmem, 56, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc3_scratch0 : Ref sig .scVector := ⟨.vmem, 5, rfl⟩
abbrev cc3_scratch1 : Ref sig .scVector := ⟨.vmem, 6, rfl⟩
abbrev cc3_scratch2 : Ref sig .scVector := ⟨.vmem, 7, rfl⟩
abbrev cc3_scratch3 : Ref sig .scVector := ⟨.vmem, 8, rfl⟩
abbrev cc3_scratch4 : Ref sig .scVector := ⟨.vmem, 9, rfl⟩
abbrev cc5_scratch0 : Ref sig .scVector := ⟨.vmem, 10, rfl⟩
abbrev cc5_scratch1 : Ref sig .scVector := ⟨.vmem, 11, rfl⟩
abbrev cc5_scratch2 : Ref sig .scVector := ⟨.vmem, 12, rfl⟩
abbrev cc5_scratch3 : Ref sig .scVector := ⟨.vmem, 13, rfl⟩
abbrev cc5_scratch4 : Ref sig .scVector := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc2_sem10_0 : DmaSem sig := 28
abbrev cc2_sem10_1 : DmaSem sig := 29
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem9_1 : DmaSem sig := 48
abbrev cc4_sem10_0 : DmaSem sig := 49
abbrev cc4_sem10_1 : DmaSem sig := 50
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem8_0 : DmaSem sig := 67
abbrev cc6_sem9_0 : DmaSem sig := 68
abbrev cc6_sem10_0 : DmaSem sig := 69
abbrev cc6_sem11_0 : DmaSem sig := 70
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

@[reducible] def k1_t1_loop : Scf.Loop 32 :=
  let c0_i32 : BitVec 32 := 0#32
  let c400_i32 : BitVec 32 := 400#32
  let v4 : BitVec 32 := Scalar.addi c0_i32 c400_i32
  let c1_i32 : BitVec 32 := 1#32
  ⟨c0_i32, v4, c1_i32⟩
def k1_off1 (i : grid1.Coords) (k1_t1 : Fin k1_t1_loop.trips) : Fin 1 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k1_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  ![v8.toNat]
@[reducible] def k1_t2_loop : Scf.Loop 32 :=
  let c0_i32_11 : BitVec 32 := 0#32
  let c64_i32_12 : BitVec 32 := 64#32
  let v13 : BitVec 32 := Scalar.addi c0_i32_11 c64_i32_12
  let c1_i32_13 : BitVec 32 := 1#32
  ⟨c0_i32_11, v13, c1_i32_13⟩
def k1_off2 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v16 : Index := Scalar.indexCast v15
  let c0 : Index := 0#32
  ![v16.toNat, 0]
def k1_off3 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v19 : Index := Scalar.indexCast v15
  let c64 : Index := 64#32
  ![v19.toNat, 64]
def k1_off4 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v24 : Index := Scalar.indexCast v15
  let c0_17 : Index := 0#32
  ![v24.toNat, 0]
def k1_off5 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v28 : Index := Scalar.indexCast v15
  let c16 : Index := 16#32
  ![v28.toNat, 16]
def k1_off6 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v31 : Index := Scalar.indexCast v15
  let c80 : Index := 80#32
  ![v31.toNat, 80]
def k1_off7 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v36 : Index := Scalar.indexCast v15
  let c16_18 : Index := 16#32
  ![v36.toNat, 16]
def k1_off8 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v40 : Index := Scalar.indexCast v15
  let c32 : Index := 32#32
  ![v40.toNat, 32]
def k1_off9 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v43 : Index := Scalar.indexCast v15
  let c96 : Index := 96#32
  ![v43.toNat, 96]
def k1_off10 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v48 : Index := Scalar.indexCast v15
  let c32_19 : Index := 32#32
  ![v48.toNat, 32]
def k1_off11 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v52 : Index := Scalar.indexCast v15
  let c48 : Index := 48#32
  ![v52.toNat, 48]
def k1_off12 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v55 : Index := Scalar.indexCast v15
  let c112 : Index := 112#32
  ![v55.toNat, 112]
def k1_off13 (k1_t2 : Fin k1_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k1_t2
  let c1_i32_15 : BitVec 32 := 1#32
  let v14 : BitVec 32 := Scalar.muli arg14 c1_i32_15
  let v15 : BitVec 32 := Scalar.addi c0_i32_16 v14
  let v60 : Index := Scalar.indexCast v15
  let c48_20 : Index := 48#32
  ![v60.toNat, 48]
def k1_off14 (i : grid1.Coords) (k1_t1 : Fin k1_t1_loop.trips) : Fin 2 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k1_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  let c0_i32_15_r2 : BitVec 32 := 0#32
  ![v8.toNat, 0]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨2, ![2, 16], ![false, false]⟩

@[reducible] def k3_t1_loop : Scf.Loop 32 :=
  let c0_i32 : BitVec 32 := 0#32
  let c400_i32 : BitVec 32 := 400#32
  let v4 : BitVec 32 := Scalar.addi c0_i32 c400_i32
  let c1_i32 : BitVec 32 := 1#32
  ⟨c0_i32, v4, c1_i32⟩
def k3_off1 (i : grid3.Coords) (k3_t1 : Fin k3_t1_loop.trips) : Fin 1 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k3_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  ![v8.toNat]
@[reducible] def k3_t2_loop : Scf.Loop 32 :=
  let c0_i32_11 : BitVec 32 := 0#32
  let c64_i32_12 : BitVec 32 := 64#32
  let v13 : BitVec 32 := Scalar.addi c0_i32_11 c64_i32_12
  let c1_i32_13 : BitVec 32 := 1#32
  ⟨c0_i32_11, v13, c1_i32_13⟩
def k3_off2 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v16 : Index := Scalar.indexCast v15
  let c0 : Index := 0#32
  ![v16.toNat, 0]
def k3_off3 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v19 : Index := Scalar.indexCast v15
  let c64 : Index := 64#32
  ![v19.toNat, 64]
def k3_off4 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v24 : Index := Scalar.indexCast v15
  let c0_17 : Index := 0#32
  ![v24.toNat, 0]
def k3_off5 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v28 : Index := Scalar.indexCast v15
  let c16 : Index := 16#32
  ![v28.toNat, 16]
def k3_off6 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v31 : Index := Scalar.indexCast v15
  let c80 : Index := 80#32
  ![v31.toNat, 80]
def k3_off7 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v36 : Index := Scalar.indexCast v15
  let c16_18 : Index := 16#32
  ![v36.toNat, 16]
def k3_off8 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v40 : Index := Scalar.indexCast v15
  let c32 : Index := 32#32
  ![v40.toNat, 32]
def k3_off9 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v43 : Index := Scalar.indexCast v15
  let c96 : Index := 96#32
  ![v43.toNat, 96]
def k3_off10 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v48 : Index := Scalar.indexCast v15
  let c32_19 : Index := 32#32
  ![v48.toNat, 32]
def k3_off11 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v52 : Index := Scalar.indexCast v15
  let c48 : Index := 48#32
  ![v52.toNat, 48]
def k3_off12 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v55 : Index := Scalar.indexCast v15
  let c112 : Index := 112#32
  ![v55.toNat, 112]
def k3_off13 (k3_t2 : Fin k3_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k3_t2
  let c1_i32_15 : BitVec 32 := 1#32
  let v14 : BitVec 32 := Scalar.muli arg14 c1_i32_15
  let v15 : BitVec 32 := Scalar.addi c0_i32_16 v14
  let v60 : Index := Scalar.indexCast v15
  let c48_20 : Index := 48#32
  ![v60.toNat, 48]
def k3_off14 (i : grid3.Coords) (k3_t1 : Fin k3_t1_loop.trips) : Fin 2 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k3_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  let c0_i32_15_r2 : BitVec 32 := 0#32
  ![v8.toNat, 0]
abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨2, ![2, 16], ![false, false]⟩

@[reducible] def k5_t1_loop : Scf.Loop 32 :=
  let c0_i32 : BitVec 32 := 0#32
  let c400_i32 : BitVec 32 := 400#32
  let v4 : BitVec 32 := Scalar.addi c0_i32 c400_i32
  let c1_i32 : BitVec 32 := 1#32
  ⟨c0_i32, v4, c1_i32⟩
def k5_off1 (i : grid5.Coords) (k5_t1 : Fin k5_t1_loop.trips) : Fin 1 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k5_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  ![v8.toNat]
@[reducible] def k5_t2_loop : Scf.Loop 32 :=
  let c0_i32_11 : BitVec 32 := 0#32
  let c64_i32_12 : BitVec 32 := 64#32
  let v13 : BitVec 32 := Scalar.addi c0_i32_11 c64_i32_12
  let c1_i32_13 : BitVec 32 := 1#32
  ⟨c0_i32_11, v13, c1_i32_13⟩
def k5_off2 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v16 : Index := Scalar.indexCast v15
  let c0 : Index := 0#32
  ![v16.toNat, 0]
def k5_off3 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v19 : Index := Scalar.indexCast v15
  let c64 : Index := 64#32
  ![v19.toNat, 64]
def k5_off4 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v24 : Index := Scalar.indexCast v15
  let c0_17 : Index := 0#32
  ![v24.toNat, 0]
def k5_off5 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v28 : Index := Scalar.indexCast v15
  let c16 : Index := 16#32
  ![v28.toNat, 16]
def k5_off6 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v31 : Index := Scalar.indexCast v15
  let c80 : Index := 80#32
  ![v31.toNat, 80]
def k5_off7 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v36 : Index := Scalar.indexCast v15
  let c16_18 : Index := 16#32
  ![v36.toNat, 16]
def k5_off8 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v40 : Index := Scalar.indexCast v15
  let c32 : Index := 32#32
  ![v40.toNat, 32]
def k5_off9 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v43 : Index := Scalar.indexCast v15
  let c96 : Index := 96#32
  ![v43.toNat, 96]
def k5_off10 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v48 : Index := Scalar.indexCast v15
  let c32_19 : Index := 32#32
  ![v48.toNat, 32]
def k5_off11 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v52 : Index := Scalar.indexCast v15
  let c48 : Index := 48#32
  ![v52.toNat, 48]
def k5_off12 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v55 : Index := Scalar.indexCast v15
  let c112 : Index := 112#32
  ![v55.toNat, 112]
def k5_off13 (k5_t2 : Fin k5_t2_loop.trips) : Fin 2 → Nat :=
  let c0_i32_16 : BitVec 32 := 0#32
  let c0_i32_11 : BitVec 32 := 0#32
  let c1_i32_13 : BitVec 32 := 1#32
  let arg14 : BitVec 32 := Scf.iv c0_i32_11 c1_i32_13 k5_t2
  let c1_i32_15 : BitVec 32 := 1#32
  let v14 : BitVec 32 := Scalar.muli arg14 c1_i32_15
  let v15 : BitVec 32 := Scalar.addi c0_i32_16 v14
  let v60 : Index := Scalar.indexCast v15
  let c48_20 : Index := 48#32
  ![v60.toNat, 48]
def k5_off14 (i : grid5.Coords) (k5_t1 : Fin k5_t1_loop.trips) : Fin 2 → Nat :=
  let arg0 : BitVec 32 := BitVec.ofNat 32 (i 0).val
  let c16_i32 : BitVec 32 := 16#32
  let v1 : BitVec 32 := Scalar.muli arg0 c16_i32
  let arg1 : BitVec 32 := BitVec.ofNat 32 (i 1).val
  let v2 : BitVec 32 := Scalar.addi v1 arg1
  let c25600_i32 : BitVec 32 := 25600#32
  let v3 : BitVec 32 := Scalar.muli v2 c25600_i32
  let c0_i32_2 : BitVec 32 := 0#32
  let c0_i32 : BitVec 32 := 0#32
  let c1_i32 : BitVec 32 := 1#32
  let arg13 : BitVec 32 := Scf.iv c0_i32 c1_i32 k5_t1
  let c1_i32_1 : BitVec 32 := 1#32
  let v5 : BitVec 32 := Scalar.muli arg13 c1_i32_1
  let v6 : BitVec 32 := Scalar.addi c0_i32_2 v5
  let c64_i32 : BitVec 32 := 64#32
  let v7 : BitVec 32 := Scalar.muli v6 c64_i32
  let v8 : BitVec 32 := Scalar.addi v3 v7
  let c0_i32_15_r2 : BitVec 32 := 0#32
  ![v8.toNat, 0]
abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_21 : BitVec 32 := 0#32
  let v37 : BitVec 1 := Scalar.cmpi .ne v36 c0_i32_21
  v37

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x1 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  shapeCasts_S50000_S50000x1 : S50000.ShapeCasts S50000x1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S19200 : S_.BroadcastsInDim S19200 (![] : Fin 0 → Fin S19200.rank)
  concatenates_S800000_S19200_S819200_d0 : Shape.Concatenates [S800000, S19200] S819200 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S128x64_S64x64_0_0 : S128x64.Slices ![0, 0] S64x64
  slices_S128x64_S64x64_64_0 : S128x64.Slices ![64, 0] S64x64
  concatenates_S64x64_S64x64_S64x128_d1 : Shape.Concatenates [S64x64, S64x64] S64x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x120_d1_w32 : S2000x120.Iotas .tc 32 [1]
  broadcasts_S2000x1_S2000x120 : S2000x1.Broadcasts S2000x120
  natLt_1_32 : 1 < 32
  inb_S120x64_S120x64_0_0 : ∀ a, (![0, 0] : Fin 2 → Nat) a + S120x64.size a ≤ S120x64.size a
  h_S120x64 : 0 < S120x64.numel
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S50008x128_S50008x128_0_0 : ∀ a, (![0, 0] : Fin 2 → Nat) a + S50008x128.size a ≤ S50008x128.size a
  gathers_S50008x128_S64x128 : S50008x128.Gathers 0 S64x128
  h_S1x16 : 0 < S1x16.numel
  shapeCasts_S1x16_S16 : S1x16.ShapeCasts S16
  shapeCasts_S16_S1x16 : S16.ShapeCasts S1x16
  slices_S819200x64_S800000x64_0_0 : S819200x64.Slices ![0, 0] S800000x64
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  shapeCasts_S64_S1x64 : S64.ShapeCasts S1x64
  slices_S3x128x64_S1x128x64_1_0_0 : S3x128x64.Slices ![1, 0, 0] S1x128x64
  slices_S3x64_S1x64_1_0 : S3x64.Slices ![1, 0] S1x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  shapeCasts_S1_S1x1 : S1.ShapeCasts S1x1
  reduces_S2000x64_S64 : S2000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S50000_S800000x1_S800000_n_0_0_1_wf : ScatterDims.WF S50000 S800000x1 S800000 [] [0] [0] 1
  dot_S2000x120_S120x64_S2000x64_1_0_0_1_n_n_wf : DotDims.WF S2000x120 S120x64 S2000x64 [1] [0] [0] [1] [] []
  dot_S2000x64_S64x128_S2000x128_1_0_0_1_n_n_wf : DotDims.WF S2000x64 S64x128 S2000x128 [1] [0] [0] [1] [] []
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hcc1_scratch5 : 9 + S_.numel ≤ 71
  hcc1_scratch6 : 10 + S_.numel ≤ 71
  hcc1_scoped0 : 11 + S_.numel ≤ 71
  hcc1_scoped1 : 12 + S_.numel ≤ 71
  hcc1_scoped2 : 13 + S_.numel ≤ 71
  hcc3_scratch5 : 30 + S_.numel ≤ 71
  hcc3_scratch6 : 31 + S_.numel ≤ 71
  hcc3_scoped0 : 32 + S_.numel ≤ 71
  hcc3_scoped1 : 33 + S_.numel ≤ 71
  hcc3_scoped2 : 34 + S_.numel ≤ 71
  hcc5_scratch5 : 51 + S_.numel ≤ 71
  hcc5_scratch6 : 52 + S_.numel ≤ 71
  hcc5_scoped0 : 53 + S_.numel ≤ 71
  hcc5_scoped1 : 54 + S_.numel ≤ 71
  hcc5_scoped2 : 55 + S_.numel ≤ 71
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x64.size a ≤ S120x64.size a
  hwx0_1 : ∀ i : grid0.Coords, EltTy.bits .f32 = 32 ∨ (Rect.block (s := S120x64) S120x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2000x128.size a < S50008x128.size a
  hwx0_5 : ∀ i : grid0.Coords, EltTy.bits .f32 = 32 ∨ (Rect.unit (s := S50008x128) (fun a => cc0_transform_5 i a * S2000x128.size a) (fun a => (Pipeline.Clip.of (cc0_transform_5 i a) (S2000x128.size a) (S50008x128.size a)).extent (S2000x128.size a)) fun a => Pipeline.Clip.inb (Pipeline.Clip.ok_of (hstart0_5 i a))).WholeWords (EltTy.packing .f32)
  hwxs0_5 : ∀ i : grid0.Coords, EltTy.bits .f32 = 32 ∨ (Rect.unit (s := S2000x128) (fun _ => 0) (fun a => (Pipeline.Clip.of (cc0_transform_5 i a) (S2000x128.size a) (S50008x128.size a)).extent (S2000x128.size a)) fun a => (Nat.zero_add _).trans_le (Pipeline.Clip.extent_le (Pipeline.Clip.ok_of (hstart0_5 i a)))).WholeWords (EltTy.packing .f32)
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S64.size a ≤ S819200.size a
  k1_t2_ok : k1_t2_loop.OK
  k1_off2_inb : ∀ k1_t2 : Fin k1_t2_loop.trips, ∀ a, (k1_off2 k1_t2) a + S1x16.size a ≤ S64x128.size a
  k1_off3_inb : ∀ k1_t2 : Fin k1_t2_loop.trips, ∀ a, (k1_off3 k1_t2) a + S1x16.size a ≤ S64x128.size a
  k1_off4_inb : ∀ k1_t2 : Fin k1_t2_loop.trips, ∀ a, (k1_off4 k1_t2) a + S1x16.size a ≤ S64x64.size a
  k1_off5_inb : ∀ k1_t2 : Fin k1_t2_loop.trips, ∀ a, (k1_off5 k1_t2) a + S1x16.size a ≤ S64x128.size a
  k1_off6_inb : ∀ k1_t2 : Fin k1_t2_loop.trips, ∀ a, (k1_off6 k1_t2) a + S1x16.size a ≤ S64x128.size a
  k1_off7_inb : ∀ k1_t2 : Fin k1_t2_loop.trips, ∀ a, (k1_off7 k1_t2) a + S1x16.size a ≤ S64x64.size a
  k1_off8_inb : ∀ k1_t2 : Fin k1_t2_loop.trips, ∀ a, (k1_off8 k1_t2) a + S1x16.size a ≤ S64x128.size a
  k1_off9_inb : ∀ k1_t2 : Fin k1_t2_loop.trips, ∀ a, (k1_off9 k1_t2) a + S1x16.size a ≤ S64x128.size a
  k1_off10_inb : ∀ k1_t2 : Fin k1_t2_loop.trips, ∀ a, (k1_off10 k1_t2) a + S1x16.size a ≤ S64x64.size a
  k1_off11_inb : ∀ k1_t2 : Fin k1_t2_loop.trips, ∀ a, (k1_off11 k1_t2) a + S1x16.size a ≤ S64x128.size a
  k1_off12_inb : ∀ k1_t2 : Fin k1_t2_loop.trips, ∀ a, (k1_off12 k1_t2) a + S1x16.size a ≤ S64x128.size a
  k1_off13_inb : ∀ k1_t2 : Fin k1_t2_loop.trips, ∀ a, (k1_off13 k1_t2) a + S1x16.size a ≤ S64x64.size a
  k1_off14_inb : ∀ (i : grid1.Coords) (k1_t1 : Fin k1_t1_loop.trips), ∀ a, (k1_off14 i k1_t1) a + S64x64.size a ≤ S819200x64.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x64.size a ≤ S50000x64.size a
  hwx2_9 : ∀ i : grid2.Coords, EltTy.bits .f32 = 32 ∨ (Rect.block (s := S50000x64) S2000x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hstart2_10 : ∀ (i : grid2.Coords) a, cc2_transform_10 i a * S2000x128.size a < S50008x128.size a
  hwx2_10 : ∀ i : grid2.Coords, EltTy.bits .f32 = 32 ∨ (Rect.unit (s := S50008x128) (fun a => cc2_transform_10 i a * S2000x128.size a) (fun a => (Pipeline.Clip.of (cc2_transform_10 i a) (S2000x128.size a) (S50008x128.size a)).extent (S2000x128.size a)) fun a => Pipeline.Clip.inb (Pipeline.Clip.ok_of (hstart2_10 i a))).WholeWords (EltTy.packing .f32)
  hwxs2_10 : ∀ i : grid2.Coords, EltTy.bits .f32 = 32 ∨ (Rect.unit (s := S2000x128) (fun _ => 0) (fun a => (Pipeline.Clip.of (cc2_transform_10 i a) (S2000x128.size a) (S50008x128.size a)).extent (S2000x128.size a)) fun a => (Nat.zero_add _).trans_le (Pipeline.Clip.extent_le (Pipeline.Clip.ok_of (hstart2_10 i a)))).WholeWords (EltTy.packing .f32)
  hcore3 : grid3.bound 0 ≤ τ.nSC
  hsub3 : grid3.bound 1 ≤ τ.nSub
  k3_t1_ok : k3_t1_loop.OK
  k3_off1_inb : ∀ (i : grid3.Coords) (k3_t1 : Fin k3_t1_loop.trips), ∀ a, (k3_off1 i k3_t1) a + S64.size a ≤ S819200.size a
  k3_t2_ok : k3_t2_loop.OK
  k3_off2_inb : ∀ k3_t2 : Fin k3_t2_loop.trips, ∀ a, (k3_off2 k3_t2) a + S1x16.size a ≤ S64x128.size a
  k3_off3_inb : ∀ k3_t2 : Fin k3_t2_loop.trips, ∀ a, (k3_off3 k3_t2) a + S1x16.size a ≤ S64x128.size a
  k3_off4_inb : ∀ k3_t2 : Fin k3_t2_loop.trips, ∀ a, (k3_off4 k3_t2) a + S1x16.size a ≤ S64x64.size a
  k3_off5_inb : ∀ k3_t2 : Fin k3_t2_loop.trips, ∀ a, (k3_off5 k3_t2) a + S1x16.size a ≤ S64x128.size a
  k3_off6_inb : ∀ k3_t2 : Fin k3_t2_loop.trips, ∀ a, (k3_off6 k3_t2) a + S1x16.size a ≤ S64x128.size a
  k3_off7_inb : ∀ k3_t2 : Fin k3_t2_loop.trips, ∀ a, (k3_off7 k3_t2) a + S1x16.size a ≤ S64x64.size a
  k3_off8_inb : ∀ k3_t2 : Fin k3_t2_loop.trips, ∀ a, (k3_off8 k3_t2) a + S1x16.size a ≤ S64x128.size a
  k3_off9_inb : ∀ k3_t2 : Fin k3_t2_loop.trips, ∀ a, (k3_off9 k3_t2) a + S1x16.size a ≤ S64x128.size a
  k3_off10_inb : ∀ k3_t2 : Fin k3_t2_loop.trips, ∀ a, (k3_off10 k3_t2) a + S1x16.size a ≤ S64x64.size a
  k3_off11_inb : ∀ k3_t2 : Fin k3_t2_loop.trips, ∀ a, (k3_off11 k3_t2) a + S1x16.size a ≤ S64x128.size a
  k3_off12_inb : ∀ k3_t2 : Fin k3_t2_loop.trips, ∀ a, (k3_off12 k3_t2) a + S1x16.size a ≤ S64x128.size a
  k3_off13_inb : ∀ k3_t2 : Fin k3_t2_loop.trips, ∀ a, (k3_off13 k3_t2) a + S1x16.size a ≤ S64x64.size a
  k3_off14_inb : ∀ (i : grid3.Coords) (k3_t1 : Fin k3_t1_loop.trips), ∀ a, (k3_off14 i k3_t1) a + S64x64.size a ≤ S819200x64.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x128.size a ≤ S64x128.size a
  hwx4_7 : ∀ i : grid4.Coords, EltTy.bits .f32 = 32 ∨ (Rect.block (s := S64x128) S64x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x64.size a ≤ S50000x64.size a
  hwx4_9 : ∀ i : grid4.Coords, EltTy.bits .f32 = 32 ∨ (Rect.block (s := S50000x64) S2000x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hstart4_10 : ∀ (i : grid4.Coords) a, cc4_transform_10 i a * S2000x128.size a < S50008x128.size a
  hwx4_10 : ∀ i : grid4.Coords, EltTy.bits .f32 = 32 ∨ (Rect.unit (s := S50008x128) (fun a => cc4_transform_10 i a * S2000x128.size a) (fun a => (Pipeline.Clip.of (cc4_transform_10 i a) (S2000x128.size a) (S50008x128.size a)).extent (S2000x128.size a)) fun a => Pipeline.Clip.inb (Pipeline.Clip.ok_of (hstart4_10 i a))).WholeWords (EltTy.packing .f32)
  hwxs4_10 : ∀ i : grid4.Coords, EltTy.bits .f32 = 32 ∨ (Rect.unit (s := S2000x128) (fun _ => 0) (fun a => (Pipeline.Clip.of (cc4_transform_10 i a) (S2000x128.size a) (S50008x128.size a)).extent (S2000x128.size a)) fun a => (Nat.zero_add _).trans_le (Pipeline.Clip.extent_le (Pipeline.Clip.ok_of (hstart4_10 i a)))).WholeWords (EltTy.packing .f32)
  hcore5 : grid5.bound 0 ≤ τ.nSC
  hsub5 : grid5.bound 1 ≤ τ.nSub
  k5_t1_ok : k5_t1_loop.OK
  k5_off1_inb : ∀ (i : grid5.Coords) (k5_t1 : Fin k5_t1_loop.trips), ∀ a, (k5_off1 i k5_t1) a + S64.size a ≤ S819200.size a
  k5_t2_ok : k5_t2_loop.OK
  k5_off2_inb : ∀ k5_t2 : Fin k5_t2_loop.trips, ∀ a, (k5_off2 k5_t2) a + S1x16.size a ≤ S64x128.size a
  k5_off3_inb : ∀ k5_t2 : Fin k5_t2_loop.trips, ∀ a, (k5_off3 k5_t2) a + S1x16.size a ≤ S64x128.size a
  k5_off4_inb : ∀ k5_t2 : Fin k5_t2_loop.trips, ∀ a, (k5_off4 k5_t2) a + S1x16.size a ≤ S64x64.size a
  k5_off5_inb : ∀ k5_t2 : Fin k5_t2_loop.trips, ∀ a, (k5_off5 k5_t2) a + S1x16.size a ≤ S64x128.size a
  k5_off6_inb : ∀ k5_t2 : Fin k5_t2_loop.trips, ∀ a, (k5_off6 k5_t2) a + S1x16.size a ≤ S64x128.size a
  k5_off7_inb : ∀ k5_t2 : Fin k5_t2_loop.trips, ∀ a, (k5_off7 k5_t2) a + S1x16.size a ≤ S64x64.size a
  k5_off8_inb : ∀ k5_t2 : Fin k5_t2_loop.trips, ∀ a, (k5_off8 k5_t2) a + S1x16.size a ≤ S64x128.size a
  k5_off9_inb : ∀ k5_t2 : Fin k5_t2_loop.trips, ∀ a, (k5_off9 k5_t2) a + S1x16.size a ≤ S64x128.size a
  k5_off10_inb : ∀ k5_t2 : Fin k5_t2_loop.trips, ∀ a, (k5_off10 k5_t2) a + S1x16.size a ≤ S64x64.size a
  k5_off11_inb : ∀ k5_t2 : Fin k5_t2_loop.trips, ∀ a, (k5_off11 k5_t2) a + S1x16.size a ≤ S64x128.size a
  k5_off12_inb : ∀ k5_t2 : Fin k5_t2_loop.trips, ∀ a, (k5_off12 k5_t2) a + S1x16.size a ≤ S64x128.size a
  k5_off13_inb : ∀ k5_t2 : Fin k5_t2_loop.trips, ∀ a, (k5_off13 k5_t2) a + S1x16.size a ≤ S64x64.size a
  k5_off14_inb : ∀ (i : grid5.Coords) (k5_t1 : Fin k5_t1_loop.trips), ∀ a, (k5_off14 i k5_t1) a + S64x64.size a ≤ S819200x64.size a
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x64.size a ≤ S64x64.size a
  hwx6_7 : ∀ i : grid6.Coords, EltTy.bits .f32 = 32 ∨ (Rect.block (s := S64x64) S64x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64x1.size a ≤ S64x1.size a
  hwx6_9 : ∀ i : grid6.Coords, EltTy.bits .f32 = 32 ∨ (Rect.block (s := S64x1) S64x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x1.size a ≤ S1x1.size a
  hwx6_11 : ∀ i : grid6.Coords, EltTy.bits .f32 = 32 ∨ (Rect.block (s := S1x1) S1x1.size (cc6_transform_11 i) (hinb6_11 i)).WholeWords (EltTy.packing .f32)

variable [Facts₀]

abbrev cc1_scratch5 : DmaSems sig S_ := SemArray.consecutive 9 S_ hcc1_scratch5
abbrev cc1_scratch6 : DmaSems sig S_ := SemArray.consecutive 10 S_ hcc1_scratch6
abbrev cc1_scoped0 : DmaSems sig S_ := SemArray.consecutive 11 S_ hcc1_scoped0
abbrev cc1_scoped1 : DmaSems sig S_ := SemArray.consecutive 12 S_ hcc1_scoped1
abbrev cc1_scoped2 : DmaSems sig S_ := SemArray.consecutive 13 S_ hcc1_scoped2
abbrev cc3_scratch5 : DmaSems sig S_ := SemArray.consecutive 30 S_ hcc3_scratch5
abbrev cc3_scratch6 : DmaSems sig S_ := SemArray.consecutive 31 S_ hcc3_scratch6
abbrev cc3_scoped0 : DmaSems sig S_ := SemArray.consecutive 32 S_ hcc3_scoped0
abbrev cc3_scoped1 : DmaSems sig S_ := SemArray.consecutive 33 S_ hcc3_scoped1
abbrev cc3_scoped2 : DmaSems sig S_ := SemArray.consecutive 34 S_ hcc3_scoped2
abbrev cc5_scratch5 : DmaSems sig S_ := SemArray.consecutive 51 S_ hcc5_scratch5
abbrev cc5_scratch6 : DmaSems sig S_ := SemArray.consecutive 52 S_ hcc5_scratch6
abbrev cc5_scoped0 : DmaSems sig S_ := SemArray.consecutive 53 S_ hcc5_scoped0
abbrev cc5_scoped1 : DmaSems sig S_ := SemArray.consecutive 54 S_ hcc5_scoped1
abbrev cc5_scoped2 : DmaSems sig S_ := SemArray.consecutive 55 S_ hcc5_scoped2
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x120_S120x64_S2000x64_1_0_0_1_n_n : DotDims S2000x120 S120x64 S2000x64 where
  lhsContracting := [1]
  rhsContracting := [0]
  lhsNonContracting := [0]
  rhsNonContracting := [1]
  lhsBatch := []
  rhsBatch := []
  wf := dot_S2000x120_S120x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S120x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpecClip (Memref.whole main_v24_1) S2000x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win2_0 : Pipeline.Window sig grid2 :=
  Pipeline.Window.ofSpec (Memref.whole main_v24_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v49) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v50_0) S2000x64.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpecClip (Memref.whole main_v50_1) S2000x128.size cc2_transform_10 reads2_10 true false 2 stage2_10 sem2_10
    hrank2 hreads2_10 hstart2_10 nbuf2_10 (Memref.isWhole_whole _) hwx2_10 hwxs2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win4_0 : Pipeline.Window sig grid4 :=
  Pipeline.Window.ofSpec (Memref.whole main_v50_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S64x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v75) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v76_0) S2000x64.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpecClip (Memref.whole main_v76_1) S2000x128.size cc4_transform_10 reads4_10 true false 2 stage4_10 sem4_10
    hrank4 hreads4_10 hstart4_10 nbuf4_10 (Memref.isWhole_whole _) hwx4_10 hwxs4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win6_0 : Pipeline.Window sig grid6 :=
  Pipeline.Window.ofSpec (Memref.whole main_v76_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v83) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v91) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg9) S64x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v92) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg11) S64x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v93) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v94) S1x1.size cc6_transform_11 reads6_11 true true 1 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev idle6 : Fin 12 → grid6.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k6_cond2 i == 1#1) | ⟨_ + 12, h⟩ => absurd h (Nat.not_lt.2 (Nat.le_add_left _ _))

class Facts : Prop extends Facts₀ where

variable [Facts]
-- ==== ReferenceIdeal.lean ====
abbrev S50000 : Shape := ⟨1, ![50000]⟩
abbrev S2x800000 : Shape := ⟨2, ![2, 800000]⟩
abbrev S120x64 : Shape := ⟨2, ![120, 64]⟩
abbrev S3x128x64 : Shape := ⟨3, ![3, 128, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S50000x1 : Shape := ⟨2, ![50000, 1]⟩
abbrev S1x1 : Shape := ⟨2, ![1, 1]⟩
abbrev S50000x64 : Shape := ⟨2, ![50000, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64 : Shape := ⟨2, ![1, 64]⟩
abbrev S1x64x64 : Shape := ⟨3, ![1, 64, 64]⟩

abbrev nBuf : Space → Nat
  | .hbm => 322
  | .vmem => 0
  | .smem => 0
  | _ => 0

abbrev hbmTy0_0 (i : Nat) : BufTy := match i % 128 with
  | 0 => ⟨S50000, .i32⟩
  | 1 => ⟨S2x800000, .i32⟩
  | 2 => ⟨S120x64, .f32⟩
  | 3 => ⟨S3x128x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64x1, .f32⟩
  | 12 => ⟨S1, .f32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S1, .i32⟩
  | 22 => ⟨S_, .i32⟩
  | 23 => ⟨S50000x1, .i32⟩
  | 24 => ⟨S50000x1, .i1⟩
  | 25 => ⟨S1x1, .i32⟩
  | 26 => ⟨S50000x1, .i32⟩
  | 27 => ⟨S50000x1, .i1⟩
  | 28 => ⟨S50000x1, .i1⟩
  | 29 => ⟨S_, .i1⟩
  | 30 => ⟨S50000, .i1⟩
  | 31 => ⟨S50000x64, .f32⟩
  | 32 => ⟨S50000x64, .i1⟩
  | 33 => ⟨S_, .f32⟩
  | 34 => ⟨S50000x64, .f32⟩
  | 35 => ⟨S50000x64, .f32⟩
  | 36 => ⟨S1x800000, .i32⟩
  | 37 => ⟨S800000, .i32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S1, .i32⟩
  | 49 => ⟨S_, .i32⟩
  | 50 => ⟨S800000x1, .i32⟩
  | 51 => ⟨S800000x1, .i1⟩
  | 52 => ⟨S1x1, .i32⟩
  | 53 => ⟨S800000x1, .i32⟩
  | 54 => ⟨S800000x1, .i1⟩
  | 55 => ⟨S800000x1, .i1⟩
  | 56 => ⟨S_, .i1⟩
  | 57 => ⟨S800000, .i1⟩
  | 58 => ⟨S800000x64, .f32⟩
  | 59 => ⟨S800000x64, .i1⟩
  | 60 => ⟨S_, .f32⟩
  | 61 => ⟨S800000x64, .f32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000x64, .f32⟩
  | 82 => ⟨S800000x64, .i1⟩
  | 83 => ⟨S_, .f32⟩
  | 84 => ⟨S800000x64, .f32⟩
  | 85 => ⟨S800000x64, .f32⟩
  | 86 => ⟨S800000x128, .f32⟩
  | 87 => ⟨S1x128x64, .f32⟩
  | 88 => ⟨S128x64, .f32⟩
  | 89 => ⟨S800000x64, .f32⟩
  | 90 => ⟨S1x64, .f32⟩
  | 91 => ⟨S64, .f32⟩
  | 92 => ⟨S1x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S1x64x64, .f32⟩
  | 99 => ⟨S64x64, .f32⟩
  | 100 => ⟨S800000x64, .f32⟩
  | 101 => ⟨S1x64, .f32⟩
  | 102 => ⟨S64, .f32⟩
  | 103 => ⟨S1x64, .f32⟩
  | 104 => ⟨S800000x64, .f32⟩
  | 105 => ⟨S800000x64, .f32⟩
  | 106 => ⟨S_, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S50000x64, .f32⟩
  | 117 => ⟨S1x64x64, .f32⟩
  | 118 => ⟨S64x64, .f32⟩
  | 119 => ⟨S50000x64, .f32⟩
  | 120 => ⟨S1x64, .f32⟩
  | 121 => ⟨S64, .f32⟩
  | 122 => ⟨S1x64, .f32⟩
  | 123 => ⟨S50000x64, .f32⟩
  | 124 => ⟨S50000x64, .f32⟩
  | 125 => ⟨S50000x64, .f32⟩
  | 126 => ⟨S_, .f32⟩
  | 127 => ⟨S50000x64, .f32⟩
  | _ => ⟨S50000, .i32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S1, .i32⟩
  | 10 => ⟨S_, .i32⟩
  | 11 => ⟨S800000x1, .i32⟩
  | 12 => ⟨S800000x1, .i1⟩
  | 13 => ⟨S1x1, .i32⟩
  | 14 => ⟨S800000x1, .i32⟩
  | 15 => ⟨S800000x1, .i1⟩
  | 16 => ⟨S800000x1, .i1⟩
  | 17 => ⟨S_, .i1⟩
  | 18 => ⟨S800000, .i1⟩
  | 19 => ⟨S800000x64, .f32⟩
  | 20 => ⟨S800000x64, .i1⟩
  | 21 => ⟨S_, .f32⟩
  | 22 => ⟨S800000x64, .f32⟩
  | 23 => ⟨S800000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x64, .f32⟩
  | 43 => ⟨S800000x64, .i1⟩
  | 44 => ⟨S_, .f32⟩
  | 45 => ⟨S800000x64, .f32⟩
  | 46 => ⟨S800000x64, .f32⟩
  | 47 => ⟨S800000x128, .f32⟩
  | 48 => ⟨S1x128x64, .f32⟩
  | 49 => ⟨S128x64, .f32⟩
  | 50 => ⟨S800000x64, .f32⟩
  | 51 => ⟨S1x64, .f32⟩
  | 52 => ⟨S64, .f32⟩
  | 53 => ⟨S1x64, .f32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S1x64x64, .f32⟩
  | 60 => ⟨S64x64, .f32⟩
  | 61 => ⟨S800000x64, .f32⟩
  | 62 => ⟨S1x64, .f32⟩
  | 63 => ⟨S64, .f32⟩
  | 64 => ⟨S1x64, .f32⟩
  | 65 => ⟨S800000x64, .f32⟩
  | 66 => ⟨S800000x64, .f32⟩
  | 67 => ⟨S_, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S50000x64, .f32⟩
  | 78 => ⟨S1x64x64, .f32⟩
  | 79 => ⟨S64x64, .f32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x64, .f32⟩
  | 109 => ⟨S800000x64, .i1⟩
  | 110 => ⟨S_, .f32⟩
  | 111 => ⟨S800000x64, .f32⟩
  | 112 => ⟨S800000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S1, .i32⟩
  | 122 => ⟨S_, .i32⟩
  | 123 => ⟨S800000x1, .i32⟩
  | 124 => ⟨S800000x1, .i1⟩
  | 125 => ⟨S1x1, .i32⟩
  | 126 => ⟨S800000x1, .i32⟩
  | 127 => ⟨S800000x1, .i1⟩
  | _ => ⟨S50000, .i32⟩

abbrev hbmTy0_2 (i : Nat) : BufTy := match i % 128 with
  | 0 => ⟨S800000x1, .i1⟩
  | 1 => ⟨S_, .i1⟩
  | 2 => ⟨S800000, .i1⟩
  | 3 => ⟨S800000x64, .f32⟩
  | 4 => ⟨S800000x64, .i1⟩
  | 5 => ⟨S_, .f32⟩
  | 6 => ⟨S800000x64, .f32⟩
  | 7 => ⟨S800000x64, .f32⟩
  | 8 => ⟨S800000x128, .f32⟩
  | 9 => ⟨S1x128x64, .f32⟩
  | 10 => ⟨S128x64, .f32⟩
  | 11 => ⟨S800000x64, .f32⟩
  | 12 => ⟨S1x64, .f32⟩
  | 13 => ⟨S64, .f32⟩
  | 14 => ⟨S1x64, .f32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S1x64x64, .f32⟩
  | 21 => ⟨S64x64, .f32⟩
  | 22 => ⟨S800000x64, .f32⟩
  | 23 => ⟨S1x64, .f32⟩
  | 24 => ⟨S64, .f32⟩
  | 25 => ⟨S1x64, .f32⟩
  | 26 => ⟨S800000x64, .f32⟩
  | 27 => ⟨S800000x64, .f32⟩
  | 28 => ⟨S_, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S50000x64, .f32⟩
  | 39 => ⟨S1x64x64, .f32⟩
  | 40 => ⟨S64x64, .f32⟩
  | 41 => ⟨S50000x64, .f32⟩
  | 42 => ⟨S1x64, .f32⟩
  | 43 => ⟨S64, .f32⟩
  | 44 => ⟨S1x64, .f32⟩
  | 45 => ⟨S50000x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S1x1, .f32⟩
  | 64 => ⟨S1x1, .f32⟩
  | 65 => ⟨S1x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_call3_cst : Ref sig .tc := ⟨.hbm, 95, rfl⟩
abbrev main_call3_v0 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst : Ref sig .tc := ⟨.hbm, 106, rfl⟩
abbrev main_v25 : Ref sig .tc := ⟨.hbm, 107, rfl⟩
abbrev main_c : Ref sig .tc := ⟨.hbm, 108, rfl⟩
abbrev main_v26 : Ref sig .tc := ⟨.hbm, 109, rfl⟩
abbrev main_v27 : Ref sig .tc := ⟨.hbm, 110, rfl⟩
abbrev main_c_0 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_call4_cst : Ref sig .tc := ⟨.hbm, 126, rfl⟩
abbrev main_call4_v0 : Ref sig .tc := ⟨.hbm, 127, rfl⟩
abbrev main_v42 : Ref sig .tc := ⟨.hbm, 128, rfl⟩
abbrev main_call5_c : Ref sig .tc := ⟨.hbm, 129, rfl⟩
abbrev main_call5_v0 : Ref sig .tc := ⟨.hbm, 130, rfl⟩
abbrev main_call5_v1 : Ref sig .tc := ⟨.hbm, 131, rfl⟩
abbrev main_call5_c_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_c_1 : Ref sig .tc := ⟨.hbm, 137, rfl⟩
abbrev main_call5_c_2 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_3 : Ref sig .tc := ⟨.hbm, 145, rfl⟩
abbrev main_call5_v12 : Ref sig .tc := ⟨.hbm, 146, rfl⟩
abbrev main_call5_v13 : Ref sig .tc := ⟨.hbm, 147, rfl⟩
abbrev main_call5_v14 : Ref sig .tc := ⟨.hbm, 148, rfl⟩
abbrev main_call5_cst : Ref sig .tc := ⟨.hbm, 149, rfl⟩
abbrev main_call5_v15 : Ref sig .tc := ⟨.hbm, 150, rfl⟩
abbrev main_v43 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_c_1 : Ref sig .tc := ⟨.hbm, 160, rfl⟩
abbrev main_call6_c_2 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_c_3 : Ref sig .tc := ⟨.hbm, 168, rfl⟩
abbrev main_call6_v12 : Ref sig .tc := ⟨.hbm, 169, rfl⟩
abbrev main_call6_v13 : Ref sig .tc := ⟨.hbm, 170, rfl⟩
abbrev main_call6_v14 : Ref sig .tc := ⟨.hbm, 171, rfl⟩
abbrev main_call6_cst : Ref sig .tc := ⟨.hbm, 172, rfl⟩
abbrev main_call6_v15 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_v53 : Ref sig .tc := ⟨.hbm, 183, rfl⟩
abbrev main_call7_cst : Ref sig .tc := ⟨.hbm, 184, rfl⟩
abbrev main_call7_v0 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_v60 : Ref sig .tc := ⟨.hbm, 192, rfl⟩
abbrev main_v61 : Ref sig .tc := ⟨.hbm, 193, rfl⟩
abbrev main_v62 : Ref sig .tc := ⟨.hbm, 194, rfl⟩
abbrev main_cst_1 : Ref sig .tc := ⟨.hbm, 195, rfl⟩
abbrev main_v63 : Ref sig .tc := ⟨.hbm, 196, rfl⟩
abbrev main_c_2 : Ref sig .tc := ⟨.hbm, 197, rfl⟩
abbrev main_v64 : Ref sig .tc := ⟨.hbm, 198, rfl⟩
abbrev main_v65 : Ref sig .tc := ⟨.hbm, 199, rfl⟩
abbrev main_c_3 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_call8_cst : Ref sig .tc := ⟨.hbm, 215, rfl⟩
abbrev main_call8_v0 : Ref sig .tc := ⟨.hbm, 216, rfl⟩
abbrev main_v80 : Ref sig .tc := ⟨.hbm, 217, rfl⟩
abbrev main_call9_c : Ref sig .tc := ⟨.hbm, 218, rfl⟩
abbrev main_call9_v0 : Ref sig .tc := ⟨.hbm, 219, rfl⟩
abbrev main_call9_v1 : Ref sig .tc := ⟨.hbm, 220, rfl⟩
abbrev main_call9_c_0 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_call9_v5 : Ref sig .tc := ⟨.hbm, 225, rfl⟩
abbrev main_call9_c_1 : Ref sig .tc := ⟨.hbm, 226, rfl⟩
abbrev main_call9_c_2 : Ref sig .tc := ⟨.hbm, 227, rfl⟩
abbrev main_call9_v6 : Ref sig .tc := ⟨.hbm, 228, rfl⟩
abbrev main_call9_v7 : Ref sig .tc := ⟨.hbm, 229, rfl⟩
abbrev main_call9_v8 : Ref sig .tc := ⟨.hbm, 230, rfl⟩
abbrev main_call9_v9 : Ref sig .tc := ⟨.hbm, 231, rfl⟩
abbrev main_call9_v10 : Ref sig .tc := ⟨.hbm, 232, rfl⟩
abbrev main_call9_v11 : Ref sig .tc := ⟨.hbm, 233, rfl⟩
abbrev main_call9_c_3 : Ref sig .tc := ⟨.hbm, 234, rfl⟩
abbrev main_call9_v12 : Ref sig .tc := ⟨.hbm, 235, rfl⟩
abbrev main_call9_v13 : Ref sig .tc := ⟨.hbm, 236, rfl⟩
abbrev main_call9_v14 : Ref sig .tc := ⟨.hbm, 237, rfl⟩
abbrev main_call9_cst : Ref sig .tc := ⟨.hbm, 238, rfl⟩
abbrev main_call9_v15 : Ref sig .tc := ⟨.hbm, 239, rfl⟩
abbrev main_v81 : Ref sig .tc := ⟨.hbm, 240, rfl⟩
abbrev main_call10_c : Ref sig .tc := ⟨.hbm, 241, rfl⟩
abbrev main_call10_v0 : Ref sig .tc := ⟨.hbm, 242, rfl⟩
abbrev main_call10_v1 : Ref sig .tc := ⟨.hbm, 243, rfl⟩
abbrev main_call10_c_0 : Ref sig .tc := ⟨.hbm, 244, rfl⟩
abbrev main_call10_v2 : Ref sig .tc := ⟨.hbm, 245, rfl⟩
abbrev main_call10_v3 : Ref sig .tc := ⟨.hbm, 246, rfl⟩
abbrev main_call10_v4 : Ref sig .tc := ⟨.hbm, 247, rfl⟩
abbrev main_call10_v5 : Ref sig .tc := ⟨.hbm, 248, rfl⟩
abbrev main_call10_c_1 : Ref sig .tc := ⟨.hbm, 249, rfl⟩
abbrev main_call10_c_2 : Ref sig .tc := ⟨.hbm, 250, rfl⟩
abbrev main_call10_v6 : Ref sig .tc := ⟨.hbm, 251, rfl⟩
abbrev main_call10_v7 : Ref sig .tc := ⟨.hbm, 252, rfl⟩
abbrev main_call10_v8 : Ref sig .tc := ⟨.hbm, 253, rfl⟩
abbrev main_call10_v9 : Ref sig .tc := ⟨.hbm, 254, rfl⟩
abbrev main_call10_v10 : Ref sig .tc := ⟨.hbm, 255, rfl⟩
abbrev main_call10_v11 : Ref sig .tc := ⟨.hbm, 256, rfl⟩
abbrev main_call10_c_3 : Ref sig .tc := ⟨.hbm, 257, rfl⟩
abbrev main_call10_v12 : Ref sig .tc := ⟨.hbm, 258, rfl⟩
abbrev main_call10_v13 : Ref sig .tc := ⟨.hbm, 259, rfl⟩
abbrev main_call10_v14 : Ref sig .tc := ⟨.hbm, 260, rfl⟩
abbrev main_call10_cst : Ref sig .tc := ⟨.hbm, 261, rfl⟩
abbrev main_call10_v15 : Ref sig .tc := ⟨.hbm, 262, rfl⟩
abbrev main_v82 : Ref sig .tc := ⟨.hbm, 263, rfl⟩
abbrev main_v83 : Ref sig .tc := ⟨.hbm, 264, rfl⟩
abbrev main_v84 : Ref sig .tc := ⟨.hbm, 265, rfl⟩
abbrev main_v85 : Ref sig .tc := ⟨.hbm, 266, rfl⟩
abbrev main_v86 : Ref sig .tc := ⟨.hbm, 267, rfl⟩
abbrev main_v87 : Ref sig .tc := ⟨.hbm, 268, rfl⟩
abbrev main_v88 : Ref sig .tc := ⟨.hbm, 269, rfl⟩
abbrev main_v89 : Ref sig .tc := ⟨.hbm, 270, rfl⟩
abbrev main_v90 : Ref sig .tc := ⟨.hbm, 271, rfl⟩
abbrev main_v91 : Ref sig .tc := ⟨.hbm, 272, rfl⟩
abbrev main_call11_cst : Ref sig .tc := ⟨.hbm, 273, rfl⟩
abbrev main_call11_v0 : Ref sig .tc := ⟨.hbm, 274, rfl⟩
abbrev main_v92 : Ref sig .tc := ⟨.hbm, 275, rfl⟩
abbrev main_v93 : Ref sig .tc := ⟨.hbm, 276, rfl⟩
abbrev main_v94 : Ref sig .tc := ⟨.hbm, 277, rfl⟩
abbrev main_v95 : Ref sig .tc := ⟨.hbm, 278, rfl⟩
abbrev main_v96 : Ref sig .tc := ⟨.hbm, 279, rfl⟩
abbrev main_v97 : Ref sig .tc := ⟨.hbm, 280, rfl⟩
abbrev main_v98 : Ref sig .tc := ⟨.hbm, 281, rfl⟩
abbrev main_v99 : Ref sig .tc := ⟨.hbm, 282, rfl⟩
abbrev main_v100 : Ref sig .tc := ⟨.hbm, 283, rfl⟩
abbrev main_cst_4 : Ref sig .tc := ⟨.hbm, 284, rfl⟩
abbrev main_v101 : Ref sig .tc := ⟨.hbm, 285, rfl⟩
abbrev main_c_5 : Ref sig .tc := ⟨.hbm, 286, rfl⟩
abbrev main_v102 : Ref sig .tc := ⟨.hbm, 287, rfl⟩
abbrev main_v103 : Ref sig .tc := ⟨.hbm, 288, rfl⟩
abbrev main_c_6 : Ref sig .tc := ⟨.hbm, 289, rfl⟩
abbrev main_v104 : Ref sig .tc := ⟨.hbm, 290, rfl⟩
abbrev main_v105 : Ref sig .tc := ⟨.hbm, 291, rfl⟩
abbrev main_v106 : Ref sig .tc := ⟨.hbm, 292, rfl⟩
abbrev main_v107 : Ref sig .tc := ⟨.hbm, 293, rfl⟩
abbrev main_v108 : Ref sig .tc := ⟨.hbm, 294, rfl⟩
abbrev main_v109 : Ref sig .tc := ⟨.hbm, 295, rfl⟩
abbrev main_v110 : Ref sig .tc := ⟨.hbm, 296, rfl⟩
abbrev main_v111 : Ref sig .tc := ⟨.hbm, 297, rfl⟩
abbrev main_v112 : Ref sig .tc := ⟨.hbm, 298, rfl⟩
abbrev main_v113 : Ref sig .tc := ⟨.hbm, 299, rfl⟩
abbrev main_v114 : Ref sig .tc := ⟨.hbm, 300, rfl⟩
abbrev main_v115 : Ref sig .tc := ⟨.hbm, 301, rfl⟩
abbrev main_v116 : Ref sig .tc := ⟨.hbm, 302, rfl⟩
abbrev main_v117 : Ref sig .tc := ⟨.hbm, 303, rfl⟩
abbrev main_call12_cst : Ref sig .tc := ⟨.hbm, 304, rfl⟩
abbrev main_call12_v0 : Ref sig .tc := ⟨.hbm, 305, rfl⟩
abbrev main_v118 : Ref sig .tc := ⟨.hbm, 306, rfl⟩
abbrev main_cst_7 : Ref sig .tc := ⟨.hbm, 307, rfl⟩
abbrev main_v119 : Ref sig .tc := ⟨.hbm, 308, rfl⟩
abbrev main_v120 : Ref sig .tc := ⟨.hbm, 309, rfl⟩
abbrev main_cst_8 : Ref sig .tc := ⟨.hbm, 310, rfl⟩
abbrev main_v121 : Ref sig .tc := ⟨.hbm, 311, rfl⟩
abbrev main_v122 : Ref sig .tc := ⟨.hbm, 312, rfl⟩
abbrev main_v123 : Ref sig .tc := ⟨.hbm, 313, rfl⟩
abbrev main_v124 : Ref sig .tc := ⟨.hbm, 314, rfl⟩
abbrev main_v125 : Ref sig .tc := ⟨.hbm, 315, rfl⟩
abbrev main_call13_cst : Ref sig .tc := ⟨.hbm, 316, rfl⟩
abbrev main_call13_v0 : Ref sig .tc := ⟨.hbm, 317, rfl⟩
abbrev main_v126 : Ref sig .tc := ⟨.hbm, 318, rfl⟩
abbrev main_v127 : Ref sig .tc := ⟨.hbm, 319, rfl⟩
abbrev main_v128 : Ref sig .tc := ⟨.hbm, 320, rfl⟩
abbrev main_v129 : Ref sig .tc := ⟨.hbm, 321, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x64_0 : S50000.BroadcastsInDim S50000x64 (![0] : Fin 1 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x128_d1 : Shape.Concatenates [S800000x64, S800000x64] S800000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  slices_S3x64x64_S1x64x64_0_0_0 : S3x64x64.Slices ![0, 0, 0] S1x64x64
  shapeCasts_S1x64x64_S64x64 : S1x64x64.ShapeCasts S64x64
  bcast_S1x64_S50000x64_0_1 : S1x64.BroadcastsInDim S50000x64 (![0, 1] : Fin 2 → Fin S50000x64.rank)
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  reducesTo_S50000x64_S64_d0 : S50000x64.ReducesTo [0] S64
  bcast_S_S1x64 : S_.BroadcastsInDim S1x64 (![] : Fin 0 → Fin S1x64.rank)
  gather_S120x64_S50000x1_S50000x64_1_0_n_n_0_1_164_wf : GatherDims.WF S120x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def gather_S120x64_S50000x1_S50000x64_1_0_n_n_0_1_164 : GatherDims S120x64 S50000x1 S50000x64 where
  offsetDims := [1]
  collapsedSliceDims := [0]
  operandBatchingDims := []
  startIndicesBatchingDims := []
  startIndexMap := [0]
  indexVectorDim := 1
  sliceSizes := ![1, 64]
  wf := gather_S120x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.Preserves.lean ====
/-
  The idealized kernel is the kernel's sanctioned idealization: the ideal pass made one rewrite, naming the literal
  that rounds 1/50000 to single precision (the mean over the 50000 nodes, spelt 1.0 / 50000 in the source) as the
  rational 1/50000, which is the value the named-constant table gives it.
-/
import proofs.«215677_g32066225832048_cont_9to1_32_28_alg».proof.Defs

noncomputable section

namespace Cert.Proof

open Idealize.ShloMosaic

theorem preserves : Cert.preserves_Kernel_KernelIdeal :=
  IdealRules.named_const.statement Cert.KernelIdeal.κ "inv_50000" .f32 0x37A7C5AC#32 ((1 / 50000 : ℝ) : EReal) rfl

end Cert.Proof

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefRunOps.lean ====
import proofs.«215677_g32066225832048_cont_9to1_32_28_alg».proof.ReferenceIdeal
import proofs.«215677_g32066225832048_cont_9to1_32_28_alg».proof.Proof.LibAfterAssign
import Idealize.ShloMosaic.Lib.StableHlo.Run

/-!
# The reference as one straight line of host operations

The reference is a three-layer message-passing network over a graph of 50000 nodes and 800000 edges:
`h0 = embed[x]`; in layer `l`, the message of edge `e` is
`m_e = relu([h[src e], h[dst e]] · W1[l] + b1[l]) · W2[l] + b2[l]`, the messages are summed at their
destination node (`agg = scatter-add of m_e at dst e`), and `h' = relu(h · Ws[l] + bs[l] + agg)`; the
result is `relu(mean_n(h) · Wo1 + bo1) · Wo2 + bo2`.

This module lists @main's host operations in program order with every call of a module-local function
replaced by that function's operations over the call's own buffers (`jnp.take` wraps a negative index,
gathers, and masks a row whose index is out of range; `relu` is a maximum with a broadcast zero). The list
is cut into the pieces of the computation (the embedding lookup, the two index rows, and per layer the two
gathers, the message, the aggregation and the update; then the read-out), `ops` is their concatenation, and
`main_eq` says @main is exactly that line. Each piece comes with the list of buffers its operations write,
one per operation, in order.
-/

noncomputable section

namespace Cert.ReferenceIdeal.RefRun

open Cert.ReferenceIdeal Cert.ReferenceIdeal.Facts₀ Cert.ReferenceIdeal.Facts Idealize.ShloMosaic Idealize.ShloMosaic.TcCoe Idealize.SL.Sem
open Idealize.ShloMosaic.StableHlo Cert.Lib.AfterAssign

variable {F : FTy → Type} [FloatOps F] [Cert.ReferenceIdeal.Facts]

/-- Two lines in single-assignment form, one after the other, are one such line. -/
theorem writesAre_append {τ : Topo} {sig : RefSig} {Val : EltTy → Type} {A : List (HloOp τ sig Val)} :
    ∀ {wa : List (Ref sig .tc)} {B : List (HloOp τ sig Val)} {wb : List (Ref sig .tc)},
      WritesAre A wa → WritesAre B wb → WritesAre (A ++ B) (wa ++ wb) := by
  induction A with
  | nil =>
    intro wa B wb ha hb
    cases wa with
    | nil => exact hb
    | cons _ _ => exact False.elim ha
  | cons a A ih =>
    intro wa B wb ha hb
    cases wa with
    | nil => exact False.elim ha
    | cons w wa => exact And.intro ha.1 (ih ha.2 hb)

/-- The embedding lookup `h0 = embed[x]` (`jnp.take`): wrap a negative index by 120, gather the rows, mask a row whose index is outside `[0, 119]`. -/
abbrev T0 : List (HloOp τ sig (Elt F)) :=
  [ StableHlo.TRef.nullary main_call0.c (constantI S_ 32 0#32),
    StableHlo.TRef.unary main_call0.c main_call0.v0 (broadcastInDim S50000 ![] bcast_S_S50000),
    StableHlo.TRef.binary (StableHlo.TRef.of main_arg0 : StableHlo.TRef sig ⟨S50000, .i32⟩) main_call0.v0 main_call0.v1 (cmpi .slt),
    StableHlo.TRef.nullary main_call0.c_0 (constantI S_ 32 120#32),
    StableHlo.TRef.unary main_call0.c_0 main_call0.v2 (broadcastInDim S50000 ![] bcast_S_S50000),
    StableHlo.TRef.binary (StableHlo.TRef.of main_arg0 : StableHlo.TRef sig ⟨S50000, .i32⟩) main_call0.v2 main_call0.v3 addi,
    StableHlo.TRef.ternary main_call0.v1 main_call0.v3 (StableHlo.TRef.of main_arg0 : StableHlo.TRef sig ⟨S50000, .i32⟩) main_call0.call0.v0 select,
    StableHlo.TRef.unary main_call0.call0.v0 main_call0.v5 (broadcastInDim S50000x1 ![0] bcast_S50000_S50000x1_0),
    StableHlo.TRef.nullary main_call0.c_1 (constantI S1 32 119#32),
    StableHlo.TRef.nullary main_call0.c_2 (constantI S_ 32 0#32),
    StableHlo.TRef.unary main_call0.c_2 main_call0.v6 (broadcastInDim S50000x1 ![] bcast_S_S50000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S50000x1 ![0, 1] bcast_S1x1_S50000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S50000x1_S50000_d1 h_S_),
    StableHlo.TRef.binary (StableHlo.TRef.of main_arg2 : StableHlo.TRef sig ⟨S120x64, .f32⟩) main_call0.v5 main_call0.v13 (fun x i => Host.gather gather_S120x64_S50000x1_S50000x64_1_0_n_n_0_1_164 x i),
    StableHlo.TRef.unary main_call0.v12 main_call0.v14 (broadcastInDim S50000x64 ![0] bcast_S50000_S50000x64_0),
    StableHlo.TRef.nullary main_call0.cst (constant S_ .f32 0x7FC00000#32),
    StableHlo.TRef.unary main_call0.cst main_call0.v15 (broadcastInDim S50000x64 ![] bcast_S_S50000x64),
    StableHlo.TRef.ternary main_call0.v14 main_call0.v13 main_call0.v15 main_call0.v16 select ]

/-- The buffers `T0` writes, one per operation, in order. -/
abbrev T0_ws : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem T0_writes : WritesAre (T0 : List (HloOp τ sig (Elt F))) T0_ws :=
  ⟨rfl, rfl, rfl, rfl, rfl, rfl, rfl, rfl, rfl, rfl, rfl, rfl, rfl, rfl, rfl, rfl, rfl, rfl, rfl, rfl, rfl, rfl, rfl, trivial⟩

theorem T0_sub : (T0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem T0_fresh : (T0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The two rows of the edge list: `src = edge_index[0]`, `dst = edge_index[1]`. -/
abbrev IDX : List (HloOp τ sig (Elt F)) :=
  [ StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.unary main_arg1 main_v3 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v3 main_v4 rfl shapeCasts_S1x800000_S800000 ]

/-- The buffers `IDX` writes, one per operation, in order. -/
abbrev IDX_ws : List (Ref sig .tc) :=
  [main_v1, main_v2, main_v3, main_v4]

theorem IDX_writes : WritesAre (IDX : List (HloOp τ sig (Elt F))) IDX_ws :=
  ⟨rfl, rfl, rfl, rfl, trivial⟩

theorem IDX_sub : (IDX : List (HloOp τ sig (Elt F))).Forall fun op => op.bufs ⊆ tcRefs τ sig :=
  ⟨unary_bufs_sub .., reshape_bufs_sub .., unary_bufs_sub .., reshape_bufs_sub ..⟩

theorem IDX_fresh : (IDX : List (HloOp τ sig (Elt F))).Forall fun op => op.fresh = ∅ :=
  ⟨rfl, rfl, rfl, rfl⟩

/-- Layer 0: the rows of `h` at the edges' sources (`jnp.take` over 50000 rows). -/
abbrev TS0 : List (HloOp τ sig (Elt F)) :=
  [ StableHlo.TRef.nullary main_call1.c (constantI S_ 32 0#32),
    StableHlo.TRef.unary main_call1.c main_call1.v0 (broadcastInDim S800000 ![] bcast_S_S800000),
    StableHlo.TRef.binary (StableHlo.TRef.of main_v2 : StableHlo.TRef sig ⟨S800000, .i32⟩) main_call1.v0 main_call1.v1 (cmpi .slt),
    StableHlo.TRef.nullary main_call1.c_0 (constantI S_ 32 50000#32),
    StableHlo.TRef.unary main_call1.c_0 main_call1.v2 (broadcastInDim S800000 ![] bcast_S_S800000),
    StableHlo.TRef.binary (StableHlo.TRef.of main_v2 : StableHlo.TRef sig ⟨S800000, .i32⟩) main_call1.v2 main_call1.v3 addi,
    StableHlo.TRef.ternary main_call1.v1 main_call1.v3 (StableHlo.TRef.of main_v2 : StableHlo.TRef sig ⟨S800000, .i32⟩) main_call1.call0.v0 select,
    StableHlo.TRef.unary main_call1.call0.v0 main_call1.v5 (broadcastInDim S800000x1 ![0] bcast_S800000_S800000x1_0),
    StableHlo.TRef.nullary main_call1.c_1 (constantI S1 32 49999#32),
    StableHlo.TRef.nullary main_call1.c_2 (constantI S_ 32 0#32),
    StableHlo.TRef.unary main_call1.c_2 main_call1.v6 (broadcastInDim S800000x1 ![] bcast_S_S800000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S800000x1 ![0, 1] bcast_S1x1_S800000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S800000x1_S800000_d1 h_S_),
    StableHlo.TRef.binary (StableHlo.TRef.of main_v0 : StableHlo.TRef sig ⟨S50000x64, .f32⟩) main_call1.v5 main_call1.v13 (fun x i => Host.gather gather_S50000x64_S800000x1_S800000x64_1_0_n_n_0_1_164 x i),
    StableHlo.TRef.unary main_call1.v12 main_call1.v14 (broadcastInDim S800000x64 ![0] bcast_S800000_S800000x64_0),
    StableHlo.TRef.nullary main_call1.cst (constant S_ .f32 0x7FC00000#32),
    StableHlo.TRef.unary main_call1.cst main_call1.v15 (broadcastInDim S800000x64 ![] bcast_S_S800000x64),
    StableHlo.TRef.ternary main_call1.v14 main_call1.v13 main_call1.v15 main_call1.v16 select ]

/-- The buffers `TS0` writes, one per operation, in order. -/
abbrev TS0_ws : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

theorem TS0_writes : WritesAre (TS0 : List (HloOp τ sig (Elt F))) TS0_ws :=
  ⟨rfl, rfl, rfl, rfl, rfl, rfl, rfl, rfl, rfl, rfl, rfl, rfl, rfl, rfl, rfl, rfl, rfl, rfl, rfl, rfl, rfl, rfl, rfl, trivial⟩

theorem TS0_sub : (TS0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TS0_fresh : (TS0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 0: the rows of `h` at the edges' destinations. -/
abbrev TD0 : List (HloOp τ sig (Elt F)) :=
  [ StableHlo.TRef.nullary main_call2.c (constantI S_ 32 0#32),
    StableHlo.TRef.unary main_call2.c main_call2.v0 (broadcastInDim S800000 ![] bcast_S_S800000),
    StableHlo.TRef.binary (StableHlo.TRef.of main_v4 : StableHlo.TRef sig ⟨S800000, .i32⟩) main_call2.v0 main_call2.v1 (cmpi .slt),
    StableHlo.TRef.nullary main_call2.c_0 (constantI S_ 32 50000#32),
    StableHlo.TRef.unary main_call2.c_0 main_call2.v2 (broadcastInDim S800000 ![] bcast_S_S800000),
    StableHlo.TRef.binary (StableHlo.TRef.of main_v4 : StableHlo.TRef sig ⟨S800000, .i32⟩) main_call2.v2 main_call2.v3 addi,
    StableHlo.TRef.ternary main_call2.v1 main_call2.v3 (StableHlo.TRef.of main_v4 : StableHlo.TRef sig ⟨S800000, .i32⟩) main_call2.call0.v0 select,
    StableHlo.TRef.unary main_call2.call0.v0 main_call2.v5 (broadcastInDim S800000x1 ![0] bcast_S800000_S800000x1_0),
    StableHlo.TRef.nullary main_call2.c_1 (constantI S1 32 49999#32),
    StableHlo.TRef.nullary main_call2.c_2 (constantI S_ 32 0#32),
    StableHlo.TRef.unary main_call2.c_2 main_call2.v6 (broadcastInDim S800000x1 ![] bcast_S_S800000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S800000x1 ![0, 1] bcast_S1x1_S800000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S800000x1_S800000_d1 h_S_),
    StableHlo.TRef.binary (StableHlo.TRef.of main_v0 : StableHlo.TRef sig ⟨S50000x64, .f32⟩) main_call2.v5 main_call2.v13 (fun x i => Host.gather gather_S50000x64_S800000x1_S800000x64_1_0_n_n_0_1_164 x i),
    StableHlo.TRef.unary main_call2.v12 main_call2.v14 (broadcastInDim S800000x64 ![0] bcast_S800000_S800000x64_0),
    StableHlo.TRef.nullary main_call2.cst (constant S_ .f32 0x7FC00000#32),
    StableHlo.TRef.unary main_call2.cst main_call2.v15 (broadcastInDim S800000x64 ![] bcast_S_S800000x64),
    StableHlo.TRef.ternary main_call2.v14 main_call2.v13 main_call2.v15 main_call2.v16 select ]

/-- The buffers `TD0` writes, one per operation, in order. -/
abbrev TD0_ws : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]

theorem TD0_writes : WritesAre (TD0 : List (HloOp τ sig (Elt F))) TD0_ws :=
  ⟨rfl, rfl, rfl, rfl, rfl, rfl, rfl, rfl, rfl, rfl, rfl, rfl, rfl, rfl, rfl, rfl, rfl, rfl, rfl, rfl, rfl, rfl, rfl, trivial⟩

theorem TD0_sub : (TD0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TD0_fresh : (TD0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 0: the messages `relu([h_src, h_dst] · W1[0] + b1[0]) · W2[0] + b2[0]`. -/
abbrev MSG0 : List (HloOp τ sig (Elt F)) :=
  [ StableHlo.binary main_v5 main_v6 main_v7 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg3 main_v8 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v8 main_v9 rfl shapeCasts_S1x128x64_S128x64,
    StableHlo.binary main_v7 main_v9 main_v10 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg4 main_v11 ((extractStridedSlice S1x64 ![0, 0] · slices_S3x64_S1x64_0_0) : (⟨S3x64, .f32⟩ : BufTy).Contents (Elt F) → (⟨S1x64, .f32⟩ : BufTy).Contents (Elt F)),
    StableHlo.reshape main_v11 main_v12 rfl shapeCasts_S1x64_S64,
    StableHlo.unary main_v12 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S800000x64 ![0, 1] bcast_S1x64_S800000x64_0_1 : (⟨S1x64, .f32⟩ : BufTy).Contents (Elt F) → (⟨S800000x64, .f32⟩ : BufTy).Contents (Elt F)),
    StableHlo.binary main_v10 main_v14 main_v15 (addf : (⟨S800000x64, .f32⟩ : BufTy).Contents (Elt F) → (⟨S800000x64, .f32⟩ : BufTy).Contents (Elt F) → (⟨S800000x64, .f32⟩ : BufTy).Contents (Elt F)),
    StableHlo.TRef.nullary main_call3.cst (constant S_ .f32 0x00000000#32),
    StableHlo.TRef.unary main_call3.cst main_call3.v0 (broadcastInDim S800000x64 ![] bcast_S_S800000x64),
    StableHlo.TRef.binary (StableHlo.TRef.of main_v15 : StableHlo.TRef sig ⟨S800000x64, .f32⟩) main_call3.v0 main_call3.v1 maximumf,
    StableHlo.unary main_arg5 main_v17 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v17 main_v18 rfl shapeCasts_S1x64x64_S64x64,
    StableHlo.binary main_v16 main_v18 main_v19 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg6 main_v20 ((extractStridedSlice S1x64 ![0, 0] · slices_S3x64_S1x64_0_0) : (⟨S3x64, .f32⟩ : BufTy).Contents (Elt F) → (⟨S1x64, .f32⟩ : BufTy).Contents (Elt F)),
    StableHlo.reshape main_v20 main_v21 rfl shapeCasts_S1x64_S64,
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S800000x64 ![0, 1] bcast_S1x64_S800000x64_0_1 : (⟨S1x64, .f32⟩ : BufTy).Contents (Elt F) → (⟨S800000x64, .f32⟩ : BufTy).Contents (Elt F)),
    StableHlo.binary main_v19 main_v23 main_v24 (addf : (⟨S800000x64, .f32⟩ : BufTy).Contents (Elt F) → (⟨S800000x64, .f32⟩ : BufTy).Contents (Elt F) → (⟨S800000x64, .f32⟩ : BufTy).Contents (Elt F)) ]

/-- The buffers `MSG0` writes, one per operation, in order. -/
abbrev MSG0_ws : List (Ref sig .tc) :=
  [main_v7, main_v8, main_v9, main_v10, main_v11, main_v12, main_v13, main_v14, main_v15, main_call3_cst, main_call3_v0, main_v16, main_v17, main_v18, main_v19, main_v20, main_v21, main_v22, main_v23, main_v24]

theorem MSG0_writes : WritesAre (MSG0 : List (HloOp τ sig (Elt F))) MSG0_ws :=
  ⟨rfl, rfl, rfl, rfl, rfl, rfl, rfl, rfl, rfl, rfl, rfl, rfl, rfl, rfl, rfl, rfl, rfl, rfl, rfl, rfl, trivial⟩

theorem MSG0_sub : (MSG0 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem MSG0_fresh : (MSG0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Layer 0: the messages summed at their destination node (a scatter-add into zeros, a negative index wrapped by 50000). -/
abbrev AGG0 : List (HloOp τ sig (Elt F)) :=
  [ StableHlo.nullary main_cst (constant S_ .f32 0x00000000#32),
    StableHlo.unary main_cst main_v25 (broadcastInDim S50000x64 ![] bcast_S_S50000x64 : (⟨S_, .f32⟩ : BufTy).Contents (Elt F) → (⟨S50000x64, .f32⟩ : BufTy).Contents (Elt F)),
    StableHlo.nullary main_c (constantI S_ 32 0#32),
    StableHlo.unary main_c main_v26 (broadcastInDim S800000 ![] bcast_S_S800000 : (⟨S_, .i32⟩ : BufTy).Contents (Elt F) → (⟨S800000, .i32⟩ : BufTy).Contents (Elt F)),
    StableHlo.binary main_v4 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v28 (broadcastInDim S800000 ![] bcast_S_S800000 : (⟨S_, .i32⟩ : BufTy).Contents (Elt F) → (⟨S800000, .i32⟩ : BufTy).Contents (Elt F)),
    StableHlo.binary main_v4 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v4 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.ternary main_v25 main_v31 main_v24 main_v32 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers `AGG0` writes, one per operation, in order. -/
abbrev AGG0_ws : List (Ref sig .tc) :=
  [main_cst, main_v25, main_c, main_v26, main_v27, main_c_0, main_v28, main_v29, main_v30, main_v31, main_v32]

theorem AGG0_writes : WritesAre (AGG0 : List (HloOp τ sig (Elt F))) AGG0_ws :=
  ⟨rfl, rfl, rfl, rfl, rfl, rfl, rfl, rfl, rfl, rfl, rfl, trivial⟩

theorem AGG0_sub : (AGG0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem AGG0_fresh : (AGG0 : List (HloOp τ sig (Elt F))).Forall fun op => op.fresh = ∅ :=
  ⟨rfl, rfl, rfl, rfl, rfl, rfl, rfl, rfl, rfl, rfl, rfl⟩

/-- Layer 0: the update `relu(h · Ws[0] + bs[0] + agg)`. -/
abbrev UPD0 : List (HloOp τ sig (Elt F)) :=
  [ StableHlo.unary main_arg7 main_v33 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v33 main_v34 rfl shapeCasts_S1x64x64_S64x64,
    StableHlo.binary main_v0 main_v34 main_v35 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v36 ((extractStridedSlice S1x64 ![0, 0] · slices_S3x64_S1x64_0_0) : (⟨S3x64, .f32⟩ : BufTy).Contents (Elt F) → (⟨S1x64, .f32⟩ : BufTy).Contents (Elt F)),
    StableHlo.reshape main_v36 main_v37 rfl shapeCasts_S1x64_S64,
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v35 main_v39 main_v40 (addf : (⟨S50000x64, .f32⟩ : BufTy).Contents (Elt F) → (⟨S50000x64, .f32⟩ : BufTy).Contents (Elt F) → (⟨S50000x64, .f32⟩ : BufTy).Contents (Elt F)),
    StableHlo.binary main_v40 main_v32 main_v41 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (StableHlo.TRef.of main_v41 : StableHlo.TRef sig ⟨S50000x64, .f32⟩) main_call4.v0 main_call4.v1 maximumf ]

/-- The buffers `UPD0` writes, one per operation, in order. -/
abbrev UPD0_ws : List (Ref sig .tc) :=
  [main_v33, main_v34, main_v35, main_v36, main_v37, main_v38, main_v39, main_v40, main_v41, main_call4_cst, main_call4_v0, main_v42]

theorem UPD0_writes : WritesAre (UPD0 : List (HloOp τ sig (Elt F))) UPD0_ws :=
  ⟨rfl, rfl, rfl, rfl, rfl, rfl, rfl, rfl, rfl, rfl, rfl, rfl, trivial⟩

theorem UPD0_sub : (UPD0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩

theorem UPD0_fresh : (UPD0 : List (HloOp τ sig (Elt F))).Forall fun op => op.fresh = ∅ :=
  ⟨rfl, rfl, rfl, rfl, rfl, rfl, rfl, rfl, rfl, rfl, rfl, rfl⟩

/-- Layer 1: the rows of `h` at the edges' sources (`jnp.take` over 50000 rows). -/
abbrev TS1 : List (HloOp τ sig (Elt F)) :=
  [ StableHlo.TRef.nullary main_call5.c (constantI S_ 32 0#32),
    StableHlo.TRef.unary main_call5.c main_call5.v0 (broadcastInDim S800000 ![] bcast_S_S800000),
    StableHlo.TRef.binary (StableHlo.TRef.of main_v2 : StableHlo.TRef sig ⟨S800000, .i32⟩) main_call5.v0 main_call5.v1 (cmpi .slt),
    StableHlo.TRef.nullary main_call5.c_0 (constantI S_ 32 50000#32),
    StableHlo.TRef.unary main_call5.c_0 main_call5.v2 (broadcastInDim S800000 ![] bcast_S_S800000),
    StableHlo.TRef.binary (StableHlo.TRef.of main_v2 : StableHlo.TRef sig ⟨S800000, .i32⟩) main_call5.v2 main_call5.v3 addi,
    StableHlo.TRef.ternary main_call5.v1 main_call5.v3 (StableHlo.TRef.of main_v2 : StableHlo.TRef sig ⟨S800000, .i32⟩) main_call5.call0.v0 select,
    StableHlo.TRef.unary main_call5.call0.v0 main_call5.v5 (broadcastInDim S800000x1 ![0] bcast_S800000_S800000x1_0),
    StableHlo.TRef.nullary main_call5.c_1 (constantI S1 32 49999#32),
    StableHlo.TRef.nullary main_call5.c_2 (constantI S_ 32 0#32),
    StableHlo.TRef.unary main_call5.c_2 main_call5.v6 (broadcastInDim S800000x1 ![] bcast_S_S800000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S800000x1 ![0, 1] bcast_S1x1_S800000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S800000x1_S800000_d1 h_S_),
    StableHlo.TRef.binary (StableHlo.TRef.of main_v42 : StableHlo.TRef sig ⟨S50000x64, .f32⟩) main_call5.v5 main_call5.v13 (fun x i => Host.gather gather_S50000x64_S800000x1_S800000x64_1_0_n_n_0_1_164 x i),
    StableHlo.TRef.unary main_call5.v12 main_call5.v14 (broadcastInDim S800000x64 ![0] bcast_S800000_S800000x64_0),
    StableHlo.TRef.nullary main_call5.cst (constant S_ .f32 0x7FC00000#32),
    StableHlo.TRef.unary main_call5.cst main_call5.v15 (broadcastInDim S800000x64 ![] bcast_S_S800000x64),
    StableHlo.TRef.ternary main_call5.v14 main_call5.v13 main_call5.v15 main_call5.v16 select ]

/-- The buffers `TS1` writes, one per operation, in order. -/
abbrev TS1_ws : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v43]

theorem TS1_writes : WritesAre (TS1 : List (HloOp τ sig (Elt F))) TS1_ws :=
  ⟨rfl, rfl, rfl, rfl, rfl, rfl, rfl, rfl, rfl, rfl, rfl, rfl, rfl, rfl, rfl, rfl, rfl, rfl, rfl, rfl, rfl, rfl, rfl, trivial⟩

theorem TS1_sub : (TS1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TS1_fresh : (TS1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 1: the rows of `h` at the edges' destinations. -/
abbrev TD1 : List (HloOp τ sig (Elt F)) :=
  [ StableHlo.TRef.nullary main_call6.c (constantI S_ 32 0#32),
    StableHlo.TRef.unary main_call6.c main_call6.v0 (broadcastInDim S800000 ![] bcast_S_S800000),
    StableHlo.TRef.binary (StableHlo.TRef.of main_v4 : StableHlo.TRef sig ⟨S800000, .i32⟩) main_call6.v0 main_call6.v1 (cmpi .slt),
    StableHlo.TRef.nullary main_call6.c_0 (constantI S_ 32 50000#32),
    StableHlo.TRef.unary main_call6.c_0 main_call6.v2 (broadcastInDim S800000 ![] bcast_S_S800000),
    StableHlo.TRef.binary (StableHlo.TRef.of main_v4 : StableHlo.TRef sig ⟨S800000, .i32⟩) main_call6.v2 main_call6.v3 addi,
    StableHlo.TRef.ternary main_call6.v1 main_call6.v3 (StableHlo.TRef.of main_v4 : StableHlo.TRef sig ⟨S800000, .i32⟩) main_call6.call0.v0 select,
    StableHlo.TRef.unary main_call6.call0.v0 main_call6.v5 (broadcastInDim S800000x1 ![0] bcast_S800000_S800000x1_0),
    StableHlo.TRef.nullary main_call6.c_1 (constantI S1 32 49999#32),
    StableHlo.TRef.nullary main_call6.c_2 (constantI S_ 32 0#32),
    StableHlo.TRef.unary main_call6.c_2 main_call6.v6 (broadcastInDim S800000x1 ![] bcast_S_S800000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S800000x1 ![0, 1] bcast_S1x1_S800000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S800000x1_S800000_d1 h_S_),
    StableHlo.TRef.binary (StableHlo.TRef.of main_v42 : StableHlo.TRef sig ⟨S50000x64, .f32⟩) main_call6.v5 main_call6.v13 (fun x i => Host.gather gather_S50000x64_S800000x1_S800000x64_1_0_n_n_0_1_164 x i),
    StableHlo.TRef.unary main_call6.v12 main_call6.v14 (broadcastInDim S800000x64 ![0] bcast_S800000_S800000x64_0),
    StableHlo.TRef.nullary main_call6.cst (constant S_ .f32 0x7FC00000#32),
    StableHlo.TRef.unary main_call6.cst main_call6.v15 (broadcastInDim S800000x64 ![] bcast_S_S800000x64),
    StableHlo.TRef.ternary main_call6.v14 main_call6.v13 main_call6.v15 main_call6.v16 select ]

/-- The buffers `TD1` writes, one per operation, in order. -/
abbrev TD1_ws : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v44]

theorem TD1_writes : WritesAre (TD1 : List (HloOp τ sig (Elt F))) TD1_ws :=
  ⟨rfl, rfl, rfl, rfl, rfl, rfl, rfl, rfl, rfl, rfl, rfl, rfl, rfl, rfl, rfl, rfl, rfl, rfl, rfl, rfl, rfl, rfl, rfl, trivial⟩

theorem TD1_sub : (TD1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TD1_fresh : (TD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 1: the messages, first part (up to the hidden activations and the second weight matrix). -/
abbrev MSG1a : List (HloOp τ sig (Elt F)) :=
  [ StableHlo.binary main_v43 main_v44 main_v45 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg3 main_v46 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v46 main_v47 rfl shapeCasts_S1x128x64_S128x64,
    StableHlo.binary main_v45 main_v47 main_v48 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg4 main_v49 ((extractStridedSlice S1x64 ![1, 0] · slices_S3x64_S1x64_1_0) : (⟨S3x64, .f32⟩ : BufTy).Contents (Elt F) → (⟨S1x64, .f32⟩ : BufTy).Contents (Elt F)),
    StableHlo.reshape main_v49 main_v50 rfl shapeCasts_S1x64_S64,
    StableHlo.unary main_v50 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S800000x64 ![0, 1] bcast_S1x64_S800000x64_0_1 : (⟨S1x64, .f32⟩ : BufTy).Contents (Elt F) → (⟨S800000x64, .f32⟩ : BufTy).Contents (Elt F)),
    StableHlo.binary main_v48 main_v52 main_v53 (addf : (⟨S800000x64, .f32⟩ : BufTy).Contents (Elt F) → (⟨S800000x64, .f32⟩ : BufTy).Contents (Elt F) → (⟨S800000x64, .f32⟩ : BufTy).Contents (Elt F)),
    StableHlo.TRef.nullary main_call7.cst (constant S_ .f32 0x00000000#32),
    StableHlo.TRef.unary main_call7.cst main_call7.v0 (broadcastInDim S800000x64 ![] bcast_S_S800000x64),
    StableHlo.TRef.binary (StableHlo.TRef.of main_v53 : StableHlo.TRef sig ⟨S800000x64, .f32⟩) main_call7.v0 main_call7.v1 maximumf,
    StableHlo.unary main_arg5 main_v55 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v55 main_v56 rfl shapeCasts_S1x64x64_S64x64 ]

/-- The buffers `MSG1a` writes, one per operation, in order. -/
abbrev MSG1a_ws : List (Ref sig .tc) :=
  [main_v45, main_v46, main_v47, main_v48, main_v49, main_v50, main_v51, main_v52, main_v53, main_call7_cst, main_call7_v0, main_v54, main_v55, main_v56]

theorem MSG1a_writes : WritesAre (MSG1a : List (HloOp τ sig (Elt F))) MSG1a_ws :=
  ⟨rfl, rfl, rfl, rfl, rfl, rfl, rfl, rfl, rfl, rfl, rfl, rfl, rfl, rfl, trivial⟩

theorem MSG1a_sub : (MSG1a : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub ..⟩

theorem MSG1a_fresh : (MSG1a : List (HloOp τ sig (Elt F))).Forall fun op => op.fresh = ∅ :=
  ⟨rfl, rfl, rfl, rfl, rfl, rfl, rfl, rfl, rfl, rfl, rfl, rfl, rfl, rfl⟩

/-- Layer 1: the messages, second part (the second product and its bias). -/
abbrev MSG1b : List (HloOp τ sig (Elt F)) :=
  [ StableHlo.binary main_v54 main_v56 main_v57 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg6 main_v58 ((extractStridedSlice S1x64 ![1, 0] · slices_S3x64_S1x64_1_0) : (⟨S3x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S800000x64 ![0, 1] bcast_S1x64_S800000x64_0_1 : (⟨S1x64, .f32⟩ : BufTy).Contents (Elt F) → (⟨S800000x64, .f32⟩ : BufTy).Contents (Elt F)),
    StableHlo.binary main_v57 main_v61 main_v62 (addf : (⟨S800000x64, .f32⟩ : BufTy).Contents (Elt F) → (⟨S800000x64, .f32⟩ : BufTy).Contents (Elt F) → (⟨S800000x64, .f32⟩ : BufTy).Contents (Elt F)) ]

/-- The buffers `MSG1b` writes, one per operation, in order. -/
abbrev MSG1b_ws : List (Ref sig .tc) :=
  [main_v57, main_v58, main_v59, main_v60, main_v61, main_v62]

theorem MSG1b_writes : WritesAre (MSG1b : List (HloOp τ sig (Elt F))) MSG1b_ws :=
  ⟨rfl, rfl, rfl, rfl, rfl, rfl, trivial⟩

theorem MSG1b_sub : (MSG1b : List (HloOp τ sig (Elt F))).Forall fun op => op.bufs ⊆ tcRefs τ sig :=
  ⟨binary_bufs_sub .., unary_bufs_sub .., reshape_bufs_sub .., unary_bufs_sub .., unary_bufs_sub .., binary_bufs_sub ..⟩

theorem MSG1b_fresh : (MSG1b : List (HloOp τ sig (Elt F))).Forall fun op => op.fresh = ∅ :=
  ⟨rfl, rfl, rfl, rfl, rfl, rfl⟩

/-- Layer 1: the messages summed at their destination node (a scatter-add into zeros, a negative index wrapped by 50000). -/
abbrev AGG1 : List (HloOp τ sig (Elt F)) :=
  [ StableHlo.nullary main_cst_1 (constant S_ .f32 0x00000000#32),
    StableHlo.unary main_cst_1 main_v63 (broadcastInDim S50000x64 ![] bcast_S_S50000x64 : (⟨S_, .f32⟩ : BufTy).Contents (Elt F) → (⟨S50000x64, .f32⟩ : BufTy).Contents (Elt F)),
    StableHlo.nullary main_c_2 (constantI S_ 32 0#32),
    StableHlo.unary main_c_2 main_v64 (broadcastInDim S800000 ![] bcast_S_S800000 : (⟨S_, .i32⟩ : BufTy).Contents (Elt F) → (⟨S800000, .i32⟩ : BufTy).Contents (Elt F)),
    StableHlo.binary main_v4 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v66 (broadcastInDim S800000 ![] bcast_S_S800000 : (⟨S_, .i32⟩ : BufTy).Contents (Elt F) → (⟨S800000, .i32⟩ : BufTy).Contents (Elt F)),
    StableHlo.binary main_v4 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_v4 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.ternary main_v63 main_v69 main_v62 main_v70 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers `AGG1` writes, one per operation, in order. -/
abbrev AGG1_ws : List (Ref sig .tc) :=
  [main_cst_1, main_v63, main_c_2, main_v64, main_v65, main_c_3, main_v66, main_v67, main_v68, main_v69, main_v70]

theorem AGG1_writes : WritesAre (AGG1 : List (HloOp τ sig (Elt F))) AGG1_ws :=
  ⟨rfl, rfl, rfl, rfl, rfl, rfl, rfl, rfl, rfl, rfl, rfl, trivial⟩

theorem AGG1_sub : (AGG1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem AGG1_fresh : (AGG1 : List (HloOp τ sig (Elt F))).Forall fun op => op.fresh = ∅ :=
  ⟨rfl, rfl, rfl, rfl, rfl, rfl, rfl, rfl, rfl, rfl, rfl⟩

/-- Layer 1: the update `relu(h · Ws[1] + bs[1] + agg)`. -/
abbrev UPD1 : List (HloOp τ sig (Elt F)) :=
  [ StableHlo.unary main_arg7 main_v71 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v71 main_v72 rfl shapeCasts_S1x64x64_S64x64,
    StableHlo.binary main_v42 main_v72 main_v73 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v73 main_v77 main_v78 (addf : (⟨S50000x64, .f32⟩ : BufTy).Contents (Elt F) → (⟨S50000x64, .f32⟩ : BufTy).Contents (Elt F) → (⟨S50000x64, .f32⟩ : BufTy).Contents (Elt F)),
    StableHlo.binary main_v78 main_v70 main_v79 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (StableHlo.TRef.of main_v79 : StableHlo.TRef sig ⟨S50000x64, .f32⟩) main_call8.v0 main_call8.v1 maximumf ]

/-- The buffers `UPD1` writes, one per operation, in order. -/
abbrev UPD1_ws : List (Ref sig .tc) :=
  [main_v71, main_v72, main_v73, main_v74, main_v75, main_v76, main_v77, main_v78, main_v79, main_call8_cst, main_call8_v0, main_v80]

theorem UPD1_writes : WritesAre (UPD1 : List (HloOp τ sig (Elt F))) UPD1_ws :=
  ⟨rfl, rfl, rfl, rfl, rfl, rfl, rfl, rfl, rfl, rfl, rfl, rfl, trivial⟩

theorem UPD1_sub : (UPD1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩

theorem UPD1_fresh : (UPD1 : List (HloOp τ sig (Elt F))).Forall fun op => op.fresh = ∅ :=
  ⟨rfl, rfl, rfl, rfl, rfl, rfl, rfl, rfl, rfl, rfl, rfl, rfl⟩

/-- Layer 2: the rows of `h` at the edges' sources (`jnp.take` over 50000 rows). -/
abbrev TS2 : List (HloOp τ sig (Elt F)) :=
  [ StableHlo.TRef.nullary main_call9.c (constantI S_ 32 0#32),
    StableHlo.TRef.unary main_call9.c main_call9.v0 (broadcastInDim S800000 ![] bcast_S_S800000),
    StableHlo.TRef.binary (StableHlo.TRef.of main_v2 : StableHlo.TRef sig ⟨S800000, .i32⟩) main_call9.v0 main_call9.v1 (cmpi .slt),
    StableHlo.TRef.nullary main_call9.c_0 (constantI S_ 32 50000#32),
    StableHlo.TRef.unary main_call9.c_0 main_call9.v2 (broadcastInDim S800000 ![] bcast_S_S800000),
    StableHlo.TRef.binary (StableHlo.TRef.of main_v2 : StableHlo.TRef sig ⟨S800000, .i32⟩) main_call9.v2 main_call9.v3 addi,
    StableHlo.TRef.ternary main_call9.v1 main_call9.v3 (StableHlo.TRef.of main_v2 : StableHlo.TRef sig ⟨S800000, .i32⟩) main_call9.call0.v0 select,
    StableHlo.TRef.unary main_call9.call0.v0 main_call9.v5 (broadcastInDim S800000x1 ![0] bcast_S800000_S800000x1_0),
    StableHlo.TRef.nullary main_call9.c_1 (constantI S1 32 49999#32),
    StableHlo.TRef.nullary main_call9.c_2 (constantI S_ 32 0#32),
    StableHlo.TRef.unary main_call9.c_2 main_call9.v6 (broadcastInDim S800000x1 ![] bcast_S_S800000x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S800000x1 ![0, 1] bcast_S1x1_S800000x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S800000x1_S800000_d1 h_S_),
    StableHlo.TRef.binary (StableHlo.TRef.of main_v80 : StableHlo.TRef sig ⟨S50000x64, .f32⟩) main_call9.v5 main_call9.v13 (fun x i => Host.gather gather_S50000x64_S800000x1_S800000x64_1_0_n_n_0_1_164 x i),
    StableHlo.TRef.unary main_call9.v12 main_call9.v14 (broadcastInDim S800000x64 ![0] bcast_S800000_S800000x64_0),
    StableHlo.TRef.nullary main_call9.cst (constant S_ .f32 0x7FC00000#32),
    StableHlo.TRef.unary main_call9.cst main_call9.v15 (broadcastInDim S800000x64 ![] bcast_S_S800000x64),
    StableHlo.TRef.ternary main_call9.v14 main_call9.v13 main_call9.v15 main_call9.v16 select ]

/-- The buffers `TS2` writes, one per operation, in order. -/
abbrev TS2_ws : List (Ref sig .tc) :=
  [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v81]

theorem TS2_writes : WritesAre (TS2 : List (HloOp τ sig (Elt F))) TS2_ws :=
  ⟨rfl, rfl, rfl, rfl, rfl, rfl, rfl, rfl, rfl, rfl, rfl, rfl, rfl, rfl, rfl, rfl, rfl, rfl, rfl, rfl, rfl, rfl, rfl, trivial⟩

theorem TS2_sub : (TS2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TS2_fresh : (TS2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 2: the rows of `h` at the edges' destinations. -/
abbrev TD2 : List (HloOp τ sig (Elt F)) :=
  [ StableHlo.TRef.nullary main_call10.c (constantI S_ 32 0#32),
    StableHlo.TRef.unary main_call10.c main_call10.v0 (broadcastInDim S800000 ![] bcast_S_S800000),
    StableHlo.TRef.binary (StableHlo.TRef.of main_v4 : StableHlo.TRef sig ⟨S800000, .i32⟩) main_call10.v0 main_call10.v1 (cmpi .slt),
    StableHlo.TRef.nullary main_call10.c_0 (constantI S_ 32 50000#32),
    StableHlo.TRef.unary main_call10.c_0 main_call10.v2 (broadcastInDim S800000 ![] bcast_S_S800000),
    StableHlo.TRef.binary (StableHlo.TRef.of main_v4 : StableHlo.TRef sig ⟨S800000, .i32⟩) main_call10.v2 main_call10.v3 addi,
    StableHlo.TRef.ternary main_call10.v1 main_call10.v3 (StableHlo.TRef.of main_v4 : StableHlo.TRef sig ⟨S800000, .i32⟩) main_call10.call0.v0 select,
    StableHlo.TRef.unary main_call10.call0.v0 main_call10.v5 (broadcastInDim S800000x1 ![0] bcast_S800000_S800000x1_0),
    StableHlo.TRef.nullary main_call10.c_1 (constantI S1 32 49999#32),
    StableHlo.TRef.nullary main_call10.c_2 (constantI S_ 32 0#32),
    StableHlo.TRef.unary main_call10.c_2 main_call10.v6 (broadcastInDim S800000x1 ![] bcast_S_S800000x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S800000x1 ![0, 1] bcast_S1x1_S800000x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S800000x1_S800000_d1 h_S_),
    StableHlo.TRef.binary (StableHlo.TRef.of main_v80 : StableHlo.TRef sig ⟨S50000x64, .f32⟩) main_call10.v5 main_call10.v13 (fun x i => Host.gather gather_S50000x64_S800000x1_S800000x64_1_0_n_n_0_1_164 x i),
    StableHlo.TRef.unary main_call10.v12 main_call10.v14 (broadcastInDim S800000x64 ![0] bcast_S800000_S800000x64_0),
    StableHlo.TRef.nullary main_call10.cst (constant S_ .f32 0x7FC00000#32),
    StableHlo.TRef.unary main_call10.cst main_call10.v15 (broadcastInDim S800000x64 ![] bcast_S_S800000x64),
    StableHlo.TRef.ternary main_call10.v14 main_call10.v13 main_call10.v15 main_call10.v16 select ]

/-- The buffers `TD2` writes, one per operation, in order. -/
abbrev TD2_ws : List (Ref sig .tc) :=
  [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v82]

theorem TD2_writes : WritesAre (TD2 : List (HloOp τ sig (Elt F))) TD2_ws :=
  ⟨rfl, rfl, rfl, rfl, rfl, rfl, rfl, rfl, rfl, rfl, rfl, rfl, rfl, rfl, rfl, rfl, rfl, rfl, rfl, rfl, rfl, rfl, rfl, trivial⟩

theorem TD2_sub : (TD2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem TD2_fresh : (TD2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Layer 2: the messages `relu([h_src, h_dst] · W1[2] + b1[2]) · W2[2] + b2[2]`. -/
abbrev MSG2 : List (HloOp τ sig (Elt F)) :=
  [ StableHlo.binary main_v81 main_v82 main_v83 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg3 main_v84 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v84 main_v85 rfl shapeCasts_S1x128x64_S128x64,
    StableHlo.binary main_v83 main_v85 main_v86 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg4 main_v87 ((extractStridedSlice S1x64 ![2, 0] · slices_S3x64_S1x64_2_0) : (⟨S3x64, .f32⟩ : BufTy).Contents (Elt F) → (⟨S1x64, .f32⟩ : BufTy).Contents (Elt F)),
    StableHlo.reshape main_v87 main_v88 rfl shapeCasts_S1x64_S64,
    StableHlo.unary main_v88 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S800000x64 ![0, 1] bcast_S1x64_S800000x64_0_1 : (⟨S1x64, .f32⟩ : BufTy).Contents (Elt F) → (⟨S800000x64, .f32⟩ : BufTy).Contents (Elt F)),
    StableHlo.binary main_v86 main_v90 main_v91 (addf : (⟨S800000x64, .f32⟩ : BufTy).Contents (Elt F) → (⟨S800000x64, .f32⟩ : BufTy).Contents (Elt F) → (⟨S800000x64, .f32⟩ : BufTy).Contents (Elt F)),
    StableHlo.TRef.nullary main_call11.cst (constant S_ .f32 0x00000000#32),
    StableHlo.TRef.unary main_call11.cst main_call11.v0 (broadcastInDim S800000x64 ![] bcast_S_S800000x64),
    StableHlo.TRef.binary (StableHlo.TRef.of main_v91 : StableHlo.TRef sig ⟨S800000x64, .f32⟩) main_call11.v0 main_call11.v1 maximumf,
    StableHlo.unary main_arg5 main_v93 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v93 main_v94 rfl shapeCasts_S1x64x64_S64x64,
    StableHlo.binary main_v92 main_v94 main_v95 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg6 main_v96 ((extractStridedSlice S1x64 ![2, 0] · slices_S3x64_S1x64_2_0) : (⟨S3x64, .f32⟩ : BufTy).Contents (Elt F) → (⟨S1x64, .f32⟩ : BufTy).Contents (Elt F)),
    StableHlo.reshape main_v96 main_v97 rfl shapeCasts_S1x64_S64,
    StableHlo.unary main_v97 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S800000x64 ![0, 1] bcast_S1x64_S800000x64_0_1 : (⟨S1x64, .f32⟩ : BufTy).Contents (Elt F) → (⟨S800000x64, .f32⟩ : BufTy).Contents (Elt F)),
    StableHlo.binary main_v95 main_v99 main_v100 (addf : (⟨S800000x64, .f32⟩ : BufTy).Contents (Elt F) → (⟨S800000x64, .f32⟩ : BufTy).Contents (Elt F) → (⟨S800000x64, .f32⟩ : BufTy).Contents (Elt F)) ]

/-- The buffers `MSG2` writes, one per operation, in order. -/
abbrev MSG2_ws : List (Ref sig .tc) :=
  [main_v83, main_v84, main_v85, main_v86, main_v87, main_v88, main_v89, main_v90, main_v91, main_call11_cst, main_call11_v0, main_v92, main_v93, main_v94, main_v95, main_v96, main_v97, main_v98, main_v99, main_v100]

theorem MSG2_writes : WritesAre (MSG2 : List (HloOp τ sig (Elt F))) MSG2_ws :=
  ⟨rfl, rfl, rfl, rfl, rfl, rfl, rfl, rfl, rfl, rfl, rfl, rfl, rfl, rfl, rfl, rfl, rfl, rfl, rfl, rfl, trivial⟩

theorem MSG2_sub : (MSG2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem MSG2_fresh : (MSG2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Layer 2: the messages summed at their destination node (a scatter-add into zeros, a negative index wrapped by 50000). -/
abbrev AGG2 : List (HloOp τ sig (Elt F)) :=
  [ StableHlo.nullary main_cst_4 (constant S_ .f32 0x00000000#32),
    StableHlo.unary main_cst_4 main_v101 (broadcastInDim S50000x64 ![] bcast_S_S50000x64 : (⟨S_, .f32⟩ : BufTy).Contents (Elt F) → (⟨S50000x64, .f32⟩ : BufTy).Contents (Elt F)),
    StableHlo.nullary main_c_5 (constantI S_ 32 0#32),
    StableHlo.unary main_c_5 main_v102 (broadcastInDim S800000 ![] bcast_S_S800000 : (⟨S_, .i32⟩ : BufTy).Contents (Elt F) → (⟨S800000, .i32⟩ : BufTy).Contents (Elt F)),
    StableHlo.binary main_v4 main_v102 main_v103 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v104 (broadcastInDim S800000 ![] bcast_S_S800000 : (⟨S_, .i32⟩ : BufTy).Contents (Elt F) → (⟨S800000, .i32⟩ : BufTy).Contents (Elt F)),
    StableHlo.binary main_v4 main_v104 main_v105 (addi : (⟨S800000, .i32⟩ : BufTy).Contents (Elt F) → (⟨S800000, .i32⟩ : BufTy).Contents (Elt F) → (⟨S800000, .i32⟩ : BufTy).Contents (Elt F)),
    StableHlo.ternary main_v103 main_v105 main_v4 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v106 main_v107 (broadcastInDim S800000x1 ![0] bcast_S800000_S800000x1_0 : (⟨S800000, .i32⟩ : BufTy).Contents (Elt F) → (⟨S800000x1, .i32⟩ : BufTy).Contents (Elt F)),
    StableHlo.ternary main_v101 main_v107 main_v100 main_v108 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers `AGG2` writes, one per operation, in order. -/
abbrev AGG2_ws : List (Ref sig .tc) :=
  [main_cst_4, main_v101, main_c_5, main_v102, main_v103, main_c_6, main_v104, main_v105, main_v106, main_v107, main_v108]

theorem AGG2_writes : WritesAre (AGG2 : List (HloOp τ sig (Elt F))) AGG2_ws :=
  ⟨rfl, rfl, rfl, rfl, rfl, rfl, rfl, rfl, rfl, rfl, rfl, trivial⟩

theorem AGG2_sub : (AGG2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem AGG2_fresh : (AGG2 : List (HloOp τ sig (Elt F))).Forall fun op => op.fresh = ∅ :=
  ⟨rfl, rfl, rfl, rfl, rfl, rfl, rfl, rfl, rfl, rfl, rfl⟩

/-- Layer 2: the update, first part (the layer's self weight matrix). -/
abbrev UPD2a : List (HloOp τ sig (Elt F)) :=
  [ StableHlo.unary main_arg7 main_v109 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v109 main_v110 rfl shapeCasts_S1x64x64_S64x64 ]

/-- The buffers `UPD2a` writes, one per operation, in order. -/
abbrev UPD2a_ws : List (Ref sig .tc) :=
  [main_v109, main_v110]

theorem UPD2a_writes : WritesAre (UPD2a : List (HloOp τ sig (Elt F))) UPD2a_ws :=
  ⟨rfl, rfl, trivial⟩

theorem UPD2a_sub : (UPD2a : List (HloOp τ sig (Elt F))).Forall fun op => op.bufs ⊆ tcRefs τ sig :=
  ⟨unary_bufs_sub .., reshape_bufs_sub ..⟩

theorem UPD2a_fresh : (UPD2a : List (HloOp τ sig (Elt F))).Forall fun op => op.fresh = ∅ :=
  ⟨rfl, rfl⟩

/-- Layer 2: the update, second part. -/
abbrev UPD2b : List (HloOp τ sig (Elt F)) :=
  [ StableHlo.binary main_v80 main_v110 main_v111 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v112 ((extractStridedSlice S1x64 ![2, 0] · slices_S3x64_S1x64_2_0) : (⟨S3x64, .f32⟩ : BufTy).Contents (Elt F) → (⟨S1x64, .f32⟩ : BufTy).Contents (Elt F)),
    StableHlo.reshape main_v112 main_v113 rfl shapeCasts_S1x64_S64,
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v115 main_v116 (addf : (⟨S50000x64, .f32⟩ : BufTy).Contents (Elt F) → (⟨S50000x64, .f32⟩ : BufTy).Contents (Elt F) → (⟨S50000x64, .f32⟩ : BufTy).Contents (Elt F)),
    StableHlo.binary main_v116 main_v108 main_v117 (addf : (⟨S50000x64, .f32⟩ : BufTy).Contents (Elt F) → (⟨S50000x64, .f32⟩ : BufTy).Contents (Elt F) → (⟨S50000x64, .f32⟩ : BufTy).Contents (Elt F)),
    StableHlo.TRef.nullary main_call12.cst (constant S_ .f32 0x00000000#32),
    StableHlo.TRef.unary main_call12.cst main_call12.v0 (broadcastInDim S50000x64 ![] bcast_S_S50000x64),
    StableHlo.TRef.binary (StableHlo.TRef.of main_v117 : StableHlo.TRef sig ⟨S50000x64, .f32⟩) main_call12.v0 main_call12.v1 maximumf ]

/-- The buffers `UPD2b` writes, one per operation, in order. -/
abbrev UPD2b_ws : List (Ref sig .tc) :=
  [main_v111, main_v112, main_v113, main_v114, main_v115, main_v116, main_v117, main_call12_cst, main_call12_v0, main_v118]

theorem UPD2b_writes : WritesAre (UPD2b : List (HloOp τ sig (Elt F))) UPD2b_ws :=
  ⟨rfl, rfl, rfl, rfl, rfl, rfl, rfl, rfl, rfl, rfl, trivial⟩

theorem UPD2b_sub : (UPD2b : List (HloOp τ sig (Elt F))).Forall fun op => op.bufs ⊆ tcRefs τ sig :=
  ⟨binary_bufs_sub .., unary_bufs_sub .., reshape_bufs_sub .., unary_bufs_sub .., unary_bufs_sub .., binary_bufs_sub .., binary_bufs_sub .., nullary_bufs_sub .., unary_bufs_sub .., binary_bufs_sub ..⟩

theorem UPD2b_fresh : (UPD2b : List (HloOp τ sig (Elt F))).Forall fun op => op.fresh = ∅ :=
  ⟨rfl, rfl, rfl, rfl, rfl, rfl, rfl, rfl, rfl, rfl⟩

/-- The read-out: the mean over the nodes, then `relu(g · Wo1 + bo1) · Wo2 + bo2`. -/
abbrev OUT : List (HloOp τ sig (Elt F)) :=
  [ StableHlo.nullary main_cst_7 (constant S_ .f32 0x00000000#32),
    StableHlo.binary main_v118 main_cst_7 main_v119 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.nullary main_cst_8 (constant S_ .f32 0x47435000#32),
    StableHlo.unary main_cst_8 main_v121 (broadcastInDim S1x64 ![] bcast_S_S1x64 : (⟨S_, .f32⟩ : BufTy).Contents (Elt F) → (⟨S1x64, .f32⟩ : BufTy).Contents (Elt F)),
    StableHlo.binary main_v120 main_v121 main_v122 (Host.divf : (⟨S1x64, .f32⟩ : BufTy).Contents (Elt F) → (⟨S1x64, .f32⟩ : BufTy).Contents (Elt F) → (⟨S1x64, .f32⟩ : BufTy).Contents (Elt F)),
    StableHlo.binary main_v122 main_arg9 main_v123 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    StableHlo.unary main_arg10 main_v124 (broadcastInDim S1x64 ![1] bcast_S64_S1x64_1 : (⟨S64, .f32⟩ : BufTy).Contents (Elt F) → (⟨S1x64, .f32⟩ : BufTy).Contents (Elt F)),
    StableHlo.binary main_v123 main_v124 main_v125 (addf : (⟨S1x64, .f32⟩ : BufTy).Contents (Elt F) → (⟨S1x64, .f32⟩ : BufTy).Contents (Elt F) → (⟨S1x64, .f32⟩ : BufTy).Contents (Elt F)),
    StableHlo.TRef.nullary main_call13.cst (constant S_ .f32 0x00000000#32),
    StableHlo.TRef.unary main_call13.cst main_call13.v0 (broadcastInDim S1x64 ![] bcast_S_S1x64),
    StableHlo.TRef.binary (StableHlo.TRef.of main_v125 : StableHlo.TRef sig ⟨S1x64, .f32⟩) main_call13.v0 main_call13.v1 maximumf,
    StableHlo.binary main_v126 main_arg11 main_v127 ((fun l r => Host.dotGeneral dot_S1x64_S64x1_S1x1_1_0_0_1_n_n none l r) : (⟨S1x64, .f32⟩ : BufTy).Contents (Elt F) → (⟨S64x1, .f32⟩ : BufTy).Contents (Elt F) → (⟨S1x1, .f32⟩ : BufTy).Contents (Elt F)),
    StableHlo.unary main_arg12 main_v128 (broadcastInDim S1x1 ![1] bcast_S1_S1x1_1 : (⟨S1, .f32⟩ : BufTy).Contents (Elt F) → (⟨S1x1, .f32⟩ : BufTy).Contents (Elt F)),
    StableHlo.binary main_v127 main_v128 main_v129 (addf : (⟨S1x1, .f32⟩ : BufTy).Contents (Elt F) → (⟨S1x1, .f32⟩ : BufTy).Contents (Elt F) → (⟨S1x1, .f32⟩ : BufTy).Contents (Elt F)) ]

/-- The buffers `OUT` writes, one per operation, in order. -/
abbrev OUT_ws : List (Ref sig .tc) :=
  [main_cst_7, main_v119, main_v120, main_cst_8, main_v121, main_v122, main_v123, main_v124, main_v125, main_call13_cst, main_call13_v0, main_v126, main_v127, main_v128, main_v129]

theorem OUT_writes : WritesAre (OUT : List (HloOp τ sig (Elt F))) OUT_ws :=
  ⟨rfl, rfl, rfl, rfl, rfl, rfl, rfl, rfl, rfl, rfl, rfl, rfl, rfl, rfl, rfl, trivial⟩

theorem OUT_sub : (OUT : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub ..⟩

theorem OUT_fresh : (OUT : List (HloOp τ sig (Elt F))).Forall fun op => op.fresh = ∅ :=
  ⟨rfl, rfl, rfl, rfl, rfl, rfl, rfl, rfl, rfl, rfl, rfl, rfl, rfl, rfl, rfl⟩

/-- @main's 309 host operations, in order, the calls unfolded: the pieces above one after the other. -/
abbrev ops : List (HloOp τ sig (Elt F)) :=
  T0 ++ (IDX ++ (TS0 ++ (TD0 ++ (MSG0 ++ (AGG0 ++ (UPD0 ++ (TS1 ++ (TD1 ++ (MSG1a ++ (MSG1b ++ (AGG1 ++ (UPD1 ++ (TS2 ++ (TD2 ++ (MSG2 ++ (AGG2 ++ (UPD2a ++ (UPD2b ++ (OUT)))))))))))))))))))

/-- The buffers the line writes, one per operation, in order. -/
abbrev ops_ws : List (Ref sig .tc) :=
  T0_ws ++ (IDX_ws ++ (TS0_ws ++ (TD0_ws ++ (MSG0_ws ++ (AGG0_ws ++ (UPD0_ws ++ (TS1_ws ++ (TD1_ws ++ (MSG1a_ws ++ (MSG1b_ws ++ (AGG1_ws ++ (UPD1_ws ++ (TS2_ws ++ (TD2_ws ++ (MSG2_ws ++ (AGG2_ws ++ (UPD2a_ws ++ (UPD2b_ws ++ (OUT_ws)))))))))))))))))))

theorem ops_writes : WritesAre (ops : List (HloOp τ sig (Elt F))) ops_ws :=
  writesAre_append T0_writes (writesAre_append IDX_writes (writesAre_append TS0_writes (writesAre_append TD0_writes (writesAre_append MSG0_writes (writesAre_append AGG0_writes (writesAre_append UPD0_writes (writesAre_append TS1_writes (writesAre_append TD1_writes (writesAre_append MSG1a_writes (writesAre_append MSG1b_writes (writesAre_append AGG1_writes (writesAre_append UPD1_writes (writesAre_append TS2_writes (writesAre_append TD2_writes (writesAre_append MSG2_writes (writesAre_append AGG2_writes (writesAre_append UPD2a_writes (writesAre_append UPD2b_writes (OUT_writes)))))))))))))))))))

theorem ops_sub : (ops : List (HloOp τ sig (Elt F))).Forall fun op => op.bufs ⊆ tcRefs τ sig :=
  List.forall_append.mpr ⟨T0_sub, List.forall_append.mpr ⟨IDX_sub, List.forall_append.mpr ⟨TS0_sub, List.forall_append.mpr ⟨TD0_sub, List.forall_append.mpr ⟨MSG0_sub, List.forall_append.mpr ⟨AGG0_sub, List.forall_append.mpr ⟨UPD0_sub, List.forall_append.mpr ⟨TS1_sub, List.forall_append.mpr ⟨TD1_sub, List.forall_append.mpr ⟨MSG1a_sub, List.forall_append.mpr ⟨MSG1b_sub, List.forall_append.mpr ⟨AGG1_sub, List.forall_append.mpr ⟨UPD1_sub, List.forall_append.mpr ⟨TS2_sub, List.forall_append.mpr ⟨TD2_sub, List.forall_append.mpr ⟨MSG2_sub, List.forall_append.mpr ⟨AGG2_sub, List.forall_append.mpr ⟨UPD2a_sub, List.forall_append.mpr ⟨UPD2b_sub, OUT_sub⟩⟩⟩⟩⟩⟩⟩⟩⟩⟩⟩⟩⟩⟩⟩⟩⟩⟩⟩

theorem ops_fresh : ∀ op ∈ (ops : List (HloOp τ sig (Elt F))), op.fresh = ∅ :=
  List.forall_iff_forall_mem.mp
    (List.forall_append.mpr ⟨T0_fresh, List.forall_append.mpr ⟨IDX_fresh, List.forall_append.mpr ⟨TS0_fresh, List.forall_append.mpr ⟨TD0_fresh, List.forall_append.mpr ⟨MSG0_fresh, List.forall_append.mpr ⟨AGG0_fresh, List.forall_append.mpr ⟨UPD0_fresh, List.forall_append.mpr ⟨TS1_fresh, List.forall_append.mpr ⟨TD1_fresh, List.forall_append.mpr ⟨MSG1a_fresh, List.forall_append.mpr ⟨MSG1b_fresh, List.forall_append.mpr ⟨AGG1_fresh, List.forall_append.mpr ⟨UPD1_fresh, List.forall_append.mpr ⟨TS2_fresh, List.forall_append.mpr ⟨TD2_fresh, List.forall_append.mpr ⟨MSG2_fresh, List.forall_append.mpr ⟨AGG2_fresh, List.forall_append.mpr ⟨UPD2a_fresh, List.forall_append.mpr ⟨UPD2b_fresh, OUT_fresh⟩⟩⟩⟩⟩⟩⟩⟩⟩⟩⟩⟩⟩⟩⟩⟩⟩⟩⟩)

set_option maxRecDepth 16384 in
set_option maxHeartbeats 4000000 in
/-- The first window of @main is its pieces' line: the functions' definitions unfolded at their calls and the
    records at their fields, both sides are one chain of `hlo` steps once sequencing is reassociated. -/
theorem part0_eq (d : Dev nD) : main_part0 (F := F) d = seq (T0 ++ (IDX ++ (TS0 ++ (TD0 ++ (MSG0 ++ (AGG0 ++ (UPD0 ++ (TS1 ++ (TD1 ++ (MSG1a)))))))))) := by
  simp only [main_part0, fn_where.body, fn_take.body, fn_where_1.body, fn_take_0.body, fn_relu.body, fn_relu_2.body, fn_relu_3.body, T0, IDX, TS0, TD0, MSG0, AGG0, UPD0, TS1, TD1, MSG1a,
    List.cons_append, List.nil_append, seq, bind_assoc, pure_bind]
  try rfl

set_option maxRecDepth 16384 in
set_option maxHeartbeats 4000000 in
/-- The second window of @main is its pieces' line: the functions' definitions unfolded at their calls and the
    records at their fields, both sides are one chain of `hlo` steps once sequencing is reassociated. -/
theorem part1_eq (d : Dev nD) : main_part1 (F := F) d = seq (MSG1b ++ (AGG1 ++ (UPD1 ++ (TS2 ++ (TD2 ++ (MSG2 ++ (AGG2 ++ (UPD2a)))))))) := by
  simp only [main_part1, fn_where.body, fn_take.body, fn_where_1.body, fn_take_0.body, fn_relu.body, fn_relu_2.body, fn_relu_3.body, MSG1b, AGG1, UPD1, TS2, TD2, MSG2, AGG2, UPD2a,
    List.cons_append, List.nil_append, seq, bind_assoc, pure_bind]
  try rfl

set_option maxRecDepth 16384 in
set_option maxHeartbeats 4000000 in
/-- The third window of @main is its pieces' line: the functions' definitions unfolded at their calls and the
    records at their fields, both sides are one chain of `hlo` steps once sequencing is reassociated. -/
theorem part2_eq (d : Dev nD) : main_part2 (F := F) d = seq (UPD2b ++ (OUT)) := by
  simp only [main_part2, fn_where.body, fn_take.body, fn_where_1.body, fn_take_0.body, fn_relu.body, fn_relu_2.body, fn_relu_3.body, UPD2b, OUT,
    List.cons_append, List.nil_append, seq, bind_assoc, pure_bind]
  try rfl

/-- @main is the whole line. -/
theorem main_eq (d : Dev nD) : main (F := F) d = seq ops := by
  have h : (ops : List (HloOp τ sig (Elt F))) = (T0 ++ (IDX ++ (TS0 ++ (TD0 ++ (MSG0 ++ (AGG0 ++ (UPD0 ++ (TS1 ++ (TD1 ++ (MSG1a)))))))))) ++ ((MSG1b ++ (AGG1 ++ (UPD1 ++ (TS2 ++ (TD2 ++ (MSG2 ++ (AGG2 ++ (UPD2a)))))))) ++ (UPD2b ++ (OUT))) := by
    simp only [ops, List.append_assoc]
  rw [h, seq_append (T0 ++ (IDX ++ (TS0 ++ (TD0 ++ (MSG0 ++ (AGG0 ++ (UPD0 ++ (TS1 ++ (TD1 ++ (MSG1a)))))))))) ((MSG1b ++ (AGG1 ++ (UPD1 ++ (TS2 ++ (TD2 ++ (MSG2 ++ (AGG2 ++ (UPD2a)))))))) ++ (UPD2b ++ (OUT))), seq_append (MSG1b ++ (AGG1 ++ (UPD1 ++ (TS2 ++ (TD2 ++ (MSG2 ++ (AGG2 ++ (UPD2a)))))))) (UPD2b ++ (OUT)),
    ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRunVal.lean ====
import proofs.«215677_g32066225832048_cont_9to1_32_28_alg».proof.Proof.RefRunOps

/-!
# What the reference computes, stage by stage

Each piece of the reference's line of operations (`RefRunOps`) is read back as ONE pure function of the
buffers it reads: the embedding lookup `take0`, the edge list's two rows `rowSrc` / `rowDst`, the row
gather `takeE` (the same function at all six of its calls), per layer `l` the messages `msg l`, the
aggregation `agg` (the same function in all three layers) and the update `upd l`, and the read-out
`readout`. A stage's definition is the composition of its operations' own functions, in program order, and
its `_val` lemma says the piece leaves exactly that at its result buffer, from ANY contents; its `_keep`
lemma says a buffer the piece does not write keeps its contents. `layer l` composes a layer's five stages and
`result` composes everything: the network's output as a function of the thirteen argument arrays.
`result_eq` chains the stage lemmas through the whole line, one piece at a time, the contents after each
piece kept abstract, so that no term larger than one stage is ever computed.
-/

noncomputable section

namespace Cert.ReferenceIdeal.RefRun

open Cert.ReferenceIdeal Cert.ReferenceIdeal.Facts₀ Cert.ReferenceIdeal.Facts Idealize.ShloMosaic Idealize.ShloMosaic.TcCoe Idealize.SL.Sem
open Idealize.ShloMosaic.StableHlo Cert.Lib.AfterAssign

variable {F : FTy → Type} [FloatOps F] [Cert.ReferenceIdeal.Facts]

/-- The whole contents of a buffer of shape `S` and element type `t`. -/
local notation "𝕋[" S ", " t "]" => (BufTy.Contents (Elt F) (⟨S, t⟩ : BufTy))

/-- A typed reference's two transports (contents at the value's type as contents of the buffer, and back)
    cancel. -/
theorem ofBuf_toBuf {sig : RefSig} {Val : EltTy → Type} {T : BufTy} (x : TRef sig T) (v : T.Contents Val) :
    x.ofBuf (x.toBuf v) = v := by
  simp only [TRef.ofBuf, TRef.toBuf, cast_cast, cast_eq]

/-! ## The stages -/

/-- `embed[x]`: a negative index is wrapped by 120, the rows gathered, and a row whose wrapped index falls outside `[0, 119]` is NaN. -/
def take0 (emb : 𝕋[S120x64, .f32]) (x : 𝕋[S50000, .i32]) : 𝕋[S50000x64, .f32] :=
  (select ((broadcastInDim S50000x64 ![0] bcast_S50000_S50000x64_0) ((fun x v => Host.reduce IntOp.andi x v reducesTo_S50000x1_S50000_d1 h_S_) (andi ((cmpi .sge) ((broadcastInDim S50000x1 ![0] bcast_S50000_S50000x1_0) (select ((cmpi .slt) x ((broadcastInDim S50000 ![] bcast_S_S50000) (constantI S_ 32 0#32 : 𝕋[S_, .i32]) : 𝕋[S50000, .i32]) : 𝕋[S50000, .i1]) (addi x ((broadcastInDim S50000 ![] bcast_S_S50000) (constantI S_ 32 120#32 : 𝕋[S_, .i32]) : 𝕋[S50000, .i32]) : 𝕋[S50000, .i32]) x : 𝕋[S50000, .i32]) : 𝕋[S50000x1, .i32]) ((broadcastInDim S50000x1 ![] bcast_S_S50000x1) (constantI S_ 32 0#32 : 𝕋[S_, .i32]) : 𝕋[S50000x1, .i32]) : 𝕋[S50000x1, .i1]) ((cmpi .sle) ((broadcastInDim S50000x1 ![0] bcast_S50000_S50000x1_0) (select ((cmpi .slt) x ((broadcastInDim S50000 ![] bcast_S_S50000) (constantI S_ 32 0#32 : 𝕋[S_, .i32]) : 𝕋[S50000, .i32]) : 𝕋[S50000, .i1]) (addi x ((broadcastInDim S50000 ![] bcast_S_S50000) (constantI S_ 32 120#32 : 𝕋[S_, .i32]) : 𝕋[S50000, .i32]) : 𝕋[S50000, .i32]) x : 𝕋[S50000, .i32]) : 𝕋[S50000x1, .i32]) ((broadcastInDim S50000x1 ![0, 1] bcast_S1x1_S50000x1_0_1) ((broadcastInDim S1x1 ![1] bcast_S1_S1x1_1) (constantI S1 32 119#32 : 𝕋[S1, .i32]) : 𝕋[S1x1, .i32]) : 𝕋[S50000x1, .i32]) : 𝕋[S50000x1, .i1]) : 𝕋[S50000x1, .i1]) (constantI S_ 1 1#1 : 𝕋[S_, .i1]) : 𝕋[S50000, .i1]) : 𝕋[S50000x64, .i1]) ((fun x i => Host.gather gather_S120x64_S50000x1_S50000x64_1_0_n_n_0_1_164 x i) emb ((broadcastInDim S50000x1 ![0] bcast_S50000_S50000x1_0) (select ((cmpi .slt) x ((broadcastInDim S50000 ![] bcast_S_S50000) (constantI S_ 32 0#32 : 𝕋[S_, .i32]) : 𝕋[S50000, .i32]) : 𝕋[S50000, .i1]) (addi x ((broadcastInDim S50000 ![] bcast_S_S50000) (constantI S_ 32 120#32 : 𝕋[S_, .i32]) : 𝕋[S50000, .i32]) : 𝕋[S50000, .i32]) x : 𝕋[S50000, .i32]) : 𝕋[S50000x1, .i32]) : 𝕋[S50000x64, .f32]) ((broadcastInDim S50000x64 ![] bcast_S_S50000x64) (constant S_ .f32 0x7FC00000#32 : 𝕋[S_, .f32]) : 𝕋[S50000x64, .f32]) : 𝕋[S50000x64, .f32])

/-- `edge_index[0]`: the edges' sources. -/
def rowSrc (ei : 𝕋[S2x800000, .i32]) : 𝕋[S800000, .i32] :=
  (shapeCast S800000 (((extractStridedSlice S1x800000 ![0, 0] · slices_S2x800000_S1x800000_0_0) : 𝕋[S2x800000, .i32] → 𝕋[S1x800000, .i32]) ei) shapeCasts_S1x800000_S800000 : 𝕋[S800000, .i32])

/-- `edge_index[1]`: the edges' destinations. -/
def rowDst (ei : 𝕋[S2x800000, .i32]) : 𝕋[S800000, .i32] :=
  (shapeCast S800000 (((extractStridedSlice S1x800000 ![1, 0] · slices_S2x800000_S1x800000_1_0) : 𝕋[S2x800000, .i32] → 𝕋[S1x800000, .i32]) ei) shapeCasts_S1x800000_S800000 : 𝕋[S800000, .i32])

/-- `h[idx]` over the 800000 edges: a negative index is wrapped by 50000, the rows gathered, and a row whose wrapped index falls outside `[0, 49999]` is NaN. -/
def takeE (h : 𝕋[S50000x64, .f32]) (idx : 𝕋[S800000, .i32]) : 𝕋[S800000x64, .f32] :=
  (select ((broadcastInDim S800000x64 ![0] bcast_S800000_S800000x64_0) ((fun x v => Host.reduce IntOp.andi x v reducesTo_S800000x1_S800000_d1 h_S_) (andi ((cmpi .sge) ((broadcastInDim S800000x1 ![0] bcast_S800000_S800000x1_0) (select ((cmpi .slt) idx ((broadcastInDim S800000 ![] bcast_S_S800000) (constantI S_ 32 0#32 : 𝕋[S_, .i32]) : 𝕋[S800000, .i32]) : 𝕋[S800000, .i1]) (addi idx ((broadcastInDim S800000 ![] bcast_S_S800000) (constantI S_ 32 50000#32 : 𝕋[S_, .i32]) : 𝕋[S800000, .i32]) : 𝕋[S800000, .i32]) idx : 𝕋[S800000, .i32]) : 𝕋[S800000x1, .i32]) ((broadcastInDim S800000x1 ![] bcast_S_S800000x1) (constantI S_ 32 0#32 : 𝕋[S_, .i32]) : 𝕋[S800000x1, .i32]) : 𝕋[S800000x1, .i1]) ((cmpi .sle) ((broadcastInDim S800000x1 ![0] bcast_S800000_S800000x1_0) (select ((cmpi .slt) idx ((broadcastInDim S800000 ![] bcast_S_S800000) (constantI S_ 32 0#32 : 𝕋[S_, .i32]) : 𝕋[S800000, .i32]) : 𝕋[S800000, .i1]) (addi idx ((broadcastInDim S800000 ![] bcast_S_S800000) (constantI S_ 32 50000#32 : 𝕋[S_, .i32]) : 𝕋[S800000, .i32]) : 𝕋[S800000, .i32]) idx : 𝕋[S800000, .i32]) : 𝕋[S800000x1, .i32]) ((broadcastInDim S800000x1 ![0, 1] bcast_S1x1_S800000x1_0_1) ((broadcastInDim S1x1 ![1] bcast_S1_S1x1_1) (constantI S1 32 49999#32 : 𝕋[S1, .i32]) : 𝕋[S1x1, .i32]) : 𝕋[S800000x1, .i32]) : 𝕋[S800000x1, .i1]) : 𝕋[S800000x1, .i1]) (constantI S_ 1 1#1 : 𝕋[S_, .i1]) : 𝕋[S800000, .i1]) : 𝕋[S800000x64, .i1]) ((fun x i => Host.gather gather_S50000x64_S800000x1_S800000x64_1_0_n_n_0_1_164 x i) h ((broadcastInDim S800000x1 ![0] bcast_S800000_S800000x1_0) (select ((cmpi .slt) idx ((broadcastInDim S800000 ![] bcast_S_S800000) (constantI S_ 32 0#32 : 𝕋[S_, .i32]) : 𝕋[S800000, .i32]) : 𝕋[S800000, .i1]) (addi idx ((broadcastInDim S800000 ![] bcast_S_S800000) (constantI S_ 32 50000#32 : 𝕋[S_, .i32]) : 𝕋[S800000, .i32]) : 𝕋[S800000, .i32]) idx : 𝕋[S800000, .i32]) : 𝕋[S800000x1, .i32]) : 𝕋[S800000x64, .f32]) ((broadcastInDim S800000x64 ![] bcast_S_S800000x64) (constant S_ .f32 0x7FC00000#32 : 𝕋[S_, .f32]) : 𝕋[S800000x64, .f32]) : 𝕋[S800000x64, .f32])

/-- Layer 0's messages `relu([hs, hd] · W1[0] + b1[0]) · W2[0] + b2[0]`. -/
def msg0 (hs : 𝕋[S800000x64, .f32]) (hd : 𝕋[S800000x64, .f32]) (a3 : 𝕋[S3x128x64, .f32]) (a4 : 𝕋[S3x64, .f32]) (a5 : 𝕋[S3x64x64, .f32]) (a6 : 𝕋[S3x64, .f32]) : 𝕋[S800000x64, .f32] :=
  ((addf : 𝕋[S800000x64, .f32] → 𝕋[S800000x64, .f32] → 𝕋[S800000x64, .f32]) (((fun l r => Host.dotGeneral dot_S800000x64_S64x64_S800000x64_1_0_0_1_n_n none l r) : 𝕋[S800000x64, .f32] → 𝕋[S64x64, .f32] → 𝕋[S800000x64, .f32]) (maximumf ((addf : 𝕋[S800000x64, .f32] → 𝕋[S800000x64, .f32] → 𝕋[S800000x64, .f32]) (((fun l r => Host.dotGeneral dot_S800000x128_S128x64_S800000x64_1_0_0_1_n_n none l r) : 𝕋[S800000x128, .f32] → 𝕋[S128x64, .f32] → 𝕋[S800000x64, .f32]) (((fun a b => concatenate S800000x128 1 [⟨S800000x64, a⟩, ⟨S800000x64, b⟩] concatenates_S800000x64_S800000x64_S800000x128_d1) : 𝕋[S800000x64, .f32] → 𝕋[S800000x64, .f32] → 𝕋[S800000x128, .f32]) hs hd) (shapeCast S128x64 (((extractStridedSlice S1x128x64 ![0, 0, 0] · slices_S3x128x64_S1x128x64_0_0_0) : 𝕋[S3x128x64, .f32] → 𝕋[S1x128x64, .f32]) a3) shapeCasts_S1x128x64_S128x64 : 𝕋[S128x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![0, 0] · slices_S3x64_S1x64_0_0) : 𝕋[S3x64, .f32] → 𝕋[S1x64, .f32]) a4) shapeCasts_S1x64_S64 : 𝕋[S64, .f32])))) ((broadcastInDim S800000x64 ![] bcast_S_S800000x64) (constant S_ .f32 0x00000000#32 : 𝕋[S_, .f32]) : 𝕋[S800000x64, .f32]) : 𝕋[S800000x64, .f32]) (shapeCast S64x64 (((extractStridedSlice S1x64x64 ![0, 0, 0] · slices_S3x64x64_S1x64x64_0_0_0) : 𝕋[S3x64x64, .f32] → 𝕋[S1x64x64, .f32]) a5) shapeCasts_S1x64x64_S64x64 : 𝕋[S64x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![0, 0] · slices_S3x64_S1x64_0_0) : 𝕋[S3x64, .f32] → 𝕋[S1x64, .f32]) a6) shapeCasts_S1x64_S64 : 𝕋[S64, .f32]))))

/-- The messages summed at their destination node: a scatter-add into zeros at `dst` (a negative index wrapped by 50000). -/
def agg (dst : 𝕋[S800000, .i32]) (msg : 𝕋[S800000x64, .f32]) : 𝕋[S50000x64, .f32] :=
  (((fun x i u => Host.scatterAdd scatter_S50000x64_S800000x1_S800000x64_1_0_0_1 x i u) : 𝕋[S50000x64, .f32] → 𝕋[S800000x1, .i32] → 𝕋[S800000x64, .f32] → 𝕋[S50000x64, .f32]) ((broadcastInDim S50000x64 ![] bcast_S_S50000x64 : 𝕋[S_, .f32] → 𝕋[S50000x64, .f32]) (constant S_ .f32 0x00000000#32 : 𝕋[S_, .f32])) ((broadcastInDim S800000x1 ![0] bcast_S800000_S800000x1_0 : 𝕋[S800000, .i32] → 𝕋[S800000x1, .i32]) ((select : 𝕋[S800000, .i1] → 𝕋[S800000, .i32] → 𝕋[S800000, .i32] → 𝕋[S800000, .i32]) ((cmpi .slt : 𝕋[S800000, .i32] → 𝕋[S800000, .i32] → 𝕋[S800000, .i1]) dst ((broadcastInDim S800000 ![] bcast_S_S800000 : 𝕋[S_, .i32] → 𝕋[S800000, .i32]) (constantI S_ 32 0#32 : 𝕋[S_, .i32]))) ((addi : 𝕋[S800000, .i32] → 𝕋[S800000, .i32] → 𝕋[S800000, .i32]) dst ((broadcastInDim S800000 ![] bcast_S_S800000 : 𝕋[S_, .i32] → 𝕋[S800000, .i32]) (constantI S_ 32 50000#32 : 𝕋[S_, .i32]))) dst)) msg)

/-- Layer 0's update `relu(h · Ws[0] + bs[0] + ag)`. -/
def upd0 (h : 𝕋[S50000x64, .f32]) (ag : 𝕋[S50000x64, .f32]) (a7 : 𝕋[S3x64x64, .f32]) (a8 : 𝕋[S3x64, .f32]) : 𝕋[S50000x64, .f32] :=
  (maximumf ((addf : 𝕋[S50000x64, .f32] → 𝕋[S50000x64, .f32] → 𝕋[S50000x64, .f32]) ((addf : 𝕋[S50000x64, .f32] → 𝕋[S50000x64, .f32] → 𝕋[S50000x64, .f32]) (((fun l r => Host.dotGeneral dot_S50000x64_S64x64_S50000x64_1_0_0_1_n_n none l r) : 𝕋[S50000x64, .f32] → 𝕋[S64x64, .f32] → 𝕋[S50000x64, .f32]) h (shapeCast S64x64 (((extractStridedSlice S1x64x64 ![0, 0, 0] · slices_S3x64x64_S1x64x64_0_0_0) : 𝕋[S3x64x64, .f32] → 𝕋[S1x64x64, .f32]) a7) shapeCasts_S1x64x64_S64x64 : 𝕋[S64x64, .f32])) ((broadcastInDim S50000x64 ![0, 1] bcast_S1x64_S50000x64_0_1 : 𝕋[S1x64, .f32] → 𝕋[S50000x64, .f32]) ((broadcastInDim S1x64 ![1] bcast_S64_S1x64_1 : 𝕋[S64, .f32] → 𝕋[S1x64, .f32]) (shapeCast S64 (((extractStridedSlice S1x64 ![0, 0] · slices_S3x64_S1x64_0_0) : 𝕋[S3x64, .f32] → 𝕋[S1x64, .f32]) a8) shapeCasts_S1x64_S64 : 𝕋[S64, .f32])))) ag) ((broadcastInDim S50000x64 ![] bcast_S_S50000x64) (constant S_ .f32 0x00000000#32 : 𝕋[S_, .f32]) : 𝕋[S50000x64, .f32]) : 𝕋[S50000x64, .f32])

/-- Layer 1's messages `relu([hs, hd] · W1[1] + b1[1]) · W2[1] + b2[1]`. -/
def msg1 (hs : 𝕋[S800000x64, .f32]) (hd : 𝕋[S800000x64, .f32]) (a3 : 𝕋[S3x128x64, .f32]) (a4 : 𝕋[S3x64, .f32]) (a5 : 𝕋[S3x64x64, .f32]) (a6 : 𝕋[S3x64, .f32]) : 𝕋[S800000x64, .f32] :=
  ((addf : 𝕋[S800000x64, .f32] → 𝕋[S800000x64, .f32] → 𝕋[S800000x64, .f32]) (((fun l r => Host.dotGeneral dot_S800000x64_S64x64_S800000x64_1_0_0_1_n_n none l r) : 𝕋[S800000x64, .f32] → 𝕋[S64x64, .f32] → 𝕋[S800000x64, .f32]) (maximumf ((addf : 𝕋[S800000x64, .f32] → 𝕋[S800000x64, .f32] → 𝕋[S800000x64, .f32]) (((fun l r => Host.dotGeneral dot_S800000x128_S128x64_S800000x64_1_0_0_1_n_n none l r) : 𝕋[S800000x128, .f32] → 𝕋[S128x64, .f32] → 𝕋[S800000x64, .f32]) (((fun a b => concatenate S800000x128 1 [⟨S800000x64, a⟩, ⟨S800000x64, b⟩] concatenates_S800000x64_S800000x64_S800000x128_d1) : 𝕋[S800000x64, .f32] → 𝕋[S800000x64, .f32] → 𝕋[S800000x128, .f32]) hs hd) (shapeCast S128x64 (((extractStridedSlice S1x128x64 ![1, 0, 0] · slices_S3x128x64_S1x128x64_1_0_0) : 𝕋[S3x128x64, .f32] → 𝕋[S1x128x64, .f32]) a3) shapeCasts_S1x128x64_S128x64 : 𝕋[S128x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![1, 0] · slices_S3x64_S1x64_1_0) : 𝕋[S3x64, .f32] → 𝕋[S1x64, .f32]) a4) shapeCasts_S1x64_S64 : 𝕋[S64, .f32])))) ((broadcastInDim S800000x64 ![] bcast_S_S800000x64) (constant S_ .f32 0x00000000#32 : 𝕋[S_, .f32]) : 𝕋[S800000x64, .f32]) : 𝕋[S800000x64, .f32]) (shapeCast S64x64 (((extractStridedSlice S1x64x64 ![1, 0, 0] · slices_S3x64x64_S1x64x64_1_0_0) : 𝕋[S3x64x64, .f32] → 𝕋[S1x64x64, .f32]) a5) shapeCasts_S1x64x64_S64x64 : 𝕋[S64x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![1, 0] · slices_S3x64_S1x64_1_0) : 𝕋[S3x64, .f32] → 𝕋[S1x64, .f32]) a6) shapeCasts_S1x64_S64 : 𝕋[S64, .f32]))))

/-- Layer 1's update `relu(h · Ws[1] + bs[1] + ag)`. -/
def upd1 (h : 𝕋[S50000x64, .f32]) (ag : 𝕋[S50000x64, .f32]) (a7 : 𝕋[S3x64x64, .f32]) (a8 : 𝕋[S3x64, .f32]) : 𝕋[S50000x64, .f32] :=
  (maximumf ((addf : 𝕋[S50000x64, .f32] → 𝕋[S50000x64, .f32] → 𝕋[S50000x64, .f32]) ((addf : 𝕋[S50000x64, .f32] → 𝕋[S50000x64, .f32] → 𝕋[S50000x64, .f32]) (((fun l r => Host.dotGeneral dot_S50000x64_S64x64_S50000x64_1_0_0_1_n_n none l r) : 𝕋[S50000x64, .f32] → 𝕋[S64x64, .f32] → 𝕋[S50000x64, .f32]) h (shapeCast S64x64 (((extractStridedSlice S1x64x64 ![1, 0, 0] · slices_S3x64x64_S1x64x64_1_0_0) : 𝕋[S3x64x64, .f32] → 𝕋[S1x64x64, .f32]) a7) shapeCasts_S1x64x64_S64x64 : 𝕋[S64x64, .f32])) ((broadcastInDim S50000x64 ![0, 1] bcast_S1x64_S50000x64_0_1 : 𝕋[S1x64, .f32] → 𝕋[S50000x64, .f32]) ((broadcastInDim S1x64 ![1] bcast_S64_S1x64_1 : 𝕋[S64, .f32] → 𝕋[S1x64, .f32]) (shapeCast S64 (((extractStridedSlice S1x64 ![1, 0] · slices_S3x64_S1x64_1_0) : 𝕋[S3x64, .f32] → 𝕋[S1x64, .f32]) a8) shapeCasts_S1x64_S64 : 𝕋[S64, .f32])))) ag) ((broadcastInDim S50000x64 ![] bcast_S_S50000x64) (constant S_ .f32 0x00000000#32 : 𝕋[S_, .f32]) : 𝕋[S50000x64, .f32]) : 𝕋[S50000x64, .f32])

/-- Layer 2's messages `relu([hs, hd] · W1[2] + b1[2]) · W2[2] + b2[2]`. -/
def msg2 (hs : 𝕋[S800000x64, .f32]) (hd : 𝕋[S800000x64, .f32]) (a3 : 𝕋[S3x128x64, .f32]) (a4 : 𝕋[S3x64, .f32]) (a5 : 𝕋[S3x64x64, .f32]) (a6 : 𝕋[S3x64, .f32]) : 𝕋[S800000x64, .f32] :=
  ((addf : 𝕋[S800000x64, .f32] → 𝕋[S800000x64, .f32] → 𝕋[S800000x64, .f32]) (((fun l r => Host.dotGeneral dot_S800000x64_S64x64_S800000x64_1_0_0_1_n_n none l r) : 𝕋[S800000x64, .f32] → 𝕋[S64x64, .f32] → 𝕋[S800000x64, .f32]) (maximumf ((addf : 𝕋[S800000x64, .f32] → 𝕋[S800000x64, .f32] → 𝕋[S800000x64, .f32]) (((fun l r => Host.dotGeneral dot_S800000x128_S128x64_S800000x64_1_0_0_1_n_n none l r) : 𝕋[S800000x128, .f32] → 𝕋[S128x64, .f32] → 𝕋[S800000x64, .f32]) (((fun a b => concatenate S800000x128 1 [⟨S800000x64, a⟩, ⟨S800000x64, b⟩] concatenates_S800000x64_S800000x64_S800000x128_d1) : 𝕋[S800000x64, .f32] → 𝕋[S800000x64, .f32] → 𝕋[S800000x128, .f32]) hs hd) (shapeCast S128x64 (((extractStridedSlice S1x128x64 ![2, 0, 0] · slices_S3x128x64_S1x128x64_2_0_0) : 𝕋[S3x128x64, .f32] → 𝕋[S1x128x64, .f32]) a3) shapeCasts_S1x128x64_S128x64 : 𝕋[S128x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![2, 0] · slices_S3x64_S1x64_2_0) : 𝕋[S3x64, .f32] → 𝕋[S1x64, .f32]) a4) shapeCasts_S1x64_S64 : 𝕋[S64, .f32])))) ((broadcastInDim S800000x64 ![] bcast_S_S800000x64) (constant S_ .f32 0x00000000#32 : 𝕋[S_, .f32]) : 𝕋[S800000x64, .f32]) : 𝕋[S800000x64, .f32]) (shapeCast S64x64 (((extractStridedSlice S1x64x64 ![2, 0, 0] · slices_S3x64x64_S1x64x64_2_0_0) : 𝕋[S3x64x64, .f32] → 𝕋[S1x64x64, .f32]) a5) shapeCasts_S1x64x64_S64x64 : 𝕋[S64x64, .f32])) ((broadcastInDim S800000x64 ![0, 1] bcast_S1x64_S800000x64_0_1 : 𝕋[S1x64, .f32] → 𝕋[S800000x64, .f32]) ((broadcastInDim S1x64 ![1] bcast_S64_S1x64_1 : 𝕋[S64, .f32] → 𝕋[S1x64, .f32]) (shapeCast S64 (((extractStridedSlice S1x64 ![2, 0] · slices_S3x64_S1x64_2_0) : 𝕋[S3x64, .f32] → 𝕋[S1x64, .f32]) a6) shapeCasts_S1x64_S64 : 𝕋[S64, .f32]))))

/-- Layer 2's update `relu(h · Ws[2] + bs[2] + ag)`. -/
def upd2 (h : 𝕋[S50000x64, .f32]) (ag : 𝕋[S50000x64, .f32]) (a7 : 𝕋[S3x64x64, .f32]) (a8 : 𝕋[S3x64, .f32]) : 𝕋[S50000x64, .f32] :=
  (maximumf ((addf : 𝕋[S50000x64, .f32] → 𝕋[S50000x64, .f32] → 𝕋[S50000x64, .f32]) ((addf : 𝕋[S50000x64, .f32] → 𝕋[S50000x64, .f32] → 𝕋[S50000x64, .f32]) (((fun l r => Host.dotGeneral dot_S50000x64_S64x64_S50000x64_1_0_0_1_n_n none l r) : 𝕋[S50000x64, .f32] → 𝕋[S64x64, .f32] → 𝕋[S50000x64, .f32]) h (shapeCast S64x64 (((extractStridedSlice S1x64x64 ![2, 0, 0] · slices_S3x64x64_S1x64x64_2_0_0) : 𝕋[S3x64x64, .f32] → 𝕋[S1x64x64, .f32]) a7) shapeCasts_S1x64x64_S64x64 : 𝕋[S64x64, .f32])) ((broadcastInDim S50000x64 ![0, 1] bcast_S1x64_S50000x64_0_1 : 𝕋[S1x64, .f32] → 𝕋[S50000x64, .f32]) ((broadcastInDim S1x64 ![1] bcast_S64_S1x64_1 : 𝕋[S64, .f32] → 𝕋[S1x64, .f32]) (shapeCast S64 (((extractStridedSlice S1x64 ![2, 0] · slices_S3x64_S1x64_2_0) : 𝕋[S3x64, .f32] → 𝕋[S1x64, .f32]) a8) shapeCasts_S1x64_S64 : 𝕋[S64, .f32])))) ag) ((broadcastInDim S50000x64 ![] bcast_S_S50000x64) (constant S_ .f32 0x00000000#32 : 𝕋[S_, .f32]) : 𝕋[S50000x64, .f32]) : 𝕋[S50000x64, .f32])

/-- The read-out `relu(mean_n(h) · Wo1 + bo1) · Wo2 + bo2`, the mean as the sum over the nodes divided by 50000. -/
def readout (h : 𝕋[S50000x64, .f32]) (a9 : 𝕋[S64x64, .f32]) (a10 : 𝕋[S64, .f32]) (a11 : 𝕋[S64x1, .f32]) (a12 : 𝕋[S1, .f32]) : 𝕋[S1x1, .f32] :=
  ((addf : 𝕋[S1x1, .f32] → 𝕋[S1x1, .f32] → 𝕋[S1x1, .f32]) (((fun l r => Host.dotGeneral dot_S1x64_S64x1_S1x1_1_0_0_1_n_n none l r) : 𝕋[S1x64, .f32] → 𝕋[S64x1, .f32] → 𝕋[S1x1, .f32]) (maximumf ((addf : 𝕋[S1x64, .f32] → 𝕋[S1x64, .f32] → 𝕋[S1x64, .f32]) (((fun l r => Host.dotGeneral dot_S1x64_S64x64_S1x64_1_0_0_1_n_n none l r) : 𝕋[S1x64, .f32] → 𝕋[S64x64, .f32] → 𝕋[S1x64, .f32]) ((Host.divf : 𝕋[S1x64, .f32] → 𝕋[S1x64, .f32] → 𝕋[S1x64, .f32]) ((broadcastInDim S1x64 ![1] bcast_S64_S1x64_1 : 𝕋[S64, .f32] → 𝕋[S1x64, .f32]) (((fun x v => Host.reduceAdd x v reducesTo_S50000x64_S64_d0 h_S_) : 𝕋[S50000x64, .f32] → 𝕋[S_, .f32] → 𝕋[S64, .f32]) h (constant S_ .f32 0x00000000#32 : 𝕋[S_, .f32]))) ((broadcastInDim S1x64 ![] bcast_S_S1x64 : 𝕋[S_, .f32] → 𝕋[S1x64, .f32]) (constant S_ .f32 0x47435000#32 : 𝕋[S_, .f32]))) a9) ((broadcastInDim S1x64 ![1] bcast_S64_S1x64_1 : 𝕋[S64, .f32] → 𝕋[S1x64, .f32]) a10)) ((broadcastInDim S1x64 ![] bcast_S_S1x64) (constant S_ .f32 0x00000000#32 : 𝕋[S_, .f32]) : 𝕋[S1x64, .f32]) : 𝕋[S1x64, .f32]) a11) ((broadcastInDim S1x1 ![1] bcast_S1_S1x1_1 : 𝕋[S1, .f32] → 𝕋[S1x1, .f32]) a12))

/-- Layer 0: gather `h` at the edges' two ends, form the messages, sum them at their destinations, update. -/
def layer0 (h : 𝕋[S50000x64, .f32]) (src dst : 𝕋[S800000, .i32]) (a3 : 𝕋[S3x128x64, .f32]) (a4 : 𝕋[S3x64, .f32]) (a5 : 𝕋[S3x64x64, .f32]) (a6 : 𝕋[S3x64, .f32]) (a7 : 𝕋[S3x64x64, .f32]) (a8 : 𝕋[S3x64, .f32]) : 𝕋[S50000x64, .f32] :=
  upd0 h (agg dst (msg0 (takeE h src) (takeE h dst) a3 a4 a5 a6)) a7 a8

/-- Layer 1: gather `h` at the edges' two ends, form the messages, sum them at their destinations, update. -/
def layer1 (h : 𝕋[S50000x64, .f32]) (src dst : 𝕋[S800000, .i32]) (a3 : 𝕋[S3x128x64, .f32]) (a4 : 𝕋[S3x64, .f32]) (a5 : 𝕋[S3x64x64, .f32]) (a6 : 𝕋[S3x64, .f32]) (a7 : 𝕋[S3x64x64, .f32]) (a8 : 𝕋[S3x64, .f32]) : 𝕋[S50000x64, .f32] :=
  upd1 h (agg dst (msg1 (takeE h src) (takeE h dst) a3 a4 a5 a6)) a7 a8

/-- Layer 2: gather `h` at the edges' two ends, form the messages, sum them at their destinations, update. -/
def layer2 (h : 𝕋[S50000x64, .f32]) (src dst : 𝕋[S800000, .i32]) (a3 : 𝕋[S3x128x64, .f32]) (a4 : 𝕋[S3x64, .f32]) (a5 : 𝕋[S3x64x64, .f32]) (a6 : 𝕋[S3x64, .f32]) (a7 : 𝕋[S3x64x64, .f32]) (a8 : 𝕋[S3x64, .f32]) : 𝕋[S50000x64, .f32] :=
  upd2 h (agg dst (msg2 (takeE h src) (takeE h dst) a3 a4 a5 a6)) a7 a8

/-- The reference's result as a function of its thirteen argument arrays (in @main's order: `x`, `edge_index`,
    `embed`, `msg_w1`, `msg_b1`, `msg_w2`, `msg_b2`, `self_w`, `self_b`, `out_w1`, `out_b1`, `out_w2`, `out_b2`). -/
def result (a0 : 𝕋[S50000, .i32]) (a1 : 𝕋[S2x800000, .i32]) (a2 : 𝕋[S120x64, .f32]) (a3 : 𝕋[S3x128x64, .f32]) (a4 : 𝕋[S3x64, .f32]) (a5 : 𝕋[S3x64x64, .f32]) (a6 : 𝕋[S3x64, .f32]) (a7 : 𝕋[S3x64x64, .f32]) (a8 : 𝕋[S3x64, .f32]) (a9 : 𝕋[S64x64, .f32]) (a10 : 𝕋[S64, .f32]) (a11 : 𝕋[S64x1, .f32]) (a12 : 𝕋[S1, .f32]) : 𝕋[S1x1, .f32] :=
  readout
    (layer2
      (layer1
        (layer0 (take0 a2 a0) (rowSrc a1) (rowDst a1) a3 a4 a5 a6 a7 a8)
        (rowSrc a1) (rowDst a1) a3 a4 a5 a6 a7 a8)
      (rowSrc a1) (rowDst a1) a3 a4 a5 a6 a7 a8)
    a9 a10 a11 a12

/-! ## Each piece leaves its stage at its result, and keeps what it does not write -/

set_option maxRecDepth 16384 in
set_option maxHeartbeats 2300000 in
/-- The piece's result with the typed references' transports still in place: at the root and at the operands. -/
theorem T0_val' (V : Valuation τ sig (Elt F)) :
    after T0 V (main_v0 : DevRef τ sig)
      = (TRef.of (T := ⟨S50000x64, .f32⟩) main_v0).toBuf
          (take0 ((TRef.of (T := ⟨S120x64, .f32⟩) main_arg2).ofBuf (V (main_arg2 : DevRef τ sig)))
            ((TRef.of (T := ⟨S50000, .i32⟩) main_arg0).ofBuf (V (main_arg0 : DevRef τ sig)))) := by
  after_results_simp
  simp only [ofBuf_toBuf, take0]

/-- The transports are the identity at these literal references. -/
theorem T0_val (V : Valuation τ sig (Elt F)) :
    after T0 V (main_v0 : DevRef τ sig) = take0 (V (main_arg2 : DevRef τ sig)) (V (main_arg0 : DevRef τ sig)) := by
  have e0 : (TRef.of (T := ⟨S120x64, .f32⟩) main_arg2).ofBuf (V (main_arg2 : DevRef τ sig)) = V (main_arg2 : DevRef τ sig) := rfl
  have e1 : (TRef.of (T := ⟨S50000, .i32⟩) main_arg0).ofBuf (V (main_arg0 : DevRef τ sig)) = V (main_arg0 : DevRef τ sig) := rfl
  rw [T0_val' V, e0, e1]
  generalize take0 (V (main_arg2 : DevRef τ sig)) (V (main_arg0 : DevRef τ sig)) = X
  rfl

theorem T0_keep (V : Valuation τ sig (Elt F)) {r : Ref sig .tc} (hr : r ∉ T0_ws) :
    after T0 V (r : DevRef τ sig) = V (r : DevRef τ sig) :=
  after_of_not_written T0_writes V hr

set_option maxRecDepth 16384 in
set_option maxHeartbeats 400000 in
theorem IDX_val_v2 (V : Valuation τ sig (Elt F)) :
    after IDX V (main_v2 : DevRef τ sig) = rowSrc (V (main_arg1 : DevRef τ sig)) := by
  after_results_simp <;> rfl

set_option maxRecDepth 16384 in
set_option maxHeartbeats 400000 in
theorem IDX_val_v4 (V : Valuation τ sig (Elt F)) :
    after IDX V (main_v4 : DevRef τ sig) = rowDst (V (main_arg1 : DevRef τ sig)) := by
  after_results_simp <;> rfl

theorem IDX_keep (V : Valuation τ sig (Elt F)) {r : Ref sig .tc} (hr : r ∉ IDX_ws) :
    after IDX V (r : DevRef τ sig) = V (r : DevRef τ sig) :=
  after_of_not_written IDX_writes V hr

set_option maxRecDepth 16384 in
set_option maxHeartbeats 2300000 in
/-- The piece's result with the typed references' transports still in place: at the root and at the operands. -/
theorem TS0_val' (V : Valuation τ sig (Elt F)) :
    after TS0 V (main_v5 : DevRef τ sig)
      = (TRef.of (T := ⟨S800000x64, .f32⟩) main_v5).toBuf
          (takeE ((TRef.of (T := ⟨S50000x64, .f32⟩) main_v0).ofBuf (V (main_v0 : DevRef τ sig)))
            ((TRef.of (T := ⟨S800000, .i32⟩) main_v2).ofBuf (V (main_v2 : DevRef τ sig)))) := by
  after_results_simp
  simp only [ofBuf_toBuf, takeE]

/-- The transports are the identity at these literal references. -/
theorem TS0_val (V : Valuation τ sig (Elt F)) :
    after TS0 V (main_v5 : DevRef τ sig) = takeE (V (main_v0 : DevRef τ sig)) (V (main_v2 : DevRef τ sig)) := by
  have e0 : (TRef.of (T := ⟨S50000x64, .f32⟩) main_v0).ofBuf (V (main_v0 : DevRef τ sig)) = V (main_v0 : DevRef τ sig) := rfl
  have e1 : (TRef.of (T := ⟨S800000, .i32⟩) main_v2).ofBuf (V (main_v2 : DevRef τ sig)) = V (main_v2 : DevRef τ sig) := rfl
  rw [TS0_val' V, e0, e1]
  generalize takeE (V (main_v0 : DevRef τ sig)) (V (main_v2 : DevRef τ sig)) = X
  rfl

theorem TS0_keep (V : Valuation τ sig (Elt F)) {r : Ref sig .tc} (hr : r ∉ TS0_ws) :
    after TS0 V (r : DevRef τ sig) = V (r : DevRef τ sig) :=
  after_of_not_written TS0_writes V hr

set_option maxRecDepth 16384 in
set_option maxHeartbeats 2300000 in
/-- The piece's result with the typed references' transports still in place: at the root and at the operands. -/
theorem TD0_val' (V : Valuation τ sig (Elt F)) :
    after TD0 V (main_v6 : DevRef τ sig)
      = (TRef.of (T := ⟨S800000x64, .f32⟩) main_v6).toBuf
          (takeE ((TRef.of (T := ⟨S50000x64, .f32⟩) main_v0).ofBuf (V (main_v0 : DevRef τ sig)))
            ((TRef.of (T := ⟨S800000, .i32⟩) main_v4).ofBuf (V (main_v4 : DevRef τ sig)))) := by
  after_results_simp
  simp only [ofBuf_toBuf, takeE]

/-- The transports are the identity at these literal references. -/
theorem TD0_val (V : Valuation τ sig (Elt F)) :
    after TD0 V (main_v6 : DevRef τ sig) = takeE (V (main_v0 : DevRef τ sig)) (V (main_v4 : DevRef τ sig)) := by
  have e0 : (TRef.of (T := ⟨S50000x64, .f32⟩) main_v0).ofBuf (V (main_v0 : DevRef τ sig)) = V (main_v0 : DevRef τ sig) := rfl
  have e1 : (TRef.of (T := ⟨S800000, .i32⟩) main_v4).ofBuf (V (main_v4 : DevRef τ sig)) = V (main_v4 : DevRef τ sig) := rfl
  rw [TD0_val' V, e0, e1]
  generalize takeE (V (main_v0 : DevRef τ sig)) (V (main_v4 : DevRef τ sig)) = X
  rfl

theorem TD0_keep (V : Valuation τ sig (Elt F)) {r : Ref sig .tc} (hr : r ∉ TD0_ws) :
    after TD0 V (r : DevRef τ sig) = V (r : DevRef τ sig) :=
  after_of_not_written TD0_writes V hr

set_option maxRecDepth 16384 in
set_option maxHeartbeats 2000000 in
theorem MSG0_val (V : Valuation τ sig (Elt F)) :
    after MSG0 V (main_v24 : DevRef τ sig) = msg0 (V (main_v5 : DevRef τ sig)) (V (main_v6 : DevRef τ sig)) (V (main_arg3 : DevRef τ sig)) (V (main_arg4 : DevRef τ sig)) (V (main_arg5 : DevRef τ sig)) (V (main_arg6 : DevRef τ sig)) := by
  after_results_simp <;> rfl

theorem MSG0_keep (V : Valuation τ sig (Elt F)) {r : Ref sig .tc} (hr : r ∉ MSG0_ws) :
    after MSG0 V (r : DevRef τ sig) = V (r : DevRef τ sig) :=
  after_of_not_written MSG0_writes V hr

set_option maxRecDepth 16384 in
set_option maxHeartbeats 1100000 in
theorem AGG0_val (V : Valuation τ sig (Elt F)) :
    after AGG0 V (main_v32 : DevRef τ sig) = agg (V (main_v4 : DevRef τ sig)) (V (main_v24 : DevRef τ sig)) := by
  after_results_simp <;> rfl

theorem AGG0_keep (V : Valuation τ sig (Elt F)) {r : Ref sig .tc} (hr : r ∉ AGG0_ws) :
    after AGG0 V (r : DevRef τ sig) = V (r : DevRef τ sig) :=
  after_of_not_written AGG0_writes V hr

set_option maxRecDepth 16384 in
set_option maxHeartbeats 1200000 in
theorem UPD0_val (V : Valuation τ sig (Elt F)) :
    after UPD0 V (main_v42 : DevRef τ sig) = upd0 (V (main_v0 : DevRef τ sig)) (V (main_v32 : DevRef τ sig)) (V (main_arg7 : DevRef τ sig)) (V (main_arg8 : DevRef τ sig)) := by
  after_results_simp <;> rfl

theorem UPD0_keep (V : Valuation τ sig (Elt F)) {r : Ref sig .tc} (hr : r ∉ UPD0_ws) :
    after UPD0 V (r : DevRef τ sig) = V (r : DevRef τ sig) :=
  after_of_not_written UPD0_writes V hr

set_option maxRecDepth 16384 in
set_option maxHeartbeats 2300000 in
/-- The piece's result with the typed references' transports still in place: at the root and at the operands. -/
theorem TS1_val' (V : Valuation τ sig (Elt F)) :
    after TS1 V (main_v43 : DevRef τ sig)
      = (TRef.of (T := ⟨S800000x64, .f32⟩) main_v43).toBuf
          (takeE ((TRef.of (T := ⟨S50000x64, .f32⟩) main_v42).ofBuf (V (main_v42 : DevRef τ sig)))
            ((TRef.of (T := ⟨S800000, .i32⟩) main_v2).ofBuf (V (main_v2 : DevRef τ sig)))) := by
  after_results_simp
  simp only [ofBuf_toBuf, takeE]

/-- The transports are the identity at these literal references. -/
theorem TS1_val (V : Valuation τ sig (Elt F)) :
    after TS1 V (main_v43 : DevRef τ sig) = takeE (V (main_v42 : DevRef τ sig)) (V (main_v2 : DevRef τ sig)) := by
  have e0 : (TRef.of (T := ⟨S50000x64, .f32⟩) main_v42).ofBuf (V (main_v42 : DevRef τ sig)) = V (main_v42 : DevRef τ sig) := rfl
  have e1 : (TRef.of (T := ⟨S800000, .i32⟩) main_v2).ofBuf (V (main_v2 : DevRef τ sig)) = V (main_v2 : DevRef τ sig) := rfl
  rw [TS1_val' V, e0, e1]
  generalize takeE (V (main_v42 : DevRef τ sig)) (V (main_v2 : DevRef τ sig)) = X
  rfl

theorem TS1_keep (V : Valuation τ sig (Elt F)) {r : Ref sig .tc} (hr : r ∉ TS1_ws) :
    after TS1 V (r : DevRef τ sig) = V (r : DevRef τ sig) :=
  after_of_not_written TS1_writes V hr

set_option maxRecDepth 16384 in
set_option maxHeartbeats 2300000 in
/-- The piece's result with the typed references' transports still in place: at the root and at the operands. -/
theorem TD1_val' (V : Valuation τ sig (Elt F)) :
    after TD1 V (main_v44 : DevRef τ sig)
      = (TRef.of (T := ⟨S800000x64, .f32⟩) main_v44).toBuf
          (takeE ((TRef.of (T := ⟨S50000x64, .f32⟩) main_v42).ofBuf (V (main_v42 : DevRef τ sig)))
            ((TRef.of (T := ⟨S800000, .i32⟩) main_v4).ofBuf (V (main_v4 : DevRef τ sig)))) := by
  after_results_simp
  simp only [ofBuf_toBuf, takeE]

/-- The transports are the identity at these literal references. -/
theorem TD1_val (V : Valuation τ sig (Elt F)) :
    after TD1 V (main_v44 : DevRef τ sig) = takeE (V (main_v42 : DevRef τ sig)) (V (main_v4 : DevRef τ sig)) := by
  have e0 : (TRef.of (T := ⟨S50000x64, .f32⟩) main_v42).ofBuf (V (main_v42 : DevRef τ sig)) = V (main_v42 : DevRef τ sig) := rfl
  have e1 : (TRef.of (T := ⟨S800000, .i32⟩) main_v4).ofBuf (V (main_v4 : DevRef τ sig)) = V (main_v4 : DevRef τ sig) := rfl
  rw [TD1_val' V, e0, e1]
  generalize takeE (V (main_v42 : DevRef τ sig)) (V (main_v4 : DevRef τ sig)) = X
  rfl

theorem TD1_keep (V : Valuation τ sig (Elt F)) {r : Ref sig .tc} (hr : r ∉ TD1_ws) :
    after TD1 V (r : DevRef τ sig) = V (r : DevRef τ sig) :=
  after_of_not_written TD1_writes V hr

set_option maxRecDepth 16384 in
set_option maxHeartbeats 2000000 in
theorem MSG1_val (V : Valuation τ sig (Elt F)) :
    after MSG1b (after MSG1a (V)) (main_v62 : DevRef τ sig) = msg1 (V (main_v43 : DevRef τ sig)) (V (main_v44 : DevRef τ sig)) (V (main_arg3 : DevRef τ sig)) (V (main_arg4 : DevRef τ sig)) (V (main_arg5 : DevRef τ sig)) (V (main_arg6 : DevRef τ sig)) := by
  after_results_simp <;> rfl

theorem MSG1_keep (V : Valuation τ sig (Elt F)) {r : Ref sig .tc} (hr : r ∉ MSG1a_ws ++ MSG1b_ws) :
    after MSG1b (after MSG1a V) (r : DevRef τ sig) = V (r : DevRef τ sig) := by
  rw [← after_append]
  exact after_of_not_written (writesAre_append MSG1a_writes MSG1b_writes) V hr

set_option maxRecDepth 16384 in
set_option maxHeartbeats 1100000 in
theorem AGG1_val (V : Valuation τ sig (Elt F)) :
    after AGG1 V (main_v70 : DevRef τ sig) = agg (V (main_v4 : DevRef τ sig)) (V (main_v62 : DevRef τ sig)) := by
  after_results_simp <;> rfl

theorem AGG1_keep (V : Valuation τ sig (Elt F)) {r : Ref sig .tc} (hr : r ∉ AGG1_ws) :
    after AGG1 V (r : DevRef τ sig) = V (r : DevRef τ sig) :=
  after_of_not_written AGG1_writes V hr

set_option maxRecDepth 16384 in
set_option maxHeartbeats 1200000 in
theorem UPD1_val (V : Valuation τ sig (Elt F)) :
    after UPD1 V (main_v80 : DevRef τ sig) = upd1 (V (main_v42 : DevRef τ sig)) (V (main_v70 : DevRef τ sig)) (V (main_arg7 : DevRef τ sig)) (V (main_arg8 : DevRef τ sig)) := by
  after_results_simp <;> rfl

theorem UPD1_keep (V : Valuation τ sig (Elt F)) {r : Ref sig .tc} (hr : r ∉ UPD1_ws) :
    after UPD1 V (r : DevRef τ sig) = V (r : DevRef τ sig) :=
  after_of_not_written UPD1_writes V hr

set_option maxRecDepth 16384 in
set_option maxHeartbeats 2300000 in
/-- The piece's result with the typed references' transports still in place: at the root and at the operands. -/
theorem TS2_val' (V : Valuation τ sig (Elt F)) :
    after TS2 V (main_v81 : DevRef τ sig)
      = (TRef.of (T := ⟨S800000x64, .f32⟩) main_v81).toBuf
          (takeE ((TRef.of (T := ⟨S50000x64, .f32⟩) main_v80).ofBuf (V (main_v80 : DevRef τ sig)))
            ((TRef.of (T := ⟨S800000, .i32⟩) main_v2).ofBuf (V (main_v2 : DevRef τ sig)))) := by
  after_results_simp
  simp only [ofBuf_toBuf, takeE]

/-- The transports are the identity at these literal references. -/
theorem TS2_val (V : Valuation τ sig (Elt F)) :
    after TS2 V (main_v81 : DevRef τ sig) = takeE (V (main_v80 : DevRef τ sig)) (V (main_v2 : DevRef τ sig)) := by
  have e0 : (TRef.of (T := ⟨S50000x64, .f32⟩) main_v80).ofBuf (V (main_v80 : DevRef τ sig)) = V (main_v80 : DevRef τ sig) := rfl
  have e1 : (TRef.of (T := ⟨S800000, .i32⟩) main_v2).ofBuf (V (main_v2 : DevRef τ sig)) = V (main_v2 : DevRef τ sig) := rfl
  rw [TS2_val' V, e0, e1]
  generalize takeE (V (main_v80 : DevRef τ sig)) (V (main_v2 : DevRef τ sig)) = X
  rfl

theorem TS2_keep (V : Valuation τ sig (Elt F)) {r : Ref sig .tc} (hr : r ∉ TS2_ws) :
    after TS2 V (r : DevRef τ sig) = V (r : DevRef τ sig) :=
  after_of_not_written TS2_writes V hr

set_option maxRecDepth 16384 in
set_option maxHeartbeats 2300000 in
/-- The piece's result with the typed references' transports still in place: at the root and at the operands. -/
theorem TD2_val' (V : Valuation τ sig (Elt F)) :
    after TD2 V (main_v82 : DevRef τ sig)
      = (TRef.of (T := ⟨S800000x64, .f32⟩) main_v82).toBuf
          (takeE ((TRef.of (T := ⟨S50000x64, .f32⟩) main_v80).ofBuf (V (main_v80 : DevRef τ sig)))
            ((TRef.of (T := ⟨S800000, .i32⟩) main_v4).ofBuf (V (main_v4 : DevRef τ sig)))) := by
  after_results_simp
  simp only [ofBuf_toBuf, takeE]

/-- The transports are the identity at these literal references. -/
theorem TD2_val (V : Valuation τ sig (Elt F)) :
    after TD2 V (main_v82 : DevRef τ sig) = takeE (V (main_v80 : DevRef τ sig)) (V (main_v4 : DevRef τ sig)) := by
  have e0 : (TRef.of (T := ⟨S50000x64, .f32⟩) main_v80).ofBuf (V (main_v80 : DevRef τ sig)) = V (main_v80 : DevRef τ sig) := rfl
  have e1 : (TRef.of (T := ⟨S800000, .i32⟩) main_v4).ofBuf (V (main_v4 : DevRef τ sig)) = V (main_v4 : DevRef τ sig) := rfl
  rw [TD2_val' V, e0, e1]
  generalize takeE (V (main_v80 : DevRef τ sig)) (V (main_v4 : DevRef τ sig)) = X
  rfl

theorem TD2_keep (V : Valuation τ sig (Elt F)) {r : Ref sig .tc} (hr : r ∉ TD2_ws) :
    after TD2 V (r : DevRef τ sig) = V (r : DevRef τ sig) :=
  after_of_not_written TD2_writes V hr

set_option maxRecDepth 16384 in
set_option maxHeartbeats 2000000 in
theorem MSG2_val (V : Valuation τ sig (Elt F)) :
    after MSG2 V (main_v100 : DevRef τ sig) = msg2 (V (main_v81 : DevRef τ sig)) (V (main_v82 : DevRef τ sig)) (V (main_arg3 : DevRef τ sig)) (V (main_arg4 : DevRef τ sig)) (V (main_arg5 : DevRef τ sig)) (V (main_arg6 : DevRef τ sig)) := by
  after_results_simp <;> rfl

theorem MSG2_keep (V : Valuation τ sig (Elt F)) {r : Ref sig .tc} (hr : r ∉ MSG2_ws) :
    after MSG2 V (r : DevRef τ sig) = V (r : DevRef τ sig) :=
  after_of_not_written MSG2_writes V hr

set_option maxRecDepth 16384 in
set_option maxHeartbeats 1100000 in
theorem AGG2_val (V : Valuation τ sig (Elt F)) :
    after AGG2 V (main_v108 : DevRef τ sig) = agg (V (main_v4 : DevRef τ sig)) (V (main_v100 : DevRef τ sig)) := by
  after_results_simp <;> rfl

theorem AGG2_keep (V : Valuation τ sig (Elt F)) {r : Ref sig .tc} (hr : r ∉ AGG2_ws) :
    after AGG2 V (r : DevRef τ sig) = V (r : DevRef τ sig) :=
  after_of_not_written AGG2_writes V hr

set_option maxRecDepth 16384 in
set_option maxHeartbeats 1200000 in
theorem UPD2_val (V : Valuation τ sig (Elt F)) :
    after UPD2b (after UPD2a (V)) (main_v118 : DevRef τ sig) = upd2 (V (main_v80 : DevRef τ sig)) (V (main_v108 : DevRef τ sig)) (V (main_arg7 : DevRef τ sig)) (V (main_arg8 : DevRef τ sig)) := by
  after_results_simp <;> rfl

theorem UPD2_keep (V : Valuation τ sig (Elt F)) {r : Ref sig .tc} (hr : r ∉ UPD2a_ws ++ UPD2b_ws) :
    after UPD2b (after UPD2a V) (r : DevRef τ sig) = V (r : DevRef τ sig) := by
  rw [← after_append]
  exact after_of_not_written (writesAre_append UPD2a_writes UPD2b_writes) V hr

set_option maxRecDepth 16384 in
set_option maxHeartbeats 1500000 in
theorem OUT_val (V : Valuation τ sig (Elt F)) :
    after OUT V (main_v129 : DevRef τ sig) = readout (V (main_v118 : DevRef τ sig)) (V (main_arg9 : DevRef τ sig)) (V (main_arg10 : DevRef τ sig)) (V (main_arg11 : DevRef τ sig)) (V (main_arg12 : DevRef τ sig)) := by
  after_results_simp <;> rfl

theorem OUT_keep (V : Valuation τ sig (Elt F)) {r : Ref sig .tc} (hr : r ∉ OUT_ws) :
    after OUT V (r : DevRef τ sig) = V (r : DevRef τ sig) :=
  after_of_not_written OUT_writes V hr

/-! ## The whole line -/

set_option maxRecDepth 16384 in
set_option maxHeartbeats 4000000 in
/-- The line leaves `result` of the arguments' contents at the result buffer: piece after piece, each stage's
    lemma rewritten by what the earlier pieces left at its operands, the contents in between kept abstract. -/
theorem result_chain (V : Valuation τ sig (Elt F)) (a0 : 𝕋[S50000, .i32]) (a1 : 𝕋[S2x800000, .i32]) (a2 : 𝕋[S120x64, .f32]) (a3 : 𝕋[S3x128x64, .f32]) (a4 : 𝕋[S3x64, .f32]) (a5 : 𝕋[S3x64x64, .f32]) (a6 : 𝕋[S3x64, .f32]) (a7 : 𝕋[S3x64x64, .f32]) (a8 : 𝕋[S3x64, .f32]) (a9 : 𝕋[S64x64, .f32]) (a10 : 𝕋[S64, .f32]) (a11 : 𝕋[S64x1, .f32]) (a12 : 𝕋[S1, .f32])
    (h0 : V (main_arg0 : DevRef τ sig) = a0)
    (h1 : V (main_arg1 : DevRef τ sig) = a1)
    (h2 : V (main_arg2 : DevRef τ sig) = a2)
    (h3 : V (main_arg3 : DevRef τ sig) = a3)
    (h4 : V (main_arg4 : DevRef τ sig) = a4)
    (h5 : V (main_arg5 : DevRef τ sig) = a5)
    (h6 : V (main_arg6 : DevRef τ sig) = a6)
    (h7 : V (main_arg7 : DevRef τ sig) = a7)
    (h8 : V (main_arg8 : DevRef τ sig) = a8)
    (h9 : V (main_arg9 : DevRef τ sig) = a9)
    (h10 : V (main_arg10 : DevRef τ sig) = a10)
    (h11 : V (main_arg11 : DevRef τ sig) = a11)
    (h12 : V (main_arg12 : DevRef τ sig) = a12) :
    after ops V (main_v129 : DevRef τ sig) = result a0 a1 a2 a3 a4 a5 a6 a7 a8 a9 a10 a11 a12 := by
  simp only [ops, after_append]
  have e1_v0 : after T0 V (main_v0 : DevRef τ sig) = (take0 a2 a0) := by
    rw [T0_val V, h2, h0]
  have e1_arg1 : after T0 V (main_arg1 : DevRef τ sig) = a1 :=
    (T0_keep V (r := main_arg1) (by decide)).trans h1
  have e1_arg3 : after T0 V (main_arg3 : DevRef τ sig) = a3 :=
    (T0_keep V (r := main_arg3) (by decide)).trans h3
  have e1_arg4 : after T0 V (main_arg4 : DevRef τ sig) = a4 :=
    (T0_keep V (r := main_arg4) (by decide)).trans h4
  have e1_arg5 : after T0 V (main_arg5 : DevRef τ sig) = a5 :=
    (T0_keep V (r := main_arg5) (by decide)).trans h5
  have e1_arg6 : after T0 V (main_arg6 : DevRef τ sig) = a6 :=
    (T0_keep V (r := main_arg6) (by decide)).trans h6
  have e1_arg7 : after T0 V (main_arg7 : DevRef τ sig) = a7 :=
    (T0_keep V (r := main_arg7) (by decide)).trans h7
  have e1_arg8 : after T0 V (main_arg8 : DevRef τ sig) = a8 :=
    (T0_keep V (r := main_arg8) (by decide)).trans h8
  have e1_arg9 : after T0 V (main_arg9 : DevRef τ sig) = a9 :=
    (T0_keep V (r := main_arg9) (by decide)).trans h9
  have e1_arg10 : after T0 V (main_arg10 : DevRef τ sig) = a10 :=
    (T0_keep V (r := main_arg10) (by decide)).trans h10
  have e1_arg11 : after T0 V (main_arg11 : DevRef τ sig) = a11 :=
    (T0_keep V (r := main_arg11) (by decide)).trans h11
  have e1_arg12 : after T0 V (main_arg12 : DevRef τ sig) = a12 :=
    (T0_keep V (r := main_arg12) (by decide)).trans h12
  clear h0 h1 h2 h3 h4 h5 h6 h7 h8 h9 h10 h11 h12
  generalize after T0 V = W1 at e1_v0 e1_arg1 e1_arg3 e1_arg4 e1_arg5 e1_arg6 e1_arg7 e1_arg8 e1_arg9 e1_arg10 e1_arg11 e1_arg12 ⊢
  have e2_v2 : after IDX W1 (main_v2 : DevRef τ sig) = (rowSrc a1) := by
    rw [IDX_val_v2 W1, e1_arg1]
  have e2_v4 : after IDX W1 (main_v4 : DevRef τ sig) = (rowDst a1) := by
    rw [IDX_val_v4 W1, e1_arg1]
  have e2_v0 : after IDX W1 (main_v0 : DevRef τ sig) = (take0 a2 a0) :=
    (IDX_keep W1 (r := main_v0) (by decide)).trans e1_v0
  have e2_arg3 : after IDX W1 (main_arg3 : DevRef τ sig) = a3 :=
    (IDX_keep W1 (r := main_arg3) (by decide)).trans e1_arg3
  have e2_arg4 : after IDX W1 (main_arg4 : DevRef τ sig) = a4 :=
    (IDX_keep W1 (r := main_arg4) (by decide)).trans e1_arg4
  have e2_arg5 : after IDX W1 (main_arg5 : DevRef τ sig) = a5 :=
    (IDX_keep W1 (r := main_arg5) (by decide)).trans e1_arg5
  have e2_arg6 : after IDX W1 (main_arg6 : DevRef τ sig) = a6 :=
    (IDX_keep W1 (r := main_arg6) (by decide)).trans e1_arg6
  have e2_arg7 : after IDX W1 (main_arg7 : DevRef τ sig) = a7 :=
    (IDX_keep W1 (r := main_arg7) (by decide)).trans e1_arg7
  have e2_arg8 : after IDX W1 (main_arg8 : DevRef τ sig) = a8 :=
    (IDX_keep W1 (r := main_arg8) (by decide)).trans e1_arg8
  have e2_arg9 : after IDX W1 (main_arg9 : DevRef τ sig) = a9 :=
    (IDX_keep W1 (r := main_arg9) (by decide)).trans e1_arg9
  have e2_arg10 : after IDX W1 (main_arg10 : DevRef τ sig) = a10 :=
    (IDX_keep W1 (r := main_arg10) (by decide)).trans e1_arg10
  have e2_arg11 : after IDX W1 (main_arg11 : DevRef τ sig) = a11 :=
    (IDX_keep W1 (r := main_arg11) (by decide)).trans e1_arg11
  have e2_arg12 : after IDX W1 (main_arg12 : DevRef τ sig) = a12 :=
    (IDX_keep W1 (r := main_arg12) (by decide)).trans e1_arg12
  clear e1_v0 e1_arg1 e1_arg3 e1_arg4 e1_arg5 e1_arg6 e1_arg7 e1_arg8 e1_arg9 e1_arg10 e1_arg11 e1_arg12
  generalize after IDX W1 = W2 at e2_v2 e2_v4 e2_v0 e2_arg3 e2_arg4 e2_arg5 e2_arg6 e2_arg7 e2_arg8 e2_arg9 e2_arg10 e2_arg11 e2_arg12 ⊢
  have e3_v5 : after TS0 W2 (main_v5 : DevRef τ sig) = (takeE (take0 a2 a0) (rowSrc a1)) := by
    rw [TS0_val W2, e2_v0, e2_v2]
  have e3_v2 : after TS0 W2 (main_v2 : DevRef τ sig) = (rowSrc a1) :=
    (TS0_keep W2 (r := main_v2) (by decide)).trans e2_v2
  have e3_v4 : after TS0 W2 (main_v4 : DevRef τ sig) = (rowDst a1) :=
    (TS0_keep W2 (r := main_v4) (by decide)).trans e2_v4
  have e3_v0 : after TS0 W2 (main_v0 : DevRef τ sig) = (take0 a2 a0) :=
    (TS0_keep W2 (r := main_v0) (by decide)).trans e2_v0
  have e3_arg3 : after TS0 W2 (main_arg3 : DevRef τ sig) = a3 :=
    (TS0_keep W2 (r := main_arg3) (by decide)).trans e2_arg3
  have e3_arg4 : after TS0 W2 (main_arg4 : DevRef τ sig) = a4 :=
    (TS0_keep W2 (r := main_arg4) (by decide)).trans e2_arg4
  have e3_arg5 : after TS0 W2 (main_arg5 : DevRef τ sig) = a5 :=
    (TS0_keep W2 (r := main_arg5) (by decide)).trans e2_arg5
  have e3_arg6 : after TS0 W2 (main_arg6 : DevRef τ sig) = a6 :=
    (TS0_keep W2 (r := main_arg6) (by decide)).trans e2_arg6
  have e3_arg7 : after TS0 W2 (main_arg7 : DevRef τ sig) = a7 :=
    (TS0_keep W2 (r := main_arg7) (by decide)).trans e2_arg7
  have e3_arg8 : after TS0 W2 (main_arg8 : DevRef τ sig) = a8 :=
    (TS0_keep W2 (r := main_arg8) (by decide)).trans e2_arg8
  have e3_arg9 : after TS0 W2 (main_arg9 : DevRef τ sig) = a9 :=
    (TS0_keep W2 (r := main_arg9) (by decide)).trans e2_arg9
  have e3_arg10 : after TS0 W2 (main_arg10 : DevRef τ sig) = a10 :=
    (TS0_keep W2 (r := main_arg10) (by decide)).trans e2_arg10
  have e3_arg11 : after TS0 W2 (main_arg11 : DevRef τ sig) = a11 :=
    (TS0_keep W2 (r := main_arg11) (by decide)).trans e2_arg11
  have e3_arg12 : after TS0 W2 (main_arg12 : DevRef τ sig) = a12 :=
    (TS0_keep W2 (r := main_arg12) (by decide)).trans e2_arg12
  clear e2_v2 e2_v4 e2_v0 e2_arg3 e2_arg4 e2_arg5 e2_arg6 e2_arg7 e2_arg8 e2_arg9 e2_arg10 e2_arg11 e2_arg12
  generalize after TS0 W2 = W3 at e3_v5 e3_v2 e3_v4 e3_v0 e3_arg3 e3_arg4 e3_arg5 e3_arg6 e3_arg7 e3_arg8 e3_arg9 e3_arg10 e3_arg11 e3_arg12 ⊢
  have e4_v6 : after TD0 W3 (main_v6 : DevRef τ sig) = (takeE (take0 a2 a0) (rowDst a1)) := by
    rw [TD0_val W3, e3_v0, e3_v4]
  have e4_v5 : after TD0 W3 (main_v5 : DevRef τ sig) = (takeE (take0 a2 a0) (rowSrc a1)) :=
    (TD0_keep W3 (r := main_v5) (by decide)).trans e3_v5
  have e4_v2 : after TD0 W3 (main_v2 : DevRef τ sig) = (rowSrc a1) :=
    (TD0_keep W3 (r := main_v2) (by decide)).trans e3_v2
  have e4_v4 : after TD0 W3 (main_v4 : DevRef τ sig) = (rowDst a1) :=
    (TD0_keep W3 (r := main_v4) (by decide)).trans e3_v4
  have e4_v0 : after TD0 W3 (main_v0 : DevRef τ sig) = (take0 a2 a0) :=
    (TD0_keep W3 (r := main_v0) (by decide)).trans e3_v0
  have e4_arg3 : after TD0 W3 (main_arg3 : DevRef τ sig) = a3 :=
    (TD0_keep W3 (r := main_arg3) (by decide)).trans e3_arg3
  have e4_arg4 : after TD0 W3 (main_arg4 : DevRef τ sig) = a4 :=
    (TD0_keep W3 (r := main_arg4) (by decide)).trans e3_arg4
  have e4_arg5 : after TD0 W3 (main_arg5 : DevRef τ sig) = a5 :=
    (TD0_keep W3 (r := main_arg5) (by decide)).trans e3_arg5
  have e4_arg6 : after TD0 W3 (main_arg6 : DevRef τ sig) = a6 :=
    (TD0_keep W3 (r := main_arg6) (by decide)).trans e3_arg6
  have e4_arg7 : after TD0 W3 (main_arg7 : DevRef τ sig) = a7 :=
    (TD0_keep W3 (r := main_arg7) (by decide)).trans e3_arg7
  have e4_arg8 : after TD0 W3 (main_arg8 : DevRef τ sig) = a8 :=
    (TD0_keep W3 (r := main_arg8) (by decide)).trans e3_arg8
  have e4_arg9 : after TD0 W3 (main_arg9 : DevRef τ sig) = a9 :=
    (TD0_keep W3 (r := main_arg9) (by decide)).trans e3_arg9
  have e4_arg10 : after TD0 W3 (main_arg10 : DevRef τ sig) = a10 :=
    (TD0_keep W3 (r := main_arg10) (by decide)).trans e3_arg10
  have e4_arg11 : after TD0 W3 (main_arg11 : DevRef τ sig) = a11 :=
    (TD0_keep W3 (r := main_arg11) (by decide)).trans e3_arg11
  have e4_arg12 : after TD0 W3 (main_arg12 : DevRef τ sig) = a12 :=
    (TD0_keep W3 (r := main_arg12) (by decide)).trans e3_arg12
  clear e3_v5 e3_v2 e3_v4 e3_v0 e3_arg3 e3_arg4 e3_arg5 e3_arg6 e3_arg7 e3_arg8 e3_arg9 e3_arg10 e3_arg11 e3_arg12
  generalize after TD0 W3 = W4 at e4_v6 e4_v5 e4_v2 e4_v4 e4_v0 e4_arg3 e4_arg4 e4_arg5 e4_arg6 e4_arg7 e4_arg8 e4_arg9 e4_arg10 e4_arg11 e4_arg12 ⊢
  have e5_v24 : after MSG0 W4 (main_v24 : DevRef τ sig) = (msg0 (takeE (take0 a2 a0) (rowSrc a1)) (takeE (take0 a2 a0) (rowDst a1)) a3 a4 a5 a6) := by
    rw [MSG0_val W4, e4_v5, e4_v6, e4_arg3, e4_arg4, e4_arg5, e4_arg6]
  have e5_v2 : after MSG0 W4 (main_v2 : DevRef τ sig) = (rowSrc a1) :=
    (MSG0_keep W4 (r := main_v2) (by decide)).trans e4_v2
  have e5_v4 : after MSG0 W4 (main_v4 : DevRef τ sig) = (rowDst a1) :=
    (MSG0_keep W4 (r := main_v4) (by decide)).trans e4_v4
  have e5_v0 : after MSG0 W4 (main_v0 : DevRef τ sig) = (take0 a2 a0) :=
    (MSG0_keep W4 (r := main_v0) (by decide)).trans e4_v0
  have e5_arg3 : after MSG0 W4 (main_arg3 : DevRef τ sig) = a3 :=
    (MSG0_keep W4 (r := main_arg3) (by decide)).trans e4_arg3
  have e5_arg4 : after MSG0 W4 (main_arg4 : DevRef τ sig) = a4 :=
    (MSG0_keep W4 (r := main_arg4) (by decide)).trans e4_arg4
  have e5_arg5 : after MSG0 W4 (main_arg5 : DevRef τ sig) = a5 :=
    (MSG0_keep W4 (r := main_arg5) (by decide)).trans e4_arg5
  have e5_arg6 : after MSG0 W4 (main_arg6 : DevRef τ sig) = a6 :=
    (MSG0_keep W4 (r := main_arg6) (by decide)).trans e4_arg6
  have e5_arg7 : after MSG0 W4 (main_arg7 : DevRef τ sig) = a7 :=
    (MSG0_keep W4 (r := main_arg7) (by decide)).trans e4_arg7
  have e5_arg8 : after MSG0 W4 (main_arg8 : DevRef τ sig) = a8 :=
    (MSG0_keep W4 (r := main_arg8) (by decide)).trans e4_arg8
  have e5_arg9 : after MSG0 W4 (main_arg9 : DevRef τ sig) = a9 :=
    (MSG0_keep W4 (r := main_arg9) (by decide)).trans e4_arg9
  have e5_arg10 : after MSG0 W4 (main_arg10 : DevRef τ sig) = a10 :=
    (MSG0_keep W4 (r := main_arg10) (by decide)).trans e4_arg10
  have e5_arg11 : after MSG0 W4 (main_arg11 : DevRef τ sig) = a11 :=
    (MSG0_keep W4 (r := main_arg11) (by decide)).trans e4_arg11
  have e5_arg12 : after MSG0 W4 (main_arg12 : DevRef τ sig) = a12 :=
    (MSG0_keep W4 (r := main_arg12) (by decide)).trans e4_arg12
  clear e4_v6 e4_v5 e4_v2 e4_v4 e4_v0 e4_arg3 e4_arg4 e4_arg5 e4_arg6 e4_arg7 e4_arg8 e4_arg9 e4_arg10 e4_arg11 e4_arg12
  generalize after MSG0 W4 = W5 at e5_v24 e5_v2 e5_v4 e5_v0 e5_arg3 e5_arg4 e5_arg5 e5_arg6 e5_arg7 e5_arg8 e5_arg9 e5_arg10 e5_arg11 e5_arg12 ⊢
  have e6_v32 : after AGG0 W5 (main_v32 : DevRef τ sig) = (agg (rowDst a1) (msg0 (takeE (take0 a2 a0) (rowSrc a1)) (takeE (take0 a2 a0) (rowDst a1)) a3 a4 a5 a6)) := by
    rw [AGG0_val W5, e5_v4, e5_v24]
  have e6_v2 : after AGG0 W5 (main_v2 : DevRef τ sig) = (rowSrc a1) :=
    (AGG0_keep W5 (r := main_v2) (by decide)).trans e5_v2
  have e6_v4 : after AGG0 W5 (main_v4 : DevRef τ sig) = (rowDst a1) :=
    (AGG0_keep W5 (r := main_v4) (by decide)).trans e5_v4
  have e6_v0 : after AGG0 W5 (main_v0 : DevRef τ sig) = (take0 a2 a0) :=
    (AGG0_keep W5 (r := main_v0) (by decide)).trans e5_v0
  have e6_arg3 : after AGG0 W5 (main_arg3 : DevRef τ sig) = a3 :=
    (AGG0_keep W5 (r := main_arg3) (by decide)).trans e5_arg3
  have e6_arg4 : after AGG0 W5 (main_arg4 : DevRef τ sig) = a4 :=
    (AGG0_keep W5 (r := main_arg4) (by decide)).trans e5_arg4
  have e6_arg5 : after AGG0 W5 (main_arg5 : DevRef τ sig) = a5 :=
    (AGG0_keep W5 (r := main_arg5) (by decide)).trans e5_arg5
  have e6_arg6 : after AGG0 W5 (main_arg6 : DevRef τ sig) = a6 :=
    (AGG0_keep W5 (r := main_arg6) (by decide)).trans e5_arg6
  have e6_arg7 : after AGG0 W5 (main_arg7 : DevRef τ sig) = a7 :=
    (AGG0_keep W5 (r := main_arg7) (by decide)).trans e5_arg7
  have e6_arg8 : after AGG0 W5 (main_arg8 : DevRef τ sig) = a8 :=
    (AGG0_keep W5 (r := main_arg8) (by decide)).trans e5_arg8
  have e6_arg9 : after AGG0 W5 (main_arg9 : DevRef τ sig) = a9 :=
    (AGG0_keep W5 (r := main_arg9) (by decide)).trans e5_arg9
  have e6_arg10 : after AGG0 W5 (main_arg10 : DevRef τ sig) = a10 :=
    (AGG0_keep W5 (r := main_arg10) (by decide)).trans e5_arg10
  have e6_arg11 : after AGG0 W5 (main_arg11 : DevRef τ sig) = a11 :=
    (AGG0_keep W5 (r := main_arg11) (by decide)).trans e5_arg11
  have e6_arg12 : after AGG0 W5 (main_arg12 : DevRef τ sig) = a12 :=
    (AGG0_keep W5 (r := main_arg12) (by decide)).trans e5_arg12
  clear e5_v24 e5_v2 e5_v4 e5_v0 e5_arg3 e5_arg4 e5_arg5 e5_arg6 e5_arg7 e5_arg8 e5_arg9 e5_arg10 e5_arg11 e5_arg12
  generalize after AGG0 W5 = W6 at e6_v32 e6_v2 e6_v4 e6_v0 e6_arg3 e6_arg4 e6_arg5 e6_arg6 e6_arg7 e6_arg8 e6_arg9 e6_arg10 e6_arg11 e6_arg12 ⊢
  have e7_v42 : after UPD0 W6 (main_v42 : DevRef τ sig) = (upd0 (take0 a2 a0) (agg (rowDst a1) (msg0 (takeE (take0 a2 a0) (rowSrc a1)) (takeE (take0 a2 a0) (rowDst a1)) a3 a4 a5 a6)) a7 a8) := by
    rw [UPD0_val W6, e6_v0, e6_v32, e6_arg7, e6_arg8]
  have e7_v2 : after UPD0 W6 (main_v2 : DevRef τ sig) = (rowSrc a1) :=
    (UPD0_keep W6 (r := main_v2) (by decide)).trans e6_v2
  have e7_v4 : after UPD0 W6 (main_v4 : DevRef τ sig) = (rowDst a1) :=
    (UPD0_keep W6 (r := main_v4) (by decide)).trans e6_v4
  have e7_arg3 : after UPD0 W6 (main_arg3 : DevRef τ sig) = a3 :=
    (UPD0_keep W6 (r := main_arg3) (by decide)).trans e6_arg3
  have e7_arg4 : after UPD0 W6 (main_arg4 : DevRef τ sig) = a4 :=
    (UPD0_keep W6 (r := main_arg4) (by decide)).trans e6_arg4
  have e7_arg5 : after UPD0 W6 (main_arg5 : DevRef τ sig) = a5 :=
    (UPD0_keep W6 (r := main_arg5) (by decide)).trans e6_arg5
  have e7_arg6 : after UPD0 W6 (main_arg6 : DevRef τ sig) = a6 :=
    (UPD0_keep W6 (r := main_arg6) (by decide)).trans e6_arg6
  have e7_arg7 : after UPD0 W6 (main_arg7 : DevRef τ sig) = a7 :=
    (UPD0_keep W6 (r := main_arg7) (by decide)).trans e6_arg7
  have e7_arg8 : after UPD0 W6 (main_arg8 : DevRef τ sig) = a8 :=
    (UPD0_keep W6 (r := main_arg8) (by decide)).trans e6_arg8
  have e7_arg9 : after UPD0 W6 (main_arg9 : DevRef τ sig) = a9 :=
    (UPD0_keep W6 (r := main_arg9) (by decide)).trans e6_arg9
  have e7_arg10 : after UPD0 W6 (main_arg10 : DevRef τ sig) = a10 :=
    (UPD0_keep W6 (r := main_arg10) (by decide)).trans e6_arg10
  have e7_arg11 : after UPD0 W6 (main_arg11 : DevRef τ sig) = a11 :=
    (UPD0_keep W6 (r := main_arg11) (by decide)).trans e6_arg11
  have e7_arg12 : after UPD0 W6 (main_arg12 : DevRef τ sig) = a12 :=
    (UPD0_keep W6 (r := main_arg12) (by decide)).trans e6_arg12
  clear e6_v32 e6_v2 e6_v4 e6_v0 e6_arg3 e6_arg4 e6_arg5 e6_arg6 e6_arg7 e6_arg8 e6_arg9 e6_arg10 e6_arg11 e6_arg12
  generalize after UPD0 W6 = W7 at e7_v42 e7_v2 e7_v4 e7_arg3 e7_arg4 e7_arg5 e7_arg6 e7_arg7 e7_arg8 e7_arg9 e7_arg10 e7_arg11 e7_arg12 ⊢
  have e8_v43 : after TS1 W7 (main_v43 : DevRef τ sig) = (takeE (upd0 (take0 a2 a0) (agg (rowDst a1) (msg0 (takeE (take0 a2 a0) (rowSrc a1)) (takeE (take0 a2 a0) (rowDst a1)) a3 a4 a5 a6)) a7 a8) (rowSrc a1)) := by
    rw [TS1_val W7, e7_v42, e7_v2]
  have e8_v42 : after TS1 W7 (main_v42 : DevRef τ sig) = (upd0 (take0 a2 a0) (agg (rowDst a1) (msg0 (takeE (take0 a2 a0) (rowSrc a1)) (takeE (take0 a2 a0) (rowDst a1)) a3 a4 a5 a6)) a7 a8) :=
    (TS1_keep W7 (r := main_v42) (by decide)).trans e7_v42
  have e8_v2 : after TS1 W7 (main_v2 : DevRef τ sig) = (rowSrc a1) :=
    (TS1_keep W7 (r := main_v2) (by decide)).trans e7_v2
  have e8_v4 : after TS1 W7 (main_v4 : DevRef τ sig) = (rowDst a1) :=
    (TS1_keep W7 (r := main_v4) (by decide)).trans e7_v4
  have e8_arg3 : after TS1 W7 (main_arg3 : DevRef τ sig) = a3 :=
    (TS1_keep W7 (r := main_arg3) (by decide)).trans e7_arg3
  have e8_arg4 : after TS1 W7 (main_arg4 : DevRef τ sig) = a4 :=
    (TS1_keep W7 (r := main_arg4) (by decide)).trans e7_arg4
  have e8_arg5 : after TS1 W7 (main_arg5 : DevRef τ sig) = a5 :=
    (TS1_keep W7 (r := main_arg5) (by decide)).trans e7_arg5
  have e8_arg6 : after TS1 W7 (main_arg6 : DevRef τ sig) = a6 :=
    (TS1_keep W7 (r := main_arg6) (by decide)).trans e7_arg6
  have e8_arg7 : after TS1 W7 (main_arg7 : DevRef τ sig) = a7 :=
    (TS1_keep W7 (r := main_arg7) (by decide)).trans e7_arg7
  have e8_arg8 : after TS1 W7 (main_arg8 : DevRef τ sig) = a8 :=
    (TS1_keep W7 (r := main_arg8) (by decide)).trans e7_arg8
  have e8_arg9 : after TS1 W7 (main_arg9 : DevRef τ sig) = a9 :=
    (TS1_keep W7 (r := main_arg9) (by decide)).trans e7_arg9
  have e8_arg10 : after TS1 W7 (main_arg10 : DevRef τ sig) = a10 :=
    (TS1_keep W7 (r := main_arg10) (by decide)).trans e7_arg10
  have e8_arg11 : after TS1 W7 (main_arg11 : DevRef τ sig) = a11 :=
    (TS1_keep W7 (r := main_arg11) (by decide)).trans e7_arg11
  have e8_arg12 : after TS1 W7 (main_arg12 : DevRef τ sig) = a12 :=
    (TS1_keep W7 (r := main_arg12) (by decide)).trans e7_arg12
  clear e7_v42 e7_v2 e7_v4 e7_arg3 e7_arg4 e7_arg5 e7_arg6 e7_arg7 e7_arg8 e7_arg9 e7_arg10 e7_arg11 e7_arg12
  generalize after TS1 W7 = W8 at e8_v43 e8_v42 e8_v2 e8_v4 e8_arg3 e8_arg4 e8_arg5 e8_arg6 e8_arg7 e8_arg8 e8_arg9 e8_arg10 e8_arg11 e8_arg12 ⊢
  have e9_v44 : after TD1 W8 (main_v44 : DevRef τ sig) = (takeE (upd0 (take0 a2 a0) (agg (rowDst a1) (msg0 (takeE (take0 a2 a0) (rowSrc a1)) (takeE (take0 a2 a0) (rowDst a1)) a3 a4 a5 a6)) a7 a8) (rowDst a1)) := by
    rw [TD1_val W8, e8_v42, e8_v4]
  have e9_v43 : after TD1 W8 (main_v43 : DevRef τ sig) = (takeE (upd0 (take0 a2 a0) (agg (rowDst a1) (msg0 (takeE (take0 a2 a0) (rowSrc a1)) (takeE (take0 a2 a0) (rowDst a1)) a3 a4 a5 a6)) a7 a8) (rowSrc a1)) :=
    (TD1_keep W8 (r := main_v43) (by decide)).trans e8_v43
  have e9_v42 : after TD1 W8 (main_v42 : DevRef τ sig) = (upd0 (take0 a2 a0) (agg (rowDst a1) (msg0 (takeE (take0 a2 a0) (rowSrc a1)) (takeE (take0 a2 a0) (rowDst a1)) a3 a4 a5 a6)) a7 a8) :=
    (TD1_keep W8 (r := main_v42) (by decide)).trans e8_v42
  have e9_v2 : after TD1 W8 (main_v2 : DevRef τ sig) = (rowSrc a1) :=
    (TD1_keep W8 (r := main_v2) (by decide)).trans e8_v2
  have e9_v4 : after TD1 W8 (main_v4 : DevRef τ sig) = (rowDst a1) :=
    (TD1_keep W8 (r := main_v4) (by decide)).trans e8_v4
  have e9_arg3 : after TD1 W8 (main_arg3 : DevRef τ sig) = a3 :=
    (TD1_keep W8 (r := main_arg3) (by decide)).trans e8_arg3
  have e9_arg4 : after TD1 W8 (main_arg4 : DevRef τ sig) = a4 :=
    (TD1_keep W8 (r := main_arg4) (by decide)).trans e8_arg4
  have e9_arg5 : after TD1 W8 (main_arg5 : DevRef τ sig) = a5 :=
    (TD1_keep W8 (r := main_arg5) (by decide)).trans e8_arg5
  have e9_arg6 : after TD1 W8 (main_arg6 : DevRef τ sig) = a6 :=
    (TD1_keep W8 (r := main_arg6) (by decide)).trans e8_arg6
  have e9_arg7 : after TD1 W8 (main_arg7 : DevRef τ sig) = a7 :=
    (TD1_keep W8 (r := main_arg7) (by decide)).trans e8_arg7
  have e9_arg8 : after TD1 W8 (main_arg8 : DevRef τ sig) = a8 :=
    (TD1_keep W8 (r := main_arg8) (by decide)).trans e8_arg8
  have e9_arg9 : after TD1 W8 (main_arg9 : DevRef τ sig) = a9 :=
    (TD1_keep W8 (r := main_arg9) (by decide)).trans e8_arg9
  have e9_arg10 : after TD1 W8 (main_arg10 : DevRef τ sig) = a10 :=
    (TD1_keep W8 (r := main_arg10) (by decide)).trans e8_arg10
  have e9_arg11 : after TD1 W8 (main_arg11 : DevRef τ sig) = a11 :=
    (TD1_keep W8 (r := main_arg11) (by decide)).trans e8_arg11
  have e9_arg12 : after TD1 W8 (main_arg12 : DevRef τ sig) = a12 :=
    (TD1_keep W8 (r := main_arg12) (by decide)).trans e8_arg12
  clear e8_v43 e8_v42 e8_v2 e8_v4 e8_arg3 e8_arg4 e8_arg5 e8_arg6 e8_arg7 e8_arg8 e8_arg9 e8_arg10 e8_arg11 e8_arg12
  generalize after TD1 W8 = W9 at e9_v44 e9_v43 e9_v42 e9_v2 e9_v4 e9_arg3 e9_arg4 e9_arg5 e9_arg6 e9_arg7 e9_arg8 e9_arg9 e9_arg10 e9_arg11 e9_arg12 ⊢
  have e10_v62 : after MSG1b (after MSG1a (W9)) (main_v62 : DevRef τ sig) = (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6) := by
    rw [MSG1_val W9, e9_v43, e9_v44, e9_arg3, e9_arg4, e9_arg5, e9_arg6]
  have e10_v42 : after MSG1b (after MSG1a (W9)) (main_v42 : DevRef τ sig) = (upd0 (take0 a2 a0) (agg (rowDst a1) (msg0 (takeE (take0 a2 a0) (rowSrc a1)) (takeE (take0 a2 a0) (rowDst a1)) a3 a4 a5 a6)) a7 a8) :=
    (MSG1_keep W9 (r := main_v42) (by decide)).trans e9_v42
  have e10_v2 : after MSG1b (after MSG1a (W9)) (main_v2 : DevRef τ sig) = (rowSrc a1) :=
    (MSG1_keep W9 (r := main_v2) (by decide)).trans e9_v2
  have e10_v4 : after MSG1b (after MSG1a (W9)) (main_v4 : DevRef τ sig) = (rowDst a1) :=
    (MSG1_keep W9 (r := main_v4) (by decide)).trans e9_v4
  have e10_arg3 : after MSG1b (after MSG1a (W9)) (main_arg3 : DevRef τ sig) = a3 :=
    (MSG1_keep W9 (r := main_arg3) (by decide)).trans e9_arg3
  have e10_arg4 : after MSG1b (after MSG1a (W9)) (main_arg4 : DevRef τ sig) = a4 :=
    (MSG1_keep W9 (r := main_arg4) (by decide)).trans e9_arg4
  have e10_arg5 : after MSG1b (after MSG1a (W9)) (main_arg5 : DevRef τ sig) = a5 :=
    (MSG1_keep W9 (r := main_arg5) (by decide)).trans e9_arg5
  have e10_arg6 : after MSG1b (after MSG1a (W9)) (main_arg6 : DevRef τ sig) = a6 :=
    (MSG1_keep W9 (r := main_arg6) (by decide)).trans e9_arg6
  have e10_arg7 : after MSG1b (after MSG1a (W9)) (main_arg7 : DevRef τ sig) = a7 :=
    (MSG1_keep W9 (r := main_arg7) (by decide)).trans e9_arg7
  have e10_arg8 : after MSG1b (after MSG1a (W9)) (main_arg8 : DevRef τ sig) = a8 :=
    (MSG1_keep W9 (r := main_arg8) (by decide)).trans e9_arg8
  have e10_arg9 : after MSG1b (after MSG1a (W9)) (main_arg9 : DevRef τ sig) = a9 :=
    (MSG1_keep W9 (r := main_arg9) (by decide)).trans e9_arg9
  have e10_arg10 : after MSG1b (after MSG1a (W9)) (main_arg10 : DevRef τ sig) = a10 :=
    (MSG1_keep W9 (r := main_arg10) (by decide)).trans e9_arg10
  have e10_arg11 : after MSG1b (after MSG1a (W9)) (main_arg11 : DevRef τ sig) = a11 :=
    (MSG1_keep W9 (r := main_arg11) (by decide)).trans e9_arg11
  have e10_arg12 : after MSG1b (after MSG1a (W9)) (main_arg12 : DevRef τ sig) = a12 :=
    (MSG1_keep W9 (r := main_arg12) (by decide)).trans e9_arg12
  clear e9_v44 e9_v43 e9_v42 e9_v2 e9_v4 e9_arg3 e9_arg4 e9_arg5 e9_arg6 e9_arg7 e9_arg8 e9_arg9 e9_arg10 e9_arg11 e9_arg12
  generalize after MSG1b (after MSG1a (W9)) = W10 at e10_v62 e10_v42 e10_v2 e10_v4 e10_arg3 e10_arg4 e10_arg5 e10_arg6 e10_arg7 e10_arg8 e10_arg9 e10_arg10 e10_arg11 e10_arg12 ⊢
  have e11_v70 : after AGG1 W10 (main_v70 : DevRef τ sig) = (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) := by
    rw [AGG1_val W10, e10_v4, e10_v62]
  have e11_v42 : after AGG1 W10 (main_v42 : DevRef τ sig) = (upd0 (take0 a2 a0) (agg (rowDst a1) (msg0 (takeE (take0 a2 a0) (rowSrc a1)) (takeE (take0 a2 a0) (rowDst a1)) a3 a4 a5 a6)) a7 a8) :=
    (AGG1_keep W10 (r := main_v42) (by decide)).trans e10_v42
  have e11_v2 : after AGG1 W10 (main_v2 : DevRef τ sig) = (rowSrc a1) :=
    (AGG1_keep W10 (r := main_v2) (by decide)).trans e10_v2
  have e11_v4 : after AGG1 W10 (main_v4 : DevRef τ sig) = (rowDst a1) :=
    (AGG1_keep W10 (r := main_v4) (by decide)).trans e10_v4
  have e11_arg3 : after AGG1 W10 (main_arg3 : DevRef τ sig) = a3 :=
    (AGG1_keep W10 (r := main_arg3) (by decide)).trans e10_arg3
  have e11_arg4 : after AGG1 W10 (main_arg4 : DevRef τ sig) = a4 :=
    (AGG1_keep W10 (r := main_arg4) (by decide)).trans e10_arg4
  have e11_arg5 : after AGG1 W10 (main_arg5 : DevRef τ sig) = a5 :=
    (AGG1_keep W10 (r := main_arg5) (by decide)).trans e10_arg5
  have e11_arg6 : after AGG1 W10 (main_arg6 : DevRef τ sig) = a6 :=
    (AGG1_keep W10 (r := main_arg6) (by decide)).trans e10_arg6
  have e11_arg7 : after AGG1 W10 (main_arg7 : DevRef τ sig) = a7 :=
    (AGG1_keep W10 (r := main_arg7) (by decide)).trans e10_arg7
  have e11_arg8 : after AGG1 W10 (main_arg8 : DevRef τ sig) = a8 :=
    (AGG1_keep W10 (r := main_arg8) (by decide)).trans e10_arg8
  have e11_arg9 : after AGG1 W10 (main_arg9 : DevRef τ sig) = a9 :=
    (AGG1_keep W10 (r := main_arg9) (by decide)).trans e10_arg9
  have e11_arg10 : after AGG1 W10 (main_arg10 : DevRef τ sig) = a10 :=
    (AGG1_keep W10 (r := main_arg10) (by decide)).trans e10_arg10
  have e11_arg11 : after AGG1 W10 (main_arg11 : DevRef τ sig) = a11 :=
    (AGG1_keep W10 (r := main_arg11) (by decide)).trans e10_arg11
  have e11_arg12 : after AGG1 W10 (main_arg12 : DevRef τ sig) = a12 :=
    (AGG1_keep W10 (r := main_arg12) (by decide)).trans e10_arg12
  clear e10_v62 e10_v42 e10_v2 e10_v4 e10_arg3 e10_arg4 e10_arg5 e10_arg6 e10_arg7 e10_arg8 e10_arg9 e10_arg10 e10_arg11 e10_arg12
  generalize after AGG1 W10 = W11 at e11_v70 e11_v42 e11_v2 e11_v4 e11_arg3 e11_arg4 e11_arg5 e11_arg6 e11_arg7 e11_arg8 e11_arg9 e11_arg10 e11_arg11 e11_arg12 ⊢
  have e12_v80 : after UPD1 W11 (main_v80 : DevRef τ sig) = (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) := by
    rw [UPD1_val W11, e11_v42, e11_v70, e11_arg7, e11_arg8]
  have e12_v2 : after UPD1 W11 (main_v2 : DevRef τ sig) = (rowSrc a1) :=
    (UPD1_keep W11 (r := main_v2) (by decide)).trans e11_v2
  have e12_v4 : after UPD1 W11 (main_v4 : DevRef τ sig) = (rowDst a1) :=
    (UPD1_keep W11 (r := main_v4) (by decide)).trans e11_v4
  have e12_arg3 : after UPD1 W11 (main_arg3 : DevRef τ sig) = a3 :=
    (UPD1_keep W11 (r := main_arg3) (by decide)).trans e11_arg3
  have e12_arg4 : after UPD1 W11 (main_arg4 : DevRef τ sig) = a4 :=
    (UPD1_keep W11 (r := main_arg4) (by decide)).trans e11_arg4
  have e12_arg5 : after UPD1 W11 (main_arg5 : DevRef τ sig) = a5 :=
    (UPD1_keep W11 (r := main_arg5) (by decide)).trans e11_arg5
  have e12_arg6 : after UPD1 W11 (main_arg6 : DevRef τ sig) = a6 :=
    (UPD1_keep W11 (r := main_arg6) (by decide)).trans e11_arg6
  have e12_arg7 : after UPD1 W11 (main_arg7 : DevRef τ sig) = a7 :=
    (UPD1_keep W11 (r := main_arg7) (by decide)).trans e11_arg7
  have e12_arg8 : after UPD1 W11 (main_arg8 : DevRef τ sig) = a8 :=
    (UPD1_keep W11 (r := main_arg8) (by decide)).trans e11_arg8
  have e12_arg9 : after UPD1 W11 (main_arg9 : DevRef τ sig) = a9 :=
    (UPD1_keep W11 (r := main_arg9) (by decide)).trans e11_arg9
  have e12_arg10 : after UPD1 W11 (main_arg10 : DevRef τ sig) = a10 :=
    (UPD1_keep W11 (r := main_arg10) (by decide)).trans e11_arg10
  have e12_arg11 : after UPD1 W11 (main_arg11 : DevRef τ sig) = a11 :=
    (UPD1_keep W11 (r := main_arg11) (by decide)).trans e11_arg11
  have e12_arg12 : after UPD1 W11 (main_arg12 : DevRef τ sig) = a12 :=
    (UPD1_keep W11 (r := main_arg12) (by decide)).trans e11_arg12
  clear e11_v70 e11_v42 e11_v2 e11_v4 e11_arg3 e11_arg4 e11_arg5 e11_arg6 e11_arg7 e11_arg8 e11_arg9 e11_arg10 e11_arg11 e11_arg12
  generalize after UPD1 W11 = W12 at e12_v80 e12_v2 e12_v4 e12_arg3 e12_arg4 e12_arg5 e12_arg6 e12_arg7 e12_arg8 e12_arg9 e12_arg10 e12_arg11 e12_arg12 ⊢
  have e13_v81 : after TS2 W12 (main_v81 : DevRef τ sig) = (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) := by
    rw [TS2_val W12, e12_v80, e12_v2]
  have e13_v80 : after TS2 W12 (main_v80 : DevRef τ sig) = (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) :=
    (TS2_keep W12 (r := main_v80) (by decide)).trans e12_v80
  have e13_v4 : after TS2 W12 (main_v4 : DevRef τ sig) = (rowDst a1) :=
    (TS2_keep W12 (r := main_v4) (by decide)).trans e12_v4
  have e13_arg3 : after TS2 W12 (main_arg3 : DevRef τ sig) = a3 :=
    (TS2_keep W12 (r := main_arg3) (by decide)).trans e12_arg3
  have e13_arg4 : after TS2 W12 (main_arg4 : DevRef τ sig) = a4 :=
    (TS2_keep W12 (r := main_arg4) (by decide)).trans e12_arg4
  have e13_arg5 : after TS2 W12 (main_arg5 : DevRef τ sig) = a5 :=
    (TS2_keep W12 (r := main_arg5) (by decide)).trans e12_arg5
  have e13_arg6 : after TS2 W12 (main_arg6 : DevRef τ sig) = a6 :=
    (TS2_keep W12 (r := main_arg6) (by decide)).trans e12_arg6
  have e13_arg7 : after TS2 W12 (main_arg7 : DevRef τ sig) = a7 :=
    (TS2_keep W12 (r := main_arg7) (by decide)).trans e12_arg7
  have e13_arg8 : after TS2 W12 (main_arg8 : DevRef τ sig) = a8 :=
    (TS2_keep W12 (r := main_arg8) (by decide)).trans e12_arg8
  have e13_arg9 : after TS2 W12 (main_arg9 : DevRef τ sig) = a9 :=
    (TS2_keep W12 (r := main_arg9) (by decide)).trans e12_arg9
  have e13_arg10 : after TS2 W12 (main_arg10 : DevRef τ sig) = a10 :=
    (TS2_keep W12 (r := main_arg10) (by decide)).trans e12_arg10
  have e13_arg11 : after TS2 W12 (main_arg11 : DevRef τ sig) = a11 :=
    (TS2_keep W12 (r := main_arg11) (by decide)).trans e12_arg11
  have e13_arg12 : after TS2 W12 (main_arg12 : DevRef τ sig) = a12 :=
    (TS2_keep W12 (r := main_arg12) (by decide)).trans e12_arg12
  clear e12_v80 e12_v2 e12_v4 e12_arg3 e12_arg4 e12_arg5 e12_arg6 e12_arg7 e12_arg8 e12_arg9 e12_arg10 e12_arg11 e12_arg12
  generalize after TS2 W12 = W13 at e13_v81 e13_v80 e13_v4 e13_arg3 e13_arg4 e13_arg5 e13_arg6 e13_arg7 e13_arg8 e13_arg9 e13_arg10 e13_arg11 e13_arg12 ⊢
  have e14_v82 : after TD2 W13 (main_v82 : DevRef τ sig) = (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowDst a1)) := by
    rw [TD2_val W13, e13_v80, e13_v4]
  have e14_v81 : after TD2 W13 (main_v81 : DevRef τ sig) = (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) :=
    (TD2_keep W13 (r := main_v81) (by decide)).trans e13_v81
  have e14_v80 : after TD2 W13 (main_v80 : DevRef τ sig) = (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) :=
    (TD2_keep W13 (r := main_v80) (by decide)).trans e13_v80
  have e14_v4 : after TD2 W13 (main_v4 : DevRef τ sig) = (rowDst a1) :=
    (TD2_keep W13 (r := main_v4) (by decide)).trans e13_v4
  have e14_arg3 : after TD2 W13 (main_arg3 : DevRef τ sig) = a3 :=
    (TD2_keep W13 (r := main_arg3) (by decide)).trans e13_arg3
  have e14_arg4 : after TD2 W13 (main_arg4 : DevRef τ sig) = a4 :=
    (TD2_keep W13 (r := main_arg4) (by decide)).trans e13_arg4
  have e14_arg5 : after TD2 W13 (main_arg5 : DevRef τ sig) = a5 :=
    (TD2_keep W13 (r := main_arg5) (by decide)).trans e13_arg5
  have e14_arg6 : after TD2 W13 (main_arg6 : DevRef τ sig) = a6 :=
    (TD2_keep W13 (r := main_arg6) (by decide)).trans e13_arg6
  have e14_arg7 : after TD2 W13 (main_arg7 : DevRef τ sig) = a7 :=
    (TD2_keep W13 (r := main_arg7) (by decide)).trans e13_arg7
  have e14_arg8 : after TD2 W13 (main_arg8 : DevRef τ sig) = a8 :=
    (TD2_keep W13 (r := main_arg8) (by decide)).trans e13_arg8
  have e14_arg9 : after TD2 W13 (main_arg9 : DevRef τ sig) = a9 :=
    (TD2_keep W13 (r := main_arg9) (by decide)).trans e13_arg9
  have e14_arg10 : after TD2 W13 (main_arg10 : DevRef τ sig) = a10 :=
    (TD2_keep W13 (r := main_arg10) (by decide)).trans e13_arg10
  have e14_arg11 : after TD2 W13 (main_arg11 : DevRef τ sig) = a11 :=
    (TD2_keep W13 (r := main_arg11) (by decide)).trans e13_arg11
  have e14_arg12 : after TD2 W13 (main_arg12 : DevRef τ sig) = a12 :=
    (TD2_keep W13 (r := main_arg12) (by decide)).trans e13_arg12
  clear e13_v81 e13_v80 e13_v4 e13_arg3 e13_arg4 e13_arg5 e13_arg6 e13_arg7 e13_arg8 e13_arg9 e13_arg10 e13_arg11 e13_arg12
  generalize after TD2 W13 = W14 at e14_v82 e14_v81 e14_v80 e14_v4 e14_arg3 e14_arg4 e14_arg5 e14_arg6 e14_arg7 e14_arg8 e14_arg9 e14_arg10 e14_arg11 e14_arg12 ⊢
  have e15_v100 : after MSG2 W14 (main_v100 : DevRef τ sig) = (msg2 (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowDst a1)) a3 a4 a5 a6) := by
    rw [MSG2_val W14, e14_v81, e14_v82, e14_arg3, e14_arg4, e14_arg5, e14_arg6]
  have e15_v80 : after MSG2 W14 (main_v80 : DevRef τ sig) = (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) :=
    (MSG2_keep W14 (r := main_v80) (by decide)).trans e14_v80
  have e15_v4 : after MSG2 W14 (main_v4 : DevRef τ sig) = (rowDst a1) :=
    (MSG2_keep W14 (r := main_v4) (by decide)).trans e14_v4
  have e15_arg7 : after MSG2 W14 (main_arg7 : DevRef τ sig) = a7 :=
    (MSG2_keep W14 (r := main_arg7) (by decide)).trans e14_arg7
  have e15_arg8 : after MSG2 W14 (main_arg8 : DevRef τ sig) = a8 :=
    (MSG2_keep W14 (r := main_arg8) (by decide)).trans e14_arg8
  have e15_arg9 : after MSG2 W14 (main_arg9 : DevRef τ sig) = a9 :=
    (MSG2_keep W14 (r := main_arg9) (by decide)).trans e14_arg9
  have e15_arg10 : after MSG2 W14 (main_arg10 : DevRef τ sig) = a10 :=
    (MSG2_keep W14 (r := main_arg10) (by decide)).trans e14_arg10
  have e15_arg11 : after MSG2 W14 (main_arg11 : DevRef τ sig) = a11 :=
    (MSG2_keep W14 (r := main_arg11) (by decide)).trans e14_arg11
  have e15_arg12 : after MSG2 W14 (main_arg12 : DevRef τ sig) = a12 :=
    (MSG2_keep W14 (r := main_arg12) (by decide)).trans e14_arg12
  clear e14_v82 e14_v81 e14_v80 e14_v4 e14_arg3 e14_arg4 e14_arg5 e14_arg6 e14_arg7 e14_arg8 e14_arg9 e14_arg10 e14_arg11 e14_arg12
  generalize after MSG2 W14 = W15 at e15_v100 e15_v80 e15_v4 e15_arg7 e15_arg8 e15_arg9 e15_arg10 e15_arg11 e15_arg12 ⊢
  have e16_v108 : after AGG2 W15 (main_v108 : DevRef τ sig) = (agg (rowDst a1) (msg2 (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowDst a1)) a3 a4 a5 a6)) := by
    rw [AGG2_val W15, e15_v4, e15_v100]
  have e16_v80 : after AGG2 W15 (main_v80 : DevRef τ sig) = (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) :=
    (AGG2_keep W15 (r := main_v80) (by decide)).trans e15_v80
  have e16_arg7 : after AGG2 W15 (main_arg7 : DevRef τ sig) = a7 :=
    (AGG2_keep W15 (r := main_arg7) (by decide)).trans e15_arg7
  have e16_arg8 : after AGG2 W15 (main_arg8 : DevRef τ sig) = a8 :=
    (AGG2_keep W15 (r := main_arg8) (by decide)).trans e15_arg8
  have e16_arg9 : after AGG2 W15 (main_arg9 : DevRef τ sig) = a9 :=
    (AGG2_keep W15 (r := main_arg9) (by decide)).trans e15_arg9
  have e16_arg10 : after AGG2 W15 (main_arg10 : DevRef τ sig) = a10 :=
    (AGG2_keep W15 (r := main_arg10) (by decide)).trans e15_arg10
  have e16_arg11 : after AGG2 W15 (main_arg11 : DevRef τ sig) = a11 :=
    (AGG2_keep W15 (r := main_arg11) (by decide)).trans e15_arg11
  have e16_arg12 : after AGG2 W15 (main_arg12 : DevRef τ sig) = a12 :=
    (AGG2_keep W15 (r := main_arg12) (by decide)).trans e15_arg12
  clear e15_v100 e15_v80 e15_v4 e15_arg7 e15_arg8 e15_arg9 e15_arg10 e15_arg11 e15_arg12
  generalize after AGG2 W15 = W16 at e16_v108 e16_v80 e16_arg7 e16_arg8 e16_arg9 e16_arg10 e16_arg11 e16_arg12 ⊢
  have e17_v118 : after UPD2b (after UPD2a (W16)) (main_v118 : DevRef τ sig) = (upd2 (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (agg (rowDst a1) (msg2 (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowDst a1)) a3 a4 a5 a6)) a7 a8) := by
    rw [UPD2_val W16, e16_v80, e16_v108, e16_arg7, e16_arg8]
  have e17_arg9 : after UPD2b (after UPD2a (W16)) (main_arg9 : DevRef τ sig) = a9 :=
    (UPD2_keep W16 (r := main_arg9) (by decide)).trans e16_arg9
  have e17_arg10 : after UPD2b (after UPD2a (W16)) (main_arg10 : DevRef τ sig) = a10 :=
    (UPD2_keep W16 (r := main_arg10) (by decide)).trans e16_arg10
  have e17_arg11 : after UPD2b (after UPD2a (W16)) (main_arg11 : DevRef τ sig) = a11 :=
    (UPD2_keep W16 (r := main_arg11) (by decide)).trans e16_arg11
  have e17_arg12 : after UPD2b (after UPD2a (W16)) (main_arg12 : DevRef τ sig) = a12 :=
    (UPD2_keep W16 (r := main_arg12) (by decide)).trans e16_arg12
  clear e16_v108 e16_v80 e16_arg7 e16_arg8 e16_arg9 e16_arg10 e16_arg11 e16_arg12
  generalize after UPD2b (after UPD2a (W16)) = W17 at e17_v118 e17_arg9 e17_arg10 e17_arg11 e17_arg12 ⊢
  have e18_v129 : after OUT W17 (main_v129 : DevRef τ sig) = (readout (upd2 (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (agg (rowDst a1) (msg2 (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowSrc a1)) (takeE (upd1 (upd0 (take0 a2 a0) (agg (rowDst a1) (msg0 (takeE (take0 a2 a0) (rowSrc a1)) (takeE (take0 a2 a0) (rowDst a1)) a3 a4 a5 a6)) a7 a8) (agg (rowDst a1) (msg1 (takeE (upd0 (take0 a2 a0) (agg (rowDst a1) (msg0 (takeE (take0 a2 a0) (rowSrc a1)) (takeE (take0 a2 a0) (rowDst a1)) a3 a4 a5 a6)) a7 a8) (rowSrc a1)) (takeE (upd0 (take0 a2 a0) (agg (rowDst a1) (msg0 (takeE (take0 a2 a0) (rowSrc a1)) (takeE (take0 a2 a0) (rowDst a1)) a3 a4 a5 a6)) a7 a8) (rowDst a1)) a3 a4 a5 a6)) a7 a8) (rowDst a1)) a3 a4 a5 a6)) a7 a8) a9 a10 a11 a12) := by
    rw [OUT_val W17, e17_v118, e17_arg9, e17_arg10, e17_arg11, e17_arg12]
  clear e17_v118 e17_arg9 e17_arg10 e17_arg11 e17_arg12
  generalize after OUT W17 = W18 at e18_v129 ⊢
  exact e18_v129

/-- The same, at the arguments' own contents. -/
theorem result_eq (V : Valuation τ sig (Elt F)) :
    after ops V (main_v129 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  result_chain V _ _ _ _ _ _ _ _ _ _ _ _ _ rfl rfl rfl rfl rfl rfl rfl rfl rfl rfl rfl rfl rfl

/-- No operation of the line writes an argument buffer. -/
theorem arg_keep (V : Valuation τ sig (Elt F)) {r : Ref sig .tc} (hr : r ∉ ops_ws) :
    after ops V (r : DevRef τ sig) = V (r : DevRef τ sig) :=
  after_of_not_written ops_writes V hr

end Cert.ReferenceIdeal.RefRun

end
-- ==== Proof.RefRun.lean ====
import proofs.«215677_g32066225832048_cont_9to1_32_28_alg».proof.Defs
import proofs.«215677_g32066225832048_cont_9to1_32_28_alg».proof.Proof.Gen.ReferenceIdeal
import proofs.«215677_g32066225832048_cont_9to1_32_28_alg».proof.Proof.Gen.Pre_input_domain
import proofs.«215677_g32066225832048_cont_9to1_32_28_alg».proof.Proof.RefRunVal

/-!
# The reference's run and its frame

The reference is a host-only program: @main is one straight line of host operations (`RefRunOps.main_eq`),
so from any memory with zero counters every weakly fair execution of it terminates, nothing faults, and each
buffer ends at the line's fold over the launch contents. Read at the result buffer that fold is `result` of
the thirteen argument arrays (`RefRunVal.result_eq`: the three-layer message-passing network, stage by
stage); read at an argument buffer it is the argument itself, since no operation writes one. `run` states
both, for any float instance; the reference's frame is `run` at the ideal instance with the result dropped.
-/

noncomputable section

namespace Cert.ReferenceIdeal.RefRun

open Cert.ReferenceIdeal Idealize.ShloMosaic Idealize.ShloMosaic.TcCoe Idealize.SL.Sem
open Idealize.ShloMosaic.StableHlo

section Run

variable {F : FTy → Type} [FloatOps F] [hRef : Cert.ReferenceIdeal.Facts]

/-- On every device, for any float values, from any memory with zero counters: every weakly fair execution of
    @main terminates with the result buffer at `result` of the arguments' launch contents and the arguments
    unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v129) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v129).trans (result_eq _),
      (h c main_arg0).trans (arg_keep _ (by decide)),
      (h c main_arg1).trans (arg_keep _ (by decide)),
      (h c main_arg2).trans (arg_keep _ (by decide)),
      (h c main_arg3).trans (arg_keep _ (by decide)),
      (h c main_arg4).trans (arg_keep _ (by decide)),
      (h c main_arg5).trans (arg_keep _ (by decide)),
      (h c main_arg6).trans (arg_keep _ (by decide)),
      (h c main_arg7).trans (arg_keep _ (by decide)),
      (h c main_arg8).trans (arg_keep _ (by decide)),
      (h c main_arg9).trans (arg_keep _ (by decide)),
      (h c main_arg10).trans (arg_keep _ (by decide)),
      (h c main_arg11).trans (arg_keep _ (by decide)),
      (h c main_arg12).trans (arg_keep _ (by decide))⟩)
    (run_seq scopedRefs_eq scopedSems_eq defs main (fun _ => ops) main_eq (fun _ => ops_sub) m g (fun _ => ops_fresh))

end Run

/-- The reference runs to the end, faults nowhere and leaves its argument arrays unchanged: its run, the
    result dropped (the precondition is not needed). -/
theorem frame_ri :
    Cert.frame_ReferenceIdeal (hReferenceIdeal := Cert.ReferenceIdeal.Gen.facts)
      (hPre_input_domain := Cert.Pre_input_domain.Gen.facts) := by
  intro m g _
  exact (θ_run _ _ _).mono (fun _ h c => (h c).2)
    (run (F := Ideal) (hRef := Cert.ReferenceIdeal.Gen.facts) m g)

end Cert.ReferenceIdeal.RefRun

end
-- ==== Proof.LaunchBase.lean ====
/-
  The kernel program as the SparseCore launch theorem sees it: the three vector-subcore calls' configuration, the
  body table under the four TensorCore pipelines, the variants, the configuration's side facts, and the ghost
  state — the handshakes' rounds beside the pipelines' staging cells' rounds and the counters of the tasks' own
  transfers.
-/
import proofs.«215677_g32066225832048_cont_9to1_32_28_alg».proof.Defs
import Idealize.ShloMosaic.Lib.SparseCore.Launch
import Idealize.ShloMosaic.Lib.SparseCore.Ops
import Idealize.ShloMosaic.Lib.StableHlo.Run
import Idealize.ShloMosaic.Lib.Tactic
import Idealize.ShloMosaic.Lib.Transfers
import proofs.«215677_g32066225832048_cont_9to1_32_28_alg».proof.Proof.Gen.KernelIdeal
import proofs.«215677_g32066225832048_cont_9to1_32_28_alg».proof.Proof.Gen.KernelIdeal.Launch

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hFacts : Cert.KernelIdeal.Facts]

/-! ## The program as the launch theorem sees it -/

abbrev ΛP : Labels := Pipeline.Sig Λ₀ (Fin 4) fun p => (pcfgs (F := F) p).Adm
abbrev K : SparseCore.Cfg τ sig (ΛP (F := F)) 3 := sc (F := F)
theorem nSub_eq (q : Fin 3) : (K (F := F)).nSub q = 16 := by
  match q with
  | 0 => rfl
  | 1 => rfl
  | 2 => rfl
theorem nCore_eq (q : Fin 3) : (K (F := F)).nCore q = 2 := by
  match q with
  | 0 => rfl
  | 1 => rfl
  | 2 => rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UC : Type := UK × Counters
abbrev UU : Type := UH × UC

local notation "𝕄" => MT nD τ sig (HIx 3) (Elt F) ℕ UU ℕ

def EH : Emb UH (MT nD τ sig (HIx 3) (Elt F) ℕ UU ℕ) :=
  (Emb.inl : Emb UH UU).trans (uEmb (nD := nD) (sig := sig) (Ix := HIx 3) (Val := Elt F) (Name := ℕ) (U := UU) (Lvl := ℕ)).toEmb
def EK : Emb UK (MT nD τ sig (HIx 3) (Elt F) ℕ UU ℕ) :=
  ((Emb.inl : Emb UK UC).trans (Emb.inr : Emb UC UU)).trans (uEmb (nD := nD) (sig := sig) (Ix := HIx 3) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance

example : CountersIn UU := inferInstance

end Cert.Proof.IdealLaunch

end
-- ==== Proof.LaunchPay.lean ====
/-
  What the three SparseCore calls' handshakes carry. Each call reads one table [50008,128] and the two padded index
  arrays [819200] and writes one array [819200,64]; its 2 x 16 tasks each read the three inputs whole and write their
  own 25600 rows. So a task is handed a read share of each input — one of 32 tokens split off the full share — and the
  full share of its rows of the output; a SparseCore is handed the sixteen tasks' shares together, so that dealing
  them to the tasks is the identity. The index arrays' contents are named (they are host operations of the launch
  memory); the table's, a region's output, and the output rows' are whatever their holder finds: a token's contents
  agree with the remainder's, so the tokens rejoin at the contents the TensorCore kept.
-/
import proofs.«215677_g32066225832048_cont_9to1_32_28_alg».proof.Proof.LaunchBase
import Idealize.ShloMosaic.Lib.Transfers

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hFacts : Cert.KernelIdeal.Facts]

local notation "𝕄" => MT nD τ sig (HIx 3) (Elt F) ℕ UU ℕ

/-! ## The arrays of a call -/

/-- The table a call gathers from, and the array it writes. -/
abbrev tabRef : Fin 3 → Ref sig .tc := fun | 0 => main_v24_1 | 1 => main_v50_1 | 2 => main_v76_1 | ⟨_ + 3, h⟩ => absurd h (Nat.not_lt.2 (Nat.le_add_left _ _))
abbrev outRef : Fin 3 → Ref sig .tc := fun | 0 => main_v25 | 1 => main_v51 | 2 => main_v77 | ⟨_ + 3, h⟩ => absurd h (Nat.not_lt.2 (Nat.le_add_left _ _))

/-- Device `d`'s buffer behind a TensorCore reference. -/
abbrev locOf (d : Dev nD) (r : Ref sig .tc) : Loc nD τ sig := (SparseCore.T d).loc r
abbrev tabLoc (q : Fin 3) (d : Dev nD) : Loc nD τ sig := (SparseCore.T d).loc (tabRef q)
abbrev outLoc (q : Fin 3) (d : Dev nD) : Loc nD τ sig := (SparseCore.T d).loc (outRef q)
abbrev srcLoc (d : Dev nD) : Loc nD τ sig := (SparseCore.T d).loc main_v6
abbrev dstLoc (d : Dev nD) : Loc nD τ sig := (SparseCore.T d).loc main_v8

/-- The contents of the two padded index arrays: host operations of the launch memory, the same at every call. -/
structure Conts (F : FTy → Type) where
  src : (d : Dev nD) → Buf (Elt F) (srcLoc d)
  dst : (d : Dev nD) → Buf (Elt F) (dstLoc d)

variable (C : Conts F)

/-! ## Read tokens held at contents of the holder's finding -/

section Tokens

variable {ℓ : Loc nD τ sig} {I : Finset (Idx ℓ)} {f : Buf (Elt F) ℓ}

/-- A read token held at SOME contents, beside another share of the same elements at `f`, is held at `f`. -/
theorem tok_same (q₁ q₂ : PosShare TreeShare) :
    iprop((ℓ ↦[I]{q₁} f) ∗ ∃ g, ℓ ↦[I]{q₂} g) ⊢ (iprop((ℓ ↦[I]{q₁} f) ∗ ℓ ↦[I]{q₂} f) : sProp 𝕄) := by
  iintro ⟨Hd, %g, Ht⟩
  ihave H := (persistent_entails_right (pointsTo_agree (ℓ := ℓ) (I := I) (J := I) (q₁ := q₁) (q₂ := q₂) (f := f) (g := g))) $$ [Hd Ht]
  · isplitl [Hd]; · iexact Hd
    iexact Ht
  icases H with ⟨%h, Hd, Ht⟩
  isplitl [Hd]; · iexact Hd
  ihave Ht' := (Entails.of_eq (show (ℓ ↦[I]{q₂} g : sProp 𝕄) = ℓ ↦[I]{q₂} f from
    pointsTo_congr fun i hi => ((h i (Finset.mem_inter.mpr ⟨hi, hi⟩)).1).symm)) $$ Ht
  iexact Ht'

theorem regroup3 (A B C : sProp 𝕄) : iprop(A ∗ (B ∗ C)) ⊢ (iprop((A ∗ B) ∗ C) : sProp 𝕄) := by
  iintro ⟨HA, HB, HC⟩
  isplitr [HC]
  · isplitl [HA]; · iexact HA
    iexact HB
  · iexact HC

/-- The remainder of a share after `k` read tokens, and the tokens each at SOME contents, are the share at the
    remainder's contents: two holders of the same elements agree on them. -/
theorem toks_range_rejoin (q : PosShare TreeShare) (k : ℕ) :
    iprop((ℓ ↦[I]{shareDrop q k} f) ∗ bigSep (Finset.range k) (fun i => iprop(∃ g, ℓ ↦[I]{shareTokN q i} g)))
      ⊢ (ℓ ↦[I]{q} f : sProp 𝕄) := by
  induction k with
  | zero => rw [Finset.range_zero, bigSep_empty]; exact Laws.sep_emp.1
  | succ k ih =>
    rw [Finset.range_add_one, bigSep_insert Finset.notMem_range_self]
    refine BI.Entails.trans ?_ ih
    exact (regroup3 _ _ _).trans (Laws.sep_mono_left
      ((tok_same (shareDrop q (k + 1)) (shareTokN q k)).trans (pointsTo_share (PosShare.mem_left_op_right (shareDrop q k))).2))

/-- The same over the cells `Fin n`. -/
theorem toks_rejoin (q : PosShare TreeShare) (n : ℕ) :
    iprop((ℓ ↦[I]{shareDrop q n} f) ∗ bigSep Finset.univ (fun i : Fin n => iprop(∃ g, ℓ ↦[I]{shareTok q n i} g)))
      ⊢ (ℓ ↦[I]{q} f : sProp 𝕄) := by
  rw [show bigSep Finset.univ (fun i : Fin n => (iprop(∃ g, ℓ ↦[I]{shareTok q n i} g) : sProp 𝕄))
      = bigSep (Finset.range n) (fun i => iprop(∃ g, ℓ ↦[I]{shareTokN q i} g))
    by rw [← Nat.Iio_eq_range, ← Fin.map_valEmbedding_univ, bigSep_map]; rfl]
  exact toks_range_rejoin q n

end Tokens

/-! ## Tasks, their rows and their read shares -/

theorem hdiv32 : 32 ∣ S819200x64.size 0 := ⟨25600, rfl⟩
/-- The 25600 rows of task `t`. -/
abbrev tileRect (t : Fin 32) : Rect S819200x64 := Rect.part (s := S819200x64) (a₀ := 0) hdiv32 t
def tileRows (q : Fin 3) (d : Dev nD) (t : Fin 32) : Finset (Idx (outLoc q d)) :=
  match q with
  | 0 => (tileRect t).set
  | 1 => (tileRect t).set
  | 2 => (tileRect t).set

/-- Task `i` of SparseCore `c` among the 32. -/
def tix (q : Fin 3) (c : Fin ((K (F := F)).nCore q)) (i : Fin ((K (F := F)).nSub q)) : Fin 32 :=
  ⟨16 * c.val + i.val, by
    have hc : c.val < 2 := (nCore_eq (F := F) q) ▸ c.isLt
    have hi : i.val < 16 := (nSub_eq (F := F) q) ▸ i.isLt
    omega⟩

abbrev tsh (t : Fin 32) : PosShare TreeShare := shareTok fullShare 32 t

/-- What task `t` of call `q` is handed, and hands back: a read token of each input — the table at the contents it
    finds, the index arrays at theirs — and its own rows of the output, at the contents it finds or leaves. -/
def goResAt (tab out : Ref sig .tc) (d : Dev nD) (rows : Fin 32 → Finset (Idx (locOf d out))) (t : Fin 32) : sProp 𝕄 :=
  iprop((∃ f, locOf d tab ↦{tsh t} f) ∗ (srcLoc d ↦{tsh t} C.src d) ∗ (dstLoc d ↦{tsh t} C.dst d)
    ∗ ∃ f, locOf d out ↦[rows t]{fullShare} f)
def goRes (q : Fin 3) (d : Dev nD) (t : Fin 32) : sProp 𝕄 := goResAt C (tabRef q) (outRef q) d (tileRows q d) t
abbrev tdRes (q : Fin 3) (d : Dev nD) (t : Fin 32) : sProp 𝕄 := goRes C q d t

/-- The handshakes' payloads: a SparseCore's are its sixteen tasks' together; no ghost state of the kernels' own. -/
def P : (K (F := F)).Pay (nD := nD) (Val := Elt F) (Name := ℕ) (U := UU) where
  st := fun q d c => bigSep Finset.univ fun i : Fin ((K (F := F)).nSub q) => goRes C q d (tix q c i)
  dn := fun q d c => bigSep Finset.univ fun i : Fin ((K (F := F)).nSub q) => tdRes C q d (tix q c i)
  go := fun q d c i => goRes C q d (tix q c i)
  td := fun q d c i => tdRes C q d (tix q c i)
  x := fun _ _ => iprop(emp)

set_option synthInstance.maxHeartbeats 400000 in
instance goRes_storable (q : Fin 3) (d : Dev nD) (t : Fin 32) : BI.Storable (upEmb : UEmb _ 𝕄) (goRes C q d t) := by
  unfold goRes goResAt; infer_instance

instance P_storable : (P (F := F) C).IsStorable where
  st q d c := by unfold P; dsimp only; infer_instance
  dn q d c := by unfold P; dsimp only; infer_instance
  go q d c i := by unfold P; dsimp only; infer_instance
  td q d c i := by unfold P; dsimp only; infer_instance

/-- Dealing a SparseCore's operands to its tasks and gathering their results is the identity. -/
theorem vecSplit (q : Fin 3) : (K (F := F)).VecSplit' (P C) q := by
  intro d c
  show (bigSep Finset.univ fun i : Fin ((K (F := F)).nSub q) => goRes C q d (tix q c i)) ⊢ |={Set.univ}=> iprop(
      (bigSep Finset.univ fun i : Fin ((K (F := F)).nSub q) => goRes C q d (tix q c i))
      ∗ ((bigSep Finset.univ fun i : Fin ((K (F := F)).nSub q) => tdRes C q d (tix q c i))
          -∗ (bigSep Finset.univ fun i : Fin ((K (F := F)).nSub q) => tdRes C q d (tix q c i))))
  iintro H; imodintro
  isplitl [H]; · iexact H
  iintro H; iexact H

end Cert.Proof.IdealLaunch

end
-- ==== Proof.LaunchElem.lean ====
/-
  The launch element of the ghost state — the handshakes' rounds, and for the four TensorCore pipelines their staging
  cells' launch state and the duty tokens of the transfers their loops issue — and the run of the whole family of
  threads from the obligations of its parts: each vector-subcore kernel's task, and @main on the TensorCore.
-/
import proofs.«215677_g32066225832048_cont_9to1_32_28_alg».proof.Proof.LaunchPay

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : Conts F)

/-- What the launch leaves a TensorCore for its four regions: each pipeline's staging cells' launch state and tokens. -/
def G (d : Dev nD) : sProp 𝕄 :=
  bigSep Finset.univ fun p : Fin 4 => iprop(Pipeline.cellsGhost cfgs (EK (F := F)) p d ∗ Pipeline.toksInit cfgs (EK (F := F)) p d)

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

omit [FloatOps F] [Named F] in
theorem ownU_split (a : UH) (b : UK) : (ownU ((a, (b, (1 : Counters))) : UU) : sProp 𝕄) ⊢ iprop(BI.own (EH a) ∗ BI.own (EK b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op ((b, (1 : Counters)) : UC))))

omit [FloatOps F] [Named F] in
theorem G_intro :
    iprop((bigSep Finset.univ fun c : Dev nD => bigSep Finset.univ fun p : Fin 4 => Pipeline.cellsGhost cfgs (EK (F := F)) p c)
        ∗ (bigSep Finset.univ fun c : Dev nD => bigSep Finset.univ fun p : Fin 4 => (Pipeline.toksInit cfgs (EK (F := F)) p c : sProp 𝕄)))
      ⊢ bigSep Finset.univ fun d : Dev nD => G (F := F) d := by
  unfold G
  simp only [bigSep_sep']
  exact BI.Entails.refl _

omit [FloatOps F] [Named F] in
theorem bigSep_emp' {I : Type} (s : Finset I) : (bigSep s fun _ => iprop(emp)) = (iprop(emp) : sProp 𝕄) := bigSep_emp_const s

omit [FloatOps F] [Named F] in
/-- No kernel keeps ghost state of its own: what the launch deals the threads for them is empty. -/
theorem Px_all : (bigSep Finset.univ fun thr : Thread nD τ => bigSep Finset.univ fun q : Fin 3 => (P C).x q thr) = (iprop(emp) : sProp 𝕄) := by
  show (bigSep Finset.univ fun thr : Thread nD τ => bigSep Finset.univ fun q : Fin 3 => (iprop(emp) : sProp 𝕄)) = _
  rw [show (fun thr : Thread nD τ => bigSep Finset.univ fun q : Fin 3 => (iprop(emp) : sProp 𝕄)) = fun _ => iprop(emp) from
    funext fun _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P C).x q thr) := by
  unfold u₀
  iintro Hu
  ihave H := (ownU_split _ _) $$ Hu
  icases H with ⟨HH, HK⟩
  imod (Pipeline.fund_ghost cfgs (EK (F := F)) cellOf_inj) $$ HK with ⟨Hg, Ht⟩
  imodintro
  isplitl [HH]; · iexact HH
  isplitl [Hg Ht]
  · iapply (G_intro (F := F))
    isplitl [Hg]; · iexact Hg
    iexact Ht
  · rw [Px_all]; iempintro

/-- The family of threads runs, every weakly fair execution ending in a memory of which `Q'` holds, from: each
    call's task on a vector subcore; @main on the TensorCore, from its launch holdings and the pipelines' ghost
    state to `FIN`; and how `FIN` reads the final memory. -/
theorem run_of [∀ e, Nonempty (Elt F e)] (m : (ℓ : Loc nD τ sig) → Buf (Elt F) ℓ) (ρ : Dev nD → PrngReg)
    (htile : ∀ q : Fin 3, (K (F := F)).TileObl (D (F := F)) 𝒱 (P C) v₀ q)
    (FIN : Dev nD → sProp 𝕄)
    (hmain : ∀ (κ : GSem nD τ sig → ℕ) (d : Dev nD),
      iprop((K (F := F)).ctx EH (P C) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 3 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P C) facts v₀
    (fun q hq => match q with | 0 => nomatch hq | 1 => nomatch hq | 2 => nomatch hq)
    (fun q _ => htile q)
    (fun q _ => SparseCore.Cfg.VecSplit.of_plain (vecSplit C q))
    m ρ main (G (F := F)) FIN (u₀ (F := F)) (sep_elim_left.trans (hu₀ C)) hmain fq hfin Q' hQ

end Cert.Proof.IdealLaunch

end
-- ==== Proof.LaunchCall.lean ====
/-
  A SparseCore call as @main on the TensorCore sees it. Before the call the TensorCore holds the table, the two index
  arrays and the output whole; it keeps a remainder of each input's share, deals the 32 tasks a read token each and
  their rows of the output, starts the call and waits for it; what comes back rejoins to the inputs whole at the
  contents it kept (a token's contents agree with the remainder's) and the output whole at what the tasks left.
-/
import proofs.«215677_g32066225832048_cont_9to1_32_28_alg».proof.Proof.LaunchElem

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts] [∀ e, Nonempty (Elt F e)]

local notation "𝕄" => MT nD τ sig (HIx 3) (Elt F) ℕ UU ℕ

variable (C : Conts F)

/-! ## The 32 tasks as 2 SparseCores of 16 -/

omit [FloatOps F] [Named F] [∀ e, Nonempty (Elt F e)] in
theorem regroup (q : Fin 3) (Φ : Fin 32 → sProp 𝕄) :
    (bigSep Finset.univ fun c : Fin ((K (F := F)).nCore q) => bigSep Finset.univ fun i : Fin ((K (F := F)).nSub q) => Φ (tix q c i))
      = bigSep Finset.univ Φ := by
  have key : ∀ q : Fin 3, (bigSep Finset.univ fun ci : Fin ((K (F := F)).nCore q) × Fin ((K (F := F)).nSub q) => Φ (tix q ci.1 ci.2))
      = bigSep Finset.univ Φ := by
    intro q
    match q with
    | 0 =>
      rw [bigSep_univ_equiv (finProdFinEquiv (m := 2) (n := 16)) Φ]
      exact bigSep_congr fun ci _ => congrArg Φ (Fin.ext (by show 16 * ci.1.val + ci.2.val = _; simp [finProdFinEquiv]; omega))
    | 1 =>
      rw [bigSep_univ_equiv (finProdFinEquiv (m := 2) (n := 16)) Φ]
      exact bigSep_congr fun ci _ => congrArg Φ (Fin.ext (by show 16 * ci.1.val + ci.2.val = _; simp [finProdFinEquiv]; omega))
    | 2 =>
      rw [bigSep_univ_equiv (finProdFinEquiv (m := 2) (n := 16)) Φ]
      exact bigSep_congr fun ci _ => congrArg Φ (Fin.ext (by show 16 * ci.1.val + ci.2.val = _; simp [finProdFinEquiv]; omega))
  rw [← key q, bigSep_univ_prod]

/-! ## Dealing and gathering -/

section Deal

variable (tab out : Ref sig .tc) (d : Dev nD) (rows : Fin 32 → Finset (Idx (locOf d out)))
  (hdisj : ∀ t ∈ (Finset.univ : Finset (Fin 32)), ∀ t' ∈ (Finset.univ : Finset (Fin 32)), t ≠ t' → Disjoint (rows t) (rows t'))
  (hcover : (Finset.univ : Finset (Fin 32)).biUnion rows = Finset.univ)

omit [FloatOps F] [Named F] [∀ e, Nonempty (Elt F e)] in
theorem ex_intro {ℓ : Loc nD τ sig} (I : Finset (Idx ℓ)) (q : PosShare TreeShare) (f : Buf (Elt F) ℓ) :
    (ℓ ↦[I]{q} f : sProp 𝕄) ⊢ iprop(∃ g, ℓ ↦[I]{q} g) := by
  iintro H; iexists f; iexact H

omit [FloatOps F] [Named F] [∀ e, Nonempty (Elt F e)] in
theorem toks_ex {ℓ : Loc nD τ sig} (f : Buf (Elt F) ℓ) :
    (bigSep Finset.univ fun t : Fin 32 => (ℓ ↦{shareTok fullShare 32 t} f : sProp 𝕄))
      ⊢ bigSep Finset.univ fun t : Fin 32 => (iprop(∃ g, ℓ ↦{shareTok fullShare 32 t} g) : sProp 𝕄) :=
  bigSep_mono fun (t : Fin 32) _ => ex_intro (F := F) Finset.univ (shareTok fullShare 32 t) f

omit [FloatOps F] [Named F] [∀ e, Nonempty (Elt F e)] in
theorem rows_ex (fo : Buf (Elt F) (locOf d out)) :
    (bigSep Finset.univ fun t : Fin 32 => (locOf d out ↦[rows t]{fullShare} fo : sProp 𝕄))
      ⊢ bigSep Finset.univ fun t : Fin 32 => (iprop(∃ g, locOf d out ↦[rows t]{fullShare} g) : sProp 𝕄) :=
  bigSep_mono fun (t : Fin 32) _ => ex_intro (F := F) (rows t) fullShare fo

include hdisj hcover in
omit [FloatOps F] [Named F] [∀ e, Nonempty (Elt F e)] in
/-- The inputs' full shares into a remainder and 32 tokens, the output into the tasks' rows. -/
theorem deal (ft : Buf (Elt F) (locOf d tab)) (fo : Buf (Elt F) (locOf d out)) :
    iprop((locOf d tab ↦{fullShare} ft) ∗ (srcLoc d ↦{fullShare} C.src d) ∗ (dstLoc d ↦{fullShare} C.dst d) ∗ (locOf d out ↦{fullShare} fo))
      ⊢ (iprop(((locOf d tab ↦{shareDrop fullShare 32} ft) ∗ (srcLoc d ↦{shareDrop fullShare 32} C.src d) ∗ (dstLoc d ↦{shareDrop fullShare 32} C.dst d))
          ∗ bigSep Finset.univ fun t : Fin 32 => goResAt C tab out d rows t) : sProp 𝕄) := by
  have hout : (locOf d out ↦{fullShare} fo : sProp 𝕄) = bigSep Finset.univ fun t : Fin 32 => locOf d out ↦[rows t]{fullShare} fo := by
    rw [← pointsTo_biUnion Finset.univ (ℓ := locOf d out) rows hdisj, hcover]; try rfl
  unfold goResAt
  simp only [bigSep_sep']
  iintro ⟨Ht, Hs, Hd, Ho⟩
  ihave Ht := (pointsTo_toks_split fullShare 32) $$ Ht
  ihave Hs := (pointsTo_toks_split fullShare 32) $$ Hs
  ihave Hd := (pointsTo_toks_split fullShare 32) $$ Hd
  ihave Ho := (Entails.of_eq hout) $$ Ho
  icases Ht with ⟨Htr, Htt⟩
  icases Hs with ⟨Hsr, Hst⟩
  icases Hd with ⟨Hdr, Hdt⟩
  isplitl [Htr Hsr Hdr]
  · isplitl [Htr]; · iexact Htr
    isplitl [Hsr]; · iexact Hsr
    iexact Hdr
  isplitl [Htt]
  · iapply (toks_ex (F := F) ft); iexact Htt
  isplitl [Hst]; · iexact Hst
  isplitl [Hdt]; · iexact Hdt
  iapply (rows_ex (F := F) out d rows fo); iexact Ho

include hdisj hcover in
omit [FloatOps F] [Named F] in
/-- Back: the inputs whole at the contents kept, the output whole at what the tasks left. -/
theorem gather (ft : Buf (Elt F) (locOf d tab)) :
    iprop(((locOf d tab ↦{shareDrop fullShare 32} ft) ∗ (srcLoc d ↦{shareDrop fullShare 32} C.src d) ∗ (dstLoc d ↦{shareDrop fullShare 32} C.dst d))
        ∗ bigSep Finset.univ fun t : Fin 32 => goResAt C tab out d rows t)
      ⊢ (iprop((locOf d tab ↦{fullShare} ft) ∗ (srcLoc d ↦{fullShare} C.src d) ∗ (dstLoc d ↦{fullShare} C.dst d) ∗ ∃ g, locOf d out ↦{fullShare} g) : sProp 𝕄) := by
  unfold goResAt
  simp only [bigSep_sep']
  iintro ⟨⟨Htr, Hsr, Hdr⟩, Htt, Hst, Hdt, Hot⟩
  isplitl [Htr Htt]
  · iapply (toks_rejoin (F := F) fullShare 32)
    isplitl [Htr]; · iexact Htr
    iexact Htt
  isplitl [Hsr Hst]
  · iapply (pointsTo_toks_join fullShare 32)
    isplitl [Hsr]; · iexact Hsr
    iexact Hst
  isplitl [Hdr Hdt]
  · iapply (pointsTo_toks_join fullShare 32)
    isplitl [Hdr]; · iexact Hdr
    iexact Hdt
  ihave H := (bigSep_exists_pi Finset.univ (fun (t : Fin 32) (f : Buf (Elt F) (locOf d out)) => (locOf d out ↦[rows t]{fullShare} f : sProp 𝕄))) $$ Hot
  icases H with ⟨%fs, H⟩
  ihave H' := (pointsTo_biUnion_join Finset.univ rows fs (fs 0) hdisj) $$ H
  icases H' with ⟨%g, -, Hg⟩
  ihave Hg' := (Entails.of_eq (congrArg (fun S => (locOf d out ↦[S]{fullShare} g : sProp 𝕄)) hcover)) $$ Hg
  iexists g; iexact Hg'

end Deal

/-! ## The tasks' rows partition the output -/

omit [FloatOps F] [Named F] [∀ e, Nonempty (Elt F e)] in
theorem tileRows_disj (q : Fin 3) (d : Dev nD) :
    ∀ t ∈ (Finset.univ : Finset (Fin 32)), ∀ t' ∈ (Finset.univ : Finset (Fin 32)), t ≠ t' → Disjoint (tileRows q d t) (tileRows q d t') := by
  intro t _ t' _ h
  match q with
  | 0 => exact Rect.part_disjoint hdiv32 h
  | 1 => exact Rect.part_disjoint hdiv32 h
  | 2 => exact Rect.part_disjoint hdiv32 h

omit [FloatOps F] [Named F] [∀ e, Nonempty (Elt F e)] in
theorem tileRows_cover (q : Fin 3) (d : Dev nD) : (Finset.univ : Finset (Fin 32)).biUnion (tileRows q d) = Finset.univ := by
  match q with
  | 0 => exact Rect.biUnion_part hdiv32
  | 1 => exact Rect.biUnion_part hdiv32
  | 2 => exact Rect.biUnion_part hdiv32

/-! ## The call -/

omit [FloatOps F] [Named F] [∀ e, Nonempty (Elt F e)] in
theorem st_eq (q : Fin 3) (d : Dev nD) :
    (bigSep Finset.univ fun c : Fin ((K (F := F)).nCore q) => (P C).st q d c)
      = bigSep Finset.univ fun t : Fin 32 => goResAt C (tabRef q) (outRef q) d (tileRows q d) t :=
  regroup q fun t => goResAt C (tabRef q) (outRef q) d (tileRows q d) t

omit [FloatOps F] [Named F] [∀ e, Nonempty (Elt F e)] in
theorem dn_eq (q : Fin 3) (d : Dev nD) :
    (bigSep Finset.univ fun c : Fin ((K (F := F)).nCore q) => (P C).dn q d c)
      = bigSep Finset.univ fun t : Fin 32 => goResAt C (tabRef q) (outRef q) d (tileRows q d) t :=
  regroup q fun t => goResAt C (tabRef q) (outRef q) d (tileRows q d) t

/-- SparseCore call `q` from the TensorCore: the four arrays whole before it, whole after it, the output at some
    contents. -/
theorem call_step (κ : GSem nD τ sig → ℕ) (d : Dev nD) (q : Fin 3)
    (ft : Buf (Elt F) (locOf d (tabRef q))) (fo : Buf (Elt F) (locOf d (outRef q))) {Φ : PUnit → sProp 𝕄} :
    iprop((K (F := F)).ctx EH (P C) κ ∗ (K (F := F)).tcSt EH d q.val
        ∗ ((locOf d (tabRef q) ↦{fullShare} ft) ∗ (srcLoc d ↦{fullShare} C.src d) ∗ (dstLoc d ↦{fullShare} C.dst d) ∗ (locOf d (outRef q) ↦{fullShare} fo))
        ∗ (((K (F := F)).tcSt EH d (q.val + 1)
              ∗ (locOf d (tabRef q) ↦{fullShare} ft) ∗ (srcLoc d ↦{fullShare} C.src d) ∗ (dstLoc d ↦{fullShare} C.dst d)
              ∗ ∃ g, locOf d (outRef q) ↦{fullShare} g) -∗ Φ ⟨⟩))
      ⊢ wp frame (wpE ((K (F := F)).defs (D (F := F))) 𝒱 (SparseCore.T d) none) Set.univ ((K (F := F)).run d q) Φ := by
  iintro ⟨#Hctx, Hst, Harr, Hk⟩
  ihave Hd := (deal C (tabRef q) (outRef q) d (tileRows q d) (tileRows_disj q d) (tileRows_cover q d) ft fo) $$ Harr
  icases Hd with ⟨Hrem, Htoks⟩
  iapply ((K (F := F)).wp_run (D (F := F)) 𝒱 (EH := EH) (P := P C) κ d q) $$ [Hst Htoks Hrem Hk]
  isplitr; · iexact Hctx
  isplitl [Hst]; · iexact Hst
  isplitl [Htoks]
  · ihave Htoks' := (Entails.of_eq (st_eq C q d).symm) $$ Htoks
    iexact Htoks'
  iintro ⟨Hst, Hdn⟩
  iapply Hk
  isplitl [Hst]; · iexact Hst
  ihave Hdn' := (Entails.of_eq (dn_eq C q d)) $$ Hdn
  iapply (gather C (tabRef q) (outRef q) d (tileRows q d) (tileRows_disj q d) (tileRows_cover q d) ft)
  isplitl [Hrem]; · iexact Hrem
  iexact Hdn'

end Cert.Proof.IdealLaunch

end
-- ==== Proof.HostOps.lean ====
/-
  @main's host operations between its kernel calls, as lists: the operations before the first TensorCore region,
  and those after each of the three SparseCore calls up to the next region. Each entry is the printed operation.
-/
import proofs.«215677_g32066225832048_cont_9to1_32_28_alg».proof.KernelIdeal
import Idealize.ShloMosaic.Lib.StableHlo.Run

noncomputable section

namespace Cert.KernelIdeal.HostOps

open Cert.KernelIdeal Idealize.ShloMosaic Idealize.ShloMosaic.TcCoe Idealize.SL.Sem Idealize.ShloMosaic.StableHlo

variable {F : FTy → Type} [FloatOps F] [Named F] [Cert.KernelIdeal.Facts]
open Cert.KernelIdeal.Facts₀ Cert.KernelIdeal.Facts

/-- Stretch 0: 29 operations. -/
abbrev ops0 : List (HloOp τ sig (Elt F)) :=
  [ reshape main_arg0 main_v0 rfl shapeCasts_S50000_S50000x1,
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg1 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_c (constantI S_ 32 0#32),
    unary main_c main_v5 (broadcastInDim S19200 ![] bcast_S_S19200 : (⟨S_, .i32⟩ : BufTy).Contents (Elt F) → (⟨S19200, .i32⟩ : BufTy).Contents (Elt F)),
    binary main_v2 main_v5 main_v6 ((fun a b => concatenate S819200 0 [⟨S800000, a⟩, ⟨S19200, b⟩] concatenates_S800000_S19200_S819200_d0) : (⟨S800000, .i32⟩ : BufTy).Contents (Elt F) → (⟨S19200, .i32⟩ : BufTy).Contents (Elt F) → (⟨S819200, .i32⟩ : BufTy).Contents (Elt F)),
    nullary main_c_0 (constantI S_ 32 50000#32),
    unary main_c_0 main_v7 (broadcastInDim S19200 ![] bcast_S_S19200 : (⟨S_, .i32⟩ : BufTy).Contents (Elt F) → (⟨S19200, .i32⟩ : BufTy).Contents (Elt F)),
    binary main_v4 main_v7 main_v8 ((fun a b => concatenate S819200 0 [⟨S800000, a⟩, ⟨S19200, b⟩] concatenates_S800000_S19200_S819200_d0) : (⟨S800000, .i32⟩ : BufTy).Contents (Elt F) → (⟨S19200, .i32⟩ : BufTy).Contents (Elt F) → (⟨S819200, .i32⟩ : BufTy).Contents (Elt F)),
    nullary main_cst (constant S_ .f32 0x3F800000#32),
    unary main_cst main_v9 (broadcastInDim S800000 ![] bcast_S_S800000 : (⟨S_, .f32⟩ : BufTy).Contents (Elt F) → (⟨S800000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_v4 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    reshape main_v12 main_v13 rfl shapeCasts_S50000_S50000x1,
    unary main_arg3 main_v14 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v14 main_v15 rfl shapeCasts_S1x128x64_S128x64,
    unary main_arg4 main_v16 ((extractStridedSlice S1x64 ![0, 0] · slices_S3x64_S1x64_0_0) : (⟨S3x64, .f32⟩ : BufTy).Contents (Elt F) → (⟨S1x64, .f32⟩ : BufTy).Contents (Elt F)),
    reshape main_v16 main_v17 rfl shapeCasts_S1x64_S64,
    unary main_v15 main_v18 ((extractStridedSlice S64x64 ![0, 0] · slices_S128x64_S64x64_0_0) : (⟨S128x64, .f32⟩ : BufTy).Contents (Elt F) → (⟨S64x64, .f32⟩ : BufTy).Contents (Elt F)),
    unary main_v15 main_v19 ((extractStridedSlice S64x64 ![64, 0] · slices_S128x64_S64x64_64_0) : (⟨S128x64, .f32⟩ : BufTy).Contents (Elt F) → (⟨S64x64, .f32⟩ : BufTy).Contents (Elt F)),
    binary main_v18 main_v19 main_v20 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_2 (constant S_ .f32 0x00000000#32),
    unary main_cst_2 main_v21 (broadcastInDim S64 ![] bcast_S_S64 : (⟨S_, .f32⟩ : BufTy).Contents (Elt F) → (⟨S64, .f32⟩ : BufTy).Contents (Elt F)),
    binary main_v21 main_v17 main_v22 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v22 main_v23 rfl shapeCasts_S128_S1x128 ]

/-- Every operation of stretch 0 touches TensorCore references only. -/
theorem ops0_tc : (ops0 (F := F)).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 1: 26 operations. -/
abbrev ops1 : List (HloOp τ sig (Elt F)) :=
  [ unary main_v25 main_v26 ((extractStridedSlice S800000x64 ![0, 0] · slices_S819200x64_S800000x64_0_0) : (⟨S819200x64, .f32⟩ : BufTy).Contents (Elt F) → (⟨S800000x64, .f32⟩ : BufTy).Contents (Elt F)),
    nullary main_cst_3 (constant S_ .f32 0x00000000#32),
    unary main_cst_3 main_v27 (broadcastInDim S50000x64 ![] bcast_S_S50000x64 : (⟨S_, .f32⟩ : BufTy).Contents (Elt F) → (⟨S50000x64, .f32⟩ : BufTy).Contents (Elt F)),
    unary main_v4 main_v28 (broadcastInDim S800000x1 ![0] bcast_S800000_S800000x1_0 : (⟨S800000, .i32⟩ : BufTy).Contents (Elt F) → (⟨S800000x1, .i32⟩ : BufTy).Contents (Elt F)),
    ternary main_v27 main_v28 main_v26 main_v29 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v30 main_v31 rfl shapeCasts_S1x64x64_S64x64,
    unary main_arg8 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    reshape main_v33 main_v34 rfl shapeCasts_S64_S1x64,
    unary main_arg5 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    unary main_arg6 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    reshape main_v38 main_v39 rfl shapeCasts_S64_S1x64,
    unary main_arg3 main_v40 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v40 main_v41 rfl shapeCasts_S1x128x64_S128x64,
    unary main_arg4 main_v42 ((extractStridedSlice S1x64 ![1, 0] · slices_S3x64_S1x64_1_0) : (⟨S3x64, .f32⟩ : BufTy).Contents (Elt F) → (⟨S1x64, .f32⟩ : BufTy).Contents (Elt F)),
    reshape main_v42 main_v43 rfl shapeCasts_S1x64_S64,
    unary main_v41 main_v44 ((extractStridedSlice S64x64 ![0, 0] · slices_S128x64_S64x64_0_0) : (⟨S128x64, .f32⟩ : BufTy).Contents (Elt F) → (⟨S64x64, .f32⟩ : BufTy).Contents (Elt F)),
    unary main_v41 main_v45 ((extractStridedSlice S64x64 ![64, 0] · slices_S128x64_S64x64_64_0) : (⟨S128x64, .f32⟩ : BufTy).Contents (Elt F) → (⟨S64x64, .f32⟩ : BufTy).Contents (Elt F)),
    binary main_v44 main_v45 main_v46 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_4 (constant S_ .f32 0x00000000#32),
    unary main_cst_4 main_v47 (broadcastInDim S64 ![] bcast_S_S64 : (⟨S_, .f32⟩ : BufTy).Contents (Elt F) → (⟨S64, .f32⟩ : BufTy).Contents (Elt F)),
    binary main_v47 main_v43 main_v48 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v48 main_v49 rfl shapeCasts_S128_S1x128 ]

/-- Every operation of stretch 1 touches TensorCore references only. -/
theorem ops1_tc : (ops1 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 2: 26 operations. -/
abbrev ops2 : List (HloOp τ sig (Elt F)) :=
  [ unary main_v51 main_v52 ((extractStridedSlice S800000x64 ![0, 0] · slices_S819200x64_S800000x64_0_0) : (⟨S819200x64, .f32⟩ : BufTy).Contents (Elt F) → (⟨S800000x64, .f32⟩ : BufTy).Contents (Elt F)),
    nullary main_cst_5 (constant S_ .f32 0x00000000#32),
    unary main_cst_5 main_v53 (broadcastInDim S50000x64 ![] bcast_S_S50000x64 : (⟨S_, .f32⟩ : BufTy).Contents (Elt F) → (⟨S50000x64, .f32⟩ : BufTy).Contents (Elt F)),
    unary main_v4 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v56 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v56 main_v57 rfl shapeCasts_S1x64x64_S64x64,
    unary main_arg8 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    reshape main_v59 main_v60 rfl shapeCasts_S64_S1x64,
    unary main_arg5 main_v61 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v61 main_v62 rfl shapeCasts_S1x64x64_S64x64,
    unary main_arg6 main_v63 ((extractStridedSlice S1x64 ![1, 0] · slices_S3x64_S1x64_1_0) : (⟨S3x64, .f32⟩ : BufTy).Contents (Elt F) → (⟨S1x64, .f32⟩ : BufTy).Contents (Elt F)),
    reshape main_v63 main_v64 rfl shapeCasts_S1x64_S64,
    reshape main_v64 main_v65 rfl shapeCasts_S64_S1x64,
    unary main_arg3 main_v66 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v66 main_v67 rfl shapeCasts_S1x128x64_S128x64,
    unary main_arg4 main_v68 ((extractStridedSlice S1x64 ![2, 0] · slices_S3x64_S1x64_2_0) : (⟨S3x64, .f32⟩ : BufTy).Contents (Elt F) → (⟨S1x64, .f32⟩ : BufTy).Contents (Elt F)),
    reshape main_v68 main_v69 rfl shapeCasts_S1x64_S64,
    unary main_v67 main_v70 ((extractStridedSlice S64x64 ![0, 0] · slices_S128x64_S64x64_0_0) : (⟨S128x64, .f32⟩ : BufTy).Contents (Elt F) → (⟨S64x64, .f32⟩ : BufTy).Contents (Elt F)),
    unary main_v67 main_v71 ((extractStridedSlice S64x64 ![64, 0] · slices_S128x64_S64x64_64_0) : (⟨S128x64, .f32⟩ : BufTy).Contents (Elt F) → (⟨S64x64, .f32⟩ : BufTy).Contents (Elt F)),
    binary main_v70 main_v71 main_v72 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_6 (constant S_ .f32 0x00000000#32),
    unary main_cst_6 main_v73 (broadcastInDim S64 ![] bcast_S_S64 : (⟨S_, .f32⟩ : BufTy).Contents (Elt F) → (⟨S64, .f32⟩ : BufTy).Contents (Elt F)),
    binary main_v73 main_v69 main_v74 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v74 main_v75 rfl shapeCasts_S128_S1x128 ]

/-- Every operation of stretch 2 touches TensorCore references only. -/
theorem ops2_tc : (ops2 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 3: 17 operations. -/
abbrev ops3 : List (HloOp τ sig (Elt F)) :=
  [ unary main_v77 main_v78 ((extractStridedSlice S800000x64 ![0, 0] · slices_S819200x64_S800000x64_0_0) : (⟨S819200x64, .f32⟩ : BufTy).Contents (Elt F) → (⟨S800000x64, .f32⟩ : BufTy).Contents (Elt F)),
    nullary main_cst_7 (constant S_ .f32 0x00000000#32),
    unary main_cst_7 main_v79 (broadcastInDim S50000x64 ![] bcast_S_S50000x64 : (⟨S_, .f32⟩ : BufTy).Contents (Elt F) → (⟨S50000x64, .f32⟩ : BufTy).Contents (Elt F)),
    unary main_v4 main_v80 (broadcastInDim S800000x1 ![0] bcast_S800000_S800000x1_0 : (⟨S800000, .i32⟩ : BufTy).Contents (Elt F) → (⟨S800000x1, .i32⟩ : BufTy).Contents (Elt F)),
    ternary main_v79 main_v80 main_v78 main_v81 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v82 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v82 main_v83 rfl shapeCasts_S1x64x64_S64x64,
    unary main_arg8 main_v84 ((extractStridedSlice S1x64 ![2, 0] · slices_S3x64_S1x64_2_0) : (⟨S3x64, .f32⟩ : BufTy).Contents (Elt F) → (⟨S1x64, .f32⟩ : BufTy).Contents (Elt F)),
    reshape main_v84 main_v85 rfl shapeCasts_S1x64_S64,
    reshape main_v85 main_v86 rfl shapeCasts_S64_S1x64,
    unary main_arg5 main_v87 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v87 main_v88 rfl shapeCasts_S1x64x64_S64x64,
    unary main_arg6 main_v89 ((extractStridedSlice S1x64 ![2, 0] · slices_S3x64_S1x64_2_0) : (⟨S3x64, .f32⟩ : BufTy).Contents (Elt F) → (⟨S1x64, .f32⟩ : BufTy).Contents (Elt F)),
    reshape main_v89 main_v90 rfl shapeCasts_S1x64_S64,
    reshape main_v90 main_v91 rfl shapeCasts_S64_S1x64,
    reshape main_arg10 main_v92 rfl shapeCasts_S64_S1x64,
    reshape main_arg12 main_v93 rfl shapeCasts_S1_S1x1 ]

/-- Every operation of stretch 3 touches TensorCore references only. -/
theorem ops3_tc : (ops3 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., reshape_bufs_sub .., reshape_bufs_sub ..⟩

end Cert.KernelIdeal.HostOps

end
-- ==== Proof.MainShape.lean ====
/-
  @main on the TensorCore as what it is: four stretches of host operations, each followed by a TensorCore region,
  the first three regions each followed by a SparseCore call.
-/
import proofs.«215677_g32066225832048_cont_9to1_32_28_alg».proof.Proof.HostOps
import Idealize.ShloMosaic.Lib.SparseCore.Launch

noncomputable section

namespace Cert.KernelIdeal.HostOps

open Cert.KernelIdeal Idealize.ShloMosaic Idealize.ShloMosaic.TcCoe Idealize.SL.Sem Idealize.ShloMosaic.StableHlo

variable {F : FTy → Type} [FloatOps F] [Named F] [Cert.KernelIdeal.Facts]

/-- Entering TensorCore region `p`. -/
abbrev enter (p : Fin 4) : Prog (TpuEff nD τ sig (Elt F) (SparseCore.Sig (Pipeline.Sig Λ₀ (Fin 4) fun p => (pcfgs (F := F) p).Adm) 3) .tc) PUnit :=
  Prog.lift (.customCall (SparseCore.inner (Pipeline.entry p)) ())

set_option maxHeartbeats 4000000 in
set_option maxRecDepth 65536 in
theorem main_eq (d : Dev nD) :
    main (F := F) d
      = (seq ops0 >>= fun _ => enter 0 >>= fun _ => sc.run d 0 >>= fun _ =>
         seq ops1 >>= fun _ => enter 1 >>= fun _ => sc.run d 1 >>= fun _ =>
         seq ops2 >>= fun _ => enter 2 >>= fun _ => sc.run d 2 >>= fun _ =>
         seq ops3 >>= fun _ => enter 3 >>= fun _ => pure ⟨⟩) := rfl

end Cert.KernelIdeal.HostOps

end
-- ==== Proof.LaunchHost.lean ====
/-
  The host stretches of @main on the TensorCore. The TensorCore holds all its unscoped buffers — @main's 121 arrays —
  whole, at a valuation; every listed operation reads and writes only such buffers, so a stretch runs to its end
  with the buffers at the fold of its operations over the valuation it started from.
-/
import proofs.«215677_g32066225832048_cont_9to1_32_28_alg».proof.Proof.MainShape
import proofs.«215677_g32066225832048_cont_9to1_32_28_alg».proof.Proof.LaunchElem
import Idealize.ShloMosaic.Lib.Pipeline.Frame

noncomputable section

namespace Cert.Proof.IdealLaunch

open Cert.KernelIdeal Cert.KernelIdeal.Gen Cert.KernelIdeal.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [hFacts : Cert.KernelIdeal.Facts]

local notation "𝕄" => MT nD τ sig (HIx 3) (Elt F) ℕ UU ℕ

/-- An operation that touches TensorCore references only touches unscoped ones only. -/
theorem sub_uc {ops : List (HloOp τ sig (Elt F))} (h : ops.Forall fun op => op.bufs ⊆ tcRefs τ sig) :
    ∀ op ∈ ops, op.bufs ⊆ Pipeline.ucRefs τ sig :=
  fun op hop => Pipeline.sub_ucRefs op (List.forall_iff_forall_mem.1 h op hop)

end Cert.Proof.IdealLaunch

end
-- ==== Proof.HostWrites.lean ====
/-
  Each host stretch of @main is in single-assignment form: its k-th operation writes exactly the k-th reference
  of the list given here, and no operation allocates a buffer.
-/
import proofs.«215677_g32066225832048_cont_9to1_32_28_alg».proof.Proof.HostOps
import proofs.«215677_g32066225832048_cont_9to1_32_28_alg».proof.Proof.LibAfterAssign

noncomputable section

namespace Cert.KernelIdeal.HostOps

open Cert.KernelIdeal Idealize.ShloMosaic Idealize.ShloMosaic.TcCoe Idealize.SL.Sem Idealize.ShloMosaic.StableHlo Cert.Lib.AfterAssign

variable {F : FTy → Type} [FloatOps F] [Named F] [Cert.KernelIdeal.Facts]

/-- The references stretch 0 writes, one per operation, in order. -/
abbrev ops0_ws : List (Ref sig .tc) :=
  [main_v0, main_v1, main_v2, main_v3, main_v4, main_c, main_v5, main_v6, main_c_0, main_v7, main_v8, main_cst, main_v9, main_cst_1, main_v10, main_v11, main_v12, main_v13, main_v14, main_v15, main_v16, main_v17, main_v18, main_v19, main_v20, main_cst_2, main_v21, main_v22, main_v23]
theorem ops0_writes : WritesAre (ops0 : List (HloOp τ sig (Elt F))) ops0_ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, trivial⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 1 writes, one per operation, in order. -/
abbrev ops1_ws : List (Ref sig .tc) :=
  [main_v26, main_cst_3, main_v27, main_v28, main_v29, main_v30, main_v31, main_v32, main_v33, main_v34, main_v35, main_v36, main_v37, main_v38, main_v39, main_v40, main_v41, main_v42, main_v43, main_v44, main_v45, main_v46, main_cst_4, main_v47, main_v48, main_v49]
theorem ops1_writes : WritesAre (ops1 : List (HloOp τ sig (Elt F))) ops1_ws :=
  ⟨rfl, rfl, rfl, rfl, rfl, rfl, rfl, rfl, rfl, rfl, rfl, rfl, rfl, rfl, rfl, rfl, rfl, rfl, rfl, rfl, rfl, rfl, rfl, rfl, rfl, rfl, trivial⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references stretch 2 writes, one per operation, in order. -/
abbrev ops2_ws : List (Ref sig .tc) :=
  [main_v52, main_cst_5, main_v53, main_v54, main_v55, main_v56, main_v57, main_v58, main_v59, main_v60, main_v61, main_v62, main_v63, main_v64, main_v65, main_v66, main_v67, main_v68, main_v69, main_v70, main_v71, main_v72, main_cst_6, main_v73, main_v74, main_v75]
theorem ops2_writes : WritesAre (ops2 : List (HloOp τ sig (Elt F))) ops2_ws :=
  ⟨rfl, rfl, rfl, rfl, rfl, rfl, rfl, rfl, rfl, rfl, rfl, rfl, rfl, rfl, rfl, rfl, rfl, rfl, rfl, rfl, rfl, rfl, rfl, rfl, rfl, rfl, trivial⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references stretch 3 writes, one per operation, in order. -/
abbrev ops3_ws : List (Ref sig .tc) :=
  [main_v78, main_cst_7, main_v79, main_v80, main_v81, main_v82, main_v83, main_v84, main_v85, main_v86, main_v87, main_v88, main_v89, main_v90, main_v91, main_v92, main_v93]
theorem ops3_writes : WritesAre (ops3 : List (HloOp τ sig (Elt F))) ops3_ws :=
  ⟨rfl, rfl, rfl, rfl, rfl, rfl, rfl, rfl, rfl, rfl, rfl, rfl, rfl, rfl, rfl, rfl, rfl, trivial⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

end Cert.KernelIdeal.HostOps

end
-- ==== Proof.LaunchMain.lean ====
/-
  @main on the TensorCore, composed: host stretch, region, SparseCore call, three times over, then a last stretch and
  the last region. Between the pieces the TensorCore holds all its arrays whole at a valuation; a stretch moves the
  valuation to the fold of its operations; a SparseCore call takes the table, the two index arrays and the output out
  of the held set and puts them back, the output at what the tasks left; a region (its rule a hypothesis here) changes
  its output arrays only. The argument arrays and the two index arrays are written by nothing after the first stretch.
-/
import proofs.«215677_g32066225832048_cont_9to1_32_28_alg».proof.Proof.LaunchCall
import proofs.«215677_g32066225832048_cont_9to1_32_28_alg».proof.Proof.LaunchHost
import proofs.«215677_g32066225832048_cont_9to1_32_28_alg».proof.Proof.HostWrites

noncomputable section

namespace Cert.Proof.IdealLaunch

open Cert.KernelIdeal Cert.KernelIdeal.Gen Cert.KernelIdeal.HostOps Cert.Lib.AfterAssign

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [hFacts : Cert.KernelIdeal.Facts] [∀ e, Nonempty (Elt F e)]

local notation "𝕄" => MT nD τ sig (HIx 3) (Elt F) ℕ UU ℕ

/-! ## The held set -/

/-- All the TensorCore's arrays, whole, at a valuation. -/
abbrev heldU (d : Dev nD) (W : Valuation τ sig (Elt F)) : sProp 𝕄 := held (SparseCore.T d) (Pipeline.ucRefs τ sig) W

omit [FloatOps F] [Named F] [∀ e, Nonempty (Elt F e)] in
/-- One buffer out of a held set. -/
theorem held_erase {c : Thread nD τ} {Sb : Finset (DevRef τ sig)} {b : DevRef τ sig} (hb : b ∈ Sb) (W : Valuation τ sig (Elt F)) :
    (held c Sb W : sProp 𝕄) = iprop(((c.1, b) ↦{fullShare} W b) ∗ held c (Sb.erase b) W) := by
  unfold held; exact bigSep_erase hb

omit [FloatOps F] [Named F] [∀ e, Nonempty (Elt F e)] in
/-- and back, at new contents. -/
theorem held_put {c : Thread nD τ} {Sb : Finset (DevRef τ sig)} {b : DevRef τ sig} (hb : b ∈ Sb) (W : Valuation τ sig (Elt F)) (g : b.ty.Contents (Elt F)) :
    iprop(((c.1, b) ↦{fullShare} g) ∗ held c (Sb.erase b) W) ⊢ (held c Sb (Function.update W b g) : sProp 𝕄) := by
  rw [held_erase hb (Function.update W b g), Function.update_self,
    held_congr c (S := Sb.erase b) (V := Function.update W b g) (V' := W) fun b' hb' => Function.update_of_ne (Finset.ne_of_mem_erase hb') _ _]

theorem mem_uc (r : Ref sig .tc) (h : (Proc.devRef (τ := τ) .tc r).isScoped = false) : Proc.devRef (τ := τ) .tc r ∈ Pipeline.ucRefs τ sig :=
  Finset.mem_filter.mpr ⟨devRef_mem_tcRefs r, by simp [h]⟩

/-! ## The index arrays, and what nothing writes after the first stretch -/

/-- The two padded index arrays' contents: what the first stretch computes them to. -/
def conts (m : (ℓ : Loc nD τ sig) → Buf (Elt F) ℓ) : Conts F where
  src d := after ops0 (launchContents m d) (Proc.devRef .tc main_v6)
  dst d := after ops0 (launchContents m d) (Proc.devRef .tc main_v8)

theorem conts_src (m : (ℓ : Loc nD τ sig) → Buf (Elt F) ℓ) (d : Dev nD) :
    (conts m).src d = after ops0 (launchContents m d) (Proc.devRef .tc main_v6) := rfl
theorem conts_dst (m : (ℓ : Loc nD τ sig) → Buf (Elt F) ℓ) (d : Dev nD) :
    (conts m).dst d = after ops0 (launchContents m d) (Proc.devRef .tc main_v8) := rfl

/-- The thirteen arguments, -/
abbrev args : List (Ref sig .tc) :=
  [main_arg0, main_arg1, main_arg2, main_arg3, main_arg4, main_arg5, main_arg6, main_arg7, main_arg8, main_arg9, main_arg10, main_arg11, main_arg12]
/-- and with them the two index arrays. -/
abbrev kept : List (Ref sig .tc) := args ++ [main_v6, main_v8]

/-- `W'` holds at the references `L` what `W` held. -/
def Keeps (L : List (Ref sig .tc)) (W W' : Valuation τ sig (Elt F)) : Prop := ∀ r ∈ L, W' (Proc.devRef .tc r) = W (Proc.devRef .tc r)

omit [FloatOps F] [Named F] [∀ e, Nonempty (Elt F e)] in
theorem Keeps.trans {L : List (Ref sig .tc)} {W W' W'' : Valuation τ sig (Elt F)} (h : Keeps L W W') (h' : Keeps L W' W'') : Keeps L W W'' :=
  fun r hr => (h' r hr).trans (h r hr)

omit [FloatOps F] [Named F] [∀ e, Nonempty (Elt F e)] in
theorem Keeps.mono {L L' : List (Ref sig .tc)} {W W' : Valuation τ sig (Elt F)} (h : Keeps L W W') (hL : ∀ r ∈ L', r ∈ L) : Keeps L' W W' :=
  fun r hr => h r (hL r hr)

/-- A stretch that writes none of them keeps them. -/
theorem keeps_after {L : List (Ref sig .tc)} {ops : List (HloOp τ sig (Elt F))} {ws : List (Ref sig .tc)} (hw : WritesAre ops ws)
    (hk : ∀ r ∈ L, r ∉ ws) (W : Valuation τ sig (Elt F)) : Keeps L W (after ops W) :=
  fun r hr => after_of_not_written hw W (hk r hr)

omit [FloatOps F] [Named F] [∀ e, Nonempty (Elt F e)] in
/-- Contents changed at references outside `L` only keep `L`. -/
theorem keeps_of_off {L outs : List (Ref sig .tc)} {W W' : Valuation τ sig (Elt F)}
    (h : ∀ r : Ref sig .tc, r ∉ outs → W' (Proc.devRef .tc r) = W (Proc.devRef .tc r)) (hL : ∀ r ∈ L, r ∉ outs) : Keeps L W W' :=
  fun r hr => h r (hL r hr)

omit [FloatOps F] [Named F] [∀ e, Nonempty (Elt F e)] in
theorem keeps_update {L : List (Ref sig .tc)} {o : Ref sig .tc} (W : Valuation τ sig (Elt F)) (g : (Proc.devRef (τ := τ) .tc o).ty.Contents (Elt F))
    (hL : ∀ r ∈ L, r ≠ o) : Keeps L W (Function.update W (Proc.devRef .tc o) g) :=
  fun r hr => Function.update_of_ne (devRef_ne_of_ne (hL r hr)) _ _

/-! ## A SparseCore call from the held set -/

omit [FloatOps F] [Named F] [∀ e, Nonempty (Elt F e)] in
theorem tab_ne_out (q : Fin 3) : tabRef q ≠ outRef q := by
  match q with
  | 0 => decide
  | 1 => decide
  | 2 => decide

/-- SparseCore call `q` and the rest of @main, from all the arrays held at `W` whose index arrays are the first
    stretch's: the rest runs with the call's output at some contents, everything else as it was. -/
theorem call_bind (m : (ℓ : Loc nD τ sig) → Buf (Elt F) ℓ) (κ : GSem nD τ sig → ℕ) (d : Dev nD) (q : Fin 3) (W : Valuation τ sig (Elt F))
    (hs : W (Proc.devRef .tc main_v6) = (conts m).src d) (hd : W (Proc.devRef .tc main_v8) = (conts m).dst d)
    {α : Type} (k : PUnit → Prog (TpuEff nD τ sig (Elt F) (SparseCore.Sig (Pipeline.Sig Λ₀ (Fin 4) fun p => (pcfgs (F := F) p).Adm) 3) .tc) α)
    {Φ : α → sProp 𝕄} :
    iprop((K (F := F)).ctx EH (P (conts m)) κ ∗ (K (F := F)).tcSt EH d q.val ∗ heldU d W
        ∗ (((K (F := F)).tcSt EH d (q.val + 1) ∗ ∃ g, heldU d (Function.update W (Proc.devRef .tc (outRef q)) g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  have h1 : Proc.devRef (τ := τ) .tc (tabRef q) ∈ Pipeline.ucRefs τ sig := mem_uc _ (by match q with | 0 => decide | 1 => decide | 2 => decide)
  have h2 : Proc.devRef (τ := τ) .tc main_v6 ∈ (Pipeline.ucRefs τ sig).erase (Proc.devRef .tc (tabRef q)) :=
    Finset.mem_erase.mpr ⟨devRef_ne_of_ne (by match q with | 0 => decide | 1 => decide | 2 => decide), mem_uc _ (by decide)⟩
  have h3 : Proc.devRef (τ := τ) .tc main_v8 ∈ ((Pipeline.ucRefs τ sig).erase (Proc.devRef .tc (tabRef q))).erase (Proc.devRef .tc main_v6) :=
    Finset.mem_erase.mpr ⟨devRef_ne_of_ne (by decide), Finset.mem_erase.mpr ⟨devRef_ne_of_ne (by match q with | 0 => decide | 1 => decide | 2 => decide), mem_uc _ (by decide)⟩⟩
  have h4 : Proc.devRef (τ := τ) .tc (outRef q)
      ∈ (((Pipeline.ucRefs τ sig).erase (Proc.devRef .tc (tabRef q))).erase (Proc.devRef .tc main_v6)).erase (Proc.devRef .tc main_v8) :=
    Finset.mem_erase.mpr ⟨devRef_ne_of_ne (by match q with | 0 => decide | 1 => decide | 2 => decide),
      Finset.mem_erase.mpr ⟨devRef_ne_of_ne (by match q with | 0 => decide | 1 => decide | 2 => decide),
        Finset.mem_erase.mpr ⟨devRef_ne_of_ne (tab_ne_out q).symm, mem_uc _ (by match q with | 0 => decide | 1 => decide | 2 => decide)⟩⟩⟩
  rw [wp_bind]
  unfold heldU
  rw [held_erase h1 W, held_erase h2 W, held_erase h3 W, held_erase h4 W, hs, hd]
  iintro ⟨#Hctx, Hst, ⟨Ht, Hs, Hd, Ho, Hrest⟩, Hk⟩
  iapply (call_step (conts m) κ d q (W (Proc.devRef .tc (tabRef q))) (W (Proc.devRef .tc (outRef q)))) $$ [Hst Ht Hs Hd Ho Hrest Hk]
  isplitr; · iexact Hctx
  isplitl [Hst]; · iexact Hst
  isplitl [Ht Hs Hd Ho]
  · isplitl [Ht]; · iexact Ht
    isplitl [Hs]; · iexact Hs
    isplitl [Hd]; · iexact Hd
    iexact Ho
  iintro ⟨Hst, Ht, Hs, Hd, %g, Ho⟩
  iapply Hk
  isplitl [Hst]; · iexact Hst
  iexists g
  -- the output back at `g`, then the three inputs back where they were
  ihave H4 := (held_put (F := F) h4 W g) $$ [Ho Hrest]
  · isplitl [Ho]; · iexact Ho
    iexact Hrest
  ihave Hd' := (Entails.of_eq (congrArg (fun x => ((SparseCore.T d).1, Proc.devRef (τ := τ) .tc main_v8) ↦{fullShare} x)
    ((Function.update_of_ne (devRef_ne_of_ne (by match q with | 0 => decide | 1 => decide | 2 => decide)) g W).trans hd).symm)) $$ Hd
  ihave H3 := (Entails.of_eq (held_erase (F := F) h3 (Function.update W (Proc.devRef .tc (outRef q)) g)).symm) $$ [Hd' H4]
  · isplitl [Hd']; · iexact Hd'
    iexact H4
  ihave Hs' := (Entails.of_eq (congrArg (fun x => ((SparseCore.T d).1, Proc.devRef (τ := τ) .tc main_v6) ↦{fullShare} x)
    ((Function.update_of_ne (devRef_ne_of_ne (by match q with | 0 => decide | 1 => decide | 2 => decide)) g W).trans hs).symm)) $$ Hs
  ihave H2 := (Entails.of_eq (held_erase (F := F) h2 (Function.update W (Proc.devRef .tc (outRef q)) g)).symm) $$ [Hs' H3]
  · isplitl [Hs']; · iexact Hs'
    iexact H3
  ihave Ht' := (Entails.of_eq (congrArg (fun x => ((SparseCore.T d).1, Proc.devRef (τ := τ) .tc (tabRef q)) ↦{fullShare} x)
    (Function.update_of_ne (devRef_ne_of_ne (tab_ne_out q)) g W).symm)) $$ Ht
  ihave H1 := (Entails.of_eq (held_erase (F := F) h1 (Function.update W (Proc.devRef .tc (outRef q)) g)).symm) $$ [Ht' H2]
  · isplitl [Ht']; · iexact Ht'
    iexact H2
  iexact H1

/-! ## A region, as @main needs it -/

/-- The rule @main needs of TensorCore region `p`, entered before SparseCore call `n`: from all the arrays held at
    `W` and the pipeline's staging cells' launch state, the rest of @main runs with the arrays held at contents that
    differ from `W` at the region's output arrays `outs` only; the TensorCore's handshake state is as before. -/
def RegionStep (C : Conts F) (p : Fin 4) (outs : List (Ref sig .tc)) (n : ℕ) : Prop :=
  ∀ (κ : GSem nD τ sig → ℕ) (d : Dev nD) (W : Valuation τ sig (Elt F)) {α : Type}
    (k : PUnit → Prog (TpuEff nD τ sig (Elt F) (SparseCore.Sig (Pipeline.Sig Λ₀ (Fin 4) fun p => (pcfgs (F := F) p).Adm) 3) .tc) α)
    (Φ : α → sProp 𝕄),
    iprop((K (F := F)).ctx EH (P C) κ ∗ (K (F := F)).tcSt EH d n ∗ boundary (SparseCore.T d) ∗ heldU d W
        ∗ iprop(Pipeline.cellsGhost cfgs (EK (F := F)) p d ∗ Pipeline.toksInit cfgs (EK (F := F)) p d)
        ∗ (((K (F := F)).tcSt EH d n ∗ boundary (SparseCore.T d)
              ∗ ∃ W', ⌜∀ r : Ref sig .tc, r ∉ outs → W' (Proc.devRef .tc r) = W (Proc.devRef .tc r)⌝ ∗ heldU d W')
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (enter p >>= k) Φ

/-! ## @main -/

/-- What @main ends holding: all the arrays, the arguments at their launch contents. -/
def FIN (m : (ℓ : Loc nD τ sig) → Buf (Elt F) ℓ) (d : Dev nD) : sProp 𝕄 :=
  iprop(∃ W, ⌜Keeps args (launchContents m d) W⌝ ∗ heldU d W)

omit [FloatOps F] [Named F] [∀ e, Nonempty (Elt F e)] in
theorem G_four (d : Dev nD) :
    (G (F := F) d : sProp 𝕄) = iprop((Pipeline.cellsGhost cfgs (EK (F := F)) 0 d ∗ Pipeline.toksInit cfgs (EK (F := F)) 0 d)
      ∗ (Pipeline.cellsGhost cfgs (EK (F := F)) 1 d ∗ Pipeline.toksInit cfgs (EK (F := F)) 1 d)
      ∗ (Pipeline.cellsGhost cfgs (EK (F := F)) 2 d ∗ Pipeline.toksInit cfgs (EK (F := F)) 2 d)
      ∗ (Pipeline.cellsGhost cfgs (EK (F := F)) 3 d ∗ Pipeline.toksInit cfgs (EK (F := F)) 3 d)) := by
  unfold G
  exact bigSep_univ_eq_bigSepL [(0 : Fin 4), (1 : Fin 4), (2 : Fin 4), (3 : Fin 4)] (by decide) (by decide) _

set_option backward.isDefEq.respectTransparency.types false in
set_option maxHeartbeats 4000000 in
/-- @main on the TensorCore of `d`, from what the launch deals it. -/
theorem hmain (m : (ℓ : Loc nD τ sig) → Buf (Elt F) ℓ) (ρ : Dev nD → PrngReg)
    (hr0 : RegionStep (conts m) 0 [main_v24_0, main_v24_1] 0) (hr1 : RegionStep (conts m) 1 [main_v50_0, main_v50_1] 1)
    (hr2 : RegionStep (conts m) 2 [main_v76_0, main_v76_1] 2) (hr3 : RegionStep (conts m) 3 [main_v94] 3)
    (κ : GSem nD τ sig → ℕ) (d : Dev nD) :
    iprop((K (F := F)).ctx EH (P (conts m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d) := by
  rw [main_eq d, G_four]
  unfold SparseCore.Cfg.tcRes
  iintro ⟨#Hctx, Hst, ⟨Hb, Hbufs, -, -⟩, Hg0, Hg1, Hg2, Hg3⟩
  ihave Hbufs := (Entails.of_eq (Pipeline.unscopedBufs_held (Ix := HIx 3) (Name := ℕ) (U := UU) (Lvl := ℕ) d (launchContents m d))) $$ Hbufs
  -- the first stretch
  iapply (wp_seq 𝒱 none Set.univ d (Pipeline.ucRefs τ sig) _ ops0 (sub_uc ops0_tc) (List.forall_iff_forall_mem.1 ops0_fresh) (launchContents m d)) $$ [Hb Hbufs]
  · isplitl [Hb]; · iexact Hb
    iexact Hbufs
  iintro ⟨Hb, Hbufs⟩
  have k0 : Keeps args (launchContents m d) (after ops0 (launchContents m d)) := keeps_after ops0_writes (by decide) _
  -- region 0
  iapply (hr0 κ d (after ops0 (launchContents m d)) _ _) $$ [Hst Hb Hbufs Hg0 Hg1 Hg2 Hg3]
  isplitr; · iexact Hctx
  isplitl [Hst]; · iexact Hst
  isplitl [Hb]; · iexact Hb
  isplitl [Hbufs]; · iexact Hbufs
  isplitl [Hg0]; · iexact Hg0
  iintro ⟨Hst, Hb, %W1, %h1, Hbufs⟩
  have k1 : Keeps kept (after ops0 (launchContents m d)) W1 := keeps_of_off h1 (by decide)
  -- call 0
  iapply (call_bind m κ d 0 W1 ((k1 main_v6 (by decide)).trans (conts_src m d).symm) ((k1 main_v8 (by decide)).trans (conts_dst m d).symm) _) $$ [Hst Hb Hbufs Hg1 Hg2 Hg3]
  isplitr; · iexact Hctx
  isplitl [Hst]; · iexact Hst
  isplitl [Hbufs]; · iexact Hbufs
  iintro ⟨Hst, %g0, Hbufs⟩
  have k2 : Keeps kept W1 (Function.update W1 (Proc.devRef .tc (outRef 0)) g0) := keeps_update W1 g0 (by decide)
  -- the second stretch
  iapply (wp_seq 𝒱 none Set.univ d (Pipeline.ucRefs τ sig) _ ops1 (sub_uc ops1_tc) (List.forall_iff_forall_mem.1 ops1_fresh) _) $$ [Hb Hbufs]
  · isplitl [Hb]; · iexact Hb
    iexact Hbufs
  iintro ⟨Hb, Hbufs⟩
  have k3 := (k1.trans k2).trans (keeps_after (L := kept) ops1_writes (by decide) (Function.update W1 (Proc.devRef .tc (outRef 0)) g0))
  -- region 1
  iapply (hr1 κ d _ _ _) $$ [Hst Hb Hbufs Hg1 Hg2 Hg3]
  isplitr; · iexact Hctx
  isplitl [Hst]; · iexact Hst
  isplitl [Hb]; · iexact Hb
  isplitl [Hbufs]; · iexact Hbufs
  isplitl [Hg1]; · iexact Hg1
  iintro ⟨Hst, Hb, %W2, %h2, Hbufs⟩
  have k4 := k3.trans (keeps_of_off (L := kept) h2 (by decide))
  -- call 1
  iapply (call_bind m κ d 1 W2 ((k4 main_v6 (by decide)).trans (conts_src m d).symm) ((k4 main_v8 (by decide)).trans (conts_dst m d).symm) _) $$ [Hst Hb Hbufs Hg2 Hg3]
  isplitr; · iexact Hctx
  isplitl [Hst]; · iexact Hst
  isplitl [Hbufs]; · iexact Hbufs
  iintro ⟨Hst, %g1, Hbufs⟩
  have k5 := k4.trans (keeps_update (L := kept) W2 g1 (by decide))
  -- the third stretch
  iapply (wp_seq 𝒱 none Set.univ d (Pipeline.ucRefs τ sig) _ ops2 (sub_uc ops2_tc) (List.forall_iff_forall_mem.1 ops2_fresh) _) $$ [Hb Hbufs]
  · isplitl [Hb]; · iexact Hb
    iexact Hbufs
  iintro ⟨Hb, Hbufs⟩
  have k6 := k5.trans (keeps_after (L := kept) ops2_writes (by decide) (Function.update W2 (Proc.devRef .tc (outRef 1)) g1))
  -- region 2
  iapply (hr2 κ d _ _ _) $$ [Hst Hb Hbufs Hg2 Hg3]
  isplitr; · iexact Hctx
  isplitl [Hst]; · iexact Hst
  isplitl [Hb]; · iexact Hb
  isplitl [Hbufs]; · iexact Hbufs
  isplitl [Hg2]; · iexact Hg2
  iintro ⟨Hst, Hb, %W3, %h3, Hbufs⟩
  have k7 := k6.trans (keeps_of_off (L := kept) h3 (by decide))
  -- call 2
  iapply (call_bind m κ d 2 W3 ((k7 main_v6 (by decide)).trans (conts_src m d).symm) ((k7 main_v8 (by decide)).trans (conts_dst m d).symm) _) $$ [Hst Hb Hbufs Hg3]
  isplitr; · iexact Hctx
  isplitl [Hst]; · iexact Hst
  isplitl [Hbufs]; · iexact Hbufs
  iintro ⟨Hst, %g2, Hbufs⟩
  have k8 := k7.trans (keeps_update (L := kept) W3 g2 (by decide))
  -- the last stretch
  iapply (wp_seq 𝒱 none Set.univ d (Pipeline.ucRefs τ sig) _ ops3 (sub_uc ops3_tc) (List.forall_iff_forall_mem.1 ops3_fresh) _) $$ [Hb Hbufs]
  · isplitl [Hb]; · iexact Hb
    iexact Hbufs
  iintro ⟨Hb, Hbufs⟩
  have k9 := k8.trans (keeps_after (L := kept) ops3_writes (by decide) (Function.update W3 (Proc.devRef .tc (outRef 2)) g2))
  -- the last region
  iapply (hr3 κ d _ _ _) $$ [Hst Hb Hbufs Hg3]
  isplitr; · iexact Hctx
  isplitl [Hst]; · iexact Hst
  isplitl [Hb]; · iexact Hb
  isplitl [Hbufs]; · iexact Hbufs
  isplitl [Hg3]; · iexact Hg3
  iintro ⟨Hst, -, %W4, %h4, Hbufs⟩
  have k10 := k9.trans (keeps_of_off (L := kept) h4 (by decide))
  rw [wp_pure]; imodintro
  isplitl [Hst]; · iexact Hst
  unfold FIN
  iexists W4
  isplitr
  · ipureintro
    exact k0.trans (k10.mono (fun r hr => List.mem_append_left _ hr))
  iexact Hbufs

/-- The arguments in a final memory are the launch's. -/
def fq (m : (ℓ : Loc nD τ sig) → Buf (Elt F) ℓ) (d : Dev nD) (s' : Phys nD τ sig (Elt F)) : Prop :=
  ∀ r ∈ args, s'.mem.mem ((SparseCore.T d).loc r) = m ((SparseCore.T d).loc r)

omit [FloatOps F] [Named F] [∀ e, Nonempty (Elt F e)] in
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN heldU held
  iintro ⟨⟨%W, %hW, H⟩, HSI⟩
  ihave %h := (SI_pointsTo_bufs_agree (qs := fun _ => fullShare) (Pipeline.ucRefs τ sig)) $$ [HSI H]
  · isplitl [HSI]; · iexact HSI
    iexact H
  ipureintro
  intro r hr
  exact (h _ (mem_uc r (by revert r; decide))).trans (hW r hr)

end Cert.Proof.IdealLaunch

end
-- ==== Proof.LaunchTileCommon.lean ====
/-
  What the three SparseCore calls' task obligations share: that the index arrays' entries name rows of the table, and
  two re-packings — closing the contents a task found back into "some contents", and weakening the recorded waits.
-/
import proofs.«215677_g32066225832048_cont_9to1_32_28_alg».proof.Proof.LaunchElem

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : Conts F)

/-- Every entry of the two padded index arrays names a row of the 50008-row table. -/
def IdxOK : Prop := ∀ d : Dev nD, (∀ j, (C.src d j).toNat < 50008) ∧ ∀ j, (C.dst d j).toNat < 50008

omit [FloatOps F] [Named F] in
theorem obl_post {thr : Thread nD τ} {A B C' : sProp 𝕄} {O : CellTallies nD τ sig (HIx 3)} {W : Waits sig (HIx 3)} {q : Fin 3} :
    iprop(A ∗ B ∗ C' ∗ ∃ W', ⌜∀ p ∈ W', p ∈ W ∨ p.2 = none⌝ ∗ owes thr O W')
      ⊢ iprop(A ∗ B ∗ C' ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [Named F] in
/-- Closing the contents a task found or left back into "some contents". -/
theorem repack {ℓt ℓo : Loc nD τ sig} {I : Finset (Idx ℓo)} {sh : PosShare TreeShare} {ft : Buf (Elt F) ℓt} {Sx Dx B C' X : sProp 𝕄} :
    iprop(((ℓt ↦{sh} ft) ∗ Sx ∗ Dx ∗ ∃ f, ℓo ↦[I]{fullShare} f) ∗ B ∗ C' ∗ X)
      ⊢ (iprop(((∃ f, ℓt ↦{sh} f) ∗ Sx ∗ Dx ∗ ∃ f, ℓo ↦[I]{fullShare} f) ∗ B ∗ C' ∗ X) : sProp 𝕄) := by
  iintro ⟨⟨Ht, Hs, Hd, Ho⟩, Hb, Hc, Hx⟩
  isplitl [Ht Hs Hd Ho]
  · isplitl [Ht]; · iexists ft; iexact Ht
    isplitl [Hs]; · iexact Hs
    isplitl [Hd]; · iexact Hd
    iexact Ho
  isplitl [Hb]; · iexact Hb
  isplitl [Hc]; · iexact Hc
  iexact Hx

end Cert.Proof.IdealLaunch

end
-- ==== Proof.EdgeTile.lean ====
/-
  One vector subcore's task of the edge kernel (the first SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.EdgeTile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid1.Coords) : Fin τ.nSC := (L 0).castLE hcore1
abbrev jV (L : grid1.Coords) : Fin τ.nSub := (L 1).castLE hsub1

local notation "tabW" => (Memref.whole Cert.KernelIdeal.main_v24_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v25_scv : Memref Cert.KernelIdeal.sig Kind.scVector Space.hbm Cert.KernelIdeal.S819200x64 EltTy.f32)
local notation "s0W" => (Memref.whole Cert.KernelIdeal.cc1_scratch0 : Memref Cert.KernelIdeal.sig Kind.scVector Space.vmem Cert.KernelIdeal.S64 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S64x128 EltTy.f32)
local notation "s3W" => (Memref.whole Cert.KernelIdeal.cc1_scratch3 : Memref Cert.KernelIdeal.sig Kind.scVector Space.vmem Cert.KernelIdeal.S64x128 EltTy.f32)
local notation "s4W" => (Memref.whole Cert.KernelIdeal.cc1_scratch4 : Memref Cert.KernelIdeal.sig Kind.scVector Space.vmem Cert.KernelIdeal.S64x64 EltTy.f32)

abbrev thr (d : Dev nD) (L : grid1.Coords) : Thread nD τ := V d (cV L) (jV L)

/-- Chunk `k` of tile `L`'s rows of the output, as the kernel slices it. -/
abbrev outChunk (L : grid1.Coords) (k : Fin k1_t1_loop.trips) : Memref sig .scVector .hbm S64x64 .f32 :=
  (outW).slice (Rect.unit (s := S819200x64) (k1_off14 L k) S64x64.size (k1_off14_inb L k)) (fun _ => rfl)

/-! ## The tile's rows of the output -/

theorem hdiv32 : 32 ∣ S819200x64.size 0 := ⟨25600, rfl⟩

/-- The tile's number among the 32: sixteen per SparseCore. -/
def wid (L : grid1.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid1.Coords) : Finset S819200x64.Idx := (Rect.part (s := S819200x64) (a₀ := 0) hdiv32 (wid L)).set

theorem chunk_set (L : grid1.Coords) (k : Fin k1_t1_loop.trips) :
    (outChunk L k).view.set = (Rect.unit (s := S819200x64) (k1_off14 L k) S64x64.size (k1_off14_inb L k)).set := by
  show ((View.whole (main_v25_scv : Ref sig .scVector)).slice _).set = _
  rw [View.set_slice]; exact Finset.map_refl

/-- Chunk `k` of the tile lies within the tile's rows: `64 k + 64 ≤ 25600`. -/
theorem chunk_sub (L : grid1.Coords) (k : Fin k1_t1_loop.trips) : (outChunk L k).view.set ⊆ outRows L := by
  intro x hx
  rw [chunk_set, Rect.mem_set_unit] at hx
  refine Rect.mem_set_unit.mpr fun a => ?_
  have h := hx a
  rw [k1_off14_eq] at h
  have hk : k.val < 400 := Nat.lt_of_lt_of_le k.isLt k1_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid1.Coords) (k : Fin k1_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k1_off1 L k) S64.size (k1_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid1.Coords) (k : Fin k1_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k1_off1 L k) S64.size (k1_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid1.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc1_scratch5.sem) 0 ∗ semVal (thr d L, SemLoc.dma cc1_scratch6.sem) 0
    ∗ semVal (thr d L, SemLoc.dma cc1_scoped0.sem) 0 ∗ semVal (thr d L, SemLoc.dma cc1_scoped1.sem) 0 ∗ semVal (thr d L, SemLoc.dma cc1_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid1.Coords) (k : Fin k1_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid1.Coords) (k : Fin k1_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => inv1 (F := F) (UU := UU) d L sh TAB SRC DST O W 0 ⟨⟩ := by
  simp only [cc1__edge_kernel_eq_skeleton]; unfold cc1__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc1_scratch5.sem
abbrev m6 : SemLoc sig := .dma cc1_scratch6.sem
abbrev n0 : SemLoc sig := .dma cc1_scoped0.sem
abbrev n1 : SemLoc sig := .dma cc1_scoped1.sem
abbrev n2 : SemLoc sig := .dma cc1_scoped2.sem
abbrev g5 (d : Dev nD) (L : grid1.Coords) : GSem nD τ sig := (thr d L, m5)
abbrev g6 (d : Dev nD) (L : grid1.Coords) : GSem nD τ sig := (thr d L, m6)
abbrev c0 (d : Dev nD) (L : grid1.Coords) : GSem nD τ sig := (thr d L, n0)
abbrev c1 (d : Dev nD) (L : grid1.Coords) : GSem nD τ sig := (thr d L, n1)
abbrev c2 (d : Dev nD) (L : grid1.Coords) : GSem nD τ sig := (thr d L, n2)

theorem sem_ne (d : Dev nD) (L : grid1.Coords) {a b : SemLoc sig} (h : a ≠ b) : ((thr d L, a) : GSem nD τ sig) ≠ (thr d L, b) :=
  fun e => h (congrArg Prod.snd e)

theorem mem_own (d : Dev nD) (L : grid1.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid1.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid1.Coords) : Proc τ := Proc.scVector (cV L) (jV L)

theorem ref_ne (L : grid1.Coords) {a b : Ref sig .scVector} (h : a ≠ b) : (pV L).devRef a ≠ (pV L).devRef b :=
  fun e => h (Proc.devRef_injective _ e)

theorem mem_refs (L : grid1.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ (∃ f, (thr d L).loc cc1_scratch3 ↦{fullShare} f) ∗ (∃ f, (thr d L).loc cc1_scratch4 ↦{fullShare} f)
          ∗ bigSep ((((((ownRefs (τ := τ) (pV L)).erase ((pV L).devRef cc1_scratch0)).erase ((pV L).devRef cc1_scratch1)).erase ((pV L).devRef cc1_scratch2)).erase
              ((pV L).devRef cc1_scratch3)).erase ((pV L).devRef cc1_scratch4))
              fun b => iprop(∃ f, ((d, b) : Loc nD τ sig) ↦{fullShare} f)) := by
  unfold SparseCore.Cfg.ownBufs
  refine (SparseCore.bigSep_erase' (mem_refs L cc1_scratch0 rfl)).trans ?_
  rw [SparseCore.bigSep_erase' (mem_erase_of (ref_ne L (a := cc1_scratch1) (b := cc1_scratch0) (by decide)) (mem_refs L cc1_scratch1 rfl)),
    SparseCore.bigSep_erase' (mem_erase_of (ref_ne L (a := cc1_scratch2) (b := cc1_scratch1) (by decide)) (mem_erase_of (ref_ne L (a := cc1_scratch2) (b := cc1_scratch0) (by decide)) (mem_refs L cc1_scratch2 rfl))),
    SparseCore.bigSep_erase' (mem_erase_of (ref_ne L (a := cc1_scratch3) (b := cc1_scratch2) (by decide)) (mem_erase_of (ref_ne L (a := cc1_scratch3) (b := cc1_scratch1) (by decide)) (mem_erase_of (ref_ne L (a := cc1_scratch3) (b := cc1_scratch0) (by decide)) (mem_refs L cc1_scratch3 rfl)))),
    SparseCore.bigSep_erase' (mem_erase_of (ref_ne L (a := cc1_scratch4) (b := cc1_scratch3) (by decide)) (mem_erase_of (ref_ne L (a := cc1_scratch4) (b := cc1_scratch2) (by decide)) (mem_erase_of (ref_ne L (a := cc1_scratch4) (b := cc1_scratch1) (by decide)) (mem_erase_of (ref_ne L (a := cc1_scratch4) (b := cc1_scratch0) (by decide)) (mem_refs L cc1_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid1.Coords) (sh : PosShare TreeShare)
    (TAB : Buf (Elt F) ((SparseCore.T d).loc main_v24_1)) (SRC : Buf (Elt F) ((SparseCore.T d).loc main_v6)) (DST : Buf (Elt F) ((SparseCore.T d).loc main_v8))
    (OUT0 : Buf (Elt F) ((SparseCore.T d).loc main_v25))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v24_1 ↦{sh} TAB) ∗ ((SparseCore.T d).loc main_v6 ↦{sh} SRC) ∗ ((SparseCore.T d).loc main_v8 ↦{sh} DST) ∗ ((SparseCore.T d).loc main_v25 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => iprop((((SparseCore.T d).loc main_v24_1 ↦{sh} TAB) ∗ ((SparseCore.T d).loc main_v6 ↦{sh} SRC) ∗ ((SparseCore.T d).loc main_v8 ↦{sh} DST) ∗ ∃ f, (SparseCore.T d).loc main_v25 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile
-- ==== Proof.LaunchTile1.lean ====
/-
  The first SparseCore call's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommon
import proofs.«215677_g32066225832048_cont_9to1_32_28_alg».proof.Proof.EdgeTile

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : Conts F)

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__edge_kernel (coordsV1 c s)
          (Memref.whole main_v24_1_scv) (Memref.isWhole_whole _) (Memref.whole main_v6_scv) (Memref.isWhole_whole _)
          (Memref.whole main_v8_scv) (Memref.isWhole_whole _) (Memref.whole main_v25_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) cc1_scratch5 cc1_scratch6 cc1_scoped0 cc1_scoped1 cc1_scoped2) ⟨⟩ c s := rfl

set_option maxHeartbeats 4000000 in
theorem tileObl0 (hOK : IdxOK C) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  have hbody : ∀ (ft : Buf (Elt F) (locOf d main_v24_1)) (fo : Buf (Elt F) (locOf d main_v25)),
      iprop(levAts (K (F := F)).L (K (F := F)).lev
          ∗ ((locOf d main_v24_1 ↦{tsh (tix 0 c i)} ft) ∗ (srcLoc d ↦{tsh (tix 0 c i)} C.src d) ∗ (dstLoc d ↦{tsh (tix 0 c i)} C.dst d)
              ∗ (locOf d main_v25 ↦[tileRows 0 d (tix 0 c i)]{fullShare} fo))
          ∗ scopedBufs (V d ((K (F := F)).core 0 c) ((K (F := F)).sub 0 i)) ∗ scopedSems0 (V d ((K (F := F)).core 0 c) ((K (F := F)).sub 0 i))
          ∗ owes (V d ((K (F := F)).core 0 c) ((K (F := F)).sub 0 i)) O W)
        ⊢ wp frame (wpE (defs₀ (F := F)) 𝒱₀ (V d ((K (F := F)).core 0 c) ((K (F := F)).sub 0 i)) none) Set.univ _
            (fun _ => (iprop(goResAt C main_v24_1 main_v25 d (tileRows 0 d) (tix 0 c i)
              ∗ scopedBufs (V d ((K (F := F)).core 0 c) ((K (F := F)).sub 0 i)) ∗ scopedSems0 (V d ((K (F := F)).core 0 c) ((K (F := F)).sub 0 i))
              ∗ ∃ W', ⌜∀ p ∈ W', p ∈ W ∨ p.2 = none ∨ p.2 = some (0 : Fin 3)⌝ ∗ owes (V d ((K (F := F)).core 0 c) ((K (F := F)).sub 0 i)) O W') : sProp 𝕄)) :=
    fun ft fo => (EdgeTile.tile_body (F := F) facts d (coordsV1 ⟨_, hc.1⟩ ⟨_, hc.2⟩) (tsh (tix 0 c i)) ft (C.src d) (C.dst d) fo
        (hOK d).1 (hOK d).2 O W hO).trans (wp_mono frame _ _ fun _ => (repack (F := F)).trans (obl_post (q := (0 : Fin 3))))
  show iprop(levAts (K (F := F)).L (K (F := F)).lev ∗ iprop(emp)
      ∗ iprop((∃ f, locOf d main_v24_1 ↦{tsh (tix 0 c i)} f) ∗ (srcLoc d ↦{tsh (tix 0 c i)} C.src d) ∗ (dstLoc d ↦{tsh (tix 0 c i)} C.dst d)
          ∗ ∃ f, locOf d main_v25 ↦[tileRows 0 d (tix 0 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealLaunch

end
-- ==== Proof.EdgeTile3.lean ====
/-
  One vector subcore's task of the edge kernel (the second SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.EdgeTile3

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid3.Coords) : Fin τ.nSC := (L 0).castLE hcore3
abbrev jV (L : grid3.Coords) : Fin τ.nSub := (L 1).castLE hsub3

local notation "tabW" => (Memref.whole Cert.KernelIdeal.main_v50_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v51_scv : Memref Cert.KernelIdeal.sig Kind.scVector Space.hbm Cert.KernelIdeal.S819200x64 EltTy.f32)
local notation "s0W" => (Memref.whole Cert.KernelIdeal.cc3_scratch0 : Memref Cert.KernelIdeal.sig Kind.scVector Space.vmem Cert.KernelIdeal.S64 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S64x128 EltTy.f32)
local notation "s3W" => (Memref.whole Cert.KernelIdeal.cc3_scratch3 : Memref Cert.KernelIdeal.sig Kind.scVector Space.vmem Cert.KernelIdeal.S64x128 EltTy.f32)
local notation "s4W" => (Memref.whole Cert.KernelIdeal.cc3_scratch4 : Memref Cert.KernelIdeal.sig Kind.scVector Space.vmem Cert.KernelIdeal.S64x64 EltTy.f32)

abbrev thr (d : Dev nD) (L : grid3.Coords) : Thread nD τ := V d (cV L) (jV L)

/-- Chunk `k` of tile `L`'s rows of the output, as the kernel slices it. -/
abbrev outChunk (L : grid3.Coords) (k : Fin k3_t1_loop.trips) : Memref sig .scVector .hbm S64x64 .f32 :=
  (outW).slice (Rect.unit (s := S819200x64) (k3_off14 L k) S64x64.size (k3_off14_inb L k)) (fun _ => rfl)

/-! ## The tile's rows of the output -/

theorem hdiv32 : 32 ∣ S819200x64.size 0 := ⟨25600, rfl⟩

/-- The tile's number among the 32: sixteen per SparseCore. -/
def wid (L : grid3.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid3.Coords) : Finset S819200x64.Idx := (Rect.part (s := S819200x64) (a₀ := 0) hdiv32 (wid L)).set

theorem chunk_set (L : grid3.Coords) (k : Fin k3_t1_loop.trips) :
    (outChunk L k).view.set = (Rect.unit (s := S819200x64) (k3_off14 L k) S64x64.size (k3_off14_inb L k)).set := by
  show ((View.whole (main_v51_scv : Ref sig .scVector)).slice _).set = _
  rw [View.set_slice]; exact Finset.map_refl

/-- Chunk `k` of the tile lies within the tile's rows: `64 k + 64 ≤ 25600`. -/
theorem chunk_sub (L : grid3.Coords) (k : Fin k3_t1_loop.trips) : (outChunk L k).view.set ⊆ outRows L := by
  intro x hx
  rw [chunk_set, Rect.mem_set_unit] at hx
  refine Rect.mem_set_unit.mpr fun a => ?_
  have h := hx a
  rw [k3_off14_eq] at h
  have hk : k.val < 400 := Nat.lt_of_lt_of_le k.isLt k3_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid3.Coords) (k : Fin k3_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k3_off1 L k) S64.size (k3_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid3.Coords) (k : Fin k3_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k3_off1 L k) S64.size (k3_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid3.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc3_scratch5.sem) 0 ∗ semVal (thr d L, SemLoc.dma cc3_scratch6.sem) 0
    ∗ semVal (thr d L, SemLoc.dma cc3_scoped0.sem) 0 ∗ semVal (thr d L, SemLoc.dma cc3_scoped1.sem) 0 ∗ semVal (thr d L, SemLoc.dma cc3_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid3.Coords) (k : Fin k3_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid3.Coords) (k : Fin k3_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => inv1 (F := F) (UU := UU) d L sh TAB SRC DST O W 0 ⟨⟩ := by
  simp only [cc3__edge_kernel_eq_skeleton]; unfold cc3__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc3_scratch5.sem
abbrev m6 : SemLoc sig := .dma cc3_scratch6.sem
abbrev n0 : SemLoc sig := .dma cc3_scoped0.sem
abbrev n1 : SemLoc sig := .dma cc3_scoped1.sem
abbrev n2 : SemLoc sig := .dma cc3_scoped2.sem
abbrev g5 (d : Dev nD) (L : grid3.Coords) : GSem nD τ sig := (thr d L, m5)
abbrev g6 (d : Dev nD) (L : grid3.Coords) : GSem nD τ sig := (thr d L, m6)
abbrev c0 (d : Dev nD) (L : grid3.Coords) : GSem nD τ sig := (thr d L, n0)
abbrev c1 (d : Dev nD) (L : grid3.Coords) : GSem nD τ sig := (thr d L, n1)
abbrev c2 (d : Dev nD) (L : grid3.Coords) : GSem nD τ sig := (thr d L, n2)

theorem sem_ne (d : Dev nD) (L : grid3.Coords) {a b : SemLoc sig} (h : a ≠ b) : ((thr d L, a) : GSem nD τ sig) ≠ (thr d L, b) :=
  fun e => h (congrArg Prod.snd e)

theorem mem_own (d : Dev nD) (L : grid3.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid3.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid3.Coords) : Proc τ := Proc.scVector (cV L) (jV L)

theorem ref_ne (L : grid3.Coords) {a b : Ref sig .scVector} (h : a ≠ b) : (pV L).devRef a ≠ (pV L).devRef b :=
  fun e => h (Proc.devRef_injective _ e)

theorem mem_refs (L : grid3.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid3.Coords) :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ (∃ f, (thr d L).loc cc3_scratch3 ↦{fullShare} f) ∗ (∃ f, (thr d L).loc cc3_scratch4 ↦{fullShare} f)
          ∗ bigSep ((((((ownRefs (τ := τ) (pV L)).erase ((pV L).devRef cc3_scratch0)).erase ((pV L).devRef cc3_scratch1)).erase ((pV L).devRef cc3_scratch2)).erase
              ((pV L).devRef cc3_scratch3)).erase ((pV L).devRef cc3_scratch4))
              fun b => iprop(∃ f, ((d, b) : Loc nD τ sig) ↦{fullShare} f)) := by
  unfold SparseCore.Cfg.ownBufs
  refine (SparseCore.bigSep_erase' (mem_refs L cc3_scratch0 rfl)).trans ?_
  rw [SparseCore.bigSep_erase' (mem_erase_of (ref_ne L (a := cc3_scratch1) (b := cc3_scratch0) (by decide)) (mem_refs L cc3_scratch1 rfl)),
    SparseCore.bigSep_erase' (mem_erase_of (ref_ne L (a := cc3_scratch2) (b := cc3_scratch1) (by decide)) (mem_erase_of (ref_ne L (a := cc3_scratch2) (b := cc3_scratch0) (by decide)) (mem_refs L cc3_scratch2 rfl))),
    SparseCore.bigSep_erase' (mem_erase_of (ref_ne L (a := cc3_scratch3) (b := cc3_scratch2) (by decide)) (mem_erase_of (ref_ne L (a := cc3_scratch3) (b := cc3_scratch1) (by decide)) (mem_erase_of (ref_ne L (a := cc3_scratch3) (b := cc3_scratch0) (by decide)) (mem_refs L cc3_scratch3 rfl)))),
    SparseCore.bigSep_erase' (mem_erase_of (ref_ne L (a := cc3_scratch4) (b := cc3_scratch3) (by decide)) (mem_erase_of (ref_ne L (a := cc3_scratch4) (b := cc3_scratch2) (by decide)) (mem_erase_of (ref_ne L (a := cc3_scratch4) (b := cc3_scratch1) (by decide)) (mem_erase_of (ref_ne L (a := cc3_scratch4) (b := cc3_scratch0) (by decide)) (mem_refs L cc3_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid3.Coords) (sh : PosShare TreeShare)
    (TAB : Buf (Elt F) ((SparseCore.T d).loc main_v50_1)) (SRC : Buf (Elt F) ((SparseCore.T d).loc main_v6)) (DST : Buf (Elt F) ((SparseCore.T d).loc main_v8))
    (OUT0 : Buf (Elt F) ((SparseCore.T d).loc main_v51))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v50_1 ↦{sh} TAB) ∗ ((SparseCore.T d).loc main_v6 ↦{sh} SRC) ∗ ((SparseCore.T d).loc main_v8 ↦{sh} DST) ∗ ((SparseCore.T d).loc main_v51 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => iprop((((SparseCore.T d).loc main_v50_1 ↦{sh} TAB) ∗ ((SparseCore.T d).loc main_v6 ↦{sh} SRC) ∗ ((SparseCore.T d).loc main_v8 ↦{sh} DST) ∗ ∃ f, (SparseCore.T d).loc main_v51 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile3
-- ==== Proof.LaunchTile3.lean ====
/-
  SparseCore call 1's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommon
import proofs.«215677_g32066225832048_cont_9to1_32_28_alg».proof.Proof.EdgeTile3

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : Conts F)

def coordsV3 (c : Fin (grid3.bound 0)) (s : Fin (grid3.bound 1)) : grid3.Coords :=
  fun | 0 => c | 1 => s | ⟨_ + 2, h⟩ => absurd h (Nat.not_lt.2 (Nat.le_add_left _ _))

theorem defs₀_vector3 (c : Fin τ.nSC) (s : Fin τ.nSub) :
    defs₀ (F := F) (.scVector c s) 3 ()
      = SparseCore.onTile hcore3 hsub3 (fun c s => cc3__edge_kernel (coordsV3 c s)
          (Memref.whole main_v50_1_scv) (Memref.isWhole_whole _) (Memref.whole main_v6_scv) (Memref.isWhole_whole _)
          (Memref.whole main_v8_scv) (Memref.isWhole_whole _) (Memref.whole main_v51_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) cc3_scratch5 cc3_scratch6 cc3_scoped0 cc3_scoped1 cc3_scoped2) ⟨⟩ c s := rfl

set_option maxHeartbeats 4000000 in
theorem tileObl1 (hOK : IdxOK C) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  have hbody : ∀ (ft : Buf (Elt F) (locOf d main_v50_1)) (fo : Buf (Elt F) (locOf d main_v51)),
      iprop(levAts (K (F := F)).L (K (F := F)).lev
          ∗ ((locOf d main_v50_1 ↦{tsh (tix 1 c i)} ft) ∗ (srcLoc d ↦{tsh (tix 1 c i)} C.src d) ∗ (dstLoc d ↦{tsh (tix 1 c i)} C.dst d)
              ∗ (locOf d main_v51 ↦[tileRows 1 d (tix 1 c i)]{fullShare} fo))
          ∗ scopedBufs (V d ((K (F := F)).core 1 c) ((K (F := F)).sub 1 i)) ∗ scopedSems0 (V d ((K (F := F)).core 1 c) ((K (F := F)).sub 1 i))
          ∗ owes (V d ((K (F := F)).core 1 c) ((K (F := F)).sub 1 i)) O W)
        ⊢ wp frame (wpE (defs₀ (F := F)) 𝒱₀ (V d ((K (F := F)).core 1 c) ((K (F := F)).sub 1 i)) none) Set.univ _
            (fun _ => (iprop(goResAt C main_v50_1 main_v51 d (tileRows 1 d) (tix 1 c i)
              ∗ scopedBufs (V d ((K (F := F)).core 1 c) ((K (F := F)).sub 1 i)) ∗ scopedSems0 (V d ((K (F := F)).core 1 c) ((K (F := F)).sub 1 i))
              ∗ ∃ W', ⌜∀ p ∈ W', p ∈ W ∨ p.2 = none ∨ p.2 = some (1 : Fin 3)⌝ ∗ owes (V d ((K (F := F)).core 1 c) ((K (F := F)).sub 1 i)) O W') : sProp 𝕄)) :=
    fun ft fo => (EdgeTile3.tile_body (F := F) facts d (coordsV3 ⟨_, hc.1⟩ ⟨_, hc.2⟩) (tsh (tix 1 c i)) ft (C.src d) (C.dst d) fo
        (hOK d).1 (hOK d).2 O W hO).trans (wp_mono frame _ _ fun _ => (repack (F := F)).trans (obl_post (q := (1 : Fin 3))))
  show iprop(levAts (K (F := F)).L (K (F := F)).lev ∗ iprop(emp)
      ∗ iprop((∃ f, locOf d main_v50_1 ↦{tsh (tix 1 c i)} f) ∗ (srcLoc d ↦{tsh (tix 1 c i)} C.src d) ∗ (dstLoc d ↦{tsh (tix 1 c i)} C.dst d)
          ∗ ∃ f, locOf d main_v51 ↦[tileRows 1 d (tix 1 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealLaunch

end
-- ==== Proof.EdgeTile5.lean ====
/-
  One vector subcore's task of the edge kernel (the third SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.EdgeTile5

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid5.Coords) : Fin τ.nSC := (L 0).castLE hcore5
abbrev jV (L : grid5.Coords) : Fin τ.nSub := (L 1).castLE hsub5

local notation "tabW" => (Memref.whole Cert.KernelIdeal.main_v76_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v77_scv : Memref Cert.KernelIdeal.sig Kind.scVector Space.hbm Cert.KernelIdeal.S819200x64 EltTy.f32)
local notation "s0W" => (Memref.whole Cert.KernelIdeal.cc5_scratch0 : Memref Cert.KernelIdeal.sig Kind.scVector Space.vmem Cert.KernelIdeal.S64 EltTy.i32)
local notation "s1W" => (Memref.whole Cert.KernelIdeal.cc5_scratch1 : Memref Cert.KernelIdeal.sig Kind.scVector Space.vmem Cert.KernelIdeal.S64 EltTy.i32)
local notation "s2W" => (Memref.whole Cert.KernelIdeal.cc5_scratch2 : Memref Cert.KernelIdeal.sig Kind.scVector Space.vmem Cert.KernelIdeal.S64x128 EltTy.f32)
local notation "s3W" => (Memref.whole Cert.KernelIdeal.cc5_scratch3 : Memref Cert.KernelIdeal.sig Kind.scVector Space.vmem Cert.KernelIdeal.S64x128 EltTy.f32)
local notation "s4W" => (Memref.whole Cert.KernelIdeal.cc5_scratch4 : Memref Cert.KernelIdeal.sig Kind.scVector Space.vmem Cert.KernelIdeal.S64x64 EltTy.f32)

abbrev thr (d : Dev nD) (L : grid5.Coords) : Thread nD τ := V d (cV L) (jV L)

/-- Chunk `k` of tile `L`'s rows of the output, as the kernel slices it. -/
abbrev outChunk (L : grid5.Coords) (k : Fin k5_t1_loop.trips) : Memref sig .scVector .hbm S64x64 .f32 :=
  (outW).slice (Rect.unit (s := S819200x64) (k5_off14 L k) S64x64.size (k5_off14_inb L k)) (fun _ => rfl)

/-! ## The tile's rows of the output -/

theorem hdiv32 : 32 ∣ S819200x64.size 0 := ⟨25600, rfl⟩

/-- The tile's number among the 32: sixteen per SparseCore. -/
def wid (L : grid5.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid5.Coords) : Finset S819200x64.Idx := (Rect.part (s := S819200x64) (a₀ := 0) hdiv32 (wid L)).set

theorem chunk_set (L : grid5.Coords) (k : Fin k5_t1_loop.trips) :
    (outChunk L k).view.set = (Rect.unit (s := S819200x64) (k5_off14 L k) S64x64.size (k5_off14_inb L k)).set := by
  show ((View.whole (main_v77_scv : Ref sig .scVector)).slice _).set = _
  rw [View.set_slice]; exact Finset.map_refl

/-- Chunk `k` of the tile lies within the tile's rows: `64 k + 64 ≤ 25600`. -/
theorem chunk_sub (L : grid5.Coords) (k : Fin k5_t1_loop.trips) : (outChunk L k).view.set ⊆ outRows L := by
  intro x hx
  rw [chunk_set, Rect.mem_set_unit] at hx
  refine Rect.mem_set_unit.mpr fun a => ?_
  have h := hx a
  rw [k5_off14_eq] at h
  have hk : k.val < 400 := Nat.lt_of_lt_of_le k.isLt k5_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid5.Coords) (k : Fin k5_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k5_off1 L k) S64.size (k5_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid5.Coords) (k : Fin k5_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k5_off1 L k) S64.size (k5_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid5.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc5_scratch5.sem) 0 ∗ semVal (thr d L, SemLoc.dma cc5_scratch6.sem) 0
    ∗ semVal (thr d L, SemLoc.dma cc5_scoped0.sem) 0 ∗ semVal (thr d L, SemLoc.dma cc5_scoped1.sem) 0 ∗ semVal (thr d L, SemLoc.dma cc5_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid5.Coords) (k : Fin k5_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid5.Coords) (k : Fin k5_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => inv1 (F := F) (UU := UU) d L sh TAB SRC DST O W 0 ⟨⟩ := by
  simp only [cc5__edge_kernel_eq_skeleton]; unfold cc5__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc5_scratch5.sem
abbrev m6 : SemLoc sig := .dma cc5_scratch6.sem
abbrev n0 : SemLoc sig := .dma cc5_scoped0.sem
abbrev n1 : SemLoc sig := .dma cc5_scoped1.sem
abbrev n2 : SemLoc sig := .dma cc5_scoped2.sem
abbrev g5 (d : Dev nD) (L : grid5.Coords) : GSem nD τ sig := (thr d L, m5)
abbrev g6 (d : Dev nD) (L : grid5.Coords) : GSem nD τ sig := (thr d L, m6)
abbrev c0 (d : Dev nD) (L : grid5.Coords) : GSem nD τ sig := (thr d L, n0)
abbrev c1 (d : Dev nD) (L : grid5.Coords) : GSem nD τ sig := (thr d L, n1)
abbrev c2 (d : Dev nD) (L : grid5.Coords) : GSem nD τ sig := (thr d L, n2)

theorem sem_ne (d : Dev nD) (L : grid5.Coords) {a b : SemLoc sig} (h : a ≠ b) : ((thr d L, a) : GSem nD τ sig) ≠ (thr d L, b) :=
  fun e => h (congrArg Prod.snd e)

theorem mem_own (d : Dev nD) (L : grid5.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid5.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid5.Coords) : Proc τ := Proc.scVector (cV L) (jV L)

theorem ref_ne (L : grid5.Coords) {a b : Ref sig .scVector} (h : a ≠ b) : (pV L).devRef a ≠ (pV L).devRef b :=
  fun e => h (Proc.devRef_injective _ e)

theorem mem_refs (L : grid5.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid5.Coords) :
    (ownBufs (thr d L) : sProp 𝕄)
      = iprop((∃ f, (thr d L).loc cc5_scratch0 ↦{fullShare} f) ∗ (∃ f, (thr d L).loc cc5_scratch1 ↦{fullShare} f) ∗ (∃ f, (thr d L).loc cc5_scratch2 ↦{fullShare} f)
          ∗ (∃ f, (thr d L).loc cc5_scratch3 ↦{fullShare} f) ∗ (∃ f, (thr d L).loc cc5_scratch4 ↦{fullShare} f)
          ∗ bigSep ((((((ownRefs (τ := τ) (pV L)).erase ((pV L).devRef cc5_scratch0)).erase ((pV L).devRef cc5_scratch1)).erase ((pV L).devRef cc5_scratch2)).erase
              ((pV L).devRef cc5_scratch3)).erase ((pV L).devRef cc5_scratch4))
              fun b => iprop(∃ f, ((d, b) : Loc nD τ sig) ↦{fullShare} f)) := by
  unfold SparseCore.Cfg.ownBufs
  refine (SparseCore.bigSep_erase' (mem_refs L cc5_scratch0 rfl)).trans ?_
  rw [SparseCore.bigSep_erase' (mem_erase_of (ref_ne L (a := cc5_scratch1) (b := cc5_scratch0) (by decide)) (mem_refs L cc5_scratch1 rfl)),
    SparseCore.bigSep_erase' (mem_erase_of (ref_ne L (a := cc5_scratch2) (b := cc5_scratch1) (by decide)) (mem_erase_of (ref_ne L (a := cc5_scratch2) (b := cc5_scratch0) (by decide)) (mem_refs L cc5_scratch2 rfl))),
    SparseCore.bigSep_erase' (mem_erase_of (ref_ne L (a := cc5_scratch3) (b := cc5_scratch2) (by decide)) (mem_erase_of (ref_ne L (a := cc5_scratch3) (b := cc5_scratch1) (by decide)) (mem_erase_of (ref_ne L (a := cc5_scratch3) (b := cc5_scratch0) (by decide)) (mem_refs L cc5_scratch3 rfl)))),
    SparseCore.bigSep_erase' (mem_erase_of (ref_ne L (a := cc5_scratch4) (b := cc5_scratch3) (by decide)) (mem_erase_of (ref_ne L (a := cc5_scratch4) (b := cc5_scratch2) (by decide)) (mem_erase_of (ref_ne L (a := cc5_scratch4) (b := cc5_scratch1) (by decide)) (mem_erase_of (ref_ne L (a := cc5_scratch4) (b := cc5_scratch0) (by decide)) (mem_refs L cc5_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid5.Coords) (sh : PosShare TreeShare)
    (TAB : Buf (Elt F) ((SparseCore.T d).loc main_v76_1)) (SRC : Buf (Elt F) ((SparseCore.T d).loc main_v6)) (DST : Buf (Elt F) ((SparseCore.T d).loc main_v8))
    (OUT0 : Buf (Elt F) ((SparseCore.T d).loc main_v77))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v76_1 ↦{sh} TAB) ∗ ((SparseCore.T d).loc main_v6 ↦{sh} SRC) ∗ ((SparseCore.T d).loc main_v8 ↦{sh} DST) ∗ ((SparseCore.T d).loc main_v77 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => iprop((((SparseCore.T d).loc main_v76_1 ↦{sh} TAB) ∗ ((SparseCore.T d).loc main_v6 ↦{sh} SRC) ∗ ((SparseCore.T d).loc main_v8 ↦{sh} DST) ∗ ∃ f, (SparseCore.T d).loc main_v77 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile5
-- ==== Proof.LaunchTile5.lean ====
/-
  SparseCore call 2's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommon
import proofs.«215677_g32066225832048_cont_9to1_32_28_alg».proof.Proof.EdgeTile5

noncomputable section

namespace Cert.Proof.IdealLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : Conts F)

def coordsV5 (c : Fin (grid5.bound 0)) (s : Fin (grid5.bound 1)) : grid5.Coords :=
  fun | 0 => c | 1 => s | ⟨_ + 2, h⟩ => absurd h (Nat.not_lt.2 (Nat.le_add_left _ _))

theorem defs₀_vector5 (c : Fin τ.nSC) (s : Fin τ.nSub) :
    defs₀ (F := F) (.scVector c s) 5 ()
      = SparseCore.onTile hcore5 hsub5 (fun c s => cc5__edge_kernel (coordsV5 c s)
          (Memref.whole main_v76_1_scv) (Memref.isWhole_whole _) (Memref.whole main_v6_scv) (Memref.isWhole_whole _)
          (Memref.whole main_v8_scv) (Memref.isWhole_whole _) (Memref.whole main_v77_scv) (Memref.isWhole_whole _)
          (Memref.whole cc5_scratch0) (Memref.isWhole_whole _) (Memref.whole cc5_scratch1) (Memref.isWhole_whole _)
          (Memref.whole cc5_scratch2) (Memref.isWhole_whole _) (Memref.whole cc5_scratch3) (Memref.isWhole_whole _)
          (Memref.whole cc5_scratch4) (Memref.isWhole_whole _) cc5_scratch5 cc5_scratch6 cc5_scoped0 cc5_scoped1 cc5_scoped2) ⟨⟩ c s := rfl

set_option maxHeartbeats 4000000 in
theorem tileObl2 (hOK : IdxOK C) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs₀_vector5]; simp only [SparseCore.onTile, hc, and_self, ↓reduceDIte]
  have hbody : ∀ (ft : Buf (Elt F) (locOf d main_v76_1)) (fo : Buf (Elt F) (locOf d main_v77)),
      iprop(levAts (K (F := F)).L (K (F := F)).lev
          ∗ ((locOf d main_v76_1 ↦{tsh (tix 2 c i)} ft) ∗ (srcLoc d ↦{tsh (tix 2 c i)} C.src d) ∗ (dstLoc d ↦{tsh (tix 2 c i)} C.dst d)
              ∗ (locOf d main_v77 ↦[tileRows 2 d (tix 2 c i)]{fullShare} fo))
          ∗ scopedBufs (V d ((K (F := F)).core 2 c) ((K (F := F)).sub 2 i)) ∗ scopedSems0 (V d ((K (F := F)).core 2 c) ((K (F := F)).sub 2 i))
          ∗ owes (V d ((K (F := F)).core 2 c) ((K (F := F)).sub 2 i)) O W)
        ⊢ wp frame (wpE (defs₀ (F := F)) 𝒱₀ (V d ((K (F := F)).core 2 c) ((K (F := F)).sub 2 i)) none) Set.univ _
            (fun _ => (iprop(goResAt C main_v76_1 main_v77 d (tileRows 2 d) (tix 2 c i)
              ∗ scopedBufs (V d ((K (F := F)).core 2 c) ((K (F := F)).sub 2 i)) ∗ scopedSems0 (V d ((K (F := F)).core 2 c) ((K (F := F)).sub 2 i))
              ∗ ∃ W', ⌜∀ p ∈ W', p ∈ W ∨ p.2 = none ∨ p.2 = some (2 : Fin 3)⌝ ∗ owes (V d ((K (F := F)).core 2 c) ((K (F := F)).sub 2 i)) O W') : sProp 𝕄)) :=
    fun ft fo => (EdgeTile5.tile_body (F := F) facts d (coordsV5 ⟨_, hc.1⟩ ⟨_, hc.2⟩) (tsh (tix 2 c i)) ft (C.src d) (C.dst d) fo
        (hOK d).1 (hOK d).2 O W hO).trans (wp_mono frame _ _ fun _ => (repack (F := F)).trans (obl_post (q := (2 : Fin 3))))
  show iprop(levAts (K (F := F)).L (K (F := F)).lev ∗ iprop(emp)
      ∗ iprop((∃ f, locOf d main_v76_1 ↦{tsh (tix 2 c i)} f) ∗ (srcLoc d ↦{tsh (tix 2 c i)} C.src d) ∗ (dstLoc d ↦{tsh (tix 2 c i)} C.dst d)
          ∗ ∃ f, locOf d main_v77 ↦[tileRows 2 d (tix 2 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealLaunch

end
-- ==== Proof.FrameIdeal.lean ====
/-
  The idealized kernel program's frame from its parts: the three SparseCore calls' task obligations, @main on the
  TensorCore composed of its stretches, regions and calls, and the arguments read off the final memory. What it takes
  as hypotheses is what the parts leave open: the four TensorCore regions' rules, and that under the precondition
  every entry of the two padded index arrays names a row of the 50008-row table.
-/
import proofs.«215677_g32066225832048_cont_9to1_32_28_alg».proof.Proof.LaunchMain
import proofs.«215677_g32066225832048_cont_9to1_32_28_alg».proof.Proof.LaunchTile1
import proofs.«215677_g32066225832048_cont_9to1_32_28_alg».proof.Proof.LaunchTile3
import proofs.«215677_g32066225832048_cont_9to1_32_28_alg».proof.Proof.LaunchTile5

noncomputable section

namespace Cert.Proof.IdealLaunch

open Cert.KernelIdeal Cert.KernelIdeal.Gen Cert.KernelIdeal.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [hFacts : Cert.KernelIdeal.Facts] [∀ e, Nonempty (Elt F e)]

/-- The whole family of threads runs, and the thirteen argument arrays end as they began. -/
theorem run_args (m : (ℓ : Loc nD τ sig) → Buf (Elt F) ℓ) (ρ : Dev nD → PrngReg) (hOK : IdxOK (conts m))
    (hr0 : RegionStep (conts m) 0 [main_v24_0, main_v24_1] 0) (hr1 : RegionStep (conts m) 1 [main_v50_0, main_v50_1] 1)
    (hr2 : RegionStep (conts m) 2 [main_v76_0, main_v76_1] 2) (hr3 : RegionStep (conts m) 3 [main_v94] 3) :
    θ_run (Cert.KernelIdeal.defs (F := F)) (Cert.KernelIdeal.threads (F := F)) ⟨m, fun _ => 0, ρ⟩
      (fun r => ∀ (c : Dev nD), ∀ a ∈ args, r.2.mem ((SparseCore.T c).loc a) = m ((SparseCore.T c).loc a)) :=
  run_of (conts m) m ρ
    (fun q => match q with
      | 0 => tileObl0 (conts m) hOK
      | 1 => tileObl1 (conts m) hOK
      | 2 => tileObl2 (conts m) hOK)
    (FIN m) (hmain m ρ hr0 hr1 hr2 hr3) (fq m) (hfin m) _ (fun _ h c a ha => h c a ha)

end Cert.Proof.IdealLaunch

end
-- ==== Proof.IdxRange.lean ====
import proofs.«215677_g32066225832048_cont_9to1_32_28_alg».proof.Defs
import proofs.«215677_g32066225832048_cont_9to1_32_28_alg».proof.Proof.HostOps
import proofs.«215677_g32066225832048_cont_9to1_32_28_alg».proof.Proof.Gen.Pre_input_domain
import proofs.«215677_g32066225832048_cont_9to1_32_28_alg».proof.Proof.Gen.KernelIdeal
import Idealize.ShloMosaic.Lib.Pipeline.Value
import Idealize.ShloMosaic.Lib.ReduceAll
import Idealize.ShloMosaic.Lib.ValueIdx

/-!
# The padded index arrays name rows of the table

The kernel's first host stretch pads the two rows of the edge list from 800000 to 819200 entries: the sources with
zeros, the destinations with the word 50000 (the first of the eight spare rows of a 50008-row table). The
precondition's last conjunct says every entry of the edge list is in `[0, 49999]` as a signed integer
(`jnp.all((edge_index >= 0) & (edge_index <= 49999))`): read back (`edge_range`), every entry is below 50000 as a
natural number. Each padded array is read at an index through the concatenation (an index below 800000 falls in the
first piece, an entry of the edge list; an index from 800000 on in the padding), so every entry is below 50008
(`src_lt`, `dst_lt`), for any float instance.
-/

noncomputable section

namespace Cert.Proof.IdxRange

open Cert.KernelIdeal Cert.KernelIdeal.HostOps Idealize.ShloMosaic Idealize.ShloMosaic.TcCoe Idealize.SL.Sem
open Idealize.ShloMosaic.StableHlo Idealize.ShloMosaic.ValueIdx
open Cert.KernelIdeal.Facts₀ Cert.KernelIdeal.Facts

/-- A word that is at least 0 and at most 49999 as a signed integer is below 50000 as a natural number. -/
theorem word_range (v : BitVec 32)
    (e : IntOp.andi (IntOp.cmpi .sge v 0#32) (IntOp.cmpi .sle v 49999#32) = 1#1) : v.toNat < 50000 := by
  obtain ⟨h0, h1⟩ := IntOp.andi_eq_one.1 e
  rw [IntOp.cmpi_sge] at h0
  rw [IntOp.cmpi_sle] at h1
  have e0 : (0#32 : BitVec 32).toInt = 0 := by decide
  have e1 : (49999#32 : BitVec 32).toInt = 49999 := by decide
  rw [e0] at h0
  rw [e1] at h1
  have hlt := v.isLt
  rw [BitVec.toInt_eq_toNat_cond] at h0 h1
  split at h0 <;> omega

section Pre

variable {F : FTy → Type} [FloatOps F] [Cert.Pre_input_domain.Facts]
open Cert.Pre_input_domain Cert.Pre_input_domain.Facts

/-- The precondition's last conjunct, `jnp.all((edge_index >= 0) & (edge_index <= 49999))`, read back: every entry
    of the edge list is below 50000 as a natural number. -/
theorem edge_range (a0 : IVec Cert.Pre_input_domain.S50000 32) (a1 : IVec Cert.Pre_input_domain.S2x800000 32)
    (a2 : FVec F Cert.Pre_input_domain.S120x64 .f32) (a3 : FVec F Cert.Pre_input_domain.S3x128x64 .f32)
    (a4 : FVec F Cert.Pre_input_domain.S3x64 .f32) (a5 : FVec F Cert.Pre_input_domain.S3x64x64 .f32)
    (a6 : FVec F Cert.Pre_input_domain.S3x64 .f32) (a7 : FVec F Cert.Pre_input_domain.S3x64x64 .f32)
    (a8 : FVec F Cert.Pre_input_domain.S3x64 .f32) (a9 : FVec F Cert.Pre_input_domain.S64x64 .f32)
    (a10 : FVec F Cert.Pre_input_domain.S64 .f32) (a11 : FVec F Cert.Pre_input_domain.S64x1 .f32)
    (a12 : FVec F Cert.Pre_input_domain.S1 .f32)
    (h : Cert.Pre_input_domain.fn (F := F) a0 a1 a2 a3 a4 a5 a6 a7 a8 a9 a10 a11 a12 = fun _ => 1#1)
    (i : Cert.Pre_input_domain.S2x800000.Idx) : (a1 i).toNat < 50000 := by
  obtain ⟨X, hX⟩ : ∃ X : IVec Cert.Pre_input_domain.S_ 1,
      Cert.Pre_input_domain.fn (F := F) a0 a1 a2 a3 a4 a5 a6 a7 a8 a9 a10 a11 a12
        = andi X (Host.reduce IntOp.andi
            (andi (cmpi .sge a1 (broadcastInDim Cert.Pre_input_domain.S2x800000 ![] bcast_S_S2x800000 (constantI Cert.Pre_input_domain.S_ 32 0#32)))
              (cmpi .sle a1 (broadcastInDim Cert.Pre_input_domain.S2x800000 ![] bcast_S_S2x800000 (constantI Cert.Pre_input_domain.S_ 32 49999#32))))
            (constantI Cert.Pre_input_domain.S_ 1 1#1) reducesTo_S2x800000_S_d0_1 h_S_) := ⟨_, rfl⟩
  rw [hX] at h
  have e := congrFun h ix0
  have e2 := (IntOp.andi_eq_one.1 e).2
  have e3 := Host.reduce_andi_all _ _ _ _ _ e2 i
  exact word_range _ e3

end Pre

section Pads

variable {F : FTy → Type} [FloatOps F] [Named F] [Cert.KernelIdeal.Facts]

/-- The edges' sources padded to 819200 entries: row 0 of the edge list, then 19200 zeros. -/
def srcPad (ei : IVec S2x800000 32) : IVec S819200 32 :=
  concatenate S819200 0
    [⟨S800000, shapeCast S800000 (extractStridedSlice S1x800000 ![0, 0] ei slices_S2x800000_S1x800000_0_0) shapeCasts_S1x800000_S800000⟩,
      ⟨S19200, broadcastInDim S19200 ![] bcast_S_S19200 (constantI S_ 32 0#32)⟩]
    concatenates_S800000_S19200_S819200_d0

/-- The edges' destinations padded to 819200 entries: row 1 of the edge list, then 19200 times the word 50000. -/
def dstPad (ei : IVec S2x800000 32) : IVec S819200 32 :=
  concatenate S819200 0
    [⟨S800000, shapeCast S800000 (extractStridedSlice S1x800000 ![1, 0] ei slices_S2x800000_S1x800000_1_0) shapeCasts_S1x800000_S800000⟩,
      ⟨S19200, broadcastInDim S19200 ![] bcast_S_S19200 (constantI S_ 32 50000#32)⟩]
    concatenates_S800000_S19200_S819200_d0

/-- The first host stretch leaves the padded sources at `main_v6` … -/
theorem v6_eq (V : Valuation τ sig (Elt F)) :
    after (ops0 (F := F)) V (main_v6 : DevRef τ sig) = srcPad (V (main_arg1 : DevRef τ sig)) := by
  after_results_simp <;> rfl

/-- … and the padded destinations at `main_v8`. -/
theorem v8_eq (V : Valuation τ sig (Elt F)) :
    after (ops0 (F := F)) V (main_v8 : DevRef τ sig) = dstPad (V (main_arg1 : DevRef τ sig)) := by
  after_results_simp <;> rfl

/-- A padded array whose first 800000 entries are entries of the edge list and whose padding is a word below 50008
    names, at every entry, a row of a 50008-row table. -/
theorem pad_lt (r : Nat) (w : BitVec 32) (hw : w.toNat < 50008) (ei : IVec S2x800000 32)
    (hs : S2x800000.Slices ![r, 0] S1x800000) (h : ∀ i, (ei i).toNat < 50000) (j : S819200.Idx) :
    (concatenate S819200 0
      [⟨S800000, shapeCast S800000 (extractStridedSlice S1x800000 ![r, 0] ei hs) shapeCasts_S1x800000_S800000⟩,
        ⟨S19200, broadcastInDim S19200 ![] bcast_S_S19200 (constantI S_ 32 w)⟩]
      concatenates_S800000_S19200_S819200_d0 j).toNat < 50008 := by
  have hjlt : (j ⟨0, by decide⟩).val < 819200 := by
    have h0 := (j ⟨0, by decide⟩).isLt
    exact h0
  by_cases hj : (j ⟨0, by decide⟩).val < 800000
  · rw [concatenate_pair_apply_left _ _ _ concatenates_S800000_S19200_S819200_d0 j rfl
      (ix1 (n := 800000) ⟨(j ⟨0, by decide⟩).val, hj⟩) (fun b => match b with | ⟨0, _⟩ => rfl)]
    exact Nat.lt_of_lt_of_le (h _) (by decide)
  · rw [concatenate_pair_apply_right _ _ _ concatenates_S800000_S19200_S819200_d0 j rfl rfl
      (ix1 (n := 19200) ⟨(j ⟨0, by decide⟩).val - 800000, by omega⟩)
      (fun b hb => absurd (Subsingleton.elim _ _) hb)
      (by show (j ⟨0, by decide⟩).val - 800000 + 800000 = (j ⟨0, by decide⟩).val; omega)]
    exact hw

theorem srcPad_lt (ei : IVec S2x800000 32) (h : ∀ i, (ei i).toNat < 50000) (j : S819200.Idx) :
    (srcPad ei j).toNat < 50008 :=
  pad_lt 0 0#32 (by decide) ei slices_S2x800000_S1x800000_0_0 h j

theorem dstPad_lt (ei : IVec S2x800000 32) (h : ∀ i, (ei i).toNat < 50000) (j : S819200.Idx) :
    (dstPad ei j).toNat < 50008 :=
  pad_lt 1 50000#32 (by decide) ei slices_S2x800000_S1x800000_1_0 h j

end Pads

section Main

variable {F : FTy → Type} [FloatOps F] [Named F] [Cert.KernelIdeal.Facts] [Cert.Pre_input_domain.Facts]

/-- The precondition as Defs.lean states it, for any float instance: `input_domain` of the argument arrays is all
    ones on every device (`Cert.Pre_KernelIdeal m` is this at the ideal instance, by unfolding). -/
abbrev PreAt (m : (ℓ : Loc nD τ sig) → Buf (Elt F) ℓ) : Prop :=
  ∀ c : Dev nD,
    (Cert.Pre_input_domain.fn (F := F)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))) = (fun _ => 1#1)

/-- Under the precondition every entry of the edge list, on every device, is below 50000. -/
theorem edge_lt (m : (ℓ : Loc nD τ sig) → Buf (Elt F) ℓ) (h : PreAt m) (d : Dev nD) (i : S2x800000.Idx) :
    ((launchContents m d (main_arg1 : DevRef τ sig) : IVec S2x800000 32) i).toNat < 50000 :=
  edge_range _ _ _ _ _ _ _ _ _ _ _ _ _ (h d) i

/-- Every entry of the padded source array the first host stretch builds names a row of a 50008-row table. -/
theorem src_lt (m : (ℓ : Loc nD τ sig) → Buf (Elt F) ℓ) (h : PreAt m) (d : Dev nD) (j : S819200.Idx) :
    ((after (ops0 (F := F)) (launchContents m d) (Proc.devRef .tc main_v6) : IVec S819200 32) j).toNat < 50008 := by
  rw [v6_eq]
  exact srcPad_lt _ (edge_lt m h d) j

/-- Every entry of the padded destination array names a row of a 50008-row table (the padding is row 50000). -/
theorem dst_lt (m : (ℓ : Loc nD τ sig) → Buf (Elt F) ℓ) (h : PreAt m) (d : Dev nD) (j : S819200.Idx) :
    ((after (ops0 (F := F)) (launchContents m d) (Proc.devRef .tc main_v8) : IVec S819200 32) j).toNat < 50008 := by
  rw [v8_eq]
  exact dstPad_lt _ (edge_lt m h d) j

end Main

/-- The same from the certificate's own precondition, at the ideal instance. -/
theorem src_lt_ideal (m : (ℓ : Loc nD τ sig) → Buf (Elt Ideal) ℓ)
    (h : Cert.Pre_KernelIdeal (hPre_input_domain := Cert.Pre_input_domain.Gen.facts) m) (d : Dev nD) (j : S819200.Idx) :
    ((after (ops0 (F := Ideal)) (launchContents m d) (Proc.devRef .tc main_v6) : IVec S819200 32) j).toNat < 50008 :=
  src_lt (F := Ideal) m h d j

theorem dst_lt_ideal (m : (ℓ : Loc nD τ sig) → Buf (Elt Ideal) ℓ)
    (h : Cert.Pre_KernelIdeal (hPre_input_domain := Cert.Pre_input_domain.Gen.facts) m) (d : Dev nD) (j : S819200.Idx) :
    ((after (ops0 (F := Ideal)) (launchContents m d) (Proc.devRef .tc main_v8) : IVec S819200 32) j).toNat < 50008 :=
  dst_lt (F := Ideal) m h d j

end Cert.Proof.IdxRange

end
-- ==== Proof.EmbedRegion.lean ====
/-
  The first TensorCore region (the embedding lookup): one grid point of its body.

  At a grid point the body reads a block of 2000 node labels `x` (as a column), the embedding table
  `embed` (120 × 64), the first message layer's weights `wc` (64 × 128) and bias `bc` (1 × 128), and
  writes two blocks: `h = onehot(x) · embed` (2000 × 64) and `tab = h · wc + bc` (2000 × 128). Both are
  whole-buffer stores, so what each output buffer holds afterwards is exactly the stored value: the
  skeleton's payloads `k0_pay1` and `k0_pay2` of the four input blocks.
-/
import proofs.«215677_g32066225832048_cont_9to1_32_28_alg».proof.Proof.Gen.KernelIdeal.Launch
import proofs.«215677_g32066225832048_cont_9to1_32_28_alg».proof.Proof.Gen.KernelIdeal.Skeleton
import proofs.«215677_g32066225832048_cont_9to1_32_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Embed

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## The body on whole staging buffers -/

set_option maxHeartbeats 1000000 in
/-- The body on whole buffers: from the four input buffers at contents `x0 … x3` and the two output buffers at
    anything, it runs to the continuation holding the inputs as they were, the first output at `k0_pay1 x0 x1`
    (the one-hot rows times the table) and the second at `k0_pay2 x0 x1 x2 x3` (that, times the weights, plus the
    bias row). -/
theorem sound_kernel (𝒱₀ : Variants) (c : Dev nD) (E : Set Name) (i : grid0.Coords)
    (arg1 : Memref sig .tc .vmem S2000x1 .i32) (harg1 : arg1.IsWhole) (arg2 : Memref sig .tc .vmem S120x64 .f32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S2000x64 .f32) (harg5 : arg5.IsWhole) (arg6 : Memref sig .tc .vmem S2000x128 .f32) (harg6 : arg6.IsWhole)
    (x0 : Vec F S2000x1 .i32) (x1 : Vec F S120x64 .f32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0 x1) ∗ owns (c : Thread nD τ) arg6 fullShare (k0_pay2 x0 x1 x2 x3)) -∗ K ⟨⟩))
      ⊢ wp frame (wpE (defs₀ (F := F)) 𝒱₀ c none) E (cc0__embed_body i arg1 harg1 arg2 harg2 arg3 harg3 arg4 harg4 arg5 harg5 arg6 harg6) K := by
  simp only [cc0__embed_body_eq_skeleton]; unfold cc0__embed_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x1) hz2, View.ld_unit_zero (S := S120x64) hz2,
      View.ld_unit_zero (S := S64x128) hz2, View.ld_unit_zero (S := S1x128) hz2]
  iexists _; isplitr
  swap; · iexact H5
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x1) hz2, View.ld_unit_zero (S := S120x64) hz2,
      View.ld_unit_zero (S := S64x128) hz2, View.ld_unit_zero (S := S1x128) hz2]

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The proof data of the region on core `c`, from the buffers `V` at its entry: each input's buffer keeps its block;
    after point `t` the first output's buffer holds `k0_pay1` of the label block and the table, the second
    `k0_pay2` of the four input blocks. The invariant `Φ` (what the region holds besides: the scoped buffers no
    window stages, and whatever the caller threads through) does not change from point to point, nor does what the core owes (`O`) or the bound `Rc` on the pairs its waits have recorded. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg0 c where
  A w := V (Pipeline.arrRef spec0 w)
  after w t := match w with
    | ⟨0, _⟩ => iblk c V 0 t
    | ⟨1, _⟩ => iblk c V 1 t
    | ⟨2, _⟩ => iblk c V 2 t
    | ⟨3, _⟩ => iblk c V 3 t
    | ⟨4, _⟩ => k0_pay1 (iblk c V 0 t) (iblk c V 1 t)
    | ⟨5, _⟩ => k0_pay2 (iblk c V 0 t) (iblk c V 1 t) (iblk c V 2 t) (iblk c V 3 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg0.W) : (dat (F := F) (Name := Name) (U := U) (Lvl := Lvl) c V Φ O Rc).A w = V (Pipeline.arrRef spec0 w) := by
  dsimp only [dat]

/-- What the body leaves, window by window. -/
theorem after_0 (t : Fin cfg0.N) : (dat (F := F) (Name := Name) (U := U) (Lvl := Lvl) c V Φ O Rc).after 0 t = iblk c V 0 t := by dsimp only [dat]
theorem after_1 (t : Fin cfg0.N) : (dat (F := F) (Name := Name) (U := U) (Lvl := Lvl) c V Φ O Rc).after 1 t = iblk c V 1 t := by dsimp only [dat]
theorem after_2 (t : Fin cfg0.N) : (dat (F := F) (Name := Name) (U := U) (Lvl := Lvl) c V Φ O Rc).after 2 t = iblk c V 2 t := by dsimp only [dat]
theorem after_3 (t : Fin cfg0.N) : (dat (F := F) (Name := Name) (U := U) (Lvl := Lvl) c V Φ O Rc).after 3 t = iblk c V 3 t := by dsimp only [dat]
theorem after_4 (t : Fin cfg0.N) : (dat (F := F) (Name := Name) (U := U) (Lvl := Lvl) c V Φ O Rc).after 4 t
    = k0_pay1 (iblk c V 0 t) (iblk c V 1 t) := by dsimp only [dat]
theorem after_5 (t : Fin cfg0.N) : (dat (F := F) (Name := Name) (U := U) (Lvl := Lvl) c V Φ O Rc).after 5 t
    = k0_pay2 (iblk c V 0 t) (iblk c V 1 t) (iblk c V 2 t) (iblk c V 3 t) := by dsimp only [dat]

/-- Each input's current buffer holds its block at every point, fetched there or not: an input that is not
    refetched has not moved, and the body left its block in place. -/
theorem before_0 (t : Fin cfg0.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg0.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg0.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg0.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg0.N) : sProp 𝕄 :=
  iprop((𝔡).Φ t.castSucc ∗ (𝔡).owesAt ι t.castSucc
    ∗ (∃ d, owns (c : Thread nD τ) (st0_0 t) fullShare ((𝔡).before 0 t d))
    ∗ (∃ d, owns (c : Thread nD τ) (st0_1 t) fullShare ((𝔡).before 1 t d))
    ∗ (∃ d, owns (c : Thread nD τ) (st0_2 t) fullShare ((𝔡).before 2 t d))
    ∗ (∃ d, owns (c : Thread nD τ) (st0_3 t) fullShare ((𝔡).before 3 t d))
    ∗ (∃ d, owns (c : Thread nD τ) (st0_4 t) fullShare ((𝔡).before 4 t d))
    ∗ (∃ d, owns (c : Thread nD τ) (st0_5 t) fullShare ((𝔡).before 5 t d)))

/-- and what it returns. -/
def bodyPost (t : Fin cfg0.N) : sProp 𝕄 :=
  iprop((𝔡).Φ t.succ ∗ (𝔡).owesAt ι t.succ
    ∗ owns (c : Thread nD τ) (st0_0 t) fullShare ((𝔡).after 0 t)
    ∗ owns (c : Thread nD τ) (st0_1 t) fullShare ((𝔡).after 1 t)
    ∗ owns (c : Thread nD τ) (st0_2 t) fullShare ((𝔡).after 2 t)
    ∗ owns (c : Thread nD τ) (st0_3 t) fullShare ((𝔡).after 3 t)
    ∗ owns (c : Thread nD τ) (st0_4 t) fullShare ((𝔡).after 4 t)
    ∗ owns (c : Thread nD τ) (st0_5 t) fullShare ((𝔡).after 5 t))

/-- The body at any point: the inputs' buffers hold their blocks, so `sound_kernel` applies; the invariant and what
    the core owes pass through unread. -/
theorem sound_body (t : Fin cfg0.N) :
    bodyPre ι c V Φ O Rc t ⊢ wp frame (wpE (defs₀ (F := F)) 𝒱₀ c none) Set.univ (bodyAt0 t) (fun _ => bodyPost ι c V Φ O Rc t) := by
  unfold bodyPre bodyPost bodyAt0
  simp only [before_0, before_1, before_2, before_3]
  rw [show (𝔡).Φ t.succ = (𝔡).Φ t.castSucc from rfl,
    show (𝔡).owesAt ι t.succ = (𝔡).owesAt ι t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid0.coords t) _ _ _ _ _ _ _ _ _ _ _ _ (iblk c V 0 t) (iblk c V 1 t) (iblk c V 2 t) (iblk c V 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region, at every point. -/
theorem body_obligation : BodyObligation (dat (F := F) (Name := Name) (U := U) (Lvl := Lvl) c V Φ O Rc) (defs₀ (F := F)) 𝒱₀ ι Set.univ := fun t => by
  rw [bigSep_W0, bigSep_W0]
  exact sound_body 𝒱₀ ι c V Φ O Rc t

end Obligation

end Cert.KernelIdeal.Embed

end
-- ==== Proof.UpdateRegion.lean ====
/-
  The two update regions (the second and third TensorCore regions): one grid point of their body.

  At a grid point the body reads a block of 2000 node states `h`, the block of summed incoming messages `p`, the
  nodes' in-degrees, and six small weight and bias arrays, and writes two blocks: the new states
  `hn = max(h · sw + sb + (p · w2 + deg · b2), 0)` (2000 × 64) and the next layer's table `hn · wc + bc` (2000 × 128).
  Both are whole-buffer stores, so what each output buffer holds afterwards is the stored value itself: the
  skeleton's payloads of the nine input blocks. The two regions run the same function on different arrays.
-/
import proofs.«215677_g32066225832048_cont_9to1_32_28_alg».proof.Proof.Gen.KernelIdeal.Launch
import proofs.«215677_g32066225832048_cont_9to1_32_28_alg».proof.Proof.Gen.KernelIdeal.Skeleton
import proofs.«215677_g32066225832048_cont_9to1_32_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Upd2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## What the body leaves in its two outputs

The operands, in the order of the windows: `x0` the nodes' states `h`, `x1` the summed messages `p`, `x2` the in-degrees
(a column), `x3`, `x4` the self weights and bias, `x5`, `x6` the second message layer's weights and bias, `x7`, `x8` the
next layer's first message weights and bias. -/

/-- The new states: `max(h · sw + sb + (p · w2 + deg · b2), 0)`. -/
def out9 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) : Vec F S2000x64 .f32 :=
  k2_pay1 x1 x5 x2 x6 x0 x3 x4

/-- The next layer's table: the new states times `wc`, plus `bc`. -/
def out10 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (x7 : Vec F S64x128 .f32) (x8 : Vec F S1x128 .f32) : Vec F S2000x128 .f32 :=
  k2_pay2 x1 x5 x2 x6 x0 x3 x4 x7 x8

/-! ## The body on whole staging buffers -/

set_option maxHeartbeats 2000000 in
/-- The body on whole buffers: from the nine input buffers at contents `x0 … x8` and the two output buffers at anything,
    it runs to the continuation holding the inputs as they were and the outputs at `out9` and `out10` of them (both
    stores cover their buffers, so each leaves exactly the stored value). -/
theorem sound_kernel (𝒱₀ : Variants) (c : Dev nD) (E : Set Name) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S2000x64 .f32) (harg10 : arg10.IsWhole) (arg11 : Memref sig .tc .vmem S2000x128 .f32) (harg11 : arg11.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6) ∗ owns (c : Thread nD τ) arg11 fullShare (out10 x0 x1 x2 x3 x4 x5 x6 x7 x8)) -∗ K ⟨⟩))
      ⊢ wp frame (wpE (defs₀ (F := F)) 𝒱₀ c none) E (cc2__update_body i arg1 harg1 arg2 harg2 arg3 harg3 arg4 harg4 arg5 harg5 arg6 harg6 arg7 harg7 arg8 harg8 arg9 harg9 arg10 harg10 arg11 harg11) K := by
  simp only [cc2__update_body_eq_skeleton]; unfold cc2__update_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
    rfl
  iexists _; isplitr
  swap; · iexact H10
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
  rfl

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg2.W) (t : Fin cfg2.N) :
    ((cfg2.win w).xblock (cfg2.grid.coords t)).Idx → Elt F (cfg2.win w).elt :=
  ((cfg2.win w).blk t).view.read (Elt F) (V (Pipeline.arrRef spec2 w))

/-- The proof data of the region on core `c`, from the buffers `V` at its entry: each input's buffer keeps its block;
    after point `t` the outputs' buffers hold `out9` and `out10` of the input blocks. The invariant `Φ` and what the
    core owes `O` do not change from point to point. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t)
    | ⟨10, _⟩ => out10 (iblk c V 0 t) (iblk c V 1 t) (iblk c V 2 t) (iblk c V 3 t) (iblk c V 4 t) (iblk c V 5 t) (iblk c V 6 t) (iblk c V 7 t) (iblk c V 8 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg2.W) : (dat (F := F) (Name := Name) (U := U) (Lvl := Lvl) c V Φ O Rc).A w = V (Pipeline.arrRef spec2 w) := by
  dsimp only [dat]

/-- What the body leaves, window by window. -/
theorem after_0 (t : Fin cfg2.N) : (dat (F := F) (Name := Name) (U := U) (Lvl := Lvl) c V Φ O Rc).after 0 t = iblk c V 0 t := by dsimp only [dat]
theorem after_1 (t : Fin cfg2.N) : (dat (F := F) (Name := Name) (U := U) (Lvl := Lvl) c V Φ O Rc).after 1 t = iblk c V 1 t := by dsimp only [dat]
theorem after_2 (t : Fin cfg2.N) : (dat (F := F) (Name := Name) (U := U) (Lvl := Lvl) c V Φ O Rc).after 2 t = iblk c V 2 t := by dsimp only [dat]
theorem after_3 (t : Fin cfg2.N) : (dat (F := F) (Name := Name) (U := U) (Lvl := Lvl) c V Φ O Rc).after 3 t = iblk c V 3 t := by dsimp only [dat]
theorem after_4 (t : Fin cfg2.N) : (dat (F := F) (Name := Name) (U := U) (Lvl := Lvl) c V Φ O Rc).after 4 t = iblk c V 4 t := by dsimp only [dat]
theorem after_5 (t : Fin cfg2.N) : (dat (F := F) (Name := Name) (U := U) (Lvl := Lvl) c V Φ O Rc).after 5 t = iblk c V 5 t := by dsimp only [dat]
theorem after_6 (t : Fin cfg2.N) : (dat (F := F) (Name := Name) (U := U) (Lvl := Lvl) c V Φ O Rc).after 6 t = iblk c V 6 t := by dsimp only [dat]
theorem after_7 (t : Fin cfg2.N) : (dat (F := F) (Name := Name) (U := U) (Lvl := Lvl) c V Φ O Rc).after 7 t = iblk c V 7 t := by dsimp only [dat]
theorem after_8 (t : Fin cfg2.N) : (dat (F := F) (Name := Name) (U := U) (Lvl := Lvl) c V Φ O Rc).after 8 t = iblk c V 8 t := by dsimp only [dat]
theorem after_9 (t : Fin cfg2.N) : (dat (F := F) (Name := Name) (U := U) (Lvl := Lvl) c V Φ O Rc).after 9 t = out9 (iblk c V 0 t) (iblk c V 1 t) (iblk c V 2 t) (iblk c V 3 t) (iblk c V 4 t) (iblk c V 5 t) (iblk c V 6 t) := by dsimp only [dat]
theorem after_10 (t : Fin cfg2.N) : (dat (F := F) (Name := Name) (U := U) (Lvl := Lvl) c V Φ O Rc).after 10 t = out10 (iblk c V 0 t) (iblk c V 1 t) (iblk c V 2 t) (iblk c V 3 t) (iblk c V 4 t) (iblk c V 5 t) (iblk c V 6 t) (iblk c V 7 t) (iblk c V 8 t) := by dsimp only [dat]

/-- Each input's current buffer holds its block at every point, fetched there or not: an input that is not
    refetched has not moved, and the body left its block in place. -/
theorem before_0 (t : Fin cfg2.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg2.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg2.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg2.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg2.N) (d) : (dat (F := F) (Name := Name) (U := U) (Lvl := Lvl) c V Φ O Rc).before 4 t d = iblk c V 4 t :=
  ((dat (F := F) (Name := Name) (U := U) (Lvl := Lvl) c V Φ O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg2.N) (d) : (dat (F := F) (Name := Name) (U := U) (Lvl := Lvl) c V Φ O Rc).before 5 t d = iblk c V 5 t :=
  ((dat (F := F) (Name := Name) (U := U) (Lvl := Lvl) c V Φ O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg2.N) (d) : (dat (F := F) (Name := Name) (U := U) (Lvl := Lvl) c V Φ O Rc).before 6 t d = iblk c V 6 t :=
  ((dat (F := F) (Name := Name) (U := U) (Lvl := Lvl) c V Φ O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg2.N) (d) : (dat (F := F) (Name := Name) (U := U) (Lvl := Lvl) c V Φ O Rc).before 7 t d = iblk c V 7 t :=
  ((dat (F := F) (Name := Name) (U := U) (Lvl := Lvl) c V Φ O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg2.N) (d) : (dat (F := F) (Name := Name) (U := U) (Lvl := Lvl) c V Φ O Rc).before 8 t d = iblk c V 8 t :=
  ((dat (F := F) (Name := Name) (U := U) (Lvl := Lvl) c V Φ O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg2.N) : sProp 𝕄 :=
  iprop((𝔡).Φ t.castSucc ∗ (𝔡).owesAt ι t.castSucc
    ∗ (∃ d, owns (c : Thread nD τ) (st2_0 t) fullShare ((𝔡).before 0 t d))
    ∗ (∃ d, owns (c : Thread nD τ) (st2_1 t) fullShare ((𝔡).before 1 t d))
    ∗ (∃ d, owns (c : Thread nD τ) (st2_2 t) fullShare ((𝔡).before 2 t d))
    ∗ (∃ d, owns (c : Thread nD τ) (st2_3 t) fullShare ((𝔡).before 3 t d))
    ∗ (∃ d, owns (c : Thread nD τ) (st2_4 t) fullShare ((𝔡).before 4 t d))
    ∗ (∃ d, owns (c : Thread nD τ) (st2_5 t) fullShare ((𝔡).before 5 t d))
    ∗ (∃ d, owns (c : Thread nD τ) (st2_6 t) fullShare ((𝔡).before 6 t d))
    ∗ (∃ d, owns (c : Thread nD τ) (st2_7 t) fullShare ((𝔡).before 7 t d))
    ∗ (∃ d, owns (c : Thread nD τ) (st2_8 t) fullShare ((𝔡).before 8 t d))
    ∗ (∃ d, owns (c : Thread nD τ) (st2_9 t) fullShare ((𝔡).before 9 t d))
    ∗ (∃ d, owns (c : Thread nD τ) (st2_10 t) fullShare ((𝔡).before 10 t d)))

/-- and what it returns. -/
def bodyPost (t : Fin cfg2.N) : sProp 𝕄 :=
  iprop((𝔡).Φ t.succ ∗ (𝔡).owesAt ι t.succ
    ∗ owns (c : Thread nD τ) (st2_0 t) fullShare ((𝔡).after 0 t)
    ∗ owns (c : Thread nD τ) (st2_1 t) fullShare ((𝔡).after 1 t)
    ∗ owns (c : Thread nD τ) (st2_2 t) fullShare ((𝔡).after 2 t)
    ∗ owns (c : Thread nD τ) (st2_3 t) fullShare ((𝔡).after 3 t)
    ∗ owns (c : Thread nD τ) (st2_4 t) fullShare ((𝔡).after 4 t)
    ∗ owns (c : Thread nD τ) (st2_5 t) fullShare ((𝔡).after 5 t)
    ∗ owns (c : Thread nD τ) (st2_6 t) fullShare ((𝔡).after 6 t)
    ∗ owns (c : Thread nD τ) (st2_7 t) fullShare ((𝔡).after 7 t)
    ∗ owns (c : Thread nD τ) (st2_8 t) fullShare ((𝔡).after 8 t)
    ∗ owns (c : Thread nD τ) (st2_9 t) fullShare ((𝔡).after 9 t)
    ∗ owns (c : Thread nD τ) (st2_10 t) fullShare ((𝔡).after 10 t))

/-- The body at any point: the inputs' buffers hold their blocks, so `sound_kernel` applies; the invariant and what
    the core owes pass through unread. -/
theorem sound_body (t : Fin cfg2.N) :
    bodyPre ι c V Φ O Rc t ⊢ wp frame (wpE (defs₀ (F := F)) 𝒱₀ c none) Set.univ (bodyAt2 t) (fun _ => bodyPost ι c V Φ O Rc t) := by
  unfold bodyPre bodyPost bodyAt2
  simp only [before_0, before_1, before_2, before_3, before_4, before_5, before_6, before_7, before_8]
  rw [show (𝔡).Φ t.succ = (𝔡).Φ t.castSucc from rfl,
    show (𝔡).owesAt ι t.succ = (𝔡).owesAt ι t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel 𝒱₀ c Set.univ (grid2.coords t) _ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for the region, at every point. -/
theorem body_obligation : BodyObligation (dat (F := F) (Name := Name) (U := U) (Lvl := Lvl) c V Φ O Rc) (defs₀ (F := F)) 𝒱₀ ι Set.univ := fun t => by
  rw [bigSep_W2, bigSep_W2]
  exact sound_body 𝒱₀ ι c V Φ O Rc t

end Obligation

end Cert.KernelIdeal.Upd2

namespace Cert.KernelIdeal.Upd4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## What the body leaves in its two outputs

The operands, in the order of the windows: `x0` the nodes' states `h`, `x1` the summed messages `p`, `x2` the in-degrees
(a column), `x3`, `x4` the self weights and bias, `x5`, `x6` the second message layer's weights and bias, `x7`, `x8` the
next layer's first message weights and bias. -/

/-- The new states: `max(h · sw + sb + (p · w2 + deg · b2), 0)`. -/
def out9 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) : Vec F S2000x64 .f32 :=
  k4_pay1 x1 x5 x2 x6 x0 x3 x4

/-- The next layer's table: the new states times `wc`, plus `bc`. -/
def out10 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (x7 : Vec F S64x128 .f32) (x8 : Vec F S1x128 .f32) : Vec F S2000x128 .f32 :=
  k4_pay2 x1 x5 x2 x6 x0 x3 x4 x7 x8

/-! ## The body on whole staging buffers -/

set_option maxHeartbeats 2000000 in
/-- The body on whole buffers: from the nine input buffers at contents `x0 … x8` and the two output buffers at anything,
    it runs to the continuation holding the inputs as they were and the outputs at `out9` and `out10` of them (both
    stores cover their buffers, so each leaves exactly the stored value). -/
theorem sound_kernel (𝒱₀ : Variants) (c : Dev nD) (E : Set Name) (i : grid4.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S2000x64 .f32) (harg10 : arg10.IsWhole) (arg11 : Memref sig .tc .vmem S2000x128 .f32) (harg11 : arg11.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6) ∗ owns (c : Thread nD τ) arg11 fullShare (out10 x0 x1 x2 x3 x4 x5 x6 x7 x8)) -∗ K ⟨⟩))
      ⊢ wp frame (wpE (defs₀ (F := F)) 𝒱₀ c none) E (cc4__update_body i arg1 harg1 arg2 harg2 arg3 harg3 arg4 harg4 arg5 harg5 arg6 harg6 arg7 harg7 arg8 harg8 arg9 harg9 arg10 harg10 arg11 harg11) K := by
  simp only [cc4__update_body_eq_skeleton]; unfold cc4__update_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
    rfl
  iexists _; isplitr
  swap; · iexact H10
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
  rfl

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg4.W) (t : Fin cfg4.N) :
    ((cfg4.win w).xblock (cfg4.grid.coords t)).Idx → Elt F (cfg4.win w).elt :=
  ((cfg4.win w).blk t).view.read (Elt F) (V (Pipeline.arrRef spec4 w))

/-- The proof data of the region on core `c`, from the buffers `V` at its entry: each input's buffer keeps its block;
    after point `t` the outputs' buffers hold `out9` and `out10` of the input blocks. The invariant `Φ` and what the
    core owes `O` do not change from point to point. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg4 c where
  A w := V (Pipeline.arrRef spec4 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t)
    | ⟨10, _⟩ => out10 (iblk c V 0 t) (iblk c V 1 t) (iblk c V 2 t) (iblk c V 3 t) (iblk c V 4 t) (iblk c V 5 t) (iblk c V 6 t) (iblk c V 7 t) (iblk c V 8 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg4.W) : (dat (F := F) (Name := Name) (U := U) (Lvl := Lvl) c V Φ O Rc).A w = V (Pipeline.arrRef spec4 w) := by
  dsimp only [dat]

/-- What the body leaves, window by window. -/
theorem after_0 (t : Fin cfg4.N) : (dat (F := F) (Name := Name) (U := U) (Lvl := Lvl) c V Φ O Rc).after 0 t = iblk c V 0 t := by dsimp only [dat]
theorem after_1 (t : Fin cfg4.N) : (dat (F := F) (Name := Name) (U := U) (Lvl := Lvl) c V Φ O Rc).after 1 t = iblk c V 1 t := by dsimp only [dat]
theorem after_2 (t : Fin cfg4.N) : (dat (F := F) (Name := Name) (U := U) (Lvl := Lvl) c V Φ O Rc).after 2 t = iblk c V 2 t := by dsimp only [dat]
theorem after_3 (t : Fin cfg4.N) : (dat (F := F) (Name := Name) (U := U) (Lvl := Lvl) c V Φ O Rc).after 3 t = iblk c V 3 t := by dsimp only [dat]
theorem after_4 (t : Fin cfg4.N) : (dat (F := F) (Name := Name) (U := U) (Lvl := Lvl) c V Φ O Rc).after 4 t = iblk c V 4 t := by dsimp only [dat]
theorem after_5 (t : Fin cfg4.N) : (dat (F := F) (Name := Name) (U := U) (Lvl := Lvl) c V Φ O Rc).after 5 t = iblk c V 5 t := by dsimp only [dat]
theorem after_6 (t : Fin cfg4.N) : (dat (F := F) (Name := Name) (U := U) (Lvl := Lvl) c V Φ O Rc).after 6 t = iblk c V 6 t := by dsimp only [dat]
theorem after_7 (t : Fin cfg4.N) : (dat (F := F) (Name := Name) (U := U) (Lvl := Lvl) c V Φ O Rc).after 7 t = iblk c V 7 t := by dsimp only [dat]
theorem after_8 (t : Fin cfg4.N) : (dat (F := F) (Name := Name) (U := U) (Lvl := Lvl) c V Φ O Rc).after 8 t = iblk c V 8 t := by dsimp only [dat]
theorem after_9 (t : Fin cfg4.N) : (dat (F := F) (Name := Name) (U := U) (Lvl := Lvl) c V Φ O Rc).after 9 t = out9 (iblk c V 0 t) (iblk c V 1 t) (iblk c V 2 t) (iblk c V 3 t) (iblk c V 4 t) (iblk c V 5 t) (iblk c V 6 t) := by dsimp only [dat]
theorem after_10 (t : Fin cfg4.N) : (dat (F := F) (Name := Name) (U := U) (Lvl := Lvl) c V Φ O Rc).after 10 t = out10 (iblk c V 0 t) (iblk c V 1 t) (iblk c V 2 t) (iblk c V 3 t) (iblk c V 4 t) (iblk c V 5 t) (iblk c V 6 t) (iblk c V 7 t) (iblk c V 8 t) := by dsimp only [dat]

/-- Each input's current buffer holds its block at every point, fetched there or not: an input that is not
    refetched has not moved, and the body left its block in place. -/
theorem before_0 (t : Fin cfg4.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg4.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg4.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg4.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg4.N) (d) : (dat (F := F) (Name := Name) (U := U) (Lvl := Lvl) c V Φ O Rc).before 4 t d = iblk c V 4 t :=
  ((dat (F := F) (Name := Name) (U := U) (Lvl := Lvl) c V Φ O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg4.N) (d) : (dat (F := F) (Name := Name) (U := U) (Lvl := Lvl) c V Φ O Rc).before 5 t d = iblk c V 5 t :=
  ((dat (F := F) (Name := Name) (U := U) (Lvl := Lvl) c V Φ O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg4.N) (d) : (dat (F := F) (Name := Name) (U := U) (Lvl := Lvl) c V Φ O Rc).before 6 t d = iblk c V 6 t :=
  ((dat (F := F) (Name := Name) (U := U) (Lvl := Lvl) c V Φ O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg4.N) (d) : (dat (F := F) (Name := Name) (U := U) (Lvl := Lvl) c V Φ O Rc).before 7 t d = iblk c V 7 t :=
  ((dat (F := F) (Name := Name) (U := U) (Lvl := Lvl) c V Φ O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg4.N) (d) : (dat (F := F) (Name := Name) (U := U) (Lvl := Lvl) c V Φ O Rc).before 8 t d = iblk c V 8 t :=
  ((dat (F := F) (Name := Name) (U := U) (Lvl := Lvl) c V Φ O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg4.N) : sProp 𝕄 :=
  iprop((𝔡).Φ t.castSucc ∗ (𝔡).owesAt ι t.castSucc
    ∗ (∃ d, owns (c : Thread nD τ) (st4_0 t) fullShare ((𝔡).before 0 t d))
    ∗ (∃ d, owns (c : Thread nD τ) (st4_1 t) fullShare ((𝔡).before 1 t d))
    ∗ (∃ d, owns (c : Thread nD τ) (st4_2 t) fullShare ((𝔡).before 2 t d))
    ∗ (∃ d, owns (c : Thread nD τ) (st4_3 t) fullShare ((𝔡).before 3 t d))
    ∗ (∃ d, owns (c : Thread nD τ) (st4_4 t) fullShare ((𝔡).before 4 t d))
    ∗ (∃ d, owns (c : Thread nD τ) (st4_5 t) fullShare ((𝔡).before 5 t d))
    ∗ (∃ d, owns (c : Thread nD τ) (st4_6 t) fullShare ((𝔡).before 6 t d))
    ∗ (∃ d, owns (c : Thread nD τ) (st4_7 t) fullShare ((𝔡).before 7 t d))
    ∗ (∃ d, owns (c : Thread nD τ) (st4_8 t) fullShare ((𝔡).before 8 t d))
    ∗ (∃ d, owns (c : Thread nD τ) (st4_9 t) fullShare ((𝔡).before 9 t d))
    ∗ (∃ d, owns (c : Thread nD τ) (st4_10 t) fullShare ((𝔡).before 10 t d)))

/-- and what it returns. -/
def bodyPost (t : Fin cfg4.N) : sProp 𝕄 :=
  iprop((𝔡).Φ t.succ ∗ (𝔡).owesAt ι t.succ
    ∗ owns (c : Thread nD τ) (st4_0 t) fullShare ((𝔡).after 0 t)
    ∗ owns (c : Thread nD τ) (st4_1 t) fullShare ((𝔡).after 1 t)
    ∗ owns (c : Thread nD τ) (st4_2 t) fullShare ((𝔡).after 2 t)
    ∗ owns (c : Thread nD τ) (st4_3 t) fullShare ((𝔡).after 3 t)
    ∗ owns (c : Thread nD τ) (st4_4 t) fullShare ((𝔡).after 4 t)
    ∗ owns (c : Thread nD τ) (st4_5 t) fullShare ((𝔡).after 5 t)
    ∗ owns (c : Thread nD τ) (st4_6 t) fullShare ((𝔡).after 6 t)
    ∗ owns (c : Thread nD τ) (st4_7 t) fullShare ((𝔡).after 7 t)
    ∗ owns (c : Thread nD τ) (st4_8 t) fullShare ((𝔡).after 8 t)
    ∗ owns (c : Thread nD τ) (st4_9 t) fullShare ((𝔡).after 9 t)
    ∗ owns (c : Thread nD τ) (st4_10 t) fullShare ((𝔡).after 10 t))

/-- The body at any point: the inputs' buffers hold their blocks, so `sound_kernel` applies; the invariant and what
    the core owes pass through unread. -/
theorem sound_body (t : Fin cfg4.N) :
    bodyPre ι c V Φ O Rc t ⊢ wp frame (wpE (defs₀ (F := F)) 𝒱₀ c none) Set.univ (bodyAt4 t) (fun _ => bodyPost ι c V Φ O Rc t) := by
  unfold bodyPre bodyPost bodyAt4
  simp only [before_0, before_1, before_2, before_3, before_4, before_5, before_6, before_7, before_8]
  rw [show (𝔡).Φ t.succ = (𝔡).Φ t.castSucc from rfl,
    show (𝔡).owesAt ι t.succ = (𝔡).owesAt ι t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel 𝒱₀ c Set.univ (grid4.coords t) _ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for the region, at every point. -/
theorem body_obligation : BodyObligation (dat (F := F) (Name := Name) (U := U) (Lvl := Lvl) c V Φ O Rc) (defs₀ (F := F)) 𝒱₀ ι Set.univ := fun t => by
  rw [bigSep_W4, bigSep_W4]
  exact sound_body 𝒱₀ ι c V Φ O Rc t

end Obligation

end Cert.KernelIdeal.Upd4

end
-- ==== Proof.HeadRegion.lean ====
/-
  The last TensorCore region (the read-out head): one grid point of its body, in its three control cases.

  At a grid point the body computes the block's new states exactly as the update regions do, sums them over the
  block's 2000 rows, and adds that row to a 1 × 64 accumulator kept in a scratch buffer that survives from point to
  point. The first point zeroes the accumulator before adding; every later point adds to what the point before left.
  Only at the last point does the body store into its output window: the mean of the states over all 50000 nodes
  (the accumulator times 1/50000), through the two-layer head `max(mean · ow1 + ob1, 0) · ow2 + ob2`. At every
  other point the output's buffer is handed back as it was found.

  So there are three runs of the body — first point, a middle point, last point — told apart by two tests on the
  grid coordinate, and the accumulator's contents after each point are a recursion on the point (`acc`).
-/
import proofs.«215677_g32066225832048_cont_9to1_32_28_alg».proof.Proof.Gen.KernelIdeal.Launch
import proofs.«215677_g32066225832048_cont_9to1_32_28_alg».proof.Proof.Gen.KernelIdeal.Skeleton
import proofs.«215677_g32066225832048_cont_9to1_32_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Head

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-- The first conditional's test, as the body computes it from the grid coordinate: is this the first point? -/
def cond1 (i : grid6.Coords) : BitVec 1 :=
  Scalar.cmpi .ne (Scalar.extui (Scalar.cmpi .eq (BitVec.ofNat 32 (i 0).val) 0#32)) 0#32

/-- One point's contribution added to the running column sums `a`: the new states of the block (as in the update
    regions), summed over the block's rows. -/
def accStep (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (a : Vec F S1x64 .f32) : Vec F S1x64 .f32 :=
  k6_pay1 (k6_pay4 x1 x5 x2 x6 x0 x3 x4 a)

/-- The head: `max((a · inv_50000) · ow1 + ob1, 0) · ow2 + ob2` of the final column sums `a`. -/
def headOut (a : Vec F S1x64 .f32) (x7 : Vec F S64x64 .f32) (x8 : Vec F S1x64 .f32) (x9 : Vec F S64x1 .f32) (x10 : Vec F S1x1 .f32) : Vec F S1x1 .f32 :=
  k6_pay2 a x7 x8 x9 x10

/-! ## The three runs of the body on whole buffers -/

set_option maxHeartbeats 2000000 in
/-- The body at the FIRST point: the running sums are zeroed, then the point's contribution is added; the output buffer is left as found. -/
theorem runA (𝒱₀ : Variants) (c : Dev nD) (E : Set Name) (i : grid6.Coords) (hc1 : cond1 i = 1#1) (hc2 : ¬ k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (y : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ owns (c : Thread nD τ) arg12 fullShare y ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y ∗ owns (c : Thread nD τ) arg13 fullShare (accStep x0 x1 x2 x3 x4 x5 x6 k6_pay3)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.Mem.head _, View.mem_set_unit_zero hz2 inb_S1x64_S1x64_0_0 y⟩),
    View.canon_cons_unit_zero hz2]
  sl_unfold_run_names
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rw [View.readCov_unit_zero _ hz2]
  rfl

set_option maxHeartbeats 2000000 in
/-- The body at a MIDDLE point: the point's contribution is added to the running sums; the output buffer is left as found. -/
theorem runB (𝒱₀ : Variants) (c : Dev nD) (E : Set Name) (i : grid6.Coords) (hc1 : ¬ cond1 i = 1#1) (hc2 : ¬ k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (y : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ owns (c : Thread nD τ) arg12 fullShare y ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y ∗ owns (c : Thread nD τ) arg13 fullShare (accStep x0 x1 x2 x3 x4 x5 x6 a)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rfl

set_option maxHeartbeats 2000000 in
/-- The body at the LAST point: the point's contribution is added to the running sums, and the head of the total is stored in the output buffer. -/
theorem runC (𝒱₀ : Variants) (c : Dev nD) (E : Set Name) (i : grid6.Coords) (hc1 : ¬ cond1 i = 1#1) (hc2 : k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (headOut (accStep x0 x1 x2 x3 x4 x5 x6 a) x7 x8 x9 x10) ∗ owns (c : Thread nD τ) arg13 fullShare (accStep x0 x1 x2 x3 x4 x5 x6 a)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  subst hf0 hf1 hf2 hf3 hf4 hf5 hf6 hf7 hf8 hf9 hf10 hf12
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S1x1_S1x1_0_0 y⟩),
      View.canon_unit_zero hz2]
    sl_unfold_run_names
    simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
    rw [View.readCov_unit_zero _ hz2]
    rfl
  iexists _; isplitr
  swap; · iexact H12
  ipureintro
  sl_unfold_run_names
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rfl

/-! ## The conditions over the grid -/

/-- The grid has 25 points. -/
theorem N_eq : cfg6.N = 25 := N_6

/-- The first conditional holds at the first point only. -/
theorem hcond1 : ∀ t : Fin cfg6.N, cond1 (grid6.coords t) = 1#1 ↔ t.val = 0 :=
  (by decide +kernel : ∀ t : Fin grid6.N, cond1 (grid6.coords t) = 1#1 ↔ t.val = 0)

/-- The second conditional holds at the last point only. -/
theorem hcond2 : ∀ t : Fin cfg6.N, k6_cond2 (grid6.coords t) = 1#1 ↔ t.val = 24 :=
  (by decide +kernel : ∀ t : Fin grid6.N, k6_cond2 (grid6.coords t) = 1#1 ↔ t.val = 24)

/-- The output window is idle (the body stores nothing into it) away from the last point, -/
theorem idle_11 (t : Fin cfg6.N) (h : t.val ≠ 24) : cfg6.idle 11 (cfg6.grid.coords t) = true := by
  show (!(k6_cond2 (grid6.coords t) == 1#1)) = true
  rw [Bool.not_eq_true', beq_eq_false_iff_ne]
  exact fun e => h ((hcond2 t).mp e)

/-- live at it, -/
theorem live_11 (t : Fin cfg6.N) (h : t.val = 24) : cfg6.idle 11 (cfg6.grid.coords t) = false := by
  show (!(k6_cond2 (grid6.coords t) == 1#1)) = false
  rw [Bool.not_eq_false', beq_iff_eq]
  exact (hcond2 t).mpr h

/-- and not written back away from it. -/
theorem noFlush_11 (t : Fin cfg6.N) (h : t.val ≠ 24) : (cfg6.win 11).flush t = false := by
  rw [Bool.eq_false_iff]
  intro e
  have := (flush6_11 t).mp e
  have hN : t.val < 25 := lt_of_lt_of_eq t.isLt N_eq
  omega

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg6.W) (t : Fin cfg6.N) :
    ((cfg6.win w).xblock (cfg6.grid.coords t)).Idx → Elt F (cfg6.win w).elt :=
  ((cfg6.win w).blk t).view.read (Elt F) (V (Pipeline.arrRef spec6 w))

/-- THE RUNNING SUMS after point `n`: zero plus the contributions of points `0 … n`, each added as the body adds it. -/
def acc (c : Dev nD) (V : (b : Ref sig .tc) → Buf (Elt F) ((c : Thread nD τ).loc b)) : (n : ℕ) → n < cfg6.N → Vec F S1x64 .f32
  | 0, h => accStep (iblk c V 0 ⟨0, h⟩) (iblk c V 1 ⟨0, h⟩) (iblk c V 2 ⟨0, h⟩) (iblk c V 3 ⟨0, h⟩) (iblk c V 4 ⟨0, h⟩) (iblk c V 5 ⟨0, h⟩) (iblk c V 6 ⟨0, h⟩) k6_pay3
  | n + 1, h => accStep (iblk c V 0 ⟨n + 1, h⟩) (iblk c V 1 ⟨n + 1, h⟩) (iblk c V 2 ⟨n + 1, h⟩) (iblk c V 3 ⟨n + 1, h⟩) (iblk c V 4 ⟨n + 1, h⟩) (iblk c V 5 ⟨n + 1, h⟩) (iblk c V 6 ⟨n + 1, h⟩) (acc c V n (Nat.lt_of_succ_lt h))

theorem acc_zero (c : Dev nD) (V : (b : Ref sig .tc) → Buf (Elt F) ((c : Thread nD τ).loc b)) (t : Fin cfg6.N) (h : t.val = 0) :
    acc c V t.val t.isLt = accStep (iblk c V 0 t) (iblk c V 1 t) (iblk c V 2 t) (iblk c V 3 t) (iblk c V 4 t) (iblk c V 5 t) (iblk c V 6 t) k6_pay3 := by
  obtain ⟨n, hn⟩ := t
  cases n with
  | zero => rfl
  | succ n => exact absurd h (Nat.succ_ne_zero n)

theorem acc_pos (c : Dev nD) (V : (b : Ref sig .tc) → Buf (Elt F) ((c : Thread nD τ).loc b)) (t : Fin cfg6.N) (h : t.val ≠ 0) :
    acc c V t.val t.isLt = accStep (iblk c V 0 t) (iblk c V 1 t) (iblk c V 2 t) (iblk c V 3 t) (iblk c V 4 t) (iblk c V 5 t) (iblk c V 6 t) (acc c V (t.val - 1) (Nat.lt_of_le_of_lt (Nat.sub_le _ _) t.isLt)) := by
  obtain ⟨n, hn⟩ := t
  cases n with
  | zero => exact absurd rfl h
  | succ n => rfl

/-- The region's invariant before position `n`: the scratch that carries the running sums — at anything before the
    first point, at `acc` of the point before afterwards — beside whatever the caller threads through (`R`). -/
def PhiS (c : Dev nD) (V : (b : Ref sig .tc) → Buf (Elt F) ((c : Thread nD τ).loc b)) (R : sProp 𝕄) : (n : ℕ) → n ≤ cfg6.N → sProp 𝕄
  | 0, _ => iprop((∃ d, owns (c : Thread nD τ) (Memref.whole cc6_scratch0) fullShare d) ∗ R)
  | n + 1, h => iprop(owns (c : Thread nD τ) (Memref.whole cc6_scratch0) fullShare (acc c V n h) ∗ R)

theorem PhiS_zero (c : Dev nD) (V : (b : Ref sig .tc) → Buf (Elt F) ((c : Thread nD τ).loc b)) (R : sProp 𝕄) (n : ℕ) (h : n ≤ cfg6.N) (hz : n = 0) :
    PhiS c V R n h = iprop((∃ d, owns (c : Thread nD τ) (Memref.whole cc6_scratch0) fullShare d) ∗ R) := by
  subst hz; rfl

theorem PhiS_pos (c : Dev nD) (V : (b : Ref sig .tc) → Buf (Elt F) ((c : Thread nD τ).loc b)) (R : sProp 𝕄) (n : ℕ) (h : n ≤ cfg6.N) (hz : n ≠ 0) :
    PhiS c V R n h = iprop(owns (c : Thread nD τ) (Memref.whole cc6_scratch0) fullShare (acc c V (n - 1) (by omega)) ∗ R) := by
  cases n with
  | zero => exact absurd rfl hz
  | succ n => rfl

/-- The proof data of the region on core `c`, from the buffers `V` at its entry: each input's buffer keeps its block;
    the output's buffer, at the one point that stores into it (the last), holds the head of the running sums. The
    invariant is `PhiS`; what the core owes `O` does not change from point to point. -/
def dat (c : Dev nD) (V : (b : Ref sig .tc) → Buf (Elt F) ((c : Thread nD τ).loc b)) (R : sProp 𝕄) (O : CellTallies nD τ sig Ix)
    (Rc : Set (SemLoc sig × Ix)) :
    Dat τ (Elt F) Ix Name U Lvl cfg6 c where
  A w := V (Pipeline.arrRef spec6 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => iblk c V 9 t
    | ⟨10, _⟩ => iblk c V 10 t
    | ⟨11, _⟩ => headOut (acc c V t.val t.isLt) (iblk c V 7 t) (iblk c V 8 t) (iblk c V 9 t) (iblk c V 10 t)
  Φ t := PhiS c V R t.val (Nat.le_of_lt_succ t.isLt)
  q _ := fullShare
  owed _ := O
  recorded _ := Rc

section Obligation

variable (𝒱₀ : Variants) (ι : Ix) (c : Dev nD) (V : (b : Ref sig .tc) → Buf (Elt F) ((c : Thread nD τ).loc b))
  (R : sProp (MT nD τ sig Ix (Elt F) Name U Lvl)) (O : CellTallies nD τ sig Ix)
  (Rc : Set (SemLoc sig × Ix))

/-- The proof data's arrays are the entry contents (the definition projected, `V` never unfolded). -/
theorem A_eq (w : Fin cfg6.W) : (dat (F := F) (Name := Name) (U := U) (Lvl := Lvl) c V R O Rc).A w = V (Pipeline.arrRef spec6 w) := by
  dsimp only [dat]

/-- The invariant at a point's start and end, restated at `t.val`. -/
theorem Phi_castSucc (t : Fin cfg6.N) : (dat (F := F) (Name := Name) (U := U) (Lvl := Lvl) c V R O Rc).Φ t.castSucc = PhiS c V R t.val (Nat.le_of_lt t.isLt) := by
  dsimp only [dat]; simp only [Fin.coe_castSucc]
theorem Phi_succ (t : Fin cfg6.N) : (dat (F := F) (Name := Name) (U := U) (Lvl := Lvl) c V R O Rc).Φ t.succ
    = iprop(owns (c : Thread nD τ) (Memref.whole cc6_scratch0) fullShare (acc c V t.val t.isLt) ∗ R) := rfl

/-- What the body leaves, window by window. -/
theorem after_0 (t : Fin cfg6.N) : (dat (F := F) (Name := Name) (U := U) (Lvl := Lvl) c V R O Rc).after 0 t = iblk c V 0 t := by dsimp only [dat]
theorem after_1 (t : Fin cfg6.N) : (dat (F := F) (Name := Name) (U := U) (Lvl := Lvl) c V R O Rc).after 1 t = iblk c V 1 t := by dsimp only [dat]
theorem after_2 (t : Fin cfg6.N) : (dat (F := F) (Name := Name) (U := U) (Lvl := Lvl) c V R O Rc).after 2 t = iblk c V 2 t := by dsimp only [dat]
theorem after_3 (t : Fin cfg6.N) : (dat (F := F) (Name := Name) (U := U) (Lvl := Lvl) c V R O Rc).after 3 t = iblk c V 3 t := by dsimp only [dat]
theorem after_4 (t : Fin cfg6.N) : (dat (F := F) (Name := Name) (U := U) (Lvl := Lvl) c V R O Rc).after 4 t = iblk c V 4 t := by dsimp only [dat]
theorem after_5 (t : Fin cfg6.N) : (dat (F := F) (Name := Name) (U := U) (Lvl := Lvl) c V R O Rc).after 5 t = iblk c V 5 t := by dsimp only [dat]
theorem after_6 (t : Fin cfg6.N) : (dat (F := F) (Name := Name) (U := U) (Lvl := Lvl) c V R O Rc).after 6 t = iblk c V 6 t := by dsimp only [dat]
theorem after_7 (t : Fin cfg6.N) : (dat (F := F) (Name := Name) (U := U) (Lvl := Lvl) c V R O Rc).after 7 t = iblk c V 7 t := by dsimp only [dat]
theorem after_8 (t : Fin cfg6.N) : (dat (F := F) (Name := Name) (U := U) (Lvl := Lvl) c V R O Rc).after 8 t = iblk c V 8 t := by dsimp only [dat]
theorem after_9 (t : Fin cfg6.N) : (dat (F := F) (Name := Name) (U := U) (Lvl := Lvl) c V R O Rc).after 9 t = iblk c V 9 t := by dsimp only [dat]
theorem after_10 (t : Fin cfg6.N) : (dat (F := F) (Name := Name) (U := U) (Lvl := Lvl) c V R O Rc).after 10 t = iblk c V 10 t := by dsimp only [dat]
theorem after_11 (t : Fin cfg6.N) : (dat (F := F) (Name := Name) (U := U) (Lvl := Lvl) c V R O Rc).after 11 t
    = headOut (acc c V t.val t.isLt) (iblk c V 7 t) (iblk c V 8 t) (iblk c V 9 t) (iblk c V 10 t) := by dsimp only [dat]

/-- Each input's current buffer holds its block at every point, fetched there or not. -/
theorem before_0 (t : Fin cfg6.N) (d) : (dat (F := F) (Name := Name) (U := U) (Lvl := Lvl) c V R O Rc).before 0 t d = iblk c V 0 t :=
  ((dat (F := F) (Name := Name) (U := U) (Lvl := Lvl) c V R O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg6.N) (d) : (dat (F := F) (Name := Name) (U := U) (Lvl := Lvl) c V R O Rc).before 1 t d = iblk c V 1 t :=
  ((dat (F := F) (Name := Name) (U := U) (Lvl := Lvl) c V R O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg6.N) (d) : (dat (F := F) (Name := Name) (U := U) (Lvl := Lvl) c V R O Rc).before 2 t d = iblk c V 2 t :=
  ((dat (F := F) (Name := Name) (U := U) (Lvl := Lvl) c V R O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg6.N) (d) : (dat (F := F) (Name := Name) (U := U) (Lvl := Lvl) c V R O Rc).before 3 t d = iblk c V 3 t :=
  ((dat (F := F) (Name := Name) (U := U) (Lvl := Lvl) c V R O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg6.N) (d) : (dat (F := F) (Name := Name) (U := U) (Lvl := Lvl) c V R O Rc).before 4 t d = iblk c V 4 t :=
  ((dat (F := F) (Name := Name) (U := U) (Lvl := Lvl) c V R O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg6.N) (d) : (dat (F := F) (Name := Name) (U := U) (Lvl := Lvl) c V R O Rc).before 5 t d = iblk c V 5 t :=
  ((dat (F := F) (Name := Name) (U := U) (Lvl := Lvl) c V R O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg6.N) (d) : (dat (F := F) (Name := Name) (U := U) (Lvl := Lvl) c V R O Rc).before 6 t d = iblk c V 6 t :=
  ((dat (F := F) (Name := Name) (U := U) (Lvl := Lvl) c V R O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg6.N) (d) : (dat (F := F) (Name := Name) (U := U) (Lvl := Lvl) c V R O Rc).before 7 t d = iblk c V 7 t :=
  ((dat (F := F) (Name := Name) (U := U) (Lvl := Lvl) c V R O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg6.N) (d) : (dat (F := F) (Name := Name) (U := U) (Lvl := Lvl) c V R O Rc).before 8 t d = iblk c V 8 t :=
  ((dat (F := F) (Name := Name) (U := U) (Lvl := Lvl) c V R O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (t : Fin cfg6.N) (d) : (dat (F := F) (Name := Name) (U := U) (Lvl := Lvl) c V R O Rc).before 9 t d = iblk c V 9 t :=
  ((dat (F := F) (Name := Name) (U := U) (Lvl := Lvl) c V R O Rc).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (t : Fin cfg6.N) (d) : (dat (F := F) (Name := Name) (U := U) (Lvl := Lvl) c V R O Rc).before 10 t d = iblk c V 10 t :=
  ((dat (F := F) (Name := Name) (U := U) (Lvl := Lvl) c V R O Rc).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V R O Rc

/-- What the body is called with at point `t`, the windows one by one, -/
def bodyPre (t : Fin cfg6.N) : sProp 𝕄 :=
  iprop((𝔡).Φ t.castSucc ∗ (𝔡).owesAt ι t.castSucc
    ∗ (∃ d, owns (c : Thread nD τ) (st6_0 t) fullShare ((𝔡).before 0 t d))
    ∗ (∃ d, owns (c : Thread nD τ) (st6_1 t) fullShare ((𝔡).before 1 t d))
    ∗ (∃ d, owns (c : Thread nD τ) (st6_2 t) fullShare ((𝔡).before 2 t d))
    ∗ (∃ d, owns (c : Thread nD τ) (st6_3 t) fullShare ((𝔡).before 3 t d))
    ∗ (∃ d, owns (c : Thread nD τ) (st6_4 t) fullShare ((𝔡).before 4 t d))
    ∗ (∃ d, owns (c : Thread nD τ) (st6_5 t) fullShare ((𝔡).before 5 t d))
    ∗ (∃ d, owns (c : Thread nD τ) (st6_6 t) fullShare ((𝔡).before 6 t d))
    ∗ (∃ d, owns (c : Thread nD τ) (st6_7 t) fullShare ((𝔡).before 7 t d))
    ∗ (∃ d, owns (c : Thread nD τ) (st6_8 t) fullShare ((𝔡).before 8 t d))
    ∗ (∃ d, owns (c : Thread nD τ) (st6_9 t) fullShare ((𝔡).before 9 t d))
    ∗ (∃ d, owns (c : Thread nD τ) (st6_10 t) fullShare ((𝔡).before 10 t d))
    ∗ (∃ d, owns (c : Thread nD τ) (st6_11 t) fullShare ((𝔡).before 11 t d)))

/-- and what it returns. -/
def bodyPost (t : Fin cfg6.N) : sProp 𝕄 :=
  iprop((𝔡).Φ t.succ ∗ (𝔡).owesAt ι t.succ
    ∗ (𝔡).leavesExact 0 t
    ∗ (𝔡).leavesExact 1 t
    ∗ (𝔡).leavesExact 2 t
    ∗ (𝔡).leavesExact 3 t
    ∗ (𝔡).leavesExact 4 t
    ∗ (𝔡).leavesExact 5 t
    ∗ (𝔡).leavesExact 6 t
    ∗ (𝔡).leavesExact 7 t
    ∗ (𝔡).leavesExact 8 t
    ∗ (𝔡).leavesExact 9 t
    ∗ (𝔡).leavesExact 10 t
    ∗ (𝔡).leavesExact 11 t)

/-- An input window is live everywhere: the body leaves its block. -/
theorem leaves_0 (t : Fin cfg6.N) : (𝔡).leavesExact 0 t = owns (c : Thread nD τ) (st6_0 t) fullShare (iblk c V 0 t) := by
  rw [← after_0 c V R O Rc t]
theorem leaves_1 (t : Fin cfg6.N) : (𝔡).leavesExact 1 t = owns (c : Thread nD τ) (st6_1 t) fullShare (iblk c V 1 t) := by
  rw [← after_1 c V R O Rc t]
theorem leaves_2 (t : Fin cfg6.N) : (𝔡).leavesExact 2 t = owns (c : Thread nD τ) (st6_2 t) fullShare (iblk c V 2 t) := by
  rw [← after_2 c V R O Rc t]
theorem leaves_3 (t : Fin cfg6.N) : (𝔡).leavesExact 3 t = owns (c : Thread nD τ) (st6_3 t) fullShare (iblk c V 3 t) := by
  rw [← after_3 c V R O Rc t]
theorem leaves_4 (t : Fin cfg6.N) : (𝔡).leavesExact 4 t = owns (c : Thread nD τ) (st6_4 t) fullShare (iblk c V 4 t) := by
  rw [← after_4 c V R O Rc t]
theorem leaves_5 (t : Fin cfg6.N) : (𝔡).leavesExact 5 t = owns (c : Thread nD τ) (st6_5 t) fullShare (iblk c V 5 t) := by
  rw [← after_5 c V R O Rc t]
theorem leaves_6 (t : Fin cfg6.N) : (𝔡).leavesExact 6 t = owns (c : Thread nD τ) (st6_6 t) fullShare (iblk c V 6 t) := by
  rw [← after_6 c V R O Rc t]
theorem leaves_7 (t : Fin cfg6.N) : (𝔡).leavesExact 7 t = owns (c : Thread nD τ) (st6_7 t) fullShare (iblk c V 7 t) := by
  rw [← after_7 c V R O Rc t]
theorem leaves_8 (t : Fin cfg6.N) : (𝔡).leavesExact 8 t = owns (c : Thread nD τ) (st6_8 t) fullShare (iblk c V 8 t) := by
  rw [← after_8 c V R O Rc t]
theorem leaves_9 (t : Fin cfg6.N) : (𝔡).leavesExact 9 t = owns (c : Thread nD τ) (st6_9 t) fullShare (iblk c V 9 t) := by
  rw [← after_9 c V R O Rc t]
theorem leaves_10 (t : Fin cfg6.N) : (𝔡).leavesExact 10 t = owns (c : Thread nD τ) (st6_10 t) fullShare (iblk c V 10 t) := by
  rw [← after_10 c V R O Rc t]

set_option maxHeartbeats 2000000 in
/-- The body at any point: the inputs' buffers hold their blocks; the point is the first, the last, or neither, and the
    matching run applies; the invariant hands the body the scratch at what the point before left (at anything at the
    first point) and takes it back at this point's running sums; what the core owes passes through unread. -/
theorem sound_body (t : Fin cfg6.N) :
    bodyPre ι c V R O Rc t ⊢ wp frame (wpE (defs₀ (F := F)) 𝒱₀ c none) Set.univ (bodyAt6 t) (fun _ => bodyPost ι c V R O Rc t) := by
  unfold bodyPre bodyPost bodyAt6
  simp only [before_0, before_1, before_2, before_3, before_4, before_5, before_6, before_7, before_8, before_9, before_10, leaves_0, leaves_1, leaves_2, leaves_3, leaves_4, leaves_5, leaves_6, leaves_7, leaves_8, leaves_9, leaves_10]
  rw [show (𝔡).owesAt ι t.succ = (𝔡).owesAt ι t.castSucc from rfl, Phi_succ, Phi_castSucc]
  have hN : t.val < 25 := lt_of_lt_of_eq t.isLt N_eq
  by_cases h0 : t.val = 0
  · have h24 : t.val ≠ 24 := by omega
    rw [PhiS_zero c V R _ _ h0, Dat.leavesExact_idle (𝔡) 11 t (idle_11 t h24) (noFlush_11 t h24), acc_zero c V t h0]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA 𝒱₀ c Set.univ (grid6.coords t) ((hcond1 t).mpr h0) (fun e => h24 ((hcond2 t).mp e)) _ _ _ _ _ _ _ _ _ _ _ _ _ _ _ _ _ _ _ _ _ _ _ _ _ _
      (iblk c V 0 t) (iblk c V 1 t) (iblk c V 2 t) (iblk c V 3 t) (iblk c V 4 t) (iblk c V 5 t) (iblk c V 6 t) (iblk c V 7 t) (iblk c V 8 t) (iblk c V 9 t) (iblk c V 10 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, H12⟩
    isplitl [H12 HR]
    · isplitl [H12]; · iexact H12
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h24 : t.val = 24
    · rw [PhiS_pos c V R _ _ h0, acc_pos c V t h0,
        show (𝔡).leavesExact 11 t = owns (c : Thread nD τ) (st6_11 t) fullShare ((𝔡).after 11 t) from by
          unfold Dat.leavesExact; rw [live_11 t h24], after_11, acc_pos c V t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runC 𝒱₀ c Set.univ (grid6.coords t) (fun e => h0 ((hcond1 t).mp e)) ((hcond2 t).mpr h24) _ _ _ _ _ _ _ _ _ _ _ _ _ _ _ _ _ _ _ _ _ _ _ _ _ _
        (iblk c V 0 t) (iblk c V 1 t) (iblk c V 2 t) (iblk c V 3 t) (iblk c V 4 t) (iblk c V 5 t) (iblk c V 6 t) (iblk c V 7 t) (iblk c V 8 t) (iblk c V 9 t) (iblk c V 10 t) (acc c V (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iintro ⟨H0, H1, H2, H3, H4, H5, H6, H7, H8, H9, H10, H11, H12⟩
      isplitl [H12 HR]
      · isplitl [H12]; · iexact H12
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_pos c V R _ _ h0, Dat.leavesExact_idle (𝔡) 11 t (idle_11 t h24) (noFlush_11 t h24), acc_pos c V t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB 𝒱₀ c Set.univ (grid6.coords t) (fun e => h0 ((hcond1 t).mp e)) (fun e => h24 ((hcond2 t).mp e)) _ _ _ _ _ _ _ _ _ _ _ _ _ _ _ _ _ _ _ _ _ _ _ _ _ _
        (iblk c V 0 t) (iblk c V 1 t) (iblk c V 2 t) (iblk c V 3 t) (iblk c V 4 t) (iblk c V 5 t) (iblk c V 6 t) (iblk c V 7 t) (iblk c V 8 t) (iblk c V 9 t) (iblk c V 10 t) _ (acc c V (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, H12⟩
      isplitl [H12 HR]
      · isplitl [H12]; · iexact H12
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation for the region, at every point. -/
theorem body_obligation : BodyObligation (dat (F := F) (Name := Name) (U := U) (Lvl := Lvl) c V R O Rc) (defs₀ (F := F)) 𝒱₀ ι Set.univ := fun t => by
  rw [bigSep_W6, bigSep_W6]
  exact sound_body 𝒱₀ ι c V R O Rc t

end Obligation

/-! ## Entering and leaving: the scratch among the scoped buffers -/

section InOut

variable (c : Dev nD) (V : (b : Ref sig .tc) → Buf (Elt F) ((c : Thread nD τ).loc b)) (O : CellTallies nD τ sig Ix)
  (Rc : Set (SemLoc sig × Ix))

/-- At the region's entry the scoped buffers no window stages are the scratch, at anything, beside the others: the
    invariant before the first point, with those others threaded through. -/
theorem Phi_in : (Pipeline.scopedRest (Ix := Ix) (Name := Name) (U := U) (Lvl := Lvl) (Val := Elt F) spec6 c : sProp 𝕄)
    ⊢ (dat (F := F) (Name := Name) (U := U) (Lvl := Lvl) c V (Pipeline.scopedRestBut (Ix := Ix) (Name := Name) (U := U) (Lvl := Lvl) (Val := Elt F) spec6 c [cc6_scratch0]) O Rc).Φ 0 := by
  rw [scopedRest6_split (Ix := Ix) (Val := Elt F) (Name := Name) (U := U) (Lvl := Lvl) c]
  show _ ⊢ iprop((∃ d, owns (c : Thread nD τ) (Memref.whole cc6_scratch0) fullShare d) ∗ _)
  simp only [owns_whole]
  exact .rfl

/-- After the last point the invariant gives them back: the running sums' contents are forgotten. -/
theorem Phi_out : (dat (F := F) (Name := Name) (U := U) (Lvl := Lvl) c V (Pipeline.scopedRestBut (Ix := Ix) (Name := Name) (U := U) (Lvl := Lvl) (Val := Elt F) spec6 c [cc6_scratch0]) O Rc).Φ (Fin.last cfg6.N)
    ⊢ (Pipeline.scopedRest (Ix := Ix) (Name := Name) (U := U) (Lvl := Lvl) (Val := Elt F) spec6 c : sProp 𝕄) := by
  rw [scopedRest6_split (Ix := Ix) (Val := Elt F) (Name := Name) (U := U) (Lvl := Lvl) c,
    show (dat (F := F) (Name := Name) (U := U) (Lvl := Lvl) c V (Pipeline.scopedRestBut (Ix := Ix) (Name := Name) (U := U) (Lvl := Lvl) (Val := Elt F) spec6 c [cc6_scratch0]) O Rc).Φ (Fin.last cfg6.N)
      = PhiS c V _ (Fin.last cfg6.N).val (Nat.le_of_lt_succ (Fin.last cfg6.N).isLt) from rfl,
    PhiS_pos c V _ _ _ (by rw [Fin.val_last, N_eq]; decide)]
  simp only [owns_whole]
  iintro ⟨HS, HR⟩
  isplitl [HS]
  · iexists _; iexact HS
  iexact HR

end InOut

end Cert.KernelIdeal.Head

end
-- ==== Proof.RegionWaits.lean ====
/-
  The wait evidence a TensorCore region needs inside a program that also launches SparseCore kernels.

  During such a region the TensorCore still owes the start signals of the SparseCore calls to come. Every unit
  of that debt sits at a call's index (`some q`), at a positive level; the pipeline's own waits on its staging
  cells are recorded at the index `none`, level 0. So each of those waits sits strictly below everything the
  core owes, whatever the constant debt is, provided it has nothing at `none`.
-/
import Idealize.ShloMosaic.Lib.SparseCore.Threads
import Idealize.ShloMosaic.Lib.Pipeline.Sound

noncomputable section

namespace Cert.Proof.RegionWaits

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Rounds

variable {nD : Nat} {τ : Topo} {sig : RefSig} {Val : EltTy → Type} {Λ : Labels} {Q : Nat}
variable {Name : Type} [DecidableEq Name] {U : Type} [URA U]
variable {Λ₀ : Labels} {P : Type}

/-- What the TensorCore owes before SparseCore call `n` has nothing at the index `none`: every summand is a
    unit of some call's start signal, at that call's index. -/
theorem Otc_none (K : SparseCore.Cfg τ sig Λ Q) (d : Dev nD) (n : ℕ) (g : GSem nD τ sig) : K.Otc d n g none = 0 := by
  by_contra h
  have := SparseCore.Cfg.lev_of_Otc_pos (K := K) (Nat.pos_of_ne_zero h)
  rw [SparseCore.Cfg.lev_none] at this
  omega

/-- The pipeline's waits on its staging cells, at index `none`, are admissible at every point for proof data whose
    debt is one constant `O` with nothing at `none`: from the level facts alone. -/
theorem cellsWaits_of_none (K : SparseCore.Cfg τ sig Λ Q) (cfgs : P → Pipeline.Cfg sig Λ₀)
    (dats : (p : P) → (c : Dev nD) → Pipeline.Dat τ Val (HIx Q) Name U ℕ (cfgs p) c) (p : P) (c : Dev nD)
    (O : CellTallies nD τ sig (HIx Q)) (howed : ∀ t, (dats p c).owed t = O) (hO : ∀ g, O g none = 0) :
    (levAts K.L K.lev : sProp (MT nD τ sig (HIx Q) Val Name U ℕ)) ⊢ Pipeline.cellsWaits cfgs dats none p c :=
  Pipeline.cellsWaits_intro cfgs dats none p c fun w s t => by
    rw [howed t]; exact K.mayWait_none _ hO

end Cert.Proof.RegionWaits

end
-- ==== Proof.RegionSegs.lean ====
/-
  The four TensorCore regions as records of the several-regions rule, over ONE thread state: every unscoped buffer
  of the TensorCore held at a valuation, what the core owes (its recorded pairs within a bound), and a rest that
  rides along. A region is entered at a valuation `V` and left at `V` updated at the region's arrays to what the
  pipeline leaves there. The core owes the same throughout a region: the start signals of the SparseCore calls still
  to come, all at a call's index, while the pipeline's waits on its staging cells are recorded at the index `none`.
-/
import proofs.«215677_g32066225832048_cont_9to1_32_28_alg».proof.Proof.LaunchBase
import proofs.«215677_g32066225832048_cont_9to1_32_28_alg».proof.Proof.EmbedRegion
import proofs.«215677_g32066225832048_cont_9to1_32_28_alg».proof.Proof.UpdateRegion
import proofs.«215677_g32066225832048_cont_9to1_32_28_alg».proof.Proof.HeadRegion
import proofs.«215677_g32066225832048_cont_9to1_32_28_alg».proof.Proof.RegionWaits
import Idealize.ShloMosaic.Lib.Pipeline.Regions
import Idealize.ShloMosaic.Lib.Pipeline.RegionsLoop
import Idealize.ShloMosaic.Lib.Pipeline.FrameSuffix

set_option maxRecDepth 16384

noncomputable section

namespace Cert.Proof.IdealLaunch

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig (HIx 3) (Elt F) ℕ UU ℕ

/-! ## The proof data family and the thread state -/

/-- No region prefetches a table: the admissible contents are the empty ones. -/
abbrev adm : (p : Fin 4) → (pcfgs (F := F) p).Adm := fun p => (cfgs p).toPCfg_adm

/-- A valuation read at the TensorCore's references (what a region's proof data take). -/
abbrev Vtc (V : Dev nD → Valuation τ sig (Elt F)) (c : Dev nD) : (b : Ref sig .tc) → Buf (Elt F) ((c : Thread nD τ).loc b) := fun b => V c b

/-- What the core owes, its recorded pairs within the bound `Rc`. -/
def Owes (O : Dev nD → CellTallies nD τ sig (HIx 3)) (Rc : Dev nD → Set (SemLoc sig × HIx 3)) (c : Dev nD) : sProp 𝕄 :=
  iprop(∃ W : Waits sig (HIx 3), ⌜(↑W : Set (SemLoc sig × HIx 3)) ⊆ Rc c⌝ ∗ owes (c.tc : Thread nD τ) (O c) W)

/-- The regions' proof data, by pipeline, all read off ONE valuation `V c` (region `p` uses it as its entry contents):
    what each holds besides its windows is the scoped buffers no window of it stages (for the last region: those but
    its scratch, which its invariant carries by name); what the core owes `O c` and the bound `Rc c` on its recorded
    pairs are constant through a region. -/
def pdatsAt (V : Dev nD → Valuation τ sig (Elt F)) (O : Dev nD → CellTallies nD τ sig (HIx 3)) (Rc : Dev nD → Set (SemLoc sig × HIx 3)) :
    (p : Fin 4) → (c : Dev nD) → Dat τ (Elt F) (HIx 3) ℕ UU ℕ (Pipeline.pin (pcfgs (F := F)) adm p) c
  | ⟨0, _⟩ => fun c => Cert.KernelIdeal.Embed.dat c (Vtc V c) (Pipeline.scopedRest (Ix := HIx 3) (Name := ℕ) (U := UU) (Lvl := ℕ) (Val := Elt F) spec0 c) (O c) (Rc c)
  | ⟨1, _⟩ => fun c => Cert.KernelIdeal.Upd2.dat c (Vtc V c) (Pipeline.scopedRest (Ix := HIx 3) (Name := ℕ) (U := UU) (Lvl := ℕ) (Val := Elt F) spec2 c) (O c) (Rc c)
  | ⟨2, _⟩ => fun c => Cert.KernelIdeal.Upd4.dat c (Vtc V c) (Pipeline.scopedRest (Ix := HIx 3) (Name := ℕ) (U := UU) (Lvl := ℕ) (Val := Elt F) spec4 c) (O c) (Rc c)
  | ⟨3, _⟩ => fun c => Cert.KernelIdeal.Head.dat c (Vtc V c)
      (Pipeline.scopedRestBut (Ix := HIx 3) (Name := ℕ) (U := UU) (Lvl := ℕ) (Val := Elt F) spec6 c [cc6_scratch0]) (O c) (Rc c)

/-! ## Region 0 (custom_call 0) -/

/-- The TensorCore's buffers when region 0 is left: its arrays at what the pipeline leaves (the inputs as entered, each
    output's write-backs folded), every other buffer as entered. -/
def Wout0 (V : Dev nD → Valuation τ sig (Elt F)) (O : Dev nD → CellTallies nD τ sig (HIx 3)) (Rc : Dev nD → Set (SemLoc sig × HIx 3))
    (c : Dev nD) : Valuation τ sig (Elt F) :=
  Pipeline.withArrays spec0 c (V c) fun w => (pdatsAt V O Rc 0 c).arrAt w cfg0.N

theorem Wout0_arr (V : Dev nD → Valuation τ sig (Elt F)) (O : Dev nD → CellTallies nD τ sig (HIx 3)) (Rc : Dev nD → Set (SemLoc sig × HIx 3))
    (c : Dev nD) (w : Fin cfg0.W) :
    Wout0 V O Rc c (Proc.devRef .tc (Pipeline.arrRef spec0 w)) = (pdatsAt V O Rc 0 c).arrAt w cfg0.N := by
  unfold Wout0; exact Pipeline.withArrays_arr spec0 launch0.win.arr_inj c _ _ w

theorem Wout0_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec0 w ≠ b) :
    Wout0 V O Rc c (Proc.devRef .tc b) = V c (Proc.devRef .tc b) := by
  unfold Wout0; exact Pipeline.withArrays_of_ne spec0 c _ _ b hb

/-- Every output window's array of region 0 is among these. -/
theorem outs0_mem : ∀ w : Fin cfg0.W, (cfg0.win w).isOut ≠ false → Pipeline.arrRef spec0 w ∈ [main_v24_0, main_v24_1] := by decide

/-- Away from the region's OUTPUT arrays the exit valuation is the entry one: a buffer no window of the region touches
    is as entered, and an input window's array ends as it began. -/
theorem Wout0_off (V : Dev nD → Valuation τ sig (Elt F)) (O : Dev nD → CellTallies nD τ sig (HIx 3)) (Rc : Dev nD → Set (SemLoc sig × HIx 3))
    (c : Dev nD) (r : Ref sig .tc) (hr : r ∉ [main_v24_0, main_v24_1]) :
    Wout0 V O Rc c (Proc.devRef .tc r) = V c (Proc.devRef .tc r) := by
  by_cases h : ∃ w, Pipeline.arrRef spec0 w = r
  · obtain ⟨w, rfl⟩ := h
    by_cases hw : (cfg0.win w).isOut = false
    · rw [Wout0_arr, (pdatsAt V O Rc 0 c).arrAt_in w hw _]
      exact Cert.KernelIdeal.Embed.A_eq c (Vtc V c) _ (O c) (Rc c) w
    · exact absurd (outs0_mem w hw) hr
  · exact Wout0_of_ne V O Rc c r fun w e => h ⟨w, e⟩

set_option backward.isDefEq.respectTransparency.types false in
/-- REGION 0 over the thread state "every unscoped buffer held at a valuation, what the core owes, the rest": entered at
    `V`, left at `Wout0`. Its arrays are split out of the unscoped buffers at the entry and put back at the exit; the
    scoped buffers no window stages pass through the invariant; what the core owes passes through, its recorded pairs
    staying within `Rc`; the kernel has no semaphore of its own. -/
def seg0 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (0 : Fin 4) where
  win := launch0.win.to₀
  block_pos := launch0.block_pos
  stage_whole := launch0.stage_whole
  K := PEmpty
  osem k := k.elim
  ho := Pipeline.OwnSemFacts.none _
  hbody c := (Cert.KernelIdeal.Embed.body_obligation 𝒱₀ none c (Vtc V c) (Pipeline.scopedRest (Ix := HIx 3) (Name := ℕ) (U := UU) (Lvl := ℕ) (Val := Elt F) spec0 c) (O c) (Rc c)).loose
  hwaits c := Cert.Proof.RegionWaits.cellsWaits_of_none (K (F := F)) (Pipeline.pin (pcfgs (F := F)) adm) (pdatsAt V O Rc) 0 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout0 V O Rc c) ∗ Owes O Rc c ∗ Rest c)
  X c := BI.emp
  Y c := BI.emp
  Z c := iprop(Pipeline.unscopedRest (Ix := HIx 3) (Name := ℕ) (U := UU) (Lvl := ℕ) spec0 c (Vtc V c) ∗ Rest c)
  hentry c := by
    rw [Pipeline.ownSems0_none]
    have hsplit := Pipeline.arrays_of_unscopedBufs (p := 0) (pcfgs (F := F)) adm (pdatsAt V O Rc) launch0.win launch0.arr_whole c
      ((pdatsAt V O Rc 0 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 0 c).Φ 0 = Pipeline.scopedRest (Ix := HIx 3) (Name := ℕ) (U := UU) (Lvl := ℕ) (Val := Elt F) spec0 c from rfl]
    iintro ⟨-, -, Hr⟩
    iexact Hr
  hout c := by
    rw [Pipeline.ownSems0_none, show (pdatsAt V O Rc 0 c).Φ (Fin.last _) = Pipeline.scopedRest (Ix := HIx 3) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch0.win launch0.arr_whole c (pdatsAt V O Rc) ((pdatsAt V O Rc 0 c).share_full fun _ => rfl)
      (Vtc V c) (Vtc (Wout0 V O Rc) c) ((pdatsAt V O Rc 0 c).arrAt · cfg0.N) (fun w => (Wout0_arr V O Rc c w).symm)
      (fun b hb => Wout0_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg0_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg0 V O Rc Rest hO hRc).post c) -∗ wp frame (wpE (D (F := F)) 𝒱 (c.tc : Thread nD τ) none) Set.univ (k ⟨⟩) Q)
        ∗ boundary (c.tc : Thread nD τ) ∗ (seg0 V O Rc Rest hO hRc).pre c ∗ levAts (K (F := F)).L (K (F := F)).lev
        ∗ Pipeline.cellsGhost (Pipeline.pin (pcfgs (F := F)) adm) EK 0 c ∗ Pipeline.toksInit (Pipeline.pin (pcfgs (F := F)) adm) EK 0 c)
      ⊢ wp frame (wpE (D (F := F)) 𝒱 (c.tc : Thread nD τ) none) Set.univ (.op (.customCall (Pipeline.entry (0 : Fin 4)) ()) k) Q :=
  Pipeline.RegionSeg.wp (pcfgs (F := F)) adm (pdatsAt V O Rc) none cellOf_inj EK (defs₀ (F := F)) 𝒱₀ (K (F := F)).L (K (F := F)).lev
    (seg0 V O Rc Rest hO hRc) c none (fun _ h => absurd h (Option.not_mem_none _)) k Q

/-! ## Region 1 (custom_call 2) -/

/-- The TensorCore's buffers when region 1 is left: its arrays at what the pipeline leaves (the inputs as entered, each
    output's write-backs folded), every other buffer as entered. -/
def Wout2 (V : Dev nD → Valuation τ sig (Elt F)) (O : Dev nD → CellTallies nD τ sig (HIx 3)) (Rc : Dev nD → Set (SemLoc sig × HIx 3))
    (c : Dev nD) : Valuation τ sig (Elt F) :=
  Pipeline.withArrays spec2 c (V c) fun w => (pdatsAt V O Rc 1 c).arrAt w cfg2.N

theorem Wout2_arr (V : Dev nD → Valuation τ sig (Elt F)) (O : Dev nD → CellTallies nD τ sig (HIx 3)) (Rc : Dev nD → Set (SemLoc sig × HIx 3))
    (c : Dev nD) (w : Fin cfg2.W) :
    Wout2 V O Rc c (Proc.devRef .tc (Pipeline.arrRef spec2 w)) = (pdatsAt V O Rc 1 c).arrAt w cfg2.N := by
  unfold Wout2; exact Pipeline.withArrays_arr spec2 launch2.win.arr_inj c _ _ w

theorem Wout2_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec2 w ≠ b) :
    Wout2 V O Rc c (Proc.devRef .tc b) = V c (Proc.devRef .tc b) := by
  unfold Wout2; exact Pipeline.withArrays_of_ne spec2 c _ _ b hb

/-- Every output window's array of region 1 is among these. -/
theorem outs2_mem : ∀ w : Fin cfg2.W, (cfg2.win w).isOut ≠ false → Pipeline.arrRef spec2 w ∈ [main_v50_0, main_v50_1] := by decide

/-- Away from the region's OUTPUT arrays the exit valuation is the entry one: a buffer no window of the region touches
    is as entered, and an input window's array ends as it began. -/
theorem Wout2_off (V : Dev nD → Valuation τ sig (Elt F)) (O : Dev nD → CellTallies nD τ sig (HIx 3)) (Rc : Dev nD → Set (SemLoc sig × HIx 3))
    (c : Dev nD) (r : Ref sig .tc) (hr : r ∉ [main_v50_0, main_v50_1]) :
    Wout2 V O Rc c (Proc.devRef .tc r) = V c (Proc.devRef .tc r) := by
  by_cases h : ∃ w, Pipeline.arrRef spec2 w = r
  · obtain ⟨w, rfl⟩ := h
    by_cases hw : (cfg2.win w).isOut = false
    · rw [Wout2_arr, (pdatsAt V O Rc 1 c).arrAt_in w hw _]
      exact Cert.KernelIdeal.Upd2.A_eq c (Vtc V c) _ (O c) (Rc c) w
    · exact absurd (outs2_mem w hw) hr
  · exact Wout2_of_ne V O Rc c r fun w e => h ⟨w, e⟩

set_option backward.isDefEq.respectTransparency.types false in
/-- REGION 1 over the thread state "every unscoped buffer held at a valuation, what the core owes, the rest": entered at
    `V`, left at `Wout2`. Its arrays are split out of the unscoped buffers at the entry and put back at the exit; the
    scoped buffers no window stages pass through the invariant; what the core owes passes through, its recorded pairs
    staying within `Rc`; the kernel has no semaphore of its own. -/
def seg2 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (1 : Fin 4) where
  win := launch2.win.to₀
  block_pos := launch2.block_pos
  stage_whole := launch2.stage_whole
  K := PEmpty
  osem k := k.elim
  ho := Pipeline.OwnSemFacts.none _
  hbody c := (Cert.KernelIdeal.Upd2.body_obligation 𝒱₀ none c (Vtc V c) (Pipeline.scopedRest (Ix := HIx 3) (Name := ℕ) (U := UU) (Lvl := ℕ) (Val := Elt F) spec2 c) (O c) (Rc c)).loose
  hwaits c := Cert.Proof.RegionWaits.cellsWaits_of_none (K (F := F)) (Pipeline.pin (pcfgs (F := F)) adm) (pdatsAt V O Rc) 1 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout2 V O Rc c) ∗ Owes O Rc c ∗ Rest c)
  X c := BI.emp
  Y c := BI.emp
  Z c := iprop(Pipeline.unscopedRest (Ix := HIx 3) (Name := ℕ) (U := UU) (Lvl := ℕ) spec2 c (Vtc V c) ∗ Rest c)
  hentry c := by
    rw [Pipeline.ownSems0_none]
    have hsplit := Pipeline.arrays_of_unscopedBufs (p := 1) (pcfgs (F := F)) adm (pdatsAt V O Rc) launch2.win launch2.arr_whole c
      ((pdatsAt V O Rc 1 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 1 c).Φ 0 = Pipeline.scopedRest (Ix := HIx 3) (Name := ℕ) (U := UU) (Lvl := ℕ) (Val := Elt F) spec2 c from rfl]
    iintro ⟨-, -, Hr⟩
    iexact Hr
  hout c := by
    rw [Pipeline.ownSems0_none, show (pdatsAt V O Rc 1 c).Φ (Fin.last _) = Pipeline.scopedRest (Ix := HIx 3) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch2.win launch2.arr_whole c (pdatsAt V O Rc) ((pdatsAt V O Rc 1 c).share_full fun _ => rfl)
      (Vtc V c) (Vtc (Wout2 V O Rc) c) ((pdatsAt V O Rc 1 c).arrAt · cfg2.N) (fun w => (Wout2_arr V O Rc c w).symm)
      (fun b hb => Wout2_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg2_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg2 V O Rc Rest hO hRc).post c) -∗ wp frame (wpE (D (F := F)) 𝒱 (c.tc : Thread nD τ) none) Set.univ (k ⟨⟩) Q)
        ∗ boundary (c.tc : Thread nD τ) ∗ (seg2 V O Rc Rest hO hRc).pre c ∗ levAts (K (F := F)).L (K (F := F)).lev
        ∗ Pipeline.cellsGhost (Pipeline.pin (pcfgs (F := F)) adm) EK 1 c ∗ Pipeline.toksInit (Pipeline.pin (pcfgs (F := F)) adm) EK 1 c)
      ⊢ wp frame (wpE (D (F := F)) 𝒱 (c.tc : Thread nD τ) none) Set.univ (.op (.customCall (Pipeline.entry (1 : Fin 4)) ()) k) Q :=
  Pipeline.RegionSeg.wp (pcfgs (F := F)) adm (pdatsAt V O Rc) none cellOf_inj EK (defs₀ (F := F)) 𝒱₀ (K (F := F)).L (K (F := F)).lev
    (seg2 V O Rc Rest hO hRc) c none (fun _ h => absurd h (Option.not_mem_none _)) k Q

/-! ## Region 2 (custom_call 4) -/

/-- The TensorCore's buffers when region 2 is left: its arrays at what the pipeline leaves (the inputs as entered, each
    output's write-backs folded), every other buffer as entered. -/
def Wout4 (V : Dev nD → Valuation τ sig (Elt F)) (O : Dev nD → CellTallies nD τ sig (HIx 3)) (Rc : Dev nD → Set (SemLoc sig × HIx 3))
    (c : Dev nD) : Valuation τ sig (Elt F) :=
  Pipeline.withArrays spec4 c (V c) fun w => (pdatsAt V O Rc 2 c).arrAt w cfg4.N

theorem Wout4_arr (V : Dev nD → Valuation τ sig (Elt F)) (O : Dev nD → CellTallies nD τ sig (HIx 3)) (Rc : Dev nD → Set (SemLoc sig × HIx 3))
    (c : Dev nD) (w : Fin cfg4.W) :
    Wout4 V O Rc c (Proc.devRef .tc (Pipeline.arrRef spec4 w)) = (pdatsAt V O Rc 2 c).arrAt w cfg4.N := by
  unfold Wout4; exact Pipeline.withArrays_arr spec4 launch4.win.arr_inj c _ _ w

theorem Wout4_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec4 w ≠ b) :
    Wout4 V O Rc c (Proc.devRef .tc b) = V c (Proc.devRef .tc b) := by
  unfold Wout4; exact Pipeline.withArrays_of_ne spec4 c _ _ b hb

/-- Every output window's array of region 2 is among these. -/
theorem outs4_mem : ∀ w : Fin cfg4.W, (cfg4.win w).isOut ≠ false → Pipeline.arrRef spec4 w ∈ [main_v76_0, main_v76_1] := by decide

/-- Away from the region's OUTPUT arrays the exit valuation is the entry one: a buffer no window of the region touches
    is as entered, and an input window's array ends as it began. -/
theorem Wout4_off (V : Dev nD → Valuation τ sig (Elt F)) (O : Dev nD → CellTallies nD τ sig (HIx 3)) (Rc : Dev nD → Set (SemLoc sig × HIx 3))
    (c : Dev nD) (r : Ref sig .tc) (hr : r ∉ [main_v76_0, main_v76_1]) :
    Wout4 V O Rc c (Proc.devRef .tc r) = V c (Proc.devRef .tc r) := by
  by_cases h : ∃ w, Pipeline.arrRef spec4 w = r
  · obtain ⟨w, rfl⟩ := h
    by_cases hw : (cfg4.win w).isOut = false
    · rw [Wout4_arr, (pdatsAt V O Rc 2 c).arrAt_in w hw _]
      exact Cert.KernelIdeal.Upd4.A_eq c (Vtc V c) _ (O c) (Rc c) w
    · exact absurd (outs4_mem w hw) hr
  · exact Wout4_of_ne V O Rc c r fun w e => h ⟨w, e⟩

set_option backward.isDefEq.respectTransparency.types false in
/-- REGION 2 over the thread state "every unscoped buffer held at a valuation, what the core owes, the rest": entered at
    `V`, left at `Wout4`. Its arrays are split out of the unscoped buffers at the entry and put back at the exit; the
    scoped buffers no window stages pass through the invariant; what the core owes passes through, its recorded pairs
    staying within `Rc`; the kernel has no semaphore of its own. -/
def seg4 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (2 : Fin 4) where
  win := launch4.win.to₀
  block_pos := launch4.block_pos
  stage_whole := launch4.stage_whole
  K := PEmpty
  osem k := k.elim
  ho := Pipeline.OwnSemFacts.none _
  hbody c := (Cert.KernelIdeal.Upd4.body_obligation 𝒱₀ none c (Vtc V c) (Pipeline.scopedRest (Ix := HIx 3) (Name := ℕ) (U := UU) (Lvl := ℕ) (Val := Elt F) spec4 c) (O c) (Rc c)).loose
  hwaits c := Cert.Proof.RegionWaits.cellsWaits_of_none (K (F := F)) (Pipeline.pin (pcfgs (F := F)) adm) (pdatsAt V O Rc) 2 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout4 V O Rc c) ∗ Owes O Rc c ∗ Rest c)
  X c := BI.emp
  Y c := BI.emp
  Z c := iprop(Pipeline.unscopedRest (Ix := HIx 3) (Name := ℕ) (U := UU) (Lvl := ℕ) spec4 c (Vtc V c) ∗ Rest c)
  hentry c := by
    rw [Pipeline.ownSems0_none]
    have hsplit := Pipeline.arrays_of_unscopedBufs (p := 2) (pcfgs (F := F)) adm (pdatsAt V O Rc) launch4.win launch4.arr_whole c
      ((pdatsAt V O Rc 2 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 2 c).Φ 0 = Pipeline.scopedRest (Ix := HIx 3) (Name := ℕ) (U := UU) (Lvl := ℕ) (Val := Elt F) spec4 c from rfl]
    iintro ⟨-, -, Hr⟩
    iexact Hr
  hout c := by
    rw [Pipeline.ownSems0_none, show (pdatsAt V O Rc 2 c).Φ (Fin.last _) = Pipeline.scopedRest (Ix := HIx 3) (Name := ℕ) (U := UU) (Lvl := ℕ) (Val := Elt F) spec4 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch4.win launch4.arr_whole c (pdatsAt V O Rc) ((pdatsAt V O Rc 2 c).share_full fun _ => rfl)
      (Vtc V c) (Vtc (Wout4 V O Rc) c) ((pdatsAt V O Rc 2 c).arrAt · cfg4.N) (fun w => (Wout4_arr V O Rc c w).symm)
      (fun b hb => Wout4_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg4_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg4 V O Rc Rest hO hRc).post c) -∗ wp frame (wpE (D (F := F)) 𝒱 (c.tc : Thread nD τ) none) Set.univ (k ⟨⟩) Q)
        ∗ boundary (c.tc : Thread nD τ) ∗ (seg4 V O Rc Rest hO hRc).pre c ∗ levAts (K (F := F)).L (K (F := F)).lev
        ∗ Pipeline.cellsGhost (Pipeline.pin (pcfgs (F := F)) adm) EK 2 c ∗ Pipeline.toksInit (Pipeline.pin (pcfgs (F := F)) adm) EK 2 c)
      ⊢ wp frame (wpE (D (F := F)) 𝒱 (c.tc : Thread nD τ) none) Set.univ (.op (.customCall (Pipeline.entry (2 : Fin 4)) ()) k) Q :=
  Pipeline.RegionSeg.wp (pcfgs (F := F)) adm (pdatsAt V O Rc) none cellOf_inj EK (defs₀ (F := F)) 𝒱₀ (K (F := F)).L (K (F := F)).lev
    (seg4 V O Rc Rest hO hRc) c none (fun _ h => absurd h (Option.not_mem_none _)) k Q

/-! ## Region 3 (custom_call 6) -/

/-- The TensorCore's buffers when region 3 is left: its arrays at what the pipeline leaves (the inputs as entered, each
    output's write-backs folded), every other buffer as entered. -/
def Wout6 (V : Dev nD → Valuation τ sig (Elt F)) (O : Dev nD → CellTallies nD τ sig (HIx 3)) (Rc : Dev nD → Set (SemLoc sig × HIx 3))
    (c : Dev nD) : Valuation τ sig (Elt F) :=
  Pipeline.withArrays spec6 c (V c) fun w => (pdatsAt V O Rc 3 c).arrAt w cfg6.N

theorem Wout6_arr (V : Dev nD → Valuation τ sig (Elt F)) (O : Dev nD → CellTallies nD τ sig (HIx 3)) (Rc : Dev nD → Set (SemLoc sig × HIx 3))
    (c : Dev nD) (w : Fin cfg6.W) :
    Wout6 V O Rc c (Proc.devRef .tc (Pipeline.arrRef spec6 w)) = (pdatsAt V O Rc 3 c).arrAt w cfg6.N := by
  unfold Wout6; exact Pipeline.withArrays_arr spec6 launch6.win.arr_inj c _ _ w

theorem Wout6_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec6 w ≠ b) :
    Wout6 V O Rc c (Proc.devRef .tc b) = V c (Proc.devRef .tc b) := by
  unfold Wout6; exact Pipeline.withArrays_of_ne spec6 c _ _ b hb

/-- Every output window's array of region 3 is among these. -/
theorem outs6_mem : ∀ w : Fin cfg6.W, (cfg6.win w).isOut ≠ false → Pipeline.arrRef spec6 w ∈ [main_v94] := by decide

/-- Away from the region's OUTPUT arrays the exit valuation is the entry one: a buffer no window of the region touches
    is as entered, and an input window's array ends as it began. -/
theorem Wout6_off (V : Dev nD → Valuation τ sig (Elt F)) (O : Dev nD → CellTallies nD τ sig (HIx 3)) (Rc : Dev nD → Set (SemLoc sig × HIx 3))
    (c : Dev nD) (r : Ref sig .tc) (hr : r ∉ [main_v94]) :
    Wout6 V O Rc c (Proc.devRef .tc r) = V c (Proc.devRef .tc r) := by
  by_cases h : ∃ w, Pipeline.arrRef spec6 w = r
  · obtain ⟨w, rfl⟩ := h
    by_cases hw : (cfg6.win w).isOut = false
    · rw [Wout6_arr, (pdatsAt V O Rc 3 c).arrAt_in w hw _]
      exact Cert.KernelIdeal.Head.A_eq c (Vtc V c) _ (O c) (Rc c) w
    · exact absurd (outs6_mem w hw) hr
  · exact Wout6_of_ne V O Rc c r fun w e => h ⟨w, e⟩

set_option backward.isDefEq.respectTransparency.types false in
/-- REGION 3 over the thread state "every unscoped buffer held at a valuation, what the core owes, the rest": entered at
    `V`, left at `Wout6`. Its arrays are split out of the unscoped buffers at the entry and put back at the exit; the
    scoped buffers no window stages pass through the invariant; what the core owes passes through, its recorded pairs
    staying within `Rc`; the kernel has no semaphore of its own. -/
def seg6 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (3 : Fin 4) where
  win := launch6.win.to₀
  block_pos := launch6.block_pos
  stage_whole := launch6.stage_whole
  K := PEmpty
  osem k := k.elim
  ho := Pipeline.OwnSemFacts.none _
  hbody c := (Cert.KernelIdeal.Head.body_obligation 𝒱₀ none c (Vtc V c) (Pipeline.scopedRestBut (Ix := HIx 3) (Name := ℕ) (U := UU) (Lvl := ℕ) (Val := Elt F) spec6 c [cc6_scratch0]) (O c) (Rc c)).loose
  hwaits c := Cert.Proof.RegionWaits.cellsWaits_of_none (K (F := F)) (Pipeline.pin (pcfgs (F := F)) adm) (pdatsAt V O Rc) 3 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout6 V O Rc c) ∗ Owes O Rc c ∗ Rest c)
  X c := BI.emp
  Y c := BI.emp
  Z c := iprop(Pipeline.unscopedRest (Ix := HIx 3) (Name := ℕ) (U := UU) (Lvl := ℕ) spec6 c (Vtc V c) ∗ Rest c)
  hentry c := by
    rw [Pipeline.ownSems0_none]
    have hsplit := Pipeline.arrays_of_unscopedBufs (p := 3) (pcfgs (F := F)) adm (pdatsAt V O Rc) launch6.win launch6.arr_whole c
      ((pdatsAt V O Rc 3 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    refine BIBase.Entails.trans ?_ (Cert.KernelIdeal.Head.Phi_in (F := F) (Ix := HIx 3) (Name := ℕ) (U := UU) (Lvl := ℕ) c (Vtc V c) (O c) (Rc c))
    iintro ⟨-, -, Hr⟩
    iexact Hr
  hout c := by
    rw [Pipeline.ownSems0_none]
    refine BIBase.Entails.trans (Cert.KernelIdeal.Head.Phi_out (F := F) (Ix := HIx 3) (Name := ℕ) (U := UU) (Lvl := ℕ) c (Vtc V c) (O c) (Rc c)) ?_
    iintro Hr
    isplitr; · iempintro
    isplitr; · iempintro
    iexact Hr
  hexit c := by
    have hjoin := Pipeline.unscopedBufs_of_arrays (p := 3) (pcfgs (F := F)) adm (Ix := HIx 3) (Name := ℕ) (U := UU) (Lvl := ℕ)
      launch6.win launch6.arr_whole c (pdatsAt V O Rc) ((pdatsAt V O Rc 3 c).share_full fun _ => rfl)
      (Vtc V c) (Vtc (Wout6 V O Rc) c) ((pdatsAt V O Rc 3 c).arrAt · cfg6.N) (fun w => (Wout6_arr V O Rc c w).symm)
      (fun b hb => Wout6_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg6_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg6 V O Rc Rest hO hRc).post c) -∗ wp frame (wpE (D (F := F)) 𝒱 (c.tc : Thread nD τ) none) Set.univ (k ⟨⟩) Q)
        ∗ boundary (c.tc : Thread nD τ) ∗ (seg6 V O Rc Rest hO hRc).pre c ∗ levAts (K (F := F)).L (K (F := F)).lev
        ∗ Pipeline.cellsGhost (Pipeline.pin (pcfgs (F := F)) adm) EK 3 c ∗ Pipeline.toksInit (Pipeline.pin (pcfgs (F := F)) adm) EK 3 c)
      ⊢ wp frame (wpE (D (F := F)) 𝒱 (c.tc : Thread nD τ) none) Set.univ (.op (.customCall (Pipeline.entry (3 : Fin 4)) ()) k) Q :=
  Pipeline.RegionSeg.wp (pcfgs (F := F)) adm (pdatsAt V O Rc) none cellOf_inj EK (defs₀ (F := F)) 𝒱₀ (K (F := F)).L (K (F := F)).lev
    (seg6 V O Rc Rest hO hRc) c none (fun _ h => absurd h (Option.not_mem_none _)) k Q

end Cert.Proof.IdealLaunch

end
-- ==== Proof.LaunchRegion.lean ====
/-
  The TensorCore regions' rule in the form @main's composition takes it. A region's record is entered from all the
  arrays held at a valuation and what the TensorCore owes; inside a SparseCore program that debt sits in the
  TensorCore's handshake state (the start signals of the calls still to come, all at a call's index, while a
  region's waits on its staging cells are recorded at the index none, at level 0): the handshake state is opened,
  the debt lent to the region with the bound on the recorded pairs, and closed again on the region's exit. The
  region itself is a program of the pipelines' signature, lifted into the SparseCore program's.
-/
import proofs.«215677_g32066225832048_cont_9to1_32_28_alg».proof.Proof.LaunchMain
import proofs.«215677_g32066225832048_cont_9to1_32_28_alg».proof.Proof.RegionSegs

noncomputable section

namespace Cert.Proof.IdealLaunch

open Cert.KernelIdeal Cert.KernelIdeal.Gen Cert.KernelIdeal.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 3) (Elt F) ℕ UU ℕ

/-- The pairs the TensorCore of `c` may have recorded before call `n`: those at levels up to `8 n`. -/
def RcAt (n : ℕ) (c : Dev nD) : Set (SemLoc sig × HIx 3) := {pr | (K (F := F)).lev (SparseCore.T c, pr.1) pr.2 ≤ 8 * n}

omit [FloatOps F] [Named F] [∀ e, Nonempty (Elt F e)] in
/-- A staging cell's pair, at the index `none`, sits at level 0: within every such bound. -/
theorem hRcAt (n : ℕ) (c : Dev nD) (sm : DmaSem sig) : (SemLoc.dma sm, (none : HIx 3)) ∈ RcAt (F := F) n c := by
  show (K (F := F)).lev _ none ≤ _
  rw [SparseCore.Cfg.lev_none]; exact Nat.zero_le _

omit [FloatOps F] [Named F] [∀ e, Nonempty (Elt F e)] in
/-- The TensorCore's debt with its recorded pairs bounded, in the two spellings: by level, and by membership. -/
theorem owes_in (n : ℕ) (c : Dev nD) (O : CellTallies nD τ sig (HIx 3)) :
    iprop(∃ W, ⌜(K (F := F)).WBelow (SparseCore.T c) W (8 * n)⌝ ∗ owes (SparseCore.T c) O W)
      ⊢ (iprop(∃ W : Waits sig (HIx 3), ⌜(↑W : Set (SemLoc sig × HIx 3)) ⊆ RcAt (F := F) n c⌝ ∗ owes (SparseCore.T c) O W) : sProp 𝕄) := by
  iintro ⟨%W, %hW, HO⟩
  iexists W; isplitr
  · ipureintro; exact fun p hp => hW p (Finset.mem_coe.mp hp)
  iexact HO

omit [FloatOps F] [Named F] [∀ e, Nonempty (Elt F e)] in
theorem owes_out (n : ℕ) (c : Dev nD) (O : CellTallies nD τ sig (HIx 3)) :
    (iprop(∃ W : Waits sig (HIx 3), ⌜(↑W : Set (SemLoc sig × HIx 3)) ⊆ RcAt (F := F) n c⌝ ∗ owes (SparseCore.T c) O W) : sProp 𝕄)
      ⊢ iprop(∃ W, ⌜(K (F := F)).WBelow (SparseCore.T c) W (8 * n)⌝ ∗ owes (SparseCore.T c) O W) := by
  iintro ⟨%W, %hW, HO⟩
  iexists W; isplitr
  · ipureintro; exact fun p hp => hW (Finset.mem_coe.mpr hp)
  iexact HO

omit [∀ e, Nonempty (Elt F e)] in
/-- Entering a region is the pipelines' call of its entry label, lifted into the SparseCore program's signature. -/
theorem enter_lift (p : Fin 4) :
    (enter (F := F) p) = SparseCore.liftProg (Q := 3) (.op (.customCall (Pipeline.entry p) ()) fun _ => .ret ⟨⟩) := rfl

/-! ## Region 0 -/

set_option backward.isDefEq.respectTransparency.types false in
set_option maxHeartbeats 2000000 in
/-- Region 0 (before SparseCore call 0) as @main meets it. -/
theorem region0 (C : Conts F) : RegionStep C 0 [main_v24_0, main_v24_1] 0 := by
  intro κ d W α k Φ
  rw [wp_bind, enter_lift]
  refine BIBase.Entails.trans ?_ ((K (F := F)).wp_liftProg (D (F := F)) 𝒱 (SparseCore.T d) Set.univ none _ _)
  have h := seg0_wp (F := F) (fun _ => W) (fun c => (K (F := F)).Otc c 0) (RcAt (F := F) 0) (fun _ => BI.emp)
      (fun c g => RegionWaits.Otc_none (K (F := F)) c 0 g) (hRcAt (F := F) 0) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout0 (fun _ => W) (fun c => (K (F := F)).Otc c 0) (RcAt (F := F) 0) d)
            ∗ (∃ Wt : Waits sig (HIx 3), ⌜(↑Wt : Set (SemLoc sig × HIx 3)) ⊆ RcAt (F := F) 0 d⌝ ∗ owes (SparseCore.T d) ((K (F := F)).Otc d 0) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 0 d⌝ ∗ owes (SparseCore.T d) ((K (F := F)).Otc d 0) Wt) ∗ BI.emp)
        ∗ levAts (K (F := F)).L (K (F := F)).lev
        ∗ Pipeline.cellsGhost (Pipeline.pin (pcfgs (F := F)) adm) EK 0 d ∗ Pipeline.toksInit (Pipeline.pin (pcfgs (F := F)) adm) EK 0 d)
      ⊢ wp frame (wpE (D (F := F)) 𝒱 (SparseCore.T d) none) Set.univ
          (.op (.customCall (Pipeline.entry (0 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 0 d ((K (F := F)).Otc d 0)) $$ HO
  isplitl [Hk Hrest]
  · iintro ⟨Hb, Hheld, HO, -⟩
    rw [wp_ret]; imodintro
    iapply Hk
    isplitl [HO Hrest]
    · isplitl [HO]
      · iapply (owes_out (F := F) 0 d ((K (F := F)).Otc d 0)); iexact HO
      iexact Hrest
    isplitl [Hb]; · iexact Hb
    iexists (Wout0 (fun _ => W) (fun c => (K (F := F)).Otc c 0) (RcAt (F := F) 0) d)
    isplitr
    · ipureintro; exact fun r hr => Wout0_off (fun _ => W) (fun c => (K (F := F)).Otc c 0) (RcAt (F := F) 0) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 1 -/

set_option backward.isDefEq.respectTransparency.types false in
set_option maxHeartbeats 2000000 in
/-- Region 1 (before SparseCore call 1) as @main meets it. -/
theorem region1 (C : Conts F) : RegionStep C 1 [main_v50_0, main_v50_1] 1 := by
  intro κ d W α k Φ
  rw [wp_bind, enter_lift]
  refine BIBase.Entails.trans ?_ ((K (F := F)).wp_liftProg (D (F := F)) 𝒱 (SparseCore.T d) Set.univ none _ _)
  have h := seg2_wp (F := F) (fun _ => W) (fun c => (K (F := F)).Otc c 1) (RcAt (F := F) 1) (fun _ => BI.emp)
      (fun c g => RegionWaits.Otc_none (K (F := F)) c 1 g) (hRcAt (F := F) 1) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout2 (fun _ => W) (fun c => (K (F := F)).Otc c 1) (RcAt (F := F) 1) d)
            ∗ (∃ Wt : Waits sig (HIx 3), ⌜(↑Wt : Set (SemLoc sig × HIx 3)) ⊆ RcAt (F := F) 1 d⌝ ∗ owes (SparseCore.T d) ((K (F := F)).Otc d 1) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 1 d⌝ ∗ owes (SparseCore.T d) ((K (F := F)).Otc d 1) Wt) ∗ BI.emp)
        ∗ levAts (K (F := F)).L (K (F := F)).lev
        ∗ Pipeline.cellsGhost (Pipeline.pin (pcfgs (F := F)) adm) EK 1 d ∗ Pipeline.toksInit (Pipeline.pin (pcfgs (F := F)) adm) EK 1 d)
      ⊢ wp frame (wpE (D (F := F)) 𝒱 (SparseCore.T d) none) Set.univ
          (.op (.customCall (Pipeline.entry (1 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 1 d ((K (F := F)).Otc d 1)) $$ HO
  isplitl [Hk Hrest]
  · iintro ⟨Hb, Hheld, HO, -⟩
    rw [wp_ret]; imodintro
    iapply Hk
    isplitl [HO Hrest]
    · isplitl [HO]
      · iapply (owes_out (F := F) 1 d ((K (F := F)).Otc d 1)); iexact HO
      iexact Hrest
    isplitl [Hb]; · iexact Hb
    iexists (Wout2 (fun _ => W) (fun c => (K (F := F)).Otc c 1) (RcAt (F := F) 1) d)
    isplitr
    · ipureintro; exact fun r hr => Wout2_off (fun _ => W) (fun c => (K (F := F)).Otc c 1) (RcAt (F := F) 1) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 2 -/

set_option backward.isDefEq.respectTransparency.types false in
set_option maxHeartbeats 2000000 in
/-- Region 2 (before SparseCore call 2) as @main meets it. -/
theorem region2 (C : Conts F) : RegionStep C 2 [main_v76_0, main_v76_1] 2 := by
  intro κ d W α k Φ
  rw [wp_bind, enter_lift]
  refine BIBase.Entails.trans ?_ ((K (F := F)).wp_liftProg (D (F := F)) 𝒱 (SparseCore.T d) Set.univ none _ _)
  have h := seg4_wp (F := F) (fun _ => W) (fun c => (K (F := F)).Otc c 2) (RcAt (F := F) 2) (fun _ => BI.emp)
      (fun c g => RegionWaits.Otc_none (K (F := F)) c 2 g) (hRcAt (F := F) 2) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout4 (fun _ => W) (fun c => (K (F := F)).Otc c 2) (RcAt (F := F) 2) d)
            ∗ (∃ Wt : Waits sig (HIx 3), ⌜(↑Wt : Set (SemLoc sig × HIx 3)) ⊆ RcAt (F := F) 2 d⌝ ∗ owes (SparseCore.T d) ((K (F := F)).Otc d 2) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 2 d⌝ ∗ owes (SparseCore.T d) ((K (F := F)).Otc d 2) Wt) ∗ BI.emp)
        ∗ levAts (K (F := F)).L (K (F := F)).lev
        ∗ Pipeline.cellsGhost (Pipeline.pin (pcfgs (F := F)) adm) EK 2 d ∗ Pipeline.toksInit (Pipeline.pin (pcfgs (F := F)) adm) EK 2 d)
      ⊢ wp frame (wpE (D (F := F)) 𝒱 (SparseCore.T d) none) Set.univ
          (.op (.customCall (Pipeline.entry (2 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 2 d ((K (F := F)).Otc d 2)) $$ HO
  isplitl [Hk Hrest]
  · iintro ⟨Hb, Hheld, HO, -⟩
    rw [wp_ret]; imodintro
    iapply Hk
    isplitl [HO Hrest]
    · isplitl [HO]
      · iapply (owes_out (F := F) 2 d ((K (F := F)).Otc d 2)); iexact HO
      iexact Hrest
    isplitl [Hb]; · iexact Hb
    iexists (Wout4 (fun _ => W) (fun c => (K (F := F)).Otc c 2) (RcAt (F := F) 2) d)
    isplitr
    · ipureintro; exact fun r hr => Wout4_off (fun _ => W) (fun c => (K (F := F)).Otc c 2) (RcAt (F := F) 2) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 3 -/

set_option backward.isDefEq.respectTransparency.types false in
set_option maxHeartbeats 2000000 in
/-- Region 3 (before SparseCore call 3) as @main meets it. -/
theorem region3 (C : Conts F) : RegionStep C 3 [main_v94] 3 := by
  intro κ d W α k Φ
  rw [wp_bind, enter_lift]
  refine BIBase.Entails.trans ?_ ((K (F := F)).wp_liftProg (D (F := F)) 𝒱 (SparseCore.T d) Set.univ none _ _)
  have h := seg6_wp (F := F) (fun _ => W) (fun c => (K (F := F)).Otc c 3) (RcAt (F := F) 3) (fun _ => BI.emp)
      (fun c g => RegionWaits.Otc_none (K (F := F)) c 3 g) (hRcAt (F := F) 3) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout6 (fun _ => W) (fun c => (K (F := F)).Otc c 3) (RcAt (F := F) 3) d)
            ∗ (∃ Wt : Waits sig (HIx 3), ⌜(↑Wt : Set (SemLoc sig × HIx 3)) ⊆ RcAt (F := F) 3 d⌝ ∗ owes (SparseCore.T d) ((K (F := F)).Otc d 3) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 3 d⌝ ∗ owes (SparseCore.T d) ((K (F := F)).Otc d 3) Wt) ∗ BI.emp)
        ∗ levAts (K (F := F)).L (K (F := F)).lev
        ∗ Pipeline.cellsGhost (Pipeline.pin (pcfgs (F := F)) adm) EK 3 d ∗ Pipeline.toksInit (Pipeline.pin (pcfgs (F := F)) adm) EK 3 d)
      ⊢ wp frame (wpE (D (F := F)) 𝒱 (SparseCore.T d) none) Set.univ
          (.op (.customCall (Pipeline.entry (3 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 3 d ((K (F := F)).Otc d 3)) $$ HO
  isplitl [Hk Hrest]
  · iintro ⟨Hb, Hheld, HO, -⟩
    rw [wp_ret]; imodintro
    iapply Hk
    isplitl [HO Hrest]
    · isplitl [HO]
      · iapply (owes_out (F := F) 3 d ((K (F := F)).Otc d 3)); iexact HO
      iexact Hrest
    isplitl [Hb]; · iexact Hb
    iexists (Wout6 (fun _ => W) (fun c => (K (F := F)).Otc c 3) (RcAt (F := F) 3) d)
    isplitr
    · ipureintro; exact fun r hr => Wout6_off (fun _ => W) (fun c => (K (F := F)).Otc c 3) (RcAt (F := F) 3) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

end Cert.Proof.IdealLaunch

end
-- ==== Proof.LaunchBaseW.lean ====
/-
  The kernel program as the SparseCore launch theorem sees it: the three vector-subcore calls' configuration, the
  body table under the four TensorCore pipelines, the variants, the configuration's side facts, and the ghost
  state — the handshakes' rounds beside the pipelines' staging cells' rounds and the counters of the tasks' own
  transfers.
-/
import proofs.«215677_g32066225832048_cont_9to1_32_28_alg».proof.Defs
import Idealize.ShloMosaic.Lib.SparseCore.Launch
import Idealize.ShloMosaic.Lib.SparseCore.Ops
import Idealize.ShloMosaic.Lib.StableHlo.Run
import Idealize.ShloMosaic.Lib.Tactic
import Idealize.ShloMosaic.Lib.Transfers
import proofs.«215677_g32066225832048_cont_9to1_32_28_alg».proof.Proof.Gen.Kernel
import proofs.«215677_g32066225832048_cont_9to1_32_28_alg».proof.Proof.Gen.Kernel.Launch

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hFacts : Cert.Kernel.Facts]

/-! ## The program as the launch theorem sees it -/

abbrev ΛP : Labels := Pipeline.Sig Λ₀ (Fin 4) fun p => (pcfgs (F := F) p).Adm
abbrev K : SparseCore.Cfg τ sig (ΛP (F := F)) 3 := sc (F := F)
theorem nSub_eq (q : Fin 3) : (K (F := F)).nSub q = 16 := by
  match q with
  | 0 => rfl
  | 1 => rfl
  | 2 => rfl
theorem nCore_eq (q : Fin 3) : (K (F := F)).nCore q = 2 := by
  match q with
  | 0 => rfl
  | 1 => rfl
  | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UC : Type := UK × Counters
abbrev UU : Type := UH × UC

local notation "𝕄" => MT nD τ sig (HIx 3) (Elt F) ℕ UU ℕ

def EH : Emb UH (MT nD τ sig (HIx 3) (Elt F) ℕ UU ℕ) :=
  (Emb.inl : Emb UH UU).trans (uEmb (nD := nD) (sig := sig) (Ix := HIx 3) (Val := Elt F) (Name := ℕ) (U := UU) (Lvl := ℕ)).toEmb
def EK : Emb UK (MT nD τ sig (HIx 3) (Elt F) ℕ UU ℕ) :=
  ((Emb.inl : Emb UK UC).trans (Emb.inr : Emb UC UU)).trans (uEmb (nD := nD) (sig := sig) (Ix := HIx 3) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance

example : CountersIn UU := inferInstance

end Cert.Proof.WordLaunch

end
-- ==== Proof.LaunchPayW.lean ====
/-
  What the three SparseCore calls' handshakes carry. Each call reads one table [50008,128] and the two padded index
  arrays [819200] and writes one array [819200,64]; its 2 x 16 tasks each read the three inputs whole and write their
  own 25600 rows. So a task is handed a read share of each input — one of 32 tokens split off the full share — and the
  full share of its rows of the output; a SparseCore is handed the sixteen tasks' shares together, so that dealing
  them to the tasks is the identity. The index arrays' contents are named (they are host operations of the launch
  memory); the table's, a region's output, and the output rows' are whatever their holder finds: a token's contents
  agree with the remainder's, so the tokens rejoin at the contents the TensorCore kept.
-/
import proofs.«215677_g32066225832048_cont_9to1_32_28_alg».proof.Proof.LaunchBaseW
import Idealize.ShloMosaic.Lib.Transfers

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hFacts : Cert.Kernel.Facts]

local notation "𝕄" => MT nD τ sig (HIx 3) (Elt F) ℕ UU ℕ

/-! ## The arrays of a call -/

/-- The table a call gathers from, and the array it writes. -/
abbrev tabRef : Fin 3 → Ref sig .tc := fun | 0 => main_v24_1 | 1 => main_v50_1 | 2 => main_v76_1 | ⟨_ + 3, h⟩ => absurd h (Nat.not_lt.2 (Nat.le_add_left _ _))
abbrev outRef : Fin 3 → Ref sig .tc := fun | 0 => main_v25 | 1 => main_v51 | 2 => main_v77 | ⟨_ + 3, h⟩ => absurd h (Nat.not_lt.2 (Nat.le_add_left _ _))

/-- Device `d`'s buffer behind a TensorCore reference. -/
abbrev locOf (d : Dev nD) (r : Ref sig .tc) : Loc nD τ sig := (SparseCore.T d).loc r
abbrev tabLoc (q : Fin 3) (d : Dev nD) : Loc nD τ sig := (SparseCore.T d).loc (tabRef q)
abbrev outLoc (q : Fin 3) (d : Dev nD) : Loc nD τ sig := (SparseCore.T d).loc (outRef q)
abbrev srcLoc (d : Dev nD) : Loc nD τ sig := (SparseCore.T d).loc main_v6
abbrev dstLoc (d : Dev nD) : Loc nD τ sig := (SparseCore.T d).loc main_v8

/-- The contents of the two padded index arrays: host operations of the launch memory, the same at every call. -/
structure Conts (F : FTy → Type) where
  src : (d : Dev nD) → Buf (Elt F) (srcLoc d)
  dst : (d : Dev nD) → Buf (Elt F) (dstLoc d)

variable (C : Conts F)

/-! ## Read tokens held at contents of the holder's finding -/

section Tokens

variable {ℓ : Loc nD τ sig} {I : Finset (Idx ℓ)} {f : Buf (Elt F) ℓ}

/-- A read token held at SOME contents, beside another share of the same elements at `f`, is held at `f`. -/
theorem tok_same (q₁ q₂ : PosShare TreeShare) :
    iprop((ℓ ↦[I]{q₁} f) ∗ ∃ g, ℓ ↦[I]{q₂} g) ⊢ (iprop((ℓ ↦[I]{q₁} f) ∗ ℓ ↦[I]{q₂} f) : sProp 𝕄) := by
  iintro ⟨Hd, %g, Ht⟩
  ihave H := (persistent_entails_right (pointsTo_agree (ℓ := ℓ) (I := I) (J := I) (q₁ := q₁) (q₂ := q₂) (f := f) (g := g))) $$ [Hd Ht]
  · isplitl [Hd]; · iexact Hd
    iexact Ht
  icases H with ⟨%h, Hd, Ht⟩
  isplitl [Hd]; · iexact Hd
  ihave Ht' := (Entails.of_eq (show (ℓ ↦[I]{q₂} g : sProp 𝕄) = ℓ ↦[I]{q₂} f from
    pointsTo_congr fun i hi => ((h i (Finset.mem_inter.mpr ⟨hi, hi⟩)).1).symm)) $$ Ht
  iexact Ht'

theorem regroup3 (A B C : sProp 𝕄) : iprop(A ∗ (B ∗ C)) ⊢ (iprop((A ∗ B) ∗ C) : sProp 𝕄) := by
  iintro ⟨HA, HB, HC⟩
  isplitr [HC]
  · isplitl [HA]; · iexact HA
    iexact HB
  · iexact HC

/-- The remainder of a share after `k` read tokens, and the tokens each at SOME contents, are the share at the
    remainder's contents: two holders of the same elements agree on them. -/
theorem toks_range_rejoin (q : PosShare TreeShare) (k : ℕ) :
    iprop((ℓ ↦[I]{shareDrop q k} f) ∗ bigSep (Finset.range k) (fun i => iprop(∃ g, ℓ ↦[I]{shareTokN q i} g)))
      ⊢ (ℓ ↦[I]{q} f : sProp 𝕄) := by
  induction k with
  | zero => rw [Finset.range_zero, bigSep_empty]; exact Laws.sep_emp.1
  | succ k ih =>
    rw [Finset.range_add_one, bigSep_insert Finset.notMem_range_self]
    refine BI.Entails.trans ?_ ih
    exact (regroup3 _ _ _).trans (Laws.sep_mono_left
      ((tok_same (shareDrop q (k + 1)) (shareTokN q k)).trans (pointsTo_share (PosShare.mem_left_op_right (shareDrop q k))).2))

/-- The same over the cells `Fin n`. -/
theorem toks_rejoin (q : PosShare TreeShare) (n : ℕ) :
    iprop((ℓ ↦[I]{shareDrop q n} f) ∗ bigSep Finset.univ (fun i : Fin n => iprop(∃ g, ℓ ↦[I]{shareTok q n i} g)))
      ⊢ (ℓ ↦[I]{q} f : sProp 𝕄) := by
  rw [show bigSep Finset.univ (fun i : Fin n => (iprop(∃ g, ℓ ↦[I]{shareTok q n i} g) : sProp 𝕄))
      = bigSep (Finset.range n) (fun i => iprop(∃ g, ℓ ↦[I]{shareTokN q i} g))
    by rw [← Nat.Iio_eq_range, ← Fin.map_valEmbedding_univ, bigSep_map]; rfl]
  exact toks_range_rejoin q n

end Tokens

/-! ## Tasks, their rows and their read shares -/

theorem hdiv32 : 32 ∣ S819200x64.size 0 := ⟨25600, rfl⟩
/-- The 25600 rows of task `t`. -/
abbrev tileRect (t : Fin 32) : Rect S819200x64 := Rect.part (s := S819200x64) (a₀ := 0) hdiv32 t
def tileRows (q : Fin 3) (d : Dev nD) (t : Fin 32) : Finset (Idx (outLoc q d)) :=
  match q with
  | 0 => (tileRect t).set
  | 1 => (tileRect t).set
  | 2 => (tileRect t).set

/-- Task `i` of SparseCore `c` among the 32. -/
def tix (q : Fin 3) (c : Fin ((K (F := F)).nCore q)) (i : Fin ((K (F := F)).nSub q)) : Fin 32 :=
  ⟨16 * c.val + i.val, by
    have hc : c.val < 2 := (nCore_eq (F := F) q) ▸ c.isLt
    have hi : i.val < 16 := (nSub_eq (F := F) q) ▸ i.isLt
    omega⟩

abbrev tsh (t : Fin 32) : PosShare TreeShare := shareTok fullShare 32 t

/-- What task `t` of call `q` is handed, and hands back: a read token of each input — the table at the contents it
    finds, the index arrays at theirs — and its own rows of the output, at the contents it finds or leaves. -/
def goResAt (tab out : Ref sig .tc) (d : Dev nD) (rows : Fin 32 → Finset (Idx (locOf d out))) (t : Fin 32) : sProp 𝕄 :=
  iprop((∃ f, locOf d tab ↦{tsh t} f) ∗ (srcLoc d ↦{tsh t} C.src d) ∗ (dstLoc d ↦{tsh t} C.dst d)
    ∗ ∃ f, locOf d out ↦[rows t]{fullShare} f)
def goRes (q : Fin 3) (d : Dev nD) (t : Fin 32) : sProp 𝕄 := goResAt C (tabRef q) (outRef q) d (tileRows q d) t
abbrev tdRes (q : Fin 3) (d : Dev nD) (t : Fin 32) : sProp 𝕄 := goRes C q d t

/-- The handshakes' payloads: a SparseCore's are its sixteen tasks' together; no ghost state of the kernels' own. -/
def P : (K (F := F)).Pay (nD := nD) (Val := Elt F) (Name := ℕ) (U := UU) where
  st := fun q d c => bigSep Finset.univ fun i : Fin ((K (F := F)).nSub q) => goRes C q d (tix q c i)
  dn := fun q d c => bigSep Finset.univ fun i : Fin ((K (F := F)).nSub q) => tdRes C q d (tix q c i)
  go := fun q d c i => goRes C q d (tix q c i)
  td := fun q d c i => tdRes C q d (tix q c i)
  x := fun _ _ => iprop(emp)

set_option synthInstance.maxHeartbeats 400000 in
instance goRes_storable (q : Fin 3) (d : Dev nD) (t : Fin 32) : BI.Storable (upEmb : UEmb _ 𝕄) (goRes C q d t) := by
  unfold goRes goResAt; infer_instance

instance P_storable : (P (F := F) C).IsStorable where
  st q d c := by unfold P; dsimp only; infer_instance
  dn q d c := by unfold P; dsimp only; infer_instance
  go q d c i := by unfold P; dsimp only; infer_instance
  td q d c i := by unfold P; dsimp only; infer_instance

/-- Dealing a SparseCore's operands to its tasks and gathering their results is the identity. -/
theorem vecSplit (q : Fin 3) : (K (F := F)).VecSplit' (P C) q := by
  intro d c
  show (bigSep Finset.univ fun i : Fin ((K (F := F)).nSub q) => goRes C q d (tix q c i)) ⊢ |={Set.univ}=> iprop(
      (bigSep Finset.univ fun i : Fin ((K (F := F)).nSub q) => goRes C q d (tix q c i))
      ∗ ((bigSep Finset.univ fun i : Fin ((K (F := F)).nSub q) => tdRes C q d (tix q c i))
          -∗ (bigSep Finset.univ fun i : Fin ((K (F := F)).nSub q) => tdRes C q d (tix q c i))))
  iintro H; imodintro
  isplitl [H]; · iexact H
  iintro H; iexact H

end Cert.Proof.WordLaunch

end
-- ==== Proof.LaunchElemW.lean ====
/-
  The launch element of the ghost state — the handshakes' rounds, and for the four TensorCore pipelines their staging
  cells' launch state and the duty tokens of the transfers their loops issue — and the run of the whole family of
  threads from the obligations of its parts: each vector-subcore kernel's task, and @main on the TensorCore.
-/
import proofs.«215677_g32066225832048_cont_9to1_32_28_alg».proof.Proof.LaunchPayW

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts]

local notation "𝕄" => MT nD τ sig (HIx 3) (Elt F) ℕ UU ℕ

variable (C : Conts F)

/-- What the launch leaves a TensorCore for its four regions: each pipeline's staging cells' launch state and tokens. -/
def G (d : Dev nD) : sProp 𝕄 :=
  bigSep Finset.univ fun p : Fin 4 => iprop(Pipeline.cellsGhost cfgs (EK (F := F)) p d ∗ Pipeline.toksInit cfgs (EK (F := F)) p d)

def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

omit [FloatOps F] in
theorem ownU_split (a : UH) (b : UK) : (ownU ((a, (b, (1 : Counters))) : UU) : sProp 𝕄) ⊢ iprop(BI.own (EH a) ∗ BI.own (EK b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op ((b, (1 : Counters)) : UC))))

omit [FloatOps F] in
theorem G_intro :
    iprop((bigSep Finset.univ fun c : Dev nD => bigSep Finset.univ fun p : Fin 4 => Pipeline.cellsGhost cfgs (EK (F := F)) p c)
        ∗ (bigSep Finset.univ fun c : Dev nD => bigSep Finset.univ fun p : Fin 4 => (Pipeline.toksInit cfgs (EK (F := F)) p c : sProp 𝕄)))
      ⊢ bigSep Finset.univ fun d : Dev nD => G (F := F) d := by
  unfold G
  simp only [bigSep_sep']
  exact BI.Entails.refl _

omit [FloatOps F] in
theorem bigSep_emp' {I : Type} (s : Finset I) : (bigSep s fun _ => iprop(emp)) = (iprop(emp) : sProp 𝕄) := bigSep_emp_const s

omit [FloatOps F] in
/-- No kernel keeps ghost state of its own: what the launch deals the threads for them is empty. -/
theorem Px_all : (bigSep Finset.univ fun thr : Thread nD τ => bigSep Finset.univ fun q : Fin 3 => (P C).x q thr) = (iprop(emp) : sProp 𝕄) := by
  show (bigSep Finset.univ fun thr : Thread nD τ => bigSep Finset.univ fun q : Fin 3 => (iprop(emp) : sProp 𝕄)) = _
  rw [show (fun thr : Thread nD τ => bigSep Finset.univ fun q : Fin 3 => (iprop(emp) : sProp 𝕄)) = fun _ => iprop(emp) from
    funext fun _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P C).x q thr) := by
  unfold u₀
  iintro Hu
  ihave H := (ownU_split _ _) $$ Hu
  icases H with ⟨HH, HK⟩
  imod (Pipeline.fund_ghost cfgs (EK (F := F)) cellOf_inj) $$ HK with ⟨Hg, Ht⟩
  imodintro
  isplitl [HH]; · iexact HH
  isplitl [Hg Ht]
  · iapply (G_intro (F := F))
    isplitl [Hg]; · iexact Hg
    iexact Ht
  · rw [Px_all]; iempintro

/-- The family of threads runs, every weakly fair execution ending in a memory of which `Q'` holds, from: each
    call's task on a vector subcore; @main on the TensorCore, from its launch holdings and the pipelines' ghost
    state to `FIN`; and how `FIN` reads the final memory. -/
theorem run_of [∀ e, Nonempty (Elt F e)] (m : (ℓ : Loc nD τ sig) → Buf (Elt F) ℓ) (ρ : Dev nD → PrngReg)
    (htile : ∀ q : Fin 3, (K (F := F)).TileObl (D (F := F)) 𝒱 (P C) v₀ q)
    (FIN : Dev nD → sProp 𝕄)
    (hmain : ∀ (κ : GSem nD τ sig → ℕ) (d : Dev nD),
      iprop((K (F := F)).ctx EH (P C) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 3 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P C) facts v₀
    (fun q hq => match q with | 0 => nomatch hq | 1 => nomatch hq | 2 => nomatch hq)
    (fun q _ => htile q)
    (fun q _ => SparseCore.Cfg.VecSplit.of_plain (vecSplit C q))
    m ρ main (G (F := F)) FIN (u₀ (F := F)) (sep_elim_left.trans (hu₀ C)) hmain fq hfin Q' hQ

end Cert.Proof.WordLaunch

end
-- ==== Proof.LaunchCallW.lean ====
/-
  A SparseCore call as @main on the TensorCore sees it. Before the call the TensorCore holds the table, the two index
  arrays and the output whole; it keeps a remainder of each input's share, deals the 32 tasks a read token each and
  their rows of the output, starts the call and waits for it; what comes back rejoins to the inputs whole at the
  contents it kept (a token's contents agree with the remainder's) and the output whole at what the tasks left.
-/
import proofs.«215677_g32066225832048_cont_9to1_32_28_alg».proof.Proof.LaunchElemW

noncomputable section

namespace Cert.Proof.WordLaunch

open Cert.Kernel Cert.Kernel.Gen

open Idealize.ShloMosaic
open Idealize.ShloMosaic.SparseCore (S V T)
open Idealize.ShloMosaic.SparseCore.Cfg (HIx Pay)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts] [∀ e, Nonempty (Elt F e)]

local notation "𝕄" => MT nD τ sig (HIx 3) (Elt F) ℕ UU ℕ

variable (C : Conts F)

/-! ## The 32 tasks as 2 SparseCores of 16 -/

omit [FloatOps F] [∀ e, Nonempty (Elt F e)] in
theorem regroup (q : Fin 3) (Φ : Fin 32 → sProp 𝕄) :
    (bigSep Finset.univ fun c : Fin ((K (F := F)).nCore q) => bigSep Finset.univ fun i : Fin ((K (F := F)).nSub q) => Φ (tix q c i))
      = bigSep Finset.univ Φ := by
  have key : ∀ q : Fin 3, (bigSep Finset.univ fun ci : Fin ((K (F := F)).nCore q) × Fin ((K (F := F)).nSub q) => Φ (tix q ci.1 ci.2))
      = bigSep Finset.univ Φ := by
    intro q
    match q with
    | 0 =>
      rw [bigSep_univ_equiv (finProdFinEquiv (m := 2) (n := 16)) Φ]
      exact bigSep_congr fun ci _ => congrArg Φ (Fin.ext (by show 16 * ci.1.val + ci.2.val = _; simp [finProdFinEquiv]; omega))
    | 1 =>
      rw [bigSep_univ_equiv (finProdFinEquiv (m := 2) (n := 16)) Φ]
      exact bigSep_congr fun ci _ => congrArg Φ (Fin.ext (by show 16 * ci.1.val + ci.2.val = _; simp [finProdFinEquiv]; omega))
    | 2 =>
      rw [bigSep_univ_equiv (finProdFinEquiv (m := 2) (n := 16)) Φ]
      exact bigSep_congr fun ci _ => congrArg Φ (Fin.ext (by show 16 * ci.1.val + ci.2.val = _; simp [finProdFinEquiv]; omega))
  rw [← key q, bigSep_univ_prod]

/-! ## Dealing and gathering -/

section Deal

variable (tab out : Ref sig .tc) (d : Dev nD) (rows : Fin 32 → Finset (Idx (locOf d out)))
  (hdisj : ∀ t ∈ (Finset.univ : Finset (Fin 32)), ∀ t' ∈ (Finset.univ : Finset (Fin 32)), t ≠ t' → Disjoint (rows t) (rows t'))
  (hcover : (Finset.univ : Finset (Fin 32)).biUnion rows = Finset.univ)

omit [FloatOps F] [∀ e, Nonempty (Elt F e)] in
theorem ex_intro {ℓ : Loc nD τ sig} (I : Finset (Idx ℓ)) (q : PosShare TreeShare) (f : Buf (Elt F) ℓ) :
    (ℓ ↦[I]{q} f : sProp 𝕄) ⊢ iprop(∃ g, ℓ ↦[I]{q} g) := by
  iintro H; iexists f; iexact H

omit [FloatOps F] [∀ e, Nonempty (Elt F e)] in
theorem toks_ex {ℓ : Loc nD τ sig} (f : Buf (Elt F) ℓ) :
    (bigSep Finset.univ fun t : Fin 32 => (ℓ ↦{shareTok fullShare 32 t} f : sProp 𝕄))
      ⊢ bigSep Finset.univ fun t : Fin 32 => (iprop(∃ g, ℓ ↦{shareTok fullShare 32 t} g) : sProp 𝕄) :=
  bigSep_mono fun (t : Fin 32) _ => ex_intro (F := F) Finset.univ (shareTok fullShare 32 t) f

omit [FloatOps F] [∀ e, Nonempty (Elt F e)] in
theorem rows_ex (fo : Buf (Elt F) (locOf d out)) :
    (bigSep Finset.univ fun t : Fin 32 => (locOf d out ↦[rows t]{fullShare} fo : sProp 𝕄))
      ⊢ bigSep Finset.univ fun t : Fin 32 => (iprop(∃ g, locOf d out ↦[rows t]{fullShare} g) : sProp 𝕄) :=
  bigSep_mono fun (t : Fin 32) _ => ex_intro (F := F) (rows t) fullShare fo

include hdisj hcover in
omit [FloatOps F] [∀ e, Nonempty (Elt F e)] in
/-- The inputs' full shares into a remainder and 32 tokens, the output into the tasks' rows. -/
theorem deal (ft : Buf (Elt F) (locOf d tab)) (fo : Buf (Elt F) (locOf d out)) :
    iprop((locOf d tab ↦{fullShare} ft) ∗ (srcLoc d ↦{fullShare} C.src d) ∗ (dstLoc d ↦{fullShare} C.dst d) ∗ (locOf d out ↦{fullShare} fo))
      ⊢ (iprop(((locOf d tab ↦{shareDrop fullShare 32} ft) ∗ (srcLoc d ↦{shareDrop fullShare 32} C.src d) ∗ (dstLoc d ↦{shareDrop fullShare 32} C.dst d))
          ∗ bigSep Finset.univ fun t : Fin 32 => goResAt C tab out d rows t) : sProp 𝕄) := by
  have hout : (locOf d out ↦{fullShare} fo : sProp 𝕄) = bigSep Finset.univ fun t : Fin 32 => locOf d out ↦[rows t]{fullShare} fo := by
    rw [← pointsTo_biUnion Finset.univ (ℓ := locOf d out) rows hdisj, hcover]; try rfl
  unfold goResAt
  simp only [bigSep_sep']
  iintro ⟨Ht, Hs, Hd, Ho⟩
  ihave Ht := (pointsTo_toks_split fullShare 32) $$ Ht
  ihave Hs := (pointsTo_toks_split fullShare 32) $$ Hs
  ihave Hd := (pointsTo_toks_split fullShare 32) $$ Hd
  ihave Ho := (Entails.of_eq hout) $$ Ho
  icases Ht with ⟨Htr, Htt⟩
  icases Hs with ⟨Hsr, Hst⟩
  icases Hd with ⟨Hdr, Hdt⟩
  isplitl [Htr Hsr Hdr]
  · isplitl [Htr]; · iexact Htr
    isplitl [Hsr]; · iexact Hsr
    iexact Hdr
  isplitl [Htt]
  · iapply (toks_ex (F := F) ft); iexact Htt
  isplitl [Hst]; · iexact Hst
  isplitl [Hdt]; · iexact Hdt
  iapply (rows_ex (F := F) out d rows fo); iexact Ho

include hdisj hcover in
omit [FloatOps F] in
/-- Back: the inputs whole at the contents kept, the output whole at what the tasks left. -/
theorem gather (ft : Buf (Elt F) (locOf d tab)) :
    iprop(((locOf d tab ↦{shareDrop fullShare 32} ft) ∗ (srcLoc d ↦{shareDrop fullShare 32} C.src d) ∗ (dstLoc d ↦{shareDrop fullShare 32} C.dst d))
        ∗ bigSep Finset.univ fun t : Fin 32 => goResAt C tab out d rows t)
      ⊢ (iprop((locOf d tab ↦{fullShare} ft) ∗ (srcLoc d ↦{fullShare} C.src d) ∗ (dstLoc d ↦{fullShare} C.dst d) ∗ ∃ g, locOf d out ↦{fullShare} g) : sProp 𝕄) := by
  unfold goResAt
  simp only [bigSep_sep']
  iintro ⟨⟨Htr, Hsr, Hdr⟩, Htt, Hst, Hdt, Hot⟩
  isplitl [Htr Htt]
  · iapply (toks_rejoin (F := F) fullShare 32)
    isplitl [Htr]; · iexact Htr
    iexact Htt
  isplitl [Hsr Hst]
  · iapply (pointsTo_toks_join fullShare 32)
    isplitl [Hsr]; · iexact Hsr
    iexact Hst
  isplitl [Hdr Hdt]
  · iapply (pointsTo_toks_join fullShare 32)
    isplitl [Hdr]; · iexact Hdr
    iexact Hdt
  ihave H := (bigSep_exists_pi Finset.univ (fun (t : Fin 32) (f : Buf (Elt F) (locOf d out)) => (locOf d out ↦[rows t]{fullShare} f : sProp 𝕄))) $$ Hot
  icases H with ⟨%fs, H⟩
  ihave H' := (pointsTo_biUnion_join Finset.univ rows fs (fs 0) hdisj) $$ H
  icases H' with ⟨%g, -, Hg⟩
  ihave Hg' := (Entails.of_eq (congrArg (fun S => (locOf d out ↦[S]{fullShare} g : sProp 𝕄)) hcover)) $$ Hg
  iexists g; iexact Hg'

end Deal

/-! ## The tasks' rows partition the output -/

omit [FloatOps F] [∀ e, Nonempty (Elt F e)] in
theorem tileRows_disj (q : Fin 3) (d : Dev nD) :
    ∀ t ∈ (Finset.univ : Finset (Fin 32)), ∀ t' ∈ (Finset.univ : Finset (Fin 32)), t ≠ t' → Disjoint (tileRows q d t) (tileRows q d t') := by
  intro t _ t' _ h
  match q with
  | 0 => exact Rect.part_disjoint hdiv32 h
  | 1 => exact Rect.part_disjoint hdiv32 h
  | 2 => exact Rect.part_disjoint hdiv32 h

omit [FloatOps F] [∀ e, Nonempty (Elt F e)] in
theorem tileRows_cover (q : Fin 3) (d : Dev nD) : (Finset.univ : Finset (Fin 32)).biUnion (tileRows q d) = Finset.univ := by
  match q with
  | 0 => exact Rect.biUnion_part hdiv32
  | 1 => exact Rect.biUnion_part hdiv32
  | 2 => exact Rect.biUnion_part hdiv32

/-! ## The call -/

omit [FloatOps F] [∀ e, Nonempty (Elt F e)] in
theorem st_eq (q : Fin 3) (d : Dev nD) :
    (bigSep Finset.univ fun c : Fin ((K (F := F)).nCore q) => (P C).st q d c)
      = bigSep Finset.univ fun t : Fin 32 => goResAt C (tabRef q) (outRef q) d (tileRows q d) t :=
  regroup q fun t => goResAt C (tabRef q) (outRef q) d (tileRows q d) t

omit [FloatOps F] [∀ e, Nonempty (Elt F e)] in
theorem dn_eq (q : Fin 3) (d : Dev nD) :
    (bigSep Finset.univ fun c : Fin ((K (F := F)).nCore q) => (P C).dn q d c)
      = bigSep Finset.univ fun t : Fin 32 => goResAt C (tabRef q) (outRef q) d (tileRows q d) t :=
  regroup q fun t => goResAt C (tabRef q) (outRef q) d (tileRows q d) t

/-- SparseCore call `q` from the TensorCore: the four arrays whole before it, whole after it, the output at some
    contents. -/
theorem call_step (κ : GSem nD τ sig → ℕ) (d : Dev nD) (q : Fin 3)
    (ft : Buf (Elt F) (locOf d (tabRef q))) (fo : Buf (Elt F) (locOf d (outRef q))) {Φ : PUnit → sProp 𝕄} :
    iprop((K (F := F)).ctx EH (P C) κ ∗ (K (F := F)).tcSt EH d q.val
        ∗ ((locOf d (tabRef q) ↦{fullShare} ft) ∗ (srcLoc d ↦{fullShare} C.src d) ∗ (dstLoc d ↦{fullShare} C.dst d) ∗ (locOf d (outRef q) ↦{fullShare} fo))
        ∗ (((K (F := F)).tcSt EH d (q.val + 1)
              ∗ (locOf d (tabRef q) ↦{fullShare} ft) ∗ (srcLoc d ↦{fullShare} C.src d) ∗ (dstLoc d ↦{fullShare} C.dst d)
              ∗ ∃ g, locOf d (outRef q) ↦{fullShare} g) -∗ Φ ⟨⟩))
      ⊢ wp frame (wpE ((K (F := F)).defs (D (F := F))) 𝒱 (SparseCore.T d) none) Set.univ ((K (F := F)).run d q) Φ := by
  iintro ⟨#Hctx, Hst, Harr, Hk⟩
  ihave Hd := (deal C (tabRef q) (outRef q) d (tileRows q d) (tileRows_disj q d) (tileRows_cover q d) ft fo) $$ Harr
  icases Hd with ⟨Hrem, Htoks⟩
  iapply ((K (F := F)).wp_run (D (F := F)) 𝒱 (EH := EH) (P := P C) κ d q) $$ [Hst Htoks Hrem Hk]
  isplitr; · iexact Hctx
  isplitl [Hst]; · iexact Hst
  isplitl [Htoks]
  · ihave Htoks' := (Entails.of_eq (st_eq C q d).symm) $$ Htoks
    iexact Htoks'
  iintro ⟨Hst, Hdn⟩
  iapply Hk
  isplitl [Hst]; · iexact Hst
  ihave Hdn' := (Entails.of_eq (dn_eq C q d)) $$ Hdn
  iapply (gather C (tabRef q) (outRef q) d (tileRows q d) (tileRows_disj q d) (tileRows_cover q d) ft)
  isplitl [Hrem]; · iexact Hrem
  iexact Hdn'

end Cert.Proof.WordLaunch

end
-- ==== Proof.HostOpsW.lean ====
/-
  @main's host operations between its kernel calls, as lists: the operations before the first TensorCore region,
  and those after each of the three SparseCore calls up to the next region. Each entry is the printed operation.
-/
import proofs.«215677_g32066225832048_cont_9to1_32_28_alg».proof.Kernel
import Idealize.ShloMosaic.Lib.StableHlo.Run

noncomputable section

namespace Cert.Kernel.HostOps

open Cert.Kernel Idealize.ShloMosaic Idealize.ShloMosaic.TcCoe Idealize.SL.Sem Idealize.ShloMosaic.StableHlo

variable {F : FTy → Type} [FloatOps F] [Cert.Kernel.Facts]
open Cert.Kernel.Facts₀ Cert.Kernel.Facts

/-- Stretch 0: 29 operations. -/
abbrev ops0 : List (HloOp τ sig (Elt F)) :=
  [ reshape main_arg0 main_v0 rfl shapeCasts_S50000_S50000x1,
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg1 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_c (constantI S_ 32 0#32),
    unary main_c main_v5 (broadcastInDim S19200 ![] bcast_S_S19200 : (⟨S_, .i32⟩ : BufTy).Contents (Elt F) → (⟨S19200, .i32⟩ : BufTy).Contents (Elt F)),
    binary main_v2 main_v5 main_v6 ((fun a b => concatenate S819200 0 [⟨S800000, a⟩, ⟨S19200, b⟩] concatenates_S800000_S19200_S819200_d0) : (⟨S800000, .i32⟩ : BufTy).Contents (Elt F) → (⟨S19200, .i32⟩ : BufTy).Contents (Elt F) → (⟨S819200, .i32⟩ : BufTy).Contents (Elt F)),
    nullary main_c_0 (constantI S_ 32 50000#32),
    unary main_c_0 main_v7 (broadcastInDim S19200 ![] bcast_S_S19200 : (⟨S_, .i32⟩ : BufTy).Contents (Elt F) → (⟨S19200, .i32⟩ : BufTy).Contents (Elt F)),
    binary main_v4 main_v7 main_v8 ((fun a b => concatenate S819200 0 [⟨S800000, a⟩, ⟨S19200, b⟩] concatenates_S800000_S19200_S819200_d0) : (⟨S800000, .i32⟩ : BufTy).Contents (Elt F) → (⟨S19200, .i32⟩ : BufTy).Contents (Elt F) → (⟨S819200, .i32⟩ : BufTy).Contents (Elt F)),
    nullary main_cst (constant S_ .f32 0x3F800000#32),
    unary main_cst main_v9 (broadcastInDim S800000 ![] bcast_S_S800000 : (⟨S_, .f32⟩ : BufTy).Contents (Elt F) → (⟨S800000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_v4 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    reshape main_v12 main_v13 rfl shapeCasts_S50000_S50000x1,
    unary main_arg3 main_v14 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v14 main_v15 rfl shapeCasts_S1x128x64_S128x64,
    unary main_arg4 main_v16 ((extractStridedSlice S1x64 ![0, 0] · slices_S3x64_S1x64_0_0) : (⟨S3x64, .f32⟩ : BufTy).Contents (Elt F) → (⟨S1x64, .f32⟩ : BufTy).Contents (Elt F)),
    reshape main_v16 main_v17 rfl shapeCasts_S1x64_S64,
    unary main_v15 main_v18 ((extractStridedSlice S64x64 ![0, 0] · slices_S128x64_S64x64_0_0) : (⟨S128x64, .f32⟩ : BufTy).Contents (Elt F) → (⟨S64x64, .f32⟩ : BufTy).Contents (Elt F)),
    unary main_v15 main_v19 ((extractStridedSlice S64x64 ![64, 0] · slices_S128x64_S64x64_64_0) : (⟨S128x64, .f32⟩ : BufTy).Contents (Elt F) → (⟨S64x64, .f32⟩ : BufTy).Contents (Elt F)),
    binary main_v18 main_v19 main_v20 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_2 (constant S_ .f32 0x00000000#32),
    unary main_cst_2 main_v21 (broadcastInDim S64 ![] bcast_S_S64 : (⟨S_, .f32⟩ : BufTy).Contents (Elt F) → (⟨S64, .f32⟩ : BufTy).Contents (Elt F)),
    binary main_v21 main_v17 main_v22 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v22 main_v23 rfl shapeCasts_S128_S1x128 ]

/-- Every operation of stretch 0 touches TensorCore references only. -/
theorem ops0_tc : (ops0 (F := F)).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 1: 26 operations. -/
abbrev ops1 : List (HloOp τ sig (Elt F)) :=
  [ unary main_v25 main_v26 ((extractStridedSlice S800000x64 ![0, 0] · slices_S819200x64_S800000x64_0_0) : (⟨S819200x64, .f32⟩ : BufTy).Contents (Elt F) → (⟨S800000x64, .f32⟩ : BufTy).Contents (Elt F)),
    nullary main_cst_3 (constant S_ .f32 0x00000000#32),
    unary main_cst_3 main_v27 (broadcastInDim S50000x64 ![] bcast_S_S50000x64 : (⟨S_, .f32⟩ : BufTy).Contents (Elt F) → (⟨S50000x64, .f32⟩ : BufTy).Contents (Elt F)),
    unary main_v4 main_v28 (broadcastInDim S800000x1 ![0] bcast_S800000_S800000x1_0 : (⟨S800000, .i32⟩ : BufTy).Contents (Elt F) → (⟨S800000x1, .i32⟩ : BufTy).Contents (Elt F)),
    ternary main_v27 main_v28 main_v26 main_v29 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v30 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v30 main_v31 rfl shapeCasts_S1x64x64_S64x64,
    unary main_arg8 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    reshape main_v33 main_v34 rfl shapeCasts_S64_S1x64,
    unary main_arg5 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    unary main_arg6 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    reshape main_v38 main_v39 rfl shapeCasts_S64_S1x64,
    unary main_arg3 main_v40 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v40 main_v41 rfl shapeCasts_S1x128x64_S128x64,
    unary main_arg4 main_v42 ((extractStridedSlice S1x64 ![1, 0] · slices_S3x64_S1x64_1_0) : (⟨S3x64, .f32⟩ : BufTy).Contents (Elt F) → (⟨S1x64, .f32⟩ : BufTy).Contents (Elt F)),
    reshape main_v42 main_v43 rfl shapeCasts_S1x64_S64,
    unary main_v41 main_v44 ((extractStridedSlice S64x64 ![0, 0] · slices_S128x64_S64x64_0_0) : (⟨S128x64, .f32⟩ : BufTy).Contents (Elt F) → (⟨S64x64, .f32⟩ : BufTy).Contents (Elt F)),
    unary main_v41 main_v45 ((extractStridedSlice S64x64 ![64, 0] · slices_S128x64_S64x64_64_0) : (⟨S128x64, .f32⟩ : BufTy).Contents (Elt F) → (⟨S64x64, .f32⟩ : BufTy).Contents (Elt F)),
    binary main_v44 main_v45 main_v46 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_4 (constant S_ .f32 0x00000000#32),
    unary main_cst_4 main_v47 (broadcastInDim S64 ![] bcast_S_S64 : (⟨S_, .f32⟩ : BufTy).Contents (Elt F) → (⟨S64, .f32⟩ : BufTy).Contents (Elt F)),
    binary main_v47 main_v43 main_v48 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v48 main_v49 rfl shapeCasts_S128_S1x128 ]

/-- Every operation of stretch 1 touches TensorCore references only. -/
theorem ops1_tc : (ops1 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 2: 26 operations. -/
abbrev ops2 : List (HloOp τ sig (Elt F)) :=
  [ unary main_v51 main_v52 ((extractStridedSlice S800000x64 ![0, 0] · slices_S819200x64_S800000x64_0_0) : (⟨S819200x64, .f32⟩ : BufTy).Contents (Elt F) → (⟨S800000x64, .f32⟩ : BufTy).Contents (Elt F)),
    nullary main_cst_5 (constant S_ .f32 0x00000000#32),
    unary main_cst_5 main_v53 (broadcastInDim S50000x64 ![] bcast_S_S50000x64 : (⟨S_, .f32⟩ : BufTy).Contents (Elt F) → (⟨S50000x64, .f32⟩ : BufTy).Contents (Elt F)),
    unary main_v4 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v56 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v56 main_v57 rfl shapeCasts_S1x64x64_S64x64,
    unary main_arg8 main_v58 ((extractStridedSlice S1x64 ![1, 0] · slices_S3x64_S1x64_1_0) : (⟨S3x64, .f32⟩ : BufTy).Contents (Elt F) → (⟨S1x64, .f32⟩ : BufTy).Contents (Elt F)),
    reshape main_v58 main_v59 rfl shapeCasts_S1x64_S64,
    reshape main_v59 main_v60 rfl shapeCasts_S64_S1x64,
    unary main_arg5 main_v61 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v61 main_v62 rfl shapeCasts_S1x64x64_S64x64,
    unary main_arg6 main_v63 ((extractStridedSlice S1x64 ![1, 0] · slices_S3x64_S1x64_1_0) : (⟨S3x64, .f32⟩ : BufTy).Contents (Elt F) → (⟨S1x64, .f32⟩ : BufTy).Contents (Elt F)),
    reshape main_v63 main_v64 rfl shapeCasts_S1x64_S64,
    reshape main_v64 main_v65 rfl shapeCasts_S64_S1x64,
    unary main_arg3 main_v66 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v66 main_v67 rfl shapeCasts_S1x128x64_S128x64,
    unary main_arg4 main_v68 ((extractStridedSlice S1x64 ![2, 0] · slices_S3x64_S1x64_2_0) : (⟨S3x64, .f32⟩ : BufTy).Contents (Elt F) → (⟨S1x64, .f32⟩ : BufTy).Contents (Elt F)),
    reshape main_v68 main_v69 rfl shapeCasts_S1x64_S64,
    unary main_v67 main_v70 ((extractStridedSlice S64x64 ![0, 0] · slices_S128x64_S64x64_0_0) : (⟨S128x64, .f32⟩ : BufTy).Contents (Elt F) → (⟨S64x64, .f32⟩ : BufTy).Contents (Elt F)),
    unary main_v67 main_v71 ((extractStridedSlice S64x64 ![64, 0] · slices_S128x64_S64x64_64_0) : (⟨S128x64, .f32⟩ : BufTy).Contents (Elt F) → (⟨S64x64, .f32⟩ : BufTy).Contents (Elt F)),
    binary main_v70 main_v71 main_v72 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_6 (constant S_ .f32 0x00000000#32),
    unary main_cst_6 main_v73 (broadcastInDim S64 ![] bcast_S_S64 : (⟨S_, .f32⟩ : BufTy).Contents (Elt F) → (⟨S64, .f32⟩ : BufTy).Contents (Elt F)),
    binary main_v73 main_v69 main_v74 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    reshape main_v74 main_v75 rfl shapeCasts_S128_S1x128 ]

/-- Every operation of stretch 2 touches TensorCore references only. -/
theorem ops2_tc : (ops2 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., reshape_bufs_sub ..⟩

/-- Stretch 3: 17 operations. -/
abbrev ops3 : List (HloOp τ sig (Elt F)) :=
  [ unary main_v77 main_v78 ((extractStridedSlice S800000x64 ![0, 0] · slices_S819200x64_S800000x64_0_0) : (⟨S819200x64, .f32⟩ : BufTy).Contents (Elt F) → (⟨S800000x64, .f32⟩ : BufTy).Contents (Elt F)),
    nullary main_cst_7 (constant S_ .f32 0x00000000#32),
    unary main_cst_7 main_v79 (broadcastInDim S50000x64 ![] bcast_S_S50000x64 : (⟨S_, .f32⟩ : BufTy).Contents (Elt F) → (⟨S50000x64, .f32⟩ : BufTy).Contents (Elt F)),
    unary main_v4 main_v80 (broadcastInDim S800000x1 ![0] bcast_S800000_S800000x1_0 : (⟨S800000, .i32⟩ : BufTy).Contents (Elt F) → (⟨S800000x1, .i32⟩ : BufTy).Contents (Elt F)),
    ternary main_v79 main_v80 main_v78 main_v81 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v82 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v82 main_v83 rfl shapeCasts_S1x64x64_S64x64,
    unary main_arg8 main_v84 ((extractStridedSlice S1x64 ![2, 0] · slices_S3x64_S1x64_2_0) : (⟨S3x64, .f32⟩ : BufTy).Contents (Elt F) → (⟨S1x64, .f32⟩ : BufTy).Contents (Elt F)),
    reshape main_v84 main_v85 rfl shapeCasts_S1x64_S64,
    reshape main_v85 main_v86 rfl shapeCasts_S64_S1x64,
    unary main_arg5 main_v87 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v87 main_v88 rfl shapeCasts_S1x64x64_S64x64,
    unary main_arg6 main_v89 ((extractStridedSlice S1x64 ![2, 0] · slices_S3x64_S1x64_2_0) : (⟨S3x64, .f32⟩ : BufTy).Contents (Elt F) → (⟨S1x64, .f32⟩ : BufTy).Contents (Elt F)),
    reshape main_v89 main_v90 rfl shapeCasts_S1x64_S64,
    reshape main_v90 main_v91 rfl shapeCasts_S64_S1x64,
    reshape main_arg10 main_v92 rfl shapeCasts_S64_S1x64,
    reshape main_arg12 main_v93 rfl shapeCasts_S1_S1x1 ]

/-- Every operation of stretch 3 touches TensorCore references only. -/
theorem ops3_tc : (ops3 (F := F)).Forall fun op => op.bufs ⊆ tcRefs τ sig :=
  ⟨unary_bufs_sub .., nullary_bufs_sub .., unary_bufs_sub .., unary_bufs_sub .., ternary_bufs_sub .., unary_bufs_sub .., reshape_bufs_sub .., unary_bufs_sub .., reshape_bufs_sub .., reshape_bufs_sub .., unary_bufs_sub .., reshape_bufs_sub .., unary_bufs_sub .., reshape_bufs_sub .., reshape_bufs_sub .., reshape_bufs_sub .., reshape_bufs_sub ..⟩

end Cert.Kernel.HostOps

end
-- ==== Proof.MainShapeW.lean ====
/-
  @main on the TensorCore as what it is: four stretches of host operations, each followed by a TensorCore region,
  the first three regions each followed by a SparseCore call.
-/
import proofs.«215677_g32066225832048_cont_9to1_32_28_alg».proof.Proof.HostOpsW
import Idealize.ShloMosaic.Lib.SparseCore.Launch

noncomputable section

namespace Cert.Kernel.HostOps

open Cert.Kernel Idealize.ShloMosaic Idealize.ShloMosaic.TcCoe Idealize.SL.Sem Idealize.ShloMosaic.StableHlo

variable {F : FTy → Type} [FloatOps F] [Cert.Kernel.Facts]

/-- Entering TensorCore region `p`. -/
abbrev enter (p : Fin 4) : Prog (TpuEff nD τ sig (Elt F) (SparseCore.Sig (Pipeline.Sig Λ₀ (Fin 4) fun p => (pcfgs (F := F) p).Adm) 3) .tc) PUnit :=
  Prog.lift (.customCall (SparseCore.inner (Pipeline.entry p)) ())

set_option maxHeartbeats 4000000 in
set_option maxRecDepth 65536 in
theorem main_eq (d : Dev nD) :
    main (F := F) d
      = (seq ops0 >>= fun _ => enter 0 >>= fun _ => sc.run d 0 >>= fun _ =>
         seq ops1 >>= fun _ => enter 1 >>= fun _ => sc.run d 1 >>= fun _ =>
         seq ops2 >>= fun _ => enter 2 >>= fun _ => sc.run d 2 >>= fun _ =>
         seq ops3 >>= fun _ => enter 3 >>= fun _ => pure ⟨⟩) := rfl

end Cert.Kernel.HostOps

end
-- ==== Proof.LaunchHostW.lean ====
/-
  The host stretches of @main on the TensorCore. The TensorCore holds all its unscoped buffers — @main's 121 arrays —
  whole, at a valuation; every listed operation reads and writes only such buffers, so a stretch runs to its end
  with the buffers at the fold of its operations over the valuation it started from.
-/
import proofs.«215677_g32066225832048_cont_9to1_32_28_alg».proof.Proof.MainShapeW
import proofs.«215677_g32066225832048_cont_9to1_32_28_alg».proof.Proof.LaunchElemW
import Idealize.ShloMosaic.Lib.Pipeline.Frame

noncomputable section

namespace Cert.Proof.WordLaunch

open Cert.Kernel Cert.Kernel.Gen Cert.Kernel.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [hFacts : Cert.Kernel.Facts]

local notation "𝕄" => MT nD τ sig (HIx 3) (Elt F) ℕ UU ℕ

/-- An operation that touches TensorCore references only touches unscoped ones only. -/
theorem sub_uc {ops : List (HloOp τ sig (Elt F))} (h : ops.Forall fun op => op.bufs ⊆ tcRefs τ sig) :
    ∀ op ∈ ops, op.bufs ⊆ Pipeline.ucRefs τ sig :=
  fun op hop => Pipeline.sub_ucRefs op (List.forall_iff_forall_mem.1 h op hop)

end Cert.Proof.WordLaunch

end
-- ==== Proof.HostWritesW.lean ====
/-
  Each host stretch of @main is in single-assignment form: its k-th operation writes exactly the k-th reference
  of the list given here, and no operation allocates a buffer.
-/
import proofs.«215677_g32066225832048_cont_9to1_32_28_alg».proof.Proof.HostOpsW
import proofs.«215677_g32066225832048_cont_9to1_32_28_alg».proof.Proof.LibAfterAssign

noncomputable section

namespace Cert.Kernel.HostOps

open Cert.Kernel Idealize.ShloMosaic Idealize.ShloMosaic.TcCoe Idealize.SL.Sem Idealize.ShloMosaic.StableHlo Cert.Lib.AfterAssign

variable {F : FTy → Type} [FloatOps F] [Cert.Kernel.Facts]

/-- The references stretch 0 writes, one per operation, in order. -/
abbrev ops0_ws : List (Ref sig .tc) :=
  [main_v0, main_v1, main_v2, main_v3, main_v4, main_c, main_v5, main_v6, main_c_0, main_v7, main_v8, main_cst, main_v9, main_cst_1, main_v10, main_v11, main_v12, main_v13, main_v14, main_v15, main_v16, main_v17, main_v18, main_v19, main_v20, main_cst_2, main_v21, main_v22, main_v23]
theorem ops0_writes : WritesAre (ops0 : List (HloOp τ sig (Elt F))) ops0_ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, trivial⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 1 writes, one per operation, in order. -/
abbrev ops1_ws : List (Ref sig .tc) :=
  [main_v26, main_cst_3, main_v27, main_v28, main_v29, main_v30, main_v31, main_v32, main_v33, main_v34, main_v35, main_v36, main_v37, main_v38, main_v39, main_v40, main_v41, main_v42, main_v43, main_v44, main_v45, main_v46, main_cst_4, main_v47, main_v48, main_v49]
theorem ops1_writes : WritesAre (ops1 : List (HloOp τ sig (Elt F))) ops1_ws :=
  ⟨rfl, rfl, rfl, rfl, rfl, rfl, rfl, rfl, rfl, rfl, rfl, rfl, rfl, rfl, rfl, rfl, rfl, rfl, rfl, rfl, rfl, rfl, rfl, rfl, rfl, rfl, trivial⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references stretch 2 writes, one per operation, in order. -/
abbrev ops2_ws : List (Ref sig .tc) :=
  [main_v52, main_cst_5, main_v53, main_v54, main_v55, main_v56, main_v57, main_v58, main_v59, main_v60, main_v61, main_v62, main_v63, main_v64, main_v65, main_v66, main_v67, main_v68, main_v69, main_v70, main_v71, main_v72, main_cst_6, main_v73, main_v74, main_v75]
theorem ops2_writes : WritesAre (ops2 : List (HloOp τ sig (Elt F))) ops2_ws :=
  ⟨rfl, rfl, rfl, rfl, rfl, rfl, rfl, rfl, rfl, rfl, rfl, rfl, rfl, rfl, rfl, rfl, rfl, rfl, rfl, rfl, rfl, rfl, rfl, rfl, rfl, rfl, trivial⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The references stretch 3 writes, one per operation, in order. -/
abbrev ops3_ws : List (Ref sig .tc) :=
  [main_v78, main_cst_7, main_v79, main_v80, main_v81, main_v82, main_v83, main_v84, main_v85, main_v86, main_v87, main_v88, main_v89, main_v90, main_v91, main_v92, main_v93]
theorem ops3_writes : WritesAre (ops3 : List (HloOp τ sig (Elt F))) ops3_ws :=
  ⟨rfl, rfl, rfl, rfl, rfl, rfl, rfl, rfl, rfl, rfl, rfl, rfl, rfl, rfl, rfl, rfl, rfl, trivial⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

end Cert.Kernel.HostOps

end
-- ==== Proof.LaunchMainW.lean ====
/-
  @main on the TensorCore, composed: host stretch, region, SparseCore call, three times over, then a last stretch and
  the last region. Between the pieces the TensorCore holds all its arrays whole at a valuation; a stretch moves the
  valuation to the fold of its operations; a SparseCore call takes the table, the two index arrays and the output out
  of the held set and puts them back, the output at what the tasks left; a region (its rule a hypothesis here) changes
  its output arrays only. The argument arrays and the two index arrays are written by nothing after the first stretch.
-/
import proofs.«215677_g32066225832048_cont_9to1_32_28_alg».proof.Proof.LaunchCallW
import proofs.«215677_g32066225832048_cont_9to1_32_28_alg».proof.Proof.LaunchHostW
import proofs.«215677_g32066225832048_cont_9to1_32_28_alg».proof.Proof.HostWritesW

noncomputable section

namespace Cert.Proof.WordLaunch

open Cert.Kernel Cert.Kernel.Gen Cert.Kernel.HostOps Cert.Lib.AfterAssign

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [hFacts : Cert.Kernel.Facts] [∀ e, Nonempty (Elt F e)]

local notation "𝕄" => MT nD τ sig (HIx 3) (Elt F) ℕ UU ℕ

/-! ## The held set -/

/-- All the TensorCore's arrays, whole, at a valuation. -/
abbrev heldU (d : Dev nD) (W : Valuation τ sig (Elt F)) : sProp 𝕄 := held (SparseCore.T d) (Pipeline.ucRefs τ sig) W

omit [FloatOps F] [∀ e, Nonempty (Elt F e)] in
/-- One buffer out of a held set. -/
theorem held_erase {c : Thread nD τ} {Sb : Finset (DevRef τ sig)} {b : DevRef τ sig} (hb : b ∈ Sb) (W : Valuation τ sig (Elt F)) :
    (held c Sb W : sProp 𝕄) = iprop(((c.1, b) ↦{fullShare} W b) ∗ held c (Sb.erase b) W) := by
  unfold held; exact bigSep_erase hb

omit [FloatOps F] [∀ e, Nonempty (Elt F e)] in
/-- and back, at new contents. -/
theorem held_put {c : Thread nD τ} {Sb : Finset (DevRef τ sig)} {b : DevRef τ sig} (hb : b ∈ Sb) (W : Valuation τ sig (Elt F)) (g : b.ty.Contents (Elt F)) :
    iprop(((c.1, b) ↦{fullShare} g) ∗ held c (Sb.erase b) W) ⊢ (held c Sb (Function.update W b g) : sProp 𝕄) := by
  rw [held_erase hb (Function.update W b g), Function.update_self,
    held_congr c (S := Sb.erase b) (V := Function.update W b g) (V' := W) fun b' hb' => Function.update_of_ne (Finset.ne_of_mem_erase hb') _ _]

theorem mem_uc (r : Ref sig .tc) (h : (Proc.devRef (τ := τ) .tc r).isScoped = false) : Proc.devRef (τ := τ) .tc r ∈ Pipeline.ucRefs τ sig :=
  Finset.mem_filter.mpr ⟨devRef_mem_tcRefs r, by simp [h]⟩

/-! ## The index arrays, and what nothing writes after the first stretch -/

/-- The two padded index arrays' contents: what the first stretch computes them to. -/
def conts (m : (ℓ : Loc nD τ sig) → Buf (Elt F) ℓ) : Conts F where
  src d := after ops0 (launchContents m d) (Proc.devRef .tc main_v6)
  dst d := after ops0 (launchContents m d) (Proc.devRef .tc main_v8)

theorem conts_src (m : (ℓ : Loc nD τ sig) → Buf (Elt F) ℓ) (d : Dev nD) :
    (conts m).src d = after ops0 (launchContents m d) (Proc.devRef .tc main_v6) := rfl
theorem conts_dst (m : (ℓ : Loc nD τ sig) → Buf (Elt F) ℓ) (d : Dev nD) :
    (conts m).dst d = after ops0 (launchContents m d) (Proc.devRef .tc main_v8) := rfl

/-- The thirteen arguments, -/
abbrev args : List (Ref sig .tc) :=
  [main_arg0, main_arg1, main_arg2, main_arg3, main_arg4, main_arg5, main_arg6, main_arg7, main_arg8, main_arg9, main_arg10, main_arg11, main_arg12]
/-- and with them the two index arrays. -/
abbrev kept : List (Ref sig .tc) := args ++ [main_v6, main_v8]

/-- `W'` holds at the references `L` what `W` held. -/
def Keeps (L : List (Ref sig .tc)) (W W' : Valuation τ sig (Elt F)) : Prop := ∀ r ∈ L, W' (Proc.devRef .tc r) = W (Proc.devRef .tc r)

omit [FloatOps F] [∀ e, Nonempty (Elt F e)] in
theorem Keeps.trans {L : List (Ref sig .tc)} {W W' W'' : Valuation τ sig (Elt F)} (h : Keeps L W W') (h' : Keeps L W' W'') : Keeps L W W'' :=
  fun r hr => (h' r hr).trans (h r hr)

omit [FloatOps F] [∀ e, Nonempty (Elt F e)] in
theorem Keeps.mono {L L' : List (Ref sig .tc)} {W W' : Valuation τ sig (Elt F)} (h : Keeps L W W') (hL : ∀ r ∈ L', r ∈ L) : Keeps L' W W' :=
  fun r hr => h r (hL r hr)

/-- A stretch that writes none of them keeps them. -/
theorem keeps_after {L : List (Ref sig .tc)} {ops : List (HloOp τ sig (Elt F))} {ws : List (Ref sig .tc)} (hw : WritesAre ops ws)
    (hk : ∀ r ∈ L, r ∉ ws) (W : Valuation τ sig (Elt F)) : Keeps L W (after ops W) :=
  fun r hr => after_of_not_written hw W (hk r hr)

omit [FloatOps F] [∀ e, Nonempty (Elt F e)] in
/-- Contents changed at references outside `L` only keep `L`. -/
theorem keeps_of_off {L outs : List (Ref sig .tc)} {W W' : Valuation τ sig (Elt F)}
    (h : ∀ r : Ref sig .tc, r ∉ outs → W' (Proc.devRef .tc r) = W (Proc.devRef .tc r)) (hL : ∀ r ∈ L, r ∉ outs) : Keeps L W W' :=
  fun r hr => h r (hL r hr)

omit [FloatOps F] [∀ e, Nonempty (Elt F e)] in
theorem keeps_update {L : List (Ref sig .tc)} {o : Ref sig .tc} (W : Valuation τ sig (Elt F)) (g : (Proc.devRef (τ := τ) .tc o).ty.Contents (Elt F))
    (hL : ∀ r ∈ L, r ≠ o) : Keeps L W (Function.update W (Proc.devRef .tc o) g) :=
  fun r hr => Function.update_of_ne (devRef_ne_of_ne (hL r hr)) _ _

/-! ## A SparseCore call from the held set -/

omit [FloatOps F] [∀ e, Nonempty (Elt F e)] in
theorem tab_ne_out (q : Fin 3) : tabRef q ≠ outRef q := by
  match q with
  | 0 => decide
  | 1 => decide
  | 2 => decide

/-- SparseCore call `q` and the rest of @main, from all the arrays held at `W` whose index arrays are the first
    stretch's: the rest runs with the call's output at some contents, everything else as it was. -/
theorem call_bind (m : (ℓ : Loc nD τ sig) → Buf (Elt F) ℓ) (κ : GSem nD τ sig → ℕ) (d : Dev nD) (q : Fin 3) (W : Valuation τ sig (Elt F))
    (hs : W (Proc.devRef .tc main_v6) = (conts m).src d) (hd : W (Proc.devRef .tc main_v8) = (conts m).dst d)
    {α : Type} (k : PUnit → Prog (TpuEff nD τ sig (Elt F) (SparseCore.Sig (Pipeline.Sig Λ₀ (Fin 4) fun p => (pcfgs (F := F) p).Adm) 3) .tc) α)
    {Φ : α → sProp 𝕄} :
    iprop((K (F := F)).ctx EH (P (conts m)) κ ∗ (K (F := F)).tcSt EH d q.val ∗ heldU d W
        ∗ (((K (F := F)).tcSt EH d (q.val + 1) ∗ ∃ g, heldU d (Function.update W (Proc.devRef .tc (outRef q)) g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  have h1 : Proc.devRef (τ := τ) .tc (tabRef q) ∈ Pipeline.ucRefs τ sig := mem_uc _ (by match q with | 0 => decide | 1 => decide | 2 => decide)
  have h2 : Proc.devRef (τ := τ) .tc main_v6 ∈ (Pipeline.ucRefs τ sig).erase (Proc.devRef .tc (tabRef q)) :=
    Finset.mem_erase.mpr ⟨devRef_ne_of_ne (by match q with | 0 => decide | 1 => decide | 2 => decide), mem_uc _ (by decide)⟩
  have h3 : Proc.devRef (τ := τ) .tc main_v8 ∈ ((Pipeline.ucRefs τ sig).erase (Proc.devRef .tc (tabRef q))).erase (Proc.devRef .tc main_v6) :=
    Finset.mem_erase.mpr ⟨devRef_ne_of_ne (by decide), Finset.mem_erase.mpr ⟨devRef_ne_of_ne (by match q with | 0 => decide | 1 => decide | 2 => decide), mem_uc _ (by decide)⟩⟩
  have h4 : Proc.devRef (τ := τ) .tc (outRef q)
      ∈ (((Pipeline.ucRefs τ sig).erase (Proc.devRef .tc (tabRef q))).erase (Proc.devRef .tc main_v6)).erase (Proc.devRef .tc main_v8) :=
    Finset.mem_erase.mpr ⟨devRef_ne_of_ne (by match q with | 0 => decide | 1 => decide | 2 => decide),
      Finset.mem_erase.mpr ⟨devRef_ne_of_ne (by match q with | 0 => decide | 1 => decide | 2 => decide),
        Finset.mem_erase.mpr ⟨devRef_ne_of_ne (tab_ne_out q).symm, mem_uc _ (by match q with | 0 => decide | 1 => decide | 2 => decide)⟩⟩⟩
  rw [wp_bind]
  unfold heldU
  rw [held_erase h1 W, held_erase h2 W, held_erase h3 W, held_erase h4 W, hs, hd]
  iintro ⟨#Hctx, Hst, ⟨Ht, Hs, Hd, Ho, Hrest⟩, Hk⟩
  iapply (call_step (conts m) κ d q (W (Proc.devRef .tc (tabRef q))) (W (Proc.devRef .tc (outRef q)))) $$ [Hst Ht Hs Hd Ho Hrest Hk]
  isplitr; · iexact Hctx
  isplitl [Hst]; · iexact Hst
  isplitl [Ht Hs Hd Ho]
  · isplitl [Ht]; · iexact Ht
    isplitl [Hs]; · iexact Hs
    isplitl [Hd]; · iexact Hd
    iexact Ho
  iintro ⟨Hst, Ht, Hs, Hd, %g, Ho⟩
  iapply Hk
  isplitl [Hst]; · iexact Hst
  iexists g
  -- the output back at `g`, then the three inputs back where they were
  ihave H4 := (held_put (F := F) h4 W g) $$ [Ho Hrest]
  · isplitl [Ho]; · iexact Ho
    iexact Hrest
  ihave Hd' := (Entails.of_eq (congrArg (fun x => ((SparseCore.T d).1, Proc.devRef (τ := τ) .tc main_v8) ↦{fullShare} x)
    ((Function.update_of_ne (devRef_ne_of_ne (by match q with | 0 => decide | 1 => decide | 2 => decide)) g W).trans hd).symm)) $$ Hd
  ihave H3 := (Entails.of_eq (held_erase (F := F) h3 (Function.update W (Proc.devRef .tc (outRef q)) g)).symm) $$ [Hd' H4]
  · isplitl [Hd']; · iexact Hd'
    iexact H4
  ihave Hs' := (Entails.of_eq (congrArg (fun x => ((SparseCore.T d).1, Proc.devRef (τ := τ) .tc main_v6) ↦{fullShare} x)
    ((Function.update_of_ne (devRef_ne_of_ne (by match q with | 0 => decide | 1 => decide | 2 => decide)) g W).trans hs).symm)) $$ Hs
  ihave H2 := (Entails.of_eq (held_erase (F := F) h2 (Function.update W (Proc.devRef .tc (outRef q)) g)).symm) $$ [Hs' H3]
  · isplitl [Hs']; · iexact Hs'
    iexact H3
  ihave Ht' := (Entails.of_eq (congrArg (fun x => ((SparseCore.T d).1, Proc.devRef (τ := τ) .tc (tabRef q)) ↦{fullShare} x)
    (Function.update_of_ne (devRef_ne_of_ne (tab_ne_out q)) g W).symm)) $$ Ht
  ihave H1 := (Entails.of_eq (held_erase (F := F) h1 (Function.update W (Proc.devRef .tc (outRef q)) g)).symm) $$ [Ht' H2]
  · isplitl [Ht']; · iexact Ht'
    iexact H2
  iexact H1

/-! ## A region, as @main needs it -/

/-- The rule @main needs of TensorCore region `p`, entered before SparseCore call `n`: from all the arrays held at
    `W` and the pipeline's staging cells' launch state, the rest of @main runs with the arrays held at contents that
    differ from `W` at the region's output arrays `outs` only; the TensorCore's handshake state is as before. -/
def RegionStep (C : Conts F) (p : Fin 4) (outs : List (Ref sig .tc)) (n : ℕ) : Prop :=
  ∀ (κ : GSem nD τ sig → ℕ) (d : Dev nD) (W : Valuation τ sig (Elt F)) {α : Type}
    (k : PUnit → Prog (TpuEff nD τ sig (Elt F) (SparseCore.Sig (Pipeline.Sig Λ₀ (Fin 4) fun p => (pcfgs (F := F) p).Adm) 3) .tc) α)
    (Φ : α → sProp 𝕄),
    iprop((K (F := F)).ctx EH (P C) κ ∗ (K (F := F)).tcSt EH d n ∗ boundary (SparseCore.T d) ∗ heldU d W
        ∗ iprop(Pipeline.cellsGhost cfgs (EK (F := F)) p d ∗ Pipeline.toksInit cfgs (EK (F := F)) p d)
        ∗ (((K (F := F)).tcSt EH d n ∗ boundary (SparseCore.T d)
              ∗ ∃ W', ⌜∀ r : Ref sig .tc, r ∉ outs → W' (Proc.devRef .tc r) = W (Proc.devRef .tc r)⌝ ∗ heldU d W')
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (enter p >>= k) Φ

/-! ## @main -/

/-- What @main ends holding: all the arrays, the arguments at their launch contents. -/
def FIN (m : (ℓ : Loc nD τ sig) → Buf (Elt F) ℓ) (d : Dev nD) : sProp 𝕄 :=
  iprop(∃ W, ⌜Keeps args (launchContents m d) W⌝ ∗ heldU d W)

omit [FloatOps F] [∀ e, Nonempty (Elt F e)] in
theorem G_four (d : Dev nD) :
    (G (F := F) d : sProp 𝕄) = iprop((Pipeline.cellsGhost cfgs (EK (F := F)) 0 d ∗ Pipeline.toksInit cfgs (EK (F := F)) 0 d)
      ∗ (Pipeline.cellsGhost cfgs (EK (F := F)) 1 d ∗ Pipeline.toksInit cfgs (EK (F := F)) 1 d)
      ∗ (Pipeline.cellsGhost cfgs (EK (F := F)) 2 d ∗ Pipeline.toksInit cfgs (EK (F := F)) 2 d)
      ∗ (Pipeline.cellsGhost cfgs (EK (F := F)) 3 d ∗ Pipeline.toksInit cfgs (EK (F := F)) 3 d)) := by
  unfold G
  exact bigSep_univ_eq_bigSepL [(0 : Fin 4), (1 : Fin 4), (2 : Fin 4), (3 : Fin 4)] (by decide) (by decide) _

set_option backward.isDefEq.respectTransparency.types false in
set_option maxHeartbeats 4000000 in
/-- @main on the TensorCore of `d`, from what the launch deals it. -/
theorem hmain (m : (ℓ : Loc nD τ sig) → Buf (Elt F) ℓ) (ρ : Dev nD → PrngReg)
    (hr0 : RegionStep (conts m) 0 [main_v24_0, main_v24_1] 0) (hr1 : RegionStep (conts m) 1 [main_v50_0, main_v50_1] 1)
    (hr2 : RegionStep (conts m) 2 [main_v76_0, main_v76_1] 2) (hr3 : RegionStep (conts m) 3 [main_v94] 3)
    (κ : GSem nD τ sig → ℕ) (d : Dev nD) :
    iprop((K (F := F)).ctx EH (P (conts m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d) := by
  rw [main_eq d, G_four]
  unfold SparseCore.Cfg.tcRes
  iintro ⟨#Hctx, Hst, ⟨Hb, Hbufs, -, -⟩, Hg0, Hg1, Hg2, Hg3⟩
  ihave Hbufs := (Entails.of_eq (Pipeline.unscopedBufs_held (Ix := HIx 3) (Name := ℕ) (U := UU) (Lvl := ℕ) d (launchContents m d))) $$ Hbufs
  -- the first stretch
  iapply (wp_seq 𝒱 none Set.univ d (Pipeline.ucRefs τ sig) _ ops0 (sub_uc ops0_tc) (List.forall_iff_forall_mem.1 ops0_fresh) (launchContents m d)) $$ [Hb Hbufs]
  · isplitl [Hb]; · iexact Hb
    iexact Hbufs
  iintro ⟨Hb, Hbufs⟩
  have k0 : Keeps args (launchContents m d) (after ops0 (launchContents m d)) := keeps_after ops0_writes (by decide) _
  -- region 0
  iapply (hr0 κ d (after ops0 (launchContents m d)) _ _) $$ [Hst Hb Hbufs Hg0 Hg1 Hg2 Hg3]
  isplitr; · iexact Hctx
  isplitl [Hst]; · iexact Hst
  isplitl [Hb]; · iexact Hb
  isplitl [Hbufs]; · iexact Hbufs
  isplitl [Hg0]; · iexact Hg0
  iintro ⟨Hst, Hb, %W1, %h1, Hbufs⟩
  have k1 : Keeps kept (after ops0 (launchContents m d)) W1 := keeps_of_off h1 (by decide)
  -- call 0
  iapply (call_bind m κ d 0 W1 ((k1 main_v6 (by decide)).trans (conts_src m d).symm) ((k1 main_v8 (by decide)).trans (conts_dst m d).symm) _) $$ [Hst Hb Hbufs Hg1 Hg2 Hg3]
  isplitr; · iexact Hctx
  isplitl [Hst]; · iexact Hst
  isplitl [Hbufs]; · iexact Hbufs
  iintro ⟨Hst, %g0, Hbufs⟩
  have k2 : Keeps kept W1 (Function.update W1 (Proc.devRef .tc (outRef 0)) g0) := keeps_update W1 g0 (by decide)
  -- the second stretch
  iapply (wp_seq 𝒱 none Set.univ d (Pipeline.ucRefs τ sig) _ ops1 (sub_uc ops1_tc) (List.forall_iff_forall_mem.1 ops1_fresh) _) $$ [Hb Hbufs]
  · isplitl [Hb]; · iexact Hb
    iexact Hbufs
  iintro ⟨Hb, Hbufs⟩
  have k3 := (k1.trans k2).trans (keeps_after (L := kept) ops1_writes (by decide) (Function.update W1 (Proc.devRef .tc (outRef 0)) g0))
  -- region 1
  iapply (hr1 κ d _ _ _) $$ [Hst Hb Hbufs Hg1 Hg2 Hg3]
  isplitr; · iexact Hctx
  isplitl [Hst]; · iexact Hst
  isplitl [Hb]; · iexact Hb
  isplitl [Hbufs]; · iexact Hbufs
  isplitl [Hg1]; · iexact Hg1
  iintro ⟨Hst, Hb, %W2, %h2, Hbufs⟩
  have k4 := k3.trans (keeps_of_off (L := kept) h2 (by decide))
  -- call 1
  iapply (call_bind m κ d 1 W2 ((k4 main_v6 (by decide)).trans (conts_src m d).symm) ((k4 main_v8 (by decide)).trans (conts_dst m d).symm) _) $$ [Hst Hb Hbufs Hg2 Hg3]
  isplitr; · iexact Hctx
  isplitl [Hst]; · iexact Hst
  isplitl [Hbufs]; · iexact Hbufs
  iintro ⟨Hst, %g1, Hbufs⟩
  have k5 := k4.trans (keeps_update (L := kept) W2 g1 (by decide))
  -- the third stretch
  iapply (wp_seq 𝒱 none Set.univ d (Pipeline.ucRefs τ sig) _ ops2 (sub_uc ops2_tc) (List.forall_iff_forall_mem.1 ops2_fresh) _) $$ [Hb Hbufs]
  · isplitl [Hb]; · iexact Hb
    iexact Hbufs
  iintro ⟨Hb, Hbufs⟩
  have k6 := k5.trans (keeps_after (L := kept) ops2_writes (by decide) (Function.update W2 (Proc.devRef .tc (outRef 1)) g1))
  -- region 2
  iapply (hr2 κ d _ _ _) $$ [Hst Hb Hbufs Hg2 Hg3]
  isplitr; · iexact Hctx
  isplitl [Hst]; · iexact Hst
  isplitl [Hb]; · iexact Hb
  isplitl [Hbufs]; · iexact Hbufs
  isplitl [Hg2]; · iexact Hg2
  iintro ⟨Hst, Hb, %W3, %h3, Hbufs⟩
  have k7 := k6.trans (keeps_of_off (L := kept) h3 (by decide))
  -- call 2
  iapply (call_bind m κ d 2 W3 ((k7 main_v6 (by decide)).trans (conts_src m d).symm) ((k7 main_v8 (by decide)).trans (conts_dst m d).symm) _) $$ [Hst Hb Hbufs Hg3]
  isplitr; · iexact Hctx
  isplitl [Hst]; · iexact Hst
  isplitl [Hbufs]; · iexact Hbufs
  iintro ⟨Hst, %g2, Hbufs⟩
  have k8 := k7.trans (keeps_update (L := kept) W3 g2 (by decide))
  -- the last stretch
  iapply (wp_seq 𝒱 none Set.univ d (Pipeline.ucRefs τ sig) _ ops3 (sub_uc ops3_tc) (List.forall_iff_forall_mem.1 ops3_fresh) _) $$ [Hb Hbufs]
  · isplitl [Hb]; · iexact Hb
    iexact Hbufs
  iintro ⟨Hb, Hbufs⟩
  have k9 := k8.trans (keeps_after (L := kept) ops3_writes (by decide) (Function.update W3 (Proc.devRef .tc (outRef 2)) g2))
  -- the last region
  iapply (hr3 κ d _ _ _) $$ [Hst Hb Hbufs Hg3]
  isplitr; · iexact Hctx
  isplitl [Hst]; · iexact Hst
  isplitl [Hb]; · iexact Hb
  isplitl [Hbufs]; · iexact Hbufs
  isplitl [Hg3]; · iexact Hg3
  iintro ⟨Hst, -, %W4, %h4, Hbufs⟩
  have k10 := k9.trans (keeps_of_off (L := kept) h4 (by decide))
  rw [wp_pure]; imodintro
  isplitl [Hst]; · iexact Hst
  unfold FIN
  iexists W4
  isplitr
  · ipureintro
    exact k0.trans (k10.mono (fun r hr => List.mem_append_left _ hr))
  iexact Hbufs

/-- The arguments in a final memory are the launch's. -/
def fq (m : (ℓ : Loc nD τ sig) → Buf (Elt F) ℓ) (d : Dev nD) (s' : Phys nD τ sig (Elt F)) : Prop :=
  ∀ r ∈ args, s'.mem.mem ((SparseCore.T d).loc r) = m ((SparseCore.T d).loc r)

omit [FloatOps F] [∀ e, Nonempty (Elt F e)] in
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN heldU held
  iintro ⟨⟨%W, %hW, H⟩, HSI⟩
  ihave %h := (SI_pointsTo_bufs_agree (qs := fun _ => fullShare) (Pipeline.ucRefs τ sig)) $$ [HSI H]
  · isplitl [HSI]; · iexact HSI
    iexact H
  ipureintro
  intro r hr
  exact (h _ (mem_uc r (by revert r; decide))).trans (hW r hr)

end Cert.Proof.WordLaunch

end
-- ==== Proof.LaunchTileCommonW.lean ====
/-
  What the three SparseCore calls' task obligations share: that the index arrays' entries name rows of the table, and
  two re-packings — closing the contents a task found back into "some contents", and weakening the recorded waits.
-/
import proofs.«215677_g32066225832048_cont_9to1_32_28_alg».proof.Proof.LaunchElemW

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts]

local notation "𝕄" => MT nD τ sig (HIx 3) (Elt F) ℕ UU ℕ

variable (C : Conts F)

/-- Every entry of the two padded index arrays names a row of the 50008-row table. -/
def IdxOK : Prop := ∀ d : Dev nD, (∀ j, (C.src d j).toNat < 50008) ∧ ∀ j, (C.dst d j).toNat < 50008

omit [FloatOps F] in
theorem obl_post {thr : Thread nD τ} {A B C' : sProp 𝕄} {O : CellTallies nD τ sig (HIx 3)} {W : Waits sig (HIx 3)} {q : Fin 3} :
    iprop(A ∗ B ∗ C' ∗ ∃ W', ⌜∀ p ∈ W', p ∈ W ∨ p.2 = none⌝ ∗ owes thr O W')
      ⊢ iprop(A ∗ B ∗ C' ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- Closing the contents a task found or left back into "some contents". -/
theorem repack {ℓt ℓo : Loc nD τ sig} {I : Finset (Idx ℓo)} {sh : PosShare TreeShare} {ft : Buf (Elt F) ℓt} {Sx Dx B C' X : sProp 𝕄} :
    iprop(((ℓt ↦{sh} ft) ∗ Sx ∗ Dx ∗ ∃ f, ℓo ↦[I]{fullShare} f) ∗ B ∗ C' ∗ X)
      ⊢ (iprop(((∃ f, ℓt ↦{sh} f) ∗ Sx ∗ Dx ∗ ∃ f, ℓo ↦[I]{fullShare} f) ∗ B ∗ C' ∗ X) : sProp 𝕄) := by
  iintro ⟨⟨Ht, Hs, Hd, Ho⟩, Hb, Hc, Hx⟩
  isplitl [Ht Hs Hd Ho]
  · isplitl [Ht]; · iexists ft; iexact Ht
    isplitl [Hs]; · iexact Hs
    isplitl [Hd]; · iexact Hd
    iexact Ho
  isplitl [Hb]; · iexact Hb
  isplitl [Hc]; · iexact Hc
  iexact Hx

end Cert.Proof.WordLaunch

end
-- ==== Proof.EdgeTileW.lean ====
/-
  One vector subcore's task of the edge kernel (the first SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.Kernel
import proofs.«215677_g32066225832048_cont_9to1_32_28_alg».proof.Proof.Gen.Kernel.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.WEdgeTile

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid1.Coords) : Fin τ.nSC := (L 0).castLE hcore1
abbrev jV (L : grid1.Coords) : Fin τ.nSub := (L 1).castLE hsub1

local notation "tabW" => (Memref.whole Cert.Kernel.main_v24_1_scv : Memref Cert.Kernel.sig Kind.scVector Space.hbm Cert.Kernel.S50008x128 EltTy.f32)
local notation "srcW" => (Memref.whole Cert.Kernel.main_v6_scv : Memref Cert.Kernel.sig Kind.scVector Space.hbm Cert.Kernel.S819200 EltTy.i32)
local notation "dstW" => (Memref.whole Cert.Kernel.main_v8_scv : Memref Cert.Kernel.sig Kind.scVector Space.hbm Cert.Kernel.S819200 EltTy.i32)
local notation "outW" => (Memref.whole Cert.Kernel.main_v25_scv : Memref Cert.Kernel.sig Kind.scVector Space.hbm Cert.Kernel.S819200x64 EltTy.f32)
local notation "s0W" => (Memref.whole Cert.Kernel.cc1_scratch0 : Memref Cert.Kernel.sig Kind.scVector Space.vmem Cert.Kernel.S64 EltTy.i32)
local notation "s1W" => (Memref.whole Cert.Kernel.cc1_scratch1 : Memref Cert.Kernel.sig Kind.scVector Space.vmem Cert.Kernel.S64 EltTy.i32)
local notation "s2W" => (Memref.whole Cert.Kernel.cc1_scratch2 : Memref Cert.Kernel.sig Kind.scVector Space.vmem Cert.Kernel.S64x128 EltTy.f32)
local notation "s3W" => (Memref.whole Cert.Kernel.cc1_scratch3 : Memref Cert.Kernel.sig Kind.scVector Space.vmem Cert.Kernel.S64x128 EltTy.f32)
local notation "s4W" => (Memref.whole Cert.Kernel.cc1_scratch4 : Memref Cert.Kernel.sig Kind.scVector Space.vmem Cert.Kernel.S64x64 EltTy.f32)

abbrev thr (d : Dev nD) (L : grid1.Coords) : Thread nD τ := V d (cV L) (jV L)

/-- Chunk `k` of tile `L`'s rows of the output, as the kernel slices it. -/
abbrev outChunk (L : grid1.Coords) (k : Fin k1_t1_loop.trips) : Memref sig .scVector .hbm S64x64 .f32 :=
  (outW).slice (Rect.unit (s := S819200x64) (k1_off14 L k) S64x64.size (k1_off14_inb L k)) (fun _ => rfl)

/-! ## The tile's rows of the output -/

theorem hdiv32 : 32 ∣ S819200x64.size 0 := ⟨25600, rfl⟩

/-- The tile's number among the 32: sixteen per SparseCore. -/
def wid (L : grid1.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid1.Coords) : Finset S819200x64.Idx := (Rect.part (s := S819200x64) (a₀ := 0) hdiv32 (wid L)).set

theorem chunk_set (L : grid1.Coords) (k : Fin k1_t1_loop.trips) :
    (outChunk L k).view.set = (Rect.unit (s := S819200x64) (k1_off14 L k) S64x64.size (k1_off14_inb L k)).set := by
  show ((View.whole (main_v25_scv : Ref sig .scVector)).slice _).set = _
  rw [View.set_slice]; exact Finset.map_refl

/-- Chunk `k` of the tile lies within the tile's rows: `64 k + 64 ≤ 25600`. -/
theorem chunk_sub (L : grid1.Coords) (k : Fin k1_t1_loop.trips) : (outChunk L k).view.set ⊆ outRows L := by
  intro x hx
  rw [chunk_set, Rect.mem_set_unit] at hx
  refine Rect.mem_set_unit.mpr fun a => ?_
  have h := hx a
  rw [k1_off14_eq] at h
  have hk : k.val < 400 := Nat.lt_of_lt_of_le k.isLt k1_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid1.Coords) (k : Fin k1_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k1_off1 L k) S64.size (k1_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid1.Coords) (k : Fin k1_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k1_off1 L k) S64.size (k1_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid1.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc1_scratch5.sem) 0 ∗ semVal (thr d L, SemLoc.dma cc1_scratch6.sem) 0
    ∗ semVal (thr d L, SemLoc.dma cc1_scoped0.sem) 0 ∗ semVal (thr d L, SemLoc.dma cc1_scoped1.sem) 0 ∗ semVal (thr d L, SemLoc.dma cc1_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid1.Coords) (k : Fin k1_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid1.Coords) (k : Fin k1_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => inv1 (F := F) (UU := UU) d L sh TAB SRC DST O W 0 ⟨⟩ := by
  simp only [cc1__edge_kernel_eq_skeleton]; unfold cc1__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc1_scratch5.sem
abbrev m6 : SemLoc sig := .dma cc1_scratch6.sem
abbrev n0 : SemLoc sig := .dma cc1_scoped0.sem
abbrev n1 : SemLoc sig := .dma cc1_scoped1.sem
abbrev n2 : SemLoc sig := .dma cc1_scoped2.sem
abbrev g5 (d : Dev nD) (L : grid1.Coords) : GSem nD τ sig := (thr d L, m5)
abbrev g6 (d : Dev nD) (L : grid1.Coords) : GSem nD τ sig := (thr d L, m6)
abbrev c0 (d : Dev nD) (L : grid1.Coords) : GSem nD τ sig := (thr d L, n0)
abbrev c1 (d : Dev nD) (L : grid1.Coords) : GSem nD τ sig := (thr d L, n1)
abbrev c2 (d : Dev nD) (L : grid1.Coords) : GSem nD τ sig := (thr d L, n2)

theorem sem_ne (d : Dev nD) (L : grid1.Coords) {a b : SemLoc sig} (h : a ≠ b) : ((thr d L, a) : GSem nD τ sig) ≠ (thr d L, b) :=
  fun e => h (congrArg Prod.snd e)

theorem mem_own (d : Dev nD) (L : grid1.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid1.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid1.Coords) : Proc τ := Proc.scVector (cV L) (jV L)

theorem ref_ne (L : grid1.Coords) {a b : Ref sig .scVector} (h : a ≠ b) : (pV L).devRef a ≠ (pV L).devRef b :=
  fun e => h (Proc.devRef_injective _ e)

theorem mem_refs (L : grid1.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ (∃ f, (thr d L).loc cc1_scratch3 ↦{fullShare} f) ∗ (∃ f, (thr d L).loc cc1_scratch4 ↦{fullShare} f)
          ∗ bigSep ((((((ownRefs (τ := τ) (pV L)).erase ((pV L).devRef cc1_scratch0)).erase ((pV L).devRef cc1_scratch1)).erase ((pV L).devRef cc1_scratch2)).erase
              ((pV L).devRef cc1_scratch3)).erase ((pV L).devRef cc1_scratch4))
              fun b => iprop(∃ f, ((d, b) : Loc nD τ sig) ↦{fullShare} f)) := by
  unfold SparseCore.Cfg.ownBufs
  refine (SparseCore.bigSep_erase' (mem_refs L cc1_scratch0 rfl)).trans ?_
  rw [SparseCore.bigSep_erase' (mem_erase_of (ref_ne L (a := cc1_scratch1) (b := cc1_scratch0) (by decide)) (mem_refs L cc1_scratch1 rfl)),
    SparseCore.bigSep_erase' (mem_erase_of (ref_ne L (a := cc1_scratch2) (b := cc1_scratch1) (by decide)) (mem_erase_of (ref_ne L (a := cc1_scratch2) (b := cc1_scratch0) (by decide)) (mem_refs L cc1_scratch2 rfl))),
    SparseCore.bigSep_erase' (mem_erase_of (ref_ne L (a := cc1_scratch3) (b := cc1_scratch2) (by decide)) (mem_erase_of (ref_ne L (a := cc1_scratch3) (b := cc1_scratch1) (by decide)) (mem_erase_of (ref_ne L (a := cc1_scratch3) (b := cc1_scratch0) (by decide)) (mem_refs L cc1_scratch3 rfl)))),
    SparseCore.bigSep_erase' (mem_erase_of (ref_ne L (a := cc1_scratch4) (b := cc1_scratch3) (by decide)) (mem_erase_of (ref_ne L (a := cc1_scratch4) (b := cc1_scratch2) (by decide)) (mem_erase_of (ref_ne L (a := cc1_scratch4) (b := cc1_scratch1) (by decide)) (mem_erase_of (ref_ne L (a := cc1_scratch4) (b := cc1_scratch0) (by decide)) (mem_refs L cc1_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid1.Coords) (sh : PosShare TreeShare)
    (TAB : Buf (Elt F) ((SparseCore.T d).loc main_v24_1)) (SRC : Buf (Elt F) ((SparseCore.T d).loc main_v6)) (DST : Buf (Elt F) ((SparseCore.T d).loc main_v8))
    (OUT0 : Buf (Elt F) ((SparseCore.T d).loc main_v25))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v24_1 ↦{sh} TAB) ∗ ((SparseCore.T d).loc main_v6 ↦{sh} SRC) ∗ ((SparseCore.T d).loc main_v8 ↦{sh} DST) ∗ ((SparseCore.T d).loc main_v25 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => iprop((((SparseCore.T d).loc main_v24_1 ↦{sh} TAB) ∗ ((SparseCore.T d).loc main_v6 ↦{sh} SRC) ∗ ((SparseCore.T d).loc main_v8 ↦{sh} DST) ∗ ∃ f, (SparseCore.T d).loc main_v25 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.WEdgeTile
-- ==== Proof.LaunchTile1W.lean ====
/-
  The first SparseCore call's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommonW
import proofs.«215677_g32066225832048_cont_9to1_32_28_alg».proof.Proof.EdgeTileW

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts]

local notation "𝕄" => MT nD τ sig (HIx 3) (Elt F) ℕ UU ℕ

variable (C : Conts F)

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__edge_kernel (coordsV1 c s)
          (Memref.whole main_v24_1_scv) (Memref.isWhole_whole _) (Memref.whole main_v6_scv) (Memref.isWhole_whole _)
          (Memref.whole main_v8_scv) (Memref.isWhole_whole _) (Memref.whole main_v25_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) cc1_scratch5 cc1_scratch6 cc1_scoped0 cc1_scoped1 cc1_scoped2) ⟨⟩ c s := rfl

set_option maxHeartbeats 4000000 in
theorem tileObl0 (hOK : IdxOK C) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  have hbody : ∀ (ft : Buf (Elt F) (locOf d main_v24_1)) (fo : Buf (Elt F) (locOf d main_v25)),
      iprop(levAts (K (F := F)).L (K (F := F)).lev
          ∗ ((locOf d main_v24_1 ↦{tsh (tix 0 c i)} ft) ∗ (srcLoc d ↦{tsh (tix 0 c i)} C.src d) ∗ (dstLoc d ↦{tsh (tix 0 c i)} C.dst d)
              ∗ (locOf d main_v25 ↦[tileRows 0 d (tix 0 c i)]{fullShare} fo))
          ∗ scopedBufs (V d ((K (F := F)).core 0 c) ((K (F := F)).sub 0 i)) ∗ scopedSems0 (V d ((K (F := F)).core 0 c) ((K (F := F)).sub 0 i))
          ∗ owes (V d ((K (F := F)).core 0 c) ((K (F := F)).sub 0 i)) O W)
        ⊢ wp frame (wpE (defs₀ (F := F)) 𝒱₀ (V d ((K (F := F)).core 0 c) ((K (F := F)).sub 0 i)) none) Set.univ _
            (fun _ => (iprop(goResAt C main_v24_1 main_v25 d (tileRows 0 d) (tix 0 c i)
              ∗ scopedBufs (V d ((K (F := F)).core 0 c) ((K (F := F)).sub 0 i)) ∗ scopedSems0 (V d ((K (F := F)).core 0 c) ((K (F := F)).sub 0 i))
              ∗ ∃ W', ⌜∀ p ∈ W', p ∈ W ∨ p.2 = none ∨ p.2 = some (0 : Fin 3)⌝ ∗ owes (V d ((K (F := F)).core 0 c) ((K (F := F)).sub 0 i)) O W') : sProp 𝕄)) :=
    fun ft fo => (WEdgeTile.tile_body (F := F) facts d (coordsV1 ⟨_, hc.1⟩ ⟨_, hc.2⟩) (tsh (tix 0 c i)) ft (C.src d) (C.dst d) fo
        (hOK d).1 (hOK d).2 O W hO).trans (wp_mono frame _ _ fun _ => (repack (F := F)).trans (obl_post (q := (0 : Fin 3))))
  show iprop(levAts (K (F := F)).L (K (F := F)).lev ∗ iprop(emp)
      ∗ iprop((∃ f, locOf d main_v24_1 ↦{tsh (tix 0 c i)} f) ∗ (srcLoc d ↦{tsh (tix 0 c i)} C.src d) ∗ (dstLoc d ↦{tsh (tix 0 c i)} C.dst d)
          ∗ ∃ f, locOf d main_v25 ↦[tileRows 0 d (tix 0 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.WordLaunch

end
-- ==== Proof.EdgeTile3W.lean ====
/-
  One vector subcore's task of the edge kernel (the second SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.Kernel
import proofs.«215677_g32066225832048_cont_9to1_32_28_alg».proof.Proof.Gen.Kernel.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.WEdgeTile3

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid3.Coords) : Fin τ.nSC := (L 0).castLE hcore3
abbrev jV (L : grid3.Coords) : Fin τ.nSub := (L 1).castLE hsub3

local notation "tabW" => (Memref.whole Cert.Kernel.main_v50_1_scv : Memref Cert.Kernel.sig Kind.scVector Space.hbm Cert.Kernel.S50008x128 EltTy.f32)
local notation "srcW" => (Memref.whole Cert.Kernel.main_v6_scv : Memref Cert.Kernel.sig Kind.scVector Space.hbm Cert.Kernel.S819200 EltTy.i32)
local notation "dstW" => (Memref.whole Cert.Kernel.main_v8_scv : Memref Cert.Kernel.sig Kind.scVector Space.hbm Cert.Kernel.S819200 EltTy.i32)
local notation "outW" => (Memref.whole Cert.Kernel.main_v51_scv : Memref Cert.Kernel.sig Kind.scVector Space.hbm Cert.Kernel.S819200x64 EltTy.f32)
local notation "s0W" => (Memref.whole Cert.Kernel.cc3_scratch0 : Memref Cert.Kernel.sig Kind.scVector Space.vmem Cert.Kernel.S64 EltTy.i32)
local notation "s1W" => (Memref.whole Cert.Kernel.cc3_scratch1 : Memref Cert.Kernel.sig Kind.scVector Space.vmem Cert.Kernel.S64 EltTy.i32)
local notation "s2W" => (Memref.whole Cert.Kernel.cc3_scratch2 : Memref Cert.Kernel.sig Kind.scVector Space.vmem Cert.Kernel.S64x128 EltTy.f32)
local notation "s3W" => (Memref.whole Cert.Kernel.cc3_scratch3 : Memref Cert.Kernel.sig Kind.scVector Space.vmem Cert.Kernel.S64x128 EltTy.f32)
local notation "s4W" => (Memref.whole Cert.Kernel.cc3_scratch4 : Memref Cert.Kernel.sig Kind.scVector Space.vmem Cert.Kernel.S64x64 EltTy.f32)

abbrev thr (d : Dev nD) (L : grid3.Coords) : Thread nD τ := V d (cV L) (jV L)

/-- Chunk `k` of tile `L`'s rows of the output, as the kernel slices it. -/
abbrev outChunk (L : grid3.Coords) (k : Fin k3_t1_loop.trips) : Memref sig .scVector .hbm S64x64 .f32 :=
  (outW).slice (Rect.unit (s := S819200x64) (k3_off14 L k) S64x64.size (k3_off14_inb L k)) (fun _ => rfl)

/-! ## The tile's rows of the output -/

theorem hdiv32 : 32 ∣ S819200x64.size 0 := ⟨25600, rfl⟩

/-- The tile's number among the 32: sixteen per SparseCore. -/
def wid (L : grid3.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid3.Coords) : Finset S819200x64.Idx := (Rect.part (s := S819200x64) (a₀ := 0) hdiv32 (wid L)).set

theorem chunk_set (L : grid3.Coords) (k : Fin k3_t1_loop.trips) :
    (outChunk L k).view.set = (Rect.unit (s := S819200x64) (k3_off14 L k) S64x64.size (k3_off14_inb L k)).set := by
  show ((View.whole (main_v51_scv : Ref sig .scVector)).slice _).set = _
  rw [View.set_slice]; exact Finset.map_refl

/-- Chunk `k` of the tile lies within the tile's rows: `64 k + 64 ≤ 25600`. -/
theorem chunk_sub (L : grid3.Coords) (k : Fin k3_t1_loop.trips) : (outChunk L k).view.set ⊆ outRows L := by
  intro x hx
  rw [chunk_set, Rect.mem_set_unit] at hx
  refine Rect.mem_set_unit.mpr fun a => ?_
  have h := hx a
  rw [k3_off14_eq] at h
  have hk : k.val < 400 := Nat.lt_of_lt_of_le k.isLt k3_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid3.Coords) (k : Fin k3_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k3_off1 L k) S64.size (k3_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid3.Coords) (k : Fin k3_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k3_off1 L k) S64.size (k3_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid3.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc3_scratch5.sem) 0 ∗ semVal (thr d L, SemLoc.dma cc3_scratch6.sem) 0
    ∗ semVal (thr d L, SemLoc.dma cc3_scoped0.sem) 0 ∗ semVal (thr d L, SemLoc.dma cc3_scoped1.sem) 0 ∗ semVal (thr d L, SemLoc.dma cc3_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid3.Coords) (k : Fin k3_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid3.Coords) (k : Fin k3_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => inv1 (F := F) (UU := UU) d L sh TAB SRC DST O W 0 ⟨⟩ := by
  simp only [cc3__edge_kernel_eq_skeleton]; unfold cc3__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc3_scratch5.sem
abbrev m6 : SemLoc sig := .dma cc3_scratch6.sem
abbrev n0 : SemLoc sig := .dma cc3_scoped0.sem
abbrev n1 : SemLoc sig := .dma cc3_scoped1.sem
abbrev n2 : SemLoc sig := .dma cc3_scoped2.sem
abbrev g5 (d : Dev nD) (L : grid3.Coords) : GSem nD τ sig := (thr d L, m5)
abbrev g6 (d : Dev nD) (L : grid3.Coords) : GSem nD τ sig := (thr d L, m6)
abbrev c0 (d : Dev nD) (L : grid3.Coords) : GSem nD τ sig := (thr d L, n0)
abbrev c1 (d : Dev nD) (L : grid3.Coords) : GSem nD τ sig := (thr d L, n1)
abbrev c2 (d : Dev nD) (L : grid3.Coords) : GSem nD τ sig := (thr d L, n2)

theorem sem_ne (d : Dev nD) (L : grid3.Coords) {a b : SemLoc sig} (h : a ≠ b) : ((thr d L, a) : GSem nD τ sig) ≠ (thr d L, b) :=
  fun e => h (congrArg Prod.snd e)

theorem mem_own (d : Dev nD) (L : grid3.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid3.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid3.Coords) : Proc τ := Proc.scVector (cV L) (jV L)

theorem ref_ne (L : grid3.Coords) {a b : Ref sig .scVector} (h : a ≠ b) : (pV L).devRef a ≠ (pV L).devRef b :=
  fun e => h (Proc.devRef_injective _ e)

theorem mem_refs (L : grid3.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid3.Coords) :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ (∃ f, (thr d L).loc cc3_scratch3 ↦{fullShare} f) ∗ (∃ f, (thr d L).loc cc3_scratch4 ↦{fullShare} f)
          ∗ bigSep ((((((ownRefs (τ := τ) (pV L)).erase ((pV L).devRef cc3_scratch0)).erase ((pV L).devRef cc3_scratch1)).erase ((pV L).devRef cc3_scratch2)).erase
              ((pV L).devRef cc3_scratch3)).erase ((pV L).devRef cc3_scratch4))
              fun b => iprop(∃ f, ((d, b) : Loc nD τ sig) ↦{fullShare} f)) := by
  unfold SparseCore.Cfg.ownBufs
  refine (SparseCore.bigSep_erase' (mem_refs L cc3_scratch0 rfl)).trans ?_
  rw [SparseCore.bigSep_erase' (mem_erase_of (ref_ne L (a := cc3_scratch1) (b := cc3_scratch0) (by decide)) (mem_refs L cc3_scratch1 rfl)),
    SparseCore.bigSep_erase' (mem_erase_of (ref_ne L (a := cc3_scratch2) (b := cc3_scratch1) (by decide)) (mem_erase_of (ref_ne L (a := cc3_scratch2) (b := cc3_scratch0) (by decide)) (mem_refs L cc3_scratch2 rfl))),
    SparseCore.bigSep_erase' (mem_erase_of (ref_ne L (a := cc3_scratch3) (b := cc3_scratch2) (by decide)) (mem_erase_of (ref_ne L (a := cc3_scratch3) (b := cc3_scratch1) (by decide)) (mem_erase_of (ref_ne L (a := cc3_scratch3) (b := cc3_scratch0) (by decide)) (mem_refs L cc3_scratch3 rfl)))),
    SparseCore.bigSep_erase' (mem_erase_of (ref_ne L (a := cc3_scratch4) (b := cc3_scratch3) (by decide)) (mem_erase_of (ref_ne L (a := cc3_scratch4) (b := cc3_scratch2) (by decide)) (mem_erase_of (ref_ne L (a := cc3_scratch4) (b := cc3_scratch1) (by decide)) (mem_erase_of (ref_ne L (a := cc3_scratch4) (b := cc3_scratch0) (by decide)) (mem_refs L cc3_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid3.Coords) (sh : PosShare TreeShare)
    (TAB : Buf (Elt F) ((SparseCore.T d).loc main_v50_1)) (SRC : Buf (Elt F) ((SparseCore.T d).loc main_v6)) (DST : Buf (Elt F) ((SparseCore.T d).loc main_v8))
    (OUT0 : Buf (Elt F) ((SparseCore.T d).loc main_v51))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v50_1 ↦{sh} TAB) ∗ ((SparseCore.T d).loc main_v6 ↦{sh} SRC) ∗ ((SparseCore.T d).loc main_v8 ↦{sh} DST) ∗ ((SparseCore.T d).loc main_v51 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => iprop((((SparseCore.T d).loc main_v50_1 ↦{sh} TAB) ∗ ((SparseCore.T d).loc main_v6 ↦{sh} SRC) ∗ ((SparseCore.T d).loc main_v8 ↦{sh} DST) ∗ ∃ f, (SparseCore.T d).loc main_v51 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.WEdgeTile3
-- ==== Proof.LaunchTile3W.lean ====
/-
  SparseCore call 1's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommonW
import proofs.«215677_g32066225832048_cont_9to1_32_28_alg».proof.Proof.EdgeTile3W

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts]

local notation "𝕄" => MT nD τ sig (HIx 3) (Elt F) ℕ UU ℕ

variable (C : Conts F)

def coordsV3 (c : Fin (grid3.bound 0)) (s : Fin (grid3.bound 1)) : grid3.Coords :=
  fun | 0 => c | 1 => s | ⟨_ + 2, h⟩ => absurd h (Nat.not_lt.2 (Nat.le_add_left _ _))

theorem defs₀_vector3 (c : Fin τ.nSC) (s : Fin τ.nSub) :
    defs₀ (F := F) (.scVector c s) 3 ()
      = SparseCore.onTile hcore3 hsub3 (fun c s => cc3__edge_kernel (coordsV3 c s)
          (Memref.whole main_v50_1_scv) (Memref.isWhole_whole _) (Memref.whole main_v6_scv) (Memref.isWhole_whole _)
          (Memref.whole main_v8_scv) (Memref.isWhole_whole _) (Memref.whole main_v51_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) cc3_scratch5 cc3_scratch6 cc3_scoped0 cc3_scoped1 cc3_scoped2) ⟨⟩ c s := rfl

set_option maxHeartbeats 4000000 in
theorem tileObl1 (hOK : IdxOK C) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  have hbody : ∀ (ft : Buf (Elt F) (locOf d main_v50_1)) (fo : Buf (Elt F) (locOf d main_v51)),
      iprop(levAts (K (F := F)).L (K (F := F)).lev
          ∗ ((locOf d main_v50_1 ↦{tsh (tix 1 c i)} ft) ∗ (srcLoc d ↦{tsh (tix 1 c i)} C.src d) ∗ (dstLoc d ↦{tsh (tix 1 c i)} C.dst d)
              ∗ (locOf d main_v51 ↦[tileRows 1 d (tix 1 c i)]{fullShare} fo))
          ∗ scopedBufs (V d ((K (F := F)).core 1 c) ((K (F := F)).sub 1 i)) ∗ scopedSems0 (V d ((K (F := F)).core 1 c) ((K (F := F)).sub 1 i))
          ∗ owes (V d ((K (F := F)).core 1 c) ((K (F := F)).sub 1 i)) O W)
        ⊢ wp frame (wpE (defs₀ (F := F)) 𝒱₀ (V d ((K (F := F)).core 1 c) ((K (F := F)).sub 1 i)) none) Set.univ _
            (fun _ => (iprop(goResAt C main_v50_1 main_v51 d (tileRows 1 d) (tix 1 c i)
              ∗ scopedBufs (V d ((K (F := F)).core 1 c) ((K (F := F)).sub 1 i)) ∗ scopedSems0 (V d ((K (F := F)).core 1 c) ((K (F := F)).sub 1 i))
              ∗ ∃ W', ⌜∀ p ∈ W', p ∈ W ∨ p.2 = none ∨ p.2 = some (1 : Fin 3)⌝ ∗ owes (V d ((K (F := F)).core 1 c) ((K (F := F)).sub 1 i)) O W') : sProp 𝕄)) :=
    fun ft fo => (WEdgeTile3.tile_body (F := F) facts d (coordsV3 ⟨_, hc.1⟩ ⟨_, hc.2⟩) (tsh (tix 1 c i)) ft (C.src d) (C.dst d) fo
        (hOK d).1 (hOK d).2 O W hO).trans (wp_mono frame _ _ fun _ => (repack (F := F)).trans (obl_post (q := (1 : Fin 3))))
  show iprop(levAts (K (F := F)).L (K (F := F)).lev ∗ iprop(emp)
      ∗ iprop((∃ f, locOf d main_v50_1 ↦{tsh (tix 1 c i)} f) ∗ (srcLoc d ↦{tsh (tix 1 c i)} C.src d) ∗ (dstLoc d ↦{tsh (tix 1 c i)} C.dst d)
          ∗ ∃ f, locOf d main_v51 ↦[tileRows 1 d (tix 1 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.WordLaunch

end
-- ==== Proof.EdgeTile5W.lean ====
/-
  One vector subcore's task of the edge kernel (the third SparseCore call), at a symbolic place.

  Tile `L = (c, s)` — number `wid = 16 c + s` of 32 — works through 400 chunks of 64 edges, chunk `k` at edge
  `e0 = 25600 wid + 64 k`: it copies `src2[e0, e0 + 64)` and `dst2[e0, e0 + 64)` into two index lists, each copy on a
  semaphore of its own and waited for at once; gathers the table's rows the two lists name into two buffers, one gather
  per semaphore, and waits for both; for each of the 64 rows writes `max(a[r, 16 q ..] + b[r, 64 + 16 q ..], 0)`,
  `q < 4`, into a result buffer; and copies the result buffer onto rows `[e0, e0 + 64)` of the output, waiting for that
  copy before the next chunk. Every transfer is the tile's own, one outstanding per semaphore, and nothing touches a
  transfer's source or destination while it is pending: no schedule is involved.

  Stated from read shares of the table and of the two index arrays, the tile's own 25600 rows of the output, its five
  scratch buffers at any contents and its five DMA semaphores at zero, given that every word of the two index arrays
  names a row of the table; the same resources come back, the output rows at some contents.
-/
import proofs.«215677_g32066225832048_cont_9to1_32_28_alg».proof.Proof.Gen.Kernel
import proofs.«215677_g32066225832048_cont_9to1_32_28_alg».proof.Proof.Gen.Kernel.Skeleton
import Idealize.ShloMosaic.Lib.SparseCore.Launch
import Idealize.ShloMosaic.Lib.SparseCore.Ops
import Idealize.ShloMosaic.Lib.Tactic
import Idealize.ShloMosaic.Lib.Pipeline.Kit

noncomputable section

namespace Cert.Proof.WEdgeTile5

open Cert.Kernel Cert.Kernel.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

abbrev K : SparseCore.Cfg τ sig (Pipeline.Sig Λ₀ (Fin 4) fun p => (pcfgs (F := F) p).Adm) 3 := sc (F := F)
abbrev 𝒱₀ : Variants := Variants.none

local notation "𝕄" => MT nD τ sig (HIx 3) (Elt F) ℕ UU ℕ

abbrev cV (L : grid5.Coords) : Fin τ.nSC := (L 0).castLE hcore5
abbrev jV (L : grid5.Coords) : Fin τ.nSub := (L 1).castLE hsub5

local notation "tabW" => (Memref.whole Cert.Kernel.main_v76_1_scv : Memref Cert.Kernel.sig Kind.scVector Space.hbm Cert.Kernel.S50008x128 EltTy.f32)
local notation "srcW" => (Memref.whole Cert.Kernel.main_v6_scv : Memref Cert.Kernel.sig Kind.scVector Space.hbm Cert.Kernel.S819200 EltTy.i32)
local notation "dstW" => (Memref.whole Cert.Kernel.main_v8_scv : Memref Cert.Kernel.sig Kind.scVector Space.hbm Cert.Kernel.S819200 EltTy.i32)
local notation "outW" => (Memref.whole Cert.Kernel.main_v77_scv : Memref Cert.Kernel.sig Kind.scVector Space.hbm Cert.Kernel.S819200x64 EltTy.f32)
local notation "s0W" => (Memref.whole Cert.Kernel.cc5_scratch0 : Memref Cert.Kernel.sig Kind.scVector Space.vmem Cert.Kernel.S64 EltTy.i32)
local notation "s1W" => (Memref.whole Cert.Kernel.cc5_scratch1 : Memref Cert.Kernel.sig Kind.scVector Space.vmem Cert.Kernel.S64 EltTy.i32)
local notation "s2W" => (Memref.whole Cert.Kernel.cc5_scratch2 : Memref Cert.Kernel.sig Kind.scVector Space.vmem Cert.Kernel.S64x128 EltTy.f32)
local notation "s3W" => (Memref.whole Cert.Kernel.cc5_scratch3 : Memref Cert.Kernel.sig Kind.scVector Space.vmem Cert.Kernel.S64x128 EltTy.f32)
local notation "s4W" => (Memref.whole Cert.Kernel.cc5_scratch4 : Memref Cert.Kernel.sig Kind.scVector Space.vmem Cert.Kernel.S64x64 EltTy.f32)

abbrev thr (d : Dev nD) (L : grid5.Coords) : Thread nD τ := V d (cV L) (jV L)

/-- Chunk `k` of tile `L`'s rows of the output, as the kernel slices it. -/
abbrev outChunk (L : grid5.Coords) (k : Fin k5_t1_loop.trips) : Memref sig .scVector .hbm S64x64 .f32 :=
  (outW).slice (Rect.unit (s := S819200x64) (k5_off14 L k) S64x64.size (k5_off14_inb L k)) (fun _ => rfl)

/-! ## The tile's rows of the output -/

theorem hdiv32 : 32 ∣ S819200x64.size 0 := ⟨25600, rfl⟩

/-- The tile's number among the 32: sixteen per SparseCore. -/
def wid (L : grid5.Coords) : Fin 32 := ⟨16 * (L 0).val + (L 1).val, by
  have h0 : (L 0).val < 2 := (L 0).isLt
  have h1 : (L 1).val < 16 := (L 1).isLt
  omega⟩

/-- Rows `[25600 * wid, 25600 * (wid + 1))` of the output, every column: the part of axis 0 the tile writes. -/
abbrev outRows (L : grid5.Coords) : Finset S819200x64.Idx := (Rect.part (s := S819200x64) (a₀ := 0) hdiv32 (wid L)).set

theorem chunk_set (L : grid5.Coords) (k : Fin k5_t1_loop.trips) :
    (outChunk L k).view.set = (Rect.unit (s := S819200x64) (k5_off14 L k) S64x64.size (k5_off14_inb L k)).set := by
  show ((View.whole (main_v77_scv : Ref sig .scVector)).slice _).set = _
  rw [View.set_slice]; exact Finset.map_refl

/-- Chunk `k` of the tile lies within the tile's rows: `64 k + 64 ≤ 25600`. -/
theorem chunk_sub (L : grid5.Coords) (k : Fin k5_t1_loop.trips) : (outChunk L k).view.set ⊆ outRows L := by
  intro x hx
  rw [chunk_set, Rect.mem_set_unit] at hx
  refine Rect.mem_set_unit.mpr fun a => ?_
  have h := hx a
  rw [k5_off14_eq] at h
  have hk : k.val < 400 := Nat.lt_of_lt_of_le k.isLt k5_t1_abs.2.1
  have h0 : (L 0).val < 2 := (L 0).isLt
  have h1 : (L 1).val < 16 := (L 1).isLt
  match a with
  | 0 =>
    have e : (S819200x64.partIx 0 (wid L).val 0) * (S819200x64.partSize 0 32 0) = 409600 * (L 0).val + 25600 * (L 1).val := by
      show (16 * (L 0).val + (L 1).val) * (819200 / 32) = _
      omega
    have e2 : S819200x64.partSize 0 32 0 = 25600 := rfl
    have e3 : S64x64.size 0 = 64 := rfl
    have e4 : (![409600 * (L 0).val + 25600 * (L 1).val + 64 * k.val, 0] : Fin 2 → Nat) 0 = 409600 * (L 0).val + 25600 * (L 1).val + 64 * k.val := rfl
    rw [e4, e3] at h
    show S819200x64.partIx 0 (wid L).val 0 * S819200x64.partSize 0 32 0 ≤ _ ∧ _ < S819200x64.partIx 0 (wid L).val 0 * S819200x64.partSize 0 32 0 + S819200x64.partSize 0 32 0
    rw [e, e2]; omega
  | 1 =>
    have e : (S819200x64.partIx 0 (wid L).val 1) * (S819200x64.partSize 0 32 1) = 0 := by
      show 0 * _ = 0
      omega
    have e2 : S819200x64.partSize 0 32 1 = 64 := rfl
    have e3 : S64x64.size 1 = 64 := rfl
    have e4 : (![409600 * (L 0).val + 25600 * (L 1).val + 64 * k.val, 0] : Fin 2 → Nat) 1 = 0 := rfl
    rw [e4, e3] at h
    show S819200x64.partIx 0 (wid L).val 1 * S819200x64.partSize 0 32 1 ≤ _ ∧ _ < S819200x64.partIx 0 (wid L).val 1 * S819200x64.partSize 0 32 1 + S819200x64.partSize 0 32 1
    rw [e, e2]; omega

/-! ## The gathers' offsets are in range

A gather reads its offset list when the engine serves each entry; the list then holds what the chunk's index copy wrote
over the whole scratch: words of the index array, below the table's row count by hypothesis. -/

theorem src_inb (d : Dev nD) (L : grid5.Coords) (k : Fin k5_t1_loop.trips) (SRC : Buf (Elt F) ((srcW).view.loc (thr d L)))
    (hsrc : ∀ j, (SRC j).toNat < 50008) (g : Buf (Elt F) ((s0W).view.loc (thr d L))) (x : S64.Idx) :
    (View.read (Elt F) (s0W).view (View.write (Elt F) (s0W).view g
        (ReadAs.same.apply (View.read (Elt F) ((srcW).slice (Rect.unit (s := S819200) (k5_off1 L k) S64.size (k5_off1_inb L k)) (fun _ => rfl)).view SRC))
        Finset.univ) x).toNat < S50008x128.size gathers_S50008x128_S64x128.axis := by
  simp only [Memref.view_whole, View.write_whole_univ, View.read_whole, ReadAs.apply_same]
  exact hsrc _

theorem dst_inb (d : Dev nD) (L : grid5.Coords) (k : Fin k5_t1_loop.trips) (DST : Buf (Elt F) ((dstW).view.loc (thr d L)))
    (hdst : ∀ j, (DST j).toNat < 50008) (g : Buf (Elt F) ((s1W).view.loc (thr d L))) (x : S64.Idx) :
    (View.read (Elt F) (s1W).view (View.write (Elt F) (s1W).view g
        (ReadAs.same.apply (View.read (Elt F) ((dstW).slice (Rect.unit (s := S819200) (k5_off1 L k) S64.size (k5_off1_inb L k)) (fun _ => rfl)).view DST))
        Finset.univ) x).toNat < S50008x128.size gathers_S50008x128_S64x128.axis := by
  simp only [Memref.view_whole, View.write_whole_univ, View.read_whole, ReadAs.apply_same]
  exact hdst _

/-! ## One tile's task -/

/-- The row loop's invariant: the two gathered buffers and the result buffer, each whole at some contents. -/
def inv2 (d : Dev nD) (L : grid5.Coords) (_ : Nat) (_ : PUnit.{1}) : sProp 𝕄 :=
  iprop((∃ A, (s2W).view.loc (thr d L) ↦{fullShare} A) ∗ (∃ B, (s3W).view.loc (thr d L) ↦{fullShare} B) ∗ (∃ f, (s4W).view.loc (thr d L) ↦{fullShare} f))

/-- The chunk loop's invariant: the read shares of the table and of the two index arrays, the tile's rows of the output
    at some contents, the five scratch buffers at some contents, the five DMA semaphores at zero, what the thread
    owes, with waits at index `none` recorded beyond `W`, and the evidence that such waits are admissible under it. -/
def inv1 (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (O : CellTallies nD τ sig (HIx 3)) (W : Waits sig (HIx 3)) (_ : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, (outW).view.loc (thr d L) ↦[outRows L]{fullShare} f)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc5_scratch5.sem) 0 ∗ semVal (thr d L, SemLoc.dma cc5_scratch6.sem) 0
    ∗ semVal (thr d L, SemLoc.dma cc5_scoped0.sem) 0 ∗ semVal (thr d L, SemLoc.dma cc5_scoped1.sem) 0 ∗ semVal (thr d L, SemLoc.dma cc5_scoped2.sem) 0
    ∗ ∃ W', ⌜∀ p ∈ W', p ∈ W ∨ p.2 = none⌝ ∗ owes (thr d L) O W')

/-- The tile's rows of the output are chunk `k` — as the kernel slices it — and the rest. -/
theorem out_split (d : Dev nD) (L : grid5.Coords) (k : Fin k5_t1_loop.trips) (f : Buf (Elt F) ((outW).view.loc (thr d L))) :
    ((outW).view.loc (thr d L) ↦[outRows L]{fullShare} f : sProp 𝕄)
      ⊣⊢ iprop(((outChunk L k).view.loc (thr d L) ↦[(outChunk L k).view.set]{fullShare} f)
          ∗ (outW).view.loc (thr d L) ↦[outRows L \ (outChunk L k).view.set]{fullShare} f) :=
  pointsTo_split_subset (chunk_sub L k)

theorem out_join (d : Dev nD) (L : grid5.Coords) (k : Fin k5_t1_loop.trips) (f g : Buf (Elt F) ((outW).view.loc (thr d L))) :
    iprop(((outChunk L k).view.loc (thr d L) ↦[(outChunk L k).view.set]{fullShare} g)
          ∗ (outW).view.loc (thr d L) ↦[outRows L \ (outChunk L k).view.set]{fullShare} f)
      ⊢ (∃ f', (outW).view.loc (thr d L) ↦[outRows L]{fullShare} f' : sProp 𝕄) := by
  iintro H
  iexists _
  iapply (pointsTo_join_subset (chunk_sub L k)) $$ H

set_option maxHeartbeats 4000000 in
/-- The task of tile `L` of device `d`, from explicit resources: 400 chunks, each two index copies, two gathers, the row loop and the copy-out. -/
theorem tile_core (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1 (F := F) (UU := UU) d L sh TAB SRC DST O W 0 ⟨⟩
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => inv1 (F := F) (UU := UU) d L sh TAB SRC DST O W 0 ⟨⟩ := by
  simp only [cc5__edge_kernel_eq_skeleton]; unfold cc5__edge_kernel_skel
  iintro HI
  sl_exec
  sl_for (inv1 (F := F) (UU := UU) d L sh TAB SRC DST O W) $$ [HI]
  case region =>
    intro k _
    unfold inv1
    iintro ⟨#Hmw, Htab, Hsrc, Hdst, ⟨%fo, Hout⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2 (F := F) (UU := UU) d L) $$ [H2 H3 H4]
    case region =>
      intro r _
      unfold inv2
      iintro ⟨⟨%A, H2⟩, ⟨%B, H3⟩, ⟨%f, H4⟩⟩
      sl_exec
      sl_step
      isplitl [H2]; · iexists _; iexact H2
      isplitl [H3]; · iexists _; iexact H3
      iexists _; iexact H4
    · unfold inv2
      isplitl [H2]; · iexists _; iexact H2
      isplitl [H3]; · iexists _; iexact H3
      iexists _; iexact H4
    iintro %_ HI2
    unfold inv2
    icases HI2 with ⟨⟨%A, H2⟩, ⟨%B, H3⟩, ⟨%f, H4⟩⟩
    sl_exec
    sl_step
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iapply (out_join (F := F) (UU := UU) d L k fo _); isplitl [Hch] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile -/

theorem mem_erase_of {α : Type} [DecidableEq α] {s : Finset α} {a b : α} (hne : a ≠ b) (h : a ∈ s) : a ∈ s.erase b :=
  Finset.mem_erase.mpr ⟨hne, h⟩

abbrev m5 : SemLoc sig := .dma cc5_scratch5.sem
abbrev m6 : SemLoc sig := .dma cc5_scratch6.sem
abbrev n0 : SemLoc sig := .dma cc5_scoped0.sem
abbrev n1 : SemLoc sig := .dma cc5_scoped1.sem
abbrev n2 : SemLoc sig := .dma cc5_scoped2.sem
abbrev g5 (d : Dev nD) (L : grid5.Coords) : GSem nD τ sig := (thr d L, m5)
abbrev g6 (d : Dev nD) (L : grid5.Coords) : GSem nD τ sig := (thr d L, m6)
abbrev c0 (d : Dev nD) (L : grid5.Coords) : GSem nD τ sig := (thr d L, n0)
abbrev c1 (d : Dev nD) (L : grid5.Coords) : GSem nD τ sig := (thr d L, n1)
abbrev c2 (d : Dev nD) (L : grid5.Coords) : GSem nD τ sig := (thr d L, n2)

theorem sem_ne (d : Dev nD) (L : grid5.Coords) {a b : SemLoc sig} (h : a ≠ b) : ((thr d L, a) : GSem nD τ sig) ≠ (thr d L, b) :=
  fun e => h (congrArg Prod.snd e)

theorem mem_own (d : Dev nD) (L : grid5.Coords) (sm : SemLoc sig) (h : sm.isScoped .scVector = true) : ((thr d L, sm) : GSem nD τ sig) ∈ ownCells (thr d L) :=
  (mem_ownCells (g := (thr d L, sm))).mpr ⟨rfl, h⟩

/-- The kernel's five DMA semaphores are among the tile's scoped ones: they, at zero, and the rest. -/
theorem ownSems0_V (d : Dev nD) (L : grid5.Coords) :
    (ownSems0 (thr d L) : sProp 𝕄)
      = iprop(semVal (g5 d L) 0 ∗ semVal (g6 d L) 0 ∗ semVal (c0 d L) 0 ∗ semVal (c1 d L) 0 ∗ semVal (c2 d L) 0
          ∗ bigSep ((((((ownCells (thr d L)).erase (g5 d L)).erase (g6 d L)).erase (c0 d L)).erase (c1 d L)).erase (c2 d L)) fun g => semVal g 0) := by
  unfold SparseCore.Cfg.ownSems0
  rw [SparseCore.bigSep_erase' (mem_own d L m5 (by decide)),
    SparseCore.bigSep_erase' (mem_erase_of (sem_ne d L (a := m6) (b := m5) (by decide)) (mem_own d L m6 (by decide))),
    SparseCore.bigSep_erase' (mem_erase_of (sem_ne d L (a := n0) (b := m6) (by decide)) (mem_erase_of (sem_ne d L (a := n0) (b := m5) (by decide)) (mem_own d L n0 (by decide)))),
    SparseCore.bigSep_erase' (mem_erase_of (sem_ne d L (a := n1) (b := n0) (by decide)) (mem_erase_of (sem_ne d L (a := n1) (b := m6) (by decide)) (mem_erase_of (sem_ne d L (a := n1) (b := m5) (by decide)) (mem_own d L n1 (by decide))))),
    SparseCore.bigSep_erase' (mem_erase_of (sem_ne d L (a := n2) (b := n1) (by decide)) (mem_erase_of (sem_ne d L (a := n2) (b := n0) (by decide)) (mem_erase_of (sem_ne d L (a := n2) (b := m6) (by decide)) (mem_erase_of (sem_ne d L (a := n2) (b := m5) (by decide)) (mem_own d L n2 (by decide))))))]

abbrev pV (L : grid5.Coords) : Proc τ := Proc.scVector (cV L) (jV L)

theorem ref_ne (L : grid5.Coords) {a b : Ref sig .scVector} (h : a ≠ b) : (pV L).devRef a ≠ (pV L).devRef b :=
  fun e => h (Proc.devRef_injective _ e)

theorem mem_refs (L : grid5.Coords) (b : Ref sig .scVector) (h : ((pV L).devRef b).owner = .proc (pV L)) : (pV L).devRef b ∈ ownRefs (τ := τ) (pV L) :=
  SparseCore.Cfg.mem_ownRefs_of_owner (p := pV L) (b := (pV L).devRef b) h

/-- The kernel's five scratch buffers are among the tile's own: they, at some contents, and the rest. -/
theorem ownBufs_V (d : Dev nD) (L : grid5.Coords) :
    (ownBufs (thr d L) : sProp 𝕄)
      = iprop((∃ f, (thr d L).loc cc5_scratch0 ↦{fullShare} f) ∗ (∃ f, (thr d L).loc cc5_scratch1 ↦{fullShare} f) ∗ (∃ f, (thr d L).loc cc5_scratch2 ↦{fullShare} f)
          ∗ (∃ f, (thr d L).loc cc5_scratch3 ↦{fullShare} f) ∗ (∃ f, (thr d L).loc cc5_scratch4 ↦{fullShare} f)
          ∗ bigSep ((((((ownRefs (τ := τ) (pV L)).erase ((pV L).devRef cc5_scratch0)).erase ((pV L).devRef cc5_scratch1)).erase ((pV L).devRef cc5_scratch2)).erase
              ((pV L).devRef cc5_scratch3)).erase ((pV L).devRef cc5_scratch4))
              fun b => iprop(∃ f, ((d, b) : Loc nD τ sig) ↦{fullShare} f)) := by
  unfold SparseCore.Cfg.ownBufs
  refine (SparseCore.bigSep_erase' (mem_refs L cc5_scratch0 rfl)).trans ?_
  rw [SparseCore.bigSep_erase' (mem_erase_of (ref_ne L (a := cc5_scratch1) (b := cc5_scratch0) (by decide)) (mem_refs L cc5_scratch1 rfl)),
    SparseCore.bigSep_erase' (mem_erase_of (ref_ne L (a := cc5_scratch2) (b := cc5_scratch1) (by decide)) (mem_erase_of (ref_ne L (a := cc5_scratch2) (b := cc5_scratch0) (by decide)) (mem_refs L cc5_scratch2 rfl))),
    SparseCore.bigSep_erase' (mem_erase_of (ref_ne L (a := cc5_scratch3) (b := cc5_scratch2) (by decide)) (mem_erase_of (ref_ne L (a := cc5_scratch3) (b := cc5_scratch1) (by decide)) (mem_erase_of (ref_ne L (a := cc5_scratch3) (b := cc5_scratch0) (by decide)) (mem_refs L cc5_scratch3 rfl)))),
    SparseCore.bigSep_erase' (mem_erase_of (ref_ne L (a := cc5_scratch4) (b := cc5_scratch3) (by decide)) (mem_erase_of (ref_ne L (a := cc5_scratch4) (b := cc5_scratch2) (by decide)) (mem_erase_of (ref_ne L (a := cc5_scratch4) (b := cc5_scratch1) (by decide)) (mem_erase_of (ref_ne L (a := cc5_scratch4) (b := cc5_scratch0) (by decide)) (mem_refs L cc5_scratch4 rfl)))))]

set_option maxHeartbeats 1000000 in
/-- The task of tile `L` as the launch theorem hands it over: the read shares of the table and of the two index arrays and
    the tile's rows of the output, as the TensorCore names those arrays; the tile's scoped storage; what it owes.
    The rows come back at some contents, everything else as it was. -/
theorem tile_body (hF : (K (F := F)).Facts) (d : Dev nD) (L : grid5.Coords) (sh : PosShare TreeShare)
    (TAB : Buf (Elt F) ((SparseCore.T d).loc main_v76_1)) (SRC : Buf (Elt F) ((SparseCore.T d).loc main_v6)) (DST : Buf (Elt F) ((SparseCore.T d).loc main_v8))
    (OUT0 : Buf (Elt F) ((SparseCore.T d).loc main_v77))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v76_1 ↦{sh} TAB) ∗ ((SparseCore.T d).loc main_v6 ↦{sh} SRC) ∗ ((SparseCore.T d).loc main_v8 ↦{sh} DST) ∗ ((SparseCore.T d).loc main_v77 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => iprop((((SparseCore.T d).loc main_v76_1 ↦{sh} TAB) ∗ ((SparseCore.T d).loc main_v6 ↦{sh} SRC) ∗ ((SparseCore.T d).loc main_v8 ↦{sh} DST) ∗ ∃ f, (SparseCore.T d).loc main_v77 ↦[outRows L]{fullShare} f)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core (F := F) (UU := UU) d L sh TAB SRC DST hsrc hdst O W)
    unfold inv1
    isplitl [Hmw]; · iexact Hmw
    isplitl [Htab]; · iexact Htab
    isplitl [Hsrc]; · iexact Hsrc
    isplitl [Hdst]; · iexact Hdst
    isplitl [Hout]; · iexists _; iexact Hout
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1
    icases HI with ⟨-, Htab, Hsrc, Hdst, ⟨%fo, Hout⟩, H0, H1, H2, H3, H4, Hs5, Hs6, Hc0, Hc1, Hc2, HO⟩
    isplitl [Htab Hsrc Hdst Hout]
    · isplitl [Htab]; · iexact Htab
      isplitl [Hsrc]; · iexact Hsrc
      isplitl [Hdst]; · iexact Hdst
      iexists _; iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.WEdgeTile5
-- ==== Proof.LaunchTile5W.lean ====
/-
  SparseCore call 2's obligation for the launch: one vector subcore's task, from what the handshake hands it —
  a read token of the table (at the contents it finds), of the two index arrays, and its own rows of the output — and
  the subcore's scoped storage, back to the same. The task itself is the edge kernel's body at that subcore; here it
  is only entered: the label's body is the kernel at the subcore's coordinates, the existential contents are opened
  before the body runs and closed after it. The index arrays' entries are assumed to name rows of the table.
-/
import proofs.«215677_g32066225832048_cont_9to1_32_28_alg».proof.Proof.LaunchTileCommonW
import proofs.«215677_g32066225832048_cont_9to1_32_28_alg».proof.Proof.EdgeTile5W

noncomputable section

namespace Cert.Proof.WordLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [hFacts : Cert.Kernel.Facts]

local notation "𝕄" => MT nD τ sig (HIx 3) (Elt F) ℕ UU ℕ

variable (C : Conts F)

def coordsV5 (c : Fin (grid5.bound 0)) (s : Fin (grid5.bound 1)) : grid5.Coords :=
  fun | 0 => c | 1 => s | ⟨_ + 2, h⟩ => absurd h (Nat.not_lt.2 (Nat.le_add_left _ _))

theorem defs₀_vector5 (c : Fin τ.nSC) (s : Fin τ.nSub) :
    defs₀ (F := F) (.scVector c s) 5 ()
      = SparseCore.onTile hcore5 hsub5 (fun c s => cc5__edge_kernel (coordsV5 c s)
          (Memref.whole main_v76_1_scv) (Memref.isWhole_whole _) (Memref.whole main_v6_scv) (Memref.isWhole_whole _)
          (Memref.whole main_v8_scv) (Memref.isWhole_whole _) (Memref.whole main_v77_scv) (Memref.isWhole_whole _)
          (Memref.whole cc5_scratch0) (Memref.isWhole_whole _) (Memref.whole cc5_scratch1) (Memref.isWhole_whole _)
          (Memref.whole cc5_scratch2) (Memref.isWhole_whole _) (Memref.whole cc5_scratch3) (Memref.isWhole_whole _)
          (Memref.whole cc5_scratch4) (Memref.isWhole_whole _) cc5_scratch5 cc5_scratch6 cc5_scoped0 cc5_scoped1 cc5_scoped2) ⟨⟩ c s := rfl

set_option maxHeartbeats 4000000 in
theorem tileObl2 (hOK : IdxOK C) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs₀_vector5]; simp only [SparseCore.onTile, hc, and_self, ↓reduceDIte]
  have hbody : ∀ (ft : Buf (Elt F) (locOf d main_v76_1)) (fo : Buf (Elt F) (locOf d main_v77)),
      iprop(levAts (K (F := F)).L (K (F := F)).lev
          ∗ ((locOf d main_v76_1 ↦{tsh (tix 2 c i)} ft) ∗ (srcLoc d ↦{tsh (tix 2 c i)} C.src d) ∗ (dstLoc d ↦{tsh (tix 2 c i)} C.dst d)
              ∗ (locOf d main_v77 ↦[tileRows 2 d (tix 2 c i)]{fullShare} fo))
          ∗ scopedBufs (V d ((K (F := F)).core 2 c) ((K (F := F)).sub 2 i)) ∗ scopedSems0 (V d ((K (F := F)).core 2 c) ((K (F := F)).sub 2 i))
          ∗ owes (V d ((K (F := F)).core 2 c) ((K (F := F)).sub 2 i)) O W)
        ⊢ wp frame (wpE (defs₀ (F := F)) 𝒱₀ (V d ((K (F := F)).core 2 c) ((K (F := F)).sub 2 i)) none) Set.univ _
            (fun _ => (iprop(goResAt C main_v76_1 main_v77 d (tileRows 2 d) (tix 2 c i)
              ∗ scopedBufs (V d ((K (F := F)).core 2 c) ((K (F := F)).sub 2 i)) ∗ scopedSems0 (V d ((K (F := F)).core 2 c) ((K (F := F)).sub 2 i))
              ∗ ∃ W', ⌜∀ p ∈ W', p ∈ W ∨ p.2 = none ∨ p.2 = some (2 : Fin 3)⌝ ∗ owes (V d ((K (F := F)).core 2 c) ((K (F := F)).sub 2 i)) O W') : sProp 𝕄)) :=
    fun ft fo => (WEdgeTile5.tile_body (F := F) facts d (coordsV5 ⟨_, hc.1⟩ ⟨_, hc.2⟩) (tsh (tix 2 c i)) ft (C.src d) (C.dst d) fo
        (hOK d).1 (hOK d).2 O W hO).trans (wp_mono frame _ _ fun _ => (repack (F := F)).trans (obl_post (q := (2 : Fin 3))))
  show iprop(levAts (K (F := F)).L (K (F := F)).lev ∗ iprop(emp)
      ∗ iprop((∃ f, locOf d main_v76_1 ↦{tsh (tix 2 c i)} f) ∗ (srcLoc d ↦{tsh (tix 2 c i)} C.src d) ∗ (dstLoc d ↦{tsh (tix 2 c i)} C.dst d)
          ∗ ∃ f, locOf d main_v77 ↦[tileRows 2 d (tix 2 c i)]{fullShare} f)
      ∗ scopedBufs _ ∗ scopedSems0 _ ∗ owes _ O W) ⊢ _
  iintro ⟨#Hlv, -, ⟨⟨%ft, Ht⟩, Hs, Hd, ⟨%fo, Ho⟩⟩, Hb, Hsm, HO⟩
  iapply (hbody ft fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.WordLaunch

end
-- ==== Proof.FrameIdealW.lean ====
/-
  The idealized kernel program's frame from its parts: the three SparseCore calls' task obligations, @main on the
  TensorCore composed of its stretches, regions and calls, and the arguments read off the final memory. What it takes
  as hypotheses is what the parts leave open: the four TensorCore regions' rules, and that under the precondition
  every entry of the two padded index arrays names a row of the 50008-row table.
-/
import proofs.«215677_g32066225832048_cont_9to1_32_28_alg».proof.Proof.LaunchMainW
import proofs.«215677_g32066225832048_cont_9to1_32_28_alg».proof.Proof.LaunchTile1W
import proofs.«215677_g32066225832048_cont_9to1_32_28_alg».proof.Proof.LaunchTile3W
import proofs.«215677_g32066225832048_cont_9to1_32_28_alg».proof.Proof.LaunchTile5W

noncomputable section

namespace Cert.Proof.WordLaunch

open Cert.Kernel Cert.Kernel.Gen Cert.Kernel.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [hFacts : Cert.Kernel.Facts] [∀ e, Nonempty (Elt F e)]

/-- The whole family of threads runs, and the thirteen argument arrays end as they began. -/
theorem run_args (m : (ℓ : Loc nD τ sig) → Buf (Elt F) ℓ) (ρ : Dev nD → PrngReg) (hOK : IdxOK (conts m))
    (hr0 : RegionStep (conts m) 0 [main_v24_0, main_v24_1] 0) (hr1 : RegionStep (conts m) 1 [main_v50_0, main_v50_1] 1)
    (hr2 : RegionStep (conts m) 2 [main_v76_0, main_v76_1] 2) (hr3 : RegionStep (conts m) 3 [main_v94] 3) :
    θ_run (Cert.Kernel.defs (F := F)) (Cert.Kernel.threads (F := F)) ⟨m, fun _ => 0, ρ⟩
      (fun r => ∀ (c : Dev nD), ∀ a ∈ args, r.2.mem ((SparseCore.T c).loc a) = m ((SparseCore.T c).loc a)) :=
  run_of (conts m) m ρ
    (fun q => match q with
      | 0 => tileObl0 (conts m) hOK
      | 1 => tileObl1 (conts m) hOK
      | 2 => tileObl2 (conts m) hOK)
    (FIN m) (hmain m ρ hr0 hr1 hr2 hr3) (fq m) (hfin m) _ (fun _ h c a ha => h c a ha)

end Cert.Proof.WordLaunch

end
-- ==== Proof.IdxRangeW.lean ====
import proofs.«215677_g32066225832048_cont_9to1_32_28_alg».proof.Defs
import proofs.«215677_g32066225832048_cont_9to1_32_28_alg».proof.Proof.HostOpsW
import proofs.«215677_g32066225832048_cont_9to1_32_28_alg».proof.Proof.Gen.Pre_input_domain
import proofs.«215677_g32066225832048_cont_9to1_32_28_alg».proof.Proof.Gen.Kernel
import Idealize.ShloMosaic.Lib.Pipeline.Value
import Idealize.ShloMosaic.Lib.ReduceAll
import Idealize.ShloMosaic.Lib.ValueIdx

/-!
# The padded index arrays name rows of the table

The kernel's first host stretch pads the two rows of the edge list from 800000 to 819200 entries: the sources with
zeros, the destinations with the word 50000 (the first of the eight spare rows of a 50008-row table). The
precondition's last conjunct says every entry of the edge list is in `[0, 49999]` as a signed integer
(`jnp.all((edge_index >= 0) & (edge_index <= 49999))`): read back (`edge_range`), every entry is below 50000 as a
natural number. Each padded array is read at an index through the concatenation (an index below 800000 falls in the
first piece, an entry of the edge list; an index from 800000 on in the padding), so every entry is below 50008
(`src_lt`, `dst_lt`), for any float instance.
-/

noncomputable section

namespace Cert.Proof.IdxRangeW

open Cert.Kernel Cert.Kernel.HostOps Idealize.ShloMosaic Idealize.ShloMosaic.TcCoe Idealize.SL.Sem
open Idealize.ShloMosaic.StableHlo Idealize.ShloMosaic.ValueIdx
open Cert.Kernel.Facts₀ Cert.Kernel.Facts

/-- A word that is at least 0 and at most 49999 as a signed integer is below 50000 as a natural number. -/
theorem word_range (v : BitVec 32)
    (e : IntOp.andi (IntOp.cmpi .sge v 0#32) (IntOp.cmpi .sle v 49999#32) = 1#1) : v.toNat < 50000 := by
  obtain ⟨h0, h1⟩ := IntOp.andi_eq_one.1 e
  rw [IntOp.cmpi_sge] at h0
  rw [IntOp.cmpi_sle] at h1
  have e0 : (0#32 : BitVec 32).toInt = 0 := by decide
  have e1 : (49999#32 : BitVec 32).toInt = 49999 := by decide
  rw [e0] at h0
  rw [e1] at h1
  have hlt := v.isLt
  rw [BitVec.toInt_eq_toNat_cond] at h0 h1
  split at h0 <;> omega

section Pre

variable {F : FTy → Type} [FloatOps F] [Cert.Pre_input_domain.Facts]
open Cert.Pre_input_domain Cert.Pre_input_domain.Facts

/-- The precondition's last conjunct, `jnp.all((edge_index >= 0) & (edge_index <= 49999))`, read back: every entry
    of the edge list is below 50000 as a natural number. -/
theorem edge_range (a0 : IVec Cert.Pre_input_domain.S50000 32) (a1 : IVec Cert.Pre_input_domain.S2x800000 32)
    (a2 : FVec F Cert.Pre_input_domain.S120x64 .f32) (a3 : FVec F Cert.Pre_input_domain.S3x128x64 .f32)
    (a4 : FVec F Cert.Pre_input_domain.S3x64 .f32) (a5 : FVec F Cert.Pre_input_domain.S3x64x64 .f32)
    (a6 : FVec F Cert.Pre_input_domain.S3x64 .f32) (a7 : FVec F Cert.Pre_input_domain.S3x64x64 .f32)
    (a8 : FVec F Cert.Pre_input_domain.S3x64 .f32) (a9 : FVec F Cert.Pre_input_domain.S64x64 .f32)
    (a10 : FVec F Cert.Pre_input_domain.S64 .f32) (a11 : FVec F Cert.Pre_input_domain.S64x1 .f32)
    (a12 : FVec F Cert.Pre_input_domain.S1 .f32)
    (h : Cert.Pre_input_domain.fn (F := F) a0 a1 a2 a3 a4 a5 a6 a7 a8 a9 a10 a11 a12 = fun _ => 1#1)
    (i : Cert.Pre_input_domain.S2x800000.Idx) : (a1 i).toNat < 50000 := by
  obtain ⟨X, hX⟩ : ∃ X : IVec Cert.Pre_input_domain.S_ 1,
      Cert.Pre_input_domain.fn (F := F) a0 a1 a2 a3 a4 a5 a6 a7 a8 a9 a10 a11 a12
        = andi X (Host.reduce IntOp.andi
            (andi (cmpi .sge a1 (broadcastInDim Cert.Pre_input_domain.S2x800000 ![] bcast_S_S2x800000 (constantI Cert.Pre_input_domain.S_ 32 0#32)))
              (cmpi .sle a1 (broadcastInDim Cert.Pre_input_domain.S2x800000 ![] bcast_S_S2x800000 (constantI Cert.Pre_input_domain.S_ 32 49999#32))))
            (constantI Cert.Pre_input_domain.S_ 1 1#1) reducesTo_S2x800000_S_d0_1 h_S_) := ⟨_, rfl⟩
  rw [hX] at h
  have e := congrFun h ix0
  have e2 := (IntOp.andi_eq_one.1 e).2
  have e3 := Host.reduce_andi_all _ _ _ _ _ e2 i
  exact word_range _ e3

end Pre

section Pads

variable {F : FTy → Type} [FloatOps F] [Cert.Kernel.Facts]

/-- The edges' sources padded to 819200 entries: row 0 of the edge list, then 19200 zeros. -/
def srcPad (ei : IVec S2x800000 32) : IVec S819200 32 :=
  concatenate S819200 0
    [⟨S800000, shapeCast S800000 (extractStridedSlice S1x800000 ![0, 0] ei slices_S2x800000_S1x800000_0_0) shapeCasts_S1x800000_S800000⟩,
      ⟨S19200, broadcastInDim S19200 ![] bcast_S_S19200 (constantI S_ 32 0#32)⟩]
    concatenates_S800000_S19200_S819200_d0

/-- The edges' destinations padded to 819200 entries: row 1 of the edge list, then 19200 times the word 50000. -/
def dstPad (ei : IVec S2x800000 32) : IVec S819200 32 :=
  concatenate S819200 0
    [⟨S800000, shapeCast S800000 (extractStridedSlice S1x800000 ![1, 0] ei slices_S2x800000_S1x800000_1_0) shapeCasts_S1x800000_S800000⟩,
      ⟨S19200, broadcastInDim S19200 ![] bcast_S_S19200 (constantI S_ 32 50000#32)⟩]
    concatenates_S800000_S19200_S819200_d0

/-- The first host stretch leaves the padded sources at `main_v6` … -/
theorem v6_eq (V : Valuation τ sig (Elt F)) :
    after (ops0 (F := F)) V (main_v6 : DevRef τ sig) = srcPad (V (main_arg1 : DevRef τ sig)) := by
  after_results_simp <;> rfl

/-- … and the padded destinations at `main_v8`. -/
theorem v8_eq (V : Valuation τ sig (Elt F)) :
    after (ops0 (F := F)) V (main_v8 : DevRef τ sig) = dstPad (V (main_arg1 : DevRef τ sig)) := by
  after_results_simp <;> rfl

/-- A padded array whose first 800000 entries are entries of the edge list and whose padding is a word below 50008
    names, at every entry, a row of a 50008-row table. -/
theorem pad_lt (r : Nat) (w : BitVec 32) (hw : w.toNat < 50008) (ei : IVec S2x800000 32)
    (hs : S2x800000.Slices ![r, 0] S1x800000) (h : ∀ i, (ei i).toNat < 50000) (j : S819200.Idx) :
    (concatenate S819200 0
      [⟨S800000, shapeCast S800000 (extractStridedSlice S1x800000 ![r, 0] ei hs) shapeCasts_S1x800000_S800000⟩,
        ⟨S19200, broadcastInDim S19200 ![] bcast_S_S19200 (constantI S_ 32 w)⟩]
      concatenates_S800000_S19200_S819200_d0 j).toNat < 50008 := by
  have hjlt : (j ⟨0, by decide⟩).val < 819200 := by
    have h0 := (j ⟨0, by decide⟩).isLt
    exact h0
  by_cases hj : (j ⟨0, by decide⟩).val < 800000
  · rw [concatenate_pair_apply_left _ _ _ concatenates_S800000_S19200_S819200_d0 j rfl
      (ix1 (n := 800000) ⟨(j ⟨0, by decide⟩).val, hj⟩) (fun b => match b with | ⟨0, _⟩ => rfl)]
    exact Nat.lt_of_lt_of_le (h _) (by decide)
  · rw [concatenate_pair_apply_right _ _ _ concatenates_S800000_S19200_S819200_d0 j rfl rfl
      (ix1 (n := 19200) ⟨(j ⟨0, by decide⟩).val - 800000, by omega⟩)
      (fun b hb => absurd (Subsingleton.elim _ _) hb)
      (by show (j ⟨0, by decide⟩).val - 800000 + 800000 = (j ⟨0, by decide⟩).val; omega)]
    exact hw

theorem srcPad_lt (ei : IVec S2x800000 32) (h : ∀ i, (ei i).toNat < 50000) (j : S819200.Idx) :
    (srcPad ei j).toNat < 50008 :=
  pad_lt 0 0#32 (by decide) ei slices_S2x800000_S1x800000_0_0 h j

theorem dstPad_lt (ei : IVec S2x800000 32) (h : ∀ i, (ei i).toNat < 50000) (j : S819200.Idx) :
    (dstPad ei j).toNat < 50008 :=
  pad_lt 1 50000#32 (by decide) ei slices_S2x800000_S1x800000_1_0 h j

end Pads

section Main

variable {F : FTy → Type} [FloatOps F] [Cert.Kernel.Facts] [Cert.Pre_input_domain.Facts]

/-- The precondition as Defs.lean states it, for any float instance: `input_domain` of the argument arrays is all
    ones on every device (`Cert.Pre_Kernel m` is this at the word-level instance, by unfolding). -/
abbrev PreAt (m : (ℓ : Loc nD τ sig) → Buf (Elt F) ℓ) : Prop :=
  ∀ c : Dev nD,
    (Cert.Pre_input_domain.fn (F := F)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))) = (fun _ => 1#1)

/-- Under the precondition every entry of the edge list, on every device, is below 50000. -/
theorem edge_lt (m : (ℓ : Loc nD τ sig) → Buf (Elt F) ℓ) (h : PreAt m) (d : Dev nD) (i : S2x800000.Idx) :
    ((launchContents m d (main_arg1 : DevRef τ sig) : IVec S2x800000 32) i).toNat < 50000 :=
  edge_range _ _ _ _ _ _ _ _ _ _ _ _ _ (h d) i

/-- Every entry of the padded source array the first host stretch builds names a row of a 50008-row table. -/
theorem src_lt (m : (ℓ : Loc nD τ sig) → Buf (Elt F) ℓ) (h : PreAt m) (d : Dev nD) (j : S819200.Idx) :
    ((after (ops0 (F := F)) (launchContents m d) (Proc.devRef .tc main_v6) : IVec S819200 32) j).toNat < 50008 := by
  rw [v6_eq]
  exact srcPad_lt _ (edge_lt m h d) j

/-- Every entry of the padded destination array names a row of a 50008-row table (the padding is row 50000). -/
theorem dst_lt (m : (ℓ : Loc nD τ sig) → Buf (Elt F) ℓ) (h : PreAt m) (d : Dev nD) (j : S819200.Idx) :
    ((after (ops0 (F := F)) (launchContents m d) (Proc.devRef .tc main_v8) : IVec S819200 32) j).toNat < 50008 := by
  rw [v8_eq]
  exact dstPad_lt _ (edge_lt m h d) j

end Main

/-- The same from the certificate's own precondition for the word-level program, at the word-level instance. -/
theorem src_lt_bits (m : (ℓ : Loc nD τ sig) → Buf (Elt Bits) ℓ)
    (h : Cert.Pre_Kernel (hPre_input_domain := Cert.Pre_input_domain.Gen.facts) m) (d : Dev nD) (j : S819200.Idx) :
    ((after (ops0 (F := Bits)) (launchContents m d) (Proc.devRef .tc main_v6) : IVec S819200 32) j).toNat < 50008 :=
  src_lt (F := Bits) m h d j

theorem dst_lt_bits (m : (ℓ : Loc nD τ sig) → Buf (Elt Bits) ℓ)
    (h : Cert.Pre_Kernel (hPre_input_domain := Cert.Pre_input_domain.Gen.facts) m) (d : Dev nD) (j : S819200.Idx) :
    ((after (ops0 (F := Bits)) (launchContents m d) (Proc.devRef .tc main_v8) : IVec S819200 32) j).toNat < 50008 :=
  dst_lt (F := Bits) m h d j

end Cert.Proof.IdxRangeW

end
-- ==== Proof.EmbedRegionW.lean ====
/-
  The first TensorCore region (the embedding lookup): one grid point of its body.

  At a grid point the body reads a block of 2000 node labels `x` (as a column), the embedding table
  `embed` (120 × 64), the first message layer's weights `wc` (64 × 128) and bias `bc` (1 × 128), and
  writes two blocks: `h = onehot(x) · embed` (2000 × 64) and `tab = h · wc + bc` (2000 × 128). Both are
  whole-buffer stores, so what each output buffer holds afterwards is exactly the stored value: the
  skeleton's payloads `k0_pay1` and `k0_pay2` of the four input blocks.
-/
import proofs.«215677_g32066225832048_cont_9to1_32_28_alg».proof.Proof.Gen.Kernel.Launch
import proofs.«215677_g32066225832048_cont_9to1_32_28_alg».proof.Proof.Gen.Kernel.Skeleton
import proofs.«215677_g32066225832048_cont_9to1_32_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Embed

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## The body on whole staging buffers -/

set_option maxHeartbeats 1000000 in
/-- The body on whole buffers: from the four input buffers at contents `x0 … x3` and the two output buffers at
    anything, it runs to the continuation holding the inputs as they were, the first output at `k0_pay1 x0 x1`
    (the one-hot rows times the table) and the second at `k0_pay2 x0 x1 x2 x3` (that, times the weights, plus the
    bias row). -/
theorem sound_kernel (𝒱₀ : Variants) (c : Dev nD) (E : Set Name) (i : grid0.Coords)
    (arg1 : Memref sig .tc .vmem S2000x1 .i32) (harg1 : arg1.IsWhole) (arg2 : Memref sig .tc .vmem S120x64 .f32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S2000x64 .f32) (harg5 : arg5.IsWhole) (arg6 : Memref sig .tc .vmem S2000x128 .f32) (harg6 : arg6.IsWhole)
    (x0 : Vec F S2000x1 .i32) (x1 : Vec F S120x64 .f32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0 x1) ∗ owns (c : Thread nD τ) arg6 fullShare (k0_pay2 x0 x1 x2 x3)) -∗ K ⟨⟩))
      ⊢ wp frame (wpE (defs₀ (F := F)) 𝒱₀ c none) E (cc0__embed_body i arg1 harg1 arg2 harg2 arg3 harg3 arg4 harg4 arg5 harg5 arg6 harg6) K := by
  simp only [cc0__embed_body_eq_skeleton]; unfold cc0__embed_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x1) hz2, View.ld_unit_zero (S := S120x64) hz2,
      View.ld_unit_zero (S := S64x128) hz2, View.ld_unit_zero (S := S1x128) hz2]
  iexists _; isplitr
  swap; · iexact H5
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x1) hz2, View.ld_unit_zero (S := S120x64) hz2,
      View.ld_unit_zero (S := S64x128) hz2, View.ld_unit_zero (S := S1x128) hz2]

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The proof data of the region on core `c`, from the buffers `V` at its entry: each input's buffer keeps its block;
    after point `t` the first output's buffer holds `k0_pay1` of the label block and the table, the second
    `k0_pay2` of the four input blocks. The invariant `Φ` (what the region holds besides: the scoped buffers no
    window stages, and whatever the caller threads through) does not change from point to point, nor does what the core owes (`O`) or the bound `Rc` on the pairs its waits have recorded. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg0 c where
  A w := V (Pipeline.arrRef spec0 w)
  after w t := match w with
    | ⟨0, _⟩ => iblk c V 0 t
    | ⟨1, _⟩ => iblk c V 1 t
    | ⟨2, _⟩ => iblk c V 2 t
    | ⟨3, _⟩ => iblk c V 3 t
    | ⟨4, _⟩ => k0_pay1 (iblk c V 0 t) (iblk c V 1 t)
    | ⟨5, _⟩ => k0_pay2 (iblk c V 0 t) (iblk c V 1 t) (iblk c V 2 t) (iblk c V 3 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg0.W) : (dat (F := F) (Name := Name) (U := U) (Lvl := Lvl) c V Φ O Rc).A w = V (Pipeline.arrRef spec0 w) := by
  dsimp only [dat]

/-- What the body leaves, window by window. -/
theorem after_0 (t : Fin cfg0.N) : (dat (F := F) (Name := Name) (U := U) (Lvl := Lvl) c V Φ O Rc).after 0 t = iblk c V 0 t := by dsimp only [dat]
theorem after_1 (t : Fin cfg0.N) : (dat (F := F) (Name := Name) (U := U) (Lvl := Lvl) c V Φ O Rc).after 1 t = iblk c V 1 t := by dsimp only [dat]
theorem after_2 (t : Fin cfg0.N) : (dat (F := F) (Name := Name) (U := U) (Lvl := Lvl) c V Φ O Rc).after 2 t = iblk c V 2 t := by dsimp only [dat]
theorem after_3 (t : Fin cfg0.N) : (dat (F := F) (Name := Name) (U := U) (Lvl := Lvl) c V Φ O Rc).after 3 t = iblk c V 3 t := by dsimp only [dat]
theorem after_4 (t : Fin cfg0.N) : (dat (F := F) (Name := Name) (U := U) (Lvl := Lvl) c V Φ O Rc).after 4 t
    = k0_pay1 (iblk c V 0 t) (iblk c V 1 t) := by dsimp only [dat]
theorem after_5 (t : Fin cfg0.N) : (dat (F := F) (Name := Name) (U := U) (Lvl := Lvl) c V Φ O Rc).after 5 t
    = k0_pay2 (iblk c V 0 t) (iblk c V 1 t) (iblk c V 2 t) (iblk c V 3 t) := by dsimp only [dat]

/-- Each input's current buffer holds its block at every point, fetched there or not: an input that is not
    refetched has not moved, and the body left its block in place. -/
theorem before_0 (t : Fin cfg0.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg0.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg0.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg0.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg0.N) : sProp 𝕄 :=
  iprop((𝔡).Φ t.castSucc ∗ (𝔡).owesAt ι t.castSucc
    ∗ (∃ d, owns (c : Thread nD τ) (st0_0 t) fullShare ((𝔡).before 0 t d))
    ∗ (∃ d, owns (c : Thread nD τ) (st0_1 t) fullShare ((𝔡).before 1 t d))
    ∗ (∃ d, owns (c : Thread nD τ) (st0_2 t) fullShare ((𝔡).before 2 t d))
    ∗ (∃ d, owns (c : Thread nD τ) (st0_3 t) fullShare ((𝔡).before 3 t d))
    ∗ (∃ d, owns (c : Thread nD τ) (st0_4 t) fullShare ((𝔡).before 4 t d))
    ∗ (∃ d, owns (c : Thread nD τ) (st0_5 t) fullShare ((𝔡).before 5 t d)))

/-- and what it returns. -/
def bodyPost (t : Fin cfg0.N) : sProp 𝕄 :=
  iprop((𝔡).Φ t.succ ∗ (𝔡).owesAt ι t.succ
    ∗ owns (c : Thread nD τ) (st0_0 t) fullShare ((𝔡).after 0 t)
    ∗ owns (c : Thread nD τ) (st0_1 t) fullShare ((𝔡).after 1 t)
    ∗ owns (c : Thread nD τ) (st0_2 t) fullShare ((𝔡).after 2 t)
    ∗ owns (c : Thread nD τ) (st0_3 t) fullShare ((𝔡).after 3 t)
    ∗ owns (c : Thread nD τ) (st0_4 t) fullShare ((𝔡).after 4 t)
    ∗ owns (c : Thread nD τ) (st0_5 t) fullShare ((𝔡).after 5 t))

/-- The body at any point: the inputs' buffers hold their blocks, so `sound_kernel` applies; the invariant and what
    the core owes pass through unread. -/
theorem sound_body (t : Fin cfg0.N) :
    bodyPre ι c V Φ O Rc t ⊢ wp frame (wpE (defs₀ (F := F)) 𝒱₀ c none) Set.univ (bodyAt0 t) (fun _ => bodyPost ι c V Φ O Rc t) := by
  unfold bodyPre bodyPost bodyAt0
  simp only [before_0, before_1, before_2, before_3]
  rw [show (𝔡).Φ t.succ = (𝔡).Φ t.castSucc from rfl,
    show (𝔡).owesAt ι t.succ = (𝔡).owesAt ι t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ (grid0.coords t) _ _ _ _ _ _ _ _ _ _ _ _ (iblk c V 0 t) (iblk c V 1 t) (iblk c V 2 t) (iblk c V 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region, at every point. -/
theorem body_obligation : BodyObligation (dat (F := F) (Name := Name) (U := U) (Lvl := Lvl) c V Φ O Rc) (defs₀ (F := F)) 𝒱₀ ι Set.univ := fun t => by
  rw [bigSep_W0, bigSep_W0]
  exact sound_body 𝒱₀ ι c V Φ O Rc t

end Obligation

end Cert.Kernel.Embed

end
-- ==== Proof.UpdateRegionW.lean ====
/-
  The two update regions (the second and third TensorCore regions): one grid point of their body.

  At a grid point the body reads a block of 2000 node states `h`, the block of summed incoming messages `p`, the
  nodes' in-degrees, and six small weight and bias arrays, and writes two blocks: the new states
  `hn = max(h · sw + sb + (p · w2 + deg · b2), 0)` (2000 × 64) and the next layer's table `hn · wc + bc` (2000 × 128).
  Both are whole-buffer stores, so what each output buffer holds afterwards is the stored value itself: the
  skeleton's payloads of the nine input blocks. The two regions run the same function on different arrays.
-/
import proofs.«215677_g32066225832048_cont_9to1_32_28_alg».proof.Proof.Gen.Kernel.Launch
import proofs.«215677_g32066225832048_cont_9to1_32_28_alg».proof.Proof.Gen.Kernel.Skeleton
import proofs.«215677_g32066225832048_cont_9to1_32_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Upd2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## What the body leaves in its two outputs

The operands, in the order of the windows: `x0` the nodes' states `h`, `x1` the summed messages `p`, `x2` the in-degrees
(a column), `x3`, `x4` the self weights and bias, `x5`, `x6` the second message layer's weights and bias, `x7`, `x8` the
next layer's first message weights and bias. -/

/-- The new states: `max(h · sw + sb + (p · w2 + deg · b2), 0)`. -/
def out9 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) : Vec F S2000x64 .f32 :=
  k2_pay1 x1 x5 x2 x6 x0 x3 x4

/-- The next layer's table: the new states times `wc`, plus `bc`. -/
def out10 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (x7 : Vec F S64x128 .f32) (x8 : Vec F S1x128 .f32) : Vec F S2000x128 .f32 :=
  k2_pay2 x1 x5 x2 x6 x0 x3 x4 x7 x8

/-! ## The body on whole staging buffers -/

set_option maxHeartbeats 2000000 in
/-- The body on whole buffers: from the nine input buffers at contents `x0 … x8` and the two output buffers at anything,
    it runs to the continuation holding the inputs as they were and the outputs at `out9` and `out10` of them (both
    stores cover their buffers, so each leaves exactly the stored value). -/
theorem sound_kernel (𝒱₀ : Variants) (c : Dev nD) (E : Set Name) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S2000x64 .f32) (harg10 : arg10.IsWhole) (arg11 : Memref sig .tc .vmem S2000x128 .f32) (harg11 : arg11.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6) ∗ owns (c : Thread nD τ) arg11 fullShare (out10 x0 x1 x2 x3 x4 x5 x6 x7 x8)) -∗ K ⟨⟩))
      ⊢ wp frame (wpE (defs₀ (F := F)) 𝒱₀ c none) E (cc2__update_body i arg1 harg1 arg2 harg2 arg3 harg3 arg4 harg4 arg5 harg5 arg6 harg6 arg7 harg7 arg8 harg8 arg9 harg9 arg10 harg10 arg11 harg11) K := by
  simp only [cc2__update_body_eq_skeleton]; unfold cc2__update_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
    rfl
  iexists _; isplitr
  swap; · iexact H10
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
  rfl

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg2.W) (t : Fin cfg2.N) :
    ((cfg2.win w).xblock (cfg2.grid.coords t)).Idx → Elt F (cfg2.win w).elt :=
  ((cfg2.win w).blk t).view.read (Elt F) (V (Pipeline.arrRef spec2 w))

/-- The proof data of the region on core `c`, from the buffers `V` at its entry: each input's buffer keeps its block;
    after point `t` the outputs' buffers hold `out9` and `out10` of the input blocks. The invariant `Φ` and what the
    core owes `O` do not change from point to point. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg2 c where
  A w := V (Pipeline.arrRef spec2 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t)
    | ⟨10, _⟩ => out10 (iblk c V 0 t) (iblk c V 1 t) (iblk c V 2 t) (iblk c V 3 t) (iblk c V 4 t) (iblk c V 5 t) (iblk c V 6 t) (iblk c V 7 t) (iblk c V 8 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg2.W) : (dat (F := F) (Name := Name) (U := U) (Lvl := Lvl) c V Φ O Rc).A w = V (Pipeline.arrRef spec2 w) := by
  dsimp only [dat]

/-- What the body leaves, window by window. -/
theorem after_0 (t : Fin cfg2.N) : (dat (F := F) (Name := Name) (U := U) (Lvl := Lvl) c V Φ O Rc).after 0 t = iblk c V 0 t := by dsimp only [dat]
theorem after_1 (t : Fin cfg2.N) : (dat (F := F) (Name := Name) (U := U) (Lvl := Lvl) c V Φ O Rc).after 1 t = iblk c V 1 t := by dsimp only [dat]
theorem after_2 (t : Fin cfg2.N) : (dat (F := F) (Name := Name) (U := U) (Lvl := Lvl) c V Φ O Rc).after 2 t = iblk c V 2 t := by dsimp only [dat]
theorem after_3 (t : Fin cfg2.N) : (dat (F := F) (Name := Name) (U := U) (Lvl := Lvl) c V Φ O Rc).after 3 t = iblk c V 3 t := by dsimp only [dat]
theorem after_4 (t : Fin cfg2.N) : (dat (F := F) (Name := Name) (U := U) (Lvl := Lvl) c V Φ O Rc).after 4 t = iblk c V 4 t := by dsimp only [dat]
theorem after_5 (t : Fin cfg2.N) : (dat (F := F) (Name := Name) (U := U) (Lvl := Lvl) c V Φ O Rc).after 5 t = iblk c V 5 t := by dsimp only [dat]
theorem after_6 (t : Fin cfg2.N) : (dat (F := F) (Name := Name) (U := U) (Lvl := Lvl) c V Φ O Rc).after 6 t = iblk c V 6 t := by dsimp only [dat]
theorem after_7 (t : Fin cfg2.N) : (dat (F := F) (Name := Name) (U := U) (Lvl := Lvl) c V Φ O Rc).after 7 t = iblk c V 7 t := by dsimp only [dat]
theorem after_8 (t : Fin cfg2.N) : (dat (F := F) (Name := Name) (U := U) (Lvl := Lvl) c V Φ O Rc).after 8 t = iblk c V 8 t := by dsimp only [dat]
theorem after_9 (t : Fin cfg2.N) : (dat (F := F) (Name := Name) (U := U) (Lvl := Lvl) c V Φ O Rc).after 9 t = out9 (iblk c V 0 t) (iblk c V 1 t) (iblk c V 2 t) (iblk c V 3 t) (iblk c V 4 t) (iblk c V 5 t) (iblk c V 6 t) := by dsimp only [dat]
theorem after_10 (t : Fin cfg2.N) : (dat (F := F) (Name := Name) (U := U) (Lvl := Lvl) c V Φ O Rc).after 10 t = out10 (iblk c V 0 t) (iblk c V 1 t) (iblk c V 2 t) (iblk c V 3 t) (iblk c V 4 t) (iblk c V 5 t) (iblk c V 6 t) (iblk c V 7 t) (iblk c V 8 t) := by dsimp only [dat]

/-- Each input's current buffer holds its block at every point, fetched there or not: an input that is not
    refetched has not moved, and the body left its block in place. -/
theorem before_0 (t : Fin cfg2.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg2.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg2.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg2.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg2.N) (d) : (dat (F := F) (Name := Name) (U := U) (Lvl := Lvl) c V Φ O Rc).before 4 t d = iblk c V 4 t :=
  ((dat (F := F) (Name := Name) (U := U) (Lvl := Lvl) c V Φ O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg2.N) (d) : (dat (F := F) (Name := Name) (U := U) (Lvl := Lvl) c V Φ O Rc).before 5 t d = iblk c V 5 t :=
  ((dat (F := F) (Name := Name) (U := U) (Lvl := Lvl) c V Φ O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg2.N) (d) : (dat (F := F) (Name := Name) (U := U) (Lvl := Lvl) c V Φ O Rc).before 6 t d = iblk c V 6 t :=
  ((dat (F := F) (Name := Name) (U := U) (Lvl := Lvl) c V Φ O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg2.N) (d) : (dat (F := F) (Name := Name) (U := U) (Lvl := Lvl) c V Φ O Rc).before 7 t d = iblk c V 7 t :=
  ((dat (F := F) (Name := Name) (U := U) (Lvl := Lvl) c V Φ O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg2.N) (d) : (dat (F := F) (Name := Name) (U := U) (Lvl := Lvl) c V Φ O Rc).before 8 t d = iblk c V 8 t :=
  ((dat (F := F) (Name := Name) (U := U) (Lvl := Lvl) c V Φ O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg2.N) : sProp 𝕄 :=
  iprop((𝔡).Φ t.castSucc ∗ (𝔡).owesAt ι t.castSucc
    ∗ (∃ d, owns (c : Thread nD τ) (st2_0 t) fullShare ((𝔡).before 0 t d))
    ∗ (∃ d, owns (c : Thread nD τ) (st2_1 t) fullShare ((𝔡).before 1 t d))
    ∗ (∃ d, owns (c : Thread nD τ) (st2_2 t) fullShare ((𝔡).before 2 t d))
    ∗ (∃ d, owns (c : Thread nD τ) (st2_3 t) fullShare ((𝔡).before 3 t d))
    ∗ (∃ d, owns (c : Thread nD τ) (st2_4 t) fullShare ((𝔡).before 4 t d))
    ∗ (∃ d, owns (c : Thread nD τ) (st2_5 t) fullShare ((𝔡).before 5 t d))
    ∗ (∃ d, owns (c : Thread nD τ) (st2_6 t) fullShare ((𝔡).before 6 t d))
    ∗ (∃ d, owns (c : Thread nD τ) (st2_7 t) fullShare ((𝔡).before 7 t d))
    ∗ (∃ d, owns (c : Thread nD τ) (st2_8 t) fullShare ((𝔡).before 8 t d))
    ∗ (∃ d, owns (c : Thread nD τ) (st2_9 t) fullShare ((𝔡).before 9 t d))
    ∗ (∃ d, owns (c : Thread nD τ) (st2_10 t) fullShare ((𝔡).before 10 t d)))

/-- and what it returns. -/
def bodyPost (t : Fin cfg2.N) : sProp 𝕄 :=
  iprop((𝔡).Φ t.succ ∗ (𝔡).owesAt ι t.succ
    ∗ owns (c : Thread nD τ) (st2_0 t) fullShare ((𝔡).after 0 t)
    ∗ owns (c : Thread nD τ) (st2_1 t) fullShare ((𝔡).after 1 t)
    ∗ owns (c : Thread nD τ) (st2_2 t) fullShare ((𝔡).after 2 t)
    ∗ owns (c : Thread nD τ) (st2_3 t) fullShare ((𝔡).after 3 t)
    ∗ owns (c : Thread nD τ) (st2_4 t) fullShare ((𝔡).after 4 t)
    ∗ owns (c : Thread nD τ) (st2_5 t) fullShare ((𝔡).after 5 t)
    ∗ owns (c : Thread nD τ) (st2_6 t) fullShare ((𝔡).after 6 t)
    ∗ owns (c : Thread nD τ) (st2_7 t) fullShare ((𝔡).after 7 t)
    ∗ owns (c : Thread nD τ) (st2_8 t) fullShare ((𝔡).after 8 t)
    ∗ owns (c : Thread nD τ) (st2_9 t) fullShare ((𝔡).after 9 t)
    ∗ owns (c : Thread nD τ) (st2_10 t) fullShare ((𝔡).after 10 t))

/-- The body at any point: the inputs' buffers hold their blocks, so `sound_kernel` applies; the invariant and what
    the core owes pass through unread. -/
theorem sound_body (t : Fin cfg2.N) :
    bodyPre ι c V Φ O Rc t ⊢ wp frame (wpE (defs₀ (F := F)) 𝒱₀ c none) Set.univ (bodyAt2 t) (fun _ => bodyPost ι c V Φ O Rc t) := by
  unfold bodyPre bodyPost bodyAt2
  simp only [before_0, before_1, before_2, before_3, before_4, before_5, before_6, before_7, before_8]
  rw [show (𝔡).Φ t.succ = (𝔡).Φ t.castSucc from rfl,
    show (𝔡).owesAt ι t.succ = (𝔡).owesAt ι t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel 𝒱₀ c Set.univ (grid2.coords t) _ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for the region, at every point. -/
theorem body_obligation : BodyObligation (dat (F := F) (Name := Name) (U := U) (Lvl := Lvl) c V Φ O Rc) (defs₀ (F := F)) 𝒱₀ ι Set.univ := fun t => by
  rw [bigSep_W2, bigSep_W2]
  exact sound_body 𝒱₀ ι c V Φ O Rc t

end Obligation

end Cert.Kernel.Upd2

namespace Cert.Kernel.Upd4

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-! ## What the body leaves in its two outputs

The operands, in the order of the windows: `x0` the nodes' states `h`, `x1` the summed messages `p`, `x2` the in-degrees
(a column), `x3`, `x4` the self weights and bias, `x5`, `x6` the second message layer's weights and bias, `x7`, `x8` the
next layer's first message weights and bias. -/

/-- The new states: `max(h · sw + sb + (p · w2 + deg · b2), 0)`. -/
def out9 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) : Vec F S2000x64 .f32 :=
  k4_pay1 x1 x5 x2 x6 x0 x3 x4

/-- The next layer's table: the new states times `wc`, plus `bc`. -/
def out10 (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (x7 : Vec F S64x128 .f32) (x8 : Vec F S1x128 .f32) : Vec F S2000x128 .f32 :=
  k4_pay2 x1 x5 x2 x6 x0 x3 x4 x7 x8

/-! ## The body on whole staging buffers -/

set_option maxHeartbeats 2000000 in
/-- The body on whole buffers: from the nine input buffers at contents `x0 … x8` and the two output buffers at anything,
    it runs to the continuation holding the inputs as they were and the outputs at `out9` and `out10` of them (both
    stores cover their buffers, so each leaves exactly the stored value). -/
theorem sound_kernel (𝒱₀ : Variants) (c : Dev nD) (E : Set Name) (i : grid4.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S2000x64 .f32) (harg10 : arg10.IsWhole) (arg11 : Memref sig .tc .vmem S2000x128 .f32) (harg11 : arg11.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out9 x0 x1 x2 x3 x4 x5 x6) ∗ owns (c : Thread nD τ) arg11 fullShare (out10 x0 x1 x2 x3 x4 x5 x6 x7 x8)) -∗ K ⟨⟩))
      ⊢ wp frame (wpE (defs₀ (F := F)) 𝒱₀ c none) E (cc4__update_body i arg1 harg1 arg2 harg2 arg3 harg3 arg4 harg4 arg5 harg5 arg6 harg6 arg7 harg7 arg8 harg8 arg9 harg9 arg10 harg10 arg11 harg11) K := by
  simp only [cc4__update_body_eq_skeleton]; unfold cc4__update_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [View.read_writes_eq_canon _ _ _ (fun y => ⟨_, List.mem_singleton_self _, View.mem_set_unit_zero hz2 inb_S2000x64_S2000x64_0_0 y⟩),
      View.canon_unit_zero hz2]
    simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
    rfl
  iexists _; isplitr
  swap; · iexact H10
  ipureintro
  rw [View.read_writes_eq_canon _ _ _ (fun y => ⟨_, List.mem_singleton_self _, View.mem_set_unit_zero hz2 inb_S2000x128_S2000x128_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x128) hz2, View.ld_unit_zero (S := S1x128) hz2]
  rfl

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg4.W) (t : Fin cfg4.N) :
    ((cfg4.win w).xblock (cfg4.grid.coords t)).Idx → Elt F (cfg4.win w).elt :=
  ((cfg4.win w).blk t).view.read (Elt F) (V (Pipeline.arrRef spec4 w))

/-- The proof data of the region on core `c`, from the buffers `V` at its entry: each input's buffer keeps its block;
    after point `t` the outputs' buffers hold `out9` and `out10` of the input blocks. The invariant `Φ` and what the
    core owes `O` do not change from point to point. -/
def dat (c : Dev nD) (V : (b : Ref sig .tc) → Buf (Elt F) ((c : Thread nD τ).loc b)) (Φ : sProp 𝕄) (O : CellTallies nD τ sig Ix)
    (Rc : Set (SemLoc sig × Ix)) :
    Dat τ (Elt F) Ix Name U Lvl cfg4 c where
  A w := V (Pipeline.arrRef spec4 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => out9 (iblk c V 0 t) (iblk c V 1 t) (iblk c V 2 t) (iblk c V 3 t) (iblk c V 4 t) (iblk c V 5 t) (iblk c V 6 t)
    | ⟨10, _⟩ => out10 (iblk c V 0 t) (iblk c V 1 t) (iblk c V 2 t) (iblk c V 3 t) (iblk c V 4 t) (iblk c V 5 t) (iblk c V 6 t) (iblk c V 7 t) (iblk c V 8 t)
  Φ _ := Φ
  q _ := fullShare
  owed _ := O
  recorded _ := Rc

section Obligation

variable (𝒱₀ : Variants) (ι : Ix) (c : Dev nD) (V : (b : Ref sig .tc) → Buf (Elt F) ((c : Thread nD τ).loc b))
  (Φ : sProp (MT nD τ sig Ix (Elt F) Name U Lvl)) (O : CellTallies nD τ sig Ix)
  (Rc : Set (SemLoc sig × Ix))

/-- The proof data's arrays are the entry contents (the definition projected, `V` never unfolded). -/
theorem A_eq (w : Fin cfg4.W) : (dat (F := F) (Name := Name) (U := U) (Lvl := Lvl) c V Φ O Rc).A w = V (Pipeline.arrRef spec4 w) := by
  dsimp only [dat]

/-- What the body leaves, window by window. -/
theorem after_0 (t : Fin cfg4.N) : (dat (F := F) (Name := Name) (U := U) (Lvl := Lvl) c V Φ O Rc).after 0 t = iblk c V 0 t := by dsimp only [dat]
theorem after_1 (t : Fin cfg4.N) : (dat (F := F) (Name := Name) (U := U) (Lvl := Lvl) c V Φ O Rc).after 1 t = iblk c V 1 t := by dsimp only [dat]
theorem after_2 (t : Fin cfg4.N) : (dat (F := F) (Name := Name) (U := U) (Lvl := Lvl) c V Φ O Rc).after 2 t = iblk c V 2 t := by dsimp only [dat]
theorem after_3 (t : Fin cfg4.N) : (dat (F := F) (Name := Name) (U := U) (Lvl := Lvl) c V Φ O Rc).after 3 t = iblk c V 3 t := by dsimp only [dat]
theorem after_4 (t : Fin cfg4.N) : (dat (F := F) (Name := Name) (U := U) (Lvl := Lvl) c V Φ O Rc).after 4 t = iblk c V 4 t := by dsimp only [dat]
theorem after_5 (t : Fin cfg4.N) : (dat (F := F) (Name := Name) (U := U) (Lvl := Lvl) c V Φ O Rc).after 5 t = iblk c V 5 t := by dsimp only [dat]
theorem after_6 (t : Fin cfg4.N) : (dat (F := F) (Name := Name) (U := U) (Lvl := Lvl) c V Φ O Rc).after 6 t = iblk c V 6 t := by dsimp only [dat]
theorem after_7 (t : Fin cfg4.N) : (dat (F := F) (Name := Name) (U := U) (Lvl := Lvl) c V Φ O Rc).after 7 t = iblk c V 7 t := by dsimp only [dat]
theorem after_8 (t : Fin cfg4.N) : (dat (F := F) (Name := Name) (U := U) (Lvl := Lvl) c V Φ O Rc).after 8 t = iblk c V 8 t := by dsimp only [dat]
theorem after_9 (t : Fin cfg4.N) : (dat (F := F) (Name := Name) (U := U) (Lvl := Lvl) c V Φ O Rc).after 9 t = out9 (iblk c V 0 t) (iblk c V 1 t) (iblk c V 2 t) (iblk c V 3 t) (iblk c V 4 t) (iblk c V 5 t) (iblk c V 6 t) := by dsimp only [dat]
theorem after_10 (t : Fin cfg4.N) : (dat (F := F) (Name := Name) (U := U) (Lvl := Lvl) c V Φ O Rc).after 10 t = out10 (iblk c V 0 t) (iblk c V 1 t) (iblk c V 2 t) (iblk c V 3 t) (iblk c V 4 t) (iblk c V 5 t) (iblk c V 6 t) (iblk c V 7 t) (iblk c V 8 t) := by dsimp only [dat]

/-- Each input's current buffer holds its block at every point, fetched there or not: an input that is not
    refetched has not moved, and the body left its block in place. -/
theorem before_0 (t : Fin cfg4.N) (d) : (dat (F := F) (Name := Name) (U := U) (Lvl := Lvl) c V Φ O Rc).before 0 t d = iblk c V 0 t :=
  ((dat (F := F) (Name := Name) (U := U) (Lvl := Lvl) c V Φ O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg4.N) (d) : (dat (F := F) (Name := Name) (U := U) (Lvl := Lvl) c V Φ O Rc).before 1 t d = iblk c V 1 t :=
  ((dat (F := F) (Name := Name) (U := U) (Lvl := Lvl) c V Φ O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg4.N) (d) : (dat (F := F) (Name := Name) (U := U) (Lvl := Lvl) c V Φ O Rc).before 2 t d = iblk c V 2 t :=
  ((dat (F := F) (Name := Name) (U := U) (Lvl := Lvl) c V Φ O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg4.N) (d) : (dat (F := F) (Name := Name) (U := U) (Lvl := Lvl) c V Φ O Rc).before 3 t d = iblk c V 3 t :=
  ((dat (F := F) (Name := Name) (U := U) (Lvl := Lvl) c V Φ O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg4.N) (d) : (dat (F := F) (Name := Name) (U := U) (Lvl := Lvl) c V Φ O Rc).before 4 t d = iblk c V 4 t :=
  ((dat (F := F) (Name := Name) (U := U) (Lvl := Lvl) c V Φ O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg4.N) (d) : (dat (F := F) (Name := Name) (U := U) (Lvl := Lvl) c V Φ O Rc).before 5 t d = iblk c V 5 t :=
  ((dat (F := F) (Name := Name) (U := U) (Lvl := Lvl) c V Φ O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg4.N) (d) : (dat (F := F) (Name := Name) (U := U) (Lvl := Lvl) c V Φ O Rc).before 6 t d = iblk c V 6 t :=
  ((dat (F := F) (Name := Name) (U := U) (Lvl := Lvl) c V Φ O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg4.N) (d) : (dat (F := F) (Name := Name) (U := U) (Lvl := Lvl) c V Φ O Rc).before 7 t d = iblk c V 7 t :=
  ((dat (F := F) (Name := Name) (U := U) (Lvl := Lvl) c V Φ O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg4.N) (d) : (dat (F := F) (Name := Name) (U := U) (Lvl := Lvl) c V Φ O Rc).before 8 t d = iblk c V 8 t :=
  ((dat (F := F) (Name := Name) (U := U) (Lvl := Lvl) c V Φ O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V Φ O Rc

/-- What the body is called with at point `t`, the windows one by one, -/
def bodyPre (t : Fin cfg4.N) : sProp 𝕄 :=
  iprop((𝔡).Φ t.castSucc ∗ (𝔡).owesAt ι t.castSucc
    ∗ (∃ d, owns (c : Thread nD τ) (st4_0 t) fullShare ((𝔡).before 0 t d))
    ∗ (∃ d, owns (c : Thread nD τ) (st4_1 t) fullShare ((𝔡).before 1 t d))
    ∗ (∃ d, owns (c : Thread nD τ) (st4_2 t) fullShare ((𝔡).before 2 t d))
    ∗ (∃ d, owns (c : Thread nD τ) (st4_3 t) fullShare ((𝔡).before 3 t d))
    ∗ (∃ d, owns (c : Thread nD τ) (st4_4 t) fullShare ((𝔡).before 4 t d))
    ∗ (∃ d, owns (c : Thread nD τ) (st4_5 t) fullShare ((𝔡).before 5 t d))
    ∗ (∃ d, owns (c : Thread nD τ) (st4_6 t) fullShare ((𝔡).before 6 t d))
    ∗ (∃ d, owns (c : Thread nD τ) (st4_7 t) fullShare ((𝔡).before 7 t d))
    ∗ (∃ d, owns (c : Thread nD τ) (st4_8 t) fullShare ((𝔡).before 8 t d))
    ∗ (∃ d, owns (c : Thread nD τ) (st4_9 t) fullShare ((𝔡).before 9 t d))
    ∗ (∃ d, owns (c : Thread nD τ) (st4_10 t) fullShare ((𝔡).before 10 t d)))

/-- and what it returns. -/
def bodyPost (t : Fin cfg4.N) : sProp 𝕄 :=
  iprop((𝔡).Φ t.succ ∗ (𝔡).owesAt ι t.succ
    ∗ owns (c : Thread nD τ) (st4_0 t) fullShare ((𝔡).after 0 t)
    ∗ owns (c : Thread nD τ) (st4_1 t) fullShare ((𝔡).after 1 t)
    ∗ owns (c : Thread nD τ) (st4_2 t) fullShare ((𝔡).after 2 t)
    ∗ owns (c : Thread nD τ) (st4_3 t) fullShare ((𝔡).after 3 t)
    ∗ owns (c : Thread nD τ) (st4_4 t) fullShare ((𝔡).after 4 t)
    ∗ owns (c : Thread nD τ) (st4_5 t) fullShare ((𝔡).after 5 t)
    ∗ owns (c : Thread nD τ) (st4_6 t) fullShare ((𝔡).after 6 t)
    ∗ owns (c : Thread nD τ) (st4_7 t) fullShare ((𝔡).after 7 t)
    ∗ owns (c : Thread nD τ) (st4_8 t) fullShare ((𝔡).after 8 t)
    ∗ owns (c : Thread nD τ) (st4_9 t) fullShare ((𝔡).after 9 t)
    ∗ owns (c : Thread nD τ) (st4_10 t) fullShare ((𝔡).after 10 t))

/-- The body at any point: the inputs' buffers hold their blocks, so `sound_kernel` applies; the invariant and what
    the core owes pass through unread. -/
theorem sound_body (t : Fin cfg4.N) :
    bodyPre ι c V Φ O Rc t ⊢ wp frame (wpE (defs₀ (F := F)) 𝒱₀ c none) Set.univ (bodyAt4 t) (fun _ => bodyPost ι c V Φ O Rc t) := by
  unfold bodyPre bodyPost bodyAt4
  simp only [before_0, before_1, before_2, before_3, before_4, before_5, before_6, before_7, before_8]
  rw [show (𝔡).Φ t.succ = (𝔡).Φ t.castSucc from rfl,
    show (𝔡).owesAt ι t.succ = (𝔡).owesAt ι t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel 𝒱₀ c Set.univ (grid4.coords t) _ _ _ _ _ _ _ _ _ _ _ _ _ _ _ _ _ _ _ _ _ _ (iblk c V 0 t) (iblk c V 1 t) (iblk c V 2 t) (iblk c V 3 t) (iblk c V 4 t) (iblk c V 5 t) (iblk c V 6 t) (iblk c V 7 t) (iblk c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for the region, at every point. -/
theorem body_obligation : BodyObligation (dat (F := F) (Name := Name) (U := U) (Lvl := Lvl) c V Φ O Rc) (defs₀ (F := F)) 𝒱₀ ι Set.univ := fun t => by
  rw [bigSep_W4, bigSep_W4]
  exact sound_body 𝒱₀ ι c V Φ O Rc t

end Obligation

end Cert.Kernel.Upd4

end
-- ==== Proof.HeadRegionW.lean ====
/-
  The last TensorCore region (the read-out head): one grid point of its body, in its three control cases.

  At a grid point the body computes the block's new states exactly as the update regions do, sums them over the
  block's 2000 rows, and adds that row to a 1 × 64 accumulator kept in a scratch buffer that survives from point to
  point. The first point zeroes the accumulator before adding; every later point adds to what the point before left.
  Only at the last point does the body store into its output window: the mean of the states over all 50000 nodes
  (the accumulator times 1/50000), through the two-layer head `max(mean · ow1 + ob1, 0) · ow2 + ob2`. At every
  other point the output's buffer is handed back as it was found.

  So there are three runs of the body — first point, a middle point, last point — told apart by two tests on the
  grid coordinate, and the accumulator's contents after each point are a recursion on the point (`acc`).
-/
import proofs.«215677_g32066225832048_cont_9to1_32_28_alg».proof.Proof.Gen.Kernel.Launch
import proofs.«215677_g32066225832048_cont_9to1_32_28_alg».proof.Proof.Gen.Kernel.Skeleton
import proofs.«215677_g32066225832048_cont_9to1_32_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Head

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets of a rank-2 rectangle, as the printed loads and stores spell them. -/
theorem hz2 : (![0, 0] : Fin 2 → Nat) = fun _ => 0 := by
  funext a; fin_cases a <;> rfl

/-- The first conditional's test, as the body computes it from the grid coordinate: is this the first point? -/
def cond1 (i : grid6.Coords) : BitVec 1 :=
  Scalar.cmpi .ne (Scalar.extui (Scalar.cmpi .eq (BitVec.ofNat 32 (i 0).val) 0#32)) 0#32

/-- One point's contribution added to the running column sums `a`: the new states of the block (as in the update
    regions), summed over the block's rows. -/
def accStep (x0 : Vec F S2000x64 .f32) (x1 : Vec F S2000x64 .f32) (x2 : Vec F S2000x1 .f32) (x3 : Vec F S64x64 .f32) (x4 : Vec F S1x64 .f32)
    (x5 : Vec F S64x64 .f32) (x6 : Vec F S1x64 .f32) (a : Vec F S1x64 .f32) : Vec F S1x64 .f32 :=
  k6_pay1 (k6_pay4 x1 x5 x2 x6 x0 x3 x4 a)

/-- The head: `max((a · inv_50000) · ow1 + ob1, 0) · ow2 + ob2` of the final column sums `a`. -/
def headOut (a : Vec F S1x64 .f32) (x7 : Vec F S64x64 .f32) (x8 : Vec F S1x64 .f32) (x9 : Vec F S64x1 .f32) (x10 : Vec F S1x1 .f32) : Vec F S1x1 .f32 :=
  k6_pay2 a x7 x8 x9 x10

/-! ## The three runs of the body on whole buffers -/

set_option maxHeartbeats 2000000 in
/-- The body at the FIRST point: the running sums are zeroed, then the point's contribution is added; the output buffer is left as found. -/
theorem runA (𝒱₀ : Variants) (c : Dev nD) (E : Set Name) (i : grid6.Coords) (hc1 : cond1 i = 1#1) (hc2 : ¬ k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (y : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ owns (c : Thread nD τ) arg12 fullShare y ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y ∗ owns (c : Thread nD τ) arg13 fullShare (accStep x0 x1 x2 x3 x4 x5 x6 k6_pay3)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.Mem.head _, View.mem_set_unit_zero hz2 inb_S1x64_S1x64_0_0 y⟩),
    View.canon_cons_unit_zero hz2]
  sl_unfold_run_names
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rw [View.readCov_unit_zero _ hz2]
  rfl

set_option maxHeartbeats 2000000 in
/-- The body at a MIDDLE point: the point's contribution is added to the running sums; the output buffer is left as found. -/
theorem runB (𝒱₀ : Variants) (c : Dev nD) (E : Set Name) (i : grid6.Coords) (hc1 : ¬ cond1 i = 1#1) (hc2 : ¬ k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (y : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ owns (c : Thread nD τ) arg12 fullShare y ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare y ∗ owns (c : Thread nD τ) arg13 fullShare (accStep x0 x1 x2 x3 x4 x5 x6 a)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf6 hf7 hf8 hf9 hf10 hf11 hf12
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rfl

set_option maxHeartbeats 2000000 in
/-- The body at the LAST point: the point's contribution is added to the running sums, and the head of the total is stored in the output buffer. -/
theorem runC (𝒱₀ : Variants) (c : Dev nD) (E : Set Name) (i : grid6.Coords) (hc1 : ¬ cond1 i = 1#1) (hc2 : k6_cond2 i = 1#1)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x64 .f32) (harg13 : arg13.IsWhole)
    (x0 : Vec F S2000x64 .f32) (x1 : Vec F S2000x64 .f32) (x2 : Vec F S2000x1 .f32) (x3 : Vec F S64x64 .f32) (x4 : Vec F S1x64 .f32) (x5 : Vec F S64x64 .f32) (x6 : Vec F S1x64 .f32) (x7 : Vec F S64x64 .f32) (x8 : Vec F S1x64 .f32) (x9 : Vec F S64x1 .f32) (x10 : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (headOut (accStep x0 x1 x2 x3 x4 x5 x6 a) x7 x8 x9 x10) ∗ owns (c : Thread nD τ) arg13 fullShare (accStep x0 x1 x2 x3 x4 x5 x6 a)) -∗ K ⟨⟩))
      ⊢ wp frame (wpE (defs₀ (F := F)) 𝒱₀ c none) E (cc6__head_body i arg1 harg1 arg2 harg2 arg3 harg3 arg4 harg4 arg5 harg5 arg6 harg6 arg7 harg7 arg8 harg8 arg9 harg9 arg10 harg10 arg11 harg11 arg12 harg12 arg13 harg13) K := by
  simp only [cc6__head_body_eq_skeleton]; unfold cc6__head_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  subst hf0 hf1 hf2 hf3 hf4 hf5 hf6 hf7 hf8 hf9 hf10 hf12
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_eq_canon _ _ _ (fun y => ⟨_, List.mem_singleton_self _, View.mem_set_unit_zero hz2 inb_S1x1_S1x1_0_0 y⟩),
      View.canon_unit_zero hz2]
    sl_unfold_run_names
    simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
    rw [View.readCov_unit_zero _ hz2]
    rfl
  iexists _; isplitr
  swap; · iexact H12
  ipureintro
  sl_unfold_run_names
  rw [View.read_writes_eq_canon _ _ _ (fun y => ⟨_, List.mem_singleton_self _, View.mem_set_unit_zero hz2 inb_S1x64_S1x64_0_0 y⟩),
    View.canon_unit_zero hz2]
  simp only [View.readAt_eq_ld, View.ld_unit_zero (S := S2000x64) hz2, View.ld_unit_zero (S := S2000x1) hz2, View.ld_unit_zero (S := S64x64) hz2, View.ld_unit_zero (S := S1x64) hz2, View.ld_unit_zero (S := S64x1) hz2, View.ld_unit_zero (S := S1x1) hz2]
  rfl

/-! ## The conditions over the grid -/

/-- The grid has 25 points. -/
theorem N_eq : cfg6.N = 25 := N_6

/-- The first conditional holds at the first point only. -/
theorem hcond1 : ∀ t : Fin cfg6.N, cond1 (grid6.coords t) = 1#1 ↔ t.val = 0 :=
  (by decide +kernel : ∀ t : Fin grid6.N, cond1 (grid6.coords t) = 1#1 ↔ t.val = 0)

/-- The second conditional holds at the last point only. -/
theorem hcond2 : ∀ t : Fin cfg6.N, k6_cond2 (grid6.coords t) = 1#1 ↔ t.val = 24 :=
  (by decide +kernel : ∀ t : Fin grid6.N, k6_cond2 (grid6.coords t) = 1#1 ↔ t.val = 24)

/-- The output window is idle (the body stores nothing into it) away from the last point, -/
theorem idle_11 (t : Fin cfg6.N) (h : t.val ≠ 24) : cfg6.idle 11 (cfg6.grid.coords t) = true := by
  show (!(k6_cond2 (grid6.coords t) == 1#1)) = true
  rw [Bool.not_eq_true', beq_eq_false_iff_ne]
  exact fun e => h ((hcond2 t).mp e)

/-- live at it, -/
theorem live_11 (t : Fin cfg6.N) (h : t.val = 24) : cfg6.idle 11 (cfg6.grid.coords t) = false := by
  show (!(k6_cond2 (grid6.coords t) == 1#1)) = false
  rw [Bool.not_eq_false', beq_iff_eq]
  exact (hcond2 t).mpr h

/-- and not written back away from it. -/
theorem noFlush_11 (t : Fin cfg6.N) (h : t.val ≠ 24) : (cfg6.win 11).flush t = false := by
  rw [Bool.eq_false_iff]
  intro e
  have := (flush6_11 t).mp e
  have hN : t.val < 25 := lt_of_lt_of_eq t.isLt N_eq
  omega

/-! ## The proof data of the region -/

/-- Window `w`'s block at point `t`, read off its array as the region finds it (`V`: the TensorCore's buffers at
    the region's entry). -/
def iblk (c : Dev nD) (V : (b : Ref sig .tc) → Buf (Elt F) ((c : Thread nD τ).loc b)) (w : Fin cfg6.W) (t : Fin cfg6.N) :
    ((cfg6.win w).xblock (cfg6.grid.coords t)).Idx → Elt F (cfg6.win w).elt :=
  ((cfg6.win w).blk t).view.read (Elt F) (V (Pipeline.arrRef spec6 w))

/-- THE RUNNING SUMS after point `n`: zero plus the contributions of points `0 … n`, each added as the body adds it. -/
def acc (c : Dev nD) (V : (b : Ref sig .tc) → Buf (Elt F) ((c : Thread nD τ).loc b)) : (n : ℕ) → n < cfg6.N → Vec F S1x64 .f32
  | 0, h => accStep (iblk c V 0 ⟨0, h⟩) (iblk c V 1 ⟨0, h⟩) (iblk c V 2 ⟨0, h⟩) (iblk c V 3 ⟨0, h⟩) (iblk c V 4 ⟨0, h⟩) (iblk c V 5 ⟨0, h⟩) (iblk c V 6 ⟨0, h⟩) k6_pay3
  | n + 1, h => accStep (iblk c V 0 ⟨n + 1, h⟩) (iblk c V 1 ⟨n + 1, h⟩) (iblk c V 2 ⟨n + 1, h⟩) (iblk c V 3 ⟨n + 1, h⟩) (iblk c V 4 ⟨n + 1, h⟩) (iblk c V 5 ⟨n + 1, h⟩) (iblk c V 6 ⟨n + 1, h⟩) (acc c V n (Nat.lt_of_succ_lt h))

theorem acc_zero (c : Dev nD) (V : (b : Ref sig .tc) → Buf (Elt F) ((c : Thread nD τ).loc b)) (t : Fin cfg6.N) (h : t.val = 0) :
    acc c V t.val t.isLt = accStep (iblk c V 0 t) (iblk c V 1 t) (iblk c V 2 t) (iblk c V 3 t) (iblk c V 4 t) (iblk c V 5 t) (iblk c V 6 t) k6_pay3 := by
  obtain ⟨n, hn⟩ := t
  cases n with
  | zero => rfl
  | succ n => exact absurd h (Nat.succ_ne_zero n)

theorem acc_pos (c : Dev nD) (V : (b : Ref sig .tc) → Buf (Elt F) ((c : Thread nD τ).loc b)) (t : Fin cfg6.N) (h : t.val ≠ 0) :
    acc c V t.val t.isLt = accStep (iblk c V 0 t) (iblk c V 1 t) (iblk c V 2 t) (iblk c V 3 t) (iblk c V 4 t) (iblk c V 5 t) (iblk c V 6 t) (acc c V (t.val - 1) (Nat.lt_of_le_of_lt (Nat.sub_le _ _) t.isLt)) := by
  obtain ⟨n, hn⟩ := t
  cases n with
  | zero => exact absurd rfl h
  | succ n => rfl

/-- The region's invariant before position `n`: the scratch that carries the running sums — at anything before the
    first point, at `acc` of the point before afterwards — beside whatever the caller threads through (`R`). -/
def PhiS (c : Dev nD) (V : (b : Ref sig .tc) → Buf (Elt F) ((c : Thread nD τ).loc b)) (R : sProp 𝕄) : (n : ℕ) → n ≤ cfg6.N → sProp 𝕄
  | 0, _ => iprop((∃ d, owns (c : Thread nD τ) (Memref.whole cc6_scratch0) fullShare d) ∗ R)
  | n + 1, h => iprop(owns (c : Thread nD τ) (Memref.whole cc6_scratch0) fullShare (acc c V n h) ∗ R)

theorem PhiS_zero (c : Dev nD) (V : (b : Ref sig .tc) → Buf (Elt F) ((c : Thread nD τ).loc b)) (R : sProp 𝕄) (n : ℕ) (h : n ≤ cfg6.N) (hz : n = 0) :
    PhiS c V R n h = iprop((∃ d, owns (c : Thread nD τ) (Memref.whole cc6_scratch0) fullShare d) ∗ R) := by
  subst hz; rfl

theorem PhiS_pos (c : Dev nD) (V : (b : Ref sig .tc) → Buf (Elt F) ((c : Thread nD τ).loc b)) (R : sProp 𝕄) (n : ℕ) (h : n ≤ cfg6.N) (hz : n ≠ 0) :
    PhiS c V R n h = iprop(owns (c : Thread nD τ) (Memref.whole cc6_scratch0) fullShare (acc c V (n - 1) (by omega)) ∗ R) := by
  cases n with
  | zero => exact absurd rfl hz
  | succ n => rfl

/-- The proof data of the region on core `c`, from the buffers `V` at its entry: each input's buffer keeps its block;
    the output's buffer, at the one point that stores into it (the last), holds the head of the running sums. The
    invariant is `PhiS`; what the core owes `O` does not change from point to point. -/
def dat (c : Dev nD) (V : (b : Ref sig .tc) → Buf (Elt F) ((c : Thread nD τ).loc b)) (R : sProp 𝕄) (O : CellTallies nD τ sig Ix)
    (Rc : Set (SemLoc sig × Ix)) :
    Dat τ (Elt F) Ix Name U Lvl cfg6 c where
  A w := V (Pipeline.arrRef spec6 w)
  after w t := match w with
    | ⟨0, _⟩ => iblk c V 0 t
    | ⟨1, _⟩ => iblk c V 1 t
    | ⟨2, _⟩ => iblk c V 2 t
    | ⟨3, _⟩ => iblk c V 3 t
    | ⟨4, _⟩ => iblk c V 4 t
    | ⟨5, _⟩ => iblk c V 5 t
    | ⟨6, _⟩ => iblk c V 6 t
    | ⟨7, _⟩ => iblk c V 7 t
    | ⟨8, _⟩ => iblk c V 8 t
    | ⟨9, _⟩ => iblk c V 9 t
    | ⟨10, _⟩ => iblk c V 10 t
    | ⟨11, _⟩ => headOut (acc c V t.val t.isLt) (iblk c V 7 t) (iblk c V 8 t) (iblk c V 9 t) (iblk c V 10 t)
  Φ t := PhiS c V R t.val (Nat.le_of_lt_succ t.isLt)
  q _ := fullShare
  owed _ := O
  recorded _ := Rc

section Obligation

variable (𝒱₀ : Variants) (ι : Ix) (c : Dev nD) (V : (b : Ref sig .tc) → Buf (Elt F) ((c : Thread nD τ).loc b))
  (R : sProp (MT nD τ sig Ix (Elt F) Name U Lvl)) (O : CellTallies nD τ sig Ix)
  (Rc : Set (SemLoc sig × Ix))

/-- The proof data's arrays are the entry contents (the definition projected, `V` never unfolded). -/
theorem A_eq (w : Fin cfg6.W) : (dat (F := F) (Name := Name) (U := U) (Lvl := Lvl) c V R O Rc).A w = V (Pipeline.arrRef spec6 w) := by
  dsimp only [dat]

/-- The invariant at a point's start and end, restated at `t.val`. -/
theorem Phi_castSucc (t : Fin cfg6.N) : (dat (F := F) (Name := Name) (U := U) (Lvl := Lvl) c V R O Rc).Φ t.castSucc = PhiS c V R t.val (Nat.le_of_lt t.isLt) := by
  dsimp only [dat]; simp only [Fin.coe_castSucc]
theorem Phi_succ (t : Fin cfg6.N) : (dat (F := F) (Name := Name) (U := U) (Lvl := Lvl) c V R O Rc).Φ t.succ
    = iprop(owns (c : Thread nD τ) (Memref.whole cc6_scratch0) fullShare (acc c V t.val t.isLt) ∗ R) := rfl

/-- What the body leaves, window by window. -/
theorem after_0 (t : Fin cfg6.N) : (dat (F := F) (Name := Name) (U := U) (Lvl := Lvl) c V R O Rc).after 0 t = iblk c V 0 t := by dsimp only [dat]
theorem after_1 (t : Fin cfg6.N) : (dat (F := F) (Name := Name) (U := U) (Lvl := Lvl) c V R O Rc).after 1 t = iblk c V 1 t := by dsimp only [dat]
theorem after_2 (t : Fin cfg6.N) : (dat (F := F) (Name := Name) (U := U) (Lvl := Lvl) c V R O Rc).after 2 t = iblk c V 2 t := by dsimp only [dat]
theorem after_3 (t : Fin cfg6.N) : (dat (F := F) (Name := Name) (U := U) (Lvl := Lvl) c V R O Rc).after 3 t = iblk c V 3 t := by dsimp only [dat]
theorem after_4 (t : Fin cfg6.N) : (dat (F := F) (Name := Name) (U := U) (Lvl := Lvl) c V R O Rc).after 4 t = iblk c V 4 t := by dsimp only [dat]
theorem after_5 (t : Fin cfg6.N) : (dat (F := F) (Name := Name) (U := U) (Lvl := Lvl) c V R O Rc).after 5 t = iblk c V 5 t := by dsimp only [dat]
theorem after_6 (t : Fin cfg6.N) : (dat (F := F) (Name := Name) (U := U) (Lvl := Lvl) c V R O Rc).after 6 t = iblk c V 6 t := by dsimp only [dat]
theorem after_7 (t : Fin cfg6.N) : (dat (F := F) (Name := Name) (U := U) (Lvl := Lvl) c V R O Rc).after 7 t = iblk c V 7 t := by dsimp only [dat]
theorem after_8 (t : Fin cfg6.N) : (dat (F := F) (Name := Name) (U := U) (Lvl := Lvl) c V R O Rc).after 8 t = iblk c V 8 t := by dsimp only [dat]
theorem after_9 (t : Fin cfg6.N) : (dat (F := F) (Name := Name) (U := U) (Lvl := Lvl) c V R O Rc).after 9 t = iblk c V 9 t := by dsimp only [dat]
theorem after_10 (t : Fin cfg6.N) : (dat (F := F) (Name := Name) (U := U) (Lvl := Lvl) c V R O Rc).after 10 t = iblk c V 10 t := by dsimp only [dat]
theorem after_11 (t : Fin cfg6.N) : (dat (F := F) (Name := Name) (U := U) (Lvl := Lvl) c V R O Rc).after 11 t
    = headOut (acc c V t.val t.isLt) (iblk c V 7 t) (iblk c V 8 t) (iblk c V 9 t) (iblk c V 10 t) := by dsimp only [dat]

/-- Each input's current buffer holds its block at every point, fetched there or not. -/
theorem before_0 (t : Fin cfg6.N) (d) : (dat (F := F) (Name := Name) (U := U) (Lvl := Lvl) c V R O Rc).before 0 t d = iblk c V 0 t :=
  ((dat (F := F) (Name := Name) (U := U) (Lvl := Lvl) c V R O Rc).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg6.N) (d) : (dat (F := F) (Name := Name) (U := U) (Lvl := Lvl) c V R O Rc).before 1 t d = iblk c V 1 t :=
  ((dat (F := F) (Name := Name) (U := U) (Lvl := Lvl) c V R O Rc).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin cfg6.N) (d) : (dat (F := F) (Name := Name) (U := U) (Lvl := Lvl) c V R O Rc).before 2 t d = iblk c V 2 t :=
  ((dat (F := F) (Name := Name) (U := U) (Lvl := Lvl) c V R O Rc).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin cfg6.N) (d) : (dat (F := F) (Name := Name) (U := U) (Lvl := Lvl) c V R O Rc).before 3 t d = iblk c V 3 t :=
  ((dat (F := F) (Name := Name) (U := U) (Lvl := Lvl) c V R O Rc).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin cfg6.N) (d) : (dat (F := F) (Name := Name) (U := U) (Lvl := Lvl) c V R O Rc).before 4 t d = iblk c V 4 t :=
  ((dat (F := F) (Name := Name) (U := U) (Lvl := Lvl) c V R O Rc).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin cfg6.N) (d) : (dat (F := F) (Name := Name) (U := U) (Lvl := Lvl) c V R O Rc).before 5 t d = iblk c V 5 t :=
  ((dat (F := F) (Name := Name) (U := U) (Lvl := Lvl) c V R O Rc).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (t : Fin cfg6.N) (d) : (dat (F := F) (Name := Name) (U := U) (Lvl := Lvl) c V R O Rc).before 6 t d = iblk c V 6 t :=
  ((dat (F := F) (Name := Name) (U := U) (Lvl := Lvl) c V R O Rc).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (t : Fin cfg6.N) (d) : (dat (F := F) (Name := Name) (U := U) (Lvl := Lvl) c V R O Rc).before 7 t d = iblk c V 7 t :=
  ((dat (F := F) (Name := Name) (U := U) (Lvl := Lvl) c V R O Rc).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (t : Fin cfg6.N) (d) : (dat (F := F) (Name := Name) (U := U) (Lvl := Lvl) c V R O Rc).before 8 t d = iblk c V 8 t :=
  ((dat (F := F) (Name := Name) (U := U) (Lvl := Lvl) c V R O Rc).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (t : Fin cfg6.N) (d) : (dat (F := F) (Name := Name) (U := U) (Lvl := Lvl) c V R O Rc).before 9 t d = iblk c V 9 t :=
  ((dat (F := F) (Name := Name) (U := U) (Lvl := Lvl) c V R O Rc).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (t : Fin cfg6.N) (d) : (dat (F := F) (Name := Name) (U := U) (Lvl := Lvl) c V R O Rc).before 10 t d = iblk c V 10 t :=
  ((dat (F := F) (Name := Name) (U := U) (Lvl := Lvl) c V R O Rc).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation, at a generic point -/

local notation "𝔡" => dat (F := F) (Ix := Ix) (Name := Name) (U := U) (Lvl := Lvl) c V R O Rc

/-- What the body is called with at point `t`, the windows one by one, -/
def bodyPre (t : Fin cfg6.N) : sProp 𝕄 :=
  iprop((𝔡).Φ t.castSucc ∗ (𝔡).owesAt ι t.castSucc
    ∗ (∃ d, owns (c : Thread nD τ) (st6_0 t) fullShare ((𝔡).before 0 t d))
    ∗ (∃ d, owns (c : Thread nD τ) (st6_1 t) fullShare ((𝔡).before 1 t d))
    ∗ (∃ d, owns (c : Thread nD τ) (st6_2 t) fullShare ((𝔡).before 2 t d))
    ∗ (∃ d, owns (c : Thread nD τ) (st6_3 t) fullShare ((𝔡).before 3 t d))
    ∗ (∃ d, owns (c : Thread nD τ) (st6_4 t) fullShare ((𝔡).before 4 t d))
    ∗ (∃ d, owns (c : Thread nD τ) (st6_5 t) fullShare ((𝔡).before 5 t d))
    ∗ (∃ d, owns (c : Thread nD τ) (st6_6 t) fullShare ((𝔡).before 6 t d))
    ∗ (∃ d, owns (c : Thread nD τ) (st6_7 t) fullShare ((𝔡).before 7 t d))
    ∗ (∃ d, owns (c : Thread nD τ) (st6_8 t) fullShare ((𝔡).before 8 t d))
    ∗ (∃ d, owns (c : Thread nD τ) (st6_9 t) fullShare ((𝔡).before 9 t d))
    ∗ (∃ d, owns (c : Thread nD τ) (st6_10 t) fullShare ((𝔡).before 10 t d))
    ∗ (∃ d, owns (c : Thread nD τ) (st6_11 t) fullShare ((𝔡).before 11 t d)))

/-- and what it returns. -/
def bodyPost (t : Fin cfg6.N) : sProp 𝕄 :=
  iprop((𝔡).Φ t.succ ∗ (𝔡).owesAt ι t.succ
    ∗ (𝔡).leavesExact 0 t
    ∗ (𝔡).leavesExact 1 t
    ∗ (𝔡).leavesExact 2 t
    ∗ (𝔡).leavesExact 3 t
    ∗ (𝔡).leavesExact 4 t
    ∗ (𝔡).leavesExact 5 t
    ∗ (𝔡).leavesExact 6 t
    ∗ (𝔡).leavesExact 7 t
    ∗ (𝔡).leavesExact 8 t
    ∗ (𝔡).leavesExact 9 t
    ∗ (𝔡).leavesExact 10 t
    ∗ (𝔡).leavesExact 11 t)

/-- An input window is live everywhere: the body leaves its block. -/
theorem leaves_0 (t : Fin cfg6.N) : (𝔡).leavesExact 0 t = owns (c : Thread nD τ) (st6_0 t) fullShare (iblk c V 0 t) := by
  rw [← after_0 c V R O Rc t]
theorem leaves_1 (t : Fin cfg6.N) : (𝔡).leavesExact 1 t = owns (c : Thread nD τ) (st6_1 t) fullShare (iblk c V 1 t) := by
  rw [← after_1 c V R O Rc t]
theorem leaves_2 (t : Fin cfg6.N) : (𝔡).leavesExact 2 t = owns (c : Thread nD τ) (st6_2 t) fullShare (iblk c V 2 t) := by
  rw [← after_2 c V R O Rc t]
theorem leaves_3 (t : Fin cfg6.N) : (𝔡).leavesExact 3 t = owns (c : Thread nD τ) (st6_3 t) fullShare (iblk c V 3 t) := by
  rw [← after_3 c V R O Rc t]
theorem leaves_4 (t : Fin cfg6.N) : (𝔡).leavesExact 4 t = owns (c : Thread nD τ) (st6_4 t) fullShare (iblk c V 4 t) := by
  rw [← after_4 c V R O Rc t]
theorem leaves_5 (t : Fin cfg6.N) : (𝔡).leavesExact 5 t = owns (c : Thread nD τ) (st6_5 t) fullShare (iblk c V 5 t) := by
  rw [← after_5 c V R O Rc t]
theorem leaves_6 (t : Fin cfg6.N) : (𝔡).leavesExact 6 t = owns (c : Thread nD τ) (st6_6 t) fullShare (iblk c V 6 t) := by
  rw [← after_6 c V R O Rc t]
theorem leaves_7 (t : Fin cfg6.N) : (𝔡).leavesExact 7 t = owns (c : Thread nD τ) (st6_7 t) fullShare (iblk c V 7 t) := by
  rw [← after_7 c V R O Rc t]
theorem leaves_8 (t : Fin cfg6.N) : (𝔡).leavesExact 8 t = owns (c : Thread nD τ) (st6_8 t) fullShare (iblk c V 8 t) := by
  rw [← after_8 c V R O Rc t]
theorem leaves_9 (t : Fin cfg6.N) : (𝔡).leavesExact 9 t = owns (c : Thread nD τ) (st6_9 t) fullShare (iblk c V 9 t) := by
  rw [← after_9 c V R O Rc t]
theorem leaves_10 (t : Fin cfg6.N) : (𝔡).leavesExact 10 t = owns (c : Thread nD τ) (st6_10 t) fullShare (iblk c V 10 t) := by
  rw [← after_10 c V R O Rc t]

set_option maxHeartbeats 2000000 in
/-- The body at any point: the inputs' buffers hold their blocks; the point is the first, the last, or neither, and the
    matching run applies; the invariant hands the body the scratch at what the point before left (at anything at the
    first point) and takes it back at this point's running sums; what the core owes passes through unread. -/
theorem sound_body (t : Fin cfg6.N) :
    bodyPre ι c V R O Rc t ⊢ wp frame (wpE (defs₀ (F := F)) 𝒱₀ c none) Set.univ (bodyAt6 t) (fun _ => bodyPost ι c V R O Rc t) := by
  unfold bodyPre bodyPost bodyAt6
  simp only [before_0, before_1, before_2, before_3, before_4, before_5, before_6, before_7, before_8, before_9, before_10, leaves_0, leaves_1, leaves_2, leaves_3, leaves_4, leaves_5, leaves_6, leaves_7, leaves_8, leaves_9, leaves_10]
  rw [show (𝔡).owesAt ι t.succ = (𝔡).owesAt ι t.castSucc from rfl, Phi_succ, Phi_castSucc]
  have hN : t.val < 25 := lt_of_lt_of_eq t.isLt N_eq
  by_cases h0 : t.val = 0
  · have h24 : t.val ≠ 24 := by omega
    rw [PhiS_zero c V R _ _ h0, Dat.leavesExact_idle (𝔡) 11 t (idle_11 t h24) (noFlush_11 t h24), acc_zero c V t h0]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA 𝒱₀ c Set.univ (grid6.coords t) ((hcond1 t).mpr h0) (fun e => h24 ((hcond2 t).mp e)) _ _ _ _ _ _ _ _ _ _ _ _ _ _ _ _ _ _ _ _ _ _ _ _ _ _
      (iblk c V 0 t) (iblk c V 1 t) (iblk c V 2 t) (iblk c V 3 t) (iblk c V 4 t) (iblk c V 5 t) (iblk c V 6 t) (iblk c V 7 t) (iblk c V 8 t) (iblk c V 9 t) (iblk c V 10 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, H12⟩
    isplitl [H12 HR]
    · isplitl [H12]; · iexact H12
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · by_cases h24 : t.val = 24
    · rw [PhiS_pos c V R _ _ h0, acc_pos c V t h0,
        show (𝔡).leavesExact 11 t = owns (c : Thread nD τ) (st6_11 t) fullShare ((𝔡).after 11 t) from by
          unfold Dat.leavesExact; rw [live_11 t h24], after_11, acc_pos c V t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runC 𝒱₀ c Set.univ (grid6.coords t) (fun e => h0 ((hcond1 t).mp e)) ((hcond2 t).mpr h24) _ _ _ _ _ _ _ _ _ _ _ _ _ _ _ _ _ _ _ _ _ _ _ _ _ _
        (iblk c V 0 t) (iblk c V 1 t) (iblk c V 2 t) (iblk c V 3 t) (iblk c V 4 t) (iblk c V 5 t) (iblk c V 6 t) (iblk c V 7 t) (iblk c V 8 t) (iblk c V 9 t) (iblk c V 10 t) (acc c V (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iintro ⟨H0, H1, H2, H3, H4, H5, H6, H7, H8, H9, H10, H11, H12⟩
      isplitl [H12 HR]
      · isplitl [H12]; · iexact H12
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_pos c V R _ _ h0, Dat.leavesExact_idle (𝔡) 11 t (idle_11 t h24) (noFlush_11 t h24), acc_pos c V t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB 𝒱₀ c Set.univ (grid6.coords t) (fun e => h0 ((hcond1 t).mp e)) (fun e => h24 ((hcond2 t).mp e)) _ _ _ _ _ _ _ _ _ _ _ _ _ _ _ _ _ _ _ _ _ _ _ _ _ _
        (iblk c V 0 t) (iblk c V 1 t) (iblk c V 2 t) (iblk c V 3 t) (iblk c V 4 t) (iblk c V 5 t) (iblk c V 6 t) (iblk c V 7 t) (iblk c V 8 t) (iblk c V 9 t) (iblk c V 10 t) _ (acc c V (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, H12⟩
      isplitl [H12 HR]
      · isplitl [H12]; · iexact H12
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation for the region, at every point. -/
theorem body_obligation : BodyObligation (dat (F := F) (Name := Name) (U := U) (Lvl := Lvl) c V R O Rc) (defs₀ (F := F)) 𝒱₀ ι Set.univ := fun t => by
  rw [bigSep_W6, bigSep_W6]
  exact sound_body 𝒱₀ ι c V R O Rc t

end Obligation

/-! ## Entering and leaving: the scratch among the scoped buffers -/

section InOut

variable (c : Dev nD) (V : (b : Ref sig .tc) → Buf (Elt F) ((c : Thread nD τ).loc b)) (O : CellTallies nD τ sig Ix)
  (Rc : Set (SemLoc sig × Ix))

/-- At the region's entry the scoped buffers no window stages are the scratch, at anything, beside the others: the
    invariant before the first point, with those others threaded through. -/
theorem Phi_in : (Pipeline.scopedRest (Ix := Ix) (Name := Name) (U := U) (Lvl := Lvl) (Val := Elt F) spec6 c : sProp 𝕄)
    ⊢ (dat (F := F) (Name := Name) (U := U) (Lvl := Lvl) c V (Pipeline.scopedRestBut (Ix := Ix) (Name := Name) (U := U) (Lvl := Lvl) (Val := Elt F) spec6 c [cc6_scratch0]) O Rc).Φ 0 := by
  rw [scopedRest6_split (Ix := Ix) (Val := Elt F) (Name := Name) (U := U) (Lvl := Lvl) c]
  show _ ⊢ iprop((∃ d, owns (c : Thread nD τ) (Memref.whole cc6_scratch0) fullShare d) ∗ _)
  simp only [owns_whole]
  exact .rfl

/-- After the last point the invariant gives them back: the running sums' contents are forgotten. -/
theorem Phi_out : (dat (F := F) (Name := Name) (U := U) (Lvl := Lvl) c V (Pipeline.scopedRestBut (Ix := Ix) (Name := Name) (U := U) (Lvl := Lvl) (Val := Elt F) spec6 c [cc6_scratch0]) O Rc).Φ (Fin.last cfg6.N)
    ⊢ (Pipeline.scopedRest (Ix := Ix) (Name := Name) (U := U) (Lvl := Lvl) (Val := Elt F) spec6 c : sProp 𝕄) := by
  rw [scopedRest6_split (Ix := Ix) (Val := Elt F) (Name := Name) (U := U) (Lvl := Lvl) c,
    show (dat (F := F) (Name := Name) (U := U) (Lvl := Lvl) c V (Pipeline.scopedRestBut (Ix := Ix) (Name := Name) (U := U) (Lvl := Lvl) (Val := Elt F) spec6 c [cc6_scratch0]) O Rc).Φ (Fin.last cfg6.N)
      = PhiS c V _ (Fin.last cfg6.N).val (Nat.le_of_lt_succ (Fin.last cfg6.N).isLt) from rfl,
    PhiS_pos c V _ _ _ (by rw [Fin.val_last, N_eq]; decide)]
  simp only [owns_whole]
  iintro ⟨HS, HR⟩
  isplitl [HS]
  · iexists _; iexact HS
  iexact HR

end InOut

end Cert.Kernel.Head

end
-- ==== Proof.RegionSegsW.lean ====
/-
  The four TensorCore regions as records of the several-regions rule, over ONE thread state: every unscoped buffer
  of the TensorCore held at a valuation, what the core owes (its recorded pairs within a bound), and a rest that
  rides along. A region is entered at a valuation `V` and left at `V` updated at the region's arrays to what the
  pipeline leaves there. The core owes the same throughout a region: the start signals of the SparseCore calls still
  to come, all at a call's index, while the pipeline's waits on its staging cells are recorded at the index `none`.
-/
import proofs.«215677_g32066225832048_cont_9to1_32_28_alg».proof.Proof.LaunchBaseW
import proofs.«215677_g32066225832048_cont_9to1_32_28_alg».proof.Proof.EmbedRegionW
import proofs.«215677_g32066225832048_cont_9to1_32_28_alg».proof.Proof.UpdateRegionW
import proofs.«215677_g32066225832048_cont_9to1_32_28_alg».proof.Proof.HeadRegionW
import proofs.«215677_g32066225832048_cont_9to1_32_28_alg».proof.Proof.RegionWaits
import Idealize.ShloMosaic.Lib.Pipeline.Regions
import Idealize.ShloMosaic.Lib.Pipeline.RegionsLoop
import Idealize.ShloMosaic.Lib.Pipeline.FrameSuffix

set_option maxRecDepth 16384

noncomputable section

namespace Cert.Proof.WordLaunch

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 3) (Elt F) ℕ UU ℕ

/-! ## The proof data family and the thread state -/

/-- No region prefetches a table: the admissible contents are the empty ones. -/
abbrev adm : (p : Fin 4) → (pcfgs (F := F) p).Adm := fun p => (cfgs p).toPCfg_adm

/-- A valuation read at the TensorCore's references (what a region's proof data take). -/
abbrev Vtc (V : Dev nD → Valuation τ sig (Elt F)) (c : Dev nD) : (b : Ref sig .tc) → Buf (Elt F) ((c : Thread nD τ).loc b) := fun b => V c b

/-- What the core owes, its recorded pairs within the bound `Rc`. -/
def Owes (O : Dev nD → CellTallies nD τ sig (HIx 3)) (Rc : Dev nD → Set (SemLoc sig × HIx 3)) (c : Dev nD) : sProp 𝕄 :=
  iprop(∃ W : Waits sig (HIx 3), ⌜(↑W : Set (SemLoc sig × HIx 3)) ⊆ Rc c⌝ ∗ owes (c.tc : Thread nD τ) (O c) W)

/-- The regions' proof data, by pipeline, all read off ONE valuation `V c` (region `p` uses it as its entry contents):
    what each holds besides its windows is the scoped buffers no window of it stages (for the last region: those but
    its scratch, which its invariant carries by name); what the core owes `O c` and the bound `Rc c` on its recorded
    pairs are constant through a region. -/
def pdatsAt (V : Dev nD → Valuation τ sig (Elt F)) (O : Dev nD → CellTallies nD τ sig (HIx 3)) (Rc : Dev nD → Set (SemLoc sig × HIx 3)) :
    (p : Fin 4) → (c : Dev nD) → Dat τ (Elt F) (HIx 3) ℕ UU ℕ (Pipeline.pin (pcfgs (F := F)) adm p) c
  | ⟨0, _⟩ => fun c => Cert.Kernel.Embed.dat c (Vtc V c) (Pipeline.scopedRest (Ix := HIx 3) (Name := ℕ) (U := UU) (Lvl := ℕ) (Val := Elt F) spec0 c) (O c) (Rc c)
  | ⟨1, _⟩ => fun c => Cert.Kernel.Upd2.dat c (Vtc V c) (Pipeline.scopedRest (Ix := HIx 3) (Name := ℕ) (U := UU) (Lvl := ℕ) (Val := Elt F) spec2 c) (O c) (Rc c)
  | ⟨2, _⟩ => fun c => Cert.Kernel.Upd4.dat c (Vtc V c) (Pipeline.scopedRest (Ix := HIx 3) (Name := ℕ) (U := UU) (Lvl := ℕ) (Val := Elt F) spec4 c) (O c) (Rc c)
  | ⟨3, _⟩ => fun c => Cert.Kernel.Head.dat c (Vtc V c)
      (Pipeline.scopedRestBut (Ix := HIx 3) (Name := ℕ) (U := UU) (Lvl := ℕ) (Val := Elt F) spec6 c [cc6_scratch0]) (O c) (Rc c)

/-! ## Region 0 (custom_call 0) -/

/-- The TensorCore's buffers when region 0 is left: its arrays at what the pipeline leaves (the inputs as entered, each
    output's write-backs folded), every other buffer as entered. -/
def Wout0 (V : Dev nD → Valuation τ sig (Elt F)) (O : Dev nD → CellTallies nD τ sig (HIx 3)) (Rc : Dev nD → Set (SemLoc sig × HIx 3))
    (c : Dev nD) : Valuation τ sig (Elt F) :=
  Pipeline.withArrays spec0 c (V c) fun w => (pdatsAt V O Rc 0 c).arrAt w cfg0.N

theorem Wout0_arr (V : Dev nD → Valuation τ sig (Elt F)) (O : Dev nD → CellTallies nD τ sig (HIx 3)) (Rc : Dev nD → Set (SemLoc sig × HIx 3))
    (c : Dev nD) (w : Fin cfg0.W) :
    Wout0 V O Rc c (Proc.devRef .tc (Pipeline.arrRef spec0 w)) = (pdatsAt V O Rc 0 c).arrAt w cfg0.N := by
  unfold Wout0; exact Pipeline.withArrays_arr spec0 launch0.win.arr_inj c _ _ w

theorem Wout0_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec0 w ≠ b) :
    Wout0 V O Rc c (Proc.devRef .tc b) = V c (Proc.devRef .tc b) := by
  unfold Wout0; exact Pipeline.withArrays_of_ne spec0 c _ _ b hb

/-- Every output window's array of region 0 is among these. -/
theorem outs0_mem : ∀ w : Fin cfg0.W, (cfg0.win w).isOut ≠ false → Pipeline.arrRef spec0 w ∈ [main_v24_0, main_v24_1] := by decide

/-- Away from the region's OUTPUT arrays the exit valuation is the entry one: a buffer no window of the region touches
    is as entered, and an input window's array ends as it began. -/
theorem Wout0_off (V : Dev nD → Valuation τ sig (Elt F)) (O : Dev nD → CellTallies nD τ sig (HIx 3)) (Rc : Dev nD → Set (SemLoc sig × HIx 3))
    (c : Dev nD) (r : Ref sig .tc) (hr : r ∉ [main_v24_0, main_v24_1]) :
    Wout0 V O Rc c (Proc.devRef .tc r) = V c (Proc.devRef .tc r) := by
  by_cases h : ∃ w, Pipeline.arrRef spec0 w = r
  · obtain ⟨w, rfl⟩ := h
    by_cases hw : (cfg0.win w).isOut = false
    · rw [Wout0_arr, (pdatsAt V O Rc 0 c).arrAt_in w hw _]
      exact Cert.Kernel.Embed.A_eq c (Vtc V c) _ (O c) (Rc c) w
    · exact absurd (outs0_mem w hw) hr
  · exact Wout0_of_ne V O Rc c r fun w e => h ⟨w, e⟩

set_option backward.isDefEq.respectTransparency.types false in
/-- REGION 0 over the thread state "every unscoped buffer held at a valuation, what the core owes, the rest": entered at
    `V`, left at `Wout0`. Its arrays are split out of the unscoped buffers at the entry and put back at the exit; the
    scoped buffers no window stages pass through the invariant; what the core owes passes through, its recorded pairs
    staying within `Rc`; the kernel has no semaphore of its own. -/
def seg0 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (0 : Fin 4) where
  win := launch0.win.to₀
  block_pos := launch0.block_pos
  stage_whole := launch0.stage_whole
  K := PEmpty
  osem k := k.elim
  ho := Pipeline.OwnSemFacts.none _
  hbody c := (Cert.Kernel.Embed.body_obligation 𝒱₀ none c (Vtc V c) (Pipeline.scopedRest (Ix := HIx 3) (Name := ℕ) (U := UU) (Lvl := ℕ) (Val := Elt F) spec0 c) (O c) (Rc c)).loose
  hwaits c := Cert.Proof.RegionWaits.cellsWaits_of_none (K (F := F)) (Pipeline.pin (pcfgs (F := F)) adm) (pdatsAt V O Rc) 0 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout0 V O Rc c) ∗ Owes O Rc c ∗ Rest c)
  X c := BI.emp
  Y c := BI.emp
  Z c := iprop(Pipeline.unscopedRest (Ix := HIx 3) (Name := ℕ) (U := UU) (Lvl := ℕ) spec0 c (Vtc V c) ∗ Rest c)
  hentry c := by
    rw [Pipeline.ownSems0_none]
    have hsplit := Pipeline.arrays_of_unscopedBufs (p := 0) (pcfgs (F := F)) adm (pdatsAt V O Rc) launch0.win launch0.arr_whole c
      ((pdatsAt V O Rc 0 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 0 c).Φ 0 = Pipeline.scopedRest (Ix := HIx 3) (Name := ℕ) (U := UU) (Lvl := ℕ) (Val := Elt F) spec0 c from rfl]
    iintro ⟨-, -, Hr⟩
    iexact Hr
  hout c := by
    rw [Pipeline.ownSems0_none, show (pdatsAt V O Rc 0 c).Φ (Fin.last _) = Pipeline.scopedRest (Ix := HIx 3) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch0.win launch0.arr_whole c (pdatsAt V O Rc) ((pdatsAt V O Rc 0 c).share_full fun _ => rfl)
      (Vtc V c) (Vtc (Wout0 V O Rc) c) ((pdatsAt V O Rc 0 c).arrAt · cfg0.N) (fun w => (Wout0_arr V O Rc c w).symm)
      (fun b hb => Wout0_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg0_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg0 V O Rc Rest hO hRc).post c) -∗ wp frame (wpE (D (F := F)) 𝒱 (c.tc : Thread nD τ) none) Set.univ (k ⟨⟩) Q)
        ∗ boundary (c.tc : Thread nD τ) ∗ (seg0 V O Rc Rest hO hRc).pre c ∗ levAts (K (F := F)).L (K (F := F)).lev
        ∗ Pipeline.cellsGhost (Pipeline.pin (pcfgs (F := F)) adm) EK 0 c ∗ Pipeline.toksInit (Pipeline.pin (pcfgs (F := F)) adm) EK 0 c)
      ⊢ wp frame (wpE (D (F := F)) 𝒱 (c.tc : Thread nD τ) none) Set.univ (.op (.customCall (Pipeline.entry (0 : Fin 4)) ()) k) Q :=
  Pipeline.RegionSeg.wp (pcfgs (F := F)) adm (pdatsAt V O Rc) none cellOf_inj EK (defs₀ (F := F)) 𝒱₀ (K (F := F)).L (K (F := F)).lev
    (seg0 V O Rc Rest hO hRc) c none (fun _ h => absurd h (Option.not_mem_none _)) k Q

/-! ## Region 1 (custom_call 2) -/

/-- The TensorCore's buffers when region 1 is left: its arrays at what the pipeline leaves (the inputs as entered, each
    output's write-backs folded), every other buffer as entered. -/
def Wout2 (V : Dev nD → Valuation τ sig (Elt F)) (O : Dev nD → CellTallies nD τ sig (HIx 3)) (Rc : Dev nD → Set (SemLoc sig × HIx 3))
    (c : Dev nD) : Valuation τ sig (Elt F) :=
  Pipeline.withArrays spec2 c (V c) fun w => (pdatsAt V O Rc 1 c).arrAt w cfg2.N

theorem Wout2_arr (V : Dev nD → Valuation τ sig (Elt F)) (O : Dev nD → CellTallies nD τ sig (HIx 3)) (Rc : Dev nD → Set (SemLoc sig × HIx 3))
    (c : Dev nD) (w : Fin cfg2.W) :
    Wout2 V O Rc c (Proc.devRef .tc (Pipeline.arrRef spec2 w)) = (pdatsAt V O Rc 1 c).arrAt w cfg2.N := by
  unfold Wout2; exact Pipeline.withArrays_arr spec2 launch2.win.arr_inj c _ _ w

theorem Wout2_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec2 w ≠ b) :
    Wout2 V O Rc c (Proc.devRef .tc b) = V c (Proc.devRef .tc b) := by
  unfold Wout2; exact Pipeline.withArrays_of_ne spec2 c _ _ b hb

/-- Every output window's array of region 1 is among these. -/
theorem outs2_mem : ∀ w : Fin cfg2.W, (cfg2.win w).isOut ≠ false → Pipeline.arrRef spec2 w ∈ [main_v50_0, main_v50_1] := by decide

/-- Away from the region's OUTPUT arrays the exit valuation is the entry one: a buffer no window of the region touches
    is as entered, and an input window's array ends as it began. -/
theorem Wout2_off (V : Dev nD → Valuation τ sig (Elt F)) (O : Dev nD → CellTallies nD τ sig (HIx 3)) (Rc : Dev nD → Set (SemLoc sig × HIx 3))
    (c : Dev nD) (r : Ref sig .tc) (hr : r ∉ [main_v50_0, main_v50_1]) :
    Wout2 V O Rc c (Proc.devRef .tc r) = V c (Proc.devRef .tc r) := by
  by_cases h : ∃ w, Pipeline.arrRef spec2 w = r
  · obtain ⟨w, rfl⟩ := h
    by_cases hw : (cfg2.win w).isOut = false
    · rw [Wout2_arr, (pdatsAt V O Rc 1 c).arrAt_in w hw _]
      exact Cert.Kernel.Upd2.A_eq c (Vtc V c) _ (O c) (Rc c) w
    · exact absurd (outs2_mem w hw) hr
  · exact Wout2_of_ne V O Rc c r fun w e => h ⟨w, e⟩

set_option backward.isDefEq.respectTransparency.types false in
/-- REGION 1 over the thread state "every unscoped buffer held at a valuation, what the core owes, the rest": entered at
    `V`, left at `Wout2`. Its arrays are split out of the unscoped buffers at the entry and put back at the exit; the
    scoped buffers no window stages pass through the invariant; what the core owes passes through, its recorded pairs
    staying within `Rc`; the kernel has no semaphore of its own. -/
def seg2 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (1 : Fin 4) where
  win := launch2.win.to₀
  block_pos := launch2.block_pos
  stage_whole := launch2.stage_whole
  K := PEmpty
  osem k := k.elim
  ho := Pipeline.OwnSemFacts.none _
  hbody c := (Cert.Kernel.Upd2.body_obligation 𝒱₀ none c (Vtc V c) (Pipeline.scopedRest (Ix := HIx 3) (Name := ℕ) (U := UU) (Lvl := ℕ) (Val := Elt F) spec2 c) (O c) (Rc c)).loose
  hwaits c := Cert.Proof.RegionWaits.cellsWaits_of_none (K (F := F)) (Pipeline.pin (pcfgs (F := F)) adm) (pdatsAt V O Rc) 1 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout2 V O Rc c) ∗ Owes O Rc c ∗ Rest c)
  X c := BI.emp
  Y c := BI.emp
  Z c := iprop(Pipeline.unscopedRest (Ix := HIx 3) (Name := ℕ) (U := UU) (Lvl := ℕ) spec2 c (Vtc V c) ∗ Rest c)
  hentry c := by
    rw [Pipeline.ownSems0_none]
    have hsplit := Pipeline.arrays_of_unscopedBufs (p := 1) (pcfgs (F := F)) adm (pdatsAt V O Rc) launch2.win launch2.arr_whole c
      ((pdatsAt V O Rc 1 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 1 c).Φ 0 = Pipeline.scopedRest (Ix := HIx 3) (Name := ℕ) (U := UU) (Lvl := ℕ) (Val := Elt F) spec2 c from rfl]
    iintro ⟨-, -, Hr⟩
    iexact Hr
  hout c := by
    rw [Pipeline.ownSems0_none, show (pdatsAt V O Rc 1 c).Φ (Fin.last _) = Pipeline.scopedRest (Ix := HIx 3) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch2.win launch2.arr_whole c (pdatsAt V O Rc) ((pdatsAt V O Rc 1 c).share_full fun _ => rfl)
      (Vtc V c) (Vtc (Wout2 V O Rc) c) ((pdatsAt V O Rc 1 c).arrAt · cfg2.N) (fun w => (Wout2_arr V O Rc c w).symm)
      (fun b hb => Wout2_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg2_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg2 V O Rc Rest hO hRc).post c) -∗ wp frame (wpE (D (F := F)) 𝒱 (c.tc : Thread nD τ) none) Set.univ (k ⟨⟩) Q)
        ∗ boundary (c.tc : Thread nD τ) ∗ (seg2 V O Rc Rest hO hRc).pre c ∗ levAts (K (F := F)).L (K (F := F)).lev
        ∗ Pipeline.cellsGhost (Pipeline.pin (pcfgs (F := F)) adm) EK 1 c ∗ Pipeline.toksInit (Pipeline.pin (pcfgs (F := F)) adm) EK 1 c)
      ⊢ wp frame (wpE (D (F := F)) 𝒱 (c.tc : Thread nD τ) none) Set.univ (.op (.customCall (Pipeline.entry (1 : Fin 4)) ()) k) Q :=
  Pipeline.RegionSeg.wp (pcfgs (F := F)) adm (pdatsAt V O Rc) none cellOf_inj EK (defs₀ (F := F)) 𝒱₀ (K (F := F)).L (K (F := F)).lev
    (seg2 V O Rc Rest hO hRc) c none (fun _ h => absurd h (Option.not_mem_none _)) k Q

/-! ## Region 2 (custom_call 4) -/

/-- The TensorCore's buffers when region 2 is left: its arrays at what the pipeline leaves (the inputs as entered, each
    output's write-backs folded), every other buffer as entered. -/
def Wout4 (V : Dev nD → Valuation τ sig (Elt F)) (O : Dev nD → CellTallies nD τ sig (HIx 3)) (Rc : Dev nD → Set (SemLoc sig × HIx 3))
    (c : Dev nD) : Valuation τ sig (Elt F) :=
  Pipeline.withArrays spec4 c (V c) fun w => (pdatsAt V O Rc 2 c).arrAt w cfg4.N

theorem Wout4_arr (V : Dev nD → Valuation τ sig (Elt F)) (O : Dev nD → CellTallies nD τ sig (HIx 3)) (Rc : Dev nD → Set (SemLoc sig × HIx 3))
    (c : Dev nD) (w : Fin cfg4.W) :
    Wout4 V O Rc c (Proc.devRef .tc (Pipeline.arrRef spec4 w)) = (pdatsAt V O Rc 2 c).arrAt w cfg4.N := by
  unfold Wout4; exact Pipeline.withArrays_arr spec4 launch4.win.arr_inj c _ _ w

theorem Wout4_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec4 w ≠ b) :
    Wout4 V O Rc c (Proc.devRef .tc b) = V c (Proc.devRef .tc b) := by
  unfold Wout4; exact Pipeline.withArrays_of_ne spec4 c _ _ b hb

/-- Every output window's array of region 2 is among these. -/
theorem outs4_mem : ∀ w : Fin cfg4.W, (cfg4.win w).isOut ≠ false → Pipeline.arrRef spec4 w ∈ [main_v76_0, main_v76_1] := by decide

/-- Away from the region's OUTPUT arrays the exit valuation is the entry one: a buffer no window of the region touches
    is as entered, and an input window's array ends as it began. -/
theorem Wout4_off (V : Dev nD → Valuation τ sig (Elt F)) (O : Dev nD → CellTallies nD τ sig (HIx 3)) (Rc : Dev nD → Set (SemLoc sig × HIx 3))
    (c : Dev nD) (r : Ref sig .tc) (hr : r ∉ [main_v76_0, main_v76_1]) :
    Wout4 V O Rc c (Proc.devRef .tc r) = V c (Proc.devRef .tc r) := by
  by_cases h : ∃ w, Pipeline.arrRef spec4 w = r
  · obtain ⟨w, rfl⟩ := h
    by_cases hw : (cfg4.win w).isOut = false
    · rw [Wout4_arr, (pdatsAt V O Rc 2 c).arrAt_in w hw _]
      exact Cert.Kernel.Upd4.A_eq c (Vtc V c) _ (O c) (Rc c) w
    · exact absurd (outs4_mem w hw) hr
  · exact Wout4_of_ne V O Rc c r fun w e => h ⟨w, e⟩

set_option backward.isDefEq.respectTransparency.types false in
/-- REGION 2 over the thread state "every unscoped buffer held at a valuation, what the core owes, the rest": entered at
    `V`, left at `Wout4`. Its arrays are split out of the unscoped buffers at the entry and put back at the exit; the
    scoped buffers no window stages pass through the invariant; what the core owes passes through, its recorded pairs
    staying within `Rc`; the kernel has no semaphore of its own. -/
def seg4 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (2 : Fin 4) where
  win := launch4.win.to₀
  block_pos := launch4.block_pos
  stage_whole := launch4.stage_whole
  K := PEmpty
  osem k := k.elim
  ho := Pipeline.OwnSemFacts.none _
  hbody c := (Cert.Kernel.Upd4.body_obligation 𝒱₀ none c (Vtc V c) (Pipeline.scopedRest (Ix := HIx 3) (Name := ℕ) (U := UU) (Lvl := ℕ) (Val := Elt F) spec4 c) (O c) (Rc c)).loose
  hwaits c := Cert.Proof.RegionWaits.cellsWaits_of_none (K (F := F)) (Pipeline.pin (pcfgs (F := F)) adm) (pdatsAt V O Rc) 2 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout4 V O Rc c) ∗ Owes O Rc c ∗ Rest c)
  X c := BI.emp
  Y c := BI.emp
  Z c := iprop(Pipeline.unscopedRest (Ix := HIx 3) (Name := ℕ) (U := UU) (Lvl := ℕ) spec4 c (Vtc V c) ∗ Rest c)
  hentry c := by
    rw [Pipeline.ownSems0_none]
    have hsplit := Pipeline.arrays_of_unscopedBufs (p := 2) (pcfgs (F := F)) adm (pdatsAt V O Rc) launch4.win launch4.arr_whole c
      ((pdatsAt V O Rc 2 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    rw [show (pdatsAt V O Rc 2 c).Φ 0 = Pipeline.scopedRest (Ix := HIx 3) (Name := ℕ) (U := UU) (Lvl := ℕ) (Val := Elt F) spec4 c from rfl]
    iintro ⟨-, -, Hr⟩
    iexact Hr
  hout c := by
    rw [Pipeline.ownSems0_none, show (pdatsAt V O Rc 2 c).Φ (Fin.last _) = Pipeline.scopedRest (Ix := HIx 3) (Name := ℕ) (U := UU) (Lvl := ℕ) (Val := Elt F) spec4 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch4.win launch4.arr_whole c (pdatsAt V O Rc) ((pdatsAt V O Rc 2 c).share_full fun _ => rfl)
      (Vtc V c) (Vtc (Wout4 V O Rc) c) ((pdatsAt V O Rc 2 c).arrAt · cfg4.N) (fun w => (Wout4_arr V O Rc c w).symm)
      (fun b hb => Wout4_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg4_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg4 V O Rc Rest hO hRc).post c) -∗ wp frame (wpE (D (F := F)) 𝒱 (c.tc : Thread nD τ) none) Set.univ (k ⟨⟩) Q)
        ∗ boundary (c.tc : Thread nD τ) ∗ (seg4 V O Rc Rest hO hRc).pre c ∗ levAts (K (F := F)).L (K (F := F)).lev
        ∗ Pipeline.cellsGhost (Pipeline.pin (pcfgs (F := F)) adm) EK 2 c ∗ Pipeline.toksInit (Pipeline.pin (pcfgs (F := F)) adm) EK 2 c)
      ⊢ wp frame (wpE (D (F := F)) 𝒱 (c.tc : Thread nD τ) none) Set.univ (.op (.customCall (Pipeline.entry (2 : Fin 4)) ()) k) Q :=
  Pipeline.RegionSeg.wp (pcfgs (F := F)) adm (pdatsAt V O Rc) none cellOf_inj EK (defs₀ (F := F)) 𝒱₀ (K (F := F)).L (K (F := F)).lev
    (seg4 V O Rc Rest hO hRc) c none (fun _ h => absurd h (Option.not_mem_none _)) k Q

/-! ## Region 3 (custom_call 6) -/

/-- The TensorCore's buffers when region 3 is left: its arrays at what the pipeline leaves (the inputs as entered, each
    output's write-backs folded), every other buffer as entered. -/
def Wout6 (V : Dev nD → Valuation τ sig (Elt F)) (O : Dev nD → CellTallies nD τ sig (HIx 3)) (Rc : Dev nD → Set (SemLoc sig × HIx 3))
    (c : Dev nD) : Valuation τ sig (Elt F) :=
  Pipeline.withArrays spec6 c (V c) fun w => (pdatsAt V O Rc 3 c).arrAt w cfg6.N

theorem Wout6_arr (V : Dev nD → Valuation τ sig (Elt F)) (O : Dev nD → CellTallies nD τ sig (HIx 3)) (Rc : Dev nD → Set (SemLoc sig × HIx 3))
    (c : Dev nD) (w : Fin cfg6.W) :
    Wout6 V O Rc c (Proc.devRef .tc (Pipeline.arrRef spec6 w)) = (pdatsAt V O Rc 3 c).arrAt w cfg6.N := by
  unfold Wout6; exact Pipeline.withArrays_arr spec6 launch6.win.arr_inj c _ _ w

theorem Wout6_of_ne (V : Dev nD → Valuation τ sig (Elt F)) (O : Dev nD → CellTallies nD τ sig (HIx 3)) (Rc : Dev nD → Set (SemLoc sig × HIx 3))
    (c : Dev nD) (b : Ref sig .tc) (hb : ∀ w, Pipeline.arrRef spec6 w ≠ b) :
    Wout6 V O Rc c (Proc.devRef .tc b) = V c (Proc.devRef .tc b) := by
  unfold Wout6; exact Pipeline.withArrays_of_ne spec6 c _ _ b hb

/-- Every output window's array of region 3 is among these. -/
theorem outs6_mem : ∀ w : Fin cfg6.W, (cfg6.win w).isOut ≠ false → Pipeline.arrRef spec6 w ∈ [main_v94] := by decide

/-- Away from the region's OUTPUT arrays the exit valuation is the entry one: a buffer no window of the region touches
    is as entered, and an input window's array ends as it began. -/
theorem Wout6_off (V : Dev nD → Valuation τ sig (Elt F)) (O : Dev nD → CellTallies nD τ sig (HIx 3)) (Rc : Dev nD → Set (SemLoc sig × HIx 3))
    (c : Dev nD) (r : Ref sig .tc) (hr : r ∉ [main_v94]) :
    Wout6 V O Rc c (Proc.devRef .tc r) = V c (Proc.devRef .tc r) := by
  by_cases h : ∃ w, Pipeline.arrRef spec6 w = r
  · obtain ⟨w, rfl⟩ := h
    by_cases hw : (cfg6.win w).isOut = false
    · rw [Wout6_arr, (pdatsAt V O Rc 3 c).arrAt_in w hw _]
      exact Cert.Kernel.Head.A_eq c (Vtc V c) _ (O c) (Rc c) w
    · exact absurd (outs6_mem w hw) hr
  · exact Wout6_of_ne V O Rc c r fun w e => h ⟨w, e⟩

set_option backward.isDefEq.respectTransparency.types false in
/-- REGION 3 over the thread state "every unscoped buffer held at a valuation, what the core owes, the rest": entered at
    `V`, left at `Wout6`. Its arrays are split out of the unscoped buffers at the entry and put back at the exit; the
    scoped buffers no window stages pass through the invariant; what the core owes passes through, its recorded pairs
    staying within `Rc`; the kernel has no semaphore of its own. -/
def seg6 (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c) :
    Pipeline.RegionSeg (pcfgs (F := F)) adm (pdatsAt V O Rc) none (defs₀ (F := F)) 𝒱₀ (K (F := F)).L (K (F := F)).lev (3 : Fin 4) where
  win := launch6.win.to₀
  block_pos := launch6.block_pos
  stage_whole := launch6.stage_whole
  K := PEmpty
  osem k := k.elim
  ho := Pipeline.OwnSemFacts.none _
  hbody c := (Cert.Kernel.Head.body_obligation 𝒱₀ none c (Vtc V c) (Pipeline.scopedRestBut (Ix := HIx 3) (Name := ℕ) (U := UU) (Lvl := ℕ) (Val := Elt F) spec6 c [cc6_scratch0]) (O c) (Rc c)).loose
  hwaits c := Cert.Proof.RegionWaits.cellsWaits_of_none (K (F := F)) (Pipeline.pin (pcfgs (F := F)) adm) (pdatsAt V O Rc) 3 c (O c)
    (fun _ => rfl) (hO c)
  pre c := iprop(StableHlo.held (c : Thread nD τ) (Pipeline.ucRefs τ sig) (V c) ∗ Owes O Rc c ∗ Rest c)
  post c := iprop(StableHlo.held (c : Thread nD τ) (Pipeline.ucRefs τ sig) (Wout6 V O Rc c) ∗ Owes O Rc c ∗ Rest c)
  X c := BI.emp
  Y c := BI.emp
  Z c := iprop(Pipeline.unscopedRest (Ix := HIx 3) (Name := ℕ) (U := UU) (Lvl := ℕ) spec6 c (Vtc V c) ∗ Rest c)
  hentry c := by
    rw [Pipeline.ownSems0_none]
    have hsplit := Pipeline.arrays_of_unscopedBufs (p := 3) (pcfgs (F := F)) adm (pdatsAt V O Rc) launch6.win launch6.arr_whole c
      ((pdatsAt V O Rc 3 c).share_full fun _ => rfl) (Vtc V c) fun _ => rfl
    rw [Pipeline.unscopedBufs_held] at hsplit
    iintro ⟨⟨Hub, HO, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun x hx => Or.inl (hW hx)
      iexact HO
    isplitr; · iempintro
    isplitl [Hrest]; · iexact Hrest
    iexact HR
  hin c := by
    refine BIBase.Entails.trans ?_ (Cert.Kernel.Head.Phi_in (F := F) (Ix := HIx 3) (Name := ℕ) (U := UU) (Lvl := ℕ) c (Vtc V c) (O c) (Rc c))
    iintro ⟨-, -, Hr⟩
    iexact Hr
  hout c := by
    rw [Pipeline.ownSems0_none]
    refine BIBase.Entails.trans (Cert.Kernel.Head.Phi_out (F := F) (Ix := HIx 3) (Name := ℕ) (U := UU) (Lvl := ℕ) c (Vtc V c) (O c) (Rc c)) ?_
    iintro Hr
    isplitr; · iempintro
    isplitr; · iempintro
    iexact Hr
  hexit c := by
    have hjoin := Pipeline.unscopedBufs_of_arrays (p := 3) (pcfgs (F := F)) adm (Ix := HIx 3) (Name := ℕ) (U := UU) (Lvl := ℕ)
      launch6.win launch6.arr_whole c (pdatsAt V O Rc) ((pdatsAt V O Rc 3 c).share_full fun _ => rfl)
      (Vtc V c) (Vtc (Wout6 V O Rc) c) ((pdatsAt V O Rc 3 c).arrAt · cfg6.N) (fun w => (Wout6_arr V O Rc c w).symm)
      (fun b hb => Wout6_of_ne V O Rc c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HO]
    · unfold Pipeline.Dat.owesAt Pipeline.owesWithin Owes
      icases HO with ⟨%W, %hW, HO⟩; iexists W; isplitr
      · ipureintro
        intro x hx
        rcases hW hx with h | ⟨w, s, rfl⟩
        · exact h
        · exact hRc c _
      iexact HO
    iexact HR

/-- The region's step as @main meets it (the call, then the rest of @main), from the region boundary, the thread state,
    the level facts and the pipeline's share of the launch's ghost state. -/
theorem seg6_wp [∀ e, Nonempty (Elt F e)] (V : Dev nD → Valuation τ sig (Elt F)) (O : Dev nD → CellTallies nD τ sig (HIx 3)) (Rc : Dev nD → Set (SemLoc sig × HIx 3))
    (Rest : Dev nD → sProp 𝕄) (hO : ∀ c g, O c g none = 0) (hRc : ∀ c (sm : DmaSem sig), (SemLoc.dma sm, (none : HIx 3)) ∈ Rc c)
    (c : Dev nD) {α : Type} (k : PUnit → Prog (TpuEff nD τ sig (Elt F) (ΛP (F := F)) .tc) α) (Q : α → sProp 𝕄) :
    iprop((iprop(boundary (c.tc : Thread nD τ) ∗ (seg6 V O Rc Rest hO hRc).post c) -∗ wp frame (wpE (D (F := F)) 𝒱 (c.tc : Thread nD τ) none) Set.univ (k ⟨⟩) Q)
        ∗ boundary (c.tc : Thread nD τ) ∗ (seg6 V O Rc Rest hO hRc).pre c ∗ levAts (K (F := F)).L (K (F := F)).lev
        ∗ Pipeline.cellsGhost (Pipeline.pin (pcfgs (F := F)) adm) EK 3 c ∗ Pipeline.toksInit (Pipeline.pin (pcfgs (F := F)) adm) EK 3 c)
      ⊢ wp frame (wpE (D (F := F)) 𝒱 (c.tc : Thread nD τ) none) Set.univ (.op (.customCall (Pipeline.entry (3 : Fin 4)) ()) k) Q :=
  Pipeline.RegionSeg.wp (pcfgs (F := F)) adm (pdatsAt V O Rc) none cellOf_inj EK (defs₀ (F := F)) 𝒱₀ (K (F := F)).L (K (F := F)).lev
    (seg6 V O Rc Rest hO hRc) c none (fun _ h => absurd h (Option.not_mem_none _)) k Q

end Cert.Proof.WordLaunch

end
-- ==== Proof.LaunchRegionW.lean ====
/-
  The TensorCore regions' rule in the form @main's composition takes it. A region's record is entered from all the
  arrays held at a valuation and what the TensorCore owes; inside a SparseCore program that debt sits in the
  TensorCore's handshake state (the start signals of the calls still to come, all at a call's index, while a
  region's waits on its staging cells are recorded at the index none, at level 0): the handshake state is opened,
  the debt lent to the region with the bound on the recorded pairs, and closed again on the region's exit. The
  region itself is a program of the pipelines' signature, lifted into the SparseCore program's.
-/
import proofs.«215677_g32066225832048_cont_9to1_32_28_alg».proof.Proof.LaunchMainW
import proofs.«215677_g32066225832048_cont_9to1_32_28_alg».proof.Proof.RegionSegsW

noncomputable section

namespace Cert.Proof.WordLaunch

open Cert.Kernel Cert.Kernel.Gen Cert.Kernel.HostOps

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 3) (Elt F) ℕ UU ℕ

/-- The pairs the TensorCore of `c` may have recorded before call `n`: those at levels up to `8 n`. -/
def RcAt (n : ℕ) (c : Dev nD) : Set (SemLoc sig × HIx 3) := {pr | (K (F := F)).lev (SparseCore.T c, pr.1) pr.2 ≤ 8 * n}

omit [FloatOps F] [∀ e, Nonempty (Elt F e)] in
/-- A staging cell's pair, at the index `none`, sits at level 0: within every such bound. -/
theorem hRcAt (n : ℕ) (c : Dev nD) (sm : DmaSem sig) : (SemLoc.dma sm, (none : HIx 3)) ∈ RcAt (F := F) n c := by
  show (K (F := F)).lev _ none ≤ _
  rw [SparseCore.Cfg.lev_none]; exact Nat.zero_le _

omit [FloatOps F] [∀ e, Nonempty (Elt F e)] in
/-- The TensorCore's debt with its recorded pairs bounded, in the two spellings: by level, and by membership. -/
theorem owes_in (n : ℕ) (c : Dev nD) (O : CellTallies nD τ sig (HIx 3)) :
    iprop(∃ W, ⌜(K (F := F)).WBelow (SparseCore.T c) W (8 * n)⌝ ∗ owes (SparseCore.T c) O W)
      ⊢ (iprop(∃ W : Waits sig (HIx 3), ⌜(↑W : Set (SemLoc sig × HIx 3)) ⊆ RcAt (F := F) n c⌝ ∗ owes (SparseCore.T c) O W) : sProp 𝕄) := by
  iintro ⟨%W, %hW, HO⟩
  iexists W; isplitr
  · ipureintro; exact fun p hp => hW p (Finset.mem_coe.mp hp)
  iexact HO

omit [FloatOps F] [∀ e, Nonempty (Elt F e)] in
theorem owes_out (n : ℕ) (c : Dev nD) (O : CellTallies nD τ sig (HIx 3)) :
    (iprop(∃ W : Waits sig (HIx 3), ⌜(↑W : Set (SemLoc sig × HIx 3)) ⊆ RcAt (F := F) n c⌝ ∗ owes (SparseCore.T c) O W) : sProp 𝕄)
      ⊢ iprop(∃ W, ⌜(K (F := F)).WBelow (SparseCore.T c) W (8 * n)⌝ ∗ owes (SparseCore.T c) O W) := by
  iintro ⟨%W, %hW, HO⟩
  iexists W; isplitr
  · ipureintro; exact fun p hp => hW (Finset.mem_coe.mpr hp)
  iexact HO

omit [∀ e, Nonempty (Elt F e)] in
/-- Entering a region is the pipelines' call of its entry label, lifted into the SparseCore program's signature. -/
theorem enter_lift (p : Fin 4) :
    (enter (F := F) p) = SparseCore.liftProg (Q := 3) (.op (.customCall (Pipeline.entry p) ()) fun _ => .ret ⟨⟩) := rfl

/-! ## Region 0 -/

set_option backward.isDefEq.respectTransparency.types false in
set_option maxHeartbeats 2000000 in
/-- Region 0 (before SparseCore call 0) as @main meets it. -/
theorem region0 (C : Conts F) : RegionStep C 0 [main_v24_0, main_v24_1] 0 := by
  intro κ d W α k Φ
  rw [wp_bind, enter_lift]
  refine BIBase.Entails.trans ?_ ((K (F := F)).wp_liftProg (D (F := F)) 𝒱 (SparseCore.T d) Set.univ none _ _)
  have h := seg0_wp (F := F) (fun _ => W) (fun c => (K (F := F)).Otc c 0) (RcAt (F := F) 0) (fun _ => BI.emp)
      (fun c g => RegionWaits.Otc_none (K (F := F)) c 0 g) (hRcAt (F := F) 0) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout0 (fun _ => W) (fun c => (K (F := F)).Otc c 0) (RcAt (F := F) 0) d)
            ∗ (∃ Wt : Waits sig (HIx 3), ⌜(↑Wt : Set (SemLoc sig × HIx 3)) ⊆ RcAt (F := F) 0 d⌝ ∗ owes (SparseCore.T d) ((K (F := F)).Otc d 0) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 0 d⌝ ∗ owes (SparseCore.T d) ((K (F := F)).Otc d 0) Wt) ∗ BI.emp)
        ∗ levAts (K (F := F)).L (K (F := F)).lev
        ∗ Pipeline.cellsGhost (Pipeline.pin (pcfgs (F := F)) adm) EK 0 d ∗ Pipeline.toksInit (Pipeline.pin (pcfgs (F := F)) adm) EK 0 d)
      ⊢ wp frame (wpE (D (F := F)) 𝒱 (SparseCore.T d) none) Set.univ
          (.op (.customCall (Pipeline.entry (0 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 0 d ((K (F := F)).Otc d 0)) $$ HO
  isplitl [Hk Hrest]
  · iintro ⟨Hb, Hheld, HO, -⟩
    rw [wp_ret]; imodintro
    iapply Hk
    isplitl [HO Hrest]
    · isplitl [HO]
      · iapply (owes_out (F := F) 0 d ((K (F := F)).Otc d 0)); iexact HO
      iexact Hrest
    isplitl [Hb]; · iexact Hb
    iexists (Wout0 (fun _ => W) (fun c => (K (F := F)).Otc c 0) (RcAt (F := F) 0) d)
    isplitr
    · ipureintro; exact fun r hr => Wout0_off (fun _ => W) (fun c => (K (F := F)).Otc c 0) (RcAt (F := F) 0) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 1 -/

set_option backward.isDefEq.respectTransparency.types false in
set_option maxHeartbeats 2000000 in
/-- Region 1 (before SparseCore call 1) as @main meets it. -/
theorem region1 (C : Conts F) : RegionStep C 1 [main_v50_0, main_v50_1] 1 := by
  intro κ d W α k Φ
  rw [wp_bind, enter_lift]
  refine BIBase.Entails.trans ?_ ((K (F := F)).wp_liftProg (D (F := F)) 𝒱 (SparseCore.T d) Set.univ none _ _)
  have h := seg2_wp (F := F) (fun _ => W) (fun c => (K (F := F)).Otc c 1) (RcAt (F := F) 1) (fun _ => BI.emp)
      (fun c g => RegionWaits.Otc_none (K (F := F)) c 1 g) (hRcAt (F := F) 1) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout2 (fun _ => W) (fun c => (K (F := F)).Otc c 1) (RcAt (F := F) 1) d)
            ∗ (∃ Wt : Waits sig (HIx 3), ⌜(↑Wt : Set (SemLoc sig × HIx 3)) ⊆ RcAt (F := F) 1 d⌝ ∗ owes (SparseCore.T d) ((K (F := F)).Otc d 1) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 1 d⌝ ∗ owes (SparseCore.T d) ((K (F := F)).Otc d 1) Wt) ∗ BI.emp)
        ∗ levAts (K (F := F)).L (K (F := F)).lev
        ∗ Pipeline.cellsGhost (Pipeline.pin (pcfgs (F := F)) adm) EK 1 d ∗ Pipeline.toksInit (Pipeline.pin (pcfgs (F := F)) adm) EK 1 d)
      ⊢ wp frame (wpE (D (F := F)) 𝒱 (SparseCore.T d) none) Set.univ
          (.op (.customCall (Pipeline.entry (1 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 1 d ((K (F := F)).Otc d 1)) $$ HO
  isplitl [Hk Hrest]
  · iintro ⟨Hb, Hheld, HO, -⟩
    rw [wp_ret]; imodintro
    iapply Hk
    isplitl [HO Hrest]
    · isplitl [HO]
      · iapply (owes_out (F := F) 1 d ((K (F := F)).Otc d 1)); iexact HO
      iexact Hrest
    isplitl [Hb]; · iexact Hb
    iexists (Wout2 (fun _ => W) (fun c => (K (F := F)).Otc c 1) (RcAt (F := F) 1) d)
    isplitr
    · ipureintro; exact fun r hr => Wout2_off (fun _ => W) (fun c => (K (F := F)).Otc c 1) (RcAt (F := F) 1) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 2 -/

set_option backward.isDefEq.respectTransparency.types false in
set_option maxHeartbeats 2000000 in
/-- Region 2 (before SparseCore call 2) as @main meets it. -/
theorem region2 (C : Conts F) : RegionStep C 2 [main_v76_0, main_v76_1] 2 := by
  intro κ d W α k Φ
  rw [wp_bind, enter_lift]
  refine BIBase.Entails.trans ?_ ((K (F := F)).wp_liftProg (D (F := F)) 𝒱 (SparseCore.T d) Set.univ none _ _)
  have h := seg4_wp (F := F) (fun _ => W) (fun c => (K (F := F)).Otc c 2) (RcAt (F := F) 2) (fun _ => BI.emp)
      (fun c g => RegionWaits.Otc_none (K (F := F)) c 2 g) (hRcAt (F := F) 2) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout4 (fun _ => W) (fun c => (K (F := F)).Otc c 2) (RcAt (F := F) 2) d)
            ∗ (∃ Wt : Waits sig (HIx 3), ⌜(↑Wt : Set (SemLoc sig × HIx 3)) ⊆ RcAt (F := F) 2 d⌝ ∗ owes (SparseCore.T d) ((K (F := F)).Otc d 2) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 2 d⌝ ∗ owes (SparseCore.T d) ((K (F := F)).Otc d 2) Wt) ∗ BI.emp)
        ∗ levAts (K (F := F)).L (K (F := F)).lev
        ∗ Pipeline.cellsGhost (Pipeline.pin (pcfgs (F := F)) adm) EK 2 d ∗ Pipeline.toksInit (Pipeline.pin (pcfgs (F := F)) adm) EK 2 d)
      ⊢ wp frame (wpE (D (F := F)) 𝒱 (SparseCore.T d) none) Set.univ
          (.op (.customCall (Pipeline.entry (2 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 2 d ((K (F := F)).Otc d 2)) $$ HO
  isplitl [Hk Hrest]
  · iintro ⟨Hb, Hheld, HO, -⟩
    rw [wp_ret]; imodintro
    iapply Hk
    isplitl [HO Hrest]
    · isplitl [HO]
      · iapply (owes_out (F := F) 2 d ((K (F := F)).Otc d 2)); iexact HO
      iexact Hrest
    isplitl [Hb]; · iexact Hb
    iexists (Wout4 (fun _ => W) (fun c => (K (F := F)).Otc c 2) (RcAt (F := F) 2) d)
    isplitr
    · ipureintro; exact fun r hr => Wout4_off (fun _ => W) (fun c => (K (F := F)).Otc c 2) (RcAt (F := F) 2) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 3 -/

set_option backward.isDefEq.respectTransparency.types false in
set_option maxHeartbeats 2000000 in
/-- Region 3 (before SparseCore call 3) as @main meets it. -/
theorem region3 (C : Conts F) : RegionStep C 3 [main_v94] 3 := by
  intro κ d W α k Φ
  rw [wp_bind, enter_lift]
  refine BIBase.Entails.trans ?_ ((K (F := F)).wp_liftProg (D (F := F)) 𝒱 (SparseCore.T d) Set.univ none _ _)
  have h := seg6_wp (F := F) (fun _ => W) (fun c => (K (F := F)).Otc c 3) (RcAt (F := F) 3) (fun _ => BI.emp)
      (fun c g => RegionWaits.Otc_none (K (F := F)) c 3 g) (hRcAt (F := F) 3) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout6 (fun _ => W) (fun c => (K (F := F)).Otc c 3) (RcAt (F := F) 3) d)
            ∗ (∃ Wt : Waits sig (HIx 3), ⌜(↑Wt : Set (SemLoc sig × HIx 3)) ⊆ RcAt (F := F) 3 d⌝ ∗ owes (SparseCore.T d) ((K (F := F)).Otc d 3) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcAt (F := F) 3 d⌝ ∗ owes (SparseCore.T d) ((K (F := F)).Otc d 3) Wt) ∗ BI.emp)
        ∗ levAts (K (F := F)).L (K (F := F)).lev
        ∗ Pipeline.cellsGhost (Pipeline.pin (pcfgs (F := F)) adm) EK 3 d ∗ Pipeline.toksInit (Pipeline.pin (pcfgs (F := F)) adm) EK 3 d)
      ⊢ wp frame (wpE (D (F := F)) 𝒱 (SparseCore.T d) none) Set.univ
          (.op (.customCall (Pipeline.entry (3 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owes_in (F := F) 3 d ((K (F := F)).Otc d 3)) $$ HO
  isplitl [Hk Hrest]
  · iintro ⟨Hb, Hheld, HO, -⟩
    rw [wp_ret]; imodintro
    iapply Hk
    isplitl [HO Hrest]
    · isplitl [HO]
      · iapply (owes_out (F := F) 3 d ((K (F := F)).Otc d 3)); iexact HO
      iexact Hrest
    isplitl [Hb]; · iexact Hb
    iexists (Wout6 (fun _ => W) (fun c => (K (F := F)).Otc c 3) (RcAt (F := F) 3) d)
    isplitr
    · ipureintro; exact fun r hr => Wout6_off (fun _ => W) (fun c => (K (F := F)).Otc c 3) (RcAt (F := F) 3) d r hr
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

end Cert.Proof.WordLaunch

end
-- ==== Proof.EdgeTileB.lean ====
/-
  One vector subcore's task of the edge kernel (the first SparseCore call), with what it writes.

  The frame statement of the task is in the module this one imports. Here the same run is followed with the values: in
  chunk `k` of tile `L`, after the two index copies the lists hold words `[e0, e0 + 64)` of the two index arrays,
  `e0 = 25600 wid + 64 k`; after the two gathers the buffers hold, at `(i, c)`, the table at the row the `i`-th word
  names, column `c`; trip `r` of the row loop stores the four sixteen-lane pieces of row `r` of the result,
  `max(a[r, j] + b[r, 64 + j], 0)`, and leaves the rows below alone; the copy-out lands the 64 rows on the chunk's rows
  of the output and leaves the rows of the chunks below alone. So before chunk `k` every element `(e, j)` of the tile's
  rows with `e` below the chunk's first edge holds `max(tab[src2 e, j] + tab[dst2 e, 64 + j], 0)`, and after the last
  chunk all of the tile's rows do.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit
import Idealize.ShloMosaic.Lib.Writes
import proofs.«215677_g32066225832048_cont_9to1_32_28_alg».proof.Proof.EdgeTile

noncomputable section

namespace Cert.Proof.EdgeTile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

local notation "𝕄" => MT nD τ sig (HIx 3) (Elt F) ℕ UU ℕ

local notation "tabW" => (Memref.whole Cert.KernelIdeal.main_v24_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v25_scv : Memref Cert.KernelIdeal.sig Kind.scVector Space.hbm Cert.KernelIdeal.S819200x64 EltTy.f32)
local notation "s0W" => (Memref.whole Cert.KernelIdeal.cc1_scratch0 : Memref Cert.KernelIdeal.sig Kind.scVector Space.vmem Cert.KernelIdeal.S64 EltTy.i32)
local notation "s1W" => (Memref.whole Cert.KernelIdeal.cc1_scratch1 : Memref Cert.KernelIdeal.sig Kind.scVector Space.vmem Cert.KernelIdeal.S64 EltTy.i32)
local notation "s2W" => (Memref.whole Cert.KernelIdeal.cc1_scratch2 : Memref Cert.KernelIdeal.sig Kind.scVector Space.vmem Cert.KernelIdeal.S64x128 EltTy.f32)
local notation "s3W" => (Memref.whole Cert.KernelIdeal.cc1_scratch3 : Memref Cert.KernelIdeal.sig Kind.scVector Space.vmem Cert.KernelIdeal.S64x128 EltTy.f32)
local notation "s4W" => (Memref.whole Cert.KernelIdeal.cc1_scratch4 : Memref Cert.KernelIdeal.sig Kind.scVector Space.vmem Cert.KernelIdeal.S64x64 EltTy.f32)

/-! ## What the row loop leaves in the result buffer -/

/-- `max(a + b, 0)` on `f32`. -/
def relu2 (a b : F .f32) : F .f32 := FloatOps.maximumf (FloatOps.addf a b) (Scalar.ofBits .f32 0x00000000#32)

/-- Where lane `x` of the result reads the first gathered buffer: the same row and column; -/
def colA (x : S64x64.Idx) : S64x128.Idx := fun a => match a with
  | ⟨0, _⟩ => (⟨(x 0).val, (x 0).isLt⟩ : Fin 64)
  | ⟨1, _⟩ => (⟨(x 1).val, Nat.lt_of_lt_of_le (x 1).isLt (by decide)⟩ : Fin 128)

/-- and the second: the same row, 64 columns on. -/
def colB (x : S64x64.Idx) : S64x128.Idx := fun a => match a with
  | ⟨0, _⟩ => (⟨(x 0).val, (x 0).isLt⟩ : Fin 64)
  | ⟨1, _⟩ => (⟨64 + (x 1).val, by have h : (x 1).val < 64 := (x 1).isLt; omega⟩ : Fin 128)

/-- Lane `x` of the result: `max(a[x 0, x 1] + b[x 0, 64 + x 1], 0)`. -/
def rowVal (a b : S64x128.Idx → F .f32) (x : S64x64.Idx) : F .f32 := relu2 (a (colA x)) (b (colB x))

/-- Sixteen lanes at once are each lane's. -/
theorem lane (a b : S1x16.Idx → F .f32) (y : S1x16.Idx) :
    shapeCast S1x16 (maximumf (addf (shapeCast S16 a shapeCasts_S1x16_S16) (shapeCast S16 b shapeCasts_S1x16_S16)) (k1_pay1 (F := F)))
        shapeCasts_S16_S1x16 y = relu2 (a y) (b y) := by
  unfold shapeCast maximumf addf k1_pay1 broadcast relu2
  simp only [Shape.reshapeEquiv_reshapeEquiv, Shape.reshapeEquiv_self]

/-- A load of sixteen lanes of a gathered buffer at the result piece's row and column reads what `colA` names; -/
theorem colA_emb (offA offP : Fin 2 → Nat) (hA : ∀ a, offA a + S1x16.size a ≤ S64x128.size a) (hP : ∀ a, offP a + S1x16.size a ≤ S64x64.size a)
    (e0 : offA 0 = offP 0) (e1 : offA 1 = offP 1) (y : S1x16.Idx) :
    (Rect.unit (s := S64x128) offA S1x16.size hA).toLoadRect.idx y = colA ((Rect.unit (s := S64x64) offP S1x16.size hP).emb y) := by
  funext a; apply Fin.ext
  match a with
  | ⟨0, _⟩ => show offA 0 + 1 * (y 0).val = offP 0 + 1 * (y 0).val; rw [e0]
  | ⟨1, _⟩ => show offA 1 + 1 * (y 1).val = offP 1 + 1 * (y 1).val; rw [e1]

/-- 64 columns on, what `colB` names. -/
theorem colB_emb (offB offP : Fin 2 → Nat) (hB : ∀ a, offB a + S1x16.size a ≤ S64x128.size a) (hP : ∀ a, offP a + S1x16.size a ≤ S64x64.size a)
    (e0 : offB 0 = offP 0) (e1 : offB 1 = 64 + offP 1) (y : S1x16.Idx) :
    (Rect.unit (s := S64x128) offB S1x16.size hB).toLoadRect.idx y = colB ((Rect.unit (s := S64x64) offP S1x16.size hP).emb y) := by
  funext a; apply Fin.ext
  match a with
  | ⟨0, _⟩ => show offB 0 + 1 * (y 0).val = offP 0 + 1 * (y 0).val; rw [e0]
  | ⟨1, _⟩ => show offB 1 + 1 * (y 1).val = 64 + (offP 1 + 1 * (y 1).val); rw [e1]; omega

set_option maxHeartbeats 4000000 in
/-- One stored piece of a row: sixteen lanes of the two gathered buffers, added and clamped, are `rowVal` there. -/
theorem piece_val (d : Dev nD) (L : grid1.Coords) (A : Buf (Elt F) ((s2W).view.loc (thr d L))) (B : Buf (Elt F) ((s3W).view.loc (thr d L)))
    (offA offB offP : Fin 2 → Nat) (hA : ∀ a, offA a + S1x16.size a ≤ S64x128.size a) (hB : ∀ a, offB a + S1x16.size a ≤ S64x128.size a)
    (hP : ∀ a, offP a + S1x16.size a ≤ S64x64.size a)
    (a0 : offA 0 = offP 0) (a1 : offA 1 = offP 1) (b0 : offB 0 = offP 0) (b1 : offB 1 = 64 + offP 1) (y : S1x16.Idx) :
    shapeCast S1x16 (maximumf (addf
        (shapeCast S16 (View.readAt (Elt F) (s2W).view (Rect.unit (s := S64x128) offA S1x16.size hA).toLoadRect A) shapeCasts_S1x16_S16)
        (shapeCast S16 (View.readAt (Elt F) (s3W).view (Rect.unit (s := S64x128) offB S1x16.size hB).toLoadRect B) shapeCasts_S1x16_S16))
        (k1_pay1 (F := F))) shapeCasts_S16_S1x16 y
      = rowVal (View.read (Elt F) (s2W).view A) (View.read (Elt F) (s3W).view B) ((Rect.unit (s := S64x64) offP S1x16.size hP).emb y) := by
  rw [lane]
  unfold rowVal
  rw [View.readAt_apply, View.readAt_apply, colA_emb offA offP hA hP a0 a1 y, colB_emb offB offP hB hP b0 b1 y]

/-- The sixteen lanes one store of the row loop writes: loads at `offA` and `offB` of the two gathered buffers, added, clamped at zero. -/
def pv (d : Dev nD) (L : grid1.Coords) (A : Buf (Elt F) ((s2W).view.loc (thr d L))) (B : Buf (Elt F) ((s3W).view.loc (thr d L)))
    (offA offB : Fin 2 → Nat) (hA : ∀ a, offA a + S1x16.size a ≤ S64x128.size a) (hB : ∀ a, offB a + S1x16.size a ≤ S64x128.size a) : S1x16.Idx → F .f32 :=
  shapeCast S1x16 (maximumf (addf
      (shapeCast S16 (View.readAt (Elt F) (s2W).view (Rect.unit (s := S64x128) offA S1x16.size hA).toLoadRect A) shapeCasts_S1x16_S16)
      (shapeCast S16 (View.readAt (Elt F) (s3W).view (Rect.unit (s := S64x128) offB S1x16.size hB).toLoadRect B) shapeCasts_S1x16_S16))
      (k1_pay1 (F := F))) shapeCasts_S16_S1x16

/-- The four pieces trip `r` of the row loop stores, the last first. -/
def rowPieces (d : Dev nD) (L : grid1.Coords) (A : Buf (Elt F) ((s2W).view.loc (thr d L))) (B : Buf (Elt F) ((s3W).view.loc (thr d L)))
    (r : Fin k1_t2_loop.trips) : List (View.Piece (Elt F) S64x64 .f32) :=
  [⟨Rect.unit (s := S64x64) (k1_off13 r) S1x16.size (k1_off13_inb r), pv d L A B (k1_off11 r) (k1_off12 r) (k1_off11_inb r) (k1_off12_inb r)⟩,
   ⟨Rect.unit (s := S64x64) (k1_off10 r) S1x16.size (k1_off10_inb r), pv d L A B (k1_off8 r) (k1_off9 r) (k1_off8_inb r) (k1_off9_inb r)⟩,
   ⟨Rect.unit (s := S64x64) (k1_off7 r) S1x16.size (k1_off7_inb r), pv d L A B (k1_off5 r) (k1_off6 r) (k1_off5_inb r) (k1_off6_inb r)⟩,
   ⟨Rect.unit (s := S64x64) (k1_off4 r) S1x16.size (k1_off4_inb r), pv d L A B (k1_off2 r) (k1_off3 r) (k1_off2_inb r) (k1_off3_inb r)⟩]

set_option maxHeartbeats 4000000 in
/-- Trip `r` of the row loop completes row `r` and leaves the rows below it alone. -/
theorem row_step (d : Dev nD) (L : grid1.Coords) (A : Buf (Elt F) ((s2W).view.loc (thr d L))) (B : Buf (Elt F) ((s3W).view.loc (thr d L)))
    (r : Fin k1_t2_loop.trips) (f : Buf (Elt F) ((s4W).view.loc (thr d L)))
    (hf : ∀ x : S64x64.Idx, (x 0).val < r.val →
      View.read (Elt F) (s4W).view f x = rowVal (View.read (Elt F) (s2W).view A) (View.read (Elt F) (s3W).view B) x) :
    ∀ x : S64x64.Idx, (x 0).val < r.val + 1 →
      View.read (Elt F) (s4W).view ((s4W).view.writes (Elt F) f (rowPieces d L A B r)) x
        = rowVal (View.read (Elt F) (s2W).view A) (View.read (Elt F) (s3W).view B) x := by
  intro x hx
  have hr : r.val < 64 := Nat.lt_of_lt_of_le r.isLt k1_t2_abs.2.1
  have e4 := k1_off4_eq r; have e7 := k1_off7_eq r; have e10 := k1_off10_eq r; have e13 := k1_off13_eq r
  have e2 := k1_off2_eq r; have e3 := k1_off3_eq r; have e5 := k1_off5_eq r; have e6 := k1_off6_eq r
  have e8 := k1_off8_eq r; have e9 := k1_off9_eq r; have e11 := k1_off11_eq r; have e12 := k1_off12_eq r
  by_cases hlt : (x 0).val < r.val
  · rw [View.read_writes_apply_of_forall_not_mem]
    · exact hf x hlt
    · intro p hp
      unfold rowPieces at hp
      simp only [List.mem_cons, List.not_mem_nil, _root_.or_false] at hp
      rcases hp with rfl | rfl | rfl | rfl <;> intro hm
      · have h0 := (Rect.mem_set_unit (s := S64x64) (off := k1_off13 r) (size := S1x16.size) (inb := k1_off13_inb r) (i := x)).mp hm 0
        rw [e13] at h0; have : (![r.val, 48] : Fin 2 → Nat) 0 = r.val := rfl; omega
      · have h0 := (Rect.mem_set_unit (s := S64x64) (off := k1_off10 r) (size := S1x16.size) (inb := k1_off10_inb r) (i := x)).mp hm 0
        rw [e10] at h0; have : (![r.val, 32] : Fin 2 → Nat) 0 = r.val := rfl; omega
      · have h0 := (Rect.mem_set_unit (s := S64x64) (off := k1_off7 r) (size := S1x16.size) (inb := k1_off7_inb r) (i := x)).mp hm 0
        rw [e7] at h0; have : (![r.val, 16] : Fin 2 → Nat) 0 = r.val := rfl; omega
      · have h0 := (Rect.mem_set_unit (s := S64x64) (off := k1_off4 r) (size := S1x16.size) (inb := k1_off4_inb r) (i := x)).mp hm 0
        rw [e4] at h0; have : (![r.val, 0] : Fin 2 → Nat) 0 = r.val := rfl; omega
  · have hx0 : (x 0).val = r.val := by omega
    refine View.read_writes_apply_of_pieces _ _ _ _ ?hG x ?hcov
    case hG =>
      intro p hp y
      unfold rowPieces at hp
      simp only [List.mem_cons, List.not_mem_nil, _root_.or_false] at hp
      rcases hp with rfl | rfl | rfl | rfl
      · exact piece_val d L A B (k1_off11 r) (k1_off12 r) (k1_off13 r) (k1_off11_inb r) (k1_off12_inb r) (k1_off13_inb r) (by rw [e11, e13]) (by rw [e11, e13]) (by rw [e12, e13]; rfl) (by rw [e12, e13]; rfl) y
      · exact piece_val d L A B (k1_off8 r) (k1_off9 r) (k1_off10 r) (k1_off8_inb r) (k1_off9_inb r) (k1_off10_inb r) (by rw [e8, e10]) (by rw [e8, e10]) (by rw [e9, e10]; rfl) (by rw [e9, e10]; rfl) y
      · exact piece_val d L A B (k1_off5 r) (k1_off6 r) (k1_off7 r) (k1_off5_inb r) (k1_off6_inb r) (k1_off7_inb r) (by rw [e5, e7]) (by rw [e5, e7]) (by rw [e6, e7]; rfl) (by rw [e6, e7]; rfl) y
      · exact piece_val d L A B (k1_off2 r) (k1_off3 r) (k1_off4 r) (k1_off2_inb r) (k1_off3_inb r) (k1_off4_inb r) (by rw [e2, e4]) (by rw [e2, e4]) (by rw [e3, e4]; rfl) (by rw [e3, e4]; rfl) y
    case hcov =>
      have h1 : (x 1).val < 64 := (x 1).isLt
      unfold rowPieces
      by_cases c1 : (x 1).val < 16
      · refine ⟨_, (List.mem_cons_of_mem _ (List.mem_cons_of_mem _ (List.mem_cons_of_mem _ List.mem_cons_self))), (Rect.mem_set_unit (s := S64x64) (off := k1_off4 r) (size := S1x16.size) (inb := k1_off4_inb r) (i := x)).mpr fun a => ?_⟩
        rw [e4]
        match a with
        | 0 => show r.val ≤ (x 0).val ∧ (x 0).val < r.val + 1; omega
        | 1 => show 0 ≤ (x 1).val ∧ (x 1).val < 0 + 16; omega
      · by_cases c2 : (x 1).val < 32
        · refine ⟨_, (List.mem_cons_of_mem _ (List.mem_cons_of_mem _ List.mem_cons_self)), (Rect.mem_set_unit (s := S64x64) (off := k1_off7 r) (size := S1x16.size) (inb := k1_off7_inb r) (i := x)).mpr fun a => ?_⟩
          rw [e7]
          match a with
          | 0 => show r.val ≤ (x 0).val ∧ (x 0).val < r.val + 1; omega
          | 1 => show 16 ≤ (x 1).val ∧ (x 1).val < 16 + 16; omega
        · by_cases c3 : (x 1).val < 48
          · refine ⟨_, (List.mem_cons_of_mem _ List.mem_cons_self), (Rect.mem_set_unit (s := S64x64) (off := k1_off10 r) (size := S1x16.size) (inb := k1_off10_inb r) (i := x)).mpr fun a => ?_⟩
            rw [e10]
            match a with
            | 0 => show r.val ≤ (x 0).val ∧ (x 0).val < r.val + 1; omega
            | 1 => show 32 ≤ (x 1).val ∧ (x 1).val < 32 + 16; omega
          · refine ⟨_, List.mem_cons_self, (Rect.mem_set_unit (s := S64x64) (off := k1_off13 r) (size := S1x16.size) (inb := k1_off13_inb r) (i := x)).mpr fun a => ?_⟩
            rw [e13]
            match a with
            | 0 => show r.val ≤ (x 0).val ∧ (x 0).val < r.val + 1; omega
            | 1 => show 48 ≤ (x 1).val ∧ (x 1).val < 48 + 16; omega

/-! ## What a gather delivers -/

/-- Entry `k` of a 64-entry list; row `n`, column `c` of the table; word `e` of an index array. -/
def ix64 (k : Fin 64) : S64.Idx := fun a => match a with | ⟨0, _⟩ => k
def ixT (n : Nat) (hn : n < 50008) (c : Nat) (hc : c < 128) : S50008x128.Idx := fun a => match a with
  | ⟨0, _⟩ => (⟨n, hn⟩ : Fin 50008)
  | ⟨1, _⟩ => (⟨c, hc⟩ : Fin 128)
def ix1 (e : Nat) (he : e < 819200) : S819200.Idx := fun a => match a with | ⟨0, _⟩ => (⟨e, he⟩ : Fin 819200)

theorem ixT_congr {n n' c c' : Nat} {hn hn' hc hc'} (en : n = n') (ec : c = c') : ixT n hn c hc = ixT n' hn' c' hc' := by
  subst en; subst ec; rfl
theorem ix1_congr {e e' : Nat} {he he'} (h : e = e') : ix1 e he = ix1 e' he' := by subst h; rfl

theorem rowMajor_symm_S64 (k : Fin S64.numel) : S64.rowMajor.symm k = ix64 (k.cast (by decide)) := by
  rw [Equiv.symm_apply_eq]; apply Fin.ext; rw [Shape.rowMajor_val_one]; rfl

set_option maxHeartbeats 4000000 in
/-- The gathered buffer at `(i, c)` is the source at the row entry `i` of the list names, column `c`. -/
theorem gather_read (g : S50008x128.Idx → Elt F .f32) (list : S64.Idx → Elt F .i32)
    (hn : S64.numel = S64x128.size gathers_S50008x128_S64x128.axis')
    (hin : ∀ x, (list x).toNat < S50008x128.size gathers_S50008x128_S64x128.axis) (x : S64x128.Idx) :
    SparseCore.gatherPayload gathers_S50008x128_S64x128 g (SparseCore.rows list hn hin) x
      = g (ixT (list (ix64 (x 0))).toNat (hin _) (x 1).val (x 1).isLt) := by
  unfold SparseCore.gatherPayload
  congr 1
  funext b; apply Fin.ext
  match b with
  | ⟨0, _⟩ =>
    unfold Shape.Gathers.idx
    rw [dif_pos rfl]
    show (SparseCore.rows list hn hin (x gathers_S50008x128_S64x128.axis')).val = _
    unfold SparseCore.rows
    show (list (S64.rowMajor.symm _)).toNat = (list (ix64 (x 0))).toNat
    rw [rowMajor_symm_S64]; rfl
  | ⟨1, _⟩ =>
    exact Shape.Gathers.idx_of_ne gathers_S50008x128_S64x128 _ x ⟨1, by decide⟩ (by decide)

/-! ## What a chunk of the output holds -/

/-- The first edge of chunk `k` of tile `L`. -/
def e0 (L : grid1.Coords) (k : Nat) : Nat := 409600 * (L 0).val + 25600 * (L 1).val + 64 * k

theorem e0_lt (L : grid1.Coords) (k : Fin k1_t1_loop.trips) (i : Nat) (hi : i < 64) : e0 L k.val + i < 819200 := by
  have hk : k.val < 400 := Nat.lt_of_lt_of_le k.isLt k1_t1_abs.2.1
  have h0 : (L 0).val < 2 := (L 0).isLt
  have h1 : (L 1).val < 16 := (L 1).isLt
  unfold e0; omega

/-- Element `x = (e, j)` of the output as the kernel computes it from the table and the two index arrays:
    `max(tab[src2 e, j] + tab[dst2 e, 64 + j], 0)`. -/
def outVal (TABr : S50008x128.Idx → F .f32) (SRCr DSTr : S819200.Idx → Elt F .i32)
    (hs : ∀ j, (SRCr j).toNat < 50008) (hd : ∀ j, (DSTr j).toNat < 50008) (x : S819200x64.Idx) : F .f32 :=
  relu2 (TABr (ixT (SRCr (ix1 (x 0).val (x 0).isLt)).toNat (hs _) (x 1).val (Nat.lt_of_lt_of_le (x 1).isLt (by decide))))
    (TABr (ixT (DSTr (ix1 (x 0).val (x 0).isLt)).toNat (hd _) (64 + (x 1).val) (by have h : (x 1).val < 64 := (x 1).isLt; omega)))

/-- A gathered buffer of chunk `k` holds, at `(i, c)`, the table at the row word `e0 + i` of the index array names, column `c`. -/
def Gath (L : grid1.Coords) (k : Fin k1_t1_loop.trips) (TABr : S50008x128.Idx → F .f32) (Ir : S819200.Idx → Elt F .i32)
    (hI : ∀ j, (Ir j).toNat < 50008) (A : S64x128.Idx → F .f32) : Prop :=
  ∀ x : S64x128.Idx, A x = TABr (ixT (Ir (ix1 (e0 L k.val + (x 0).val) (e0_lt L k _ (x 0).isLt))).toNat (hI _) (x 1).val (x 1).isLt)

set_option maxHeartbeats 4000000 in
/-- With both gathered buffers so, a lane of the result is the output's element at its place in the chunk. -/
theorem chunk_val (L : grid1.Coords) (k : Fin k1_t1_loop.trips) (TABr : S50008x128.Idx → F .f32) (SRCr DSTr : S819200.Idx → Elt F .i32)
    (hs : ∀ j, (SRCr j).toNat < 50008) (hd : ∀ j, (DSTr j).toNat < 50008) (A B : S64x128.Idx → F .f32)
    (hA : Gath L k TABr SRCr hs A) (hB : Gath L k TABr DSTr hd B) (y : S64x64.Idx) :
    rowVal A B y = outVal TABr SRCr DSTr hs hd ((Rect.unit (s := S819200x64) (k1_off14 L k) S64x64.size (k1_off14_inb L k)).emb y) := by
  unfold rowVal outVal
  rw [hA (colA y), hB (colB y)]
  have e := k1_off14_eq L k
  have c0 : (((Rect.unit (s := S819200x64) (k1_off14 L k) S64x64.size (k1_off14_inb L k)).emb y) 0).val = e0 L k.val + (y 0).val := by
    show k1_off14 L k 0 + 1 * (y 0).val = _
    rw [e]; show 409600 * (L 0).val + 25600 * (L 1).val + 64 * k.val + 1 * (y 0).val = _; unfold e0; omega
  have c1 : (((Rect.unit (s := S819200x64) (k1_off14 L k) S64x64.size (k1_off14_inb L k)).emb y) 1).val = (y 1).val := by
    show k1_off14 L k 1 + 1 * (y 1).val = _
    rw [e]; show 0 + 1 * (y 1).val = _; omega
  congr 2
  · exact ixT_congr (congrArg BitVec.toNat (congrArg SRCr (ix1_congr c0.symm))) c1.symm
  · exact ixT_congr (congrArg BitVec.toNat (congrArg DSTr (ix1_congr c0.symm))) (by show 64 + (y 1).val = 64 + _; rw [c1])

set_option maxHeartbeats 4000000 in
/-- After the chunk's index copy and its gather, the gathered buffer holds the table's rows the index array names. -/
theorem gathA (d : Dev nD) (L : grid1.Coords) (k : Fin k1_t1_loop.trips)
    (TAB : Buf (Elt F) ((tabW).view.loc (thr d L))) (SRC : Buf (Elt F) ((srcW).view.loc (thr d L)))
    (hsrc : ∀ j, (SRC j).toNat < 50008)
    (f0 : Buf (Elt F) ((s0W).view.loc (thr d L))) (f2 : Buf (Elt F) ((s2W).view.loc (thr d L)))
    (hn : S64.numel = S64x128.size gathers_S50008x128_S64x128.axis')
    (hin : ∀ x, (View.read (Elt F) (s0W).view (View.write (Elt F) (s0W).view f0
        (ReadAs.same.apply (View.read (Elt F) ((srcW).slice (Rect.unit (s := S819200) (k1_off1 L k) S64.size (k1_off1_inb L k)) (fun _ => rfl)).view SRC))
        Finset.univ) x).toNat < S50008x128.size gathers_S50008x128_S64x128.axis) :
    Gath L k (View.read (Elt F) (tabW).view TAB) (View.read (Elt F) (srcW).view SRC) (fun j => hsrc j)
      (View.read (Elt F) (s2W).view ((s2W).view.writes (Elt F) f2 [⟨Rect.whole cc1_scratch2.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s0W).view (View.write (Elt F) (s0W).view f0
            (ReadAs.same.apply (View.read (Elt F) ((srcW).slice (Rect.unit (s := S819200) (k1_off1 L k) S64.size (k1_off1_inb L k)) (fun _ => rfl)).view SRC))
            Finset.univ)) hn hin)⟩])) := by
  intro x
  have ex : (Rect.whole cc1_scratch2.ty.shape).emb x = x := Rect.emb_whole_apply S64x128 x
  conv_lhs => rw [← ex]
  rw [View.read_writes_cons_emb, gather_read]
  have e := k1_off1_eq L k
  -- the list's entry is the index array's word at the chunk's place
  have hl : (View.read (Elt F) (s0W).view (View.write (Elt F) (s0W).view f0
        (ReadAs.same.apply (View.read (Elt F) ((srcW).slice (Rect.unit (s := S819200) (k1_off1 L k) S64.size (k1_off1_inb L k)) (fun _ => rfl)).view SRC))
        Finset.univ) (ix64 (x 0)))
      = View.read (Elt F) (srcW).view SRC (ix1 (e0 L k.val + (x 0).val) (e0_lt L k _ (x 0).isLt)) := by
    simp only [Memref.view_whole, View.write_whole_univ, View.read_whole, ReadAs.apply_same]
    show SRC _ = SRC _
    congr 1
    funext a; apply Fin.ext
    match a with
    | ⟨0, _⟩ =>
      show k1_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s0W).view _ (ix64 (x 0))).toNat = (View.read (Elt F) (srcW).view SRC _).toNat
    rw [hl]; omega
  | ⟨1, _⟩ =>
    show 0 + 1 * (x 1).val = (x 1).val
    omega

set_option maxHeartbeats 4000000 in
/-- The same for the second index array and the second gathered buffer. -/
theorem gathB (d : Dev nD) (L : grid1.Coords) (k : Fin k1_t1_loop.trips)
    (TAB : Buf (Elt F) ((tabW).view.loc (thr d L))) (DST : Buf (Elt F) ((dstW).view.loc (thr d L)))
    (hdst : ∀ j, (DST j).toNat < 50008)
    (f1 : Buf (Elt F) ((s1W).view.loc (thr d L))) (f3 : Buf (Elt F) ((s3W).view.loc (thr d L)))
    (hn : S64.numel = S64x128.size gathers_S50008x128_S64x128.axis')
    (hin : ∀ x, (View.read (Elt F) (s1W).view (View.write (Elt F) (s1W).view f1
        (ReadAs.same.apply (View.read (Elt F) ((dstW).slice (Rect.unit (s := S819200) (k1_off1 L k) S64.size (k1_off1_inb L k)) (fun _ => rfl)).view DST))
        Finset.univ) x).toNat < S50008x128.size gathers_S50008x128_S64x128.axis) :
    Gath L k (View.read (Elt F) (tabW).view TAB) (View.read (Elt F) (dstW).view DST) (fun j => hdst j)
      (View.read (Elt F) (s3W).view ((s3W).view.writes (Elt F) f3 [⟨Rect.whole cc1_scratch3.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s1W).view (View.write (Elt F) (s1W).view f1
            (ReadAs.same.apply (View.read (Elt F) ((dstW).slice (Rect.unit (s := S819200) (k1_off1 L k) S64.size (k1_off1_inb L k)) (fun _ => rfl)).view DST))
            Finset.univ)) hn hin)⟩])) := by
  intro x
  have ex : (Rect.whole cc1_scratch3.ty.shape).emb x = x := Rect.emb_whole_apply S64x128 x
  conv_lhs => rw [← ex]
  rw [View.read_writes_cons_emb, gather_read]
  have e := k1_off1_eq L k
  -- the list's entry is the index array's word at the chunk's place
  have hl : (View.read (Elt F) (s1W).view (View.write (Elt F) (s1W).view f1
        (ReadAs.same.apply (View.read (Elt F) ((dstW).slice (Rect.unit (s := S819200) (k1_off1 L k) S64.size (k1_off1_inb L k)) (fun _ => rfl)).view DST))
        Finset.univ) (ix64 (x 0)))
      = View.read (Elt F) (dstW).view DST (ix1 (e0 L k.val + (x 0).val) (e0_lt L k _ (x 0).isLt)) := by
    simp only [Memref.view_whole, View.write_whole_univ, View.read_whole, ReadAs.apply_same]
    show DST _ = DST _
    congr 1
    funext a; apply Fin.ext
    match a with
    | ⟨0, _⟩ =>
      show k1_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s1W).view _ (ix64 (x 0))).toNat = (View.read (Elt F) (dstW).view DST _).toNat
    rw [hl]; omega
  | ⟨1, _⟩ =>
    show 0 + 1 * (x 1).val = (x 1).val
    omega

/-! ## The rows of the chunks done so far -/

/-- Before chunk `n`, every element of the tile's rows below the chunk's first edge holds the kernel's value. -/
def Done (L : grid1.Coords) (TABr : S50008x128.Idx → F .f32) (SRCr DSTr : S819200.Idx → Elt F .i32)
    (hs : ∀ j, (SRCr j).toNat < 50008) (hd : ∀ j, (DSTr j).toNat < 50008) (n : Nat) (fo : S819200x64.Idx → F .f32) : Prop :=
  ∀ x ∈ outRows L, (x 0).val < e0 L n → fo x = outVal TABr SRCr DSTr hs hd x

set_option maxHeartbeats 4000000 in
/-- Chunk `k`'s copy-out, landing `w` on the chunk's rows, completes the chunk and leaves the rows below alone. -/
theorem done_step (d : Dev nD) (L : grid1.Coords) (k : Fin k1_t1_loop.trips) (TABr : S50008x128.Idx → F .f32) (SRCr DSTr : S819200.Idx → Elt F .i32)
    (hs : ∀ j, (SRCr j).toNat < 50008) (hd : ∀ j, (DSTr j).toNat < 50008)
    (fo : Buf (Elt F) ((outW).view.loc (thr d L))) (w : S64x64.Idx → F .f32)
    (hw : ∀ y, w y = outVal TABr SRCr DSTr hs hd ((Rect.unit (s := S819200x64) (k1_off14 L k) S64x64.size (k1_off14_inb L k)).emb y))
    (hfo : Done L TABr SRCr DSTr hs hd k.val (View.read (Elt F) (outW).view fo)) :
    Done L TABr SRCr DSTr hs hd (k.val + 1) (View.read (Elt F) (outW).view
      (((outChunk L k).view.set).piecewise ((outChunk L k).view.writes (Elt F) fo [⟨Rect.whole S64x64, w⟩]) fo)) := by
  intro x hxin hx
  by_cases hm : x ∈ (outChunk L k).view.set
  · show (((outChunk L k).view.set).piecewise ((outChunk L k).view.writes (Elt F) fo [⟨Rect.whole S64x64, w⟩]) fo) x = _
    rw [Finset.piecewise_eq_of_mem _ _ _ hm]
    rw [chunk_set] at hm
    obtain ⟨y, rfl⟩ := (Rect.unit (s := S819200x64) (k1_off14 L k) S64x64.size (k1_off14_inb L k)).exists_idx_of_mem hm
    refine Eq.trans ?_ (hw y)
    have ey : (Rect.whole S64x64).emb y = y := Rect.emb_whole_apply S64x64 y
    have := View.read_writes_cons_emb (Val := Elt F) (outChunk L k).view fo (Rect.whole S64x64) w [] y
    rw [ey] at this
    exact this
  · show (((outChunk L k).view.set).piecewise ((outChunk L k).view.writes (Elt F) fo [⟨Rect.whole S64x64, w⟩]) fo) x = _
    rw [Finset.piecewise_eq_of_notMem _ _ _ hm]
    refine hfo x hxin ?_
    by_contra hge
    apply hm
    rw [chunk_set]
    refine Rect.mem_set_unit.mpr fun a => ?_
    have e := k1_off14_eq L k
    rw [e]
    have h1 : (x 1).val < 64 := (x 1).isLt
    match a with
    | 0 =>
      show 409600 * (L 0).val + 25600 * (L 1).val + 64 * k.val ≤ (x 0).val ∧ (x 0).val < 409600 * (L 0).val + 25600 * (L 1).val + 64 * k.val + 64
      unfold e0 at hx hge; omega
    | 1 =>
      show 0 ≤ (x 1).val ∧ (x 1).val < 0 + 64
      omega

theorem trips_eq : k1_t1_loop.trips = 400 := by decide
theorem trips2_eq : Scf.trips k1_t2_loop.lb k1_t2_loop.ub k1_t2_loop.st = 64 := by decide

/-- The tile's rows run from its first chunk's first edge to its last chunk's last. -/
theorem rows_bounds (L : grid1.Coords) (x : S819200x64.Idx) (hx : x ∈ outRows L) : e0 L 0 ≤ (x 0).val ∧ (x 0).val < e0 L 400 := by
  have h := (Rect.mem_set_unit.mp hx) 0
  have h0 : (L 0).val < 2 := (L 0).isLt
  have h1 : (L 1).val < 16 := (L 1).isLt
  have e : (S819200x64.partIx 0 (wid L).val 0) * (S819200x64.partSize 0 32 0) = 409600 * (L 0).val + 25600 * (L 1).val := by
    show (16 * (L 0).val + (L 1).val) * (819200 / 32) = _
    omega
  have e2 : S819200x64.partSize 0 32 0 = 25600 := rfl
  change S819200x64.partIx 0 (wid L).val 0 * S819200x64.partSize 0 32 0 ≤ _
    ∧ _ < S819200x64.partIx 0 (wid L).val 0 * S819200x64.partSize 0 32 0 + S819200x64.partSize 0 32 0 at h
  rw [e, e2] at h
  unfold e0; omega

/-! ## One tile's task, with what it writes -/

abbrev rdT (d : Dev nD) (L : grid1.Coords) (TAB : Buf (Elt F) ((tabW).view.loc (thr d L))) : S50008x128.Idx → F .f32 := View.read (Elt F) (tabW).view TAB
abbrev rdS (d : Dev nD) (L : grid1.Coords) (SRC : Buf (Elt F) ((srcW).view.loc (thr d L))) : S819200.Idx → Elt F .i32 := View.read (Elt F) (srcW).view SRC
abbrev rdD (d : Dev nD) (L : grid1.Coords) (DST : Buf (Elt F) ((dstW).view.loc (thr d L))) : S819200.Idx → Elt F .i32 := View.read (Elt F) (dstW).view DST

/-- The row loop's invariant in chunk `k`: the two gathered buffers hold the table's rows the chunk's index words name,
    and rows below `r` of the result buffer are done. -/
def inv2v (d : Dev nD) (L : grid1.Coords) (k : Fin k1_t1_loop.trips)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008) (r : Nat) (_ : PUnit.{1}) : sProp 𝕄 :=
  iprop(∃ A, ∃ B, ((s2W).view.loc (thr d L) ↦{fullShare} A) ∗ ((s3W).view.loc (thr d L) ↦{fullShare} B)
    ∗ ⌜Gath L k (rdT d L TAB) (rdS d L SRC) (fun j => hsrc j) (View.read (Elt F) (s2W).view A)
        ∧ Gath L k (rdT d L TAB) (rdD d L DST) (fun j => hdst j) (View.read (Elt F) (s3W).view B)⌝
    ∗ ∃ f, ((s4W).view.loc (thr d L) ↦{fullShare} f)
      ∗ ⌜∀ x : S64x64.Idx, (x 0).val < r →
          View.read (Elt F) (s4W).view f x = rowVal (View.read (Elt F) (s2W).view A) (View.read (Elt F) (s3W).view B) x⌝)

/-- The chunk loop's invariant: as `inv1`, and the rows of the chunks below `n` hold the kernel's values. -/
def inv1v (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) (n : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, ((outW).view.loc (thr d L) ↦[outRows L]{fullShare} f)
        ∗ ⌜Done L (rdT d L TAB) (rdS d L SRC) (rdD d L DST) (fun j => hsrc j) (fun j => hdst j) n (View.read (Elt F) (outW).view f)⌝)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc1_scratch5.sem) 0 ∗ semVal (thr d L, SemLoc.dma cc1_scratch6.sem) 0
    ∗ semVal (thr d L, SemLoc.dma cc1_scoped0.sem) 0 ∗ semVal (thr d L, SemLoc.dma cc1_scoped1.sem) 0 ∗ semVal (thr d L, SemLoc.dma cc1_scoped2.sem) 0
    ∗ ∃ W', ⌜∀ p ∈ W', p ∈ W ∨ p.2 = none⌝ ∗ owes (thr d L) O W')

set_option maxHeartbeats 8000000 in
/-- The task of tile `L`: as `tile_core`, and after the last chunk every element of the tile's rows holds the kernel's value. -/
theorem tile_core_val (d : Dev nD) (L : grid1.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1v (F := F) (UU := UU) d L sh TAB SRC DST hsrc hdst O W 0 ⟨⟩
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => inv1v (F := F) (UU := UU) d L sh TAB SRC DST hsrc hdst O W k1_t1_loop.trips ⟨⟩ := by
  simp only [cc1__edge_kernel_eq_skeleton]; unfold cc1__edge_kernel_skel
  iintro HI
  sl_exec
  sl_for (inv1v (F := F) (UU := UU) d L sh TAB SRC DST hsrc hdst O W) $$ [HI]
  case region =>
    intro k _
    unfold inv1v
    iintro ⟨#Hmw, Htab, Hsrc, Hdst, ⟨%fo, Hout, %hfo⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2v (F := F) (UU := UU) d L k TAB SRC DST hsrc hdst) $$ [H2 H3 H4]
    case region =>
      intro r _
      unfold inv2v
      iintro ⟨%A, %B, H2, H3, %hAB, %f, H4, %hf⟩
      sl_exec
      sl_step
      iexists A; iexists B
      isplitl [H2]; · iexact H2
      isplitl [H3]; · iexact H3
      isplitr; · ipureintro; exact hAB
      iexists _; isplitl [H4]; · iexact H4
      ipureintro
      exact row_step (F := F) d L A B r f hf
    · unfold inv2v
      iexists _; iexists _
      isplitl [H2]; · iexact H2
      isplitl [H3]; · iexact H3
      isplitr
      · ipureintro
        exact ⟨gathA (F := F) d L k TAB SRC hsrc f0 _ _ _, gathB (F := F) d L k TAB DST hdst f1 _ _ _⟩
      iexists _; isplitl [H4]; · iexact H4
      ipureintro; intro x hx; exact absurd hx (Nat.not_lt_zero _)
    iintro %_ HI2
    unfold inv2v
    icases HI2 with ⟨%A, %B, H2, H3, %hAB, %f, H4, %hf⟩
    sl_exec
    sl_step
    have ht2 : ∀ y : S64x64.Idx, (y 0).val < Scf.trips k1_t2_loop.lb k1_t2_loop.ub k1_t2_loop.st := fun y => by
      rw [trips2_eq]; exact (y 0).isLt
    have hw : ∀ y : S64x64.Idx, View.read (Elt F) (s4W).view f y
        = outVal (rdT d L TAB) (rdS d L SRC) (rdD d L DST) (fun j => hsrc j) (fun j => hdst j)
            ((Rect.unit (s := S819200x64) (k1_off14 L k) S64x64.size (k1_off14_inb L k)).emb y) :=
      fun y => (hf y (ht2 y)).trans (chunk_val L k _ _ _ _ _ _ _ hAB.1 hAB.2 y)
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iexists _
      isplitl [Hch Hrest]
      · iapply (pointsTo_join_subset (chunk_sub L k)); isplitl [Hch] <;> iassumption
      · ipureintro
        exact done_step (F := F) d L k _ _ _ _ _ fo _ hw hfo
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile, with the values -/

/-- The output as the kernel computes it, every element from the table and the two index arrays: one function for all tiles. -/
abbrev outBuf (d : Dev nD) (TAB : Buf (Elt F) ((SparseCore.T (τ := τ) d).loc main_v24_1)) (SRC : Buf (Elt F) ((SparseCore.T (τ := τ) d).loc main_v6))
    (DST : Buf (Elt F) ((SparseCore.T (τ := τ) d).loc main_v8)) (hsrc : ∀ j, (SRC j).toNat < 50008) (hdst : ∀ j, (DST j).toNat < 50008) :
    Buf (Elt F) ((SparseCore.T (τ := τ) d).loc main_v25) :=
  outVal (View.read (Elt F) (tabW).view TAB) (View.read (Elt F) (srcW).view SRC) (View.read (Elt F) (dstW).view DST) (fun j => hsrc j) (fun j => hdst j)

set_option maxHeartbeats 4000000 in
/-- The task of tile `L` as the launch theorem hands it over (as `tile_body`); the tile's rows of the output come back holding
    `max(tab[src2 e, j] + tab[dst2 e, 64 + j], 0)` at `(e, j)`. -/
theorem tile_body_val (hF : (K (F := F)).Facts) (d : Dev nD) (L : grid1.Coords) (sh : PosShare TreeShare)
    (TAB : Buf (Elt F) ((SparseCore.T d).loc main_v24_1)) (SRC : Buf (Elt F) ((SparseCore.T d).loc main_v6)) (DST : Buf (Elt F) ((SparseCore.T d).loc main_v8))
    (OUT0 : Buf (Elt F) ((SparseCore.T d).loc main_v25))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v24_1 ↦{sh} TAB) ∗ ((SparseCore.T d).loc main_v6 ↦{sh} SRC) ∗ ((SparseCore.T d).loc main_v8 ↦{sh} DST) ∗ ((SparseCore.T d).loc main_v25 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc1__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc1_scratch5 cc1_scratch6 cc1_scoped0 cc1_scoped1 cc1_scoped2)
          fun _ => iprop((((SparseCore.T d).loc main_v24_1 ↦{sh} TAB) ∗ ((SparseCore.T d).loc main_v6 ↦{sh} SRC) ∗ ((SparseCore.T d).loc main_v8 ↦{sh} DST)
              ∗ ((SparseCore.T d).loc main_v25 ↦[outRows L]{fullShare} outBuf (F := F) d TAB SRC DST hsrc hdst))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core_val (F := F) (UU := UU) d L sh TAB SRC DST hsrc hdst O W)
    unfold inv1v
    isplitl [Hmw]; · iexact Hmw
    isplitl [Htab]; · iexact Htab
    isplitl [Hsrc]; · iexact Hsrc
    isplitl [Hdst]; · iexact Hdst
    isplitl [Hout]
    · iexists _; isplitl [Hout]; · iexact Hout
      ipureintro
      intro x hxin hx
      exact absurd hx (Nat.not_lt.mpr (rows_bounds L x hxin).1)
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1v
    icases HI with ⟨-, Htab, Hsrc, Hdst, ⟨%fo, Hout, %hfo⟩, H0, H1, H2, H3, H4, Hs5, Hs6, Hc0, Hc1, Hc2, HO⟩
    have hcongr : ∀ i ∈ outRows L, fo i = outBuf (F := F) d TAB SRC DST hsrc hdst i := fun i hi =>
      hfo i hi (by rw [trips_eq]; exact (rows_bounds L i hi).2)
    isplitl [Htab Hsrc Hdst Hout]
    · isplitl [Htab]; · iexact Htab
      isplitl [Hsrc]; · iexact Hsrc
      isplitl [Hdst]; · iexact Hdst
      iapply (Entails.of_eq (pointsTo_congr hcongr)); iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile
-- ==== Proof.EdgeTile3B.lean ====
/-
  One vector subcore's task of the edge kernel (the second SparseCore call), with what it writes.

  The frame statement of the task is in the module this one imports. Here the same run is followed with the values: in
  chunk `k` of tile `L`, after the two index copies the lists hold words `[e0, e0 + 64)` of the two index arrays,
  `e0 = 25600 wid + 64 k`; after the two gathers the buffers hold, at `(i, c)`, the table at the row the `i`-th word
  names, column `c`; trip `r` of the row loop stores the four sixteen-lane pieces of row `r` of the result,
  `max(a[r, j] + b[r, 64 + j], 0)`, and leaves the rows below alone; the copy-out lands the 64 rows on the chunk's rows
  of the output and leaves the rows of the chunks below alone. So before chunk `k` every element `(e, j)` of the tile's
  rows with `e` below the chunk's first edge holds `max(tab[src2 e, j] + tab[dst2 e, 64 + j], 0)`, and after the last
  chunk all of the tile's rows do.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit
import Idealize.ShloMosaic.Lib.Writes
import proofs.«215677_g32066225832048_cont_9to1_32_28_alg».proof.Proof.EdgeTile3

noncomputable section

namespace Cert.Proof.EdgeTile3

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

local notation "𝕄" => MT nD τ sig (HIx 3) (Elt F) ℕ UU ℕ

local notation "tabW" => (Memref.whole Cert.KernelIdeal.main_v50_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v51_scv : Memref Cert.KernelIdeal.sig Kind.scVector Space.hbm Cert.KernelIdeal.S819200x64 EltTy.f32)
local notation "s0W" => (Memref.whole Cert.KernelIdeal.cc3_scratch0 : Memref Cert.KernelIdeal.sig Kind.scVector Space.vmem Cert.KernelIdeal.S64 EltTy.i32)
local notation "s1W" => (Memref.whole Cert.KernelIdeal.cc3_scratch1 : Memref Cert.KernelIdeal.sig Kind.scVector Space.vmem Cert.KernelIdeal.S64 EltTy.i32)
local notation "s2W" => (Memref.whole Cert.KernelIdeal.cc3_scratch2 : Memref Cert.KernelIdeal.sig Kind.scVector Space.vmem Cert.KernelIdeal.S64x128 EltTy.f32)
local notation "s3W" => (Memref.whole Cert.KernelIdeal.cc3_scratch3 : Memref Cert.KernelIdeal.sig Kind.scVector Space.vmem Cert.KernelIdeal.S64x128 EltTy.f32)
local notation "s4W" => (Memref.whole Cert.KernelIdeal.cc3_scratch4 : Memref Cert.KernelIdeal.sig Kind.scVector Space.vmem Cert.KernelIdeal.S64x64 EltTy.f32)

/-! ## What the row loop leaves in the result buffer -/

/-- `max(a + b, 0)` on `f32`. -/
def relu2 (a b : F .f32) : F .f32 := FloatOps.maximumf (FloatOps.addf a b) (Scalar.ofBits .f32 0x00000000#32)

/-- Where lane `x` of the result reads the first gathered buffer: the same row and column; -/
def colA (x : S64x64.Idx) : S64x128.Idx := fun a => match a with
  | ⟨0, _⟩ => (⟨(x 0).val, (x 0).isLt⟩ : Fin 64)
  | ⟨1, _⟩ => (⟨(x 1).val, Nat.lt_of_lt_of_le (x 1).isLt (by decide)⟩ : Fin 128)

/-- and the second: the same row, 64 columns on. -/
def colB (x : S64x64.Idx) : S64x128.Idx := fun a => match a with
  | ⟨0, _⟩ => (⟨(x 0).val, (x 0).isLt⟩ : Fin 64)
  | ⟨1, _⟩ => (⟨64 + (x 1).val, by have h : (x 1).val < 64 := (x 1).isLt; omega⟩ : Fin 128)

/-- Lane `x` of the result: `max(a[x 0, x 1] + b[x 0, 64 + x 1], 0)`. -/
def rowVal (a b : S64x128.Idx → F .f32) (x : S64x64.Idx) : F .f32 := relu2 (a (colA x)) (b (colB x))

/-- Sixteen lanes at once are each lane's. -/
theorem lane (a b : S1x16.Idx → F .f32) (y : S1x16.Idx) :
    shapeCast S1x16 (maximumf (addf (shapeCast S16 a shapeCasts_S1x16_S16) (shapeCast S16 b shapeCasts_S1x16_S16)) (k3_pay1 (F := F)))
        shapeCasts_S16_S1x16 y = relu2 (a y) (b y) := by
  unfold shapeCast maximumf addf k3_pay1 broadcast relu2
  simp only [Shape.reshapeEquiv_reshapeEquiv, Shape.reshapeEquiv_self]

/-- A load of sixteen lanes of a gathered buffer at the result piece's row and column reads what `colA` names; -/
theorem colA_emb (offA offP : Fin 2 → Nat) (hA : ∀ a, offA a + S1x16.size a ≤ S64x128.size a) (hP : ∀ a, offP a + S1x16.size a ≤ S64x64.size a)
    (e0 : offA 0 = offP 0) (e1 : offA 1 = offP 1) (y : S1x16.Idx) :
    (Rect.unit (s := S64x128) offA S1x16.size hA).toLoadRect.idx y = colA ((Rect.unit (s := S64x64) offP S1x16.size hP).emb y) := by
  funext a; apply Fin.ext
  match a with
  | ⟨0, _⟩ => show offA 0 + 1 * (y 0).val = offP 0 + 1 * (y 0).val; rw [e0]
  | ⟨1, _⟩ => show offA 1 + 1 * (y 1).val = offP 1 + 1 * (y 1).val; rw [e1]

/-- 64 columns on, what `colB` names. -/
theorem colB_emb (offB offP : Fin 2 → Nat) (hB : ∀ a, offB a + S1x16.size a ≤ S64x128.size a) (hP : ∀ a, offP a + S1x16.size a ≤ S64x64.size a)
    (e0 : offB 0 = offP 0) (e1 : offB 1 = 64 + offP 1) (y : S1x16.Idx) :
    (Rect.unit (s := S64x128) offB S1x16.size hB).toLoadRect.idx y = colB ((Rect.unit (s := S64x64) offP S1x16.size hP).emb y) := by
  funext a; apply Fin.ext
  match a with
  | ⟨0, _⟩ => show offB 0 + 1 * (y 0).val = offP 0 + 1 * (y 0).val; rw [e0]
  | ⟨1, _⟩ => show offB 1 + 1 * (y 1).val = 64 + (offP 1 + 1 * (y 1).val); rw [e1]; omega

set_option maxHeartbeats 4000000 in
/-- One stored piece of a row: sixteen lanes of the two gathered buffers, added and clamped, are `rowVal` there. -/
theorem piece_val (d : Dev nD) (L : grid3.Coords) (A : Buf (Elt F) ((s2W).view.loc (thr d L))) (B : Buf (Elt F) ((s3W).view.loc (thr d L)))
    (offA offB offP : Fin 2 → Nat) (hA : ∀ a, offA a + S1x16.size a ≤ S64x128.size a) (hB : ∀ a, offB a + S1x16.size a ≤ S64x128.size a)
    (hP : ∀ a, offP a + S1x16.size a ≤ S64x64.size a)
    (a0 : offA 0 = offP 0) (a1 : offA 1 = offP 1) (b0 : offB 0 = offP 0) (b1 : offB 1 = 64 + offP 1) (y : S1x16.Idx) :
    shapeCast S1x16 (maximumf (addf
        (shapeCast S16 (View.readAt (Elt F) (s2W).view (Rect.unit (s := S64x128) offA S1x16.size hA).toLoadRect A) shapeCasts_S1x16_S16)
        (shapeCast S16 (View.readAt (Elt F) (s3W).view (Rect.unit (s := S64x128) offB S1x16.size hB).toLoadRect B) shapeCasts_S1x16_S16))
        (k3_pay1 (F := F))) shapeCasts_S16_S1x16 y
      = rowVal (View.read (Elt F) (s2W).view A) (View.read (Elt F) (s3W).view B) ((Rect.unit (s := S64x64) offP S1x16.size hP).emb y) := by
  rw [lane]
  unfold rowVal
  rw [View.readAt_apply, View.readAt_apply, colA_emb offA offP hA hP a0 a1 y, colB_emb offB offP hB hP b0 b1 y]

/-- The sixteen lanes one store of the row loop writes: loads at `offA` and `offB` of the two gathered buffers, added, clamped at zero. -/
def pv (d : Dev nD) (L : grid3.Coords) (A : Buf (Elt F) ((s2W).view.loc (thr d L))) (B : Buf (Elt F) ((s3W).view.loc (thr d L)))
    (offA offB : Fin 2 → Nat) (hA : ∀ a, offA a + S1x16.size a ≤ S64x128.size a) (hB : ∀ a, offB a + S1x16.size a ≤ S64x128.size a) : S1x16.Idx → F .f32 :=
  shapeCast S1x16 (maximumf (addf
      (shapeCast S16 (View.readAt (Elt F) (s2W).view (Rect.unit (s := S64x128) offA S1x16.size hA).toLoadRect A) shapeCasts_S1x16_S16)
      (shapeCast S16 (View.readAt (Elt F) (s3W).view (Rect.unit (s := S64x128) offB S1x16.size hB).toLoadRect B) shapeCasts_S1x16_S16))
      (k3_pay1 (F := F))) shapeCasts_S16_S1x16

/-- The four pieces trip `r` of the row loop stores, the last first. -/
def rowPieces (d : Dev nD) (L : grid3.Coords) (A : Buf (Elt F) ((s2W).view.loc (thr d L))) (B : Buf (Elt F) ((s3W).view.loc (thr d L)))
    (r : Fin k3_t2_loop.trips) : List (View.Piece (Elt F) S64x64 .f32) :=
  [⟨Rect.unit (s := S64x64) (k3_off13 r) S1x16.size (k3_off13_inb r), pv d L A B (k3_off11 r) (k3_off12 r) (k3_off11_inb r) (k3_off12_inb r)⟩,
   ⟨Rect.unit (s := S64x64) (k3_off10 r) S1x16.size (k3_off10_inb r), pv d L A B (k3_off8 r) (k3_off9 r) (k3_off8_inb r) (k3_off9_inb r)⟩,
   ⟨Rect.unit (s := S64x64) (k3_off7 r) S1x16.size (k3_off7_inb r), pv d L A B (k3_off5 r) (k3_off6 r) (k3_off5_inb r) (k3_off6_inb r)⟩,
   ⟨Rect.unit (s := S64x64) (k3_off4 r) S1x16.size (k3_off4_inb r), pv d L A B (k3_off2 r) (k3_off3 r) (k3_off2_inb r) (k3_off3_inb r)⟩]

set_option maxHeartbeats 4000000 in
/-- Trip `r` of the row loop completes row `r` and leaves the rows below it alone. -/
theorem row_step (d : Dev nD) (L : grid3.Coords) (A : Buf (Elt F) ((s2W).view.loc (thr d L))) (B : Buf (Elt F) ((s3W).view.loc (thr d L)))
    (r : Fin k3_t2_loop.trips) (f : Buf (Elt F) ((s4W).view.loc (thr d L)))
    (hf : ∀ x : S64x64.Idx, (x 0).val < r.val →
      View.read (Elt F) (s4W).view f x = rowVal (View.read (Elt F) (s2W).view A) (View.read (Elt F) (s3W).view B) x) :
    ∀ x : S64x64.Idx, (x 0).val < r.val + 1 →
      View.read (Elt F) (s4W).view ((s4W).view.writes (Elt F) f (rowPieces d L A B r)) x
        = rowVal (View.read (Elt F) (s2W).view A) (View.read (Elt F) (s3W).view B) x := by
  intro x hx
  have hr : r.val < 64 := Nat.lt_of_lt_of_le r.isLt k3_t2_abs.2.1
  have e4 := k3_off4_eq r; have e7 := k3_off7_eq r; have e10 := k3_off10_eq r; have e13 := k3_off13_eq r
  have e2 := k3_off2_eq r; have e3 := k3_off3_eq r; have e5 := k3_off5_eq r; have e6 := k3_off6_eq r
  have e8 := k3_off8_eq r; have e9 := k3_off9_eq r; have e11 := k3_off11_eq r; have e12 := k3_off12_eq r
  by_cases hlt : (x 0).val < r.val
  · rw [View.read_writes_apply_of_forall_not_mem]
    · exact hf x hlt
    · intro p hp
      unfold rowPieces at hp
      simp only [List.mem_cons, List.not_mem_nil, _root_.or_false] at hp
      rcases hp with rfl | rfl | rfl | rfl <;> intro hm
      · have h0 := (Rect.mem_set_unit (s := S64x64) (off := k3_off13 r) (size := S1x16.size) (inb := k3_off13_inb r) (i := x)).mp hm 0
        rw [e13] at h0; have : (![r.val, 48] : Fin 2 → Nat) 0 = r.val := rfl; omega
      · have h0 := (Rect.mem_set_unit (s := S64x64) (off := k3_off10 r) (size := S1x16.size) (inb := k3_off10_inb r) (i := x)).mp hm 0
        rw [e10] at h0; have : (![r.val, 32] : Fin 2 → Nat) 0 = r.val := rfl; omega
      · have h0 := (Rect.mem_set_unit (s := S64x64) (off := k3_off7 r) (size := S1x16.size) (inb := k3_off7_inb r) (i := x)).mp hm 0
        rw [e7] at h0; have : (![r.val, 16] : Fin 2 → Nat) 0 = r.val := rfl; omega
      · have h0 := (Rect.mem_set_unit (s := S64x64) (off := k3_off4 r) (size := S1x16.size) (inb := k3_off4_inb r) (i := x)).mp hm 0
        rw [e4] at h0; have : (![r.val, 0] : Fin 2 → Nat) 0 = r.val := rfl; omega
  · have hx0 : (x 0).val = r.val := by omega
    refine View.read_writes_apply_of_pieces _ _ _ _ ?hG x ?hcov
    case hG =>
      intro p hp y
      unfold rowPieces at hp
      simp only [List.mem_cons, List.not_mem_nil, _root_.or_false] at hp
      rcases hp with rfl | rfl | rfl | rfl
      · exact piece_val d L A B (k3_off11 r) (k3_off12 r) (k3_off13 r) (k3_off11_inb r) (k3_off12_inb r) (k3_off13_inb r) (by rw [e11, e13]) (by rw [e11, e13]) (by rw [e12, e13]; rfl) (by rw [e12, e13]; rfl) y
      · exact piece_val d L A B (k3_off8 r) (k3_off9 r) (k3_off10 r) (k3_off8_inb r) (k3_off9_inb r) (k3_off10_inb r) (by rw [e8, e10]) (by rw [e8, e10]) (by rw [e9, e10]; rfl) (by rw [e9, e10]; rfl) y
      · exact piece_val d L A B (k3_off5 r) (k3_off6 r) (k3_off7 r) (k3_off5_inb r) (k3_off6_inb r) (k3_off7_inb r) (by rw [e5, e7]) (by rw [e5, e7]) (by rw [e6, e7]; rfl) (by rw [e6, e7]; rfl) y
      · exact piece_val d L A B (k3_off2 r) (k3_off3 r) (k3_off4 r) (k3_off2_inb r) (k3_off3_inb r) (k3_off4_inb r) (by rw [e2, e4]) (by rw [e2, e4]) (by rw [e3, e4]; rfl) (by rw [e3, e4]; rfl) y
    case hcov =>
      have h1 : (x 1).val < 64 := (x 1).isLt
      unfold rowPieces
      by_cases c1 : (x 1).val < 16
      · refine ⟨_, (List.mem_cons_of_mem _ (List.mem_cons_of_mem _ (List.mem_cons_of_mem _ List.mem_cons_self))), (Rect.mem_set_unit (s := S64x64) (off := k3_off4 r) (size := S1x16.size) (inb := k3_off4_inb r) (i := x)).mpr fun a => ?_⟩
        rw [e4]
        match a with
        | 0 => show r.val ≤ (x 0).val ∧ (x 0).val < r.val + 1; omega
        | 1 => show 0 ≤ (x 1).val ∧ (x 1).val < 0 + 16; omega
      · by_cases c2 : (x 1).val < 32
        · refine ⟨_, (List.mem_cons_of_mem _ (List.mem_cons_of_mem _ List.mem_cons_self)), (Rect.mem_set_unit (s := S64x64) (off := k3_off7 r) (size := S1x16.size) (inb := k3_off7_inb r) (i := x)).mpr fun a => ?_⟩
          rw [e7]
          match a with
          | 0 => show r.val ≤ (x 0).val ∧ (x 0).val < r.val + 1; omega
          | 1 => show 16 ≤ (x 1).val ∧ (x 1).val < 16 + 16; omega
        · by_cases c3 : (x 1).val < 48
          · refine ⟨_, (List.mem_cons_of_mem _ List.mem_cons_self), (Rect.mem_set_unit (s := S64x64) (off := k3_off10 r) (size := S1x16.size) (inb := k3_off10_inb r) (i := x)).mpr fun a => ?_⟩
            rw [e10]
            match a with
            | 0 => show r.val ≤ (x 0).val ∧ (x 0).val < r.val + 1; omega
            | 1 => show 32 ≤ (x 1).val ∧ (x 1).val < 32 + 16; omega
          · refine ⟨_, List.mem_cons_self, (Rect.mem_set_unit (s := S64x64) (off := k3_off13 r) (size := S1x16.size) (inb := k3_off13_inb r) (i := x)).mpr fun a => ?_⟩
            rw [e13]
            match a with
            | 0 => show r.val ≤ (x 0).val ∧ (x 0).val < r.val + 1; omega
            | 1 => show 48 ≤ (x 1).val ∧ (x 1).val < 48 + 16; omega

/-! ## What a gather delivers -/

/-- Entry `k` of a 64-entry list; row `n`, column `c` of the table; word `e` of an index array. -/
def ix64 (k : Fin 64) : S64.Idx := fun a => match a with | ⟨0, _⟩ => k
def ixT (n : Nat) (hn : n < 50008) (c : Nat) (hc : c < 128) : S50008x128.Idx := fun a => match a with
  | ⟨0, _⟩ => (⟨n, hn⟩ : Fin 50008)
  | ⟨1, _⟩ => (⟨c, hc⟩ : Fin 128)
def ix1 (e : Nat) (he : e < 819200) : S819200.Idx := fun a => match a with | ⟨0, _⟩ => (⟨e, he⟩ : Fin 819200)

theorem ixT_congr {n n' c c' : Nat} {hn hn' hc hc'} (en : n = n') (ec : c = c') : ixT n hn c hc = ixT n' hn' c' hc' := by
  subst en; subst ec; rfl
theorem ix1_congr {e e' : Nat} {he he'} (h : e = e') : ix1 e he = ix1 e' he' := by subst h; rfl

theorem rowMajor_symm_S64 (k : Fin S64.numel) : S64.rowMajor.symm k = ix64 (k.cast (by decide)) := by
  rw [Equiv.symm_apply_eq]; apply Fin.ext; rw [Shape.rowMajor_val_one]; rfl

set_option maxHeartbeats 4000000 in
/-- The gathered buffer at `(i, c)` is the source at the row entry `i` of the list names, column `c`. -/
theorem gather_read (g : S50008x128.Idx → Elt F .f32) (list : S64.Idx → Elt F .i32)
    (hn : S64.numel = S64x128.size gathers_S50008x128_S64x128.axis')
    (hin : ∀ x, (list x).toNat < S50008x128.size gathers_S50008x128_S64x128.axis) (x : S64x128.Idx) :
    SparseCore.gatherPayload gathers_S50008x128_S64x128 g (SparseCore.rows list hn hin) x
      = g (ixT (list (ix64 (x 0))).toNat (hin _) (x 1).val (x 1).isLt) := by
  unfold SparseCore.gatherPayload
  congr 1
  funext b; apply Fin.ext
  match b with
  | ⟨0, _⟩ =>
    unfold Shape.Gathers.idx
    rw [dif_pos rfl]
    show (SparseCore.rows list hn hin (x gathers_S50008x128_S64x128.axis')).val = _
    unfold SparseCore.rows
    show (list (S64.rowMajor.symm _)).toNat = (list (ix64 (x 0))).toNat
    rw [rowMajor_symm_S64]; rfl
  | ⟨1, _⟩ =>
    exact Shape.Gathers.idx_of_ne gathers_S50008x128_S64x128 _ x ⟨1, by decide⟩ (by decide)

/-! ## What a chunk of the output holds -/

/-- The first edge of chunk `k` of tile `L`. -/
def e0 (L : grid3.Coords) (k : Nat) : Nat := 409600 * (L 0).val + 25600 * (L 1).val + 64 * k

theorem e0_lt (L : grid3.Coords) (k : Fin k3_t1_loop.trips) (i : Nat) (hi : i < 64) : e0 L k.val + i < 819200 := by
  have hk : k.val < 400 := Nat.lt_of_lt_of_le k.isLt k3_t1_abs.2.1
  have h0 : (L 0).val < 2 := (L 0).isLt
  have h1 : (L 1).val < 16 := (L 1).isLt
  unfold e0; omega

/-- Element `x = (e, j)` of the output as the kernel computes it from the table and the two index arrays:
    `max(tab[src2 e, j] + tab[dst2 e, 64 + j], 0)`. -/
def outVal (TABr : S50008x128.Idx → F .f32) (SRCr DSTr : S819200.Idx → Elt F .i32)
    (hs : ∀ j, (SRCr j).toNat < 50008) (hd : ∀ j, (DSTr j).toNat < 50008) (x : S819200x64.Idx) : F .f32 :=
  relu2 (TABr (ixT (SRCr (ix1 (x 0).val (x 0).isLt)).toNat (hs _) (x 1).val (Nat.lt_of_lt_of_le (x 1).isLt (by decide))))
    (TABr (ixT (DSTr (ix1 (x 0).val (x 0).isLt)).toNat (hd _) (64 + (x 1).val) (by have h : (x 1).val < 64 := (x 1).isLt; omega)))

/-- A gathered buffer of chunk `k` holds, at `(i, c)`, the table at the row word `e0 + i` of the index array names, column `c`. -/
def Gath (L : grid3.Coords) (k : Fin k3_t1_loop.trips) (TABr : S50008x128.Idx → F .f32) (Ir : S819200.Idx → Elt F .i32)
    (hI : ∀ j, (Ir j).toNat < 50008) (A : S64x128.Idx → F .f32) : Prop :=
  ∀ x : S64x128.Idx, A x = TABr (ixT (Ir (ix1 (e0 L k.val + (x 0).val) (e0_lt L k _ (x 0).isLt))).toNat (hI _) (x 1).val (x 1).isLt)

set_option maxHeartbeats 4000000 in
/-- With both gathered buffers so, a lane of the result is the output's element at its place in the chunk. -/
theorem chunk_val (L : grid3.Coords) (k : Fin k3_t1_loop.trips) (TABr : S50008x128.Idx → F .f32) (SRCr DSTr : S819200.Idx → Elt F .i32)
    (hs : ∀ j, (SRCr j).toNat < 50008) (hd : ∀ j, (DSTr j).toNat < 50008) (A B : S64x128.Idx → F .f32)
    (hA : Gath L k TABr SRCr hs A) (hB : Gath L k TABr DSTr hd B) (y : S64x64.Idx) :
    rowVal A B y = outVal TABr SRCr DSTr hs hd ((Rect.unit (s := S819200x64) (k3_off14 L k) S64x64.size (k3_off14_inb L k)).emb y) := by
  unfold rowVal outVal
  rw [hA (colA y), hB (colB y)]
  have e := k3_off14_eq L k
  have c0 : (((Rect.unit (s := S819200x64) (k3_off14 L k) S64x64.size (k3_off14_inb L k)).emb y) 0).val = e0 L k.val + (y 0).val := by
    show k3_off14 L k 0 + 1 * (y 0).val = _
    rw [e]; show 409600 * (L 0).val + 25600 * (L 1).val + 64 * k.val + 1 * (y 0).val = _; unfold e0; omega
  have c1 : (((Rect.unit (s := S819200x64) (k3_off14 L k) S64x64.size (k3_off14_inb L k)).emb y) 1).val = (y 1).val := by
    show k3_off14 L k 1 + 1 * (y 1).val = _
    rw [e]; show 0 + 1 * (y 1).val = _; omega
  congr 2
  · exact ixT_congr (congrArg BitVec.toNat (congrArg SRCr (ix1_congr c0.symm))) c1.symm
  · exact ixT_congr (congrArg BitVec.toNat (congrArg DSTr (ix1_congr c0.symm))) (by show 64 + (y 1).val = 64 + _; rw [c1])

set_option maxHeartbeats 4000000 in
/-- After the chunk's index copy and its gather, the gathered buffer holds the table's rows the index array names. -/
theorem gathA (d : Dev nD) (L : grid3.Coords) (k : Fin k3_t1_loop.trips)
    (TAB : Buf (Elt F) ((tabW).view.loc (thr d L))) (SRC : Buf (Elt F) ((srcW).view.loc (thr d L)))
    (hsrc : ∀ j, (SRC j).toNat < 50008)
    (f0 : Buf (Elt F) ((s0W).view.loc (thr d L))) (f2 : Buf (Elt F) ((s2W).view.loc (thr d L)))
    (hn : S64.numel = S64x128.size gathers_S50008x128_S64x128.axis')
    (hin : ∀ x, (View.read (Elt F) (s0W).view (View.write (Elt F) (s0W).view f0
        (ReadAs.same.apply (View.read (Elt F) ((srcW).slice (Rect.unit (s := S819200) (k3_off1 L k) S64.size (k3_off1_inb L k)) (fun _ => rfl)).view SRC))
        Finset.univ) x).toNat < S50008x128.size gathers_S50008x128_S64x128.axis) :
    Gath L k (View.read (Elt F) (tabW).view TAB) (View.read (Elt F) (srcW).view SRC) (fun j => hsrc j)
      (View.read (Elt F) (s2W).view ((s2W).view.writes (Elt F) f2 [⟨Rect.whole cc3_scratch2.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s0W).view (View.write (Elt F) (s0W).view f0
            (ReadAs.same.apply (View.read (Elt F) ((srcW).slice (Rect.unit (s := S819200) (k3_off1 L k) S64.size (k3_off1_inb L k)) (fun _ => rfl)).view SRC))
            Finset.univ)) hn hin)⟩])) := by
  intro x
  have ex : (Rect.whole cc3_scratch2.ty.shape).emb x = x := Rect.emb_whole_apply S64x128 x
  conv_lhs => rw [← ex]
  rw [View.read_writes_cons_emb, gather_read]
  have e := k3_off1_eq L k
  -- the list's entry is the index array's word at the chunk's place
  have hl : (View.read (Elt F) (s0W).view (View.write (Elt F) (s0W).view f0
        (ReadAs.same.apply (View.read (Elt F) ((srcW).slice (Rect.unit (s := S819200) (k3_off1 L k) S64.size (k3_off1_inb L k)) (fun _ => rfl)).view SRC))
        Finset.univ) (ix64 (x 0)))
      = View.read (Elt F) (srcW).view SRC (ix1 (e0 L k.val + (x 0).val) (e0_lt L k _ (x 0).isLt)) := by
    simp only [Memref.view_whole, View.write_whole_univ, View.read_whole, ReadAs.apply_same]
    show SRC _ = SRC _
    congr 1
    funext a; apply Fin.ext
    match a with
    | ⟨0, _⟩ =>
      show k3_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s0W).view _ (ix64 (x 0))).toNat = (View.read (Elt F) (srcW).view SRC _).toNat
    rw [hl]; omega
  | ⟨1, _⟩ =>
    show 0 + 1 * (x 1).val = (x 1).val
    omega

set_option maxHeartbeats 4000000 in
/-- The same for the second index array and the second gathered buffer. -/
theorem gathB (d : Dev nD) (L : grid3.Coords) (k : Fin k3_t1_loop.trips)
    (TAB : Buf (Elt F) ((tabW).view.loc (thr d L))) (DST : Buf (Elt F) ((dstW).view.loc (thr d L)))
    (hdst : ∀ j, (DST j).toNat < 50008)
    (f1 : Buf (Elt F) ((s1W).view.loc (thr d L))) (f3 : Buf (Elt F) ((s3W).view.loc (thr d L)))
    (hn : S64.numel = S64x128.size gathers_S50008x128_S64x128.axis')
    (hin : ∀ x, (View.read (Elt F) (s1W).view (View.write (Elt F) (s1W).view f1
        (ReadAs.same.apply (View.read (Elt F) ((dstW).slice (Rect.unit (s := S819200) (k3_off1 L k) S64.size (k3_off1_inb L k)) (fun _ => rfl)).view DST))
        Finset.univ) x).toNat < S50008x128.size gathers_S50008x128_S64x128.axis) :
    Gath L k (View.read (Elt F) (tabW).view TAB) (View.read (Elt F) (dstW).view DST) (fun j => hdst j)
      (View.read (Elt F) (s3W).view ((s3W).view.writes (Elt F) f3 [⟨Rect.whole cc3_scratch3.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s1W).view (View.write (Elt F) (s1W).view f1
            (ReadAs.same.apply (View.read (Elt F) ((dstW).slice (Rect.unit (s := S819200) (k3_off1 L k) S64.size (k3_off1_inb L k)) (fun _ => rfl)).view DST))
            Finset.univ)) hn hin)⟩])) := by
  intro x
  have ex : (Rect.whole cc3_scratch3.ty.shape).emb x = x := Rect.emb_whole_apply S64x128 x
  conv_lhs => rw [← ex]
  rw [View.read_writes_cons_emb, gather_read]
  have e := k3_off1_eq L k
  -- the list's entry is the index array's word at the chunk's place
  have hl : (View.read (Elt F) (s1W).view (View.write (Elt F) (s1W).view f1
        (ReadAs.same.apply (View.read (Elt F) ((dstW).slice (Rect.unit (s := S819200) (k3_off1 L k) S64.size (k3_off1_inb L k)) (fun _ => rfl)).view DST))
        Finset.univ) (ix64 (x 0)))
      = View.read (Elt F) (dstW).view DST (ix1 (e0 L k.val + (x 0).val) (e0_lt L k _ (x 0).isLt)) := by
    simp only [Memref.view_whole, View.write_whole_univ, View.read_whole, ReadAs.apply_same]
    show DST _ = DST _
    congr 1
    funext a; apply Fin.ext
    match a with
    | ⟨0, _⟩ =>
      show k3_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s1W).view _ (ix64 (x 0))).toNat = (View.read (Elt F) (dstW).view DST _).toNat
    rw [hl]; omega
  | ⟨1, _⟩ =>
    show 0 + 1 * (x 1).val = (x 1).val
    omega

/-! ## The rows of the chunks done so far -/

/-- Before chunk `n`, every element of the tile's rows below the chunk's first edge holds the kernel's value. -/
def Done (L : grid3.Coords) (TABr : S50008x128.Idx → F .f32) (SRCr DSTr : S819200.Idx → Elt F .i32)
    (hs : ∀ j, (SRCr j).toNat < 50008) (hd : ∀ j, (DSTr j).toNat < 50008) (n : Nat) (fo : S819200x64.Idx → F .f32) : Prop :=
  ∀ x ∈ outRows L, (x 0).val < e0 L n → fo x = outVal TABr SRCr DSTr hs hd x

set_option maxHeartbeats 4000000 in
/-- Chunk `k`'s copy-out, landing `w` on the chunk's rows, completes the chunk and leaves the rows below alone. -/
theorem done_step (d : Dev nD) (L : grid3.Coords) (k : Fin k3_t1_loop.trips) (TABr : S50008x128.Idx → F .f32) (SRCr DSTr : S819200.Idx → Elt F .i32)
    (hs : ∀ j, (SRCr j).toNat < 50008) (hd : ∀ j, (DSTr j).toNat < 50008)
    (fo : Buf (Elt F) ((outW).view.loc (thr d L))) (w : S64x64.Idx → F .f32)
    (hw : ∀ y, w y = outVal TABr SRCr DSTr hs hd ((Rect.unit (s := S819200x64) (k3_off14 L k) S64x64.size (k3_off14_inb L k)).emb y))
    (hfo : Done L TABr SRCr DSTr hs hd k.val (View.read (Elt F) (outW).view fo)) :
    Done L TABr SRCr DSTr hs hd (k.val + 1) (View.read (Elt F) (outW).view
      (((outChunk L k).view.set).piecewise ((outChunk L k).view.writes (Elt F) fo [⟨Rect.whole S64x64, w⟩]) fo)) := by
  intro x hxin hx
  by_cases hm : x ∈ (outChunk L k).view.set
  · show (((outChunk L k).view.set).piecewise ((outChunk L k).view.writes (Elt F) fo [⟨Rect.whole S64x64, w⟩]) fo) x = _
    rw [Finset.piecewise_eq_of_mem _ _ _ hm]
    rw [chunk_set] at hm
    obtain ⟨y, rfl⟩ := (Rect.unit (s := S819200x64) (k3_off14 L k) S64x64.size (k3_off14_inb L k)).exists_idx_of_mem hm
    refine Eq.trans ?_ (hw y)
    have ey : (Rect.whole S64x64).emb y = y := Rect.emb_whole_apply S64x64 y
    have := View.read_writes_cons_emb (Val := Elt F) (outChunk L k).view fo (Rect.whole S64x64) w [] y
    rw [ey] at this
    exact this
  · show (((outChunk L k).view.set).piecewise ((outChunk L k).view.writes (Elt F) fo [⟨Rect.whole S64x64, w⟩]) fo) x = _
    rw [Finset.piecewise_eq_of_notMem _ _ _ hm]
    refine hfo x hxin ?_
    by_contra hge
    apply hm
    rw [chunk_set]
    refine Rect.mem_set_unit.mpr fun a => ?_
    have e := k3_off14_eq L k
    rw [e]
    have h1 : (x 1).val < 64 := (x 1).isLt
    match a with
    | 0 =>
      show 409600 * (L 0).val + 25600 * (L 1).val + 64 * k.val ≤ (x 0).val ∧ (x 0).val < 409600 * (L 0).val + 25600 * (L 1).val + 64 * k.val + 64
      unfold e0 at hx hge; omega
    | 1 =>
      show 0 ≤ (x 1).val ∧ (x 1).val < 0 + 64
      omega

theorem trips_eq : k3_t1_loop.trips = 400 := by decide
theorem trips2_eq : Scf.trips k3_t2_loop.lb k3_t2_loop.ub k3_t2_loop.st = 64 := by decide

/-- The tile's rows run from its first chunk's first edge to its last chunk's last. -/
theorem rows_bounds (L : grid3.Coords) (x : S819200x64.Idx) (hx : x ∈ outRows L) : e0 L 0 ≤ (x 0).val ∧ (x 0).val < e0 L 400 := by
  have h := (Rect.mem_set_unit.mp hx) 0
  have h0 : (L 0).val < 2 := (L 0).isLt
  have h1 : (L 1).val < 16 := (L 1).isLt
  have e : (S819200x64.partIx 0 (wid L).val 0) * (S819200x64.partSize 0 32 0) = 409600 * (L 0).val + 25600 * (L 1).val := by
    show (16 * (L 0).val + (L 1).val) * (819200 / 32) = _
    omega
  have e2 : S819200x64.partSize 0 32 0 = 25600 := rfl
  change S819200x64.partIx 0 (wid L).val 0 * S819200x64.partSize 0 32 0 ≤ _
    ∧ _ < S819200x64.partIx 0 (wid L).val 0 * S819200x64.partSize 0 32 0 + S819200x64.partSize 0 32 0 at h
  rw [e, e2] at h
  unfold e0; omega

/-! ## One tile's task, with what it writes -/

abbrev rdT (d : Dev nD) (L : grid3.Coords) (TAB : Buf (Elt F) ((tabW).view.loc (thr d L))) : S50008x128.Idx → F .f32 := View.read (Elt F) (tabW).view TAB
abbrev rdS (d : Dev nD) (L : grid3.Coords) (SRC : Buf (Elt F) ((srcW).view.loc (thr d L))) : S819200.Idx → Elt F .i32 := View.read (Elt F) (srcW).view SRC
abbrev rdD (d : Dev nD) (L : grid3.Coords) (DST : Buf (Elt F) ((dstW).view.loc (thr d L))) : S819200.Idx → Elt F .i32 := View.read (Elt F) (dstW).view DST

/-- The row loop's invariant in chunk `k`: the two gathered buffers hold the table's rows the chunk's index words name,
    and rows below `r` of the result buffer are done. -/
def inv2v (d : Dev nD) (L : grid3.Coords) (k : Fin k3_t1_loop.trips)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008) (r : Nat) (_ : PUnit.{1}) : sProp 𝕄 :=
  iprop(∃ A, ∃ B, ((s2W).view.loc (thr d L) ↦{fullShare} A) ∗ ((s3W).view.loc (thr d L) ↦{fullShare} B)
    ∗ ⌜Gath L k (rdT d L TAB) (rdS d L SRC) (fun j => hsrc j) (View.read (Elt F) (s2W).view A)
        ∧ Gath L k (rdT d L TAB) (rdD d L DST) (fun j => hdst j) (View.read (Elt F) (s3W).view B)⌝
    ∗ ∃ f, ((s4W).view.loc (thr d L) ↦{fullShare} f)
      ∗ ⌜∀ x : S64x64.Idx, (x 0).val < r →
          View.read (Elt F) (s4W).view f x = rowVal (View.read (Elt F) (s2W).view A) (View.read (Elt F) (s3W).view B) x⌝)

/-- The chunk loop's invariant: as `inv1`, and the rows of the chunks below `n` hold the kernel's values. -/
def inv1v (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) (n : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, ((outW).view.loc (thr d L) ↦[outRows L]{fullShare} f)
        ∗ ⌜Done L (rdT d L TAB) (rdS d L SRC) (rdD d L DST) (fun j => hsrc j) (fun j => hdst j) n (View.read (Elt F) (outW).view f)⌝)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc3_scratch5.sem) 0 ∗ semVal (thr d L, SemLoc.dma cc3_scratch6.sem) 0
    ∗ semVal (thr d L, SemLoc.dma cc3_scoped0.sem) 0 ∗ semVal (thr d L, SemLoc.dma cc3_scoped1.sem) 0 ∗ semVal (thr d L, SemLoc.dma cc3_scoped2.sem) 0
    ∗ ∃ W', ⌜∀ p ∈ W', p ∈ W ∨ p.2 = none⌝ ∗ owes (thr d L) O W')

set_option maxHeartbeats 8000000 in
/-- The task of tile `L`: as `tile_core`, and after the last chunk every element of the tile's rows holds the kernel's value. -/
theorem tile_core_val (d : Dev nD) (L : grid3.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1v (F := F) (UU := UU) d L sh TAB SRC DST hsrc hdst O W 0 ⟨⟩
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => inv1v (F := F) (UU := UU) d L sh TAB SRC DST hsrc hdst O W k3_t1_loop.trips ⟨⟩ := by
  simp only [cc3__edge_kernel_eq_skeleton]; unfold cc3__edge_kernel_skel
  iintro HI
  sl_exec
  sl_for (inv1v (F := F) (UU := UU) d L sh TAB SRC DST hsrc hdst O W) $$ [HI]
  case region =>
    intro k _
    unfold inv1v
    iintro ⟨#Hmw, Htab, Hsrc, Hdst, ⟨%fo, Hout, %hfo⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2v (F := F) (UU := UU) d L k TAB SRC DST hsrc hdst) $$ [H2 H3 H4]
    case region =>
      intro r _
      unfold inv2v
      iintro ⟨%A, %B, H2, H3, %hAB, %f, H4, %hf⟩
      sl_exec
      sl_step
      iexists A; iexists B
      isplitl [H2]; · iexact H2
      isplitl [H3]; · iexact H3
      isplitr; · ipureintro; exact hAB
      iexists _; isplitl [H4]; · iexact H4
      ipureintro
      exact row_step (F := F) d L A B r f hf
    · unfold inv2v
      iexists _; iexists _
      isplitl [H2]; · iexact H2
      isplitl [H3]; · iexact H3
      isplitr
      · ipureintro
        exact ⟨gathA (F := F) d L k TAB SRC hsrc f0 _ _ _, gathB (F := F) d L k TAB DST hdst f1 _ _ _⟩
      iexists _; isplitl [H4]; · iexact H4
      ipureintro; intro x hx; exact absurd hx (Nat.not_lt_zero _)
    iintro %_ HI2
    unfold inv2v
    icases HI2 with ⟨%A, %B, H2, H3, %hAB, %f, H4, %hf⟩
    sl_exec
    sl_step
    have ht2 : ∀ y : S64x64.Idx, (y 0).val < Scf.trips k3_t2_loop.lb k3_t2_loop.ub k3_t2_loop.st := fun y => by
      rw [trips2_eq]; exact (y 0).isLt
    have hw : ∀ y : S64x64.Idx, View.read (Elt F) (s4W).view f y
        = outVal (rdT d L TAB) (rdS d L SRC) (rdD d L DST) (fun j => hsrc j) (fun j => hdst j)
            ((Rect.unit (s := S819200x64) (k3_off14 L k) S64x64.size (k3_off14_inb L k)).emb y) :=
      fun y => (hf y (ht2 y)).trans (chunk_val L k _ _ _ _ _ _ _ hAB.1 hAB.2 y)
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iexists _
      isplitl [Hch Hrest]
      · iapply (pointsTo_join_subset (chunk_sub L k)); isplitl [Hch] <;> iassumption
      · ipureintro
        exact done_step (F := F) d L k _ _ _ _ _ fo _ hw hfo
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile, with the values -/

/-- The output as the kernel computes it, every element from the table and the two index arrays: one function for all tiles. -/
abbrev outBuf (d : Dev nD) (TAB : Buf (Elt F) ((SparseCore.T (τ := τ) d).loc main_v50_1)) (SRC : Buf (Elt F) ((SparseCore.T (τ := τ) d).loc main_v6))
    (DST : Buf (Elt F) ((SparseCore.T (τ := τ) d).loc main_v8)) (hsrc : ∀ j, (SRC j).toNat < 50008) (hdst : ∀ j, (DST j).toNat < 50008) :
    Buf (Elt F) ((SparseCore.T (τ := τ) d).loc main_v51) :=
  outVal (View.read (Elt F) (tabW).view TAB) (View.read (Elt F) (srcW).view SRC) (View.read (Elt F) (dstW).view DST) (fun j => hsrc j) (fun j => hdst j)

set_option maxHeartbeats 4000000 in
/-- The task of tile `L` as the launch theorem hands it over (as `tile_body`); the tile's rows of the output come back holding
    `max(tab[src2 e, j] + tab[dst2 e, 64 + j], 0)` at `(e, j)`. -/
theorem tile_body_val (hF : (K (F := F)).Facts) (d : Dev nD) (L : grid3.Coords) (sh : PosShare TreeShare)
    (TAB : Buf (Elt F) ((SparseCore.T d).loc main_v50_1)) (SRC : Buf (Elt F) ((SparseCore.T d).loc main_v6)) (DST : Buf (Elt F) ((SparseCore.T d).loc main_v8))
    (OUT0 : Buf (Elt F) ((SparseCore.T d).loc main_v51))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v50_1 ↦{sh} TAB) ∗ ((SparseCore.T d).loc main_v6 ↦{sh} SRC) ∗ ((SparseCore.T d).loc main_v8 ↦{sh} DST) ∗ ((SparseCore.T d).loc main_v51 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc3__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc3_scratch5 cc3_scratch6 cc3_scoped0 cc3_scoped1 cc3_scoped2)
          fun _ => iprop((((SparseCore.T d).loc main_v50_1 ↦{sh} TAB) ∗ ((SparseCore.T d).loc main_v6 ↦{sh} SRC) ∗ ((SparseCore.T d).loc main_v8 ↦{sh} DST)
              ∗ ((SparseCore.T d).loc main_v51 ↦[outRows L]{fullShare} outBuf (F := F) d TAB SRC DST hsrc hdst))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core_val (F := F) (UU := UU) d L sh TAB SRC DST hsrc hdst O W)
    unfold inv1v
    isplitl [Hmw]; · iexact Hmw
    isplitl [Htab]; · iexact Htab
    isplitl [Hsrc]; · iexact Hsrc
    isplitl [Hdst]; · iexact Hdst
    isplitl [Hout]
    · iexists _; isplitl [Hout]; · iexact Hout
      ipureintro
      intro x hxin hx
      exact absurd hx (Nat.not_lt.mpr (rows_bounds L x hxin).1)
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1v
    icases HI with ⟨-, Htab, Hsrc, Hdst, ⟨%fo, Hout, %hfo⟩, H0, H1, H2, H3, H4, Hs5, Hs6, Hc0, Hc1, Hc2, HO⟩
    have hcongr : ∀ i ∈ outRows L, fo i = outBuf (F := F) d TAB SRC DST hsrc hdst i := fun i hi =>
      hfo i hi (by rw [trips_eq]; exact (rows_bounds L i hi).2)
    isplitl [Htab Hsrc Hdst Hout]
    · isplitl [Htab]; · iexact Htab
      isplitl [Hsrc]; · iexact Hsrc
      isplitl [Hdst]; · iexact Hdst
      iapply (Entails.of_eq (pointsTo_congr hcongr)); iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile3
-- ==== Proof.EdgeTile5B.lean ====
/-
  One vector subcore's task of the edge kernel (the third SparseCore call), with what it writes.

  The frame statement of the task is in the module this one imports. Here the same run is followed with the values: in
  chunk `k` of tile `L`, after the two index copies the lists hold words `[e0, e0 + 64)` of the two index arrays,
  `e0 = 25600 wid + 64 k`; after the two gathers the buffers hold, at `(i, c)`, the table at the row the `i`-th word
  names, column `c`; trip `r` of the row loop stores the four sixteen-lane pieces of row `r` of the result,
  `max(a[r, j] + b[r, 64 + j], 0)`, and leaves the rows below alone; the copy-out lands the 64 rows on the chunk's rows
  of the output and leaves the rows of the chunks below alone. So before chunk `k` every element `(e, j)` of the tile's
  rows with `e` below the chunk's first edge holds `max(tab[src2 e, j] + tab[dst2 e, 64 + j], 0)`, and after the last
  chunk all of the tile's rows do.
-/
import proofs.«215677_g32066225832048_cont_9to1_32_28_alg».proof.Proof.Gen.KernelIdeal
import proofs.«215677_g32066225832048_cont_9to1_32_28_alg».proof.Proof.Gen.KernelIdeal.Skeleton
import Idealize.ShloMosaic.Lib.SparseCore.Launch
import Idealize.ShloMosaic.Lib.SparseCore.Ops
import Idealize.ShloMosaic.Lib.Tactic
import Idealize.ShloMosaic.Lib.Pipeline.Kit
import Idealize.ShloMosaic.Lib.Writes
import proofs.«215677_g32066225832048_cont_9to1_32_28_alg».proof.Proof.EdgeTile5

noncomputable section

namespace Cert.Proof.EdgeTile5

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {UU : Type} [URA UU] [CountersIn UU]

local notation "𝕄" => MT nD τ sig (HIx 3) (Elt F) ℕ UU ℕ

local notation "tabW" => (Memref.whole Cert.KernelIdeal.main_v76_1_scv : Memref Cert.KernelIdeal.sig Kind.scVector Space.hbm Cert.KernelIdeal.S50008x128 EltTy.f32)
local notation "srcW" => (Memref.whole Cert.KernelIdeal.main_v6_scv : Memref Cert.KernelIdeal.sig Kind.scVector Space.hbm Cert.KernelIdeal.S819200 EltTy.i32)
local notation "dstW" => (Memref.whole Cert.KernelIdeal.main_v8_scv : Memref Cert.KernelIdeal.sig Kind.scVector Space.hbm Cert.KernelIdeal.S819200 EltTy.i32)
local notation "outW" => (Memref.whole Cert.KernelIdeal.main_v77_scv : Memref Cert.KernelIdeal.sig Kind.scVector Space.hbm Cert.KernelIdeal.S819200x64 EltTy.f32)
local notation "s0W" => (Memref.whole Cert.KernelIdeal.cc5_scratch0 : Memref Cert.KernelIdeal.sig Kind.scVector Space.vmem Cert.KernelIdeal.S64 EltTy.i32)
local notation "s1W" => (Memref.whole Cert.KernelIdeal.cc5_scratch1 : Memref Cert.KernelIdeal.sig Kind.scVector Space.vmem Cert.KernelIdeal.S64 EltTy.i32)
local notation "s2W" => (Memref.whole Cert.KernelIdeal.cc5_scratch2 : Memref Cert.KernelIdeal.sig Kind.scVector Space.vmem Cert.KernelIdeal.S64x128 EltTy.f32)
local notation "s3W" => (Memref.whole Cert.KernelIdeal.cc5_scratch3 : Memref Cert.KernelIdeal.sig Kind.scVector Space.vmem Cert.KernelIdeal.S64x128 EltTy.f32)
local notation "s4W" => (Memref.whole Cert.KernelIdeal.cc5_scratch4 : Memref Cert.KernelIdeal.sig Kind.scVector Space.vmem Cert.KernelIdeal.S64x64 EltTy.f32)

/-! ## What the row loop leaves in the result buffer -/

/-- `max(a + b, 0)` on `f32`. -/
def relu2 (a b : F .f32) : F .f32 := FloatOps.maximumf (FloatOps.addf a b) (Scalar.ofBits .f32 0x00000000#32)

/-- Where lane `x` of the result reads the first gathered buffer: the same row and column; -/
def colA (x : S64x64.Idx) : S64x128.Idx := fun a => match a with
  | ⟨0, _⟩ => (⟨(x 0).val, (x 0).isLt⟩ : Fin 64)
  | ⟨1, _⟩ => (⟨(x 1).val, Nat.lt_of_lt_of_le (x 1).isLt (by decide)⟩ : Fin 128)

/-- and the second: the same row, 64 columns on. -/
def colB (x : S64x64.Idx) : S64x128.Idx := fun a => match a with
  | ⟨0, _⟩ => (⟨(x 0).val, (x 0).isLt⟩ : Fin 64)
  | ⟨1, _⟩ => (⟨64 + (x 1).val, by have h : (x 1).val < 64 := (x 1).isLt; omega⟩ : Fin 128)

/-- Lane `x` of the result: `max(a[x 0, x 1] + b[x 0, 64 + x 1], 0)`. -/
def rowVal (a b : S64x128.Idx → F .f32) (x : S64x64.Idx) : F .f32 := relu2 (a (colA x)) (b (colB x))

/-- Sixteen lanes at once are each lane's. -/
theorem lane (a b : S1x16.Idx → F .f32) (y : S1x16.Idx) :
    shapeCast S1x16 (maximumf (addf (shapeCast S16 a shapeCasts_S1x16_S16) (shapeCast S16 b shapeCasts_S1x16_S16)) (k5_pay1 (F := F)))
        shapeCasts_S16_S1x16 y = relu2 (a y) (b y) := by
  unfold shapeCast maximumf addf k5_pay1 broadcast relu2
  simp only [Shape.reshapeEquiv_reshapeEquiv, Shape.reshapeEquiv_self]

/-- A load of sixteen lanes of a gathered buffer at the result piece's row and column reads what `colA` names; -/
theorem colA_emb (offA offP : Fin 2 → Nat) (hA : ∀ a, offA a + S1x16.size a ≤ S64x128.size a) (hP : ∀ a, offP a + S1x16.size a ≤ S64x64.size a)
    (e0 : offA 0 = offP 0) (e1 : offA 1 = offP 1) (y : S1x16.Idx) :
    (Rect.unit (s := S64x128) offA S1x16.size hA).toLoadRect.idx y = colA ((Rect.unit (s := S64x64) offP S1x16.size hP).emb y) := by
  funext a; apply Fin.ext
  match a with
  | ⟨0, _⟩ => show offA 0 + 1 * (y 0).val = offP 0 + 1 * (y 0).val; rw [e0]
  | ⟨1, _⟩ => show offA 1 + 1 * (y 1).val = offP 1 + 1 * (y 1).val; rw [e1]

/-- 64 columns on, what `colB` names. -/
theorem colB_emb (offB offP : Fin 2 → Nat) (hB : ∀ a, offB a + S1x16.size a ≤ S64x128.size a) (hP : ∀ a, offP a + S1x16.size a ≤ S64x64.size a)
    (e0 : offB 0 = offP 0) (e1 : offB 1 = 64 + offP 1) (y : S1x16.Idx) :
    (Rect.unit (s := S64x128) offB S1x16.size hB).toLoadRect.idx y = colB ((Rect.unit (s := S64x64) offP S1x16.size hP).emb y) := by
  funext a; apply Fin.ext
  match a with
  | ⟨0, _⟩ => show offB 0 + 1 * (y 0).val = offP 0 + 1 * (y 0).val; rw [e0]
  | ⟨1, _⟩ => show offB 1 + 1 * (y 1).val = 64 + (offP 1 + 1 * (y 1).val); rw [e1]; omega

set_option maxHeartbeats 4000000 in
/-- One stored piece of a row: sixteen lanes of the two gathered buffers, added and clamped, are `rowVal` there. -/
theorem piece_val (d : Dev nD) (L : grid5.Coords) (A : Buf (Elt F) ((s2W).view.loc (thr d L))) (B : Buf (Elt F) ((s3W).view.loc (thr d L)))
    (offA offB offP : Fin 2 → Nat) (hA : ∀ a, offA a + S1x16.size a ≤ S64x128.size a) (hB : ∀ a, offB a + S1x16.size a ≤ S64x128.size a)
    (hP : ∀ a, offP a + S1x16.size a ≤ S64x64.size a)
    (a0 : offA 0 = offP 0) (a1 : offA 1 = offP 1) (b0 : offB 0 = offP 0) (b1 : offB 1 = 64 + offP 1) (y : S1x16.Idx) :
    shapeCast S1x16 (maximumf (addf
        (shapeCast S16 (View.readAt (Elt F) (s2W).view (Rect.unit (s := S64x128) offA S1x16.size hA).toLoadRect A) shapeCasts_S1x16_S16)
        (shapeCast S16 (View.readAt (Elt F) (s3W).view (Rect.unit (s := S64x128) offB S1x16.size hB).toLoadRect B) shapeCasts_S1x16_S16))
        (k5_pay1 (F := F))) shapeCasts_S16_S1x16 y
      = rowVal (View.read (Elt F) (s2W).view A) (View.read (Elt F) (s3W).view B) ((Rect.unit (s := S64x64) offP S1x16.size hP).emb y) := by
  rw [lane]
  unfold rowVal
  rw [View.readAt_apply, View.readAt_apply, colA_emb offA offP hA hP a0 a1 y, colB_emb offB offP hB hP b0 b1 y]

/-- The sixteen lanes one store of the row loop writes: loads at `offA` and `offB` of the two gathered buffers, added, clamped at zero. -/
def pv (d : Dev nD) (L : grid5.Coords) (A : Buf (Elt F) ((s2W).view.loc (thr d L))) (B : Buf (Elt F) ((s3W).view.loc (thr d L)))
    (offA offB : Fin 2 → Nat) (hA : ∀ a, offA a + S1x16.size a ≤ S64x128.size a) (hB : ∀ a, offB a + S1x16.size a ≤ S64x128.size a) : S1x16.Idx → F .f32 :=
  shapeCast S1x16 (maximumf (addf
      (shapeCast S16 (View.readAt (Elt F) (s2W).view (Rect.unit (s := S64x128) offA S1x16.size hA).toLoadRect A) shapeCasts_S1x16_S16)
      (shapeCast S16 (View.readAt (Elt F) (s3W).view (Rect.unit (s := S64x128) offB S1x16.size hB).toLoadRect B) shapeCasts_S1x16_S16))
      (k5_pay1 (F := F))) shapeCasts_S16_S1x16

/-- The four pieces trip `r` of the row loop stores, the last first. -/
def rowPieces (d : Dev nD) (L : grid5.Coords) (A : Buf (Elt F) ((s2W).view.loc (thr d L))) (B : Buf (Elt F) ((s3W).view.loc (thr d L)))
    (r : Fin k5_t2_loop.trips) : List (View.Piece (Elt F) S64x64 .f32) :=
  [⟨Rect.unit (s := S64x64) (k5_off13 r) S1x16.size (k5_off13_inb r), pv d L A B (k5_off11 r) (k5_off12 r) (k5_off11_inb r) (k5_off12_inb r)⟩,
   ⟨Rect.unit (s := S64x64) (k5_off10 r) S1x16.size (k5_off10_inb r), pv d L A B (k5_off8 r) (k5_off9 r) (k5_off8_inb r) (k5_off9_inb r)⟩,
   ⟨Rect.unit (s := S64x64) (k5_off7 r) S1x16.size (k5_off7_inb r), pv d L A B (k5_off5 r) (k5_off6 r) (k5_off5_inb r) (k5_off6_inb r)⟩,
   ⟨Rect.unit (s := S64x64) (k5_off4 r) S1x16.size (k5_off4_inb r), pv d L A B (k5_off2 r) (k5_off3 r) (k5_off2_inb r) (k5_off3_inb r)⟩]

set_option maxHeartbeats 4000000 in
/-- Trip `r` of the row loop completes row `r` and leaves the rows below it alone. -/
theorem row_step (d : Dev nD) (L : grid5.Coords) (A : Buf (Elt F) ((s2W).view.loc (thr d L))) (B : Buf (Elt F) ((s3W).view.loc (thr d L)))
    (r : Fin k5_t2_loop.trips) (f : Buf (Elt F) ((s4W).view.loc (thr d L)))
    (hf : ∀ x : S64x64.Idx, (x 0).val < r.val →
      View.read (Elt F) (s4W).view f x = rowVal (View.read (Elt F) (s2W).view A) (View.read (Elt F) (s3W).view B) x) :
    ∀ x : S64x64.Idx, (x 0).val < r.val + 1 →
      View.read (Elt F) (s4W).view ((s4W).view.writes (Elt F) f (rowPieces d L A B r)) x
        = rowVal (View.read (Elt F) (s2W).view A) (View.read (Elt F) (s3W).view B) x := by
  intro x hx
  have hr : r.val < 64 := Nat.lt_of_lt_of_le r.isLt k5_t2_abs.2.1
  have e4 := k5_off4_eq r; have e7 := k5_off7_eq r; have e10 := k5_off10_eq r; have e13 := k5_off13_eq r
  have e2 := k5_off2_eq r; have e3 := k5_off3_eq r; have e5 := k5_off5_eq r; have e6 := k5_off6_eq r
  have e8 := k5_off8_eq r; have e9 := k5_off9_eq r; have e11 := k5_off11_eq r; have e12 := k5_off12_eq r
  by_cases hlt : (x 0).val < r.val
  · rw [View.read_writes_apply_of_forall_not_mem]
    · exact hf x hlt
    · intro p hp
      unfold rowPieces at hp
      simp only [List.mem_cons, List.not_mem_nil, _root_.or_false] at hp
      rcases hp with rfl | rfl | rfl | rfl <;> intro hm
      · have h0 := (Rect.mem_set_unit (s := S64x64) (off := k5_off13 r) (size := S1x16.size) (inb := k5_off13_inb r) (i := x)).mp hm 0
        rw [e13] at h0; have : (![r.val, 48] : Fin 2 → Nat) 0 = r.val := rfl; omega
      · have h0 := (Rect.mem_set_unit (s := S64x64) (off := k5_off10 r) (size := S1x16.size) (inb := k5_off10_inb r) (i := x)).mp hm 0
        rw [e10] at h0; have : (![r.val, 32] : Fin 2 → Nat) 0 = r.val := rfl; omega
      · have h0 := (Rect.mem_set_unit (s := S64x64) (off := k5_off7 r) (size := S1x16.size) (inb := k5_off7_inb r) (i := x)).mp hm 0
        rw [e7] at h0; have : (![r.val, 16] : Fin 2 → Nat) 0 = r.val := rfl; omega
      · have h0 := (Rect.mem_set_unit (s := S64x64) (off := k5_off4 r) (size := S1x16.size) (inb := k5_off4_inb r) (i := x)).mp hm 0
        rw [e4] at h0; have : (![r.val, 0] : Fin 2 → Nat) 0 = r.val := rfl; omega
  · have hx0 : (x 0).val = r.val := by omega
    refine View.read_writes_apply_of_pieces _ _ _ _ ?hG x ?hcov
    case hG =>
      intro p hp y
      unfold rowPieces at hp
      simp only [List.mem_cons, List.not_mem_nil, _root_.or_false] at hp
      rcases hp with rfl | rfl | rfl | rfl
      · exact piece_val d L A B (k5_off11 r) (k5_off12 r) (k5_off13 r) (k5_off11_inb r) (k5_off12_inb r) (k5_off13_inb r) (by rw [e11, e13]) (by rw [e11, e13]) (by rw [e12, e13]; rfl) (by rw [e12, e13]; rfl) y
      · exact piece_val d L A B (k5_off8 r) (k5_off9 r) (k5_off10 r) (k5_off8_inb r) (k5_off9_inb r) (k5_off10_inb r) (by rw [e8, e10]) (by rw [e8, e10]) (by rw [e9, e10]; rfl) (by rw [e9, e10]; rfl) y
      · exact piece_val d L A B (k5_off5 r) (k5_off6 r) (k5_off7 r) (k5_off5_inb r) (k5_off6_inb r) (k5_off7_inb r) (by rw [e5, e7]) (by rw [e5, e7]) (by rw [e6, e7]; rfl) (by rw [e6, e7]; rfl) y
      · exact piece_val d L A B (k5_off2 r) (k5_off3 r) (k5_off4 r) (k5_off2_inb r) (k5_off3_inb r) (k5_off4_inb r) (by rw [e2, e4]) (by rw [e2, e4]) (by rw [e3, e4]; rfl) (by rw [e3, e4]; rfl) y
    case hcov =>
      have h1 : (x 1).val < 64 := (x 1).isLt
      unfold rowPieces
      by_cases c1 : (x 1).val < 16
      · refine ⟨_, (List.mem_cons_of_mem _ (List.mem_cons_of_mem _ (List.mem_cons_of_mem _ List.mem_cons_self))), (Rect.mem_set_unit (s := S64x64) (off := k5_off4 r) (size := S1x16.size) (inb := k5_off4_inb r) (i := x)).mpr fun a => ?_⟩
        rw [e4]
        match a with
        | 0 => show r.val ≤ (x 0).val ∧ (x 0).val < r.val + 1; omega
        | 1 => show 0 ≤ (x 1).val ∧ (x 1).val < 0 + 16; omega
      · by_cases c2 : (x 1).val < 32
        · refine ⟨_, (List.mem_cons_of_mem _ (List.mem_cons_of_mem _ List.mem_cons_self)), (Rect.mem_set_unit (s := S64x64) (off := k5_off7 r) (size := S1x16.size) (inb := k5_off7_inb r) (i := x)).mpr fun a => ?_⟩
          rw [e7]
          match a with
          | 0 => show r.val ≤ (x 0).val ∧ (x 0).val < r.val + 1; omega
          | 1 => show 16 ≤ (x 1).val ∧ (x 1).val < 16 + 16; omega
        · by_cases c3 : (x 1).val < 48
          · refine ⟨_, (List.mem_cons_of_mem _ List.mem_cons_self), (Rect.mem_set_unit (s := S64x64) (off := k5_off10 r) (size := S1x16.size) (inb := k5_off10_inb r) (i := x)).mpr fun a => ?_⟩
            rw [e10]
            match a with
            | 0 => show r.val ≤ (x 0).val ∧ (x 0).val < r.val + 1; omega
            | 1 => show 32 ≤ (x 1).val ∧ (x 1).val < 32 + 16; omega
          · refine ⟨_, List.mem_cons_self, (Rect.mem_set_unit (s := S64x64) (off := k5_off13 r) (size := S1x16.size) (inb := k5_off13_inb r) (i := x)).mpr fun a => ?_⟩
            rw [e13]
            match a with
            | 0 => show r.val ≤ (x 0).val ∧ (x 0).val < r.val + 1; omega
            | 1 => show 48 ≤ (x 1).val ∧ (x 1).val < 48 + 16; omega

/-! ## What a gather delivers -/

/-- Entry `k` of a 64-entry list; row `n`, column `c` of the table; word `e` of an index array. -/
def ix64 (k : Fin 64) : S64.Idx := fun a => match a with | ⟨0, _⟩ => k
def ixT (n : Nat) (hn : n < 50008) (c : Nat) (hc : c < 128) : S50008x128.Idx := fun a => match a with
  | ⟨0, _⟩ => (⟨n, hn⟩ : Fin 50008)
  | ⟨1, _⟩ => (⟨c, hc⟩ : Fin 128)
def ix1 (e : Nat) (he : e < 819200) : S819200.Idx := fun a => match a with | ⟨0, _⟩ => (⟨e, he⟩ : Fin 819200)

theorem ixT_congr {n n' c c' : Nat} {hn hn' hc hc'} (en : n = n') (ec : c = c') : ixT n hn c hc = ixT n' hn' c' hc' := by
  subst en; subst ec; rfl
theorem ix1_congr {e e' : Nat} {he he'} (h : e = e') : ix1 e he = ix1 e' he' := by subst h; rfl

theorem rowMajor_symm_S64 (k : Fin S64.numel) : S64.rowMajor.symm k = ix64 (k.cast (by decide)) := by
  rw [Equiv.symm_apply_eq]; apply Fin.ext; rw [Shape.rowMajor_val_one]; rfl

set_option maxHeartbeats 4000000 in
/-- The gathered buffer at `(i, c)` is the source at the row entry `i` of the list names, column `c`. -/
theorem gather_read (g : S50008x128.Idx → Elt F .f32) (list : S64.Idx → Elt F .i32)
    (hn : S64.numel = S64x128.size gathers_S50008x128_S64x128.axis')
    (hin : ∀ x, (list x).toNat < S50008x128.size gathers_S50008x128_S64x128.axis) (x : S64x128.Idx) :
    SparseCore.gatherPayload gathers_S50008x128_S64x128 g (SparseCore.rows list hn hin) x
      = g (ixT (list (ix64 (x 0))).toNat (hin _) (x 1).val (x 1).isLt) := by
  unfold SparseCore.gatherPayload
  congr 1
  funext b; apply Fin.ext
  match b with
  | ⟨0, _⟩ =>
    unfold Shape.Gathers.idx
    rw [dif_pos rfl]
    show (SparseCore.rows list hn hin (x gathers_S50008x128_S64x128.axis')).val = _
    unfold SparseCore.rows
    show (list (S64.rowMajor.symm _)).toNat = (list (ix64 (x 0))).toNat
    rw [rowMajor_symm_S64]; rfl
  | ⟨1, _⟩ =>
    exact Shape.Gathers.idx_of_ne gathers_S50008x128_S64x128 _ x ⟨1, by decide⟩ (by decide)

/-! ## What a chunk of the output holds -/

/-- The first edge of chunk `k` of tile `L`. -/
def e0 (L : grid5.Coords) (k : Nat) : Nat := 409600 * (L 0).val + 25600 * (L 1).val + 64 * k

theorem e0_lt (L : grid5.Coords) (k : Fin k5_t1_loop.trips) (i : Nat) (hi : i < 64) : e0 L k.val + i < 819200 := by
  have hk : k.val < 400 := Nat.lt_of_lt_of_le k.isLt k5_t1_abs.2.1
  have h0 : (L 0).val < 2 := (L 0).isLt
  have h1 : (L 1).val < 16 := (L 1).isLt
  unfold e0; omega

/-- Element `x = (e, j)` of the output as the kernel computes it from the table and the two index arrays:
    `max(tab[src2 e, j] + tab[dst2 e, 64 + j], 0)`. -/
def outVal (TABr : S50008x128.Idx → F .f32) (SRCr DSTr : S819200.Idx → Elt F .i32)
    (hs : ∀ j, (SRCr j).toNat < 50008) (hd : ∀ j, (DSTr j).toNat < 50008) (x : S819200x64.Idx) : F .f32 :=
  relu2 (TABr (ixT (SRCr (ix1 (x 0).val (x 0).isLt)).toNat (hs _) (x 1).val (Nat.lt_of_lt_of_le (x 1).isLt (by decide))))
    (TABr (ixT (DSTr (ix1 (x 0).val (x 0).isLt)).toNat (hd _) (64 + (x 1).val) (by have h : (x 1).val < 64 := (x 1).isLt; omega)))

/-- A gathered buffer of chunk `k` holds, at `(i, c)`, the table at the row word `e0 + i` of the index array names, column `c`. -/
def Gath (L : grid5.Coords) (k : Fin k5_t1_loop.trips) (TABr : S50008x128.Idx → F .f32) (Ir : S819200.Idx → Elt F .i32)
    (hI : ∀ j, (Ir j).toNat < 50008) (A : S64x128.Idx → F .f32) : Prop :=
  ∀ x : S64x128.Idx, A x = TABr (ixT (Ir (ix1 (e0 L k.val + (x 0).val) (e0_lt L k _ (x 0).isLt))).toNat (hI _) (x 1).val (x 1).isLt)

set_option maxHeartbeats 4000000 in
/-- With both gathered buffers so, a lane of the result is the output's element at its place in the chunk. -/
theorem chunk_val (L : grid5.Coords) (k : Fin k5_t1_loop.trips) (TABr : S50008x128.Idx → F .f32) (SRCr DSTr : S819200.Idx → Elt F .i32)
    (hs : ∀ j, (SRCr j).toNat < 50008) (hd : ∀ j, (DSTr j).toNat < 50008) (A B : S64x128.Idx → F .f32)
    (hA : Gath L k TABr SRCr hs A) (hB : Gath L k TABr DSTr hd B) (y : S64x64.Idx) :
    rowVal A B y = outVal TABr SRCr DSTr hs hd ((Rect.unit (s := S819200x64) (k5_off14 L k) S64x64.size (k5_off14_inb L k)).emb y) := by
  unfold rowVal outVal
  rw [hA (colA y), hB (colB y)]
  have e := k5_off14_eq L k
  have c0 : (((Rect.unit (s := S819200x64) (k5_off14 L k) S64x64.size (k5_off14_inb L k)).emb y) 0).val = e0 L k.val + (y 0).val := by
    show k5_off14 L k 0 + 1 * (y 0).val = _
    rw [e]; show 409600 * (L 0).val + 25600 * (L 1).val + 64 * k.val + 1 * (y 0).val = _; unfold e0; omega
  have c1 : (((Rect.unit (s := S819200x64) (k5_off14 L k) S64x64.size (k5_off14_inb L k)).emb y) 1).val = (y 1).val := by
    show k5_off14 L k 1 + 1 * (y 1).val = _
    rw [e]; show 0 + 1 * (y 1).val = _; omega
  congr 2
  · exact ixT_congr (congrArg BitVec.toNat (congrArg SRCr (ix1_congr c0.symm))) c1.symm
  · exact ixT_congr (congrArg BitVec.toNat (congrArg DSTr (ix1_congr c0.symm))) (by show 64 + (y 1).val = 64 + _; rw [c1])

set_option maxHeartbeats 4000000 in
/-- After the chunk's index copy and its gather, the gathered buffer holds the table's rows the index array names. -/
theorem gathA (d : Dev nD) (L : grid5.Coords) (k : Fin k5_t1_loop.trips)
    (TAB : Buf (Elt F) ((tabW).view.loc (thr d L))) (SRC : Buf (Elt F) ((srcW).view.loc (thr d L)))
    (hsrc : ∀ j, (SRC j).toNat < 50008)
    (f0 : Buf (Elt F) ((s0W).view.loc (thr d L))) (f2 : Buf (Elt F) ((s2W).view.loc (thr d L)))
    (hn : S64.numel = S64x128.size gathers_S50008x128_S64x128.axis')
    (hin : ∀ x, (View.read (Elt F) (s0W).view (View.write (Elt F) (s0W).view f0
        (ReadAs.same.apply (View.read (Elt F) ((srcW).slice (Rect.unit (s := S819200) (k5_off1 L k) S64.size (k5_off1_inb L k)) (fun _ => rfl)).view SRC))
        Finset.univ) x).toNat < S50008x128.size gathers_S50008x128_S64x128.axis) :
    Gath L k (View.read (Elt F) (tabW).view TAB) (View.read (Elt F) (srcW).view SRC) (fun j => hsrc j)
      (View.read (Elt F) (s2W).view ((s2W).view.writes (Elt F) f2 [⟨Rect.whole cc5_scratch2.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s0W).view (View.write (Elt F) (s0W).view f0
            (ReadAs.same.apply (View.read (Elt F) ((srcW).slice (Rect.unit (s := S819200) (k5_off1 L k) S64.size (k5_off1_inb L k)) (fun _ => rfl)).view SRC))
            Finset.univ)) hn hin)⟩])) := by
  intro x
  have ex : (Rect.whole cc5_scratch2.ty.shape).emb x = x := Rect.emb_whole_apply S64x128 x
  conv_lhs => rw [← ex]
  rw [View.read_writes_cons_emb, gather_read]
  have e := k5_off1_eq L k
  -- the list's entry is the index array's word at the chunk's place
  have hl : (View.read (Elt F) (s0W).view (View.write (Elt F) (s0W).view f0
        (ReadAs.same.apply (View.read (Elt F) ((srcW).slice (Rect.unit (s := S819200) (k5_off1 L k) S64.size (k5_off1_inb L k)) (fun _ => rfl)).view SRC))
        Finset.univ) (ix64 (x 0)))
      = View.read (Elt F) (srcW).view SRC (ix1 (e0 L k.val + (x 0).val) (e0_lt L k _ (x 0).isLt)) := by
    simp only [Memref.view_whole, View.write_whole_univ, View.read_whole, ReadAs.apply_same]
    show SRC _ = SRC _
    congr 1
    funext a; apply Fin.ext
    match a with
    | ⟨0, _⟩ =>
      show k5_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s0W).view _ (ix64 (x 0))).toNat = (View.read (Elt F) (srcW).view SRC _).toNat
    rw [hl]; omega
  | ⟨1, _⟩ =>
    show 0 + 1 * (x 1).val = (x 1).val
    omega

set_option maxHeartbeats 4000000 in
/-- The same for the second index array and the second gathered buffer. -/
theorem gathB (d : Dev nD) (L : grid5.Coords) (k : Fin k5_t1_loop.trips)
    (TAB : Buf (Elt F) ((tabW).view.loc (thr d L))) (DST : Buf (Elt F) ((dstW).view.loc (thr d L)))
    (hdst : ∀ j, (DST j).toNat < 50008)
    (f1 : Buf (Elt F) ((s1W).view.loc (thr d L))) (f3 : Buf (Elt F) ((s3W).view.loc (thr d L)))
    (hn : S64.numel = S64x128.size gathers_S50008x128_S64x128.axis')
    (hin : ∀ x, (View.read (Elt F) (s1W).view (View.write (Elt F) (s1W).view f1
        (ReadAs.same.apply (View.read (Elt F) ((dstW).slice (Rect.unit (s := S819200) (k5_off1 L k) S64.size (k5_off1_inb L k)) (fun _ => rfl)).view DST))
        Finset.univ) x).toNat < S50008x128.size gathers_S50008x128_S64x128.axis) :
    Gath L k (View.read (Elt F) (tabW).view TAB) (View.read (Elt F) (dstW).view DST) (fun j => hdst j)
      (View.read (Elt F) (s3W).view ((s3W).view.writes (Elt F) f3 [⟨Rect.whole cc5_scratch3.ty.shape,
        SparseCore.gatherPayload gathers_S50008x128_S64x128
          (View.read (Elt F) ((tabW).slice (Rect.unit (s := S50008x128) ![0, 0] S50008x128.size inb_S50008x128_S50008x128_0_0) (fun _ => rfl)).view TAB)
          (SparseCore.rows (View.read (Elt F) (s1W).view (View.write (Elt F) (s1W).view f1
            (ReadAs.same.apply (View.read (Elt F) ((dstW).slice (Rect.unit (s := S819200) (k5_off1 L k) S64.size (k5_off1_inb L k)) (fun _ => rfl)).view DST))
            Finset.univ)) hn hin)⟩])) := by
  intro x
  have ex : (Rect.whole cc5_scratch3.ty.shape).emb x = x := Rect.emb_whole_apply S64x128 x
  conv_lhs => rw [← ex]
  rw [View.read_writes_cons_emb, gather_read]
  have e := k5_off1_eq L k
  -- the list's entry is the index array's word at the chunk's place
  have hl : (View.read (Elt F) (s1W).view (View.write (Elt F) (s1W).view f1
        (ReadAs.same.apply (View.read (Elt F) ((dstW).slice (Rect.unit (s := S819200) (k5_off1 L k) S64.size (k5_off1_inb L k)) (fun _ => rfl)).view DST))
        Finset.univ) (ix64 (x 0)))
      = View.read (Elt F) (dstW).view DST (ix1 (e0 L k.val + (x 0).val) (e0_lt L k _ (x 0).isLt)) := by
    simp only [Memref.view_whole, View.write_whole_univ, View.read_whole, ReadAs.apply_same]
    show DST _ = DST _
    congr 1
    funext a; apply Fin.ext
    match a with
    | ⟨0, _⟩ =>
      show k5_off1 L k 0 + 1 * (x 0).val = e0 L k.val + (x 0).val
      rw [e]; show 409600 * (L 0).val + 25600 * (L 1).val + 64 * k.val + 1 * (x 0).val = _; unfold e0; omega
  -- the table read through its whole-array slice is the table
  show TAB _ = TAB _
  congr 1
  funext a; apply Fin.ext
  match a with
  | ⟨0, _⟩ =>
    show 0 + 1 * (View.read (Elt F) (s1W).view _ (ix64 (x 0))).toNat = (View.read (Elt F) (dstW).view DST _).toNat
    rw [hl]; omega
  | ⟨1, _⟩ =>
    show 0 + 1 * (x 1).val = (x 1).val
    omega

/-! ## The rows of the chunks done so far -/

/-- Before chunk `n`, every element of the tile's rows below the chunk's first edge holds the kernel's value. -/
def Done (L : grid5.Coords) (TABr : S50008x128.Idx → F .f32) (SRCr DSTr : S819200.Idx → Elt F .i32)
    (hs : ∀ j, (SRCr j).toNat < 50008) (hd : ∀ j, (DSTr j).toNat < 50008) (n : Nat) (fo : S819200x64.Idx → F .f32) : Prop :=
  ∀ x ∈ outRows L, (x 0).val < e0 L n → fo x = outVal TABr SRCr DSTr hs hd x

set_option maxHeartbeats 4000000 in
/-- Chunk `k`'s copy-out, landing `w` on the chunk's rows, completes the chunk and leaves the rows below alone. -/
theorem done_step (d : Dev nD) (L : grid5.Coords) (k : Fin k5_t1_loop.trips) (TABr : S50008x128.Idx → F .f32) (SRCr DSTr : S819200.Idx → Elt F .i32)
    (hs : ∀ j, (SRCr j).toNat < 50008) (hd : ∀ j, (DSTr j).toNat < 50008)
    (fo : Buf (Elt F) ((outW).view.loc (thr d L))) (w : S64x64.Idx → F .f32)
    (hw : ∀ y, w y = outVal TABr SRCr DSTr hs hd ((Rect.unit (s := S819200x64) (k5_off14 L k) S64x64.size (k5_off14_inb L k)).emb y))
    (hfo : Done L TABr SRCr DSTr hs hd k.val (View.read (Elt F) (outW).view fo)) :
    Done L TABr SRCr DSTr hs hd (k.val + 1) (View.read (Elt F) (outW).view
      (((outChunk L k).view.set).piecewise ((outChunk L k).view.writes (Elt F) fo [⟨Rect.whole S64x64, w⟩]) fo)) := by
  intro x hxin hx
  by_cases hm : x ∈ (outChunk L k).view.set
  · show (((outChunk L k).view.set).piecewise ((outChunk L k).view.writes (Elt F) fo [⟨Rect.whole S64x64, w⟩]) fo) x = _
    rw [Finset.piecewise_eq_of_mem _ _ _ hm]
    rw [chunk_set] at hm
    obtain ⟨y, rfl⟩ := (Rect.unit (s := S819200x64) (k5_off14 L k) S64x64.size (k5_off14_inb L k)).exists_idx_of_mem hm
    refine Eq.trans ?_ (hw y)
    have ey : (Rect.whole S64x64).emb y = y := Rect.emb_whole_apply S64x64 y
    have := View.read_writes_cons_emb (Val := Elt F) (outChunk L k).view fo (Rect.whole S64x64) w [] y
    rw [ey] at this
    exact this
  · show (((outChunk L k).view.set).piecewise ((outChunk L k).view.writes (Elt F) fo [⟨Rect.whole S64x64, w⟩]) fo) x = _
    rw [Finset.piecewise_eq_of_notMem _ _ _ hm]
    refine hfo x hxin ?_
    by_contra hge
    apply hm
    rw [chunk_set]
    refine Rect.mem_set_unit.mpr fun a => ?_
    have e := k5_off14_eq L k
    rw [e]
    have h1 : (x 1).val < 64 := (x 1).isLt
    match a with
    | 0 =>
      show 409600 * (L 0).val + 25600 * (L 1).val + 64 * k.val ≤ (x 0).val ∧ (x 0).val < 409600 * (L 0).val + 25600 * (L 1).val + 64 * k.val + 64
      unfold e0 at hx hge; omega
    | 1 =>
      show 0 ≤ (x 1).val ∧ (x 1).val < 0 + 64
      omega

theorem trips_eq : k5_t1_loop.trips = 400 := by decide
theorem trips2_eq : Scf.trips k5_t2_loop.lb k5_t2_loop.ub k5_t2_loop.st = 64 := by decide

/-- The tile's rows run from its first chunk's first edge to its last chunk's last. -/
theorem rows_bounds (L : grid5.Coords) (x : S819200x64.Idx) (hx : x ∈ outRows L) : e0 L 0 ≤ (x 0).val ∧ (x 0).val < e0 L 400 := by
  have h := (Rect.mem_set_unit.mp hx) 0
  have h0 : (L 0).val < 2 := (L 0).isLt
  have h1 : (L 1).val < 16 := (L 1).isLt
  have e : (S819200x64.partIx 0 (wid L).val 0) * (S819200x64.partSize 0 32 0) = 409600 * (L 0).val + 25600 * (L 1).val := by
    show (16 * (L 0).val + (L 1).val) * (819200 / 32) = _
    omega
  have e2 : S819200x64.partSize 0 32 0 = 25600 := rfl
  change S819200x64.partIx 0 (wid L).val 0 * S819200x64.partSize 0 32 0 ≤ _
    ∧ _ < S819200x64.partIx 0 (wid L).val 0 * S819200x64.partSize 0 32 0 + S819200x64.partSize 0 32 0 at h
  rw [e, e2] at h
  unfold e0; omega

/-! ## One tile's task, with what it writes -/

abbrev rdT (d : Dev nD) (L : grid5.Coords) (TAB : Buf (Elt F) ((tabW).view.loc (thr d L))) : S50008x128.Idx → F .f32 := View.read (Elt F) (tabW).view TAB
abbrev rdS (d : Dev nD) (L : grid5.Coords) (SRC : Buf (Elt F) ((srcW).view.loc (thr d L))) : S819200.Idx → Elt F .i32 := View.read (Elt F) (srcW).view SRC
abbrev rdD (d : Dev nD) (L : grid5.Coords) (DST : Buf (Elt F) ((dstW).view.loc (thr d L))) : S819200.Idx → Elt F .i32 := View.read (Elt F) (dstW).view DST

/-- The row loop's invariant in chunk `k`: the two gathered buffers hold the table's rows the chunk's index words name,
    and rows below `r` of the result buffer are done. -/
def inv2v (d : Dev nD) (L : grid5.Coords) (k : Fin k5_t1_loop.trips)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008) (r : Nat) (_ : PUnit.{1}) : sProp 𝕄 :=
  iprop(∃ A, ∃ B, ((s2W).view.loc (thr d L) ↦{fullShare} A) ∗ ((s3W).view.loc (thr d L) ↦{fullShare} B)
    ∗ ⌜Gath L k (rdT d L TAB) (rdS d L SRC) (fun j => hsrc j) (View.read (Elt F) (s2W).view A)
        ∧ Gath L k (rdT d L TAB) (rdD d L DST) (fun j => hdst j) (View.read (Elt F) (s3W).view B)⌝
    ∗ ∃ f, ((s4W).view.loc (thr d L) ↦{fullShare} f)
      ∗ ⌜∀ x : S64x64.Idx, (x 0).val < r →
          View.read (Elt F) (s4W).view f x = rowVal (View.read (Elt F) (s2W).view A) (View.read (Elt F) (s3W).view B) x⌝)

/-- The chunk loop's invariant: as `inv1`, and the rows of the chunks below `n` hold the kernel's values. -/
def inv1v (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) (n : Nat) (_ : PUnit.{1}) : sProp 𝕄 :=
  iprop(Transfers.MayWaits (thr d L) (none : HIx 3) O
    ∗ ((tabW).view.loc (thr d L) ↦{sh} TAB) ∗ ((srcW).view.loc (thr d L) ↦{sh} SRC) ∗ ((dstW).view.loc (thr d L) ↦{sh} DST)
    ∗ (∃ f, ((outW).view.loc (thr d L) ↦[outRows L]{fullShare} f)
        ∗ ⌜Done L (rdT d L TAB) (rdS d L SRC) (rdD d L DST) (fun j => hsrc j) (fun j => hdst j) n (View.read (Elt F) (outW).view f)⌝)
    ∗ (∃ f, (s0W).view.loc (thr d L) ↦{fullShare} f) ∗ (∃ f, (s1W).view.loc (thr d L) ↦{fullShare} f)
    ∗ (∃ f, (s2W).view.loc (thr d L) ↦{fullShare} f) ∗ (∃ f, (s3W).view.loc (thr d L) ↦{fullShare} f) ∗ (∃ f, (s4W).view.loc (thr d L) ↦{fullShare} f)
    ∗ semVal (thr d L, SemLoc.dma cc5_scratch5.sem) 0 ∗ semVal (thr d L, SemLoc.dma cc5_scratch6.sem) 0
    ∗ semVal (thr d L, SemLoc.dma cc5_scoped0.sem) 0 ∗ semVal (thr d L, SemLoc.dma cc5_scoped1.sem) 0 ∗ semVal (thr d L, SemLoc.dma cc5_scoped2.sem) 0
    ∗ ∃ W', ⌜∀ p ∈ W', p ∈ W ∨ p.2 = none⌝ ∗ owes (thr d L) O W')

set_option maxHeartbeats 8000000 in
/-- The task of tile `L`: as `tile_core`, and after the last chunk every element of the tile's rows holds the kernel's value. -/
theorem tile_core_val (d : Dev nD) (L : grid5.Coords) (sh : PosShare TreeShare)
    (TAB : Buf (Elt F) ((tabW).view.loc (thr d L))) (SRC : Buf (Elt F) ((srcW).view.loc (thr d L))) (DST : Buf (Elt F) ((dstW).view.loc (thr d L)))
    (hsrc : ∀ j, (SRC j).toNat < 50008) (hdst : ∀ j, (DST j).toNat < 50008)
    (O : CellTallies nD τ sig (HIx 3)) (W : Waits sig (HIx 3)) :
    inv1v (F := F) (UU := UU) d L sh TAB SRC DST hsrc hdst O W 0 ⟨⟩
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => inv1v (F := F) (UU := UU) d L sh TAB SRC DST hsrc hdst O W k5_t1_loop.trips ⟨⟩ := by
  simp only [cc5__edge_kernel_eq_skeleton]; unfold cc5__edge_kernel_skel
  iintro HI
  sl_exec
  sl_for (inv1v (F := F) (UU := UU) d L sh TAB SRC DST hsrc hdst O W) $$ [HI]
  case region =>
    intro k _
    unfold inv1v
    iintro ⟨#Hmw, Htab, Hsrc, Hdst, ⟨%fo, Hout, %hfo⟩, ⟨%f0, H0⟩, ⟨%f1, H1⟩, ⟨%f2, H2⟩, ⟨%f3, H3⟩, ⟨%f4, H4⟩, Hs5, Hs6, Hc0, Hc1, Hc2, %W', %hW', HO⟩
    have hin0 := src_inb (F := F) d L k SRC hsrc
    have hin1 := dst_inb (F := F) d L k DST hdst
    ihave Hout2 := ((out_split (F := F) (UU := UU) d L k fo).1) $$ Hout
    icases Hout2 with ⟨Hch, Hrest⟩
    ihave Htab2 := ((pointsTo_share (PosShare.mem_left_op_right sh)).1) $$ Htab
    icases Htab2 with ⟨HtabL, HtabR⟩
    sl_exec
    sl_for (inv2v (F := F) (UU := UU) d L k TAB SRC DST hsrc hdst) $$ [H2 H3 H4]
    case region =>
      intro r _
      unfold inv2v
      iintro ⟨%A, %B, H2, H3, %hAB, %f, H4, %hf⟩
      sl_exec
      sl_step
      iexists A; iexists B
      isplitl [H2]; · iexact H2
      isplitl [H3]; · iexact H3
      isplitr; · ipureintro; exact hAB
      iexists _; isplitl [H4]; · iexact H4
      ipureintro
      exact row_step (F := F) d L A B r f hf
    · unfold inv2v
      iexists _; iexists _
      isplitl [H2]; · iexact H2
      isplitl [H3]; · iexact H3
      isplitr
      · ipureintro
        exact ⟨gathA (F := F) d L k TAB SRC hsrc f0 _ _ _, gathB (F := F) d L k TAB DST hdst f1 _ _ _⟩
      iexists _; isplitl [H4]; · iexact H4
      ipureintro; intro x hx; exact absurd hx (Nat.not_lt_zero _)
    iintro %_ HI2
    unfold inv2v
    icases HI2 with ⟨%A, %B, H2, H3, %hAB, %f, H4, %hf⟩
    sl_exec
    sl_step
    have ht2 : ∀ y : S64x64.Idx, (y 0).val < Scf.trips k5_t2_loop.lb k5_t2_loop.ub k5_t2_loop.st := fun y => by
      rw [trips2_eq]; exact (y 0).isLt
    have hw : ∀ y : S64x64.Idx, View.read (Elt F) (s4W).view f y
        = outVal (rdT d L TAB) (rdS d L SRC) (rdD d L DST) (fun j => hsrc j) (fun j => hdst j)
            ((Rect.unit (s := S819200x64) (k5_off14 L k) S64x64.size (k5_off14_inb L k)).emb y) :=
      fun y => (hf y (ht2 y)).trans (chunk_val L k _ _ _ _ _ _ _ hAB.1 hAB.2 y)
    isplitr; · iexact Hmw
    isplitl [HtabL HtabR]
    · iapply ((pointsTo_share (PosShare.mem_left_op_right sh)).2); isplitl [HtabL] <;> iassumption
    isplitl [Hsrc]; · iexact Hsrc
    isplitl [Hdst]; · iexact Hdst
    isplitl [Hch Hrest]
    · iexists _
      isplitl [Hch Hrest]
      · iapply (pointsTo_join_subset (chunk_sub L k)); isplitl [Hch] <;> iassumption
      · ipureintro
        exact done_step (F := F) d L k _ _ _ _ _ fo _ hw hfo
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists _; isplitr
    rotate_left
    · iexact HO
    · ipureintro; intro p hp
      simp only [Finset.mem_insert] at hp
      rcases hp with rfl | rfl | rfl | rfl | rfl | hp
      · exact .inr rfl
      · exact .inr rfl
      · exact .inr rfl
      · exact .inr rfl
      · exact .inr rfl
      · exact hW' p hp
  · iexact HI
  iintro %_ HI
  sl_exec
  sl_step
  iexact HI

/-! ## The statement the launch theorem asks of a tile, with the values -/

/-- The output as the kernel computes it, every element from the table and the two index arrays: one function for all tiles. -/
abbrev outBuf (d : Dev nD) (TAB : Buf (Elt F) ((SparseCore.T (τ := τ) d).loc main_v76_1)) (SRC : Buf (Elt F) ((SparseCore.T (τ := τ) d).loc main_v6))
    (DST : Buf (Elt F) ((SparseCore.T (τ := τ) d).loc main_v8)) (hsrc : ∀ j, (SRC j).toNat < 50008) (hdst : ∀ j, (DST j).toNat < 50008) :
    Buf (Elt F) ((SparseCore.T (τ := τ) d).loc main_v77) :=
  outVal (View.read (Elt F) (tabW).view TAB) (View.read (Elt F) (srcW).view SRC) (View.read (Elt F) (dstW).view DST) (fun j => hsrc j) (fun j => hdst j)

set_option maxHeartbeats 4000000 in
/-- The task of tile `L` as the launch theorem hands it over (as `tile_body`); the tile's rows of the output come back holding
    `max(tab[src2 e, j] + tab[dst2 e, 64 + j], 0)` at `(e, j)`. -/
theorem tile_body_val (hF : (K (F := F)).Facts) (d : Dev nD) (L : grid5.Coords) (sh : PosShare TreeShare)
    (TAB : Buf (Elt F) ((SparseCore.T d).loc main_v76_1)) (SRC : Buf (Elt F) ((SparseCore.T d).loc main_v6)) (DST : Buf (Elt F) ((SparseCore.T d).loc main_v8))
    (OUT0 : Buf (Elt F) ((SparseCore.T d).loc main_v77))
    (hsrc : ∀ j, (SRC j).toNat < 50008) (hdst : ∀ j, (DST j).toNat < 50008)
    (O : CellTallies nD τ sig (HIx 3)) (W : Waits sig (HIx 3)) (hO : ∀ g, O g none = 0) :
    iprop(levAts (K (F := F)).L (K (F := F)).lev
        ∗ (((SparseCore.T d).loc main_v76_1 ↦{sh} TAB) ∗ ((SparseCore.T d).loc main_v6 ↦{sh} SRC) ∗ ((SparseCore.T d).loc main_v8 ↦{sh} DST) ∗ ((SparseCore.T d).loc main_v77 ↦[outRows L]{fullShare} OUT0))
        ∗ scopedBufs (thr d L) ∗ scopedSems0 (thr d L) ∗ owes (thr d L) O W : sProp 𝕄)
      ⊢ wp frame (wpE (defs₀ (F := F)) 𝒱₀ (thr d L) none) Set.univ
          (cc5__edge_kernel (F := F) L tabW (Memref.isWhole_whole _) srcW (Memref.isWhole_whole _) dstW (Memref.isWhole_whole _) outW (Memref.isWhole_whole _)
            s0W (Memref.isWhole_whole _) s1W (Memref.isWhole_whole _) s2W (Memref.isWhole_whole _) s3W (Memref.isWhole_whole _) s4W (Memref.isWhole_whole _)
            cc5_scratch5 cc5_scratch6 cc5_scoped0 cc5_scoped1 cc5_scoped2)
          fun _ => iprop((((SparseCore.T d).loc main_v76_1 ↦{sh} TAB) ∗ ((SparseCore.T d).loc main_v6 ↦{sh} SRC) ∗ ((SparseCore.T d).loc main_v8 ↦{sh} DST)
              ∗ ((SparseCore.T d).loc main_v77 ↦[outRows L]{fullShare} outBuf (F := F) d TAB SRC DST hsrc hdst))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Htab, Hsrc, Hdst, Hout⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave Hmw := ((K (F := F)).mayWaits_none (thr := thr d L) hO) $$ Hlv
  iapply (wp_wand_r frame _ Set.univ)
  isplitl [Hmw Htab Hsrc Hdst Hout H0 H1 H2 H3 H4 Hs5 Hs6 Hc0 Hc1 Hc2 HO]
  · iapply (tile_core_val (F := F) (UU := UU) d L sh TAB SRC DST hsrc hdst O W)
    unfold inv1v
    isplitl [Hmw]; · iexact Hmw
    isplitl [Htab]; · iexact Htab
    isplitl [Hsrc]; · iexact Hsrc
    isplitl [Hdst]; · iexact Hdst
    isplitl [Hout]
    · iexists _; isplitl [Hout]; · iexact Hout
      ipureintro
      intro x hxin hx
      exact absurd hx (Nat.not_lt.mpr (rows_bounds L x hxin).1)
    isplitl [H0]; · iexists _; iexact H0
    isplitl [H1]; · iexists _; iexact H1
    isplitl [H2]; · iexists _; iexact H2
    isplitl [H3]; · iexists _; iexact H3
    isplitl [H4]; · iexists _; iexact H4
    isplitl [Hs5]; · iexact Hs5
    isplitl [Hs6]; · iexact Hs6
    isplitl [Hc0]; · iexact Hc0
    isplitl [Hc1]; · iexact Hc1
    isplitl [Hc2]; · iexact Hc2
    iexists W; isplitr
    · ipureintro; exact fun p hp => .inl hp
    · iexact HO
  · iintro %_ HI
    unfold inv1v
    icases HI with ⟨-, Htab, Hsrc, Hdst, ⟨%fo, Hout, %hfo⟩, H0, H1, H2, H3, H4, Hs5, Hs6, Hc0, Hc1, Hc2, HO⟩
    have hcongr : ∀ i ∈ outRows L, fo i = outBuf (F := F) d TAB SRC DST hsrc hdst i := fun i hi =>
      hfo i hi (by rw [trips_eq]; exact (rows_bounds L i hi).2)
    isplitl [Htab Hsrc Hdst Hout]
    · isplitl [Htab]; · iexact Htab
      isplitl [Hsrc]; · iexact Hsrc
      isplitl [Hdst]; · iexact Hdst
      iapply (Entails.of_eq (pointsTo_congr hcongr)); iexact Hout
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs5 Hs6 Hc0 Hc1 Hc2 Hsems]
    · isplitl [Hs5]; · iexact Hs5
      isplitl [Hs6]; · iexact Hs6
      isplitl [Hc0]; · iexact Hc0
      isplitl [Hc1]; · iexact Hc1
      isplitl [Hc2]; · iexact Hc2
      iexact Hsems
    iexact HO

end Cert.Proof.EdgeTile5
-- ==== Proof.LaunchPayV.lean ====
/-
  The three SparseCore calls' hand-over with the contents NAMED, for the value of the run. A call's table holds a
  given array TAB, the index arrays SRC and DST (every entry naming a row of the table); each of the 32 tasks is handed
  a read token of the three and its own 25600 rows of the output at whatever they hold, and hands back the tokens and
  its rows holding, at (e, j), max(TAB[SRC e, j] + TAB[DST e, 64 + j], 0) — one function for all tasks, so the rows
  join to the whole output at it.
-/
import proofs.«215677_g32066225832048_cont_9to1_32_28_alg».proof.Proof.LaunchPay
import proofs.«215677_g32066225832048_cont_9to1_32_28_alg».proof.Proof.EdgeTileB
import proofs.«215677_g32066225832048_cont_9to1_32_28_alg».proof.Proof.EdgeTile3B
import proofs.«215677_g32066225832048_cont_9to1_32_28_alg».proof.Proof.EdgeTile5B

noncomputable section

namespace Cert.Proof.IdealValue

open Cert.KernelIdeal Cert.KernelIdeal.Gen Cert.Proof.IdealLaunch

open Idealize.ShloMosaic
open Idealize.ShloMosaic.SparseCore (S V T)
open Idealize.ShloMosaic.SparseCore.Cfg (HIx Pay)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 3) (Elt F) ℕ UU ℕ

/-- The contents the calls find: the index arrays (in range), and per call the table. -/
structure ContsV (F : FTy → Type) where
  src : (d : Dev nD) → Buf (Elt F) (srcLoc d)
  dst : (d : Dev nD) → Buf (Elt F) (dstLoc d)
  hsrc : ∀ d j, (src d j).toNat < 50008
  hdst : ∀ d j, (dst d j).toNat < 50008
  tab : (q : Fin 3) → (d : Dev nD) → Buf (Elt F) (tabLoc q d)

variable (C : ContsV F)

/-- What call `q` leaves in its output: at (e, j), max(TAB[SRC e, j] + TAB[DST e, 64 + j], 0). -/
def outv (q : Fin 3) (d : Dev nD) : Buf (Elt F) (outLoc q d) :=
  match q with
  | 0 => EdgeTile.outBuf (F := F) d (C.tab 0 d) (C.src d) (C.dst d) (C.hsrc d) (C.hdst d)
  | 1 => EdgeTile3.outBuf (F := F) d (C.tab 1 d) (C.src d) (C.dst d) (C.hsrc d) (C.hdst d)
  | 2 => EdgeTile5.outBuf (F := F) d (C.tab 2 d) (C.src d) (C.dst d) (C.hsrc d) (C.hdst d)

/-- What a task is handed: tokens of the inputs at their contents, its rows at whatever they hold; -/
def goV (q : Fin 3) (d : Dev nD) (t : Fin 32) : sProp 𝕄 :=
  iprop((tabLoc q d ↦{tsh t} C.tab q d) ∗ (srcLoc d ↦{tsh t} C.src d) ∗ (dstLoc d ↦{tsh t} C.dst d) ∗ ∃ f, outLoc q d ↦[tileRows q d t]{fullShare} f)
/-- and hands back: the tokens, its rows at the call's result. -/
def tdV (q : Fin 3) (d : Dev nD) (t : Fin 32) : sProp 𝕄 :=
  iprop((tabLoc q d ↦{tsh t} C.tab q d) ∗ (srcLoc d ↦{tsh t} C.src d) ∗ (dstLoc d ↦{tsh t} C.dst d) ∗ (outLoc q d ↦[tileRows q d t]{fullShare} outv C q d))

def PV : (K (F := F)).Pay (nD := nD) (Val := Elt F) (Name := ℕ) (U := UU) where
  st := fun q d c => bigSep Finset.univ fun i : Fin ((K (F := F)).nSub q) => goV C q d (tix q c i)
  dn := fun q d c => bigSep Finset.univ fun i : Fin ((K (F := F)).nSub q) => tdV C q d (tix q c i)
  go := fun q d c i => goV C q d (tix q c i)
  td := fun q d c i => tdV C q d (tix q c i)
  x := fun _ _ => iprop(emp)

set_option synthInstance.maxHeartbeats 400000 in
instance goV_storable (q : Fin 3) (d : Dev nD) (t : Fin 32) : BI.Storable (upEmb : UEmb _ 𝕄) (goV C q d t) := by
  unfold goV; infer_instance
set_option synthInstance.maxHeartbeats 400000 in
instance tdV_storable (q : Fin 3) (d : Dev nD) (t : Fin 32) : BI.Storable (upEmb : UEmb _ 𝕄) (tdV C q d t) := by
  unfold tdV; infer_instance

instance PV_storable : (PV (F := F) C).IsStorable where
  st q d c := by unfold PV; dsimp only; infer_instance
  dn q d c := by unfold PV; dsimp only; infer_instance
  go q d c i := by unfold PV; dsimp only; infer_instance
  td q d c i := by unfold PV; dsimp only; infer_instance

theorem vecSplitV (q : Fin 3) : (K (F := F)).VecSplit' (PV C) q := by
  intro d c
  show (bigSep Finset.univ fun i : Fin ((K (F := F)).nSub q) => goV C q d (tix q c i)) ⊢ |={Set.univ}=> iprop(
      (bigSep Finset.univ fun i : Fin ((K (F := F)).nSub q) => goV C q d (tix q c i))
      ∗ ((bigSep Finset.univ fun i : Fin ((K (F := F)).nSub q) => tdV C q d (tix q c i))
          -∗ (bigSep Finset.univ fun i : Fin ((K (F := F)).nSub q) => tdV C q d (tix q c i))))
  iintro H; imodintro
  isplitl [H]; · iexact H
  iintro H; iexact H

end Cert.Proof.IdealValue

end
-- ==== Proof.LaunchCallV.lean ====
/-
  A SparseCore call from the TensorCore with the contents named: the table, the index arrays and the output whole
  before it; after it the inputs whole as they were and the output whole at the call's result.
-/
import proofs.«215677_g32066225832048_cont_9to1_32_28_alg».proof.Proof.LaunchPayV
import proofs.«215677_g32066225832048_cont_9to1_32_28_alg».proof.Proof.LaunchCall

noncomputable section

namespace Cert.Proof.IdealValue

open Cert.KernelIdeal Cert.KernelIdeal.Gen Cert.Proof.IdealLaunch

open Idealize.ShloMosaic
open Idealize.ShloMosaic.SparseCore (S V T)
open Idealize.ShloMosaic.SparseCore.Cfg (HIx Pay)
open Idealize.ShloMosaic.Transfers (shareTok shareTokN shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 3) (Elt F) ℕ UU ℕ

variable (C : ContsV F)

omit [FloatOps F] [Named F] [∀ e, Nonempty (Elt F e)] in
theorem out_rows (q : Fin 3) (d : Dev nD) (f : Buf (Elt F) (outLoc q d)) :
    (outLoc q d ↦{fullShare} f : sProp 𝕄) = bigSep Finset.univ fun t : Fin 32 => outLoc q d ↦[tileRows q d t]{fullShare} f := by
  rw [← pointsTo_biUnion Finset.univ (ℓ := outLoc q d) (tileRows q d) (tileRows_disj q d), tileRows_cover]; try rfl

omit [∀ e, Nonempty (Elt F e)] in
theorem dealV (q : Fin 3) (d : Dev nD) (fo : Buf (Elt F) (outLoc q d)) :
    iprop((tabLoc q d ↦{fullShare} C.tab q d) ∗ (srcLoc d ↦{fullShare} C.src d) ∗ (dstLoc d ↦{fullShare} C.dst d) ∗ (outLoc q d ↦{fullShare} fo))
      ⊢ (iprop(((tabLoc q d ↦{shareDrop fullShare 32} C.tab q d) ∗ (srcLoc d ↦{shareDrop fullShare 32} C.src d) ∗ (dstLoc d ↦{shareDrop fullShare 32} C.dst d))
          ∗ bigSep Finset.univ fun t : Fin 32 => goV C q d t) : sProp 𝕄) := by
  unfold goV
  simp only [bigSep_sep']
  iintro ⟨Ht, Hs, Hd, Ho⟩
  ihave Ht := (pointsTo_toks_split fullShare 32) $$ Ht
  ihave Hs := (pointsTo_toks_split fullShare 32) $$ Hs
  ihave Hd := (pointsTo_toks_split fullShare 32) $$ Hd
  ihave Ho := (Entails.of_eq (out_rows (F := F) q d fo)) $$ Ho
  icases Ht with ⟨Htr, Htt⟩
  icases Hs with ⟨Hsr, Hst⟩
  icases Hd with ⟨Hdr, Hdt⟩
  isplitl [Htr Hsr Hdr]
  · isplitl [Htr]; · iexact Htr
    isplitl [Hsr]; · iexact Hsr
    iexact Hdr
  isplitl [Htt]; · iexact Htt
  isplitl [Hst]; · iexact Hst
  isplitl [Hdt]; · iexact Hdt
  iapply (rows_ex (F := F) (outRef q) d (tileRows q d) fo); iexact Ho

omit [∀ e, Nonempty (Elt F e)] in
theorem gatherV (q : Fin 3) (d : Dev nD) :
    iprop(((tabLoc q d ↦{shareDrop fullShare 32} C.tab q d) ∗ (srcLoc d ↦{shareDrop fullShare 32} C.src d) ∗ (dstLoc d ↦{shareDrop fullShare 32} C.dst d))
        ∗ bigSep Finset.univ fun t : Fin 32 => tdV C q d t)
      ⊢ (iprop((tabLoc q d ↦{fullShare} C.tab q d) ∗ (srcLoc d ↦{fullShare} C.src d) ∗ (dstLoc d ↦{fullShare} C.dst d) ∗ (outLoc q d ↦{fullShare} outv C q d)) : sProp 𝕄) := by
  unfold tdV
  simp only [bigSep_sep']
  iintro ⟨⟨Htr, Hsr, Hdr⟩, Htt, Hst, Hdt, Hot⟩
  isplitl [Htr Htt]
  · iapply (pointsTo_toks_join fullShare 32)
    isplitl [Htr]; · iexact Htr
    iexact Htt
  isplitl [Hsr Hst]
  · iapply (pointsTo_toks_join fullShare 32)
    isplitl [Hsr]; · iexact Hsr
    iexact Hst
  isplitl [Hdr Hdt]
  · iapply (pointsTo_toks_join fullShare 32)
    isplitl [Hdr]; · iexact Hdr
    iexact Hdt
  ihave Ho := (Entails.of_eq (out_rows (F := F) q d (outv C q d)).symm) $$ Hot
  iexact Ho

omit [∀ e, Nonempty (Elt F e)] in
theorem stV_eq (q : Fin 3) (d : Dev nD) :
    (bigSep Finset.univ fun c : Fin ((K (F := F)).nCore q) => (PV C).st q d c) = bigSep Finset.univ fun t : Fin 32 => goV C q d t :=
  regroup q fun t => goV C q d t

omit [∀ e, Nonempty (Elt F e)] in
theorem dnV_eq (q : Fin 3) (d : Dev nD) :
    (bigSep Finset.univ fun c : Fin ((K (F := F)).nCore q) => (PV C).dn q d c) = bigSep Finset.univ fun t : Fin 32 => tdV C q d t :=
  regroup q fun t => tdV C q d t

/-- SparseCore call `q` from the TensorCore, the contents named: after it the output holds the call's result. -/
theorem call_stepV (κ : GSem nD τ sig → ℕ) (d : Dev nD) (q : Fin 3) (fo : Buf (Elt F) (outLoc q d)) {Φ : PUnit → sProp 𝕄} :
    iprop((K (F := F)).ctx EH (PV C) κ ∗ (K (F := F)).tcSt EH d q.val
        ∗ ((tabLoc q d ↦{fullShare} C.tab q d) ∗ (srcLoc d ↦{fullShare} C.src d) ∗ (dstLoc d ↦{fullShare} C.dst d) ∗ (outLoc q d ↦{fullShare} fo))
        ∗ (((K (F := F)).tcSt EH d (q.val + 1)
              ∗ (tabLoc q d ↦{fullShare} C.tab q d) ∗ (srcLoc d ↦{fullShare} C.src d) ∗ (dstLoc d ↦{fullShare} C.dst d)
              ∗ (outLoc q d ↦{fullShare} outv C q d)) -∗ Φ ⟨⟩))
      ⊢ wp frame (wpE ((K (F := F)).defs (D (F := F))) 𝒱 (SparseCore.T d) none) Set.univ ((K (F := F)).run d q) Φ := by
  iintro ⟨#Hctx, Hst, Harr, Hk⟩
  ihave Hd := (dealV C q d fo) $$ Harr
  icases Hd with ⟨Hrem, Htoks⟩
  iapply ((K (F := F)).wp_run (D (F := F)) 𝒱 (EH := EH) (P := PV C) κ d q) $$ [Hst Htoks Hrem Hk]
  isplitr; · iexact Hctx
  isplitl [Hst]; · iexact Hst
  isplitl [Htoks]
  · ihave Htoks' := (Entails.of_eq (stV_eq C q d).symm) $$ Htoks
    iexact Htoks'
  iintro ⟨Hst, Hdn⟩
  iapply Hk
  isplitl [Hst]; · iexact Hst
  ihave Hdn' := (Entails.of_eq (dnV_eq C q d)) $$ Hdn
  iapply (gatherV C q d)
  isplitl [Hrem]; · iexact Hrem
  iexact Hdn'

end Cert.Proof.IdealValue

end
-- ==== Proof.LaunchMainV.lean ====
/-
  @main on the TensorCore with every array's contents NAMED. The valuation the TensorCore holds moves along a chain:
  the launch contents; the first stretch's fold; region 0's exit valuation (its two output arrays at what the pipeline
  leaves); call 0's output at the call's result; the second stretch's fold; … ; region 3's exit valuation, whose
  [1,1] output array is the program's result. The index arrays and the arguments are what the first stretch left
  all along.
-/
import proofs.«215677_g32066225832048_cont_9to1_32_28_alg».proof.Proof.LaunchCallV
import proofs.«215677_g32066225832048_cont_9to1_32_28_alg».proof.Proof.LaunchMain
import proofs.«215677_g32066225832048_cont_9to1_32_28_alg».proof.Proof.RegionSegs
import proofs.«215677_g32066225832048_cont_9to1_32_28_alg».proof.Proof.LaunchTileCommon

noncomputable section

namespace Cert.Proof.IdealValue

open Cert.KernelIdeal Cert.KernelIdeal.Gen Cert.KernelIdeal.HostOps Cert.Lib.AfterAssign Cert.Proof.IdealLaunch

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 3) (Elt F) ℕ UU ℕ

/-! ## The regions' exit valuations -/

/-- The pairs the TensorCore of `c` may have recorded before call `n`. -/
def RcV (n : ℕ) (c : Dev nD) : Set (SemLoc sig × HIx 3) := {pr | (K (F := F)).lev (SparseCore.T c, pr.1) pr.2 ≤ 8 * n}
/-- What it owes before call `n`. -/
def OtcV (n : ℕ) (c : Dev nD) : CellTallies nD τ sig (HIx 3) := (K (F := F)).Otc c n

def exit0 (d : Dev nD) (W : Valuation τ sig (Elt F)) : Valuation τ sig (Elt F) := Wout0 (fun _ => W) (OtcV (F := F) 0) (RcV (F := F) 0) d
def exit2 (d : Dev nD) (W : Valuation τ sig (Elt F)) : Valuation τ sig (Elt F) := Wout2 (fun _ => W) (OtcV (F := F) 1) (RcV (F := F) 1) d
def exit4 (d : Dev nD) (W : Valuation τ sig (Elt F)) : Valuation τ sig (Elt F) := Wout4 (fun _ => W) (OtcV (F := F) 2) (RcV (F := F) 2) d
def exit6 (d : Dev nD) (W : Valuation τ sig (Elt F)) : Valuation τ sig (Elt F) := Wout6 (fun _ => W) (OtcV (F := F) 3) (RcV (F := F) 3) d

/-! ## The chain -/

variable (m : (ℓ : Loc nD τ sig) → Buf (Elt F) ℓ) (h : IdxOK (conts m))

def V1 (d : Dev nD) : Valuation τ sig (Elt F) := after ops0 (launchContents m d)
def V2 (d : Dev nD) : Valuation τ sig (Elt F) := exit0 d (V1 m d)
def OUT0 (d : Dev nD) : Buf (Elt F) (outLoc 0 d) :=
  EdgeTile.outBuf (F := F) d (V2 m d (Proc.devRef .tc main_v24_1)) ((conts m).src d) ((conts m).dst d) (h d).1 (h d).2
def V3 (d : Dev nD) : Valuation τ sig (Elt F) := Function.update (V2 m d) (Proc.devRef .tc main_v25) (OUT0 m h d)
def V4 (d : Dev nD) : Valuation τ sig (Elt F) := after ops1 (V3 m h d)
def V5 (d : Dev nD) : Valuation τ sig (Elt F) := exit2 d (V4 m h d)
def OUT1 (d : Dev nD) : Buf (Elt F) (outLoc 1 d) :=
  EdgeTile3.outBuf (F := F) d (V5 m h d (Proc.devRef .tc main_v50_1)) ((conts m).src d) ((conts m).dst d) (h d).1 (h d).2
def V6 (d : Dev nD) : Valuation τ sig (Elt F) := Function.update (V5 m h d) (Proc.devRef .tc main_v51) (OUT1 m h d)
def V7 (d : Dev nD) : Valuation τ sig (Elt F) := after ops2 (V6 m h d)
def V8 (d : Dev nD) : Valuation τ sig (Elt F) := exit4 d (V7 m h d)
def OUT2 (d : Dev nD) : Buf (Elt F) (outLoc 2 d) :=
  EdgeTile5.outBuf (F := F) d (V8 m h d (Proc.devRef .tc main_v76_1)) ((conts m).src d) ((conts m).dst d) (h d).1 (h d).2
def V9 (d : Dev nD) : Valuation τ sig (Elt F) := Function.update (V8 m h d) (Proc.devRef .tc main_v77) (OUT2 m h d)
def V10 (d : Dev nD) : Valuation τ sig (Elt F) := after ops3 (V9 m h d)
def V11 (d : Dev nD) : Valuation τ sig (Elt F) := exit6 d (V10 m h d)

/-- The program's result on device `d`, as a term of the launch memory. -/
def result (d : Dev nD) : Buf (Elt F) (locOf d main_v94) := V11 m h d (Proc.devRef .tc main_v94)

/-- The calls' contents along the chain. -/
def contsV : ContsV F where
  src := (conts m).src
  dst := (conts m).dst
  hsrc := fun d => (h d).1
  hdst := fun d => (h d).2
  tab := fun q d => match q with
    | 0 => V2 m d (Proc.devRef .tc main_v24_1)
    | 1 => V5 m h d (Proc.devRef .tc main_v50_1)
    | 2 => V8 m h d (Proc.devRef .tc main_v76_1)

/-! ## The pieces, valued -/

set_option maxHeartbeats 4000000 in
/-- SparseCore call `q` and the rest of @main, from the arrays held at `W` with the call's inputs at the record's
    contents: the rest runs with the output at the call's result. -/
theorem call_bindV (C : ContsV F) (κ : GSem nD τ sig → ℕ) (d : Dev nD) (q : Fin 3) (W : Valuation τ sig (Elt F))
    (ht : W (Proc.devRef .tc (tabRef q)) = C.tab q d) (hs : W (Proc.devRef .tc main_v6) = C.src d) (hd : W (Proc.devRef .tc main_v8) = C.dst d)
    {α : Type} (k : PUnit → Prog (TpuEff nD τ sig (Elt F) (SparseCore.Sig (Pipeline.Sig Λ₀ (Fin 4) fun p => (pcfgs (F := F) p).Adm) 3) .tc) α)
    {Φ : α → sProp 𝕄} :
    iprop((K (F := F)).ctx EH (PV C) κ ∗ (K (F := F)).tcSt EH d q.val ∗ heldU d W
        ∗ (((K (F := F)).tcSt EH d (q.val + 1) ∗ heldU d (Function.update W (Proc.devRef .tc (outRef q)) (outv C q d)))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d q >>= k) Φ := by
  have h1 : Proc.devRef (τ := τ) .tc (tabRef q) ∈ Pipeline.ucRefs τ sig := mem_uc _ (by match q with | 0 => decide | 1 => decide | 2 => decide)
  have h2 : Proc.devRef (τ := τ) .tc main_v6 ∈ (Pipeline.ucRefs τ sig).erase (Proc.devRef .tc (tabRef q)) :=
    Finset.mem_erase.mpr ⟨devRef_ne_of_ne (by match q with | 0 => decide | 1 => decide | 2 => decide), mem_uc _ (by decide)⟩
  have h3 : Proc.devRef (τ := τ) .tc main_v8 ∈ ((Pipeline.ucRefs τ sig).erase (Proc.devRef .tc (tabRef q))).erase (Proc.devRef .tc main_v6) :=
    Finset.mem_erase.mpr ⟨devRef_ne_of_ne (by decide), Finset.mem_erase.mpr ⟨devRef_ne_of_ne (by match q with | 0 => decide | 1 => decide | 2 => decide), mem_uc _ (by decide)⟩⟩
  have h4 : Proc.devRef (τ := τ) .tc (outRef q)
      ∈ (((Pipeline.ucRefs τ sig).erase (Proc.devRef .tc (tabRef q))).erase (Proc.devRef .tc main_v6)).erase (Proc.devRef .tc main_v8) :=
    Finset.mem_erase.mpr ⟨devRef_ne_of_ne (by match q with | 0 => decide | 1 => decide | 2 => decide),
      Finset.mem_erase.mpr ⟨devRef_ne_of_ne (by match q with | 0 => decide | 1 => decide | 2 => decide),
        Finset.mem_erase.mpr ⟨devRef_ne_of_ne (tab_ne_out q).symm, mem_uc _ (by match q with | 0 => decide | 1 => decide | 2 => decide)⟩⟩⟩
  rw [wp_bind]
  unfold heldU
  rw [held_erase h1 W, held_erase h2 W, held_erase h3 W, held_erase h4 W, ht, hs, hd]
  iintro ⟨#Hctx, Hst, ⟨Ht, Hs, Hd, Ho, Hrest⟩, Hk⟩
  iapply (call_stepV C κ d q (W (Proc.devRef .tc (outRef q)))) $$ [Hst Ht Hs Hd Ho Hrest Hk]
  isplitr; · iexact Hctx
  isplitl [Hst]; · iexact Hst
  isplitl [Ht Hs Hd Ho]
  · isplitl [Ht]; · iexact Ht
    isplitl [Hs]; · iexact Hs
    isplitl [Hd]; · iexact Hd
    iexact Ho
  iintro ⟨Hst, Ht, Hs, Hd, Ho⟩
  iapply Hk
  isplitl [Hst]; · iexact Hst
  ihave H4 := (held_put (F := F) h4 W (outv C q d)) $$ [Ho Hrest]
  · isplitl [Ho]; · iexact Ho
    iexact Hrest
  ihave Hd' := (Entails.of_eq (congrArg (fun x => ((SparseCore.T d).1, Proc.devRef (τ := τ) .tc main_v8) ↦{fullShare} x)
    ((Function.update_of_ne (devRef_ne_of_ne (by match q with | 0 => decide | 1 => decide | 2 => decide)) (outv C q d) W).trans hd).symm)) $$ Hd
  ihave H3 := (Entails.of_eq (held_erase (F := F) h3 (Function.update W (Proc.devRef .tc (outRef q)) (outv C q d))).symm) $$ [Hd' H4]
  · isplitl [Hd']; · iexact Hd'
    iexact H4
  ihave Hs' := (Entails.of_eq (congrArg (fun x => ((SparseCore.T d).1, Proc.devRef (τ := τ) .tc main_v6) ↦{fullShare} x)
    ((Function.update_of_ne (devRef_ne_of_ne (by match q with | 0 => decide | 1 => decide | 2 => decide)) (outv C q d) W).trans hs).symm)) $$ Hs
  ihave H2 := (Entails.of_eq (held_erase (F := F) h2 (Function.update W (Proc.devRef .tc (outRef q)) (outv C q d))).symm) $$ [Hs' H3]
  · isplitl [Hs']; · iexact Hs'
    iexact H3
  ihave Ht' := (Entails.of_eq (congrArg (fun x => ((SparseCore.T d).1, Proc.devRef (τ := τ) .tc (tabRef q)) ↦{fullShare} x)
    ((Function.update_of_ne (devRef_ne_of_ne (tab_ne_out q)) (outv C q d) W).trans ht).symm)) $$ Ht
  ihave H1 := (Entails.of_eq (held_erase (F := F) h1 (Function.update W (Proc.devRef .tc (outRef q)) (outv C q d))).symm) $$ [Ht' H2]
  · isplitl [Ht']; · iexact Ht'
    iexact H2
  iexact H1

/-- The rule @main needs of region `p`, entered before call `n`, with its exit valuation named. -/
def RegionStepV (C : ContsV F) (p : Fin 4) (n : ℕ) (exit : Dev nD → Valuation τ sig (Elt F) → Valuation τ sig (Elt F)) : Prop :=
  ∀ (κ : GSem nD τ sig → ℕ) (d : Dev nD) (W : Valuation τ sig (Elt F)) {α : Type}
    (k : PUnit → Prog (TpuEff nD τ sig (Elt F) (SparseCore.Sig (Pipeline.Sig Λ₀ (Fin 4) fun p => (pcfgs (F := F) p).Adm) 3) .tc) α)
    (Φ : α → sProp 𝕄),
    iprop((K (F := F)).ctx EH (PV C) κ ∗ (K (F := F)).tcSt EH d n ∗ boundary (SparseCore.T d) ∗ heldU d W
        ∗ iprop(Pipeline.cellsGhost cfgs (EK (F := F)) p d ∗ Pipeline.toksInit cfgs (EK (F := F)) p d)
        ∗ (((K (F := F)).tcSt EH d n ∗ boundary (SparseCore.T d) ∗ heldU d (exit d W))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (enter p >>= k) Φ

/-! ## What stays put along the chain -/

omit [∀ e, Nonempty (Elt F e)] in
theorem k2 (d : Dev nD) : Keeps kept (V1 m d) (V2 m d) :=
  keeps_of_off (outs := [main_v24_0, main_v24_1]) (W := V1 m d) (W' := V2 m d)
    (fun r hr => Wout0_off (fun _ => V1 m d) (OtcV (F := F) 0) (RcV (F := F) 0) d r hr) (by decide)
omit [∀ e, Nonempty (Elt F e)] in
theorem k3 (d : Dev nD) : Keeps kept (V1 m d) (V3 m h d) := (k2 m d).trans (keeps_update (L := kept) (o := main_v25) (V2 m d) (OUT0 m h d) (by decide))
omit [∀ e, Nonempty (Elt F e)] in
theorem k4 (d : Dev nD) : Keeps kept (V1 m d) (V4 m h d) := (k3 m h d).trans (keeps_after (L := kept) ops1_writes (by decide) (V3 m h d))
omit [∀ e, Nonempty (Elt F e)] in
theorem k5 (d : Dev nD) : Keeps kept (V1 m d) (V5 m h d) :=
  (k4 m h d).trans (keeps_of_off (outs := [main_v50_0, main_v50_1]) (W := V4 m h d) (W' := V5 m h d)
    (fun r hr => Wout2_off (fun _ => V4 m h d) (OtcV (F := F) 1) (RcV (F := F) 1) d r hr) (by decide))
omit [∀ e, Nonempty (Elt F e)] in
theorem k6 (d : Dev nD) : Keeps kept (V1 m d) (V6 m h d) := (k5 m h d).trans (keeps_update (L := kept) (o := main_v51) (V5 m h d) (OUT1 m h d) (by decide))
omit [∀ e, Nonempty (Elt F e)] in
theorem k7 (d : Dev nD) : Keeps kept (V1 m d) (V7 m h d) := (k6 m h d).trans (keeps_after (L := kept) ops2_writes (by decide) (V6 m h d))
omit [∀ e, Nonempty (Elt F e)] in
theorem k8 (d : Dev nD) : Keeps kept (V1 m d) (V8 m h d) :=
  (k7 m h d).trans (keeps_of_off (outs := [main_v76_0, main_v76_1]) (W := V7 m h d) (W' := V8 m h d)
    (fun r hr => Wout4_off (fun _ => V7 m h d) (OtcV (F := F) 2) (RcV (F := F) 2) d r hr) (by decide))
omit [∀ e, Nonempty (Elt F e)] in
theorem k9 (d : Dev nD) : Keeps kept (V1 m d) (V9 m h d) := (k8 m h d).trans (keeps_update (L := kept) (o := main_v77) (V8 m h d) (OUT2 m h d) (by decide))
omit [∀ e, Nonempty (Elt F e)] in
theorem k10 (d : Dev nD) : Keeps kept (V1 m d) (V10 m h d) := (k9 m h d).trans (keeps_after (L := kept) ops3_writes (by decide) (V9 m h d))
omit [∀ e, Nonempty (Elt F e)] in
theorem k11 (d : Dev nD) : Keeps kept (V1 m d) (V11 m h d) :=
  (k10 m h d).trans (keeps_of_off (outs := [main_v94]) (W := V10 m h d) (W' := V11 m h d)
    (fun r hr => Wout6_off (fun _ => V10 m h d) (OtcV (F := F) 3) (RcV (F := F) 3) d r hr) (by decide))
omit [∀ e, Nonempty (Elt F e)] in
theorem k1 (d : Dev nD) : Keeps args (launchContents m d) (V1 m d) := keeps_after ops0_writes (by decide) _

/-! ## @main, valued -/

set_option backward.isDefEq.respectTransparency.types false in
set_option maxHeartbeats 4000000 in
theorem hmainV (ρ : Dev nD → PrngReg)
    (hr0 : RegionStepV (contsV m h) 0 0 exit0) (hr1 : RegionStepV (contsV m h) 1 1 exit2)
    (hr2 : RegionStepV (contsV m h) 2 2 exit4) (hr3 : RegionStepV (contsV m h) 3 3 exit6)
    (κ : GSem nD τ sig → ℕ) (d : Dev nD) :
    iprop((K (F := F)).ctx EH (PV (contsV m h)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ heldU d (V11 m h d)) := by
  rw [main_eq d, G_four]
  unfold SparseCore.Cfg.tcRes
  iintro ⟨#Hctx, Hst, ⟨Hb, Hbufs, -, -⟩, Hg0, Hg1, Hg2, Hg3⟩
  ihave Hbufs := (Entails.of_eq (Pipeline.unscopedBufs_held (Ix := HIx 3) (Name := ℕ) (U := UU) (Lvl := ℕ) d (launchContents m d))) $$ Hbufs
  iapply (wp_seq 𝒱 none Set.univ d (Pipeline.ucRefs τ sig) _ ops0 (sub_uc ops0_tc) (List.forall_iff_forall_mem.1 ops0_fresh) (launchContents m d)) $$ [Hb Hbufs]
  · isplitl [Hb]; · iexact Hb
    iexact Hbufs
  iintro ⟨Hb, Hbufs⟩
  iapply (hr0 κ d (V1 m d) _ _) $$ [Hst Hb Hbufs Hg0 Hg1 Hg2 Hg3]
  isplitr; · iexact Hctx
  isplitl [Hst]; · iexact Hst
  isplitl [Hb]; · iexact Hb
  isplitl [Hbufs]; · iexact Hbufs
  isplitl [Hg0]; · iexact Hg0
  iintro ⟨Hst, Hb, Hbufs⟩
  iapply (call_bindV (contsV m h) κ d 0 (V2 m d) rfl ((k2 m d main_v6 (by decide)).trans (conts_src m d).symm)
    ((k2 m d main_v8 (by decide)).trans (conts_dst m d).symm) _) $$ [Hst Hb Hbufs Hg1 Hg2 Hg3]
  isplitr; · iexact Hctx
  isplitl [Hst]; · iexact Hst
  isplitl [Hbufs]; · iexact Hbufs
  iintro ⟨Hst, Hbufs⟩
  iapply (wp_seq 𝒱 none Set.univ d (Pipeline.ucRefs τ sig) _ ops1 (sub_uc ops1_tc) (List.forall_iff_forall_mem.1 ops1_fresh) (V3 m h d)) $$ [Hb Hbufs]
  · isplitl [Hb]; · iexact Hb
    iexact Hbufs
  iintro ⟨Hb, Hbufs⟩
  iapply (hr1 κ d (V4 m h d) _ _) $$ [Hst Hb Hbufs Hg1 Hg2 Hg3]
  isplitr; · iexact Hctx
  isplitl [Hst]; · iexact Hst
  isplitl [Hb]; · iexact Hb
  isplitl [Hbufs]; · iexact Hbufs
  isplitl [Hg1]; · iexact Hg1
  iintro ⟨Hst, Hb, Hbufs⟩
  iapply (call_bindV (contsV m h) κ d 1 (V5 m h d) rfl ((k5 m h d main_v6 (by decide)).trans (conts_src m d).symm)
    ((k5 m h d main_v8 (by decide)).trans (conts_dst m d).symm) _) $$ [Hst Hb Hbufs Hg2 Hg3]
  isplitr; · iexact Hctx
  isplitl [Hst]; · iexact Hst
  isplitl [Hbufs]; · iexact Hbufs
  iintro ⟨Hst, Hbufs⟩
  iapply (wp_seq 𝒱 none Set.univ d (Pipeline.ucRefs τ sig) _ ops2 (sub_uc ops2_tc) (List.forall_iff_forall_mem.1 ops2_fresh) (V6 m h d)) $$ [Hb Hbufs]
  · isplitl [Hb]; · iexact Hb
    iexact Hbufs
  iintro ⟨Hb, Hbufs⟩
  iapply (hr2 κ d (V7 m h d) _ _) $$ [Hst Hb Hbufs Hg2 Hg3]
  isplitr; · iexact Hctx
  isplitl [Hst]; · iexact Hst
  isplitl [Hb]; · iexact Hb
  isplitl [Hbufs]; · iexact Hbufs
  isplitl [Hg2]; · iexact Hg2
  iintro ⟨Hst, Hb, Hbufs⟩
  iapply (call_bindV (contsV m h) κ d 2 (V8 m h d) rfl ((k8 m h d main_v6 (by decide)).trans (conts_src m d).symm)
    ((k8 m h d main_v8 (by decide)).trans (conts_dst m d).symm) _) $$ [Hst Hb Hbufs Hg3]
  isplitr; · iexact Hctx
  isplitl [Hst]; · iexact Hst
  isplitl [Hbufs]; · iexact Hbufs
  iintro ⟨Hst, Hbufs⟩
  iapply (wp_seq 𝒱 none Set.univ d (Pipeline.ucRefs τ sig) _ ops3 (sub_uc ops3_tc) (List.forall_iff_forall_mem.1 ops3_fresh) (V9 m h d)) $$ [Hb Hbufs]
  · isplitl [Hb]; · iexact Hb
    iexact Hbufs
  iintro ⟨Hb, Hbufs⟩
  iapply (hr3 κ d (V10 m h d) _ _) $$ [Hst Hb Hbufs Hg3]
  isplitr; · iexact Hctx
  isplitl [Hst]; · iexact Hst
  isplitl [Hb]; · iexact Hb
  isplitl [Hbufs]; · iexact Hbufs
  isplitl [Hg3]; · iexact Hg3
  iintro ⟨Hst, -, Hbufs⟩
  rw [wp_pure]; imodintro
  isplitl [Hst]; · iexact Hst
  iexact Hbufs

end Cert.Proof.IdealValue

end
-- ==== Proof.LaunchTile1V.lean ====
/-
  The first SparseCore call's task obligation with the contents named: a task handed read tokens of the table and the
  index arrays at their contents and its rows of the output at whatever they hold, hands back the tokens and its rows
  at the call's result — at (e, j), max(TAB[SRC e, j] + TAB[DST e, 64 + j], 0).
-/
import proofs.«215677_g32066225832048_cont_9to1_32_28_alg».proof.Proof.LaunchTile1
import proofs.«215677_g32066225832048_cont_9to1_32_28_alg».proof.Proof.LaunchPayV

noncomputable section

namespace Cert.Proof.IdealValue

open Cert.KernelIdeal Cert.KernelIdeal.Gen Cert.Proof.IdealLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : ContsV F)

set_option maxHeartbeats 4000000 in
theorem tileOblV0 : (K (F := F)).TileObl (D (F := F)) 𝒱 (PV C) v₀ 0 := by
  intro d c i O W hO _ _
  simp only [show (PV C).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  have hbody : ∀ (fo : Buf (Elt F) (locOf d main_v25)),
      iprop(levAts (K (F := F)).L (K (F := F)).lev
          ∗ ((locOf d main_v24_1 ↦{tsh (tix 0 c i)} C.tab 0 d) ∗ (srcLoc d ↦{tsh (tix 0 c i)} C.src d) ∗ (dstLoc d ↦{tsh (tix 0 c i)} C.dst d)
              ∗ (locOf d main_v25 ↦[tileRows 0 d (tix 0 c i)]{fullShare} fo))
          ∗ scopedBufs (V d ((K (F := F)).core 0 c) ((K (F := F)).sub 0 i)) ∗ scopedSems0 (V d ((K (F := F)).core 0 c) ((K (F := F)).sub 0 i))
          ∗ owes (V d ((K (F := F)).core 0 c) ((K (F := F)).sub 0 i)) O W)
        ⊢ wp frame (wpE (defs₀ (F := F)) 𝒱₀ (V d ((K (F := F)).core 0 c) ((K (F := F)).sub 0 i)) none) Set.univ _
            (fun _ => (iprop(tdV C 0 d (tix 0 c i)
              ∗ scopedBufs (V d ((K (F := F)).core 0 c) ((K (F := F)).sub 0 i)) ∗ scopedSems0 (V d ((K (F := F)).core 0 c) ((K (F := F)).sub 0 i))
              ∗ ∃ W', ⌜∀ p ∈ W', p ∈ W ∨ p.2 = none ∨ p.2 = some (0 : Fin 3)⌝ ∗ owes (V d ((K (F := F)).core 0 c) ((K (F := F)).sub 0 i)) O W') : sProp 𝕄)) :=
    fun fo => (EdgeTile.tile_body_val (F := F) facts d (coordsV1 ⟨_, hc.1⟩ ⟨_, hc.2⟩) (tsh (tix 0 c i)) (C.tab 0 d) (C.src d) (C.dst d) fo
        (C.hsrc d) (C.hdst d) O W hO).trans (wp_mono frame _ _ fun _ => obl_post (q := (0 : Fin 3)))
  show iprop(levAts (K (F := F)).L (K (F := F)).lev ∗ iprop(emp)
      ∗ iprop((locOf d main_v24_1 ↦{tsh (tix 0 c i)} C.tab 0 d) ∗ (srcLoc d ↦{tsh (tix 0 c i)} C.src d) ∗ (dstLoc d ↦{tsh (tix 0 c i)} C.dst d)
          ∗ ∃ f, locOf d main_v25 ↦[tileRows 0 d (tix 0 c i)]{fullShare} f)
      ∗ scopedBufs _ ∗ scopedSems0 _ ∗ owes _ O W) ⊢ _
  iintro ⟨#Hlv, -, ⟨Ht, Hs, Hd, ⟨%fo, Ho⟩⟩, Hb, Hsm, HO⟩
  iapply (hbody fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealValue

end
-- ==== Proof.LaunchTile3V.lean ====
/-
  SparseCore call 1's task obligation with the contents named: a task handed read tokens of the table and the
  index arrays at their contents and its rows of the output at whatever they hold, hands back the tokens and its rows
  at the call's result — at (e, j), max(TAB[SRC e, j] + TAB[DST e, 64 + j], 0).
-/
import proofs.«215677_g32066225832048_cont_9to1_32_28_alg».proof.Proof.LaunchTile3
import proofs.«215677_g32066225832048_cont_9to1_32_28_alg».proof.Proof.LaunchPayV

noncomputable section

namespace Cert.Proof.IdealValue

open Cert.KernelIdeal Cert.KernelIdeal.Gen Cert.Proof.IdealLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : ContsV F)

set_option maxHeartbeats 4000000 in
theorem tileOblV1 : (K (F := F)).TileObl (D (F := F)) 𝒱 (PV C) v₀ 1 := by
  intro d c i O W hO _ _
  simp only [show (PV C).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  have hbody : ∀ (fo : Buf (Elt F) (locOf d main_v51)),
      iprop(levAts (K (F := F)).L (K (F := F)).lev
          ∗ ((locOf d main_v50_1 ↦{tsh (tix 1 c i)} C.tab 1 d) ∗ (srcLoc d ↦{tsh (tix 1 c i)} C.src d) ∗ (dstLoc d ↦{tsh (tix 1 c i)} C.dst d)
              ∗ (locOf d main_v51 ↦[tileRows 1 d (tix 1 c i)]{fullShare} fo))
          ∗ scopedBufs (V d ((K (F := F)).core 1 c) ((K (F := F)).sub 1 i)) ∗ scopedSems0 (V d ((K (F := F)).core 1 c) ((K (F := F)).sub 1 i))
          ∗ owes (V d ((K (F := F)).core 1 c) ((K (F := F)).sub 1 i)) O W)
        ⊢ wp frame (wpE (defs₀ (F := F)) 𝒱₀ (V d ((K (F := F)).core 1 c) ((K (F := F)).sub 1 i)) none) Set.univ _
            (fun _ => (iprop(tdV C 1 d (tix 1 c i)
              ∗ scopedBufs (V d ((K (F := F)).core 1 c) ((K (F := F)).sub 1 i)) ∗ scopedSems0 (V d ((K (F := F)).core 1 c) ((K (F := F)).sub 1 i))
              ∗ ∃ W', ⌜∀ p ∈ W', p ∈ W ∨ p.2 = none ∨ p.2 = some (1 : Fin 3)⌝ ∗ owes (V d ((K (F := F)).core 1 c) ((K (F := F)).sub 1 i)) O W') : sProp 𝕄)) :=
    fun fo => (EdgeTile3.tile_body_val (F := F) facts d (coordsV3 ⟨_, hc.1⟩ ⟨_, hc.2⟩) (tsh (tix 1 c i)) (C.tab 1 d) (C.src d) (C.dst d) fo
        (C.hsrc d) (C.hdst d) O W hO).trans (wp_mono frame _ _ fun _ => obl_post (q := (1 : Fin 3)))
  show iprop(levAts (K (F := F)).L (K (F := F)).lev ∗ iprop(emp)
      ∗ iprop((locOf d main_v50_1 ↦{tsh (tix 1 c i)} C.tab 1 d) ∗ (srcLoc d ↦{tsh (tix 1 c i)} C.src d) ∗ (dstLoc d ↦{tsh (tix 1 c i)} C.dst d)
          ∗ ∃ f, locOf d main_v51 ↦[tileRows 1 d (tix 1 c i)]{fullShare} f)
      ∗ scopedBufs _ ∗ scopedSems0 _ ∗ owes _ O W) ⊢ _
  iintro ⟨#Hlv, -, ⟨Ht, Hs, Hd, ⟨%fo, Ho⟩⟩, Hb, Hsm, HO⟩
  iapply (hbody fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealValue

end
-- ==== Proof.LaunchTile5V.lean ====
/-
  SparseCore call 2's task obligation with the contents named: a task handed read tokens of the table and the
  index arrays at their contents and its rows of the output at whatever they hold, hands back the tokens and its rows
  at the call's result — at (e, j), max(TAB[SRC e, j] + TAB[DST e, 64 + j], 0).
-/
import proofs.«215677_g32066225832048_cont_9to1_32_28_alg».proof.Proof.LaunchTile5
import proofs.«215677_g32066225832048_cont_9to1_32_28_alg».proof.Proof.LaunchPayV

noncomputable section

namespace Cert.Proof.IdealValue

open Cert.KernelIdeal Cert.KernelIdeal.Gen Cert.Proof.IdealLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [hFacts : Cert.KernelIdeal.Facts]

local notation "𝕄" => MT nD τ sig (HIx 3) (Elt F) ℕ UU ℕ

variable (C : ContsV F)

set_option maxHeartbeats 4000000 in
theorem tileOblV2 : (K (F := F)).TileObl (D (F := F)) 𝒱 (PV C) v₀ 2 := by
  intro d c i O W hO _ _
  simp only [show (PV C).ox = fun _ _ => 0 from rfl, add_zero]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs₀_vector5]; simp only [SparseCore.onTile, hc, and_self, ↓reduceDIte]
  have hbody : ∀ (fo : Buf (Elt F) (locOf d main_v77)),
      iprop(levAts (K (F := F)).L (K (F := F)).lev
          ∗ ((locOf d main_v76_1 ↦{tsh (tix 2 c i)} C.tab 2 d) ∗ (srcLoc d ↦{tsh (tix 2 c i)} C.src d) ∗ (dstLoc d ↦{tsh (tix 2 c i)} C.dst d)
              ∗ (locOf d main_v77 ↦[tileRows 2 d (tix 2 c i)]{fullShare} fo))
          ∗ scopedBufs (V d ((K (F := F)).core 2 c) ((K (F := F)).sub 2 i)) ∗ scopedSems0 (V d ((K (F := F)).core 2 c) ((K (F := F)).sub 2 i))
          ∗ owes (V d ((K (F := F)).core 2 c) ((K (F := F)).sub 2 i)) O W)
        ⊢ wp frame (wpE (defs₀ (F := F)) 𝒱₀ (V d ((K (F := F)).core 2 c) ((K (F := F)).sub 2 i)) none) Set.univ _
            (fun _ => (iprop(tdV C 2 d (tix 2 c i)
              ∗ scopedBufs (V d ((K (F := F)).core 2 c) ((K (F := F)).sub 2 i)) ∗ scopedSems0 (V d ((K (F := F)).core 2 c) ((K (F := F)).sub 2 i))
              ∗ ∃ W', ⌜∀ p ∈ W', p ∈ W ∨ p.2 = none ∨ p.2 = some (2 : Fin 3)⌝ ∗ owes (V d ((K (F := F)).core 2 c) ((K (F := F)).sub 2 i)) O W') : sProp 𝕄)) :=
    fun fo => (EdgeTile5.tile_body_val (F := F) facts d (coordsV5 ⟨_, hc.1⟩ ⟨_, hc.2⟩) (tsh (tix 2 c i)) (C.tab 2 d) (C.src d) (C.dst d) fo
        (C.hsrc d) (C.hdst d) O W hO).trans (wp_mono frame _ _ fun _ => obl_post (q := (2 : Fin 3)))
  show iprop(levAts (K (F := F)).L (K (F := F)).lev ∗ iprop(emp)
      ∗ iprop((locOf d main_v76_1 ↦{tsh (tix 2 c i)} C.tab 2 d) ∗ (srcLoc d ↦{tsh (tix 2 c i)} C.src d) ∗ (dstLoc d ↦{tsh (tix 2 c i)} C.dst d)
          ∗ ∃ f, locOf d main_v77 ↦[tileRows 2 d (tix 2 c i)]{fullShare} f)
      ∗ scopedBufs _ ∗ scopedSems0 _ ∗ owes _ O W) ⊢ _
  iintro ⟨#Hlv, -, ⟨Ht, Hs, Hd, ⟨%fo, Ho⟩⟩, Hb, Hsm, HO⟩
  iapply (hbody fo)
  isplitr; · iexact Hlv
  isplitl [Ht Hs Hd Ho]
  · isplitl [Ht]; · iexact Ht
    isplitl [Hs]; · iexact Hs
    isplitl [Hd]; · iexact Hd
    iexact Ho
  isplitl [Hb]; · iexact Hb
  isplitl [Hsm]; · iexact Hsm
  iexact HO

end Cert.Proof.IdealValue

end
-- ==== Proof.FrameValue.lean ====
/-
  The idealized kernel program's run with its result named: every weakly fair execution of the whole family of threads
  ends with the [1,1] result array at the chain's last valuation — a pure term of the launch memory — and the thirteen
  arguments as they began; from the valued task obligations, @main's valued composition, and the four regions' rules
  with their exit valuations named.
-/
import proofs.«215677_g32066225832048_cont_9to1_32_28_alg».proof.Proof.LaunchMainV
import proofs.«215677_g32066225832048_cont_9to1_32_28_alg».proof.Proof.LaunchTile1V
import proofs.«215677_g32066225832048_cont_9to1_32_28_alg».proof.Proof.LaunchTile3V
import proofs.«215677_g32066225832048_cont_9to1_32_28_alg».proof.Proof.LaunchTile5V

noncomputable section

namespace Cert.Proof.IdealValue

open Cert.KernelIdeal Cert.KernelIdeal.Gen Cert.KernelIdeal.HostOps Cert.Proof.IdealLaunch

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 3) (Elt F) ℕ UU ℕ

theorem Px_allV (C : ContsV F) : (bigSep Finset.univ fun thr : Thread nD τ => bigSep Finset.univ fun q : Fin 3 => (PV C).x q thr) = (iprop(emp) : sProp 𝕄) := by
  show (bigSep Finset.univ fun thr : Thread nD τ => bigSep Finset.univ fun q : Fin 3 => (iprop(emp) : sProp 𝕄)) = _
  rw [show (fun thr : Thread nD τ => bigSep Finset.univ fun q : Fin 3 => (iprop(emp) : sProp 𝕄)) = fun _ => iprop(emp) from
    funext fun _ => bigSep_emp' _, bigSep_emp']

theorem hu₀V (C : ContsV F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (PV C).x q thr) := by
  unfold u₀
  iintro Hu
  ihave H := (ownU_split _ _) $$ Hu
  icases H with ⟨HH, HK⟩
  imod (Pipeline.fund_ghost cfgs (EK (F := F)) cellOf_inj) $$ HK with ⟨Hg, Ht⟩
  imodintro
  isplitl [HH]; · iexact HH
  isplitl [Hg Ht]
  · iapply (G_intro (F := F))
    isplitl [Hg]; · iexact Hg
    iexact Ht
  · rw [Px_allV]; iempintro

variable (m : (ℓ : Loc nD τ sig) → Buf (Elt F) ℓ) (h : IdxOK (conts m))

/-- What a final memory shows: the result array at the chain's end, the arguments at their launch contents. -/
def fqV (d : Dev nD) (s' : Phys nD τ sig (Elt F)) : Prop :=
  s'.mem.mem ((SparseCore.T d).loc main_v94) = result m h d ∧ ∀ a ∈ args, s'.mem.mem ((SparseCore.T d).loc a) = m ((SparseCore.T d).loc a)

theorem hfinV (d : Dev nD) (s' : Phys nD τ sig (Elt F)) :
    iprop(heldU d (V11 m h d) ∗ SI s') ⊢ (⌜fqV m h d s'⌝ : sProp 𝕄) := by
  unfold heldU held
  iintro ⟨H, HSI⟩
  ihave %hh := (SI_pointsTo_bufs_agree (qs := fun _ => fullShare) (Pipeline.ucRefs τ sig)) $$ [HSI H]
  · isplitl [HSI]; · iexact HSI
    iexact H
  ipureintro
  refine ⟨hh _ (mem_uc main_v94 (by decide)), fun a ha => ?_⟩
  exact (hh _ (mem_uc a (by revert a; decide))).trans
    (((k11 m h d).mono (fun r hr => List.mem_append_left _ hr) a ha).trans (k1 m d a ha))

/-- The run, valued. -/
theorem run_val (ρ : Dev nD → PrngReg)
    (hr0 : RegionStepV (contsV m h) 0 0 exit0) (hr1 : RegionStepV (contsV m h) 1 1 exit2)
    (hr2 : RegionStepV (contsV m h) 2 2 exit4) (hr3 : RegionStepV (contsV m h) 3 3 exit6) :
    θ_run (Cert.KernelIdeal.defs (F := F)) (Cert.KernelIdeal.threads (F := F)) ⟨m, fun _ => 0, ρ⟩
      (fun r => ∀ (c : Dev nD), r.2.mem ((SparseCore.T c).loc main_v94) = result m h c
        ∧ ∀ a ∈ args, r.2.mem ((SparseCore.T c).loc a) = m ((SparseCore.T c).loc a)) :=
  SparseCore.Cfg.θ_run_sc (K := K (F := F)) (D := D (F := F)) (𝒱 := 𝒱) (EH := EH) (P := PV (contsV m h)) facts v₀
    (fun q hq => match q with | 0 => nomatch hq | 1 => nomatch hq | 2 => nomatch hq)
    (fun q _ => match q with
      | 0 => tileOblV0 (contsV m h)
      | 1 => tileOblV1 (contsV m h)
      | 2 => tileOblV2 (contsV m h))
    (fun q _ => SparseCore.Cfg.VecSplit.of_plain (vecSplitV (contsV m h) q))
    m ρ main (G (F := F)) (fun d => heldU d (V11 m h d)) (u₀ (F := F)) (sep_elim_left.trans (hu₀V (contsV m h)))
    (hmainV m h ρ hr0 hr1 hr2 hr3) (fqV m h) (hfinV m h) _ (fun _ hh c => hh c)

end Cert.Proof.IdealValue

end
-- ==== Proof.LaunchRegionV.lean ====
/-
  The TensorCore regions' rule with the exit valuation named. A region is entered from all the arrays held at a
  valuation and what the TensorCore owes; inside a SparseCore program that debt sits in the TensorCore's handshake state
  (the start signals of the calls still to come, all at a call's index, while a region's waits on its staging cells are
  recorded at the index none, at level 0): the handshake state is opened, the debt lent to the region with the bound on
  the recorded pairs, and closed again on the region's exit. What the region leaves is the valuation its record states:
  the entry valuation with the region's output arrays at what the pipeline wrote back. The rule mentions the
  handshakes' payloads only through the level facts of the launch's context, so it holds over any record of payloads.
-/
import proofs.«215677_g32066225832048_cont_9to1_32_28_alg».proof.Proof.LaunchMainV
import proofs.«215677_g32066225832048_cont_9to1_32_28_alg».proof.Proof.RegionSegs

noncomputable section

namespace Cert.Proof.IdealValue

open Cert.KernelIdeal Cert.KernelIdeal.Gen Cert.KernelIdeal.HostOps Cert.Lib.AfterAssign Cert.Proof.IdealLaunch

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 3) (Elt F) ℕ UU ℕ

omit [FloatOps F] [Named F] [∀ e, Nonempty (Elt F e)] in
/-- A wait on a DMA semaphore at the index none is within the bound before any call. -/
theorem hRcV (n : ℕ) (c : Dev nD) (sm : DmaSem sig) : (SemLoc.dma sm, (none : HIx 3)) ∈ RcV (F := F) n c := by
  show (K (F := F)).lev _ none ≤ _
  rw [SparseCore.Cfg.lev_none]; exact Nat.zero_le _

omit [FloatOps F] [Named F] [∀ e, Nonempty (Elt F e)] in
/-- The TensorCore's debt before call `n` with its recorded pairs bounded, in the two spellings: by level, and by membership. -/
theorem owesV_in (n : ℕ) (c : Dev nD) :
    iprop(∃ W, ⌜(K (F := F)).WBelow (SparseCore.T c) W (8 * n)⌝ ∗ owes (SparseCore.T c) ((K (F := F)).Otc c n) W)
      ⊢ (iprop(∃ W : Waits sig (HIx 3), ⌜(↑W : Set (SemLoc sig × HIx 3)) ⊆ RcV (F := F) n c⌝ ∗ owes (SparseCore.T c) (OtcV (F := F) n c) W) : sProp 𝕄) := by
  unfold OtcV
  iintro ⟨%W, %hW, HO⟩
  iexists W; isplitr
  · ipureintro; exact fun p hp => hW p (Finset.mem_coe.mp hp)
  iexact HO

omit [FloatOps F] [Named F] [∀ e, Nonempty (Elt F e)] in
theorem owesV_out (n : ℕ) (c : Dev nD) :
    (iprop(∃ W : Waits sig (HIx 3), ⌜(↑W : Set (SemLoc sig × HIx 3)) ⊆ RcV (F := F) n c⌝ ∗ owes (SparseCore.T c) (OtcV (F := F) n c) W) : sProp 𝕄)
      ⊢ iprop(∃ W, ⌜(K (F := F)).WBelow (SparseCore.T c) W (8 * n)⌝ ∗ owes (SparseCore.T c) ((K (F := F)).Otc c n) W) := by
  unfold OtcV
  iintro ⟨%W, %hW, HO⟩
  iexists W; isplitr
  · ipureintro; exact fun p hp => hW (Finset.mem_coe.mpr hp)
  iexact HO

omit [∀ e, Nonempty (Elt F e)] in
/-- Entering a region is the pipelines' call of its entry label, lifted into the SparseCore program's signature. -/
theorem enter_liftV (p : Fin 4) :
    (enter (F := F) p) = SparseCore.liftProg (Q := 3) (.op (.customCall (Pipeline.entry p) ()) fun _ => .ret ⟨⟩) := rfl

/-! ## Region 0 -/

set_option backward.isDefEq.respectTransparency.types false in
set_option maxHeartbeats 2000000 in
/-- Region 0 (before SparseCore call 0) as @main meets it, leaving the valuation its record states. -/
theorem regionV0 (C : ContsV F) : RegionStepV C 0 0 (exit0 (F := F)) := by
  intro κ d W α k Φ
  unfold exit0
  rw [wp_bind, enter_liftV]
  refine BIBase.Entails.trans ?_ ((K (F := F)).wp_liftProg (D (F := F)) 𝒱 (SparseCore.T d) Set.univ none _ _)
  have h := seg0_wp (F := F) (fun _ => W) (OtcV (F := F) 0) (RcV (F := F) 0) (fun _ => BI.emp)
      (fun c g => RegionWaits.Otc_none (K (F := F)) c 0 g) (hRcV (F := F) 0) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout0 (fun _ => W) (OtcV (F := F) 0) (RcV (F := F) 0) d)
            ∗ (∃ Wt : Waits sig (HIx 3), ⌜(↑Wt : Set (SemLoc sig × HIx 3)) ⊆ RcV (F := F) 0 d⌝ ∗ owes (SparseCore.T d) (OtcV (F := F) 0 d) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcV (F := F) 0 d⌝ ∗ owes (SparseCore.T d) (OtcV (F := F) 0 d) Wt) ∗ BI.emp)
        ∗ levAts (K (F := F)).L (K (F := F)).lev
        ∗ Pipeline.cellsGhost (Pipeline.pin (pcfgs (F := F)) adm) EK 0 d ∗ Pipeline.toksInit (Pipeline.pin (pcfgs (F := F)) adm) EK 0 d)
      ⊢ wp frame (wpE (D (F := F)) 𝒱 (SparseCore.T d) none) Set.univ
          (.op (.customCall (Pipeline.entry (0 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owesV_in (F := F) 0 d) $$ HO
  isplitl [Hk Hrest]
  · iintro ⟨Hb, Hheld, HO, -⟩
    rw [wp_ret]; imodintro
    iapply Hk
    isplitl [HO Hrest]
    · isplitl [HO]
      · iapply (owesV_out (F := F) 0 d); iexact HO
      iexact Hrest
    isplitl [Hb]; · iexact Hb
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 1 -/

set_option backward.isDefEq.respectTransparency.types false in
set_option maxHeartbeats 2000000 in
/-- Region 1 (before SparseCore call 1) as @main meets it, leaving the valuation its record states. -/
theorem regionV1 (C : ContsV F) : RegionStepV C 1 1 (exit2 (F := F)) := by
  intro κ d W α k Φ
  unfold exit2
  rw [wp_bind, enter_liftV]
  refine BIBase.Entails.trans ?_ ((K (F := F)).wp_liftProg (D (F := F)) 𝒱 (SparseCore.T d) Set.univ none _ _)
  have h := seg2_wp (F := F) (fun _ => W) (OtcV (F := F) 1) (RcV (F := F) 1) (fun _ => BI.emp)
      (fun c g => RegionWaits.Otc_none (K (F := F)) c 1 g) (hRcV (F := F) 1) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout2 (fun _ => W) (OtcV (F := F) 1) (RcV (F := F) 1) d)
            ∗ (∃ Wt : Waits sig (HIx 3), ⌜(↑Wt : Set (SemLoc sig × HIx 3)) ⊆ RcV (F := F) 1 d⌝ ∗ owes (SparseCore.T d) (OtcV (F := F) 1 d) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcV (F := F) 1 d⌝ ∗ owes (SparseCore.T d) (OtcV (F := F) 1 d) Wt) ∗ BI.emp)
        ∗ levAts (K (F := F)).L (K (F := F)).lev
        ∗ Pipeline.cellsGhost (Pipeline.pin (pcfgs (F := F)) adm) EK 1 d ∗ Pipeline.toksInit (Pipeline.pin (pcfgs (F := F)) adm) EK 1 d)
      ⊢ wp frame (wpE (D (F := F)) 𝒱 (SparseCore.T d) none) Set.univ
          (.op (.customCall (Pipeline.entry (1 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owesV_in (F := F) 1 d) $$ HO
  isplitl [Hk Hrest]
  · iintro ⟨Hb, Hheld, HO, -⟩
    rw [wp_ret]; imodintro
    iapply Hk
    isplitl [HO Hrest]
    · isplitl [HO]
      · iapply (owesV_out (F := F) 1 d); iexact HO
      iexact Hrest
    isplitl [Hb]; · iexact Hb
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 2 -/

set_option backward.isDefEq.respectTransparency.types false in
set_option maxHeartbeats 2000000 in
/-- Region 2 (before SparseCore call 2) as @main meets it, leaving the valuation its record states. -/
theorem regionV2 (C : ContsV F) : RegionStepV C 2 2 (exit4 (F := F)) := by
  intro κ d W α k Φ
  unfold exit4
  rw [wp_bind, enter_liftV]
  refine BIBase.Entails.trans ?_ ((K (F := F)).wp_liftProg (D (F := F)) 𝒱 (SparseCore.T d) Set.univ none _ _)
  have h := seg4_wp (F := F) (fun _ => W) (OtcV (F := F) 2) (RcV (F := F) 2) (fun _ => BI.emp)
      (fun c g => RegionWaits.Otc_none (K (F := F)) c 2 g) (hRcV (F := F) 2) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout4 (fun _ => W) (OtcV (F := F) 2) (RcV (F := F) 2) d)
            ∗ (∃ Wt : Waits sig (HIx 3), ⌜(↑Wt : Set (SemLoc sig × HIx 3)) ⊆ RcV (F := F) 2 d⌝ ∗ owes (SparseCore.T d) (OtcV (F := F) 2 d) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcV (F := F) 2 d⌝ ∗ owes (SparseCore.T d) (OtcV (F := F) 2 d) Wt) ∗ BI.emp)
        ∗ levAts (K (F := F)).L (K (F := F)).lev
        ∗ Pipeline.cellsGhost (Pipeline.pin (pcfgs (F := F)) adm) EK 2 d ∗ Pipeline.toksInit (Pipeline.pin (pcfgs (F := F)) adm) EK 2 d)
      ⊢ wp frame (wpE (D (F := F)) 𝒱 (SparseCore.T d) none) Set.univ
          (.op (.customCall (Pipeline.entry (2 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owesV_in (F := F) 2 d) $$ HO
  isplitl [Hk Hrest]
  · iintro ⟨Hb, Hheld, HO, -⟩
    rw [wp_ret]; imodintro
    iapply Hk
    isplitl [HO Hrest]
    · isplitl [HO]
      · iapply (owesV_out (F := F) 2 d); iexact HO
      iexact Hrest
    isplitl [Hb]; · iexact Hb
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

/-! ## Region 3 -/

set_option backward.isDefEq.respectTransparency.types false in
set_option maxHeartbeats 2000000 in
/-- Region 3 (before SparseCore call 3, the last) as @main meets it, leaving the valuation its record states. -/
theorem regionV3 (C : ContsV F) : RegionStepV C 3 3 (exit6 (F := F)) := by
  intro κ d W α k Φ
  unfold exit6
  rw [wp_bind, enter_liftV]
  refine BIBase.Entails.trans ?_ ((K (F := F)).wp_liftProg (D (F := F)) 𝒱 (SparseCore.T d) Set.univ none _ _)
  have h := seg6_wp (F := F) (fun _ => W) (OtcV (F := F) 3) (RcV (F := F) 3) (fun _ => BI.emp)
      (fun c g => RegionWaits.Otc_none (K (F := F)) c 3 g) (hRcV (F := F) 3) d (fun _ => .ret ⟨⟩)
      (fun x => wp frame (wpE ((K (F := F)).defs (D (F := F))) 𝒱 (SparseCore.T d) none) Set.univ (k x) Φ)
  have h' : iprop((iprop(boundary (SparseCore.T d) ∗ iprop(held (SparseCore.T d) (Pipeline.ucRefs τ sig) (Wout6 (fun _ => W) (OtcV (F := F) 3) (RcV (F := F) 3) d)
            ∗ (∃ Wt : Waits sig (HIx 3), ⌜(↑Wt : Set (SemLoc sig × HIx 3)) ⊆ RcV (F := F) 3 d⌝ ∗ owes (SparseCore.T d) (OtcV (F := F) 3 d) Wt) ∗ BI.emp))
          -∗ wp frame (wpE (D (F := F)) 𝒱 (SparseCore.T d) none) Set.univ (.ret ⟨⟩) (fun x => wp frame (wpE ((K (F := F)).defs (D (F := F))) 𝒱 (SparseCore.T d) none) Set.univ (k x) Φ))
        ∗ boundary (SparseCore.T d)
        ∗ iprop(held (SparseCore.T d) (Pipeline.ucRefs τ sig) W ∗ (∃ Wt : Waits sig (HIx 3), ⌜(↑Wt : Set (SemLoc sig × HIx 3)) ⊆ RcV (F := F) 3 d⌝ ∗ owes (SparseCore.T d) (OtcV (F := F) 3 d) Wt) ∗ BI.emp)
        ∗ levAts (K (F := F)).L (K (F := F)).lev
        ∗ Pipeline.cellsGhost (Pipeline.pin (pcfgs (F := F)) adm) EK 3 d ∗ Pipeline.toksInit (Pipeline.pin (pcfgs (F := F)) adm) EK 3 d)
      ⊢ wp frame (wpE (D (F := F)) 𝒱 (SparseCore.T d) none) Set.univ
          (.op (.customCall (Pipeline.entry (3 : Fin 4)) ()) fun _ => .ret ⟨⟩) (fun x => wp frame (wpE ((K (F := F)).defs (D (F := F))) 𝒱 (SparseCore.T d) none) Set.univ (k x) Φ) := h
  refine BIBase.Entails.trans ?_ h'
  unfold SparseCore.Cfg.tcSt
  iintro ⟨#Hctx, ⟨HO, Hrest⟩, Hb, Hbufs, ⟨Hcg, Htk⟩, Hk⟩
  ihave Hlev := (SparseCore.Cfg.ctx_levAts (K := K (F := F)) κ) $$ Hctx
  ihave HO := (owesV_in (F := F) 3 d) $$ HO
  isplitl [Hk Hrest]
  · iintro ⟨Hb, Hheld, HO, -⟩
    rw [wp_ret]; imodintro
    iapply Hk
    isplitl [HO Hrest]
    · isplitl [HO]
      · iapply (owesV_out (F := F) 3 d); iexact HO
      iexact Hrest
    isplitl [Hb]; · iexact Hb
    iexact Hheld
  isplitl [Hb]; · iexact Hb
  isplitl [Hbufs HO]
  · isplitl [Hbufs]; · iexact Hbufs
    isplitl [HO]; · iexact HO
    iempintro
  isplitl [Hlev]; · iexact Hlev
  isplitl [Hcg]; · iexact Hcg
  iexact Htk

end Cert.Proof.IdealValue

end
-- ==== Proof.LibGnnLaws.lean ====
import Idealize.ShloMosaic.PureOps.Ideal
import Idealize.ShloMosaic.PureOps.Ideal.Laws

/-!
# Laws of a message-passing layer over the extended reals

A graph network's layer can be arranged in two ways. One arrangement computes, per EDGE, the affine image of the
edge's hidden message and then sums the images at the edge's destination node. The other sums the hidden messages
at the node first and applies the affine map once, the bias weighted by the node's in-degree. Over the reals the
two agree by linearity; over the extended reals (where a float is a real number or an infinity, and
distributivity fails at the infinities) they agree when the entries are real numbers. This module states that law
and the smaller ones around it, over abstract finite index types:

* `IsReal` — "is the coercion of a real number" — and its closure under sums, products, `relu`, finite sums;
* `coe_sum` — the coercion of a finite sum of reals is the sum of the coercions;
* `sum_edges_affine` — the aggregation law above, for any finite set of edges (and for the set of edges into a
  node, with the in-degree as a sum of indicator values);
* `sum_fin_add_split` — a contraction over `m + n` indices is the contraction over the first `m` plus the one
  over the last `n` (no finiteness: associativity and commutativity only);
* `onehot_select` — a one-hot row times a table column selects the table's entry (no finiteness either: zero
  times anything is zero in Mathlib's extended reals);
* `mul_inv_eq_div` — multiplying by the reciprocal of a nonzero real is the ideal division by it, at the
  infinities too;
* the extended reals the float words `0.0`, `1.0` and `50000.0` denote.
-/

noncomputable section

open scoped BigOperators

namespace Cert.Lib.GnnLaws

open Idealize.ShloMosaic

/-! ## Real entries -/

/-- An extended real that is (the coercion of) a real number. -/
def IsReal (x : EReal) : Prop := ∃ r : ℝ, x = (r : EReal)

/-- A coerced real is real. -/
theorem IsReal.coe (r : ℝ) : IsReal (r : EReal) := ⟨r, rfl⟩

/-- Zero is real. -/
theorem IsReal.zero : IsReal 0 := ⟨0, rfl⟩

/-- One is real. -/
theorem IsReal.one : IsReal 1 := ⟨1, rfl⟩

/-- A real entry is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two real entries is real. -/
theorem isReal_max {x y : EReal} (hx : IsReal x) (hy : IsReal y) : IsReal (max x y) := by
  rcases max_choice x y with h | h <;> rw [h] <;> assumption

/-- `relu` of a real entry is real. -/
theorem IsReal.relu {x : EReal} (hx : IsReal x) : IsReal (max x 0) := isReal_max hx IsReal.zero

/-- `relu` of a coerced real is the coerced `relu`. -/
theorem relu_coe (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real entries is real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A contraction of real entries is real. -/
theorem IsReal.dot {κ : Type*} [Fintype κ] (x w : κ → EReal) (hx : ∀ k, IsReal (x k)) (hw : ∀ k, IsReal (w k)) :
    IsReal (∑ k, x k * w k) :=
  IsReal.sum _ _ fun k _ => (hx k).mul (hw k)

/-- The ideal division of a real entry by a nonzero real is real. -/
theorem IsReal.div_coe {s : EReal} (hs : IsReal s) {y : ℝ} (hy : y ≠ 0) : IsReal (Ideal.div s (y : EReal)) := by
  rw [Ideal.div_coe hy]; exact hs.mul (IsReal.coe _)

/-- A family of real entries is the coercion of a family of reals. -/
theorem exists_real_fun {ι : Type*} (f : ι → EReal) (h : ∀ i, IsReal (f i)) : ∃ g : ι → ℝ, ∀ i, f i = (g i : EReal) :=
  ⟨fun i => (h i).choose, fun i => (h i).choose_spec⟩

/-- The same for a family over two indices. -/
theorem exists_real_fun₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ## The aggregation law -/

section Aggregation

variable {E K : Type*} [Fintype K]

/-- THE AGGREGATION LAW, over reals: summing over a finite set of edges the affine image `r e · w + b` of each
    edge's hidden message is the affine image of the summed messages, the bias weighted by the number of edges. -/
theorem sum_edges_affine (S : Finset E) (r : E → K → ℝ) (w : K → ℝ) (b : ℝ) :
    ∑ e ∈ S, ((∑ k, (r e k : EReal) * (w k : EReal)) + (b : EReal))
      = (∑ k, (∑ e ∈ S, (r e k : EReal)) * (w k : EReal)) + ((S.card : ℝ) : EReal) * (b : EReal) := by
  have hreal : ∑ e ∈ S, ((∑ k, r e k * w k) + b) = (∑ k, (∑ e ∈ S, r e k) * w k) + (S.card : ℝ) * b := by
    rw [Finset.sum_add_distrib, Finset.sum_comm, Finset.sum_const, nsmul_eq_mul]
    congr 1
    exact Finset.sum_congr rfl fun k _ => (Finset.sum_mul S (fun e => r e k) (w k)).symm
  simp only [← EReal.coe_mul, ← coe_sum, ← EReal.coe_add]
  exact congrArg _ hreal

/-- The aggregation law for extended reals with real entries. -/
theorem sum_edges_affine_of_isReal (S : Finset E) (r : E → K → EReal) (w : K → EReal) (b : EReal)
    (hr : ∀ e k, IsReal (r e k)) (hw : ∀ k, IsReal (w k)) (hb : IsReal b) :
    ∑ e ∈ S, ((∑ k, r e k * w k) + b) = (∑ k, (∑ e ∈ S, r e k) * w k) + ((S.card : ℝ) : EReal) * b := by
  obtain ⟨r', hr'⟩ := exists_real_fun₂ r hr
  obtain ⟨w', hw'⟩ := exists_real_fun w hw
  obtain ⟨b', rfl⟩ := hb
  simp only [hr', hw']
  exact sum_edges_affine S r' w' b'

/-- The number of members of a filtered finite set, as the extended-real sum of the indicator values: a node's
    in-degree as a scatter-add of ones computes it. -/
theorem card_filter_eq_sum_ite {E : Type*} (S : Finset E) (p : E → Prop) [DecidablePred p] :
    (((S.filter p).card : ℝ) : EReal) = ∑ e ∈ S, (if p e then (1 : EReal) else 0) := by
  have h : (((S.filter p).card : ℝ)) = ∑ e ∈ S, (if p e then (1 : ℝ) else 0) := by
    rw [Finset.card_filter]; push_cast; rfl
  rw [h, coe_sum]
  exact Finset.sum_congr rfl fun e _ => by split <;> rfl

/-- The aggregation law at a node: over the edges whose destination is the node, the bias weighted by the in-degree
    written as the sum of indicator values over all edges. -/
theorem sum_into_node_affine {E N : Type*} [Fintype E] [DecidableEq N] (dst : E → N) (n : N)
    (r : E → K → EReal) (w : K → EReal) (b : EReal)
    (hr : ∀ e k, IsReal (r e k)) (hw : ∀ k, IsReal (w k)) (hb : IsReal b) :
    ∑ e ∈ Finset.univ.filter (fun e => dst e = n), ((∑ k, r e k * w k) + b)
      = (∑ k, (∑ e ∈ Finset.univ.filter (fun e => dst e = n), r e k) * w k)
        + (∑ e, (if dst e = n then (1 : EReal) else 0)) * b := by
  rw [sum_edges_affine_of_isReal _ r w b hr hw hb, card_filter_eq_sum_ite]

end Aggregation

/-! ## A contraction split in two -/

/-- A sum over `m + n` indices is the sum over the first `m` plus the sum over the last `n`. -/
theorem sum_fin_add_split {m n : Nat} (f : Fin (m + n) → EReal) :
    ∑ k, f k = (∑ k : Fin m, f (Fin.castAdd n k)) + ∑ k : Fin n, f (Fin.natAdd m k) :=
  Fin.sum_univ_add f

/-- A contraction over 128 indices is the contraction over the first 64 plus the one over the last 64: a
    concatenated pair of 64-wide rows against a 128-row matrix is the first row against the top half plus the
    second row against the bottom half. -/
theorem sum_fin128_split (x w : Fin 128 → EReal) :
    ∑ k, x k * w k
      = (∑ k : Fin 64, x (Fin.castAdd 64 k) * w (Fin.castAdd 64 k))
        + ∑ k : Fin 64, x (Fin.natAdd 64 k) * w (Fin.natAdd 64 k) :=
  sum_fin_add_split (m := 64) (n := 64) fun k => x k * w k

/-- Regrouping a bias: `A + (B + c) = (A + B) + c`. -/
theorem add_regroup (A B c : EReal) : A + (B + c) = (A + B) + c := (add_assoc A B c).symm

/-! ## One-hot selection -/

/-- A one-hot row times a column selects the column's entry at the hot index. -/
theorem onehot_select {V : Type*} [Fintype V] [DecidableEq V] (emb : V → EReal) (x : V) :
    ∑ v, (if x = v then (1 : EReal) else 0) * emb v = emb x := by
  rw [Finset.sum_eq_single x]
  · rw [if_pos rfl, one_mul]
  · intro v _ hv
    rw [if_neg (fun h => hv h.symm), zero_mul]
  · intro h; exact absurd (Finset.mem_univ x) h

/-- The same with the comparison written the other way round. -/
theorem onehot_select' {V : Type*} [Fintype V] [DecidableEq V] (emb : V → EReal) (x : V) :
    ∑ v, (if v = x then (1 : EReal) else 0) * emb v = emb x := by
  rw [← onehot_select emb x]
  exact Finset.sum_congr rfl fun v _ => by simp only [eq_comm]

/-! ## The mean -/

/-- Multiplying by the reciprocal of a nonzero real is the ideal division by it, at the infinities too. -/
theorem mul_inv_eq_div {y : ℝ} (h : y ≠ 0) (s : EReal) : s * ((1 / y : ℝ) : EReal) = Ideal.div s (y : EReal) :=
  (Ideal.div_coe h s).symm

/-- A sum over 50000 nodes times `1 / 50000` is the sum divided by 50000. -/
theorem mul_inv_50000 (s : EReal) : s * ((1 / 50000 : ℝ) : EReal) = Ideal.div s ((50000 : ℝ) : EReal) :=
  mul_inv_eq_div (by norm_num) s

/-! ## The float words of this network -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

end Cert.Lib.GnnLaws

end
-- ==== Proof.KernelHost0.lean ====
/-
  The kernel program's first host stretch, read at an index. The stretch reshapes the node features' index column,
  pads the two rows of the edge list, counts every node's incoming edges by a scatter-add of ones, and lays out the
  first layer's message weights and bias for the table the first region builds: the two 64-row halves of the
  128-by-64 weight side by side, and the bias behind 64 zeros. Each of these arrays is stated as a function of the
  arguments, and read at explicit coordinates.
-/
import proofs.«215677_g32066225832048_cont_9to1_32_28_alg».proof.Proof.HostOps
import proofs.«215677_g32066225832048_cont_9to1_32_28_alg».proof.Proof.Gen.KernelIdeal
import proofs.«215677_g32066225832048_cont_9to1_32_28_alg».proof.Proof.LibGnnLaws
import Idealize.ShloMosaic.Lib.Pipeline.Value
import Idealize.ShloMosaic.Lib.ReduceAll
import Idealize.ShloMosaic.Lib.ValueIdx

noncomputable section

namespace Cert.Proof.KernelHost0

open Cert.KernelIdeal Cert.KernelIdeal.HostOps Idealize.ShloMosaic Idealize.ShloMosaic.TcCoe Idealize.SL.Sem
open Idealize.ShloMosaic.StableHlo Idealize.ShloMosaic.ValueIdx
open Cert.KernelIdeal.Facts₀ Cert.KernelIdeal.Facts

variable {F : FTy → Type} [FloatOps F] [Named F] [Cert.KernelIdeal.Facts]

/-! ## The arrays as functions of the arguments -/

/-- The first layer's message weight laid out for the table: rows `[0, 64)` of the 128-by-64 weight beside rows `[64, 128)`. -/
def wcat (W : FVec F S3x128x64 .f32) : FVec F S64x128 .f32 :=
  concatenate S64x128 1
    [⟨S64x64, extractStridedSlice S64x64 ![0, 0]
        (shapeCast S128x64 (extractStridedSlice S1x128x64 ![0, 0, 0] W slices_S3x128x64_S1x128x64_0_0_0) shapeCasts_S1x128x64_S128x64)
        slices_S128x64_S64x64_0_0⟩,
      ⟨S64x64, extractStridedSlice S64x64 ![64, 0]
        (shapeCast S128x64 (extractStridedSlice S1x128x64 ![0, 0, 0] W slices_S3x128x64_S1x128x64_0_0_0) shapeCasts_S1x128x64_S128x64)
        slices_S128x64_S64x64_64_0⟩]
    concatenates_S64x64_S64x64_S64x128_d1

/-- The first layer's message bias laid out for the table: 64 zeros, then the bias. -/
def bcat (b : FVec F S3x64 .f32) : FVec F S1x128 .f32 :=
  shapeCast S1x128
    (concatenate S128 0
      [⟨S64, broadcastInDim S64 ![] bcast_S_S64 (constant S_ .f32 0x00000000#32)⟩,
        ⟨S64, shapeCast S64 (extractStridedSlice S1x64 ![0, 0] b slices_S3x64_S1x64_0_0) shapeCasts_S1x64_S64⟩]
      concatenates_S64_S64_S128_d0)
    shapeCasts_S128_S1x128

/-- Every node's count of incoming edges, as a column: ones scattered onto zeros at the edges' destinations. -/
def degCol (ei : IVec S2x800000 32) : FVec F S50000x1 .f32 :=
  shapeCast S50000x1
    (Host.scatterAdd scatter_S50000_S800000x1_S800000_n_0_0_1
      (broadcastInDim S50000 ![] bcast_S_S50000 (constant S_ .f32 0x00000000#32))
      (broadcastInDim S800000x1 ![0] bcast_S800000_S800000x1_0
        (shapeCast S800000 (extractStridedSlice S1x800000 ![1, 0] ei slices_S2x800000_S1x800000_1_0) shapeCasts_S1x800000_S800000))
      (broadcastInDim S800000 ![] bcast_S_S800000 (constant S_ .f32 0x3F800000#32)))
    shapeCasts_S50000_S50000x1

theorem v0_eq (V : Valuation τ sig (Elt F)) :
    after (ops0 (F := F)) V (main_v0 : DevRef τ sig) = shapeCast S50000x1 (V (main_arg0 : DevRef τ sig) : IVec S50000 32) shapeCasts_S50000_S50000x1 := by
  after_results_simp <;> rfl

theorem v20_eq (V : Valuation τ sig (Elt F)) :
    after (ops0 (F := F)) V (main_v20 : DevRef τ sig) = wcat (V (main_arg3 : DevRef τ sig)) := by
  after_results_simp <;> rfl

theorem v23_eq (V : Valuation τ sig (Elt F)) :
    after (ops0 (F := F)) V (main_v23 : DevRef τ sig) = bcat (V (main_arg4 : DevRef τ sig)) := by
  after_results_simp <;> rfl

theorem v13_eq (V : Valuation τ sig (Elt F)) :
    after (ops0 (F := F)) V (main_v13 : DevRef τ sig) = degCol (V (main_arg1 : DevRef τ sig)) := by
  after_results_simp <;> rfl

/-! ## Read at an index -/

/-- The node features' index column is the index vector, row by row. -/
theorem v0_at (V : Valuation τ sig (Elt F)) (n : Fin 50000) :
    (after (ops0 (F := F)) V (main_v0 : DevRef τ sig) : IVec S50000x1 32) (ix2 n (0 : Fin 1))
      = (V (main_arg0 : DevRef τ sig) : IVec S50000 32) (ix1 n) := by
  rw [v0_eq]
  exact shapeCast_apply _ _ _ (ix1 n) (by rw [Shape.rowMajor_val_one, Shape.rowMajor_val_two]; simp)

/-- Row `r`, column `c` of layer 0's 128-by-64 message weight, read through the slice and the reshape. -/
theorem w0_at (W : FVec F S3x128x64 .f32) (r : Fin 128) (c : Fin 64) :
    shapeCast S128x64 (extractStridedSlice S1x128x64 ![0, 0, 0] W slices_S3x128x64_S1x128x64_0_0_0) shapeCasts_S1x128x64_S128x64 (ix2 r c)
      = W (ix3 (0 : Fin 3) r c) := by
  rw [shapeCast_apply _ shapeCasts_S1x128x64_S128x64 (ix2 r c) (ix3 (0 : Fin 1) r c)
    (by rw [Shape.rowMajor_val_three, Shape.rowMajor_val_two]; simp)]
  exact extractStridedSlice_apply _ W slices_S3x128x64_S1x128x64_0_0_0 (ix3 (0 : Fin 1) r c) (ix3 (0 : Fin 3) r c)
    (fun a => match a with | ⟨0, _⟩ => rfl | ⟨1, _⟩ => by simp | ⟨2, _⟩ => by simp)

/-- The laid-out weight at `(k, j)`, `j < 64`: the weight's row `k`, column `j`; -/
theorem wcat_left (W : FVec F S3x128x64 .f32) (k : Fin 64) (j : Fin 128) (hj : j.val < 64) :
    wcat W (ix2 k j) = W (ix3 (0 : Fin 3) (⟨k.val, by omega⟩ : Fin 128) (⟨j.val, hj⟩ : Fin 64)) := by
  unfold wcat
  rw [concatenate_pair_apply_left (1 : Fin S64x128.rank) _ _ concatenates_S64x64_S64x64_S64x128_d1 (ix2 k j) rfl
    (ix2 k (⟨j.val, hj⟩ : Fin 64)) (fun b => match b with | ⟨0, _⟩ => rfl | ⟨1, _⟩ => rfl)]
  rw [extractStridedSlice_apply ![0, 0] _ slices_S128x64_S64x64_0_0 (ix2 k (⟨j.val, hj⟩ : Fin 64))
    (ix2 (⟨k.val, by omega⟩ : Fin 128) (⟨j.val, hj⟩ : Fin 64)) (fun a => match a with | ⟨0, _⟩ => by simp | ⟨1, _⟩ => by simp)]
  exact w0_at W _ _

/-- `j ≥ 64`: the weight's row `64 + k`, column `j - 64`. -/
theorem wcat_right (W : FVec F S3x128x64 .f32) (k : Fin 64) (j : Fin 128) (hj : 64 ≤ j.val) :
    wcat W (ix2 k j) = W (ix3 (0 : Fin 3) (⟨64 + k.val, by omega⟩ : Fin 128) (⟨j.val - 64, by omega⟩ : Fin 64)) := by
  unfold wcat
  rw [concatenate_pair_apply_right (1 : Fin S64x128.rank) _ _ concatenates_S64x64_S64x64_S64x128_d1 (ix2 k j) rfl rfl
    (ix2 k (⟨j.val - 64, by omega⟩ : Fin 64))
    (fun b hb => match b with | ⟨0, _⟩ => rfl | ⟨1, _⟩ => absurd rfl hb)
    (by show j.val - 64 + 64 = j.val; omega)]
  rw [extractStridedSlice_apply ![64, 0] _ slices_S128x64_S64x64_64_0 (ix2 k (⟨j.val - 64, by omega⟩ : Fin 64))
    (ix2 (⟨64 + k.val, by omega⟩ : Fin 128) (⟨j.val - 64, by omega⟩ : Fin 64)) (fun a => match a with | ⟨0, _⟩ => by simp | ⟨1, _⟩ => by simp)]
  exact w0_at W _ _

/-- The laid-out bias at `(0, j)`, `j < 64`: the float the word `0x00000000` denotes; -/
theorem bcat_left (b : FVec F S3x64 .f32) (j : Fin 128) (hj : j.val < 64) :
    bcat b (ix2 (0 : Fin 1) j) = FloatOps.ofBits .f32 0x00000000#32 := by
  unfold bcat
  rw [shapeCast_apply _ shapeCasts_S128_S1x128 (ix2 (0 : Fin 1) j) (ix1 j)
    (by rw [Shape.rowMajor_val_one, Shape.rowMajor_val_two]; simp)]
  rw [concatenate_pair_apply_left (0 : Fin S128.rank) _ _ concatenates_S64_S64_S128_d0 (ix1 j) rfl
    (ix1 (⟨j.val, hj⟩ : Fin 64)) (fun x => match x with | ⟨0, _⟩ => rfl)]
  rfl

/-- `j ≥ 64`: entry `j - 64` of layer 0's message bias. -/
theorem bcat_right (b : FVec F S3x64 .f32) (j : Fin 128) (hj : 64 ≤ j.val) :
    bcat b (ix2 (0 : Fin 1) j) = b (ix2 (0 : Fin 3) (⟨j.val - 64, by omega⟩ : Fin 64)) := by
  unfold bcat
  rw [shapeCast_apply _ shapeCasts_S128_S1x128 (ix2 (0 : Fin 1) j) (ix1 j)
    (by rw [Shape.rowMajor_val_one, Shape.rowMajor_val_two]; simp)]
  rw [concatenate_pair_apply_right (0 : Fin S128.rank) _ _ concatenates_S64_S64_S128_d0 (ix1 j) rfl rfl
    (ix1 (⟨j.val - 64, by omega⟩ : Fin 64))
    (fun x hx => match x with | ⟨0, _⟩ => absurd rfl hx)
    (by show j.val - 64 + 64 = j.val; omega)]
  rw [shapeCast_apply _ shapeCasts_S1x64_S64 (ix1 (⟨j.val - 64, by omega⟩ : Fin 64)) (ix2 (0 : Fin 1) (⟨j.val - 64, by omega⟩ : Fin 64))
    (by rw [Shape.rowMajor_val_one, Shape.rowMajor_val_two]; simp)]
  exact extractStridedSlice_apply _ b slices_S3x64_S1x64_0_0 _ (ix2 (0 : Fin 3) (⟨j.val - 64, by omega⟩ : Fin 64))
    (fun a => match a with | ⟨0, _⟩ => rfl | ⟨1, _⟩ => by simp)

/-! ## A scatter-add into a vector read at an index -/

section VecScatter

open scoped BigOperators

/-- A rank-1 index set is its one coordinate range, so a sum over it is the sum over the coordinate. -/
def idxEquiv1 {n : Nat} : (⟨1, ![n]⟩ : Shape).Idx ≃ Fin n where
  toFun i := i 0
  invFun a := ix1 a
  left_inv i := by funext a; match a with | ⟨0, _⟩ => rfl
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(upd)` for an operand `[N]`, scatter indices `[M, 1]` and updates `[M]`:
    each update goes to the operand entry its index names. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index `[e, 0]` of update index `(e)`. -/
abbrev vecIdxU {M : Nat} (q : (⟨1, ![M]⟩ : Shape).Idx) : (⟨2, ![M, 1]⟩ : Shape).Idx :=
  fun a => match a with | ⟨0, _⟩ => ⟨(q 0).val, (q 0).isLt⟩ | ⟨1, _⟩ => ⟨0, Nat.one_pos⟩

variable {N M w : Nat} (wf : ScatterDims.WF ⟨1, ![N]⟩ ⟨2, ![M, 1]⟩ ⟨1, ![M]⟩ [] [0] [0] 1)

/-- An update starts at its index word, read signed, -/
theorem vecScatter_start0 (q : (⟨1, ![M]⟩ : Shape).Idx) (idx : IVec ⟨2, ![M, 1]⟩ w) :
    (vecScatterDims N M wf).start q idx ⟨0, Nat.zero_lt_one⟩ = (idx (vecIdxU q)).toInt := by
  unfold ScatterDims.start
  rw [dif_pos (show (⟨0, Nat.zero_lt_one⟩ : Fin 1) ∈ (vecScatterDims N M wf).scatterDimsToOperandDims from List.mem_singleton.mpr rfl)]
  have hsi : (vecScatterDims N M wf).siIdx q ⟨List.idxOf (⟨0, Nat.zero_lt_one⟩ : Fin 1) (vecScatterDims N M wf).scatterDimsToOperandDims,
      List.idxOf_lt_length_iff.2 (List.mem_singleton.mpr rfl)⟩ = vecIdxU q := by
    funext b; refine Fin.ext ?_
    match b with
    | ⟨0, _⟩ => rfl
    | ⟨1, _⟩ => rfl
  rw [hsi]

/-- and has no window: the one operand axis is inserted. -/
theorem vecScatter_window0 (q : (⟨1, ![M]⟩ : Shape).Idx) : (vecScatterDims N M wf).window q ⟨0, Nat.zero_lt_one⟩ = 0 := by
  unfold ScatterDims.window
  rw [dif_neg (by simp [ScatterDims.sKept, Shape.kept])]

/-- Update `(e)` lands at operand index `(n)` exactly when its index word, read signed, is `n`. -/
theorem vecScatter_resultIdx_eq (q : (⟨1, ![M]⟩ : Shape).Idx) (idx : IVec ⟨2, ![M, 1]⟩ w) (i : (⟨1, ![N]⟩ : Shape).Idx) :
    (vecScatterDims N M wf).resultIdx? q idx = some i ↔ (idx (vecIdxU q)).toInt = ((i 0).val : Int) := by
  have hi0 : (i 0).val < N := (i 0).isLt
  unfold ScatterDims.resultIdx?
  split
  · next h =>
    rw [Option.some.injEq]
    have h0 := h ⟨0, Nat.zero_lt_one⟩
    rw [vecScatter_start0, vecScatter_window0] at h0
    constructor
    · intro e
      have e0 := congrArg (fun f => (f ⟨0, Nat.zero_lt_one⟩).val) e
      simp only [vecScatter_start0, vecScatter_window0] at e0
      have e0' : ((idx (vecIdxU q)).toInt + ((0 : Nat) : Int)).toNat = (i 0).val := e0
      omega
    · intro e0
      funext a
      refine Fin.ext ?_
      match a with
      | ⟨0, _⟩ =>
        show ((vecScatterDims N M wf).start q idx ⟨0, Nat.zero_lt_one⟩
          + (((vecScatterDims N M wf).window q ⟨0, Nat.zero_lt_one⟩ : Nat) : Int)).toNat = (i 0).val
        rw [vecScatter_start0, vecScatter_window0, e0]
        omega
  · next h =>
    constructor
    · intro e; exact absurd e (by simp)
    · intro e0
      exfalso
      apply h
      intro a
      match a with
      | ⟨0, _⟩ =>
        show 0 ≤ (vecScatterDims N M wf).start q idx ⟨0, Nat.zero_lt_one⟩
              + (((vecScatterDims N M wf).window q ⟨0, Nat.zero_lt_one⟩ : Nat) : Int)
          ∧ (vecScatterDims N M wf).start q idx ⟨0, Nat.zero_lt_one⟩
              + (((vecScatterDims N M wf).window q ⟨0, Nat.zero_lt_one⟩ : Nat) : Int) < ((N : Nat) : Int)
        rw [vecScatter_start0, vecScatter_window0, e0]
        constructor <;> omega

/-- The scatter-add into a vector read at `(n)`, over the extended reals: the operand's entry plus the sum of the updates
    whose index word, read signed, is `n`. -/
theorem scatterAdd_vec_apply (x : (⟨1, ![N]⟩ : Shape).Idx → EReal) (idx : IVec ⟨2, ![M, 1]⟩ w)
    (upd : (⟨1, ![M]⟩ : Shape).Idx → EReal) (n : Fin N) :
    Ideal.hostScatterAdd (vecScatterDims N M wf) x idx upd (ix1 n)
      = x (ix1 n) + ∑ e : Fin M, if (idx (ix2 e ⟨0, Nat.one_pos⟩)).toInt = (n.val : Int) then upd (ix1 e) else 0 := by
  unfold Ideal.hostScatterAdd
  congr 1
  rw [Finset.sum_filter, sum_idx1]
  refine Finset.sum_congr rfl fun e _ => ?_
  have hrow : vecIdxU (ix1 e) = ix2 e ⟨0, Nat.one_pos⟩ := by
    funext a
    match a with
    | ⟨0, _⟩ => rfl
    | ⟨1, _⟩ => rfl
  simp only [vecScatter_resultIdx_eq, hrow]
  rfl

end VecScatter

/-! ## The in-degree column read at a node -/

/-- A word below 50000 is its own value read signed. -/
theorem toInt_of_lt (v : BitVec 32) (h : v.toNat < 50000) : v.toInt = (v.toNat : Int) := by
  rw [BitVec.toInt_eq_toNat_cond]; split <;> omega

/-- Row 1 of the edge list as a vector, at `e`. -/
theorem dstVec_at (ei : IVec S2x800000 32) (e : Fin 800000) :
    (shapeCast S800000 (extractStridedSlice S1x800000 ![1, 0] ei slices_S2x800000_S1x800000_1_0) shapeCasts_S1x800000_S800000 : IVec S800000 32) (ix1 e)
      = ei (ix2 (1 : Fin 2) e) := by
  rw [shapeCast_apply _ shapeCasts_S1x800000_S800000 (ix1 e) (ix2 (0 : Fin 1) e)
    (by rw [Shape.rowMajor_val_one, Shape.rowMajor_val_two]; simp)]
  exact extractStridedSlice_apply _ ei slices_S2x800000_S1x800000_1_0 (ix2 (0 : Fin 1) e) (ix2 (1 : Fin 2) e)
    (fun a => match a with | ⟨0, _⟩ => rfl | ⟨1, _⟩ => by simp)

/-- At the ideal instance the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- A vector of 800000 words viewed as a column reads, at `(e, 0)`, the vector at `e`. -/
theorem colE_at (x : IVec S800000 32) (e : Fin 800000) :
    (broadcastInDim S800000x1 ![0] bcast_S800000_S800000x1_0 x : IVec S800000x1 32) (ix2 e ⟨0, Nat.one_pos⟩) = x (ix1 e) :=
  broadcastInDim_apply _ _ _ (ix2 e ⟨0, Nat.one_pos⟩) (ix1 e) (fun a => match a with | ⟨0, _⟩ => rfl)

open scoped BigOperators in
set_option maxHeartbeats 400000 in
/-- Ones scattered onto zeros at the words of `dst`, over the extended reals, where every word names a node: at node `n`,
    the number of words equal to `n`, as a sum of ones. -/
theorem degVec_at (dst : IVec S800000 32) (h : ∀ e : Fin 800000, (dst (ix1 e)).toNat < 50000) (n : Fin 50000) :
    Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)) (ix1 n)
      = ∑ e : Fin 800000, if (dst (ix1 e)).toNat = n.val then (1 : EReal) else 0 := by
  show Host.scatterAdd (vecScatterDims 50000 800000 scatter_S50000_S800000x1_S800000_n_0_0_1_wf) _ _ _ (ix1 n) = _
  rw [scatterAdd_ideal, scatterAdd_vec_apply]
  have hz : (broadcastInDim S50000 ![] bcast_S_S50000 (constant (F := Ideal) S_ .f32 0x00000000#32) : FVec Ideal S50000 .f32) (ix1 n) = 0 := by
    show Ideal.ofBits .f32 0x00000000#32 = 0
    exact Cert.Lib.GnnLaws.ofBits_zero
  rw [hz, zero_add]
  refine Finset.sum_congr rfl fun e _ => ?_
  have hone : (broadcastInDim S800000 ![] bcast_S_S800000 (constant (F := Ideal) S_ .f32 0x3F800000#32) : FVec Ideal S800000 .f32) (ix1 e) = 1 := by
    show Ideal.ofBits .f32 0x3F800000#32 = 1
    exact Cert.Lib.GnnLaws.ofBits_one
  rw [hone, colE_at, toInt_of_lt _ (h e)]
  by_cases hn : (dst (ix1 e)).toNat = n.val
  · rw [if_pos hn, if_pos (by rw [hn])]
  · rw [if_neg hn, if_neg (fun hh => hn (by exact_mod_cast hh))]

open scoped BigOperators in
set_option maxHeartbeats 400000 in
/-- Over the extended reals, where every destination word names a node, the in-degree column at node `n` is the number of
    edges into `n`, as a sum of ones. -/
theorem degCol_at (ei : IVec S2x800000 32) (h : ∀ e : Fin 800000, (ei (ix2 (1 : Fin 2) e)).toNat < 50000) (n : Fin 50000) :
    degCol (F := Ideal) ei (ix2 n (0 : Fin 1))
      = ∑ e : Fin 800000, if (ei (ix2 (1 : Fin 2) e)).toNat = n.val then (1 : EReal) else 0 := by
  unfold degCol
  rw [shapeCast_apply _ shapeCasts_S50000_S50000x1 (ix2 n (0 : Fin 1)) (ix1 n)
    (by rw [Shape.rowMajor_val_one, Shape.rowMajor_val_two]; simp)]
  rw [degVec_at _ (fun e => by rw [dstVec_at]; exact h e) n]
  refine Finset.sum_congr rfl fun e _ => ?_
  rw [dstVec_at]

open scoped BigOperators in
set_option maxHeartbeats 400000 in
/-- The first host stretch leaves, at `main_v13`, that count at every node. -/
theorem v13_at (V : Valuation τ sig (Elt Ideal))
    (h : ∀ e : Fin 800000, ((V (main_arg1 : DevRef τ sig) : IVec S2x800000 32) (ix2 (1 : Fin 2) e)).toNat < 50000) (n : Fin 50000) :
    (after (ops0 (F := Ideal)) V (main_v13 : DevRef τ sig) : FVec Ideal S50000x1 .f32) (ix2 n (0 : Fin 1))
      = ∑ e : Fin 800000, if ((V (main_arg1 : DevRef τ sig) : IVec S2x800000 32) (ix2 (1 : Fin 2) e)).toNat = n.val then (1 : EReal) else 0 := by
  rw [v13_eq]
  exact degCol_at _ h n

end Cert.Proof.KernelHost0

end
-- ==== Proof.KernelHost1.lean ====
/-
  The kernel program's second host stretch, as functions of what it reads. After the first SparseCore call the stretch
  keeps the first 800000 rows of the call's output (the padding rows are dropped), adds them up per destination node
  by a scatter-add onto zeros, and slices the first layer's update weights and second-message weights and the second
  layer's message weights (laid out for the next table: the two 64-row halves side by side, the bias behind 64 zeros)
  out of the stacked arguments.
-/
import proofs.«215677_g32066225832048_cont_9to1_32_28_alg».proof.Proof.HostOps
import proofs.«215677_g32066225832048_cont_9to1_32_28_alg».proof.Proof.Gen.KernelIdeal
import Idealize.ShloMosaic.Lib.Pipeline.Value
import Idealize.ShloMosaic.Lib.ValueIdx

noncomputable section

namespace Cert.Proof.KernelHost1

open Cert.KernelIdeal Cert.KernelIdeal.HostOps Idealize.ShloMosaic Idealize.ShloMosaic.TcCoe Idealize.SL.Sem
open Idealize.ShloMosaic.StableHlo Idealize.ShloMosaic.ValueIdx
open Cert.KernelIdeal.Facts₀ Cert.KernelIdeal.Facts

variable {F : FTy → Type} [FloatOps F] [Named F] [Cert.KernelIdeal.Facts]

/-- The messages added up per destination node: the first 800000 rows of a call's output scattered onto zeros. -/
def aggMsg (dst : IVec S800000 32) (out : FVec F S819200x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (extractStridedSlice S800000x64 ![0, 0] out slices_S819200x64_S800000x64_0_0)

/-- Layer 0's 64-by-64 matrix of a stacked [3,64,64] argument. -/
def mat0 (W : FVec F S3x64x64 .f32) : FVec F S64x64 .f32 :=
  shapeCast S64x64 (extractStridedSlice S1x64x64 ![0, 0, 0] W slices_S3x64x64_S1x64x64_0_0_0) shapeCasts_S1x64x64_S64x64

/-- Layer 0's row of a stacked [3,64] argument, as a [1,64] row. -/
def row0 (b : FVec F S3x64 .f32) : FVec F S1x64 .f32 :=
  shapeCast S1x64 (shapeCast S64 (extractStridedSlice S1x64 ![0, 0] b slices_S3x64_S1x64_0_0) shapeCasts_S1x64_S64) shapeCasts_S64_S1x64

/-- Layer 1's message weight laid out for the table: rows [0, 64) of its 128-by-64 matrix beside rows [64, 128). -/
def wcat1 (W : FVec F S3x128x64 .f32) : FVec F S64x128 .f32 :=
  concatenate S64x128 1
    [⟨S64x64, extractStridedSlice S64x64 ![0, 0]
        (shapeCast S128x64 (extractStridedSlice S1x128x64 ![1, 0, 0] W slices_S3x128x64_S1x128x64_1_0_0) shapeCasts_S1x128x64_S128x64)
        slices_S128x64_S64x64_0_0⟩,
      ⟨S64x64, extractStridedSlice S64x64 ![64, 0]
        (shapeCast S128x64 (extractStridedSlice S1x128x64 ![1, 0, 0] W slices_S3x128x64_S1x128x64_1_0_0) shapeCasts_S1x128x64_S128x64)
        slices_S128x64_S64x64_64_0⟩]
    concatenates_S64x64_S64x64_S64x128_d1

/-- Layer 1's message bias laid out for the table: 64 zeros, then the bias. -/
def bcat1 (b : FVec F S3x64 .f32) : FVec F S1x128 .f32 :=
  shapeCast S1x128
    (concatenate S128 0
      [⟨S64, broadcastInDim S64 ![] bcast_S_S64 (constant S_ .f32 0x00000000#32)⟩,
        ⟨S64, shapeCast S64 (extractStridedSlice S1x64 ![1, 0] b slices_S3x64_S1x64_1_0) shapeCasts_S1x64_S64⟩]
      concatenates_S64_S64_S128_d0)
    shapeCasts_S128_S1x128

theorem v29_eq (V : Valuation τ sig (Elt F)) :
    after (ops1 (F := F)) V (main_v29 : DevRef τ sig) = aggMsg (V (main_v4 : DevRef τ sig)) (V (main_v25 : DevRef τ sig)) := by
  after_results_simp <;> rfl

theorem v31_eq (V : Valuation τ sig (Elt F)) :
    after (ops1 (F := F)) V (main_v31 : DevRef τ sig) = mat0 (V (main_arg7 : DevRef τ sig)) := by
  after_results_simp <;> rfl

theorem v34_eq (V : Valuation τ sig (Elt F)) :
    after (ops1 (F := F)) V (main_v34 : DevRef τ sig) = row0 (V (main_arg8 : DevRef τ sig)) := by
  after_results_simp <;> rfl

theorem v36_eq (V : Valuation τ sig (Elt F)) :
    after (ops1 (F := F)) V (main_v36 : DevRef τ sig) = mat0 (V (main_arg5 : DevRef τ sig)) := by
  after_results_simp <;> rfl

theorem v39_eq (V : Valuation τ sig (Elt F)) :
    after (ops1 (F := F)) V (main_v39 : DevRef τ sig) = row0 (V (main_arg6 : DevRef τ sig)) := by
  after_results_simp <;> rfl

theorem v46_eq (V : Valuation τ sig (Elt F)) :
    after (ops1 (F := F)) V (main_v46 : DevRef τ sig) = wcat1 (V (main_arg3 : DevRef τ sig)) := by
  after_results_simp <;> rfl

theorem v49_eq (V : Valuation τ sig (Elt F)) :
    after (ops1 (F := F)) V (main_v49 : DevRef τ sig) = bcat1 (V (main_arg4 : DevRef τ sig)) := by
  after_results_simp <;> rfl

end Cert.Proof.KernelHost1

end
-- ==== Proof.KernelHost23.lean ====
/-
  The kernel program's third and fourth host stretches, as functions of what they read: after the second and third
  SparseCore calls the same — the call's first 800000 output rows added up per destination node, and the layer's
  update and second-message weights sliced out of the stacked arguments; the third stretch also lays out the last
  layer's message weights for its table, the fourth reshapes the read-out's first bias and last bias.
-/
import proofs.«215677_g32066225832048_cont_9to1_32_28_alg».proof.Proof.KernelHost1

noncomputable section

namespace Cert.Proof.KernelHost23

open Cert.KernelIdeal Cert.KernelIdeal.HostOps Idealize.ShloMosaic Idealize.ShloMosaic.TcCoe Idealize.SL.Sem
open Idealize.ShloMosaic.StableHlo Idealize.ShloMosaic.ValueIdx Cert.Proof.KernelHost1
open Cert.KernelIdeal.Facts₀ Cert.KernelIdeal.Facts

variable {F : FTy → Type} [FloatOps F] [Named F] [Cert.KernelIdeal.Facts]

/-- Layer 1's and layer 2's 64-by-64 matrices of a stacked [3,64,64] argument. -/
def mat1 (W : FVec F S3x64x64 .f32) : FVec F S64x64 .f32 :=
  shapeCast S64x64 (extractStridedSlice S1x64x64 ![1, 0, 0] W slices_S3x64x64_S1x64x64_1_0_0) shapeCasts_S1x64x64_S64x64
def mat2 (W : FVec F S3x64x64 .f32) : FVec F S64x64 .f32 :=
  shapeCast S64x64 (extractStridedSlice S1x64x64 ![2, 0, 0] W slices_S3x64x64_S1x64x64_2_0_0) shapeCasts_S1x64x64_S64x64

/-- Layer 1's and layer 2's rows of a stacked [3,64] argument, as [1,64] rows. -/
def row1 (b : FVec F S3x64 .f32) : FVec F S1x64 .f32 :=
  shapeCast S1x64 (shapeCast S64 (extractStridedSlice S1x64 ![1, 0] b slices_S3x64_S1x64_1_0) shapeCasts_S1x64_S64) shapeCasts_S64_S1x64
def row2 (b : FVec F S3x64 .f32) : FVec F S1x64 .f32 :=
  shapeCast S1x64 (shapeCast S64 (extractStridedSlice S1x64 ![2, 0] b slices_S3x64_S1x64_2_0) shapeCasts_S1x64_S64) shapeCasts_S64_S1x64

/-- Layer 2's message weight and bias laid out for the table. -/
def wcat2 (W : FVec F S3x128x64 .f32) : FVec F S64x128 .f32 :=
  concatenate S64x128 1
    [⟨S64x64, extractStridedSlice S64x64 ![0, 0]
        (shapeCast S128x64 (extractStridedSlice S1x128x64 ![2, 0, 0] W slices_S3x128x64_S1x128x64_2_0_0) shapeCasts_S1x128x64_S128x64)
        slices_S128x64_S64x64_0_0⟩,
      ⟨S64x64, extractStridedSlice S64x64 ![64, 0]
        (shapeCast S128x64 (extractStridedSlice S1x128x64 ![2, 0, 0] W slices_S3x128x64_S1x128x64_2_0_0) shapeCasts_S1x128x64_S128x64)
        slices_S128x64_S64x64_64_0⟩]
    concatenates_S64x64_S64x64_S64x128_d1
def bcat2 (b : FVec F S3x64 .f32) : FVec F S1x128 .f32 :=
  shapeCast S1x128
    (concatenate S128 0
      [⟨S64, broadcastInDim S64 ![] bcast_S_S64 (constant S_ .f32 0x00000000#32)⟩,
        ⟨S64, shapeCast S64 (extractStridedSlice S1x64 ![2, 0] b slices_S3x64_S1x64_2_0) shapeCasts_S1x64_S64⟩]
      concatenates_S64_S64_S128_d0)
    shapeCasts_S128_S1x128

/-! ## The third stretch -/

theorem v55_eq (V : Valuation τ sig (Elt F)) :
    after (ops2 (F := F)) V (main_v55 : DevRef τ sig) = aggMsg (V (main_v4 : DevRef τ sig)) (V (main_v51 : DevRef τ sig)) := by
  after_results_simp <;> rfl
theorem v57_eq (V : Valuation τ sig (Elt F)) : after (ops2 (F := F)) V (main_v57 : DevRef τ sig) = mat1 (V (main_arg7 : DevRef τ sig)) := by
  after_results_simp <;> rfl
theorem v60_eq (V : Valuation τ sig (Elt F)) : after (ops2 (F := F)) V (main_v60 : DevRef τ sig) = row1 (V (main_arg8 : DevRef τ sig)) := by
  after_results_simp <;> rfl
theorem v62_eq (V : Valuation τ sig (Elt F)) : after (ops2 (F := F)) V (main_v62 : DevRef τ sig) = mat1 (V (main_arg5 : DevRef τ sig)) := by
  after_results_simp <;> rfl
theorem v65_eq (V : Valuation τ sig (Elt F)) : after (ops2 (F := F)) V (main_v65 : DevRef τ sig) = row1 (V (main_arg6 : DevRef τ sig)) := by
  after_results_simp <;> rfl
theorem v72_eq (V : Valuation τ sig (Elt F)) : after (ops2 (F := F)) V (main_v72 : DevRef τ sig) = wcat2 (V (main_arg3 : DevRef τ sig)) := by
  after_results_simp <;> rfl
theorem v75_eq (V : Valuation τ sig (Elt F)) : after (ops2 (F := F)) V (main_v75 : DevRef τ sig) = bcat2 (V (main_arg4 : DevRef τ sig)) := by
  after_results_simp <;> rfl

/-! ## The fourth stretch -/

theorem v81_eq (V : Valuation τ sig (Elt F)) :
    after (ops3 (F := F)) V (main_v81 : DevRef τ sig) = aggMsg (V (main_v4 : DevRef τ sig)) (V (main_v77 : DevRef τ sig)) := by
  after_results_simp <;> rfl
theorem v83_eq (V : Valuation τ sig (Elt F)) : after (ops3 (F := F)) V (main_v83 : DevRef τ sig) = mat2 (V (main_arg7 : DevRef τ sig)) := by
  after_results_simp <;> rfl
theorem v86_eq (V : Valuation τ sig (Elt F)) : after (ops3 (F := F)) V (main_v86 : DevRef τ sig) = row2 (V (main_arg8 : DevRef τ sig)) := by
  after_results_simp <;> rfl
theorem v88_eq (V : Valuation τ sig (Elt F)) : after (ops3 (F := F)) V (main_v88 : DevRef τ sig) = mat2 (V (main_arg5 : DevRef τ sig)) := by
  after_results_simp <;> rfl
theorem v91_eq (V : Valuation τ sig (Elt F)) : after (ops3 (F := F)) V (main_v91 : DevRef τ sig) = row2 (V (main_arg6 : DevRef τ sig)) := by
  after_results_simp <;> rfl
theorem v92_eq (V : Valuation τ sig (Elt F)) :
    after (ops3 (F := F)) V (main_v92 : DevRef τ sig) = shapeCast S1x64 (V (main_arg10 : DevRef τ sig) : FVec F S64 .f32) shapeCasts_S64_S1x64 := by
  after_results_simp <;> rfl
theorem v93_eq (V : Valuation τ sig (Elt F)) :
    after (ops3 (F := F)) V (main_v93 : DevRef τ sig) = shapeCast S1x1 (V (main_arg12 : DevRef τ sig) : FVec F S1 .f32) shapeCasts_S1_S1x1 := by
  after_results_simp <;> rfl

end Cert.Proof.KernelHost23

end
-- ==== Proof.ChainGlue.lean ====
/-
  Along the kernel program's chain of valuations: the arrays the first host stretch computes and nothing later writes
  (the node features' index column, the edges' destinations, the in-degree column, the first table's weights) hold
  at every later valuation what the first stretch left; and what the second TensorCore region reads — the first
  SparseCore call's result, its rows added up per destination node, and the first layer's weight slices — in terms
  of the launch memory and the named pieces.
-/
import proofs.«215677_g32066225832048_cont_9to1_32_28_alg».proof.Proof.LaunchMainV
import proofs.«215677_g32066225832048_cont_9to1_32_28_alg».proof.Proof.KernelHost0
import proofs.«215677_g32066225832048_cont_9to1_32_28_alg».proof.Proof.KernelHost1
import proofs.«215677_g32066225832048_cont_9to1_32_28_alg».proof.Proof.KernelHost23

noncomputable section

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23

open Idealize.ShloMosaic Idealize.ShloMosaic.StableHlo Idealize.ShloMosaic.TcCoe
open Idealize.SL.Sem

variable {F : FTy → Type} [FloatOps F] [Named F] [∀ e, Nonempty (Elt F e)]
variable (m : (ℓ : Loc nD τ sig) → Buf (Elt F) ℓ) (h : IdxOK (conts m))

/-- What the first stretch computes and nothing later writes. -/
abbrev fixed0 : List (Ref sig .tc) := [main_v0, main_v4, main_v13, main_v20, main_v23]

theorem f2 (d : Dev nD) : Keeps fixed0 (V1 m d) (V2 m d) :=
  keeps_of_off (outs := [main_v24_0, main_v24_1]) (W := V1 m d) (W' := V2 m d)
    (fun r hr => Wout0_off (fun _ => V1 m d) (OtcV (F := F) 0) (RcV (F := F) 0) d r hr) (by decide)
theorem f3 (d : Dev nD) : Keeps fixed0 (V1 m d) (V3 m h d) :=
  (f2 m d).trans (keeps_update (L := fixed0) (o := main_v25) (V2 m d) (OUT0 m h d) (by decide))
theorem f4 (d : Dev nD) : Keeps fixed0 (V1 m d) (V4 m h d) :=
  (f3 m h d).trans (keeps_after (L := fixed0) ops1_writes (by decide) (V3 m h d))
theorem f5 (d : Dev nD) : Keeps fixed0 (V1 m d) (V5 m h d) :=
  (f4 m h d).trans (keeps_of_off (outs := [main_v50_0, main_v50_1]) (W := V4 m h d) (W' := V5 m h d)
    (fun r hr => Wout2_off (fun _ => V4 m h d) (OtcV (F := F) 1) (RcV (F := F) 1) d r hr) (by decide))
theorem f6 (d : Dev nD) : Keeps fixed0 (V1 m d) (V6 m h d) :=
  (f5 m h d).trans (keeps_update (L := fixed0) (o := main_v51) (V5 m h d) (OUT1 m h d) (by decide))
theorem f7 (d : Dev nD) : Keeps fixed0 (V1 m d) (V7 m h d) :=
  (f6 m h d).trans (keeps_after (L := fixed0) ops2_writes (by decide) (V6 m h d))
theorem f8 (d : Dev nD) : Keeps fixed0 (V1 m d) (V8 m h d) :=
  (f7 m h d).trans (keeps_of_off (outs := [main_v76_0, main_v76_1]) (W := V7 m h d) (W' := V8 m h d)
    (fun r hr => Wout4_off (fun _ => V7 m h d) (OtcV (F := F) 2) (RcV (F := F) 2) d r hr) (by decide))
theorem f9 (d : Dev nD) : Keeps fixed0 (V1 m d) (V9 m h d) :=
  (f8 m h d).trans (keeps_update (L := fixed0) (o := main_v77) (V8 m h d) (OUT2 m h d) (by decide))
theorem f10 (d : Dev nD) : Keeps fixed0 (V1 m d) (V10 m h d) :=
  (f9 m h d).trans (keeps_after (L := fixed0) ops3_writes (by decide) (V9 m h d))

/-! ## The calls' results sit where the calls wrote them -/

theorem V3_out (d : Dev nD) : V3 m h d (Proc.devRef .tc main_v25) = OUT0 m h d := Function.update_self _ _ _
theorem V6_out (d : Dev nD) : V6 m h d (Proc.devRef .tc main_v51) = OUT1 m h d := Function.update_self _ _ _
theorem V9_out (d : Dev nD) : V9 m h d (Proc.devRef .tc main_v77) = OUT2 m h d := Function.update_self _ _ _

/-! ## What the second, third and fourth regions read of the calls' results: the rows added up per destination -/

theorem V4_agg (d : Dev nD) :
    V4 m h d (Proc.devRef .tc main_v29) = aggMsg (V1 m d (Proc.devRef .tc main_v4)) (OUT0 m h d) := by
  have e := v29_eq (F := F) (V3 m h d)
  rw [show V3 m h d (main_v4 : DevRef τ sig) = V1 m d (Proc.devRef .tc main_v4) from f3 m h d main_v4 (by decide),
    show V3 m h d (main_v25 : DevRef τ sig) = OUT0 m h d from V3_out m h d] at e
  exact e

theorem V7_agg (d : Dev nD) :
    V7 m h d (Proc.devRef .tc main_v55) = aggMsg (V1 m d (Proc.devRef .tc main_v4)) (OUT1 m h d) := by
  have e := v55_eq (F := F) (V6 m h d)
  rw [show V6 m h d (main_v4 : DevRef τ sig) = V1 m d (Proc.devRef .tc main_v4) from f6 m h d main_v4 (by decide),
    show V6 m h d (main_v51 : DevRef τ sig) = OUT1 m h d from V6_out m h d] at e
  exact e

theorem V10_agg (d : Dev nD) :
    V10 m h d (Proc.devRef .tc main_v81) = aggMsg (V1 m d (Proc.devRef .tc main_v4)) (OUT2 m h d) := by
  have e := v81_eq (F := F) (V9 m h d)
  rw [show V9 m h d (main_v4 : DevRef τ sig) = V1 m d (Proc.devRef .tc main_v4) from f9 m h d main_v4 (by decide),
    show V9 m h d (main_v77 : DevRef τ sig) = OUT2 m h d from V9_out m h d] at e
  exact e

/-! ## The weight slices are slices of the launch memory's arguments -/

theorem arg_at (d : Dev nD) (W : Valuation τ sig (Elt F)) (hk : Keeps kept (V1 m d) W) (a : Ref sig .tc) (ha : a ∈ args) :
    W (Proc.devRef .tc a) = launchContents m d (Proc.devRef .tc a) :=
  (hk a (List.mem_append_left _ ha)).trans (k1 m d a ha)

theorem V4_sw (d : Dev nD) : V4 m h d (Proc.devRef .tc main_v31) = mat0 (launchContents m d (Proc.devRef .tc main_arg7)) := by
  have e := v31_eq (F := F) (V3 m h d)
  rw [show V3 m h d (main_arg7 : DevRef τ sig) = launchContents m d (Proc.devRef .tc main_arg7) from arg_at m d _ (k3 m h d) main_arg7 (by decide)] at e
  exact e

theorem V4_w2 (d : Dev nD) : V4 m h d (Proc.devRef .tc main_v36) = mat0 (launchContents m d (Proc.devRef .tc main_arg5)) := by
  have e := v36_eq (F := F) (V3 m h d)
  rw [show V3 m h d (main_arg5 : DevRef τ sig) = launchContents m d (Proc.devRef .tc main_arg5) from arg_at m d _ (k3 m h d) main_arg5 (by decide)] at e
  exact e

theorem V4_wc (d : Dev nD) : V4 m h d (Proc.devRef .tc main_v46) = wcat1 (launchContents m d (Proc.devRef .tc main_arg3)) := by
  have e := v46_eq (F := F) (V3 m h d)
  rw [show V3 m h d (main_arg3 : DevRef τ sig) = launchContents m d (Proc.devRef .tc main_arg3) from arg_at m d _ (k3 m h d) main_arg3 (by decide)] at e
  exact e

end Cert.Proof.IdealValue

end
-- ==== Proof.RegionValues.lean ====
/-
  What the TensorCore regions leave in their output arrays, block by block: the blocks of an output window tile
  (the part it writes of) its array, one block per grid point, so block `t` of the array after the region is what
  point `t` wrote back — the body's payload of that point's input blocks.
-/
import proofs.«215677_g32066225832048_cont_9to1_32_28_alg».proof.Proof.RegionSegs
import Idealize.ShloMosaic.Lib.Pipeline.Value
import Idealize.ShloMosaic.Lib.ValueIdx

set_option maxRecDepth 16384

noncomputable section

namespace Cert.Proof.IdealLaunch

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.Sem
open Idealize.ShloMosaic.Rounds
open Idealize.ShloMosaic.Pipeline (Dat)
open Idealize.ShloMosaic.ValueIdx (ix2)

variable {F : FTy → Type} [FloatOps F] [Named F]

/-! ## Region 0: the states `h` and the first layer's table -/

/-- Output window 4 of region 0: the index map sends distinct grid points to distinct block indices, -/
theorem idx_inj0_4 : ∀ t t' : Fin cfg0.N, win0_4.index t = win0_4.index t' → t = t' :=
  (by decide +kernel : ∀ t t' : Fin grid0.N, win0_4.index t = win0_4.index t' → t = t')

/-- so two points' blocks share no index of the array, -/
theorem disjoint0_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj0_4 t t' h)

/-- and block `t` of the array the region leaves, read back through the window, is what point `t` wrote back:
    the body's payload of the point's input blocks. -/
theorem blocks0_4 (V : Dev nD → Valuation τ sig (Elt F)) (O : Dev nD → CellTallies nD τ sig (HIx 3)) (Rc : Dev nD → Set (SemLoc sig × HIx 3))
    (c : Dev nD) (t : Fin cfg0.N) :
    ((cfg0.win 4).blk t).view.read (Elt F) ((pdatsAt V O Rc 0 c).arrAt 4 cfg0.N)
      = k0_pay1 (Cert.KernelIdeal.Embed.iblk c (Vtc V c) 0 t) (Cert.KernelIdeal.Embed.iblk c (Vtc V c) 1 t) := by
  refine ((pdatsAt V O Rc 0 c).read_blk_arrAt_eq_flushed 4 disjoint0_4 cfg0.N t t.isLt (flush0_4 t)).trans ?_
  show (cfg0.win 4).cut (grid0.coords t) ((pdatsAt V O Rc 0 c).after 4 t) = _
  rw [show (pdatsAt V O Rc 0 c).after 4 t = _ from Cert.KernelIdeal.Embed.after_4 c (Vtc V c) _ (O c) (Rc c) t]
  rfl

/-- Output window 5 of region 0: the index map sends distinct grid points to distinct block indices, -/
theorem idx_inj0_5 : ∀ t t' : Fin cfg0.N, win0_5.index t = win0_5.index t' → t = t' :=
  (by decide +kernel : ∀ t t' : Fin grid0.N, win0_5.index t = win0_5.index t' → t = t')

/-- so two points' blocks share no index of the array, -/
theorem disjoint0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj0_5 t t' h)

/-- and block `t` of the array the region leaves, read back through the window, is what point `t` wrote back:
    the part inside the array of the body's payload of the point's input blocks (the array's last rows are beyond every block). -/
theorem blocks0_5 (V : Dev nD → Valuation τ sig (Elt F)) (O : Dev nD → CellTallies nD τ sig (HIx 3)) (Rc : Dev nD → Set (SemLoc sig × HIx 3))
    (c : Dev nD) (t : Fin cfg0.N) :
    ((cfg0.win 5).blk t).view.read (Elt F) ((pdatsAt V O Rc 0 c).arrAt 5 cfg0.N)
      = (cfg0.win 5).cut (grid0.coords t) (k0_pay2 (Cert.KernelIdeal.Embed.iblk c (Vtc V c) 0 t) (Cert.KernelIdeal.Embed.iblk c (Vtc V c) 1 t) (Cert.KernelIdeal.Embed.iblk c (Vtc V c) 2 t) (Cert.KernelIdeal.Embed.iblk c (Vtc V c) 3 t)) := by
  refine ((pdatsAt V O Rc 0 c).read_blk_arrAt_eq_flushed 5 disjoint0_5 cfg0.N t t.isLt (flush0_5 t)).trans ?_
  show (cfg0.win 5).cut (grid0.coords t) ((pdatsAt V O Rc 0 c).after 5 t) = _
  rw [show (pdatsAt V O Rc 0 c).after 5 t = _ from Cert.KernelIdeal.Embed.after_5 c (Vtc V c) _ (O c) (Rc c) t]

/-! ## Regions 1 and 2: the new states and the next layer's table -/

/-- Output window 9 of region 1: the index map sends distinct grid points to distinct block indices, -/
theorem idx_inj2_9 : ∀ t t' : Fin cfg2.N, win2_9.index t = win2_9.index t' → t = t' :=
  (by decide +kernel : ∀ t t' : Fin grid2.N, win2_9.index t = win2_9.index t' → t = t')

/-- so two points' blocks share no index of the array, -/
theorem disjoint2_9 : ∀ t t' : Fin cfg2.N, (cfg2.win 9).flush t = true → (cfg2.win 9).flush t' = true → t ≠ t' →
    Disjoint ((cfg2.win 9).blk t).view.set ((cfg2.win 9).blk t').view.set :=
  fun t t' _ _ hne => (cfg2.win 9).disjoint_blk fun h => hne (idx_inj2_9 t t' h)

/-- and block `t` of the array the region leaves, read back through the window, is what point `t` wrote back:
    the body's payload of the point's input blocks. -/
theorem blocks2_9 (V : Dev nD → Valuation τ sig (Elt F)) (O : Dev nD → CellTallies nD τ sig (HIx 3)) (Rc : Dev nD → Set (SemLoc sig × HIx 3))
    (c : Dev nD) (t : Fin cfg2.N) :
    ((cfg2.win 9).blk t).view.read (Elt F) ((pdatsAt V O Rc 1 c).arrAt 9 cfg2.N)
      = Cert.KernelIdeal.Upd2.out9 (Cert.KernelIdeal.Upd2.iblk c (Vtc V c) 0 t) (Cert.KernelIdeal.Upd2.iblk c (Vtc V c) 1 t) (Cert.KernelIdeal.Upd2.iblk c (Vtc V c) 2 t) (Cert.KernelIdeal.Upd2.iblk c (Vtc V c) 3 t) (Cert.KernelIdeal.Upd2.iblk c (Vtc V c) 4 t) (Cert.KernelIdeal.Upd2.iblk c (Vtc V c) 5 t) (Cert.KernelIdeal.Upd2.iblk c (Vtc V c) 6 t) := by
  refine ((pdatsAt V O Rc 1 c).read_blk_arrAt_eq_flushed 9 disjoint2_9 cfg2.N t t.isLt (flush2_9 t)).trans ?_
  show (cfg2.win 9).cut (grid2.coords t) ((pdatsAt V O Rc 1 c).after 9 t) = _
  rw [show (pdatsAt V O Rc 1 c).after 9 t = _ from Cert.KernelIdeal.Upd2.after_9 c (Vtc V c) _ (O c) (Rc c) t]
  rfl

/-- Output window 10 of region 1: the index map sends distinct grid points to distinct block indices, -/
theorem idx_inj2_10 : ∀ t t' : Fin cfg2.N, win2_10.index t = win2_10.index t' → t = t' :=
  (by decide +kernel : ∀ t t' : Fin grid2.N, win2_10.index t = win2_10.index t' → t = t')

/-- so two points' blocks share no index of the array, -/
theorem disjoint2_10 : ∀ t t' : Fin cfg2.N, (cfg2.win 10).flush t = true → (cfg2.win 10).flush t' = true → t ≠ t' →
    Disjoint ((cfg2.win 10).blk t).view.set ((cfg2.win 10).blk t').view.set :=
  fun t t' _ _ hne => (cfg2.win 10).disjoint_blk fun h => hne (idx_inj2_10 t t' h)

/-- and block `t` of the array the region leaves, read back through the window, is what point `t` wrote back:
    the part inside the array of the body's payload of the point's input blocks (the array's last rows are beyond every block). -/
theorem blocks2_10 (V : Dev nD → Valuation τ sig (Elt F)) (O : Dev nD → CellTallies nD τ sig (HIx 3)) (Rc : Dev nD → Set (SemLoc sig × HIx 3))
    (c : Dev nD) (t : Fin cfg2.N) :
    ((cfg2.win 10).blk t).view.read (Elt F) ((pdatsAt V O Rc 1 c).arrAt 10 cfg2.N)
      = (cfg2.win 10).cut (grid2.coords t) (Cert.KernelIdeal.Upd2.out10 (Cert.KernelIdeal.Upd2.iblk c (Vtc V c) 0 t) (Cert.KernelIdeal.Upd2.iblk c (Vtc V c) 1 t) (Cert.KernelIdeal.Upd2.iblk c (Vtc V c) 2 t) (Cert.KernelIdeal.Upd2.iblk c (Vtc V c) 3 t) (Cert.KernelIdeal.Upd2.iblk c (Vtc V c) 4 t) (Cert.KernelIdeal.Upd2.iblk c (Vtc V c) 5 t) (Cert.KernelIdeal.Upd2.iblk c (Vtc V c) 6 t) (Cert.KernelIdeal.Upd2.iblk c (Vtc V c) 7 t) (Cert.KernelIdeal.Upd2.iblk c (Vtc V c) 8 t)) := by
  refine ((pdatsAt V O Rc 1 c).read_blk_arrAt_eq_flushed 10 disjoint2_10 cfg2.N t t.isLt (flush2_10 t)).trans ?_
  show (cfg2.win 10).cut (grid2.coords t) ((pdatsAt V O Rc 1 c).after 10 t) = _
  rw [show (pdatsAt V O Rc 1 c).after 10 t = _ from Cert.KernelIdeal.Upd2.after_10 c (Vtc V c) _ (O c) (Rc c) t]

/-- Output window 9 of region 2: the index map sends distinct grid points to distinct block indices, -/
theorem idx_inj4_9 : ∀ t t' : Fin cfg4.N, win4_9.index t = win4_9.index t' → t = t' :=
  (by decide +kernel : ∀ t t' : Fin grid4.N, win4_9.index t = win4_9.index t' → t = t')

/-- so two points' blocks share no index of the array, -/
theorem disjoint4_9 : ∀ t t' : Fin cfg4.N, (cfg4.win 9).flush t = true → (cfg4.win 9).flush t' = true → t ≠ t' →
    Disjoint ((cfg4.win 9).blk t).view.set ((cfg4.win 9).blk t').view.set :=
  fun t t' _ _ hne => (cfg4.win 9).disjoint_blk fun h => hne (idx_inj4_9 t t' h)

/-- and block `t` of the array the region leaves, read back through the window, is what point `t` wrote back:
    the body's payload of the point's input blocks. -/
theorem blocks4_9 (V : Dev nD → Valuation τ sig (Elt F)) (O : Dev nD → CellTallies nD τ sig (HIx 3)) (Rc : Dev nD → Set (SemLoc sig × HIx 3))
    (c : Dev nD) (t : Fin cfg4.N) :
    ((cfg4.win 9).blk t).view.read (Elt F) ((pdatsAt V O Rc 2 c).arrAt 9 cfg4.N)
      = Cert.KernelIdeal.Upd4.out9 (Cert.KernelIdeal.Upd4.iblk c (Vtc V c) 0 t) (Cert.KernelIdeal.Upd4.iblk c (Vtc V c) 1 t) (Cert.KernelIdeal.Upd4.iblk c (Vtc V c) 2 t) (Cert.KernelIdeal.Upd4.iblk c (Vtc V c) 3 t) (Cert.KernelIdeal.Upd4.iblk c (Vtc V c) 4 t) (Cert.KernelIdeal.Upd4.iblk c (Vtc V c) 5 t) (Cert.KernelIdeal.Upd4.iblk c (Vtc V c) 6 t) := by
  refine ((pdatsAt V O Rc 2 c).read_blk_arrAt_eq_flushed 9 disjoint4_9 cfg4.N t t.isLt (flush4_9 t)).trans ?_
  show (cfg4.win 9).cut (grid4.coords t) ((pdatsAt V O Rc 2 c).after 9 t) = _
  rw [show (pdatsAt V O Rc 2 c).after 9 t = _ from Cert.KernelIdeal.Upd4.after_9 c (Vtc V c) _ (O c) (Rc c) t]
  rfl

/-- Output window 10 of region 2: the index map sends distinct grid points to distinct block indices, -/
theorem idx_inj4_10 : ∀ t t' : Fin cfg4.N, win4_10.index t = win4_10.index t' → t = t' :=
  (by decide +kernel : ∀ t t' : Fin grid4.N, win4_10.index t = win4_10.index t' → t = t')

/-- so two points' blocks share no index of the array, -/
theorem disjoint4_10 : ∀ t t' : Fin cfg4.N, (cfg4.win 10).flush t = true → (cfg4.win 10).flush t' = true → t ≠ t' →
    Disjoint ((cfg4.win 10).blk t).view.set ((cfg4.win 10).blk t').view.set :=
  fun t t' _ _ hne => (cfg4.win 10).disjoint_blk fun h => hne (idx_inj4_10 t t' h)

/-- and block `t` of the array the region leaves, read back through the window, is what point `t` wrote back:
    the part inside the array of the body's payload of the point's input blocks (the array's last rows are beyond every block). -/
theorem blocks4_10 (V : Dev nD → Valuation τ sig (Elt F)) (O : Dev nD → CellTallies nD τ sig (HIx 3)) (Rc : Dev nD → Set (SemLoc sig × HIx 3))
    (c : Dev nD) (t : Fin cfg4.N) :
    ((cfg4.win 10).blk t).view.read (Elt F) ((pdatsAt V O Rc 2 c).arrAt 10 cfg4.N)
      = (cfg4.win 10).cut (grid4.coords t) (Cert.KernelIdeal.Upd4.out10 (Cert.KernelIdeal.Upd4.iblk c (Vtc V c) 0 t) (Cert.KernelIdeal.Upd4.iblk c (Vtc V c) 1 t) (Cert.KernelIdeal.Upd4.iblk c (Vtc V c) 2 t) (Cert.KernelIdeal.Upd4.iblk c (Vtc V c) 3 t) (Cert.KernelIdeal.Upd4.iblk c (Vtc V c) 4 t) (Cert.KernelIdeal.Upd4.iblk c (Vtc V c) 5 t) (Cert.KernelIdeal.Upd4.iblk c (Vtc V c) 6 t) (Cert.KernelIdeal.Upd4.iblk c (Vtc V c) 7 t) (Cert.KernelIdeal.Upd4.iblk c (Vtc V c) 8 t)) := by
  refine ((pdatsAt V O Rc 2 c).read_blk_arrAt_eq_flushed 10 disjoint4_10 cfg4.N t t.isLt (flush4_10 t)).trans ?_
  show (cfg4.win 10).cut (grid4.coords t) ((pdatsAt V O Rc 2 c).after 10 t) = _
  rw [show (pdatsAt V O Rc 2 c).after 10 t = _ from Cert.KernelIdeal.Upd4.after_10 c (Vtc V c) _ (O c) (Rc c) t]

/-! ## Region 3: the head's single result -/

/-- The output window is written back at the last point only, so no two flushing points differ. -/
theorem disjoint6_11 : ∀ t t' : Fin cfg6.N, (cfg6.win 11).flush t = true → (cfg6.win 11).flush t' = true → t ≠ t' →
    Disjoint ((cfg6.win 11).blk t).view.set ((cfg6.win 11).blk t').view.set :=
  fun t t' h h' hne => absurd (Fin.ext (by
    have h1 := (flush6_11 t).mp h
    have h2 := (flush6_11 t').mp h'
    have h3 : t.val < 25 := lt_of_lt_of_eq t.isLt (show cfg6.N = 25 from N_6)
    have h4 : t'.val < 25 := lt_of_lt_of_eq t'.isLt (show cfg6.N = 25 from N_6)
    omega)) hne

/-- The result the region leaves, read back through the window at the last point, is the head of the running sums
    after all 25 points. -/
theorem blocks6_11 (V : Dev nD → Valuation τ sig (Elt F)) (O : Dev nD → CellTallies nD τ sig (HIx 3)) (Rc : Dev nD → Set (SemLoc sig × HIx 3))
    (c : Dev nD) (t : Fin cfg6.N) (ht : t.val = 24) :
    ((cfg6.win 11).blk t).view.read (Elt F) ((pdatsAt V O Rc 3 c).arrAt 11 cfg6.N)
      = Cert.KernelIdeal.Head.headOut (Cert.KernelIdeal.Head.acc c (Vtc V c) t.val t.isLt) (Cert.KernelIdeal.Head.iblk c (Vtc V c) 7 t) (Cert.KernelIdeal.Head.iblk c (Vtc V c) 8 t) (Cert.KernelIdeal.Head.iblk c (Vtc V c) 9 t) (Cert.KernelIdeal.Head.iblk c (Vtc V c) 10 t) := by
  refine ((pdatsAt V O Rc 3 c).read_blk_arrAt_eq_flushed 11 disjoint6_11 cfg6.N t t.isLt ((flush6_11 t).mpr (by omega))).trans ?_
  show (cfg6.win 11).cut (grid6.coords t) ((pdatsAt V O Rc 3 c).after 11 t) = _
  rw [show (pdatsAt V O Rc 3 c).after 11 t = _ from Cert.KernelIdeal.Head.after_11 c (Vtc V c) _ (O c) (Rc c) t]
  rfl

/-! ## The whole arrays -/

/-! ### Region 0, output window 4: the whole array -/

/-- The window's block index at point `t` is `(t, 0)`: the blocks are consecutive bands of 2000 rows. -/
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- An index of the array is in point `t`'s block iff each coordinate is in the block's range on its axis. -/
theorem mem_blk0_4 (t : Fin cfg0.N) (i : S50000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v24_0).slice (win0_4.rect t)).set ↔ _
  rw [View.set_slice_whole, Rect.mem_set_unit]
  exact Iff.rfl

/-- The point whose block holds row `r`. -/
def ptOf0 (r : Fin 50000) : Fin cfg0.N := ⟨r.val / 2000, by rw [show cfg0.N = 25 from N_0]; have := r.isLt; omega⟩

/-- THE ARRAY the region leaves, as one function of the entry contents: row `r` is row `r mod 2000` of the body's payload
    of the input blocks of point `r / 2000`. -/
def G0_4 (V : Dev nD → Valuation τ sig (Elt F)) (c : Dev nD) : S50000x64.Idx → Elt F .f32 := fun i =>
  k0_pay1 (Cert.KernelIdeal.Embed.iblk c (Vtc V c) 0 (ptOf0 (i 0))) (Cert.KernelIdeal.Embed.iblk c (Vtc V c) 1 (ptOf0 (i 0)))
    (ix2 (n0 := 2000) (n1 := 64) ⟨(i 0).val % 2000, Nat.mod_lt _ (by decide)⟩ (i 1))

/-- What point `t` writes back is block `t` of that function. -/
theorem flushed0_4_eq (V : Dev nD → Valuation τ sig (Elt F)) (O : Dev nD → CellTallies nD τ sig (HIx 3)) (Rc : Dev nD → Set (SemLoc sig × HIx 3))
    (c : Dev nD) (t : Fin cfg0.N) :
    (pdatsAt V O Rc 0 c).flushed 4 t = ((cfg0.win 4).blk t).view.read (Elt F) (G0_4 V c) := by
  show (cfg0.win 4).cut (grid0.coords t) ((pdatsAt V O Rc 0 c).after 4 t) = _
  rw [show (pdatsAt V O Rc 0 c).after 4 t = _ from Cert.KernelIdeal.Embed.after_4 c (Vtc V c) _ (O c) (Rc c) t]
  obtain ⟨e0, e1⟩ := idx0_4 t
  funext j
  show k0_pay1 (Cert.KernelIdeal.Embed.iblk c (Vtc V c) 0 t) (Cert.KernelIdeal.Embed.iblk c (Vtc V c) 1 t) j = G0_4 V c (((cfg0.win 4).blk t).view.emb j)
  have hj0 : (j 0).val < 2000 := (j 0).isLt
  have h0 : ((((cfg0.win 4).blk t).view.emb j) 0).val = t.val * 2000 + (j 0).val := by
    show win0_4.index t (0 : Fin 2) * 2000 + 1 * (j 0).val = _
    rw [e0]; omega
  have h1 : ((((cfg0.win 4).blk t).view.emb j) 1).val = (j 1).val := by
    show win0_4.index t (1 : Fin 2) * 64 + 1 * (j 1).val = _
    rw [e1]; omega
  have ht : ptOf0 ((((cfg0.win 4).blk t).view.emb j) 0) = t :=
    Fin.ext (by show ((((cfg0.win 4).blk t).view.emb j) 0).val / 2000 = t.val; rw [h0]; omega)
  have hy : (ix2 (n0 := 2000) (n1 := 64) ⟨((((cfg0.win 4).blk t).view.emb j) 0).val % 2000, Nat.mod_lt _ (by decide)⟩
      ((((cfg0.win 4).blk t).view.emb j) 1) : S2000x64.Idx) = j := by
    funext a
    match a with
    | ⟨0, _⟩ => exact Fin.ext (by show ((((cfg0.win 4).blk t).view.emb j) 0).val % 2000 = (j 0).val; rw [h0]; omega)
    | ⟨1, _⟩ => exact Fin.ext h1
  unfold G0_4
  rw [ht, hy]

/-- Every index of the array is in some point's block. -/
theorem cover0_4 (i : S50000x64.Idx) :
    ∃ t : Fin cfg0.N, (cfg0.win 4).flush t = true ∧ i ∈ ((cfg0.win 4).blk t).view.set := by
  refine ⟨ptOf0 (i 0), flush0_4 _, ?_⟩
  rw [mem_blk0_4]
  obtain ⟨e0, e1⟩ := idx0_4 (ptOf0 (i 0))
  have hi0 : (i 0).val < 50000 := (i 0).isLt
  have hi1 : (i 1).val < 64 := (i 1).isLt
  intro a
  match a with
  | ⟨0, _⟩ =>
    show win0_4.index (ptOf0 (i 0)) (0 : Fin 2) * 2000 ≤ (i 0).val ∧ (i 0).val < win0_4.index (ptOf0 (i 0)) (0 : Fin 2) * 2000 + 2000
    rw [e0]
    show (i 0).val / 2000 * 2000 ≤ (i 0).val ∧ (i 0).val < (i 0).val / 2000 * 2000 + 2000
    omega
  | ⟨1, _⟩ =>
    show win0_4.index (ptOf0 (i 0)) (1 : Fin 2) * 64 ≤ (i 1).val ∧ (i 1).val < win0_4.index (ptOf0 (i 0)) (1 : Fin 2) * 64 + 64
    rw [e1]; omega

/-- THE WHOLE-ARRAY POST: the array ends holding that function. -/
theorem final0_4 (V : Dev nD → Valuation τ sig (Elt F)) (O : Dev nD → CellTallies nD τ sig (HIx 3)) (Rc : Dev nD → Set (SemLoc sig × HIx 3))
    (c : Dev nD) : (pdatsAt V O Rc 0 c).arrAt 4 cfg0.N = G0_4 V c :=
  (pdatsAt V O Rc 0 c).arrAt_eq_of_cover 4 (G0_4 V c) (fun t _ => flushed0_4_eq V O Rc c t) cover0_4

/-! ### Region 1, output window 9: the whole array -/

/-- The window's block index at point `t` is `(t, 0)`: the blocks are consecutive bands of 2000 rows. -/
theorem idx2_9 : ∀ t : Fin cfg2.N, win2_9.index t (0 : Fin 2) = t.val ∧ win2_9.index t (1 : Fin 2) = 0 :=
  (by decide +kernel : ∀ t : Fin grid2.N, win2_9.index t (0 : Fin 2) = t.val ∧ win2_9.index t (1 : Fin 2) = 0)

/-- An index of the array is in point `t`'s block iff each coordinate is in the block's range on its axis. -/
theorem mem_blk2_9 (t : Fin cfg2.N) (i : S50000x64.Idx) :
    i ∈ ((cfg2.win 9).blk t).view.set ↔ ∀ a : Fin 2, win2_9.index t a * S2000x64.size a ≤ (i a).val
      ∧ (i a).val < win2_9.index t a * S2000x64.size a + S2000x64.size a := by
  show i ∈ ((View.whole main_v50_0).slice (win2_9.rect t)).set ↔ _
  rw [View.set_slice_whole, Rect.mem_set_unit]
  exact Iff.rfl

/-- The point whose block holds row `r`. -/
def ptOf2 (r : Fin 50000) : Fin cfg2.N := ⟨r.val / 2000, by rw [show cfg2.N = 25 from N_2]; have := r.isLt; omega⟩

/-- THE ARRAY the region leaves, as one function of the entry contents: row `r` is row `r mod 2000` of the body's payload
    of the input blocks of point `r / 2000`. -/
def G2_9 (V : Dev nD → Valuation τ sig (Elt F)) (c : Dev nD) : S50000x64.Idx → Elt F .f32 := fun i =>
  Cert.KernelIdeal.Upd2.out9 (Cert.KernelIdeal.Upd2.iblk c (Vtc V c) 0 (ptOf2 (i 0))) (Cert.KernelIdeal.Upd2.iblk c (Vtc V c) 1 (ptOf2 (i 0))) (Cert.KernelIdeal.Upd2.iblk c (Vtc V c) 2 (ptOf2 (i 0))) (Cert.KernelIdeal.Upd2.iblk c (Vtc V c) 3 (ptOf2 (i 0))) (Cert.KernelIdeal.Upd2.iblk c (Vtc V c) 4 (ptOf2 (i 0))) (Cert.KernelIdeal.Upd2.iblk c (Vtc V c) 5 (ptOf2 (i 0))) (Cert.KernelIdeal.Upd2.iblk c (Vtc V c) 6 (ptOf2 (i 0)))
    (ix2 (n0 := 2000) (n1 := 64) ⟨(i 0).val % 2000, Nat.mod_lt _ (by decide)⟩ (i 1))

/-- What point `t` writes back is block `t` of that function. -/
theorem flushed2_9_eq (V : Dev nD → Valuation τ sig (Elt F)) (O : Dev nD → CellTallies nD τ sig (HIx 3)) (Rc : Dev nD → Set (SemLoc sig × HIx 3))
    (c : Dev nD) (t : Fin cfg2.N) :
    (pdatsAt V O Rc 1 c).flushed 9 t = ((cfg2.win 9).blk t).view.read (Elt F) (G2_9 V c) := by
  show (cfg2.win 9).cut (grid2.coords t) ((pdatsAt V O Rc 1 c).after 9 t) = _
  rw [show (pdatsAt V O Rc 1 c).after 9 t = _ from Cert.KernelIdeal.Upd2.after_9 c (Vtc V c) _ (O c) (Rc c) t]
  obtain ⟨e0, e1⟩ := idx2_9 t
  funext j
  show Cert.KernelIdeal.Upd2.out9 (Cert.KernelIdeal.Upd2.iblk c (Vtc V c) 0 t) (Cert.KernelIdeal.Upd2.iblk c (Vtc V c) 1 t) (Cert.KernelIdeal.Upd2.iblk c (Vtc V c) 2 t) (Cert.KernelIdeal.Upd2.iblk c (Vtc V c) 3 t) (Cert.KernelIdeal.Upd2.iblk c (Vtc V c) 4 t) (Cert.KernelIdeal.Upd2.iblk c (Vtc V c) 5 t) (Cert.KernelIdeal.Upd2.iblk c (Vtc V c) 6 t) j = G2_9 V c (((cfg2.win 9).blk t).view.emb j)
  have hj0 : (j 0).val < 2000 := (j 0).isLt
  have h0 : ((((cfg2.win 9).blk t).view.emb j) 0).val = t.val * 2000 + (j 0).val := by
    show win2_9.index t (0 : Fin 2) * 2000 + 1 * (j 0).val = _
    rw [e0]; omega
  have h1 : ((((cfg2.win 9).blk t).view.emb j) 1).val = (j 1).val := by
    show win2_9.index t (1 : Fin 2) * 64 + 1 * (j 1).val = _
    rw [e1]; omega
  have ht : ptOf2 ((((cfg2.win 9).blk t).view.emb j) 0) = t :=
    Fin.ext (by show ((((cfg2.win 9).blk t).view.emb j) 0).val / 2000 = t.val; rw [h0]; omega)
  have hy : (ix2 (n0 := 2000) (n1 := 64) ⟨((((cfg2.win 9).blk t).view.emb j) 0).val % 2000, Nat.mod_lt _ (by decide)⟩
      ((((cfg2.win 9).blk t).view.emb j) 1) : S2000x64.Idx) = j := by
    funext a
    match a with
    | ⟨0, _⟩ => exact Fin.ext (by show ((((cfg2.win 9).blk t).view.emb j) 0).val % 2000 = (j 0).val; rw [h0]; omega)
    | ⟨1, _⟩ => exact Fin.ext h1
  unfold G2_9
  rw [ht, hy]

/-- Every index of the array is in some point's block. -/
theorem cover2_9 (i : S50000x64.Idx) :
    ∃ t : Fin cfg2.N, (cfg2.win 9).flush t = true ∧ i ∈ ((cfg2.win 9).blk t).view.set := by
  refine ⟨ptOf2 (i 0), flush2_9 _, ?_⟩
  rw [mem_blk2_9]
  obtain ⟨e0, e1⟩ := idx2_9 (ptOf2 (i 0))
  have hi0 : (i 0).val < 50000 := (i 0).isLt
  have hi1 : (i 1).val < 64 := (i 1).isLt
  intro a
  match a with
  | ⟨0, _⟩ =>
    show win2_9.index (ptOf2 (i 0)) (0 : Fin 2) * 2000 ≤ (i 0).val ∧ (i 0).val < win2_9.index (ptOf2 (i 0)) (0 : Fin 2) * 2000 + 2000
    rw [e0]
    show (i 0).val / 2000 * 2000 ≤ (i 0).val ∧ (i 0).val < (i 0).val / 2000 * 2000 + 2000
    omega
  | ⟨1, _⟩ =>
    show win2_9.index (ptOf2 (i 0)) (1 : Fin 2) * 64 ≤ (i 1).val ∧ (i 1).val < win2_9.index (ptOf2 (i 0)) (1 : Fin 2) * 64 + 64
    rw [e1]; omega

/-- THE WHOLE-ARRAY POST: the array ends holding that function. -/
theorem final2_9 (V : Dev nD → Valuation τ sig (Elt F)) (O : Dev nD → CellTallies nD τ sig (HIx 3)) (Rc : Dev nD → Set (SemLoc sig × HIx 3))
    (c : Dev nD) : (pdatsAt V O Rc 1 c).arrAt 9 cfg2.N = G2_9 V c :=
  (pdatsAt V O Rc 1 c).arrAt_eq_of_cover 9 (G2_9 V c) (fun t _ => flushed2_9_eq V O Rc c t) cover2_9

/-! ### Region 2, output window 9: the whole array -/

/-- The window's block index at point `t` is `(t, 0)`: the blocks are consecutive bands of 2000 rows. -/
theorem idx4_9 : ∀ t : Fin cfg4.N, win4_9.index t (0 : Fin 2) = t.val ∧ win4_9.index t (1 : Fin 2) = 0 :=
  (by decide +kernel : ∀ t : Fin grid4.N, win4_9.index t (0 : Fin 2) = t.val ∧ win4_9.index t (1 : Fin 2) = 0)

/-- An index of the array is in point `t`'s block iff each coordinate is in the block's range on its axis. -/
theorem mem_blk4_9 (t : Fin cfg4.N) (i : S50000x64.Idx) :
    i ∈ ((cfg4.win 9).blk t).view.set ↔ ∀ a : Fin 2, win4_9.index t a * S2000x64.size a ≤ (i a).val
      ∧ (i a).val < win4_9.index t a * S2000x64.size a + S2000x64.size a := by
  show i ∈ ((View.whole main_v76_0).slice (win4_9.rect t)).set ↔ _
  rw [View.set_slice_whole, Rect.mem_set_unit]
  exact Iff.rfl

/-- The point whose block holds row `r`. -/
def ptOf4 (r : Fin 50000) : Fin cfg4.N := ⟨r.val / 2000, by rw [show cfg4.N = 25 from N_4]; have := r.isLt; omega⟩

/-- THE ARRAY the region leaves, as one function of the entry contents: row `r` is row `r mod 2000` of the body's payload
    of the input blocks of point `r / 2000`. -/
def G4_9 (V : Dev nD → Valuation τ sig (Elt F)) (c : Dev nD) : S50000x64.Idx → Elt F .f32 := fun i =>
  Cert.KernelIdeal.Upd4.out9 (Cert.KernelIdeal.Upd4.iblk c (Vtc V c) 0 (ptOf4 (i 0))) (Cert.KernelIdeal.Upd4.iblk c (Vtc V c) 1 (ptOf4 (i 0))) (Cert.KernelIdeal.Upd4.iblk c (Vtc V c) 2 (ptOf4 (i 0))) (Cert.KernelIdeal.Upd4.iblk c (Vtc V c) 3 (ptOf4 (i 0))) (Cert.KernelIdeal.Upd4.iblk c (Vtc V c) 4 (ptOf4 (i 0))) (Cert.KernelIdeal.Upd4.iblk c (Vtc V c) 5 (ptOf4 (i 0))) (Cert.KernelIdeal.Upd4.iblk c (Vtc V c) 6 (ptOf4 (i 0)))
    (ix2 (n0 := 2000) (n1 := 64) ⟨(i 0).val % 2000, Nat.mod_lt _ (by decide)⟩ (i 1))

/-- What point `t` writes back is block `t` of that function. -/
theorem flushed4_9_eq (V : Dev nD → Valuation τ sig (Elt F)) (O : Dev nD → CellTallies nD τ sig (HIx 3)) (Rc : Dev nD → Set (SemLoc sig × HIx 3))
    (c : Dev nD) (t : Fin cfg4.N) :
    (pdatsAt V O Rc 2 c).flushed 9 t = ((cfg4.win 9).blk t).view.read (Elt F) (G4_9 V c) := by
  show (cfg4.win 9).cut (grid4.coords t) ((pdatsAt V O Rc 2 c).after 9 t) = _
  rw [show (pdatsAt V O Rc 2 c).after 9 t = _ from Cert.KernelIdeal.Upd4.after_9 c (Vtc V c) _ (O c) (Rc c) t]
  obtain ⟨e0, e1⟩ := idx4_9 t
  funext j
  show Cert.KernelIdeal.Upd4.out9 (Cert.KernelIdeal.Upd4.iblk c (Vtc V c) 0 t) (Cert.KernelIdeal.Upd4.iblk c (Vtc V c) 1 t) (Cert.KernelIdeal.Upd4.iblk c (Vtc V c) 2 t) (Cert.KernelIdeal.Upd4.iblk c (Vtc V c) 3 t) (Cert.KernelIdeal.Upd4.iblk c (Vtc V c) 4 t) (Cert.KernelIdeal.Upd4.iblk c (Vtc V c) 5 t) (Cert.KernelIdeal.Upd4.iblk c (Vtc V c) 6 t) j = G4_9 V c (((cfg4.win 9).blk t).view.emb j)
  have hj0 : (j 0).val < 2000 := (j 0).isLt
  have h0 : ((((cfg4.win 9).blk t).view.emb j) 0).val = t.val * 2000 + (j 0).val := by
    show win4_9.index t (0 : Fin 2) * 2000 + 1 * (j 0).val = _
    rw [e0]; omega
  have h1 : ((((cfg4.win 9).blk t).view.emb j) 1).val = (j 1).val := by
    show win4_9.index t (1 : Fin 2) * 64 + 1 * (j 1).val = _
    rw [e1]; omega
  have ht : ptOf4 ((((cfg4.win 9).blk t).view.emb j) 0) = t :=
    Fin.ext (by show ((((cfg4.win 9).blk t).view.emb j) 0).val / 2000 = t.val; rw [h0]; omega)
  have hy : (ix2 (n0 := 2000) (n1 := 64) ⟨((((cfg4.win 9).blk t).view.emb j) 0).val % 2000, Nat.mod_lt _ (by decide)⟩
      ((((cfg4.win 9).blk t).view.emb j) 1) : S2000x64.Idx) = j := by
    funext a
    match a with
    | ⟨0, _⟩ => exact Fin.ext (by show ((((cfg4.win 9).blk t).view.emb j) 0).val % 2000 = (j 0).val; rw [h0]; omega)
    | ⟨1, _⟩ => exact Fin.ext h1
  unfold G4_9
  rw [ht, hy]

/-- Every index of the array is in some point's block. -/
theorem cover4_9 (i : S50000x64.Idx) :
    ∃ t : Fin cfg4.N, (cfg4.win 9).flush t = true ∧ i ∈ ((cfg4.win 9).blk t).view.set := by
  refine ⟨ptOf4 (i 0), flush4_9 _, ?_⟩
  rw [mem_blk4_9]
  obtain ⟨e0, e1⟩ := idx4_9 (ptOf4 (i 0))
  have hi0 : (i 0).val < 50000 := (i 0).isLt
  have hi1 : (i 1).val < 64 := (i 1).isLt
  intro a
  match a with
  | ⟨0, _⟩ =>
    show win4_9.index (ptOf4 (i 0)) (0 : Fin 2) * 2000 ≤ (i 0).val ∧ (i 0).val < win4_9.index (ptOf4 (i 0)) (0 : Fin 2) * 2000 + 2000
    rw [e0]
    show (i 0).val / 2000 * 2000 ≤ (i 0).val ∧ (i 0).val < (i 0).val / 2000 * 2000 + 2000
    omega
  | ⟨1, _⟩ =>
    show win4_9.index (ptOf4 (i 0)) (1 : Fin 2) * 64 ≤ (i 1).val ∧ (i 1).val < win4_9.index (ptOf4 (i 0)) (1 : Fin 2) * 64 + 64
    rw [e1]; omega

/-- THE WHOLE-ARRAY POST: the array ends holding that function. -/
theorem final4_9 (V : Dev nD → Valuation τ sig (Elt F)) (O : Dev nD → CellTallies nD τ sig (HIx 3)) (Rc : Dev nD → Set (SemLoc sig × HIx 3))
    (c : Dev nD) : (pdatsAt V O Rc 2 c).arrAt 9 cfg4.N = G4_9 V c :=
  (pdatsAt V O Rc 2 c).arrAt_eq_of_cover 9 (G4_9 V c) (fun t _ => flushed4_9_eq V O Rc c t) cover4_9

/-! ### Region 3: the result -/

/-- The last grid point. -/
def t24 : Fin cfg6.N := ⟨24, by rw [show cfg6.N = 25 from N_6]; omega⟩

/-- The output window's one block is the whole 1 × 1 array. -/
theorem idx6_11 : ∀ t : Fin cfg6.N, win6_11.index t (0 : Fin 2) = 0 ∧ win6_11.index t (1 : Fin 2) = 0 :=
  (by decide +kernel : ∀ t : Fin grid6.N, win6_11.index t (0 : Fin 2) = 0 ∧ win6_11.index t (1 : Fin 2) = 0)

/-- THE RESULT the region leaves, as one function of the entry contents: the head of the running sums after all
    25 points (the small head arrays are the same block at every point). -/
def G6_11 (V : Dev nD → Valuation τ sig (Elt F)) (c : Dev nD) : S1x1.Idx → Elt F .f32 :=
  Cert.KernelIdeal.Head.headOut (Cert.KernelIdeal.Head.acc c (Vtc V c) (t24).val (t24).isLt) (Cert.KernelIdeal.Head.iblk c (Vtc V c) 7 t24) (Cert.KernelIdeal.Head.iblk c (Vtc V c) 8 t24) (Cert.KernelIdeal.Head.iblk c (Vtc V c) 9 t24) (Cert.KernelIdeal.Head.iblk c (Vtc V c) 10 t24)

theorem flushed6_11_eq (V : Dev nD → Valuation τ sig (Elt F)) (O : Dev nD → CellTallies nD τ sig (HIx 3)) (Rc : Dev nD → Set (SemLoc sig × HIx 3))
    (c : Dev nD) (t : Fin cfg6.N) (hf : (cfg6.win 11).flush t = true) :
    (pdatsAt V O Rc 3 c).flushed 11 t = ((cfg6.win 11).blk t).view.read (Elt F) (G6_11 V c) := by
  have ht : t = t24 := Fin.ext (by
    have h1 := (flush6_11 t).mp hf
    have h2 : t.val < 25 := lt_of_lt_of_eq t.isLt (show cfg6.N = 25 from N_6)
    show t.val = 24
    omega)
  subst ht
  show (cfg6.win 11).cut (grid6.coords t24) ((pdatsAt V O Rc 3 c).after 11 t24) = _
  rw [show (pdatsAt V O Rc 3 c).after 11 t24 = _ from Cert.KernelIdeal.Head.after_11 c (Vtc V c) _ (O c) (Rc c) t24]
  obtain ⟨e0, e1⟩ := idx6_11 t24
  funext j
  show Cert.KernelIdeal.Head.headOut (Cert.KernelIdeal.Head.acc c (Vtc V c) (t24).val (t24).isLt) (Cert.KernelIdeal.Head.iblk c (Vtc V c) 7 t24) (Cert.KernelIdeal.Head.iblk c (Vtc V c) 8 t24) (Cert.KernelIdeal.Head.iblk c (Vtc V c) 9 t24) (Cert.KernelIdeal.Head.iblk c (Vtc V c) 10 t24) j
    = G6_11 V c (((cfg6.win 11).blk t24).view.emb j)
  have hy : ((cfg6.win 11).blk t24).view.emb j = j := by
    funext a
    match a with
    | ⟨0, _⟩ => exact Fin.ext (by show win6_11.index t24 (0 : Fin 2) * 1 + 1 * (j 0).val = (j 0).val; rw [e0]; omega)
    | ⟨1, _⟩ => exact Fin.ext (by show win6_11.index t24 (1 : Fin 2) * 1 + 1 * (j 1).val = (j 1).val; rw [e1]; omega)
  rw [hy]
  rfl

theorem cover6_11 (i : S1x1.Idx) :
    ∃ t : Fin cfg6.N, (cfg6.win 11).flush t = true ∧ i ∈ ((cfg6.win 11).blk t).view.set := by
  refine ⟨t24, (flush6_11 t24).mpr (by show 24 % 25 = 24; rfl), ?_⟩
  show i ∈ ((View.whole main_v94).slice (win6_11.rect t24)).set
  rw [View.set_slice_whole, Rect.mem_set_unit]
  obtain ⟨e0, e1⟩ := idx6_11 t24
  have hi0 : (i 0).val < 1 := (i 0).isLt
  have hi1 : (i 1).val < 1 := (i 1).isLt
  intro a
  match a with
  | ⟨0, _⟩ =>
    show win6_11.index t24 (0 : Fin 2) * 1 ≤ (i 0).val ∧ (i 0).val < win6_11.index t24 (0 : Fin 2) * 1 + 1
    rw [e0]; omega
  | ⟨1, _⟩ =>
    show win6_11.index t24 (1 : Fin 2) * 1 ≤ (i 1).val ∧ (i 1).val < win6_11.index t24 (1 : Fin 2) * 1 + 1
    rw [e1]; omega

/-- THE WHOLE-ARRAY POST for the head: the 1 × 1 result. -/
theorem final6_11 (V : Dev nD → Valuation τ sig (Elt F)) (O : Dev nD → CellTallies nD τ sig (HIx 3)) (Rc : Dev nD → Set (SemLoc sig × HIx 3))
    (c : Dev nD) : (pdatsAt V O Rc 3 c).arrAt 11 cfg6.N = G6_11 V c :=
  (pdatsAt V O Rc 3 c).arrAt_eq_of_cover 11 (G6_11 V c) (fun t hf => flushed6_11_eq V O Rc c t hf) cover6_11

end Cert.Proof.IdealLaunch

end
-- ==== Proof.RegionMath.lean ====
/-
  The first TensorCore region's payloads, opened row by row at the ideal instance: the embedding lookup is a
  selection of a table row by a one-hot row, and the first message layer's table is an affine map of the states. The
  update regions' payloads likewise: the new states as the rectified sum of two 64-term products and two bias terms;
  and the head's result as nested 64-term sums of the running sums.
-/
import proofs.«215677_g32066225832048_cont_9to1_32_28_alg».proof.Proof.RegionValues
import proofs.«215677_g32066225832048_cont_9to1_32_28_alg».proof.Proof.LibGnnLaws
import Idealize.ShloMosaic.PureOps.Ideal.Laws
import Idealize.ShloMosaic.Lib.ValueLayout
import Idealize.ShloMosaic.Lib.ValueIdx

set_option maxRecDepth 16384

noncomputable section

open scoped BigOperators

namespace Cert.Proof.IdealMath

open Cert.KernelIdeal Cert.KernelIdeal.Gen
open Idealize.ShloMosaic Idealize.ShloMosaic.ValueIdx

/-! ### `dot_S2000x120_S120x64_S2000x64_1_0_0_1_n_n`: a 2000 × 120 by 120 × 64 product, read at an index -/

theorem lhs_emb_0 (i : S2000x64.Idx) (q : dot_S2000x120_S120x64_S2000x64_1_0_0_1_n_n.contr.Idx) : (dot_S2000x120_S120x64_S2000x64_1_0_0_1_n_n.lhsIdx i q 0).val = (i 0).val := by
  unfold DotDims.lhsIdx
  rw [dif_neg (show ¬(0 : Fin S2000x120.rank) ∈ dot_S2000x120_S120x64_S2000x64_1_0_0_1_n_n.lhsBatch by decide), dif_pos (show (0 : Fin S2000x120.rank) ∈ dot_S2000x120_S120x64_S2000x64_1_0_0_1_n_n.lhsNonContracting by decide)]
  rfl
theorem lhs_emb_1 (i : S2000x64.Idx) (q : dot_S2000x120_S120x64_S2000x64_1_0_0_1_n_n.contr.Idx) : (dot_S2000x120_S120x64_S2000x64_1_0_0_1_n_n.lhsIdx i q 1).val = (q ⟨0, by decide⟩).val :=
  dot_S2000x120_S120x64_S2000x64_1_0_0_1_n_n.lhsIdx_val_of_single rfl i q
theorem rhs_emb_0 (i : S2000x64.Idx) (q : dot_S2000x120_S120x64_S2000x64_1_0_0_1_n_n.contr.Idx) : (dot_S2000x120_S120x64_S2000x64_1_0_0_1_n_n.rhsIdx i q 0).val = (q ⟨0, by decide⟩).val :=
  dot_S2000x120_S120x64_S2000x64_1_0_0_1_n_n.rhsIdx_val_of_single rfl i q
theorem rhs_emb_1 (i : S2000x64.Idx) (q : dot_S2000x120_S120x64_S2000x64_1_0_0_1_n_n.contr.Idx) : (dot_S2000x120_S120x64_S2000x64_1_0_0_1_n_n.rhsIdx i q 1).val = (i 1).val := by
  unfold DotDims.rhsIdx
  rw [dif_neg (show ¬(1 : Fin S120x64.rank) ∈ dot_S2000x120_S120x64_S2000x64_1_0_0_1_n_n.rhsBatch by decide), dif_pos (show (1 : Fin S120x64.rank) ∈ dot_S2000x120_S120x64_S2000x64_1_0_0_1_n_n.rhsNonContracting by decide)]
  rfl

/-- The product into the zero accumulator at `(r, j)`: the dot product of row `r` and column `j`. -/
theorem matmul_emb_apply (a : FVec Ideal S2000x120 .f32) (b : FVec Ideal S120x64 .f32) (r : Fin 2000) (j : Fin 64) :
    FloatOps.matmul dot_S2000x120_S120x64_S2000x64_1_0_0_1_n_n none a b (constant (F := Ideal) S2000x64 .f32 0x00000000#32) (ix2 r j)
      = ∑ k : Fin 120, a (ix2 r k) * b (ix2 k j) := by
  rw [Ideal.matmul_constant_zero_apply, ← Equiv.sum_comp (ValueIdx.contrEquiv1 dot_S2000x120_S120x64_S2000x64_1_0_0_1_n_n 120 rfl rfl).symm]
  refine Finset.sum_congr rfl fun k _ => ?_
  have hk := ValueIdx.contrEquiv1_symm_val dot_S2000x120_S120x64_S2000x64_1_0_0_1_n_n 120 rfl rfl k
  have el : dot_S2000x120_S120x64_S2000x64_1_0_0_1_n_n.lhsIdx (ix2 r j) ((ValueIdx.contrEquiv1 dot_S2000x120_S120x64_S2000x64_1_0_0_1_n_n 120 rfl rfl).symm k) = ix2 r k := funext fun ax => Fin.ext (by
    match ax with
    | ⟨0, _⟩ => exact lhs_emb_0 _ _
    | ⟨1, _⟩ => exact (lhs_emb_1 _ _).trans hk)
  have er : dot_S2000x120_S120x64_S2000x64_1_0_0_1_n_n.rhsIdx (ix2 r j) ((ValueIdx.contrEquiv1 dot_S2000x120_S120x64_S2000x64_1_0_0_1_n_n 120 rfl rfl).symm k) = ix2 k j := funext fun ax => Fin.ext (by
    match ax with
    | ⟨0, _⟩ => exact (rhs_emb_0 _ _).trans hk
    | ⟨1, _⟩ => exact rhs_emb_1 _ _)
  rw [el, er]

/-! ### `dot_S2000x64_S64x128_S2000x128_1_0_0_1_n_n`: a 2000 × 64 by 64 × 128 product, read at an index -/

theorem lhs_tab_0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_tab_1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem rhs_tab_0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem rhs_tab_1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product into the zero accumulator at `(r, j)`: the dot product of row `r` and column `j`. -/
theorem matmul_tab_apply (a : FVec Ideal S2000x64 .f32) (b : FVec Ideal S64x128 .f32) (r : Fin 2000) (j : Fin 128) :
    FloatOps.matmul dot_S2000x64_S64x128_S2000x128_1_0_0_1_n_n none a b (constant (F := Ideal) S2000x128 .f32 0x00000000#32) (ix2 r j)
      = ∑ k : Fin 64, a (ix2 r k) * b (ix2 k j) := by
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 r j) ((ValueIdx.contrEquiv1 dot_S2000x64_S64x128_S2000x128_1_0_0_1_n_n 64 rfl rfl).symm k) = ix2 r k := funext fun ax => Fin.ext (by
    match ax with
    | ⟨0, _⟩ => exact lhs_tab_0 _ _
    | ⟨1, _⟩ => exact (lhs_tab_1 _ _).trans hk)
  have er : dot_S2000x64_S64x128_S2000x128_1_0_0_1_n_n.rhsIdx (ix2 r j) ((ValueIdx.contrEquiv1 dot_S2000x64_S64x128_S2000x128_1_0_0_1_n_n 64 rfl rfl).symm k) = ix2 k j := funext fun ax => Fin.ext (by
    match ax with
    | ⟨0, _⟩ => exact (rhs_tab_0 _ _).trans hk
    | ⟨1, _⟩ => exact rhs_tab_1 _ _)
  rw [el, er]

/-! ## The embedding lookup -/

/-- Two labels below 120, as 32-bit words: the comparison's bit, widened to a word, is 1 exactly when they are equal. -/
theorem onehot_bits : ∀ x k : Fin 120,
    (IntOp.cmpi .eq (BitVec.ofNat 32 x.val) (BitVec.ofNat 32 k.val)).setWidth 32 = if x = k then 1#32 else 0#32 := by
  decide +kernel

/-- So the converted one-hot entry is the real number 1 or 0. -/
theorem onehot_word (x k : Fin 120) :
    FloatOps.sitofp (F := Ideal) .f32 ((IntOp.cmpi .eq (BitVec.ofNat 32 x.val) (BitVec.ofNat 32 k.val)).setWidth 32)
      = if x = k then (1 : EReal) else 0 := by
  rw [onehot_bits]
  by_cases h : x = k
  · rw [if_pos h, if_pos h]
    show (((1#32 : BitVec 32).toInt : ℝ) : EReal) = 1
    norm_num
  · rw [if_neg h, if_neg h]
    show (((0#32 : BitVec 32).toInt : ℝ) : EReal) = 0
    norm_num

/-- THE LOOKUP. Where row `r` of the label block holds the label `x` (below 120), row `r` of the states is row `x`
    of the embedding table: the one-hot row times the table selects it. -/
theorem pay1_apply (v0 : Vec Ideal S2000x1 .i32) (v7 : Vec Ideal S120x64 .f32) (r : Fin 2000) (j : Fin 64) (x : Fin 120)
    (hx : v0 (ix2 r (0 : Fin 1)) = BitVec.ofNat 32 x.val) :
    k0_pay1 (F := Ideal) v0 v7 (ix2 r j) = v7 (ix2 x j) := by
  unfold k0_pay1
  simp only [matmul]
  rw [matmul_emb_apply]
  rw [← Cert.Lib.GnnLaws.onehot_select (fun k : Fin 120 => v7 (ix2 k j)) x]
  refine Finset.sum_congr rfl fun k _ => ?_
  congr 1
  rw [sitofp_apply, extui_apply]
  show FloatOps.sitofp (F := Ideal) .f32 ((IntOp.cmpi .eq
      (broadcastTo S2000x120 (shapeCast S2000x1 v0 shapeCasts_S2000x1_S2000x1) broadcasts_S2000x1_S2000x120 (ix2 r k))
      (iota .tc S2000x120 32 [1] iota_S2000x120_d1_w32 (ix2 r k))).setWidth 32) = _
  rw [iota_single_apply, shapeCast_self,
    broadcastTo_apply v0 broadcasts_S2000x1_S2000x120 (ix2 r k) (ix2 r (0 : Fin 1)) (fun ax => by
      match ax with
      | ⟨0, _⟩ => rfl
      | ⟨1, _⟩ => rfl),
    hx]
  exact onehot_word x k

/-! ## The table block -/

/-- The table payload at `(r, j)`: row `r` of the states times column `j` of the weights, plus the bias entry. -/
theorem pay2_apply (v0 : Vec Ideal S2000x1 .i32) (v7 : Vec Ideal S120x64 .f32) (v10 : Vec Ideal S64x128 .f32) (v13 : Vec Ideal S1x128 .f32)
    (r : Fin 2000) (j : Fin 128) :
    k0_pay2 (F := Ideal) v0 v7 v10 v13 (ix2 r j)
      = (∑ k : Fin 64, k0_pay1 (F := Ideal) v0 v7 (ix2 r k) * v10 (ix2 k j)) + v13 (ix2 (0 : Fin 1) j) := by
  unfold k0_pay2
  rw [addf_apply, shapeCast_self, shapeCast_self, broadcastTo_1b_ab_apply]
  simp only [matmul]
  rw [matmul_tab_apply]

/-! ### `dot_S2000x64_S64x64_S2000x64_1_0_0_1_n_n`: a 2000 × 64 by 64 × 64 product, read at an index -/

theorem lhs_upd_0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_upd_1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem rhs_upd_0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem rhs_upd_1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product into the zero accumulator at `(r, j)`: the dot product of row `r` and column `j`. -/
theorem matmul_upd_apply (a : FVec Ideal S2000x64 .f32) (b : FVec Ideal S64x64 .f32) (r : Fin 2000) (j : Fin 64) :
    FloatOps.matmul dot_S2000x64_S64x64_S2000x64_1_0_0_1_n_n none a b (constant (F := Ideal) S2000x64 .f32 0x00000000#32) (ix2 r j)
      = ∑ k : Fin 64, a (ix2 r k) * b (ix2 k j) := by
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r j) ((ValueIdx.contrEquiv1 dot_S2000x64_S64x64_S2000x64_1_0_0_1_n_n 64 rfl rfl).symm k) = ix2 r k := funext fun ax => Fin.ext (by
    match ax with
    | ⟨0, _⟩ => exact lhs_upd_0 _ _
    | ⟨1, _⟩ => exact (lhs_upd_1 _ _).trans hk)
  have er : dot_S2000x64_S64x64_S2000x64_1_0_0_1_n_n.rhsIdx (ix2 r j) ((ValueIdx.contrEquiv1 dot_S2000x64_S64x64_S2000x64_1_0_0_1_n_n 64 rfl rfl).symm k) = ix2 k j := funext fun ax => Fin.ext (by
    match ax with
    | ⟨0, _⟩ => exact (rhs_upd_0 _ _).trans hk
    | ⟨1, _⟩ => exact rhs_upd_1 _ _)
  rw [el, er]

/-! ## The update regions' payloads (custom call 2) -/

/-- The new states at `(r, j)`: `max(h · sw + sb + (p · w2 + deg · b2), 0)`, the two products as 64-term sums. The arguments
    are the payload's own, in its order: `p`, `w2`, the degree column, `b2`, `h`, `sw`, `sb`. -/
theorem k2_pay1_apply (p : Vec Ideal S2000x64 .f32) (w2 : Vec Ideal S64x64 .f32) (deg : Vec Ideal S2000x1 .f32) (b2 : Vec Ideal S1x64 .f32)
    (h : Vec Ideal S2000x64 .f32) (sw : Vec Ideal S64x64 .f32) (sb : Vec Ideal S1x64 .f32) (r : Fin 2000) (j : Fin 64) :
    k2_pay1 (F := Ideal) p w2 deg b2 h sw sb (ix2 r j)
      = max (((∑ k : Fin 64, h (ix2 r k) * sw (ix2 k j)) + sb (ix2 (0 : Fin 1) j))
          + ((∑ k : Fin 64, p (ix2 r k) * w2 (ix2 k j)) + deg (ix2 r (0 : Fin 1)) * b2 (ix2 (0 : Fin 1) j))) 0 := by
  unfold k2_pay1
  rw [maximumf_apply, broadcast_apply, addf_apply, addf_apply, addf_apply, mulf_apply]
  simp only [shapeCast_self]
  rw [broadcastTo_1b_ab_apply, broadcastTo_1b_ab_apply,
    broadcastTo_apply deg broadcasts_S2000x1_S2000x64 (ix2 r j) (ix2 r (0 : Fin 1)) (fun ax => by
      match ax with
      | ⟨0, _⟩ => rfl
      | ⟨1, _⟩ => rfl)]
  simp only [matmul]
  rw [matmul_upd_apply, matmul_upd_apply]
  show max _ (Ideal.ofBits .f32 0x00000000#32) = _
  rw [Cert.Lib.GnnLaws.ofBits_zero]

/-- The next layer's table at `(r, j)`: row `r` of the new states times column `j` of the weights, plus the bias entry. -/
theorem k2_pay2_apply (p : Vec Ideal S2000x64 .f32) (w2 : Vec Ideal S64x64 .f32) (deg : Vec Ideal S2000x1 .f32) (b2 : Vec Ideal S1x64 .f32)
    (h : Vec Ideal S2000x64 .f32) (sw : Vec Ideal S64x64 .f32) (sb : Vec Ideal S1x64 .f32) (wc : Vec Ideal S64x128 .f32) (bc : Vec Ideal S1x128 .f32)
    (r : Fin 2000) (j : Fin 128) :
    k2_pay2 (F := Ideal) p w2 deg b2 h sw sb wc bc (ix2 r j)
      = (∑ k : Fin 64, k2_pay1 (F := Ideal) p w2 deg b2 h sw sb (ix2 r k) * wc (ix2 k j)) + bc (ix2 (0 : Fin 1) j) := by
  unfold k2_pay2
  rw [addf_apply, shapeCast_self, shapeCast_self, broadcastTo_1b_ab_apply]
  simp only [matmul]
  rw [matmul_tab_apply]

/-! ## The update regions' payloads (custom call 4) -/

/-- The new states at `(r, j)`: `max(h · sw + sb + (p · w2 + deg · b2), 0)`, the two products as 64-term sums. The arguments
    are the payload's own, in its order: `p`, `w2`, the degree column, `b2`, `h`, `sw`, `sb`. -/
theorem k4_pay1_apply (p : Vec Ideal S2000x64 .f32) (w2 : Vec Ideal S64x64 .f32) (deg : Vec Ideal S2000x1 .f32) (b2 : Vec Ideal S1x64 .f32)
    (h : Vec Ideal S2000x64 .f32) (sw : Vec Ideal S64x64 .f32) (sb : Vec Ideal S1x64 .f32) (r : Fin 2000) (j : Fin 64) :
    k4_pay1 (F := Ideal) p w2 deg b2 h sw sb (ix2 r j)
      = max (((∑ k : Fin 64, h (ix2 r k) * sw (ix2 k j)) + sb (ix2 (0 : Fin 1) j))
          + ((∑ k : Fin 64, p (ix2 r k) * w2 (ix2 k j)) + deg (ix2 r (0 : Fin 1)) * b2 (ix2 (0 : Fin 1) j))) 0 := by
  unfold k4_pay1
  rw [maximumf_apply, broadcast_apply, addf_apply, addf_apply, addf_apply, mulf_apply]
  simp only [shapeCast_self]
  rw [broadcastTo_1b_ab_apply, broadcastTo_1b_ab_apply,
    broadcastTo_apply deg broadcasts_S2000x1_S2000x64 (ix2 r j) (ix2 r (0 : Fin 1)) (fun ax => by
      match ax with
      | ⟨0, _⟩ => rfl
      | ⟨1, _⟩ => rfl)]
  simp only [matmul]
  rw [matmul_upd_apply, matmul_upd_apply]
  show max _ (Ideal.ofBits .f32 0x00000000#32) = _
  rw [Cert.Lib.GnnLaws.ofBits_zero]

/-- The next layer's table at `(r, j)`: row `r` of the new states times column `j` of the weights, plus the bias entry. -/
theorem k4_pay2_apply (p : Vec Ideal S2000x64 .f32) (w2 : Vec Ideal S64x64 .f32) (deg : Vec Ideal S2000x1 .f32) (b2 : Vec Ideal S1x64 .f32)
    (h : Vec Ideal S2000x64 .f32) (sw : Vec Ideal S64x64 .f32) (sb : Vec Ideal S1x64 .f32) (wc : Vec Ideal S64x128 .f32) (bc : Vec Ideal S1x128 .f32)
    (r : Fin 2000) (j : Fin 128) :
    k4_pay2 (F := Ideal) p w2 deg b2 h sw sb wc bc (ix2 r j)
      = (∑ k : Fin 64, k4_pay1 (F := Ideal) p w2 deg b2 h sw sb (ix2 r k) * wc (ix2 k j)) + bc (ix2 (0 : Fin 1) j) := by
  unfold k4_pay2
  rw [addf_apply, shapeCast_self, shapeCast_self, broadcastTo_1b_ab_apply]
  simp only [matmul]
  rw [matmul_tab_apply]

/-! ## The states after the first region, at an index -/

section Whole

open Cert.Proof.IdealLaunch
open Idealize.ShloMosaic.SparseCore.Cfg (HIx)
open Idealize.ShloMosaic.TcCoe

/-- The label window's block index at point `t` is `(t, 0)`; the table window's is `(0, 0)` at every point. -/
theorem idx0_in : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- THE STATES AFTER THE FIRST REGION: where node `n`'s label is `x` (below 120), row `n` of the states is row `x` of
    the embedding table, as the region found both arrays. -/
theorem G0_4_apply (V : Dev nD → Valuation τ sig (Elt Ideal)) (c : Dev nD) (n : Fin 50000) (j : Fin 64) (x : Fin 120)
    (hx : (V c (Proc.devRef .tc main_v0) : S50000x1.Idx → BitVec 32) (ix2 n (0 : Fin 1)) = BitVec.ofNat 32 x.val) :
    G0_4 (F := Ideal) V c (ix2 n j) = (V c (Proc.devRef .tc main_arg2) : S120x64.Idx → EReal) (ix2 x j) := by
  have hn : n.val < 50000 := n.isLt
  obtain ⟨e0, e1, e2, e3⟩ := idx0_in (ptOf0 n)
  unfold G0_4
  refine (pay1_apply (Cert.KernelIdeal.Embed.iblk c (Vtc V c) 0 (ptOf0 n)) (Cert.KernelIdeal.Embed.iblk c (Vtc V c) 1 (ptOf0 n))
    ⟨n.val % 2000, Nat.mod_lt _ (by decide)⟩ j x ?_).trans ?_
  · show (V c (Proc.devRef .tc main_v0) : S50000x1.Idx → BitVec 32)
        (((cfg0.win 0).blk (ptOf0 n)).view.emb (ix2 (⟨n.val % 2000, Nat.mod_lt _ (by decide)⟩ : Fin 2000) (0 : Fin 1))) = _
    rw [← hx]
    congr 1
    funext ax
    match ax with
    | ⟨0, _⟩ =>
      exact Fin.ext (by
        show win0_0.index (ptOf0 n) (0 : Fin 2) * 2000 + 1 * (n.val % 2000) = n.val
        rw [e0]
        show n.val / 2000 * 2000 + 1 * (n.val % 2000) = n.val
        omega)
    | ⟨1, _⟩ =>
      exact Fin.ext (by
        show win0_0.index (ptOf0 n) (1 : Fin 2) * 1 + 1 * 0 = 0
        rw [e1])
  · show (V c (Proc.devRef .tc main_arg2) : S120x64.Idx → EReal) (((cfg0.win 1).blk (ptOf0 n)).view.emb (ix2 x j)) = _
    congr 1
    funext ax
    match ax with
    | ⟨0, _⟩ =>
      exact Fin.ext (by
        show win0_1.index (ptOf0 n) (0 : Fin 2) * 120 + 1 * x.val = x.val
        rw [e2]; omega)
    | ⟨1, _⟩ =>
      exact Fin.ext (by
        show win0_1.index (ptOf0 n) (1 : Fin 2) * 64 + 1 * j.val = j.val
        rw [e3]; omega)

end Whole

/-! ### `dot_S1x64_S64x64_S1x64_1_0_0_1_n_n`: a 1 × 64 by 64 × 64 product, read at an index -/

theorem lhs_hd1_0 (i : S1x64.Idx) (q : dot_S1x64_S64x64_S1x64_1_0_0_1_n_n.contr.Idx) : (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch by decide), dif_pos (show (0 : Fin S1x64.rank) ∈ dot_S1x64_S64x64_S1x64_1_0_0_1_n_n.lhsNonContracting by decide)]
  rfl
theorem lhs_hd1_1 (i : S1x64.Idx) (q : dot_S1x64_S64x64_S1x64_1_0_0_1_n_n.contr.Idx) : (dot_S1x64_S64x64_S1x64_1_0_0_1_n_n.lhsIdx i q 1).val = (q ⟨0, by decide⟩).val :=
  dot_S1x64_S64x64_S1x64_1_0_0_1_n_n.lhsIdx_val_of_single rfl i q
theorem rhs_hd1_0 (i : S1x64.Idx) (q : dot_S1x64_S64x64_S1x64_1_0_0_1_n_n.contr.Idx) : (dot_S1x64_S64x64_S1x64_1_0_0_1_n_n.rhsIdx i q 0).val = (q ⟨0, by decide⟩).val :=
  dot_S1x64_S64x64_S1x64_1_0_0_1_n_n.rhsIdx_val_of_single rfl i q
theorem rhs_hd1_1 (i : S1x64.Idx) (q : dot_S1x64_S64x64_S1x64_1_0_0_1_n_n.contr.Idx) : (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch by decide), dif_pos (show (1 : Fin S64x64.rank) ∈ dot_S1x64_S64x64_S1x64_1_0_0_1_n_n.rhsNonContracting by decide)]
  rfl

/-- The product into the zero accumulator at `(r, j)`: the dot product of row `r` and column `j`. -/
theorem matmul_hd1_apply (a : FVec Ideal S1x64 .f32) (b : FVec Ideal S64x64 .f32) (r : Fin 1) (j : Fin 64) :
    FloatOps.matmul dot_S1x64_S64x64_S1x64_1_0_0_1_n_n none a b (constant (F := Ideal) S1x64 .f32 0x00000000#32) (ix2 r j)
      = ∑ k : Fin 64, a (ix2 r k) * b (ix2 k j) := by
  rw [Ideal.matmul_constant_zero_apply, ← Equiv.sum_comp (ValueIdx.contrEquiv1 dot_S1x64_S64x64_S1x64_1_0_0_1_n_n 64 rfl rfl).symm]
  refine Finset.sum_congr rfl fun k _ => ?_
  have hk := ValueIdx.contrEquiv1_symm_val dot_S1x64_S64x64_S1x64_1_0_0_1_n_n 64 rfl rfl k
  have el : dot_S1x64_S64x64_S1x64_1_0_0_1_n_n.lhsIdx (ix2 r j) ((ValueIdx.contrEquiv1 dot_S1x64_S64x64_S1x64_1_0_0_1_n_n 64 rfl rfl).symm k) = ix2 r k := funext fun ax => Fin.ext (by
    match ax with
    | ⟨0, _⟩ => exact lhs_hd1_0 _ _
    | ⟨1, _⟩ => exact (lhs_hd1_1 _ _).trans hk)
  have er : dot_S1x64_S64x64_S1x64_1_0_0_1_n_n.rhsIdx (ix2 r j) ((ValueIdx.contrEquiv1 dot_S1x64_S64x64_S1x64_1_0_0_1_n_n 64 rfl rfl).symm k) = ix2 k j := funext fun ax => Fin.ext (by
    match ax with
    | ⟨0, _⟩ => exact (rhs_hd1_0 _ _).trans hk
    | ⟨1, _⟩ => exact rhs_hd1_1 _ _)
  rw [el, er]

/-! ### `dot_S1x64_S64x1_S1x1_1_0_0_1_n_n`: a 1 × 64 by 64 × 1 product, read at an index -/

theorem lhs_hd2_0 (i : S1x1.Idx) (q : dot_S1x64_S64x1_S1x1_1_0_0_1_n_n.contr.Idx) : (dot_S1x64_S64x1_S1x1_1_0_0_1_n_n.lhsIdx i q 0).val = (i 0).val := by
  unfold DotDims.lhsIdx
  rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
  rfl
theorem lhs_hd2_1 (i : S1x1.Idx) (q : dot_S1x64_S64x1_S1x1_1_0_0_1_n_n.contr.Idx) : (dot_S1x64_S64x1_S1x1_1_0_0_1_n_n.lhsIdx i q 1).val = (q ⟨0, by decide⟩).val :=
  dot_S1x64_S64x1_S1x1_1_0_0_1_n_n.lhsIdx_val_of_single rfl i q
theorem rhs_hd2_0 (i : S1x1.Idx) (q : dot_S1x64_S64x1_S1x1_1_0_0_1_n_n.contr.Idx) : (dot_S1x64_S64x1_S1x1_1_0_0_1_n_n.rhsIdx i q 0).val = (q ⟨0, by decide⟩).val :=
  dot_S1x64_S64x1_S1x1_1_0_0_1_n_n.rhsIdx_val_of_single rfl i q
theorem rhs_hd2_1 (i : S1x1.Idx) (q : dot_S1x64_S64x1_S1x1_1_0_0_1_n_n.contr.Idx) : (dot_S1x64_S64x1_S1x1_1_0_0_1_n_n.rhsIdx i q 1).val = (i 1).val := by
  unfold DotDims.rhsIdx
  rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
  rfl

/-- The product into the zero accumulator at `(r, j)`: the dot product of row `r` and column `j`. -/
theorem matmul_hd2_apply (a : FVec Ideal S1x64 .f32) (b : FVec Ideal S64x1 .f32) (r : Fin 1) (j : Fin 1) :
    FloatOps.matmul dot_S1x64_S64x1_S1x1_1_0_0_1_n_n none a b (constant (F := Ideal) S1x1 .f32 0x00000000#32) (ix2 r j)
      = ∑ k : Fin 64, a (ix2 r k) * b (ix2 k j) := by
  rw [Ideal.matmul_constant_zero_apply, ← Equiv.sum_comp (ValueIdx.contrEquiv1 dot_S1x64_S64x1_S1x1_1_0_0_1_n_n 64 rfl rfl).symm]
  refine Finset.sum_congr rfl fun k _ => ?_
  have hk := ValueIdx.contrEquiv1_symm_val dot_S1x64_S64x1_S1x1_1_0_0_1_n_n 64 rfl rfl k
  have el : dot_S1x64_S64x1_S1x1_1_0_0_1_n_n.lhsIdx (ix2 r j) ((ValueIdx.contrEquiv1 dot_S1x64_S64x1_S1x1_1_0_0_1_n_n 64 rfl rfl).symm k) = ix2 r k := funext fun ax => Fin.ext (by
    match ax with
    | ⟨0, _⟩ => exact lhs_hd2_0 _ _
    | ⟨1, _⟩ => exact (lhs_hd2_1 _ _).trans hk)
  have er : dot_S1x64_S64x1_S1x1_1_0_0_1_n_n.rhsIdx (ix2 r j) ((ValueIdx.contrEquiv1 dot_S1x64_S64x1_S1x1_1_0_0_1_n_n 64 rfl rfl).symm k) = ix2 k j := funext fun ax => Fin.ext (by
    match ax with
    | ⟨0, _⟩ => exact (rhs_hd2_0 _ _).trans hk
    | ⟨1, _⟩ => exact rhs_hd2_1 _ _)
  rw [el, er]

/-! ## The head -/

/-- The head's result: the running sums times the named constant `inv_50000` (the mean), through the hidden layer
    `max(· · ow1 + ob1, 0)` and the output layer `· · ow2 + ob2`, as nested 64-term sums. -/
theorem k6_pay2_apply (a : Vec Ideal S1x64 .f32) (ow1 : Vec Ideal S64x64 .f32) (ob1 : Vec Ideal S1x64 .f32) (ow2 : Vec Ideal S64x1 .f32)
    (ob2 : Vec Ideal S1x1 .f32) :
    k6_pay2 (F := Ideal) a ow1 ob1 ow2 ob2 (ix2 (0 : Fin 1) (0 : Fin 1))
      = (∑ k : Fin 64, max ((∑ m : Fin 64, (a (ix2 (0 : Fin 1) m) * (Named.named (F := Ideal) κ "inv_50000" 0x37A7C5AC#32 : Ideal .f32)) * ow1 (ix2 m k))
            + ob1 (ix2 (0 : Fin 1) k)) 0 * ow2 (ix2 k (0 : Fin 1)))
        + ob2 (ix2 (0 : Fin 1) (0 : Fin 1)) := by
  unfold k6_pay2
  rw [addf_apply]
  simp only [shapeCast_self, matmul]
  rw [matmul_hd2_apply]
  refine congrArg (· + ob2 (ix2 (0 : Fin 1) (0 : Fin 1))) (Finset.sum_congr rfl fun k _ => ?_)
  rw [maximumf_apply, broadcast_apply, addf_apply, matmul_hd1_apply]
  refine congrArg (· * ow2 (ix2 k (0 : Fin 1))) ?_
  show max _ (Ideal.ofBits .f32 0x00000000#32) = _
  rw [Cert.Lib.GnnLaws.ofBits_zero]
  rfl

/-- An array of 32-bit floats, read off a valuation at the ideal instance, as a function to the extended reals. -/
def asReals {S : Shape} (f : S.Idx → EReal) : S.Idx → EReal := f

/-! ## The states after the update region (custom call 2), at an index -/

section Whole2

open Cert.Proof.IdealLaunch
open Idealize.ShloMosaic.SparseCore.Cfg (HIx)
open Idealize.ShloMosaic.TcCoe

/-- The input windows' block indices: the three node arrays move in bands of 2000 rows, the four small arrays are whole. -/
theorem idx2_in : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0)

/-- THE STATES AFTER THE REGION, at node `n` and feature `j`, over the arrays as the region found them:
    `max(h · sw + sb + (p · w2 + deg · b2), 0)`. -/
theorem G2_9_apply (V : Dev nD → Valuation τ sig (Elt Ideal)) (c : Dev nD) (n : Fin 50000) (j : Fin 64) :
    G2_9 (F := Ideal) V c (ix2 n j)
      = max (((∑ k : Fin 64, asReals (S := S50000x64) (V c (Proc.devRef .tc main_v24_0)) (ix2 n k) * asReals (S := S64x64) (V c (Proc.devRef .tc main_v31)) (ix2 k j)) + asReals (S := S1x64) (V c (Proc.devRef .tc main_v34)) (ix2 (0 : Fin 1) j))
          + ((∑ k : Fin 64, asReals (S := S50000x64) (V c (Proc.devRef .tc main_v29)) (ix2 n k) * asReals (S := S64x64) (V c (Proc.devRef .tc main_v36)) (ix2 k j))
            + asReals (S := S50000x1) (V c (Proc.devRef .tc main_v13)) (ix2 n (0 : Fin 1)) * asReals (S := S1x64) (V c (Proc.devRef .tc main_v39)) (ix2 (0 : Fin 1) j))) 0 := by
  have hn : n.val < 50000 := n.isLt
  obtain ⟨a0, b0, a1, b1, a2, b2, a3, b3, a4, b4, a5, b5, a6, b6⟩ := idx2_in (ptOf2 n)
  have hH : ∀ k : Fin 64, (Cert.KernelIdeal.Upd2.iblk c (Vtc V c) 0 (ptOf2 n)) (ix2 (⟨n.val % 2000, Nat.mod_lt _ (by decide)⟩ : Fin 2000) k) = asReals (S := S50000x64) (V c (Proc.devRef .tc main_v24_0)) (ix2 n k) := fun k => by
    show asReals (S := S50000x64) (V c (Proc.devRef .tc main_v24_0)) (((cfg2.win 0).blk (ptOf2 n)).view.emb (ix2 (⟨n.val % 2000, Nat.mod_lt _ (by decide)⟩ : Fin 2000) k)) = _
    congr 1
    funext ax
    match ax with
    | ⟨0, _⟩ =>
      exact Fin.ext (by
          show win2_0.index (ptOf2 n) (0 : Fin 2) * 2000 + 1 * (n.val % 2000) = n.val
          rw [a0]
          show n.val / 2000 * 2000 + 1 * (n.val % 2000) = n.val
          omega)
    | ⟨1, _⟩ =>
      exact Fin.ext (by
          show win2_0.index (ptOf2 n) (1 : Fin 2) * 64 + 1 * (k).val = (k).val
          rw [b0]; omega)
  have hP : ∀ k : Fin 64, (Cert.KernelIdeal.Upd2.iblk c (Vtc V c) 1 (ptOf2 n)) (ix2 (⟨n.val % 2000, Nat.mod_lt _ (by decide)⟩ : Fin 2000) k) = asReals (S := S50000x64) (V c (Proc.devRef .tc main_v29)) (ix2 n k) := fun k => by
    show asReals (S := S50000x64) (V c (Proc.devRef .tc main_v29)) (((cfg2.win 1).blk (ptOf2 n)).view.emb (ix2 (⟨n.val % 2000, Nat.mod_lt _ (by decide)⟩ : Fin 2000) k)) = _
    congr 1
    funext ax
    match ax with
    | ⟨0, _⟩ =>
      exact Fin.ext (by
          show win2_1.index (ptOf2 n) (0 : Fin 2) * 2000 + 1 * (n.val % 2000) = n.val
          rw [a1]
          show n.val / 2000 * 2000 + 1 * (n.val % 2000) = n.val
          omega)
    | ⟨1, _⟩ =>
      exact Fin.ext (by
          show win2_1.index (ptOf2 n) (1 : Fin 2) * 64 + 1 * (k).val = (k).val
          rw [b1]; omega)
  have hD : (Cert.KernelIdeal.Upd2.iblk c (Vtc V c) 2 (ptOf2 n)) (ix2 (⟨n.val % 2000, Nat.mod_lt _ (by decide)⟩ : Fin 2000) (0 : Fin 1)) = asReals (S := S50000x1) (V c (Proc.devRef .tc main_v13)) (ix2 n (0 : Fin 1)) := by
    show asReals (S := S50000x1) (V c (Proc.devRef .tc main_v13)) (((cfg2.win 2).blk (ptOf2 n)).view.emb (ix2 (⟨n.val % 2000, Nat.mod_lt _ (by decide)⟩ : Fin 2000) (0 : Fin 1))) = _
    congr 1
    funext ax
    match ax with
    | ⟨0, _⟩ =>
      exact Fin.ext (by
          show win2_2.index (ptOf2 n) (0 : Fin 2) * 2000 + 1 * (n.val % 2000) = n.val
          rw [a2]
          show n.val / 2000 * 2000 + 1 * (n.val % 2000) = n.val
          omega)
    | ⟨1, _⟩ =>
      exact Fin.ext (by
          show win2_2.index (ptOf2 n) (1 : Fin 2) * 1 + 1 * ((0 : Fin 1)).val = ((0 : Fin 1)).val
          rw [b2]; omega)
  have hSW : ∀ k : Fin 64, (Cert.KernelIdeal.Upd2.iblk c (Vtc V c) 3 (ptOf2 n)) (ix2 k j) = asReals (S := S64x64) (V c (Proc.devRef .tc main_v31)) (ix2 k j) := fun k => by
    show asReals (S := S64x64) (V c (Proc.devRef .tc main_v31)) (((cfg2.win 3).blk (ptOf2 n)).view.emb (ix2 k j)) = _
    congr 1
    funext ax
    match ax with
    | ⟨0, _⟩ =>
      exact Fin.ext (by
          show win2_3.index (ptOf2 n) (0 : Fin 2) * 64 + 1 * (k).val = (k).val
          rw [a3]; omega)
    | ⟨1, _⟩ =>
      exact Fin.ext (by
          show win2_3.index (ptOf2 n) (1 : Fin 2) * 64 + 1 * (j).val = (j).val
          rw [b3]; omega)
  have hSB : (Cert.KernelIdeal.Upd2.iblk c (Vtc V c) 4 (ptOf2 n)) (ix2 (0 : Fin 1) j) = asReals (S := S1x64) (V c (Proc.devRef .tc main_v34)) (ix2 (0 : Fin 1) j) := by
    show asReals (S := S1x64) (V c (Proc.devRef .tc main_v34)) (((cfg2.win 4).blk (ptOf2 n)).view.emb (ix2 (0 : Fin 1) j)) = _
    congr 1
    funext ax
    match ax with
    | ⟨0, _⟩ =>
      exact Fin.ext (by
          show win2_4.index (ptOf2 n) (0 : Fin 2) * 1 + 1 * ((0 : Fin 1)).val = ((0 : Fin 1)).val
          rw [a4]; omega)
    | ⟨1, _⟩ =>
      exact Fin.ext (by
          show win2_4.index (ptOf2 n) (1 : Fin 2) * 64 + 1 * (j).val = (j).val
          rw [b4]; omega)
  have hW2 : ∀ k : Fin 64, (Cert.KernelIdeal.Upd2.iblk c (Vtc V c) 5 (ptOf2 n)) (ix2 k j) = asReals (S := S64x64) (V c (Proc.devRef .tc main_v36)) (ix2 k j) := fun k => by
    show asReals (S := S64x64) (V c (Proc.devRef .tc main_v36)) (((cfg2.win 5).blk (ptOf2 n)).view.emb (ix2 k j)) = _
    congr 1
    funext ax
    match ax with
    | ⟨0, _⟩ =>
      exact Fin.ext (by
          show win2_5.index (ptOf2 n) (0 : Fin 2) * 64 + 1 * (k).val = (k).val
          rw [a5]; omega)
    | ⟨1, _⟩ =>
      exact Fin.ext (by
          show win2_5.index (ptOf2 n) (1 : Fin 2) * 64 + 1 * (j).val = (j).val
          rw [b5]; omega)
  have hB2 : (Cert.KernelIdeal.Upd2.iblk c (Vtc V c) 6 (ptOf2 n)) (ix2 (0 : Fin 1) j) = asReals (S := S1x64) (V c (Proc.devRef .tc main_v39)) (ix2 (0 : Fin 1) j) := by
    show asReals (S := S1x64) (V c (Proc.devRef .tc main_v39)) (((cfg2.win 6).blk (ptOf2 n)).view.emb (ix2 (0 : Fin 1) j)) = _
    congr 1
    funext ax
    match ax with
    | ⟨0, _⟩ =>
      exact Fin.ext (by
          show win2_6.index (ptOf2 n) (0 : Fin 2) * 1 + 1 * ((0 : Fin 1)).val = ((0 : Fin 1)).val
          rw [a6]; omega)
    | ⟨1, _⟩ =>
      exact Fin.ext (by
          show win2_6.index (ptOf2 n) (1 : Fin 2) * 64 + 1 * (j).val = (j).val
          rw [b6]; omega)
  unfold G2_9 Cert.KernelIdeal.Upd2.out9
  refine (k2_pay1_apply (Cert.KernelIdeal.Upd2.iblk c (Vtc V c) 1 (ptOf2 n)) (Cert.KernelIdeal.Upd2.iblk c (Vtc V c) 5 (ptOf2 n)) (Cert.KernelIdeal.Upd2.iblk c (Vtc V c) 2 (ptOf2 n)) (Cert.KernelIdeal.Upd2.iblk c (Vtc V c) 6 (ptOf2 n)) (Cert.KernelIdeal.Upd2.iblk c (Vtc V c) 0 (ptOf2 n)) (Cert.KernelIdeal.Upd2.iblk c (Vtc V c) 3 (ptOf2 n)) (Cert.KernelIdeal.Upd2.iblk c (Vtc V c) 4 (ptOf2 n)) (⟨n.val % 2000, Nat.mod_lt _ (by decide)⟩ : Fin 2000) j).trans ?_
  simp only [hH, hP, hD, hSW, hSB, hW2, hB2]

end Whole2

/-! ## The states after the update region (custom call 4), at an index -/

section Whole4

open Cert.Proof.IdealLaunch
open Idealize.ShloMosaic.SparseCore.Cfg (HIx)
open Idealize.ShloMosaic.TcCoe

/-- The input windows' block indices: the three node arrays move in bands of 2000 rows, the four small arrays are whole. -/
theorem idx4_in : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0)

/-- THE STATES AFTER THE REGION, at node `n` and feature `j`, over the arrays as the region found them:
    `max(h · sw + sb + (p · w2 + deg · b2), 0)`. -/
theorem G4_9_apply (V : Dev nD → Valuation τ sig (Elt Ideal)) (c : Dev nD) (n : Fin 50000) (j : Fin 64) :
    G4_9 (F := Ideal) V c (ix2 n j)
      = max (((∑ k : Fin 64, asReals (S := S50000x64) (V c (Proc.devRef .tc main_v50_0)) (ix2 n k) * asReals (S := S64x64) (V c (Proc.devRef .tc main_v57)) (ix2 k j)) + asReals (S := S1x64) (V c (Proc.devRef .tc main_v60)) (ix2 (0 : Fin 1) j))
          + ((∑ k : Fin 64, asReals (S := S50000x64) (V c (Proc.devRef .tc main_v55)) (ix2 n k) * asReals (S := S64x64) (V c (Proc.devRef .tc main_v62)) (ix2 k j))
            + asReals (S := S50000x1) (V c (Proc.devRef .tc main_v13)) (ix2 n (0 : Fin 1)) * asReals (S := S1x64) (V c (Proc.devRef .tc main_v65)) (ix2 (0 : Fin 1) j))) 0 := by
  have hn : n.val < 50000 := n.isLt
  obtain ⟨a0, b0, a1, b1, a2, b2, a3, b3, a4, b4, a5, b5, a6, b6⟩ := idx4_in (ptOf4 n)
  have hH : ∀ k : Fin 64, (Cert.KernelIdeal.Upd4.iblk c (Vtc V c) 0 (ptOf4 n)) (ix2 (⟨n.val % 2000, Nat.mod_lt _ (by decide)⟩ : Fin 2000) k) = asReals (S := S50000x64) (V c (Proc.devRef .tc main_v50_0)) (ix2 n k) := fun k => by
    show asReals (S := S50000x64) (V c (Proc.devRef .tc main_v50_0)) (((cfg4.win 0).blk (ptOf4 n)).view.emb (ix2 (⟨n.val % 2000, Nat.mod_lt _ (by decide)⟩ : Fin 2000) k)) = _
    congr 1
    funext ax
    match ax with
    | ⟨0, _⟩ =>
      exact Fin.ext (by
          show win4_0.index (ptOf4 n) (0 : Fin 2) * 2000 + 1 * (n.val % 2000) = n.val
          rw [a0]
          show n.val / 2000 * 2000 + 1 * (n.val % 2000) = n.val
          omega)
    | ⟨1, _⟩ =>
      exact Fin.ext (by
          show win4_0.index (ptOf4 n) (1 : Fin 2) * 64 + 1 * (k).val = (k).val
          rw [b0]; omega)
  have hP : ∀ k : Fin 64, (Cert.KernelIdeal.Upd4.iblk c (Vtc V c) 1 (ptOf4 n)) (ix2 (⟨n.val % 2000, Nat.mod_lt _ (by decide)⟩ : Fin 2000) k) = asReals (S := S50000x64) (V c (Proc.devRef .tc main_v55)) (ix2 n k) := fun k => by
    show asReals (S := S50000x64) (V c (Proc.devRef .tc main_v55)) (((cfg4.win 1).blk (ptOf4 n)).view.emb (ix2 (⟨n.val % 2000, Nat.mod_lt _ (by decide)⟩ : Fin 2000) k)) = _
    congr 1
    funext ax
    match ax with
    | ⟨0, _⟩ =>
      exact Fin.ext (by
          show win4_1.index (ptOf4 n) (0 : Fin 2) * 2000 + 1 * (n.val % 2000) = n.val
          rw [a1]
          show n.val / 2000 * 2000 + 1 * (n.val % 2000) = n.val
          omega)
    | ⟨1, _⟩ =>
      exact Fin.ext (by
          show win4_1.index (ptOf4 n) (1 : Fin 2) * 64 + 1 * (k).val = (k).val
          rw [b1]; omega)
  have hD : (Cert.KernelIdeal.Upd4.iblk c (Vtc V c) 2 (ptOf4 n)) (ix2 (⟨n.val % 2000, Nat.mod_lt _ (by decide)⟩ : Fin 2000) (0 : Fin 1)) = asReals (S := S50000x1) (V c (Proc.devRef .tc main_v13)) (ix2 n (0 : Fin 1)) := by
    show asReals (S := S50000x1) (V c (Proc.devRef .tc main_v13)) (((cfg4.win 2).blk (ptOf4 n)).view.emb (ix2 (⟨n.val % 2000, Nat.mod_lt _ (by decide)⟩ : Fin 2000) (0 : Fin 1))) = _
    congr 1
    funext ax
    match ax with
    | ⟨0, _⟩ =>
      exact Fin.ext (by
          show win4_2.index (ptOf4 n) (0 : Fin 2) * 2000 + 1 * (n.val % 2000) = n.val
          rw [a2]
          show n.val / 2000 * 2000 + 1 * (n.val % 2000) = n.val
          omega)
    | ⟨1, _⟩ =>
      exact Fin.ext (by
          show win4_2.index (ptOf4 n) (1 : Fin 2) * 1 + 1 * ((0 : Fin 1)).val = ((0 : Fin 1)).val
          rw [b2]; omega)
  have hSW : ∀ k : Fin 64, (Cert.KernelIdeal.Upd4.iblk c (Vtc V c) 3 (ptOf4 n)) (ix2 k j) = asReals (S := S64x64) (V c (Proc.devRef .tc main_v57)) (ix2 k j) := fun k => by
    show asReals (S := S64x64) (V c (Proc.devRef .tc main_v57)) (((cfg4.win 3).blk (ptOf4 n)).view.emb (ix2 k j)) = _
    congr 1
    funext ax
    match ax with
    | ⟨0, _⟩ =>
      exact Fin.ext (by
          show win4_3.index (ptOf4 n) (0 : Fin 2) * 64 + 1 * (k).val = (k).val
          rw [a3]; omega)
    | ⟨1, _⟩ =>
      exact Fin.ext (by
          show win4_3.index (ptOf4 n) (1 : Fin 2) * 64 + 1 * (j).val = (j).val
          rw [b3]; omega)
  have hSB : (Cert.KernelIdeal.Upd4.iblk c (Vtc V c) 4 (ptOf4 n)) (ix2 (0 : Fin 1) j) = asReals (S := S1x64) (V c (Proc.devRef .tc main_v60)) (ix2 (0 : Fin 1) j) := by
    show asReals (S := S1x64) (V c (Proc.devRef .tc main_v60)) (((cfg4.win 4).blk (ptOf4 n)).view.emb (ix2 (0 : Fin 1) j)) = _
    congr 1
    funext ax
    match ax with
    | ⟨0, _⟩ =>
      exact Fin.ext (by
          show win4_4.index (ptOf4 n) (0 : Fin 2) * 1 + 1 * ((0 : Fin 1)).val = ((0 : Fin 1)).val
          rw [a4]; omega)
    | ⟨1, _⟩ =>
      exact Fin.ext (by
          show win4_4.index (ptOf4 n) (1 : Fin 2) * 64 + 1 * (j).val = (j).val
          rw [b4]; omega)
  have hW2 : ∀ k : Fin 64, (Cert.KernelIdeal.Upd4.iblk c (Vtc V c) 5 (ptOf4 n)) (ix2 k j) = asReals (S := S64x64) (V c (Proc.devRef .tc main_v62)) (ix2 k j) := fun k => by
    show asReals (S := S64x64) (V c (Proc.devRef .tc main_v62)) (((cfg4.win 5).blk (ptOf4 n)).view.emb (ix2 k j)) = _
    congr 1
    funext ax
    match ax with
    | ⟨0, _⟩ =>
      exact Fin.ext (by
          show win4_5.index (ptOf4 n) (0 : Fin 2) * 64 + 1 * (k).val = (k).val
          rw [a5]; omega)
    | ⟨1, _⟩ =>
      exact Fin.ext (by
          show win4_5.index (ptOf4 n) (1 : Fin 2) * 64 + 1 * (j).val = (j).val
          rw [b5]; omega)
  have hB2 : (Cert.KernelIdeal.Upd4.iblk c (Vtc V c) 6 (ptOf4 n)) (ix2 (0 : Fin 1) j) = asReals (S := S1x64) (V c (Proc.devRef .tc main_v65)) (ix2 (0 : Fin 1) j) := by
    show asReals (S := S1x64) (V c (Proc.devRef .tc main_v65)) (((cfg4.win 6).blk (ptOf4 n)).view.emb (ix2 (0 : Fin 1) j)) = _
    congr 1
    funext ax
    match ax with
    | ⟨0, _⟩ =>
      exact Fin.ext (by
          show win4_6.index (ptOf4 n) (0 : Fin 2) * 1 + 1 * ((0 : Fin 1)).val = ((0 : Fin 1)).val
          rw [a6]; omega)
    | ⟨1, _⟩ =>
      exact Fin.ext (by
          show win4_6.index (ptOf4 n) (1 : Fin 2) * 64 + 1 * (j).val = (j).val
          rw [b6]; omega)
  unfold G4_9 Cert.KernelIdeal.Upd4.out9
  refine (k4_pay1_apply (Cert.KernelIdeal.Upd4.iblk c (Vtc V c) 1 (ptOf4 n)) (Cert.KernelIdeal.Upd4.iblk c (Vtc V c) 5 (ptOf4 n)) (Cert.KernelIdeal.Upd4.iblk c (Vtc V c) 2 (ptOf4 n)) (Cert.KernelIdeal.Upd4.iblk c (Vtc V c) 6 (ptOf4 n)) (Cert.KernelIdeal.Upd4.iblk c (Vtc V c) 0 (ptOf4 n)) (Cert.KernelIdeal.Upd4.iblk c (Vtc V c) 3 (ptOf4 n)) (Cert.KernelIdeal.Upd4.iblk c (Vtc V c) 4 (ptOf4 n)) (⟨n.val % 2000, Nat.mod_lt _ (by decide)⟩ : Fin 2000) j).trans ?_
  simp only [hH, hP, hD, hSW, hSB, hW2, hB2]

end Whole4

end Cert.Proof.IdealMath

end
-- ==== Proof.HeadMath.lean ====
/-
  The head region's running sums, opened at the ideal instance: one point adds, to each of the 64 running sums, the
  column sum over the point's 2000 rows of the block's new states; so after point `n` the running sums are the column
  sums over the rows of the points `0 … n`.
-/
import proofs.«215677_g32066225832048_cont_9to1_32_28_alg».proof.Proof.RegionMath

set_option maxRecDepth 16384

noncomputable section

open scoped BigOperators

namespace Cert.Proof.IdealMath

open Cert.KernelIdeal Cert.KernelIdeal.Gen
open Idealize.ShloMosaic Idealize.ShloMosaic.ValueIdx
open Cert.Proof.IdealLaunch
open Idealize.ShloMosaic.SparseCore.Cfg (HIx)
open Idealize.ShloMosaic.TcCoe

/-! ## One point's step -/

/-- The running sums after one more block, at feature `j`: what they were plus the block's column sum of the new states
    (the new states are the update regions' payload of the same seven blocks). -/
theorem k6_pay4_apply (p : Vec Ideal S2000x64 .f32) (w2 : Vec Ideal S64x64 .f32) (deg : Vec Ideal S2000x1 .f32) (b2 : Vec Ideal S1x64 .f32)
    (h : Vec Ideal S2000x64 .f32) (sw : Vec Ideal S64x64 .f32) (sb : Vec Ideal S1x64 .f32) (a : Vec Ideal S1x64 .f32) (j : Fin 64) :
    k6_pay4 (F := Ideal) p w2 deg b2 h sw sb a (ix2 (0 : Fin 1) j)
      = a (ix2 (0 : Fin 1) j) + ∑ r : Fin 2000, k2_pay1 (F := Ideal) p w2 deg b2 h sw sb (ix2 r j) := by
  unfold k6_pay4
  rw [addf_apply]
  refine congrArg (a (ix2 (0 : Fin 1) j) + ·) ?_
  refine (shapeCast_addUnit_apply ![64] _ shapeCasts_S64_S1x64 (ix2 (0 : Fin 1) j)).trans ?_
  refine (Ideal.multiReduction_add_single _ _ reduces_S2000x64_S64 _ _ _).trans ?_
  refine Finset.sum_congr rfl fun r _ => ?_
  show k2_pay1 (F := Ideal) p w2 deg b2 h sw sb (reduces_S2000x64_S64.lift (fun ax => (ix2 (0 : Fin 1) j) ax.succ) r) = _
  congr 1
  funext ax
  match ax with
  | ⟨0, _⟩ => rfl
  | ⟨1, _⟩ => rfl

/-- The same for the head region's step as its proof data name it. -/
theorem accStep_apply (x0 : Vec Ideal S2000x64 .f32) (x1 : Vec Ideal S2000x64 .f32) (x2 : Vec Ideal S2000x1 .f32) (x3 : Vec Ideal S64x64 .f32)
    (x4 : Vec Ideal S1x64 .f32) (x5 : Vec Ideal S64x64 .f32) (x6 : Vec Ideal S1x64 .f32) (a : Vec Ideal S1x64 .f32) (j : Fin 64) :
    Cert.KernelIdeal.Head.accStep (F := Ideal) x0 x1 x2 x3 x4 x5 x6 a (ix2 (0 : Fin 1) j)
      = a (ix2 (0 : Fin 1) j) + ∑ r : Fin 2000, k2_pay1 (F := Ideal) x1 x5 x2 x6 x0 x3 x4 (ix2 r j) := by
  unfold Cert.KernelIdeal.Head.accStep k6_pay1
  rw [shapeCast_self]
  exact k6_pay4_apply x1 x5 x2 x6 x0 x3 x4 a j

/-! ## All the points -/

/-- The new states of point `t`'s block, as the head region's body computes them. -/
def blockState (V : Dev nD → Valuation τ sig (Elt Ideal)) (c : Dev nD) (t : Fin cfg6.N) : Vec Ideal S2000x64 .f32 :=
  k2_pay1 (F := Ideal) (Cert.KernelIdeal.Head.iblk c (Vtc V c) 1 t) (Cert.KernelIdeal.Head.iblk c (Vtc V c) 5 t) (Cert.KernelIdeal.Head.iblk c (Vtc V c) 2 t) (Cert.KernelIdeal.Head.iblk c (Vtc V c) 6 t) (Cert.KernelIdeal.Head.iblk c (Vtc V c) 0 t) (Cert.KernelIdeal.Head.iblk c (Vtc V c) 3 t) (Cert.KernelIdeal.Head.iblk c (Vtc V c) 4 t)

/-- AFTER POINT `n` the running sum at feature `j` is the sum, over the points up to `n` and the 2000 rows of each, of the
    blocks' new states: the first point starts from zero. -/
theorem acc_apply (V : Dev nD → Valuation τ sig (Elt Ideal)) (c : Dev nD) (j : Fin 64) :
    ∀ (n : ℕ) (hn : n < cfg6.N), Cert.KernelIdeal.Head.acc (F := Ideal) c (Vtc V c) n hn (ix2 (0 : Fin 1) j)
      = ∑ t : Fin (n + 1), ∑ r : Fin 2000, blockState V c ⟨t.val, lt_of_lt_of_le t.isLt hn⟩ (ix2 r j)
  | 0, hn => by
    show Cert.KernelIdeal.Head.accStep (F := Ideal) _ _ _ _ _ _ _ (k6_pay3 (F := Ideal)) (ix2 (0 : Fin 1) j) = _
    rw [accStep_apply, Fin.sum_univ_one]
    show Ideal.ofBits .f32 0x00000000#32 + _ = _
    rw [Cert.Lib.GnnLaws.ofBits_zero, zero_add]
    rfl
  | n + 1, hn => by
    show Cert.KernelIdeal.Head.accStep (F := Ideal) _ _ _ _ _ _ _ (Cert.KernelIdeal.Head.acc (F := Ideal) c (Vtc V c) n (Nat.lt_of_succ_lt hn)) (ix2 (0 : Fin 1) j) = _
    rw [accStep_apply, acc_apply V c j n (Nat.lt_of_succ_lt hn)]
    conv_rhs => rw [Fin.sum_univ_castSucc]
    rfl

/-! ## The column sums over all the nodes -/

/-- The point whose block holds row `r`. -/
def ptOf6 (r : Fin 50000) : Fin cfg6.N := ⟨r.val / 2000, by rw [show cfg6.N = 25 from N_6]; have := r.isLt; omega⟩

/-- The last region's new states as ONE 50000 × 64 array over the entry contents: row `n` is row `n mod 2000` of the new
    states of point `n / 2000`'s block. -/
def stateAll (V : Dev nD → Valuation τ sig (Elt Ideal)) (c : Dev nD) : S50000x64.Idx → EReal := fun i =>
  blockState V c (ptOf6 (i 0)) (ix2 (n0 := 2000) (n1 := 64) ⟨(i 0).val % 2000, Nat.mod_lt _ (by decide)⟩ (i 1))

/-- Row `2000 t + r` of that array is row `r` of point `t`'s block. -/
theorem stateAll_block (V : Dev nD → Valuation τ sig (Elt Ideal)) (c : Dev nD) (t : Fin 25) (r : Fin 2000) (j : Fin 64)
    (ht : t.val < cfg6.N) (hn : r.val + 2000 * t.val < 50000) :
    stateAll V c (ix2 (⟨r.val + 2000 * t.val, hn⟩ : Fin 50000) j) = blockState V c ⟨t.val, ht⟩ (ix2 r j) := by
  have hr : r.val < 2000 := r.isLt
  have e1 : ptOf6 (⟨r.val + 2000 * t.val, hn⟩ : Fin 50000) = ⟨t.val, ht⟩ :=
    Fin.ext (by show (r.val + 2000 * t.val) / 2000 = t.val; omega)
  have e2 : (⟨(r.val + 2000 * t.val) % 2000, Nat.mod_lt _ (by decide)⟩ : Fin 2000) = r :=
    Fin.ext (by show (r.val + 2000 * t.val) % 2000 = r.val; omega)
  show blockState V c (ptOf6 (⟨r.val + 2000 * t.val, hn⟩ : Fin 50000))
      (ix2 (n0 := 2000) (n1 := 64) ⟨(r.val + 2000 * t.val) % 2000, Nat.mod_lt _ (by decide)⟩ j) = _
  rw [e1, e2]

/-- AFTER THE LAST POINT the running sum at feature `j` is the column sum of that array over all 50000 nodes. -/
theorem acc_last (V : Dev nD → Valuation τ sig (Elt Ideal)) (c : Dev nD) (j : Fin 64) :
    Cert.KernelIdeal.Head.acc (F := Ideal) c (Vtc V c) (t24).val (t24).isLt (ix2 (0 : Fin 1) j) = ∑ n : Fin 50000, stateAll V c (ix2 n j) := by
  rw [acc_apply V c j (t24).val (t24).isLt]
  show ∑ t : Fin 25, ∑ r : Fin 2000, blockState V c ⟨t.val, _⟩ (ix2 r j) = _
  rw [← Equiv.sum_comp (finProdFinEquiv : Fin 25 × Fin 2000 ≃ Fin 50000) (fun n => stateAll V c (ix2 n j)), Fintype.sum_prod_type]
  refine Finset.sum_congr rfl fun t _ => Finset.sum_congr rfl fun r _ => ?_
  exact (stateAll_block V c t r j _ _).symm

/-! ## The read-out -/

/-- The four small head arrays are whole at every point. -/
theorem idx6_head : ∀ t : Fin cfg6.N, win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0 :=
  (by decide +kernel : ∀ t : Fin grid6.N, win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0)

/-- THE RESULT the last region leaves, over the arrays as it found them: the column means of the new states (each
    column sum times the named constant `inv_50000`) through the hidden layer `max(· · ow1 + ob1, 0)` and the output layer
    `· · ow2 + ob2`. -/
theorem G6_11_apply (V : Dev nD → Valuation τ sig (Elt Ideal)) (c : Dev nD) :
    G6_11 (F := Ideal) V c (ix2 (0 : Fin 1) (0 : Fin 1))
      = (∑ k : Fin 64, max ((∑ m : Fin 64, ((∑ n : Fin 50000, stateAll V c (ix2 n m))
              * (Named.named (F := Ideal) κ "inv_50000" 0x37A7C5AC#32 : Ideal .f32))
            * asReals (S := S64x64) (V c (Proc.devRef .tc main_arg9)) (ix2 m k))
          + asReals (S := S1x64) (V c (Proc.devRef .tc main_v92)) (ix2 (0 : Fin 1) k)) 0
          * asReals (S := S64x1) (V c (Proc.devRef .tc main_arg11)) (ix2 k (0 : Fin 1)))
        + asReals (S := S1x1) (V c (Proc.devRef .tc main_v93)) (ix2 (0 : Fin 1) (0 : Fin 1)) := by
  obtain ⟨a7, b7, a8, b8, a9, b9, a10, b10⟩ := idx6_head t24
  have hOW1 : ∀ m k : Fin 64, Cert.KernelIdeal.Head.iblk c (Vtc V c) 7 t24 (ix2 m k) = asReals (S := S64x64) (V c (Proc.devRef .tc main_arg9)) (ix2 m k) :=
    fun m k => by
    show asReals (S := S64x64) (V c (Proc.devRef .tc main_arg9)) (((cfg6.win 7).blk t24).view.emb (ix2 m k)) = _
    congr 1
    funext ax
    match ax with
    | ⟨0, _⟩ =>
      exact Fin.ext (by
          show win6_7.index t24 (0 : Fin 2) * 64 + 1 * (m).val = (m).val
          rw [a7]; omega)
    | ⟨1, _⟩ =>
      exact Fin.ext (by
          show win6_7.index t24 (1 : Fin 2) * 64 + 1 * (k).val = (k).val
          rw [b7]; omega)
  have hOB1 : ∀ k : Fin 64, Cert.KernelIdeal.Head.iblk c (Vtc V c) 8 t24 (ix2 (0 : Fin 1) k) = asReals (S := S1x64) (V c (Proc.devRef .tc main_v92)) (ix2 (0 : Fin 1) k) :=
    fun k => by
    show asReals (S := S1x64) (V c (Proc.devRef .tc main_v92)) (((cfg6.win 8).blk t24).view.emb (ix2 (0 : Fin 1) k)) = _
    congr 1
    funext ax
    match ax with
    | ⟨0, _⟩ =>
      exact Fin.ext (by
          show win6_8.index t24 (0 : Fin 2) * 1 + 1 * ((0 : Fin 1)).val = ((0 : Fin 1)).val
          rw [a8]; omega)
    | ⟨1, _⟩ =>
      exact Fin.ext (by
          show win6_8.index t24 (1 : Fin 2) * 64 + 1 * (k).val = (k).val
          rw [b8]; omega)
  have hOW2 : ∀ k : Fin 64, Cert.KernelIdeal.Head.iblk c (Vtc V c) 9 t24 (ix2 k (0 : Fin 1)) = asReals (S := S64x1) (V c (Proc.devRef .tc main_arg11)) (ix2 k (0 : Fin 1)) :=
    fun k => by
    show asReals (S := S64x1) (V c (Proc.devRef .tc main_arg11)) (((cfg6.win 9).blk t24).view.emb (ix2 k (0 : Fin 1))) = _
    congr 1
    funext ax
    match ax with
    | ⟨0, _⟩ =>
      exact Fin.ext (by
          show win6_9.index t24 (0 : Fin 2) * 64 + 1 * (k).val = (k).val
          rw [a9]; omega)
    | ⟨1, _⟩ =>
      exact Fin.ext (by
          show win6_9.index t24 (1 : Fin 2) * 1 + 1 * ((0 : Fin 1)).val = ((0 : Fin 1)).val
          rw [b9]; omega)
  have hOB2 : Cert.KernelIdeal.Head.iblk c (Vtc V c) 10 t24 (ix2 (0 : Fin 1) (0 : Fin 1)) = asReals (S := S1x1) (V c (Proc.devRef .tc main_v93)) (ix2 (0 : Fin 1) (0 : Fin 1)) :=
    by
    show asReals (S := S1x1) (V c (Proc.devRef .tc main_v93)) (((cfg6.win 10).blk t24).view.emb (ix2 (0 : Fin 1) (0 : Fin 1))) = _
    congr 1
    funext ax
    match ax with
    | ⟨0, _⟩ =>
      exact Fin.ext (by
          show win6_10.index t24 (0 : Fin 2) * 1 + 1 * ((0 : Fin 1)).val = ((0 : Fin 1)).val
          rw [a10]; omega)
    | ⟨1, _⟩ =>
      exact Fin.ext (by
          show win6_10.index t24 (1 : Fin 2) * 1 + 1 * ((0 : Fin 1)).val = ((0 : Fin 1)).val
          rw [b10]; omega)
  unfold G6_11 Cert.KernelIdeal.Head.headOut
  refine (k6_pay2_apply (Cert.KernelIdeal.Head.acc (F := Ideal) c (Vtc V c) (t24).val (t24).isLt) (Cert.KernelIdeal.Head.iblk c (Vtc V c) 7 t24) (Cert.KernelIdeal.Head.iblk c (Vtc V c) 8 t24)
    (Cert.KernelIdeal.Head.iblk c (Vtc V c) 9 t24) (Cert.KernelIdeal.Head.iblk c (Vtc V c) 10 t24)).trans ?_
  simp only [acc_last, hOW1, hOB1, hOW2, hOB2]

end Cert.Proof.IdealMath

end
-- ==== Proof.ReadoutStep.lean ====
/-
  The kernel program's result as one formula: the last TensorCore region leaves in its [1,1] output, over what it
  found, the read-out of the column sums of the last layer's states over the 50000 nodes — each sum times the named
  1/50000, through the hidden layer (weights and bias of the launch memory's arguments) with its max against 0, then
  the output layer.
-/
import proofs.«215677_g32066225832048_cont_9to1_32_28_alg».proof.Proof.ChainGlue
import proofs.«215677_g32066225832048_cont_9to1_32_28_alg».proof.Proof.HeadMath

noncomputable section

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23 Cert.Proof.IdealMath

open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-- The result array is the last region's output as one function of what the region found. -/
theorem result_eq (d : Dev nD) : result m h d = G6_11 (F := Ideal) (fun _ => V10 m h d) d :=
  (Wout6_arr (fun _ => V10 m h d) (OtcV (F := Ideal) 3) (RcV (F := Ideal) 3) d 11).trans (final6_11 _ _ _ d)

theorem V10_ow1 (d : Dev nD) : V10 m h d (Proc.devRef .tc main_arg9) = launchContents m d (Proc.devRef .tc main_arg9) :=
  arg_at m d _ (k10 m h d) main_arg9 (by decide)
theorem V10_ow2 (d : Dev nD) : V10 m h d (Proc.devRef .tc main_arg11) = launchContents m d (Proc.devRef .tc main_arg11) :=
  arg_at m d _ (k10 m h d) main_arg11 (by decide)

theorem V10_ob1 (d : Dev nD) :
    V10 m h d (Proc.devRef .tc main_v92) = shapeCast S1x64 (launchContents m d (Proc.devRef .tc main_arg10) : FVec Ideal S64 .f32) shapeCasts_S64_S1x64 := by
  have e := v92_eq (F := Ideal) (V9 m h d)
  rw [show V9 m h d (main_arg10 : DevRef τ sig) = launchContents m d (Proc.devRef .tc main_arg10) from arg_at m d _ (k9 m h d) main_arg10 (by decide)] at e
  exact e

theorem V10_ob2 (d : Dev nD) :
    V10 m h d (Proc.devRef .tc main_v93) = shapeCast S1x1 (launchContents m d (Proc.devRef .tc main_arg12) : FVec Ideal S1 .f32) shapeCasts_S1_S1x1 := by
  have e := v93_eq (F := Ideal) (V9 m h d)
  rw [show V9 m h d (main_arg12 : DevRef τ sig) = launchContents m d (Proc.devRef .tc main_arg12) from arg_at m d _ (k9 m h d) main_arg12 (by decide)] at e
  exact e

/-- The program's result at its one entry. -/
theorem result_at (d : Dev nD) :
    asReals (S := S1x1) (result m h d) (ix2 (0 : Fin 1) (0 : Fin 1))
      = (∑ k : Fin 64, max ((∑ j : Fin 64, ((∑ n : Fin 50000, stateAll (fun _ => V10 m h d) d (ix2 n j))
              * (Named.named (F := Ideal) κ "inv_50000" 0x37A7C5AC#32 : Ideal .f32))
            * asReals (S := S64x64) (launchContents m d (Proc.devRef .tc main_arg9)) (ix2 j k))
          + asReals (S := S1x64) (shapeCast S1x64 (launchContents m d (Proc.devRef .tc main_arg10) : FVec Ideal S64 .f32) shapeCasts_S64_S1x64) (ix2 (0 : Fin 1) k)) 0
          * asReals (S := S64x1) (launchContents m d (Proc.devRef .tc main_arg11)) (ix2 k (0 : Fin 1)))
        + asReals (S := S1x1) (shapeCast S1x1 (launchContents m d (Proc.devRef .tc main_arg12) : FVec Ideal S1 .f32) shapeCasts_S1_S1x1) (ix2 (0 : Fin 1) (0 : Fin 1)) := by
  rw [result_eq m h d]
  have e := G6_11_apply (fun _ => V10 m h d) d
  rw [V10_ow1 m h d, V10_ob1 m h d, V10_ow2 m h d, V10_ob2 m h d] at e
  exact e

end Cert.Proof.IdealValue

end
-- ==== Proof.KernelPre.lean ====
import proofs.«215677_g32066225832048_cont_9to1_32_28_alg».proof.Proof.IdxRange

/-!
# The node labels are in range, and the named constant

The precondition's conjunct `jnp.all((x >= 0) & (x <= 119))` read back: every node label is below 120 as a natural
number (`x_range`; `x_lt` from the launch memory), so it names a row of the 120-row embedding table. And the
idealized kernel's one named constant, `inv_50000`, denotes `1 / 50000` at the ideal instance.
-/

noncomputable section

namespace Cert.Proof.KernelPre

open Cert.KernelIdeal Idealize.ShloMosaic Idealize.ShloMosaic.TcCoe Idealize.SL.Sem
open Idealize.ShloMosaic.StableHlo Idealize.ShloMosaic.ValueIdx

/-- A word that is at least 0 and at most 119 as a signed integer is below 120 as a natural number. -/
theorem word_range120 (v : BitVec 32)
    (e : IntOp.andi (IntOp.cmpi .sge v 0#32) (IntOp.cmpi .sle v 119#32) = 1#1) : v.toNat < 120 := by
  obtain ⟨h0, h1⟩ := IntOp.andi_eq_one.1 e
  rw [IntOp.cmpi_sge] at h0
  rw [IntOp.cmpi_sle] at h1
  have e0 : (0#32 : BitVec 32).toInt = 0 := by decide
  have e1 : (119#32 : BitVec 32).toInt = 119 := by decide
  rw [e0] at h0
  rw [e1] at h1
  have hlt := v.isLt
  rw [BitVec.toInt_eq_toNat_cond] at h0 h1
  split at h0 <;> omega

section Pre

variable {F : FTy → Type} [FloatOps F] [Cert.Pre_input_domain.Facts]
open Cert.Pre_input_domain Cert.Pre_input_domain.Facts

/-- The precondition's conjunct on the node labels, `jnp.all((x >= 0) & (x <= 119))`, read back. -/
theorem x_range (a0 : IVec Cert.Pre_input_domain.S50000 32) (a1 : IVec Cert.Pre_input_domain.S2x800000 32)
    (a2 : FVec F Cert.Pre_input_domain.S120x64 .f32) (a3 : FVec F Cert.Pre_input_domain.S3x128x64 .f32)
    (a4 : FVec F Cert.Pre_input_domain.S3x64 .f32) (a5 : FVec F Cert.Pre_input_domain.S3x64x64 .f32)
    (a6 : FVec F Cert.Pre_input_domain.S3x64 .f32) (a7 : FVec F Cert.Pre_input_domain.S3x64x64 .f32)
    (a8 : FVec F Cert.Pre_input_domain.S3x64 .f32) (a9 : FVec F Cert.Pre_input_domain.S64x64 .f32)
    (a10 : FVec F Cert.Pre_input_domain.S64 .f32) (a11 : FVec F Cert.Pre_input_domain.S64x1 .f32)
    (a12 : FVec F Cert.Pre_input_domain.S1 .f32)
    (h : Cert.Pre_input_domain.fn (F := F) a0 a1 a2 a3 a4 a5 a6 a7 a8 a9 a10 a11 a12 = fun _ => 1#1)
    (i : Cert.Pre_input_domain.S50000.Idx) : (a0 i).toNat < 120 := by
  obtain ⟨X, Y, hX⟩ : ∃ X Y : IVec Cert.Pre_input_domain.S_ 1,
      Cert.Pre_input_domain.fn (F := F) a0 a1 a2 a3 a4 a5 a6 a7 a8 a9 a10 a11 a12
        = andi (andi X (Host.reduce IntOp.andi
            (andi (cmpi .sge a0 (broadcastInDim Cert.Pre_input_domain.S50000 ![] bcast_S_S50000 (constantI Cert.Pre_input_domain.S_ 32 0#32)))
              (cmpi .sle a0 (broadcastInDim Cert.Pre_input_domain.S50000 ![] bcast_S_S50000 (constantI Cert.Pre_input_domain.S_ 32 119#32))))
            (constantI Cert.Pre_input_domain.S_ 1 1#1) reducesTo_S50000_S_d0 h_S_)) Y := ⟨_, _, rfl⟩
  rw [hX] at h
  have e := congrFun h ix0
  have e1 := (IntOp.andi_eq_one.1 e).1
  have e2 := (IntOp.andi_eq_one.1 e1).2
  have e3 := Host.reduce_andi_all _ _ _ _ _ e2 i
  exact word_range120 _ e3

end Pre

/-- Under the precondition every node label, on every device, is below 120. -/
theorem x_lt {F : FTy → Type} [FloatOps F] [Cert.Pre_input_domain.Facts]
    (m : (ℓ : Loc nD τ sig) → Buf (Elt F) ℓ) (h : Cert.Proof.IdxRange.PreAt m) (d : Dev nD) (i : S50000.Idx) :
    ((launchContents m d (main_arg0 : DevRef τ sig) : IVec S50000 32) i).toNat < 120 :=
  x_range _ _ _ _ _ _ _ _ _ _ _ _ _ (h d) i

/-- The idealized kernel's named constant `inv_50000` denotes `1 / 50000`. -/
theorem named_inv_50000 :
    Named.named (F := Ideal) Cert.KernelIdeal.κ "inv_50000" (φ := .f32) 0x37A7C5AC#32 = ((1 / 50000 : ℝ) : EReal) := rfl

end Cert.Proof.KernelPre

end
-- ==== Proof.RefStages.lean ====
import proofs.«215677_g32066225832048_cont_9to1_32_28_alg».proof.Proof.RefRunVal
import proofs.«215677_g32066225832048_cont_9to1_32_28_alg».proof.Proof.LibGnnLaws
import Idealize.ShloMosaic.Lib.ValueIdx
import Idealize.ShloMosaic.Lib.Pipeline.Value
import Idealize.ShloMosaic.Lib.ReduceAll
import Idealize.ShloMosaic.PureOps.Ideal.Laws

/-!
# The reference's stages read at an index

At the ideal instance a float is an extended real, and each stage of the reference (`RefRunVal`) is read here AT AN
INDEX, under the hypotheses that make the reading simple. `jnp.take` wraps a negative index, clamps, gathers and
masks a row whose index is out of range; where the index word names a row of the table all of that is the identity,
and `takeE h idx` at `(e, j)` is `h` at `(idx e, j)` (`takeE_apply`; `take0_apply` for the embedding lookup). Under
them: a row gather read at an index for any table (`gather_rows_apply`), a reduction by `and` of ones
(`reduce_andi_of_all`), and the signed comparisons of a word below `2 ^ 31`. The aggregation — a scatter-add into zeros at
the destination words — is, at node `n` and column `j`, the sum over the edges into `n` of the messages' entries at
column `j` (`agg_apply`), from a row scatter-add read at an index for any operand (`scatterAdd_rows_apply`). A layer's
update is `relu(h · Ws[l] + bs[l] + ag)` entry by entry (`upd0_apply` … `upd2_apply`), from a plain matrix product read
at an index (`dot_plain_apply`) and the layer's slice of the stacked weights and biases read at an index (`matOf_apply`,
`biasOf_apply`). A layer's messages are `relu([hs, hd] · W1[l] + b1[l]) · W2[l] + b2[l]` entry by entry (`msg0_apply` …
`msg2_apply`), the concatenated pair of rows `catE hs hd` read at a column below 64 (`catE_apply_left`) or from 64 on
(`catE_apply_right`). The read-out is `relu((colsum(h) / 50000) · Wo1 + bo1) · Wo2 + bo2` at its one index
(`readout_apply`), the column sums over the 50000 nodes by `colSum_apply`.
-/

noncomputable section

open scoped BigOperators

namespace Cert.ReferenceIdeal.RefStages

open Cert.ReferenceIdeal Idealize.ShloMosaic Idealize.ShloMosaic.ValueIdx

/-! ## A row gather read at an index -/

section RowGather
variable {α : Type}

/-- The dimension numbers of `jnp.take(x, idx, axis=0)` for a table `[N, D]`, start indices `[M, 1]` and a result
    `[M, D]`: the row axis collapsed and indexed, the column axis an offset axis carried whole. -/
abbrev rowDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The start-indices index `[e, 0]` of result index `(e, j)`. -/
abbrev rowIdx {M D : Nat} (y : (⟨2, ![M, D]⟩ : Shape).Idx) : (⟨2, ![M, 1]⟩ : Shape).Idx :=
  fun a => match a with | ⟨0, _⟩ => ⟨(y 0).val, idx2_lt0 y⟩ | ⟨1, _⟩ => ⟨0, Nat.one_pos⟩

/-- THE ROW GATHER READ AT `(e, j)`: the table at row `idx[e, 0]` (read signed, clamped into `[0, N − 1]`), column `j`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (y : (⟨2, ![M, D]⟩ : Shape).Idx) :
    Host.gather (rowDims N M D wf) x idx y
      = x (ix2 ⟨min (idx (rowIdx y)).toInt.toNat (N - 1), by omega⟩ ⟨(y 1).val, idx2_lt1 y⟩) := by
  unfold Host.gather
  congr 1
  funext a
  refine Fin.ext ?_
  show (rowDims N M D wf).start y idx a + (rowDims N M D wf).batchCoord y a + (rowDims N M D wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N M D wf).startIndexMap from List.mem_singleton.mpr rfl)]
    have hsi : (rowDims N M D wf).siIdx y ⟨List.idxOf (⟨0, by decide⟩ : Fin 2) (rowDims N M D wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, h1⟩ =>
    have hs : (rowDims N M D wf).start y idx ⟨1, h1⟩ = 0 := by
      unfold GatherDims.start
      rw [dif_neg (fun h => absurd (congrArg Fin.val (List.mem_singleton.mp h)) (by show ¬((1 : Nat) = 0); omega))]
    have hk : (⟨1, h1⟩ : Fin (⟨2, ![N, D]⟩ : Shape).rank) ∈ (rowDims N M D wf).sKept :=
      (GatherDims.mem_sKept _ _).mpr
        ⟨fun h => absurd (congrArg Fin.val (List.mem_singleton.mp h)) (by show ¬((1 : Nat) = 0); omega), List.not_mem_nil⟩
    rw [hs]
    unfold GatherDims.offCoord
    rw [dif_pos hk]
    simp only [Nat.zero_add]
    rfl

end RowGather

/-! ## Words in range -/

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and` from 1 is 1 at `j` when every operand element that reduces into `j` is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  exact foldl_andi_one x _ fun i hi => hx i (of_decide_eq_true (List.mem_filter.1 hi).2)

/-- A word below `2 ^ 31` as a natural number is not negative as a signed integer. -/
theorem slt_zero_of_lt {v : BitVec 32} (hv : v.toNat < 2 ^ 31) : IntOp.cmpi .slt v 0#32 = 0#1 := by
  refine eq_zero_of_ne_one fun h => ?_
  rw [IntOp.cmpi_slt, BitVec.toInt_eq_toNat_cond] at h
  have e0 : (0#32 : BitVec 32).toInt = 0 := by decide
  rw [e0] at h
  split at h <;> omega

theorem sge_zero_of_lt {v : BitVec 32} (hv : v.toNat < 2 ^ 31) : IntOp.cmpi .sge v 0#32 = 1#1 := by
  have e0 : (0#32 : BitVec 32).toInt = 0 := by decide
  rw [IntOp.cmpi_sge, e0, BitVec.toInt_eq_toNat_cond]
  split <;> omega

/-- A word at most `n` as a natural number, `n` below `2 ^ 31`, is at most the word `n` as a signed integer. -/
theorem sle_of_le {v : BitVec 32} (n : Nat) (hn : n < 2 ^ 31) (hv : v.toNat ≤ n) :
    IntOp.cmpi .sle v (BitVec.ofNat 32 n) = 1#1 := by
  rw [IntOp.cmpi_sle, BitVec.toInt_eq_toNat_cond, BitVec.toInt_eq_toNat_cond, BitVec.toNat_ofNat]
  have : n % 2 ^ 32 = n := Nat.mod_eq_of_lt (by omega)
  rw [this]
  split <;> split <;> omega

/-- A nonnegative signed word read as a natural number is its own value. -/
theorem toInt_toNat_of_lt {v : BitVec 32} (hv : v.toNat < 2 ^ 31) : v.toInt.toNat = v.toNat := by
  rw [BitVec.toInt_eq_toNat_cond]
  split <;> omega

/-! ## The row gathers of the reference, read at an index -/

section Take

variable [Cert.ReferenceIdeal.Facts]
open Cert.ReferenceIdeal.RefRun Cert.ReferenceIdeal.Facts₀ Cert.ReferenceIdeal.Facts

/-- `h[idx]` over the edges, read at `(e, j)` where the index word names a row (`idx e < 50000` as a natural number):
    the wrap of a negative index, the clamp and the out-of-range mask are all the identity there, and the result is
    row `idx e` of `h` at column `j`. -/
theorem takeE_apply (h : FVec Ideal S50000x64 .f32) (idx : IVec S800000 32) (e : Fin 800000) (j : Fin 64)
    (hidx : (idx (ix1 e)).toNat < 50000) :
    takeE (F := Ideal) h idx (ix2 e j) = h (ix2 ⟨(idx (ix1 e)).toNat, hidx⟩ j) := by
  have h31 : (idx (ix1 e)).toNat < 2 ^ 31 := by omega
  -- the wrapped index is the index itself
  have hnorm : (select (cmpi .slt idx (broadcastInDim S800000 ![] bcast_S_S800000 (constantI S_ 32 0#32)))
      (addi idx (broadcastInDim S800000 ![] bcast_S_S800000 (constantI S_ 32 50000#32))) idx : IVec S800000 32) (ix1 e)
      = idx (ix1 e) := by
    show Scalar.select (IntOp.cmpi .slt (idx (ix1 e)) 0#32) _ _ = _
    rw [slt_zero_of_lt h31, select_zero]
  unfold takeE
  rw [select_apply]
  -- the mask is 1 at (e, j)
  have hmask : ∀ c : IVec S800000x1 32, c (ix2 e ⟨0, Nat.one_pos⟩) = idx (ix1 e) →
      (broadcastInDim S800000x64 ![0] bcast_S800000_S800000x64_0
        (Host.reduce IntOp.andi
          (andi (cmpi .sge c (broadcastInDim S800000x1 ![] bcast_S_S800000x1 (constantI S_ 32 0#32)))
            (cmpi .sle c (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_) : IVec S800000x64 1) (ix2 e j) = 1#1 := by
    intro c hc
    rw [broadcastInDim_apply _ _ _ (ix2 e j) (ix1 e) (fun a => match a with | ⟨0, _⟩ => rfl)]
    refine reduce_andi_of_all _ _ _ _ _ rfl fun i hi => ?_
    have h0 : i 0 = e := by have := congrFun hi ⟨0, by decide⟩; exact this
    have h1 : i 1 = ⟨0, Nat.one_pos⟩ := Fin.ext (by have := idx2_lt1 i; show (i 1).val = 0; omega)
    have hi0 : i = ix2 e ⟨0, Nat.one_pos⟩ := by
      funext a
      match a with
      | ⟨0, _⟩ => exact h0
      | ⟨1, _⟩ => exact h1
    subst hi0
    show IntOp.andi (IntOp.cmpi .sge (c _) 0#32) (IntOp.cmpi .sle (c _) 49999#32) = 1#1
    rw [hc, sge_zero_of_lt h31, sle_of_le 49999 (by decide) (by omega)]
    decide
  -- the index column reads the wrapped index, which is the index
  have hcol : ∀ x : IVec S800000 32,
      (broadcastInDim S800000x1 ![0] bcast_S800000_S800000x1_0 x : IVec S800000x1 32) (ix2 e ⟨0, Nat.one_pos⟩) = x (ix1 e) :=
    fun x => broadcastInDim_apply _ _ _ (ix2 e ⟨0, Nat.one_pos⟩) (ix1 e) (fun a => match a with | ⟨0, _⟩ => rfl)
  rw [hmask _ ((hcol _).trans hnorm), select_one]
  show Host.gather (rowDims 50000 800000 64 gather_S50000x64_S800000x1_S800000x64_1_0_n_n_0_1_164_wf) h _ (ix2 e j) = _
  rw [gather_rows_apply (by decide)]
  have hrow : rowIdx (ix2 e j) = ix2 e ⟨0, Nat.one_pos⟩ := by
    funext a
    match a with
    | ⟨0, _⟩ => rfl
    | ⟨1, _⟩ => rfl
  congr 1
  funext a
  match a with
  | ⟨0, _⟩ =>
    refine Fin.ext ?_
    show min (_ : BitVec 32).toInt.toNat (50000 - 1) = (idx (ix1 e)).toNat
    rw [hrow, (hcol _).trans hnorm, toInt_toNat_of_lt h31]
    omega
  | ⟨1, _⟩ => rfl

/-- `embed[x]`, read at `(n, j)` where the label names a row of the table (`x n < 120` as a natural number): row `x n`
    of the table at column `j`. -/
theorem take0_apply (h : FVec Ideal S120x64 .f32) (idx : IVec S50000 32) (e : Fin 50000) (j : Fin 64)
    (hidx : (idx (ix1 e)).toNat < 120) :
    take0 (F := Ideal) h idx (ix2 e j) = h (ix2 ⟨(idx (ix1 e)).toNat, hidx⟩ j) := by
  have h31 : (idx (ix1 e)).toNat < 2 ^ 31 := by omega
  -- the wrapped index is the index itself
  have hnorm : (select (cmpi .slt idx (broadcastInDim S50000 ![] bcast_S_S50000 (constantI S_ 32 0#32)))
      (addi idx (broadcastInDim S50000 ![] bcast_S_S50000 (constantI S_ 32 120#32))) idx : IVec S50000 32) (ix1 e)
      = idx (ix1 e) := by
    show Scalar.select (IntOp.cmpi .slt (idx (ix1 e)) 0#32) _ _ = _
    rw [slt_zero_of_lt h31, select_zero]
  unfold take0
  rw [select_apply]
  -- the mask is 1 at (e, j)
  have hmask : ∀ c : IVec S50000x1 32, c (ix2 e ⟨0, Nat.one_pos⟩) = idx (ix1 e) →
      (broadcastInDim S50000x64 ![0] bcast_S50000_S50000x64_0
        (Host.reduce IntOp.andi
          (andi (cmpi .sge c (broadcastInDim S50000x1 ![] bcast_S_S50000x1 (constantI S_ 32 0#32)))
            (cmpi .sle c (broadcastInDim S50000x1 ![0, 1] bcast_S1x1_S50000x1_0_1
              (broadcastInDim S1x1 ![1] bcast_S1_S1x1_1 (constantI S1 32 119#32)))))
          (constantI S_ 1 1#1) reducesTo_S50000x1_S50000_d1 h_S_) : IVec S50000x64 1) (ix2 e j) = 1#1 := by
    intro c hc
    rw [broadcastInDim_apply _ _ _ (ix2 e j) (ix1 e) (fun a => match a with | ⟨0, _⟩ => rfl)]
    refine reduce_andi_of_all _ _ _ _ _ rfl fun i hi => ?_
    have h0 : i 0 = e := by have := congrFun hi ⟨0, by decide⟩; exact this
    have h1 : i 1 = ⟨0, Nat.one_pos⟩ := Fin.ext (by have := idx2_lt1 i; show (i 1).val = 0; omega)
    have hi0 : i = ix2 e ⟨0, Nat.one_pos⟩ := by
      funext a
      match a with
      | ⟨0, _⟩ => exact h0
      | ⟨1, _⟩ => exact h1
    subst hi0
    show IntOp.andi (IntOp.cmpi .sge (c _) 0#32) (IntOp.cmpi .sle (c _) 119#32) = 1#1
    rw [hc, sge_zero_of_lt h31, sle_of_le 119 (by decide) (by omega)]
    decide
  -- the index column reads the wrapped index, which is the index
  have hcol : ∀ x : IVec S50000 32,
      (broadcastInDim S50000x1 ![0] bcast_S50000_S50000x1_0 x : IVec S50000x1 32) (ix2 e ⟨0, Nat.one_pos⟩) = x (ix1 e) :=
    fun x => broadcastInDim_apply _ _ _ (ix2 e ⟨0, Nat.one_pos⟩) (ix1 e) (fun a => match a with | ⟨0, _⟩ => rfl)
  rw [hmask _ ((hcol _).trans hnorm), select_one]
  show Host.gather (rowDims 120 50000 64 gather_S120x64_S50000x1_S50000x64_1_0_n_n_0_1_164_wf) h _ (ix2 e j) = _
  rw [gather_rows_apply (by decide)]
  have hrow : rowIdx (ix2 e j) = ix2 e ⟨0, Nat.one_pos⟩ := by
    funext a
    match a with
    | ⟨0, _⟩ => rfl
    | ⟨1, _⟩ => rfl
  congr 1
  funext a
  match a with
  | ⟨0, _⟩ =>
    refine Fin.ext ?_
    show min (_ : BitVec 32).toInt.toNat (120 - 1) = (idx (ix1 e)).toNat
    rw [hrow, (hcol _).trans hnorm, toInt_toNat_of_lt h31]
    omega
  | ⟨1, _⟩ => rfl

end Take

/-! ## A row scatter-add read at an index -/

section RowScatter

/-- The dimension numbers of `zeros.at[idx].add(upd)` for an operand `[N, D]`, scatter indices `[M, 1]` and updates
    `[M, D]`: each update row goes whole to the operand row its index names. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- The scatter-indices index `[e, 0]` of update index `(e, j)`. -/
abbrev rowIdxU {M D : Nat} (q : (⟨2, ![M, D]⟩ : Shape).Idx) : (⟨2, ![M, 1]⟩ : Shape).Idx :=
  fun a => match a with | ⟨0, _⟩ => ⟨(q 0).val, idx2_lt0 q⟩ | ⟨1, _⟩ => ⟨0, Nat.one_pos⟩

variable {N M D w : Nat} (wf : ScatterDims.WF ⟨2, ![N, D]⟩ ⟨2, ![M, 1]⟩ ⟨2, ![M, D]⟩ [1] [0] [0] 1)

/-- On the row axis an update starts at its index word, read signed … -/
theorem rowScatter_start0 (q : (⟨2, ![M, D]⟩ : Shape).Idx) (idx : IVec ⟨2, ![M, 1]⟩ w) :
    (rowScatterDims N M D wf).start q idx ⟨0, Nat.zero_lt_two⟩ = (idx (rowIdxU q)).toInt := by
  unfold ScatterDims.start
  rw [dif_pos (show (⟨0, Nat.zero_lt_two⟩ : Fin 2) ∈ (rowScatterDims N M D wf).scatterDimsToOperandDims from List.mem_singleton.mpr rfl)]
  have hsi : (rowScatterDims N M D wf).siIdx q ⟨List.idxOf (⟨0, Nat.zero_lt_two⟩ : Fin 2) (rowScatterDims N M D wf).scatterDimsToOperandDims,
      List.idxOf_lt_length_iff.2 (List.mem_singleton.mpr rfl)⟩ = rowIdxU q := by
    funext b; refine Fin.ext ?_
    match b with
    | ⟨0, _⟩ => rfl
    | ⟨1, _⟩ => rfl
  rw [hsi]

/-- … and on the column axis at 0. -/
theorem rowScatter_start1 (q : (⟨2, ![M, D]⟩ : Shape).Idx) (idx : IVec ⟨2, ![M, 1]⟩ w) :
    (rowScatterDims N M D wf).start q idx ⟨1, Nat.one_lt_two⟩ = 0 := by
  unfold ScatterDims.start
  rw [dif_neg (fun h => absurd (congrArg Fin.val (List.mem_singleton.mp h)) (by show ¬((1 : Nat) = 0); omega))]

/-- The window coordinate is 0 on the row axis and the update's column on the column axis. -/
theorem rowScatter_window0 (q : (⟨2, ![M, D]⟩ : Shape).Idx) : (rowScatterDims N M D wf).window q ⟨0, Nat.zero_lt_two⟩ = 0 := by
  unfold ScatterDims.window
  rw [dif_neg (by simp [ScatterDims.sKept, Shape.kept])]

theorem rowScatter_window1 (q : (⟨2, ![M, D]⟩ : Shape).Idx) : (rowScatterDims N M D wf).window q ⟨1, Nat.one_lt_two⟩ = (q 1).val := by
  unfold ScatterDims.window
  rw [dif_pos (by simp [ScatterDims.sKept, Shape.kept])]
  rfl

/-- WHERE AN UPDATE LANDS: update `(e, j')` lands at operand index `i = (n, j)` exactly when its index word, read
    signed, is `n` and `j' = j` (an index outside the operand lands nowhere). -/
theorem rowScatter_resultIdx_eq (q : (⟨2, ![M, D]⟩ : Shape).Idx) (idx : IVec ⟨2, ![M, 1]⟩ w)
    (i : (⟨2, ![N, D]⟩ : Shape).Idx) :
    (rowScatterDims N M D wf).resultIdx? q idx = some i
      ↔ (idx (rowIdxU q)).toInt = ((i 0).val : Int) ∧ (q 1).val = (i 1).val := by
  have hi0 := idx2_lt0 i
  have hi1 := idx2_lt1 i
  have hq1 := idx2_lt1 q
  unfold ScatterDims.resultIdx?
  split
  · next h =>
    rw [Option.some.injEq]
    have h0 := (h ⟨0, Nat.zero_lt_two⟩).1
    rw [rowScatter_start0, rowScatter_window0] at h0
    constructor
    · intro e
      have e0 := congrArg (fun f => (f ⟨0, Nat.zero_lt_two⟩).val) e
      have e1 := congrArg (fun f => (f ⟨1, Nat.one_lt_two⟩).val) e
      simp only [rowScatter_start0, rowScatter_start1, rowScatter_window0, rowScatter_window1] at e0 e1
      have e0' : ((idx (rowIdxU q)).toInt + ((0 : Nat) : Int)).toNat = (i 0).val := e0
      have e1' : ((0 : Int) + (((q 1).val : Nat) : Int)).toNat = (i 1).val := e1
      constructor <;> omega
    · rintro ⟨e0, e1⟩
      funext a
      refine Fin.ext ?_
      match a with
      | ⟨0, _⟩ =>
        show ((rowScatterDims N M D wf).start q idx ⟨0, Nat.zero_lt_two⟩
          + (((rowScatterDims N M D wf).window q ⟨0, Nat.zero_lt_two⟩ : Nat) : Int)).toNat = (i 0).val
        rw [rowScatter_start0, rowScatter_window0, e0]
        omega
      | ⟨1, _⟩ =>
        show ((rowScatterDims N M D wf).start q idx ⟨1, Nat.one_lt_two⟩
          + (((rowScatterDims N M D wf).window q ⟨1, Nat.one_lt_two⟩ : Nat) : Int)).toNat = (i 1).val
        rw [rowScatter_start1, rowScatter_window1]
        omega
  · next h =>
    constructor
    · intro e; exact absurd e (by simp)
    · rintro ⟨e0, e1⟩
      exfalso
      apply h
      intro a
      match a with
      | ⟨0, _⟩ =>
        show 0 ≤ (rowScatterDims N M D wf).start q idx ⟨0, Nat.zero_lt_two⟩
              + (((rowScatterDims N M D wf).window q ⟨0, Nat.zero_lt_two⟩ : Nat) : Int)
          ∧ (rowScatterDims N M D wf).start q idx ⟨0, Nat.zero_lt_two⟩
              + (((rowScatterDims N M D wf).window q ⟨0, Nat.zero_lt_two⟩ : Nat) : Int) < ((N : Nat) : Int)
        rw [rowScatter_start0, rowScatter_window0, e0]
        constructor <;> omega
      | ⟨1, _⟩ =>
        show 0 ≤ (rowScatterDims N M D wf).start q idx ⟨1, Nat.one_lt_two⟩
              + (((rowScatterDims N M D wf).window q ⟨1, Nat.one_lt_two⟩ : Nat) : Int)
          ∧ (rowScatterDims N M D wf).start q idx ⟨1, Nat.one_lt_two⟩
              + (((rowScatterDims N M D wf).window q ⟨1, Nat.one_lt_two⟩ : Nat) : Int) < ((D : Nat) : Int)
        rw [rowScatter_start1, rowScatter_window1]
        constructor <;> omega

/-- THE ROW SCATTER-ADD READ AT `(n, j)` (at the ideal instance, where it is the exact sum): the operand's entry plus the
    sum, over the updates' rows, of the entries at column `j` of the rows whose index word, read signed, is `n`. -/
theorem scatterAdd_rows_apply (x : (⟨2, ![N, D]⟩ : Shape).Idx → EReal) (idx : IVec ⟨2, ![M, 1]⟩ w)
    (upd : (⟨2, ![M, D]⟩ : Shape).Idx → EReal) (n : Fin N) (j : Fin D) :
    Ideal.hostScatterAdd (rowScatterDims N M D wf) x idx upd (ix2 n j)
      = x (ix2 n j) + ∑ e : Fin M,
          if (idx (ix2 e ⟨0, Nat.one_pos⟩)).toInt = (n.val : Int) then upd (ix2 e j) else 0 := by
  unfold Ideal.hostScatterAdd
  congr 1
  rw [Finset.sum_filter, sum_idx2]
  refine Finset.sum_congr rfl fun e _ => ?_
  have hrow : ∀ j' : Fin D, rowIdxU (ix2 e j') = ix2 e ⟨0, Nat.one_pos⟩ := fun j' => by
    funext a
    match a with
    | ⟨0, _⟩ => rfl
    | ⟨1, _⟩ => rfl
  simp only [rowScatter_resultIdx_eq, hrow]
  by_cases hn : (idx (ix2 e ⟨0, Nat.one_pos⟩)).toInt = (n.val : Int)
  · rw [if_pos hn, Finset.sum_eq_single j]
    · rw [if_pos ⟨hn, rfl⟩]
    · intro j' _ hj'
      rw [if_neg]
      rintro ⟨_, h⟩
      exact hj' (Fin.ext h)
    · intro h; exact absurd (Finset.mem_univ j) h
  · rw [if_neg hn]
    exact Finset.sum_eq_zero fun j' _ => if_neg fun h => hn h.1

end RowScatter

/-! ## The aggregation read at an index -/

section Agg

variable [Cert.ReferenceIdeal.Facts]
open Cert.ReferenceIdeal.RefRun Cert.ReferenceIdeal.Facts₀ Cert.ReferenceIdeal.Facts

/-- A vector of 800000 words viewed as a column reads, at `(e, 0)`, the vector at `e`. -/
theorem colE_apply (x : IVec S800000 32) (e : Fin 800000) :
    (broadcastInDim S800000x1 ![0] bcast_S800000_S800000x1_0 x : IVec S800000x1 32) (ix2 e ⟨0, Nat.one_pos⟩) = x (ix1 e) :=
  broadcastInDim_apply _ _ _ (ix2 e ⟨0, Nat.one_pos⟩) (ix1 e) (fun a => match a with | ⟨0, _⟩ => rfl)

/-- The wrap of a negative index by 50000 is the identity at a word below `2 ^ 31`. -/
theorem wrapE_apply (idx : IVec S800000 32) (e : Fin 800000) (h31 : (idx (ix1 e)).toNat < 2 ^ 31) :
    (select (cmpi .slt idx (broadcastInDim S800000 ![] bcast_S_S800000 (constantI S_ 32 0#32)))
      (addi idx (broadcastInDim S800000 ![] bcast_S_S800000 (constantI S_ 32 50000#32))) idx : IVec S800000 32) (ix1 e)
      = idx (ix1 e) := by
  show Scalar.select (IntOp.cmpi .slt (idx (ix1 e)) 0#32) _ _ = _
  rw [slt_zero_of_lt h31, select_zero]

/-- At the ideal instance the host's accumulating scatter is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- THE AGGREGATION READ AT `(n, j)`: where every destination word names a node, the scatter-add into zeros is, at node
    `n` and column `j`, the sum over the edges into `n` of the messages' entries at column `j`. -/
theorem agg_apply (dst : IVec S800000 32) (msg : FVec Ideal S800000x64 .f32)
    (hdst : ∀ e : Fin 800000, (dst (ix1 e)).toNat < 50000) (n : Fin 50000) (j : Fin 64) :
    agg (F := Ideal) dst msg (ix2 n j)
      = ∑ e : Fin 800000, if (dst (ix1 e)).toNat = n.val then msg (ix2 e j) else 0 := by
  unfold agg
  show Host.scatterAdd (rowScatterDims 50000 800000 64 scatter_S50000x64_S800000x1_S800000x64_1_0_0_1_wf) _ _ msg
    (ix2 n j) = _
  rw [scatterAdd_ideal, scatterAdd_rows_apply]
  have hz : (broadcastInDim S50000x64 ![] bcast_S_S50000x64 (constant (F := Ideal) S_ .f32 0x00000000#32)
      : FVec Ideal S50000x64 .f32) (ix2 n j) = 0 := by
    show Ideal.ofBits .f32 0x00000000#32 = 0
    exact Cert.Lib.GnnLaws.ofBits_zero
  rw [hz, zero_add]
  refine Finset.sum_congr rfl fun e _ => ?_
  have h31 : (dst (ix1 e)).toNat < 2 ^ 31 := by have := hdst e; omega
  rw [colE_apply, wrapE_apply dst e h31]
  have hiff : (dst (ix1 e)).toInt = (n.val : Int) ↔ (dst (ix1 e)).toNat = n.val := by
    rw [BitVec.toInt_eq_toNat_cond]
    split <;> omega
  simp only [hiff]

end Agg

/-! ## A plain matrix product read at an index -/

section PlainDot

/-- The dimension numbers of `a @ b` for `a : [M, K]`, `b : [K, N]`: one contracted axis, no batch axis. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE MATRIX PRODUCT READ AT `(i, j)` (at the ideal instance): the sum over `k` of `a (i, k) * b (k, j)`. -/
theorem dot_plain_apply {M K N : Nat}
    (wf : DotDims.WF ⟨2, ![M, K]⟩ ⟨2, ![K, N]⟩ ⟨2, ![M, N]⟩ [1] [0] [0] [1] [] [])
    (lhs : FVec Ideal ⟨2, ![M, K]⟩ .f32) (rhs : FVec Ideal ⟨2, ![K, N]⟩ .f32) (i : Fin M) (j : Fin N) :
    Host.dotGeneral (plainDims M K N wf) none lhs rhs (ix2 i j) = ∑ k : Fin K, lhs (ix2 i k) * rhs (ix2 k j) := by
  simp only [Host.dotGeneral]
  rw [Ideal.dotGeneral_apply]
  rw [← Equiv.sum_comp (contrEquiv1 (plainDims M K N wf) K rfl rfl).symm]
  refine Finset.sum_congr rfl fun k _ => ?_
  have hk := contrEquiv1_symm_val (plainDims M K N wf) K rfl rfl k
  congr 1
  · congr 1
    funext a
    refine Fin.ext ?_
    match a with
    | ⟨0, _⟩ => rfl
    | ⟨1, h1⟩ => exact ((plainDims M K N wf).lhsIdx_val_of_single (cl := ⟨1, h1⟩) rfl _ _).trans hk
  · congr 1
    funext a
    refine Fin.ext ?_
    match a with
    | ⟨0, h0⟩ => exact ((plainDims M K N wf).rhsIdx_val_of_single (cr := ⟨0, h0⟩) rfl _ _).trans hk
    | ⟨1, _⟩ => rfl

end PlainDot

/-! ## A layer's weights read at an index -/

section Weights

variable {α : Type}

/-- Matrix `l` of a stack `[L, K, N]`, sliced out and viewed as `[K, N]`, reads at `(k, j)` the stack at `(l, k, j)`. -/
theorem matOf_apply {L K N : Nat} (a : (⟨3, ![L, K, N]⟩ : Shape).Idx → α) (l : Fin L)
    (hs : (⟨3, ![L, K, N]⟩ : Shape).Slices ![l.val, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![l.val, 0, 0] a hs) hc (ix2 k j) = a (ix3 l k j) := by
  rw [shapeCast_dropUnit_apply ![K, N]]
  refine extractStridedSlice_apply _ _ _ _ (ix3 l k j) fun b => ?_
  match b with
  | ⟨0, _⟩ => show l.val = l.val + 0; omega
  | ⟨1, _⟩ => show k.val = 0 + k.val; omega
  | ⟨2, _⟩ => show j.val = 0 + j.val; omega

/-- Row `l` of a stack `[L, N]` of bias vectors, sliced out, viewed as `[N]`, and broadcast along the rows of an
    `[R, N]` array, reads at `(r, j)` the stack at `(l, j)`. -/
theorem biasOf_apply {L N R : Nat} (hN : N ≠ 1) (a : (⟨2, ![L, N]⟩ : Shape).Idx → α) (l : Fin L)
    (hs : (⟨2, ![L, N]⟩ : Shape).Slices ![l.val, 0] ⟨2, ![1, N]⟩)
    (hc : (⟨2, ![1, N]⟩ : Shape).ShapeCasts ⟨1, ![N]⟩)
    (hb1 : (⟨1, ![N]⟩ : Shape).BroadcastsInDim ⟨2, ![1, N]⟩ ![1])
    (hb2 : (⟨2, ![1, N]⟩ : Shape).BroadcastsInDim ⟨2, ![R, N]⟩ ![0, 1]) (r : Fin R) (j : Fin N) :
    broadcastInDim ⟨2, ![R, N]⟩ ![0, 1] hb2
      (broadcastInDim ⟨2, ![1, N]⟩ ![1] hb1
        (shapeCast ⟨1, ![N]⟩ (extractStridedSlice ⟨2, ![1, N]⟩ ![l.val, 0] a hs) hc)) (ix2 r j) = a (ix2 l j) := by
  rw [broadcastInDim_apply _ _ _ (ix2 r j) (ix2 ⟨0, Nat.one_pos⟩ j) (fun b => match b with
    | ⟨0, _⟩ => by show (0 : Nat) = if (1 : Nat) = 1 then 0 else r.val; rw [if_pos rfl]
    | ⟨1, _⟩ => by show j.val = if N = 1 then 0 else j.val; rw [if_neg hN])]
  rw [broadcastInDim_apply _ _ _ (ix2 ⟨0, Nat.one_pos⟩ j) (ix1 j) (fun b => match b with
    | ⟨0, _⟩ => by show j.val = if N = 1 then 0 else j.val; rw [if_neg hN])]
  rw [shapeCast_dropUnit_apply ![N]]
  refine extractStridedSlice_apply _ _ _ _ (ix2 l j) fun b => ?_
  match b with
  | ⟨0, _⟩ => show l.val = l.val + 0; omega
  | ⟨1, _⟩ => show j.val = 0 + j.val; omega

end Weights

/-! ## A layer's update read at an index -/

section Upd

variable [Cert.ReferenceIdeal.Facts]
open Cert.ReferenceIdeal.RefRun Cert.ReferenceIdeal.Facts₀ Cert.ReferenceIdeal.Facts

/-- LAYER 0'S UPDATE READ AT `(n, j)`: `relu(h · Ws[0] + bs[0] + ag)`, the product as the sum over the 64 hidden columns. -/
theorem upd0_apply (h ag : FVec Ideal S50000x64 .f32) (a7 : FVec Ideal S3x64x64 .f32) (a8 : FVec Ideal S3x64 .f32)
    (n : Fin 50000) (j : Fin 64) :
    upd0 (F := Ideal) h ag a7 a8 (ix2 n j)
      = max ((∑ k : Fin 64, h (ix2 n k) * a7 (ix3 (⟨0, by decide⟩ : Fin 3) k j))
          + a8 (ix2 (⟨0, by decide⟩ : Fin 3) j) + ag (ix2 n j)) 0 := by
  unfold upd0
  rw [maximumf_apply, addf_apply, addf_apply]
  have hz : (broadcastInDim S50000x64 ![] bcast_S_S50000x64 (constant (F := Ideal) S_ .f32 0x00000000#32)
      : FVec Ideal S50000x64 .f32) (ix2 n j) = 0 := by
    show Ideal.ofBits .f32 0x00000000#32 = 0
    exact Cert.Lib.GnnLaws.ofBits_zero
  rw [hz]
  show max (Host.dotGeneral (plainDims 50000 64 64 dot_S50000x64_S64x64_S50000x64_1_0_0_1_n_n_wf) none h _ (ix2 n j) + _ + _) 0 = _
  rw [dot_plain_apply]
  rw [biasOf_apply (by decide) a8 (⟨0, by decide⟩ : Fin 3) slices_S3x64_S1x64_0_0 shapeCasts_S1x64_S64 bcast_S64_S1x64_1
    bcast_S1x64_S50000x64_0_1 n j]
  congr 1
  congr 1
  congr 1
  refine Finset.sum_congr rfl fun k _ => ?_
  rw [matOf_apply a7 (⟨0, by decide⟩ : Fin 3) slices_S3x64x64_S1x64x64_0_0_0 shapeCasts_S1x64x64_S64x64 k j]

/-- LAYER 1'S UPDATE READ AT `(n, j)`: `relu(h · Ws[1] + bs[1] + ag)`, the product as the sum over the 64 hidden columns. -/
theorem upd1_apply (h ag : FVec Ideal S50000x64 .f32) (a7 : FVec Ideal S3x64x64 .f32) (a8 : FVec Ideal S3x64 .f32)
    (n : Fin 50000) (j : Fin 64) :
    upd1 (F := Ideal) h ag a7 a8 (ix2 n j)
      = max ((∑ k : Fin 64, h (ix2 n k) * a7 (ix3 (⟨1, by decide⟩ : Fin 3) k j))
          + a8 (ix2 (⟨1, by decide⟩ : Fin 3) j) + ag (ix2 n j)) 0 := by
  unfold upd1
  rw [maximumf_apply, addf_apply, addf_apply]
  have hz : (broadcastInDim S50000x64 ![] bcast_S_S50000x64 (constant (F := Ideal) S_ .f32 0x00000000#32)
      : FVec Ideal S50000x64 .f32) (ix2 n j) = 0 := by
    show Ideal.ofBits .f32 0x00000000#32 = 0
    exact Cert.Lib.GnnLaws.ofBits_zero
  rw [hz]
  show max (Host.dotGeneral (plainDims 50000 64 64 dot_S50000x64_S64x64_S50000x64_1_0_0_1_n_n_wf) none h _ (ix2 n j) + _ + _) 0 = _
  rw [dot_plain_apply]
  rw [biasOf_apply (by decide) a8 (⟨1, by decide⟩ : Fin 3) slices_S3x64_S1x64_1_0 shapeCasts_S1x64_S64 bcast_S64_S1x64_1
    bcast_S1x64_S50000x64_0_1 n j]
  congr 1
  congr 1
  congr 1
  refine Finset.sum_congr rfl fun k _ => ?_
  rw [matOf_apply a7 (⟨1, by decide⟩ : Fin 3) slices_S3x64x64_S1x64x64_1_0_0 shapeCasts_S1x64x64_S64x64 k j]

/-- LAYER 2'S UPDATE READ AT `(n, j)`: `relu(h · Ws[2] + bs[2] + ag)`, the product as the sum over the 64 hidden columns. -/
theorem upd2_apply (h ag : FVec Ideal S50000x64 .f32) (a7 : FVec Ideal S3x64x64 .f32) (a8 : FVec Ideal S3x64 .f32)
    (n : Fin 50000) (j : Fin 64) :
    upd2 (F := Ideal) h ag a7 a8 (ix2 n j)
      = max ((∑ k : Fin 64, h (ix2 n k) * a7 (ix3 (⟨2, by decide⟩ : Fin 3) k j))
          + a8 (ix2 (⟨2, by decide⟩ : Fin 3) j) + ag (ix2 n j)) 0 := by
  unfold upd2
  rw [maximumf_apply, addf_apply, addf_apply]
  have hz : (broadcastInDim S50000x64 ![] bcast_S_S50000x64 (constant (F := Ideal) S_ .f32 0x00000000#32)
      : FVec Ideal S50000x64 .f32) (ix2 n j) = 0 := by
    show Ideal.ofBits .f32 0x00000000#32 = 0
    exact Cert.Lib.GnnLaws.ofBits_zero
  rw [hz]
  show max (Host.dotGeneral (plainDims 50000 64 64 dot_S50000x64_S64x64_S50000x64_1_0_0_1_n_n_wf) none h _ (ix2 n j) + _ + _) 0 = _
  rw [dot_plain_apply]
  rw [biasOf_apply (by decide) a8 (⟨2, by decide⟩ : Fin 3) slices_S3x64_S1x64_2_0 shapeCasts_S1x64_S64 bcast_S64_S1x64_1
    bcast_S1x64_S50000x64_0_1 n j]
  congr 1
  congr 1
  congr 1
  refine Finset.sum_congr rfl fun k _ => ?_
  rw [matOf_apply a7 (⟨2, by decide⟩ : Fin 3) slices_S3x64x64_S1x64x64_2_0_0 shapeCasts_S1x64x64_S64x64 k j]

end Upd

/-! ## A layer's messages read at an index -/

section Msg

variable [Cert.ReferenceIdeal.Facts]
open Cert.ReferenceIdeal.RefRun Cert.ReferenceIdeal.Facts₀ Cert.ReferenceIdeal.Facts

/-- The two gathered rows of an edge side by side: `[h[src e], h[dst e]]`, 128 wide. -/
def catE (hs hd : FVec Ideal S800000x64 .f32) : FVec Ideal S800000x128 .f32 :=
  concatenate S800000x128 1 [⟨S800000x64, hs⟩, ⟨S800000x64, hd⟩] concatenates_S800000x64_S800000x64_S800000x128_d1

/-- Its first 64 columns are the source's row … -/
theorem catE_apply_left (hs hd : FVec Ideal S800000x64 .f32) (e : Fin 800000) (k : Fin 128) (hk : k.val < 64) :
    catE hs hd (ix2 e k) = hs (ix2 e ⟨k.val, hk⟩) := by
  unfold catE
  exact concatenate_pair_apply_left _ _ _ concatenates_S800000x64_S800000x64_S800000x128_d1 (ix2 e k) rfl
    (ix2 e ⟨k.val, hk⟩) (fun b => match b with | ⟨0, _⟩ => rfl | ⟨1, _⟩ => rfl)

/-- … and its last 64 the destination's. -/
theorem catE_apply_right (hs hd : FVec Ideal S800000x64 .f32) (e : Fin 800000) (k : Fin 128) (hk : 64 ≤ k.val) :
    catE hs hd (ix2 e k) = hd (ix2 e ⟨k.val - 64, by omega⟩) := by
  unfold catE
  exact concatenate_pair_apply_right _ _ _ concatenates_S800000x64_S800000x64_S800000x128_d1 (ix2 e k) rfl rfl
    (ix2 e ⟨k.val - 64, by omega⟩)
    (fun b hb => match b, hb with
      | ⟨0, _⟩, _ => rfl
      | ⟨1, _⟩, hb => absurd rfl hb)
    (by show k.val - 64 + 64 = k.val; omega)

/-- LAYER 0'S MESSAGES READ AT `(e, j)`: `relu([hs, hd] · W1[0] + b1[0]) · W2[0] + b2[0]`, both products as sums. -/
theorem msg0_apply (hs hd : FVec Ideal S800000x64 .f32) (a3 : FVec Ideal S3x128x64 .f32) (a4 : FVec Ideal S3x64 .f32)
    (a5 : FVec Ideal S3x64x64 .f32) (a6 : FVec Ideal S3x64 .f32) (e : Fin 800000) (j : Fin 64) :
    msg0 (F := Ideal) hs hd a3 a4 a5 a6 (ix2 e j)
      = (∑ k : Fin 64,
          max ((∑ k' : Fin 128, catE hs hd (ix2 e k') * a3 (ix3 (⟨0, by decide⟩ : Fin 3) k' k))
                + a4 (ix2 (⟨0, by decide⟩ : Fin 3) k)) 0
            * a5 (ix3 (⟨0, by decide⟩ : Fin 3) k j))
        + a6 (ix2 (⟨0, by decide⟩ : Fin 3) j) := by
  unfold msg0
  rw [addf_apply]
  show Host.dotGeneral (plainDims 800000 64 64 dot_S800000x64_S64x64_S800000x64_1_0_0_1_n_n_wf) none _ _ (ix2 e j) + _ = _
  rw [dot_plain_apply]
  rw [biasOf_apply (by decide) a6 (⟨0, by decide⟩ : Fin 3) slices_S3x64_S1x64_0_0 shapeCasts_S1x64_S64 bcast_S64_S1x64_1
    bcast_S1x64_S800000x64_0_1 e j]
  congr 1
  refine Finset.sum_congr rfl fun k _ => ?_
  rw [matOf_apply a5 (⟨0, by decide⟩ : Fin 3) slices_S3x64x64_S1x64x64_0_0_0 shapeCasts_S1x64x64_S64x64 k j]
  congr 1
  rw [maximumf_apply, addf_apply]
  have hz : (broadcastInDim S800000x64 ![] bcast_S_S800000x64 (constant (F := Ideal) S_ .f32 0x00000000#32)
      : FVec Ideal S800000x64 .f32) (ix2 e k) = 0 := by
    show Ideal.ofBits .f32 0x00000000#32 = 0
    exact Cert.Lib.GnnLaws.ofBits_zero
  rw [hz]
  show max (Host.dotGeneral (plainDims 800000 128 64 dot_S800000x128_S128x64_S800000x64_1_0_0_1_n_n_wf) none _ _ (ix2 e k) + _) 0 = _
  rw [dot_plain_apply]
  rw [biasOf_apply (by decide) a4 (⟨0, by decide⟩ : Fin 3) slices_S3x64_S1x64_0_0 shapeCasts_S1x64_S64 bcast_S64_S1x64_1
    bcast_S1x64_S800000x64_0_1 e k]
  congr 1
  congr 1
  refine Finset.sum_congr rfl fun k' _ => ?_
  rw [matOf_apply a3 (⟨0, by decide⟩ : Fin 3) slices_S3x128x64_S1x128x64_0_0_0 shapeCasts_S1x128x64_S128x64 k' k]
  rfl

/-- LAYER 1'S MESSAGES READ AT `(e, j)`: `relu([hs, hd] · W1[1] + b1[1]) · W2[1] + b2[1]`, both products as sums. -/
theorem msg1_apply (hs hd : FVec Ideal S800000x64 .f32) (a3 : FVec Ideal S3x128x64 .f32) (a4 : FVec Ideal S3x64 .f32)
    (a5 : FVec Ideal S3x64x64 .f32) (a6 : FVec Ideal S3x64 .f32) (e : Fin 800000) (j : Fin 64) :
    msg1 (F := Ideal) hs hd a3 a4 a5 a6 (ix2 e j)
      = (∑ k : Fin 64,
          max ((∑ k' : Fin 128, catE hs hd (ix2 e k') * a3 (ix3 (⟨1, by decide⟩ : Fin 3) k' k))
                + a4 (ix2 (⟨1, by decide⟩ : Fin 3) k)) 0
            * a5 (ix3 (⟨1, by decide⟩ : Fin 3) k j))
        + a6 (ix2 (⟨1, by decide⟩ : Fin 3) j) := by
  unfold msg1
  rw [addf_apply]
  show Host.dotGeneral (plainDims 800000 64 64 dot_S800000x64_S64x64_S800000x64_1_0_0_1_n_n_wf) none _ _ (ix2 e j) + _ = _
  rw [dot_plain_apply]
  rw [biasOf_apply (by decide) a6 (⟨1, by decide⟩ : Fin 3) slices_S3x64_S1x64_1_0 shapeCasts_S1x64_S64 bcast_S64_S1x64_1
    bcast_S1x64_S800000x64_0_1 e j]
  congr 1
  refine Finset.sum_congr rfl fun k _ => ?_
  rw [matOf_apply a5 (⟨1, by decide⟩ : Fin 3) slices_S3x64x64_S1x64x64_1_0_0 shapeCasts_S1x64x64_S64x64 k j]
  congr 1
  rw [maximumf_apply, addf_apply]
  have hz : (broadcastInDim S800000x64 ![] bcast_S_S800000x64 (constant (F := Ideal) S_ .f32 0x00000000#32)
      : FVec Ideal S800000x64 .f32) (ix2 e k) = 0 := by
    show Ideal.ofBits .f32 0x00000000#32 = 0
    exact Cert.Lib.GnnLaws.ofBits_zero
  rw [hz]
  show max (Host.dotGeneral (plainDims 800000 128 64 dot_S800000x128_S128x64_S800000x64_1_0_0_1_n_n_wf) none _ _ (ix2 e k) + _) 0 = _
  rw [dot_plain_apply]
  rw [biasOf_apply (by decide) a4 (⟨1, by decide⟩ : Fin 3) slices_S3x64_S1x64_1_0 shapeCasts_S1x64_S64 bcast_S64_S1x64_1
    bcast_S1x64_S800000x64_0_1 e k]
  congr 1
  congr 1
  refine Finset.sum_congr rfl fun k' _ => ?_
  rw [matOf_apply a3 (⟨1, by decide⟩ : Fin 3) slices_S3x128x64_S1x128x64_1_0_0 shapeCasts_S1x128x64_S128x64 k' k]
  rfl

/-- LAYER 2'S MESSAGES READ AT `(e, j)`: `relu([hs, hd] · W1[2] + b1[2]) · W2[2] + b2[2]`, both products as sums. -/
theorem msg2_apply (hs hd : FVec Ideal S800000x64 .f32) (a3 : FVec Ideal S3x128x64 .f32) (a4 : FVec Ideal S3x64 .f32)
    (a5 : FVec Ideal S3x64x64 .f32) (a6 : FVec Ideal S3x64 .f32) (e : Fin 800000) (j : Fin 64) :
    msg2 (F := Ideal) hs hd a3 a4 a5 a6 (ix2 e j)
      = (∑ k : Fin 64,
          max ((∑ k' : Fin 128, catE hs hd (ix2 e k') * a3 (ix3 (⟨2, by decide⟩ : Fin 3) k' k))
                + a4 (ix2 (⟨2, by decide⟩ : Fin 3) k)) 0
            * a5 (ix3 (⟨2, by decide⟩ : Fin 3) k j))
        + a6 (ix2 (⟨2, by decide⟩ : Fin 3) j) := by
  unfold msg2
  rw [addf_apply]
  show Host.dotGeneral (plainDims 800000 64 64 dot_S800000x64_S64x64_S800000x64_1_0_0_1_n_n_wf) none _ _ (ix2 e j) + _ = _
  rw [dot_plain_apply]
  rw [biasOf_apply (by decide) a6 (⟨2, by decide⟩ : Fin 3) slices_S3x64_S1x64_2_0 shapeCasts_S1x64_S64 bcast_S64_S1x64_1
    bcast_S1x64_S800000x64_0_1 e j]
  congr 1
  refine Finset.sum_congr rfl fun k _ => ?_
  rw [matOf_apply a5 (⟨2, by decide⟩ : Fin 3) slices_S3x64x64_S1x64x64_2_0_0 shapeCasts_S1x64x64_S64x64 k j]
  congr 1
  rw [maximumf_apply, addf_apply]
  have hz : (broadcastInDim S800000x64 ![] bcast_S_S800000x64 (constant (F := Ideal) S_ .f32 0x00000000#32)
      : FVec Ideal S800000x64 .f32) (ix2 e k) = 0 := by
    show Ideal.ofBits .f32 0x00000000#32 = 0
    exact Cert.Lib.GnnLaws.ofBits_zero
  rw [hz]
  show max (Host.dotGeneral (plainDims 800000 128 64 dot_S800000x128_S128x64_S800000x64_1_0_0_1_n_n_wf) none _ _ (ix2 e k) + _) 0 = _
  rw [dot_plain_apply]
  rw [biasOf_apply (by decide) a4 (⟨2, by decide⟩ : Fin 3) slices_S3x64_S1x64_2_0 shapeCasts_S1x64_S64 bcast_S64_S1x64_1
    bcast_S1x64_S800000x64_0_1 e k]
  congr 1
  congr 1
  refine Finset.sum_congr rfl fun k' _ => ?_
  rw [matOf_apply a3 (⟨2, by decide⟩ : Fin 3) slices_S3x128x64_S1x128x64_2_0_0 shapeCasts_S1x128x64_S128x64 k' k]
  rfl

end Msg

/-! ## The read-out read at its index -/

section Readout

variable [Cert.ReferenceIdeal.Facts]
open Cert.ReferenceIdeal.RefRun Cert.ReferenceIdeal.Facts₀ Cert.ReferenceIdeal.Facts

/-- At the ideal instance the host's float sum is the initial value plus the exact sum. -/
theorem reduceAdd_ideal {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

/-- The column sums of the node features: at column `k`, the sum over the 50000 nodes. -/
theorem colSum_apply (h : FVec Ideal S50000x64 .f32) (k : Fin 64) :
    Host.reduceAdd h (constant (F := Ideal) S_ .f32 0x00000000#32) reducesTo_S50000x64_S64_d0 h_S_ (ix1 k)
      = ∑ n : Fin 50000, h (ix2 n k) := by
  have hR : S50000x64.Reduces [0] S64 := by decide
  rw [reduceAdd_ideal, Ideal.hostReduceAdd_single _ hR]
  have hz : constant (F := Ideal) S_ .f32 0x00000000#32 (Shape.Idx.first h_S_) = 0 := by
    show Ideal.ofBits .f32 0x00000000#32 = 0
    exact Cert.Lib.GnnLaws.ofBits_zero
  rw [hz, zero_add]
  refine Finset.sum_congr rfl fun n _ => ?_
  congr 1
  funext a
  refine Fin.ext ?_
  match a with
  | ⟨0, _⟩ => rfl
  | ⟨1, _⟩ => rfl

/-- THE READ-OUT: `relu((colsum(h) / 50000) · Wo1 + bo1) · Wo2 + bo2` at its one index, the division the ideal one by
    the word `50000.0`. -/
theorem readout_apply (h : FVec Ideal S50000x64 .f32) (a9 : FVec Ideal S64x64 .f32) (a10 : FVec Ideal S64 .f32)
    (a11 : FVec Ideal S64x1 .f32) (a12 : FVec Ideal S1 .f32) :
    readout (F := Ideal) h a9 a10 a11 a12 (ix2 ⟨0, Nat.one_pos⟩ ⟨0, Nat.one_pos⟩)
      = (∑ k : Fin 64,
          max ((∑ k' : Fin 64,
                  Ideal.div (∑ n : Fin 50000, h (ix2 n k')) (Ideal.ofBits .f32 0x47435000#32) * a9 (ix2 k' k))
                + a10 (ix1 k)) 0
            * a11 (ix2 k ⟨0, Nat.one_pos⟩))
        + a12 (ix1 ⟨0, Nat.one_pos⟩) := by
  unfold readout
  rw [addf_apply]
  show Host.dotGeneral (plainDims 1 64 1 dot_S1x64_S64x1_S1x1_1_0_0_1_n_n_wf) none _ a11
      (ix2 ⟨0, Nat.one_pos⟩ ⟨0, Nat.one_pos⟩) + _ = _
  rw [dot_plain_apply]
  rw [broadcastInDim_apply _ _ a12 (ix2 ⟨0, Nat.one_pos⟩ ⟨0, Nat.one_pos⟩) (ix1 ⟨0, Nat.one_pos⟩)
    (fun b => match b with | ⟨0, _⟩ => rfl)]
  congr 1
  refine Finset.sum_congr rfl fun k _ => ?_
  congr 1
  rw [maximumf_apply, addf_apply]
  have hz : (broadcastInDim S1x64 ![] bcast_S_S1x64 (constant (F := Ideal) S_ .f32 0x00000000#32)
      : FVec Ideal S1x64 .f32) (ix2 ⟨0, Nat.one_pos⟩ k) = 0 := by
    show Ideal.ofBits .f32 0x00000000#32 = 0
    exact Cert.Lib.GnnLaws.ofBits_zero
  rw [hz]
  show max (Host.dotGeneral (plainDims 1 64 64 dot_S1x64_S64x64_S1x64_1_0_0_1_n_n_wf) none _ a9
      (ix2 ⟨0, Nat.one_pos⟩ k) + _) 0 = _
  rw [dot_plain_apply]
  rw [broadcastInDim_apply _ _ a10 (ix2 ⟨0, Nat.one_pos⟩ k) (ix1 k) (fun b => match b with | ⟨0, _⟩ => rfl)]
  refine congrArg (fun t => max (t + a10 (ix1 k)) 0) ?_
  refine Finset.sum_congr rfl fun k' _ => ?_
  refine congrArg (· * a9 (ix2 k' k)) ?_
  show Ideal.div _ (Ideal.ofBits .f32 0x47435000#32) = _
  refine congrArg (fun t => Ideal.div t (Ideal.ofBits .f32 0x47435000#32)) ?_
  rw [broadcastInDim_apply _ _ _ (ix2 ⟨0, Nat.one_pos⟩ k') (ix1 k') (fun b => match b with | ⟨0, _⟩ => rfl)]
  exact colSum_apply h k'

end Readout

end Cert.ReferenceIdeal.RefStages

end
-- ==== Proof.ReadoutMatch.lean ====
/-
  The last step of the comparison, over abstract arrays: if the last layer's states agree, the two programs' read-outs
  agree. Both are the read-out of the states' column sums over the 50000 nodes; the kernel multiplies each sum by
  the named 1/50000, the reference divides it by the word 50000.0 — the same extended real.
-/
import proofs.«215677_g32066225832048_cont_9to1_32_28_alg».proof.Proof.KernelPre
import proofs.«215677_g32066225832048_cont_9to1_32_28_alg».proof.Proof.RefStages

noncomputable section

namespace Cert.Proof.IdealValue

open Cert.Lib.GnnLaws
open Idealize.ShloMosaic Idealize.ShloMosaic.ValueIdx

/-- A sum times the named constant of the mean is the sum divided by the word 50000.0. -/
theorem mean_eq (s : EReal) :
    s * (Named.named (F := Ideal) Cert.KernelIdeal.κ "inv_50000" 0x37A7C5AC#32 : Ideal .f32) = Ideal.div s (Ideal.ofBits .f32 0x47435000#32) := by
  rw [Cert.Proof.KernelPre.named_inv_50000, ofBits_50000]; exact mul_inv_50000 s

/-- The kernel's read-out formula over arrays that agree pointwise with the reference's is the reference's read-out. -/
theorem readout_formula_match [Cert.ReferenceIdeal.Facts]
    (S : Fin 50000 → Fin 64 → EReal) (OW1 : Fin 64 → Fin 64 → EReal) (OB1 : Fin 64 → EReal) (OW2 : Fin 64 → EReal) (OB2 : EReal)
    (Hr : FVec Ideal Cert.ReferenceIdeal.S50000x64 .f32)
    (a9 : FVec Ideal Cert.ReferenceIdeal.S64x64 .f32) (a10 : FVec Ideal Cert.ReferenceIdeal.S64 .f32)
    (a11 : FVec Ideal Cert.ReferenceIdeal.S64x1 .f32) (a12 : FVec Ideal Cert.ReferenceIdeal.S1 .f32)
    (hH : ∀ n j, S n j = Hr (ix2 n j)) (h9 : ∀ j k, OW1 j k = a9 (ix2 j k)) (h10 : ∀ k, OB1 k = a10 (ix1 k))
    (h11 : ∀ k, OW2 k = a11 (ix2 k ⟨0, Nat.one_pos⟩)) (h12 : OB2 = a12 (ix1 ⟨0, Nat.one_pos⟩)) :
    (∑ k : Fin 64, max ((∑ j : Fin 64, ((∑ n : Fin 50000, S n j)
            * (Named.named (F := Ideal) Cert.KernelIdeal.κ "inv_50000" 0x37A7C5AC#32 : Ideal .f32)) * OW1 j k) + OB1 k) 0 * OW2 k) + OB2
      = Cert.ReferenceIdeal.RefRun.readout (F := Ideal) Hr a9 a10 a11 a12 (ix2 ⟨0, Nat.one_pos⟩ ⟨0, Nat.one_pos⟩) := by
  rw [Cert.ReferenceIdeal.RefStages.readout_apply Hr a9 a10 a11 a12]
  simp only [hH, h9, h10, h11, h12, mean_eq]

end Cert.Proof.IdealValue

end
-- ==== Proof.KernelHostAt.lean ====
import proofs.«215677_g32066225832048_cont_9to1_32_28_alg».proof.Proof.KernelHost1
import proofs.«215677_g32066225832048_cont_9to1_32_28_alg».proof.Proof.KernelHost23
import proofs.«215677_g32066225832048_cont_9to1_32_28_alg».proof.Proof.RefStages

/-!
# The kernel program's host-stretch functions read at an index

The functions of `KernelHost1` / `KernelHost23` — what the host stretches between the kernel calls leave in the buffers
the next call reads — read AT AN INDEX: the messages added up per destination node (`aggMsg_apply`: at node `n` and
column `j`, the sum over the edges into `n` of the call's output rows, the 19200 padding rows dropped), a layer's
matrix and bias row out of the stacked arguments (`mat0_apply` … `row2_apply`), and the message weights laid out for
the next table (`wcat1_left` … `bcat2_right`: the two 64-row halves of the 128-row matrix side by side; 64 zeros, then
the bias). These are the kernel-side counterparts of the weights the reference's stages read.
-/

noncomputable section

open scoped BigOperators

namespace Cert.Proof.KernelHostAt

open Cert.KernelIdeal Idealize.ShloMosaic Idealize.ShloMosaic.ValueIdx
open Cert.Proof.KernelHost1 Cert.Proof.KernelHost23
open Cert.KernelIdeal.Facts₀ Cert.KernelIdeal.Facts
open Cert.ReferenceIdeal.RefStages (rowScatterDims scatterAdd_rows_apply matOf_apply slt_zero_of_lt)

/-! ## Layout reads -/

section Layout
variable {α : Type}

/-- Row `l` of a stack `[L, N]`, sliced out and viewed as a `[1, N]` row, reads at `(0, j)` the stack at `(l, j)`. -/
theorem rowOf_apply {L N : Nat} (b : (⟨2, ![L, N]⟩ : Shape).Idx → α) (l : Fin L)
    (hs : (⟨2, ![L, N]⟩ : Shape).Slices ![l.val, 0] ⟨2, ![1, N]⟩)
    (hc1 : (⟨2, ![1, N]⟩ : Shape).ShapeCasts ⟨1, ![N]⟩) (hc2 : (⟨1, ![N]⟩ : Shape).ShapeCasts ⟨2, ![1, N]⟩) (j : Fin N) :
    shapeCast ⟨2, ![1, N]⟩ (shapeCast ⟨1, ![N]⟩ (extractStridedSlice ⟨2, ![1, N]⟩ ![l.val, 0] b hs) hc1) hc2
      (ix2 ⟨0, Nat.one_pos⟩ j) = b (ix2 l j) := by
  rw [shapeCast_apply _ hc2 (ix2 ⟨0, Nat.one_pos⟩ j) (ix1 j)
    (by rw [Shape.rowMajor_val_one, Shape.rowMajor_val_two]; show j.val = 0 * N + j.val; omega)]
  rw [shapeCast_apply _ hc1 (ix1 j) (ix2 ⟨0, Nat.one_pos⟩ j)
    (by rw [Shape.rowMajor_val_one, Shape.rowMajor_val_two]; show 0 * N + j.val = j.val; omega)]
  refine extractStridedSlice_apply _ _ _ _ (ix2 l j) fun a => ?_
  match a with
  | ⟨0, _⟩ => show l.val = l.val + 0; omega
  | ⟨1, _⟩ => show j.val = 0 + j.val; omega

end Layout

section Weights

variable {F : FTy → Type} [FloatOps F] [Named F] [Cert.KernelIdeal.Facts]

/-- Layer 0's matrix at `(k, j)` is the stack at `(0, k, j)`. -/
theorem mat0_apply (W : FVec F S3x64x64 .f32) (k j : Fin 64) :
    mat0 W (ix2 k j) = W (ix3 (⟨0, by decide⟩ : Fin 3) k j) := by
  unfold mat0
  exact matOf_apply W (⟨0, by decide⟩ : Fin 3) slices_S3x64x64_S1x64x64_0_0_0 shapeCasts_S1x64x64_S64x64 k j

/-- Layer 0's bias row at `(0, j)` is the stack at `(0, j)`. -/
theorem row0_apply (b : FVec F S3x64 .f32) (j : Fin 64) :
    row0 b (ix2 ⟨0, Nat.one_pos⟩ j) = b (ix2 (⟨0, by decide⟩ : Fin 3) j) := by
  unfold row0
  exact rowOf_apply b (⟨0, by decide⟩ : Fin 3) slices_S3x64_S1x64_0_0 shapeCasts_S1x64_S64 shapeCasts_S64_S1x64 j

/-- Layer 1's matrix at `(k, j)` is the stack at `(1, k, j)`. -/
theorem mat1_apply (W : FVec F S3x64x64 .f32) (k j : Fin 64) :
    mat1 W (ix2 k j) = W (ix3 (⟨1, by decide⟩ : Fin 3) k j) := by
  unfold mat1
  exact matOf_apply W (⟨1, by decide⟩ : Fin 3) slices_S3x64x64_S1x64x64_1_0_0 shapeCasts_S1x64x64_S64x64 k j

/-- Layer 1's bias row at `(0, j)` is the stack at `(1, j)`. -/
theorem row1_apply (b : FVec F S3x64 .f32) (j : Fin 64) :
    row1 b (ix2 ⟨0, Nat.one_pos⟩ j) = b (ix2 (⟨1, by decide⟩ : Fin 3) j) := by
  unfold row1
  exact rowOf_apply b (⟨1, by decide⟩ : Fin 3) slices_S3x64_S1x64_1_0 shapeCasts_S1x64_S64 shapeCasts_S64_S1x64 j

/-- Layer 2's matrix at `(k, j)` is the stack at `(2, k, j)`. -/
theorem mat2_apply (W : FVec F S3x64x64 .f32) (k j : Fin 64) :
    mat2 W (ix2 k j) = W (ix3 (⟨2, by decide⟩ : Fin 3) k j) := by
  unfold mat2
  exact matOf_apply W (⟨2, by decide⟩ : Fin 3) slices_S3x64x64_S1x64x64_2_0_0 shapeCasts_S1x64x64_S64x64 k j

/-- Layer 2's bias row at `(0, j)` is the stack at `(2, j)`. -/
theorem row2_apply (b : FVec F S3x64 .f32) (j : Fin 64) :
    row2 b (ix2 ⟨0, Nat.one_pos⟩ j) = b (ix2 (⟨2, by decide⟩ : Fin 3) j) := by
  unfold row2
  exact rowOf_apply b (⟨2, by decide⟩ : Fin 3) slices_S3x64_S1x64_2_0 shapeCasts_S1x64_S64 shapeCasts_S64_S1x64 j

/-- Layer 1's laid-out message weight at `(k, j)`, `j < 64`: row `k`, column `j` of the layer's 128-by-64 matrix; -/
theorem wcat1_left (W : FVec F S3x128x64 .f32) (k : Fin 64) (j : Fin 128) (hj : j.val < 64) :
    wcat1 W (ix2 k j) = W (ix3 (⟨1, by decide⟩ : Fin 3) (⟨k.val, by omega⟩ : Fin 128) (⟨j.val, hj⟩ : Fin 64)) := by
  unfold wcat1
  rw [concatenate_pair_apply_left (1 : Fin S64x128.rank) _ _ concatenates_S64x64_S64x64_S64x128_d1 (ix2 k j) rfl
    (ix2 k (⟨j.val, hj⟩ : Fin 64)) (fun b => match b with | ⟨0, _⟩ => rfl | ⟨1, _⟩ => rfl)]
  rw [extractStridedSlice_apply ![0, 0] _ slices_S128x64_S64x64_0_0 (ix2 k (⟨j.val, hj⟩ : Fin 64))
    (ix2 (⟨k.val, by omega⟩ : Fin 128) (⟨j.val, hj⟩ : Fin 64)) (fun a => match a with | ⟨0, _⟩ => by simp | ⟨1, _⟩ => by simp)]
  exact matOf_apply W (⟨1, by decide⟩ : Fin 3) slices_S3x128x64_S1x128x64_1_0_0 shapeCasts_S1x128x64_S128x64 _ _

/-- `j ≥ 64`: the matrix's row `64 + k`, column `j - 64`. -/
theorem wcat1_right (W : FVec F S3x128x64 .f32) (k : Fin 64) (j : Fin 128) (hj : 64 ≤ j.val) :
    wcat1 W (ix2 k j)
      = W (ix3 (⟨1, by decide⟩ : Fin 3) (⟨64 + k.val, by omega⟩ : Fin 128) (⟨j.val - 64, by omega⟩ : Fin 64)) := by
  unfold wcat1
  rw [concatenate_pair_apply_right (1 : Fin S64x128.rank) _ _ concatenates_S64x64_S64x64_S64x128_d1 (ix2 k j) rfl rfl
    (ix2 k (⟨j.val - 64, by omega⟩ : Fin 64))
    (fun b hb => match b with | ⟨0, _⟩ => rfl | ⟨1, _⟩ => absurd rfl hb)
    (by show j.val - 64 + 64 = j.val; omega)]
  rw [extractStridedSlice_apply ![64, 0] _ slices_S128x64_S64x64_64_0 (ix2 k (⟨j.val - 64, by omega⟩ : Fin 64))
    (ix2 (⟨64 + k.val, by omega⟩ : Fin 128) (⟨j.val - 64, by omega⟩ : Fin 64)) (fun a => match a with | ⟨0, _⟩ => by simp | ⟨1, _⟩ => by simp)]
  exact matOf_apply W (⟨1, by decide⟩ : Fin 3) slices_S3x128x64_S1x128x64_1_0_0 shapeCasts_S1x128x64_S128x64 _ _

/-- Layer 1's laid-out message bias at `(0, j)`, `j < 64`: the float the word `0x00000000` denotes; -/
theorem bcat1_left (b : FVec F S3x64 .f32) (j : Fin 128) (hj : j.val < 64) :
    bcat1 b (ix2 (0 : Fin 1) j) = FloatOps.ofBits .f32 0x00000000#32 := by
  unfold bcat1
  rw [shapeCast_apply _ shapeCasts_S128_S1x128 (ix2 (0 : Fin 1) j) (ix1 j)
    (by rw [Shape.rowMajor_val_one, Shape.rowMajor_val_two]; simp)]
  rw [concatenate_pair_apply_left (0 : Fin S128.rank) _ _ concatenates_S64_S64_S128_d0 (ix1 j) rfl
    (ix1 (⟨j.val, hj⟩ : Fin 64)) (fun x => match x with | ⟨0, _⟩ => rfl)]
  rfl

/-- `j ≥ 64`: entry `j - 64` of layer 1's message bias. -/
theorem bcat1_right (b : FVec F S3x64 .f32) (j : Fin 128) (hj : 64 ≤ j.val) :
    bcat1 b (ix2 (0 : Fin 1) j) = b (ix2 (⟨1, by decide⟩ : Fin 3) (⟨j.val - 64, by omega⟩ : Fin 64)) := by
  unfold bcat1
  rw [shapeCast_apply _ shapeCasts_S128_S1x128 (ix2 (0 : Fin 1) j) (ix1 j)
    (by rw [Shape.rowMajor_val_one, Shape.rowMajor_val_two]; simp)]
  rw [concatenate_pair_apply_right (0 : Fin S128.rank) _ _ concatenates_S64_S64_S128_d0 (ix1 j) rfl rfl
    (ix1 (⟨j.val - 64, by omega⟩ : Fin 64))
    (fun x hx => match x with | ⟨0, _⟩ => absurd rfl hx)
    (by show j.val - 64 + 64 = j.val; omega)]
  rw [shapeCast_apply _ shapeCasts_S1x64_S64 (ix1 (⟨j.val - 64, by omega⟩ : Fin 64)) (ix2 (0 : Fin 1) (⟨j.val - 64, by omega⟩ : Fin 64))
    (by rw [Shape.rowMajor_val_one, Shape.rowMajor_val_two]; simp)]
  exact extractStridedSlice_apply _ b slices_S3x64_S1x64_1_0 _ (ix2 (⟨1, by decide⟩ : Fin 3) (⟨j.val - 64, by omega⟩ : Fin 64))
    (fun a => match a with | ⟨0, _⟩ => rfl | ⟨1, _⟩ => by simp)

/-- Layer 2's laid-out message weight at `(k, j)`, `j < 64`: row `k`, column `j` of the layer's 128-by-64 matrix; -/
theorem wcat2_left (W : FVec F S3x128x64 .f32) (k : Fin 64) (j : Fin 128) (hj : j.val < 64) :
    wcat2 W (ix2 k j) = W (ix3 (⟨2, by decide⟩ : Fin 3) (⟨k.val, by omega⟩ : Fin 128) (⟨j.val, hj⟩ : Fin 64)) := by
  unfold wcat2
  rw [concatenate_pair_apply_left (1 : Fin S64x128.rank) _ _ concatenates_S64x64_S64x64_S64x128_d1 (ix2 k j) rfl
    (ix2 k (⟨j.val, hj⟩ : Fin 64)) (fun b => match b with | ⟨0, _⟩ => rfl | ⟨1, _⟩ => rfl)]
  rw [extractStridedSlice_apply ![0, 0] _ slices_S128x64_S64x64_0_0 (ix2 k (⟨j.val, hj⟩ : Fin 64))
    (ix2 (⟨k.val, by omega⟩ : Fin 128) (⟨j.val, hj⟩ : Fin 64)) (fun a => match a with | ⟨0, _⟩ => by simp | ⟨1, _⟩ => by simp)]
  exact matOf_apply W (⟨2, by decide⟩ : Fin 3) slices_S3x128x64_S1x128x64_2_0_0 shapeCasts_S1x128x64_S128x64 _ _

/-- `j ≥ 64`: the matrix's row `64 + k`, column `j - 64`. -/
theorem wcat2_right (W : FVec F S3x128x64 .f32) (k : Fin 64) (j : Fin 128) (hj : 64 ≤ j.val) :
    wcat2 W (ix2 k j)
      = W (ix3 (⟨2, by decide⟩ : Fin 3) (⟨64 + k.val, by omega⟩ : Fin 128) (⟨j.val - 64, by omega⟩ : Fin 64)) := by
  unfold wcat2
  rw [concatenate_pair_apply_right (1 : Fin S64x128.rank) _ _ concatenates_S64x64_S64x64_S64x128_d1 (ix2 k j) rfl rfl
    (ix2 k (⟨j.val - 64, by omega⟩ : Fin 64))
    (fun b hb => match b with | ⟨0, _⟩ => rfl | ⟨1, _⟩ => absurd rfl hb)
    (by show j.val - 64 + 64 = j.val; omega)]
  rw [extractStridedSlice_apply ![64, 0] _ slices_S128x64_S64x64_64_0 (ix2 k (⟨j.val - 64, by omega⟩ : Fin 64))
    (ix2 (⟨64 + k.val, by omega⟩ : Fin 128) (⟨j.val - 64, by omega⟩ : Fin 64)) (fun a => match a with | ⟨0, _⟩ => by simp | ⟨1, _⟩ => by simp)]
  exact matOf_apply W (⟨2, by decide⟩ : Fin 3) slices_S3x128x64_S1x128x64_2_0_0 shapeCasts_S1x128x64_S128x64 _ _

/-- Layer 2's laid-out message bias at `(0, j)`, `j < 64`: the float the word `0x00000000` denotes; -/
theorem bcat2_left (b : FVec F S3x64 .f32) (j : Fin 128) (hj : j.val < 64) :
    bcat2 b (ix2 (0 : Fin 1) j) = FloatOps.ofBits .f32 0x00000000#32 := by
  unfold bcat2
  rw [shapeCast_apply _ shapeCasts_S128_S1x128 (ix2 (0 : Fin 1) j) (ix1 j)
    (by rw [Shape.rowMajor_val_one, Shape.rowMajor_val_two]; simp)]
  rw [concatenate_pair_apply_left (0 : Fin S128.rank) _ _ concatenates_S64_S64_S128_d0 (ix1 j) rfl
    (ix1 (⟨j.val, hj⟩ : Fin 64)) (fun x => match x with | ⟨0, _⟩ => rfl)]
  rfl

/-- `j ≥ 64`: entry `j - 64` of layer 2's message bias. -/
theorem bcat2_right (b : FVec F S3x64 .f32) (j : Fin 128) (hj : 64 ≤ j.val) :
    bcat2 b (ix2 (0 : Fin 1) j) = b (ix2 (⟨2, by decide⟩ : Fin 3) (⟨j.val - 64, by omega⟩ : Fin 64)) := by
  unfold bcat2
  rw [shapeCast_apply _ shapeCasts_S128_S1x128 (ix2 (0 : Fin 1) j) (ix1 j)
    (by rw [Shape.rowMajor_val_one, Shape.rowMajor_val_two]; simp)]
  rw [concatenate_pair_apply_right (0 : Fin S128.rank) _ _ concatenates_S64_S64_S128_d0 (ix1 j) rfl rfl
    (ix1 (⟨j.val - 64, by omega⟩ : Fin 64))
    (fun x hx => match x with | ⟨0, _⟩ => absurd rfl hx)
    (by show j.val - 64 + 64 = j.val; omega)]
  rw [shapeCast_apply _ shapeCasts_S1x64_S64 (ix1 (⟨j.val - 64, by omega⟩ : Fin 64)) (ix2 (0 : Fin 1) (⟨j.val - 64, by omega⟩ : Fin 64))
    (by rw [Shape.rowMajor_val_one, Shape.rowMajor_val_two]; simp)]
  exact extractStridedSlice_apply _ b slices_S3x64_S1x64_2_0 _ (ix2 (⟨2, by decide⟩ : Fin 3) (⟨j.val - 64, by omega⟩ : Fin 64))
    (fun a => match a with | ⟨0, _⟩ => rfl | ⟨1, _⟩ => by simp)

end Weights

/-! ## The messages added up per node -/

section AggMsg

variable [Cert.KernelIdeal.Facts]

/-- At the ideal instance the host's accumulating scatter is the exact sum. -/
theorem scatterAdd_ideal' {s si u : Shape} {w : Nat} (d : ScatterDims s si u) (x : FVec Ideal s .f32) (idx : IVec si w)
    (upd : FVec Ideal u .f32) : Host.scatterAdd d x idx upd = Ideal.hostScatterAdd d x idx upd := rfl

/-- THE MESSAGES ADDED UP AT `(n, j)`: where every destination word names a node, the sum over the edges into `n` of
    the call's output rows at column `j` (edge `e` is output row `e`; the 19200 padding rows are not read). -/
theorem aggMsg_apply (dst : IVec S800000 32) (out : FVec Ideal S819200x64 .f32)
    (hdst : ∀ e : Fin 800000, (dst (ix1 e)).toNat < 50000) (n : Fin 50000) (j : Fin 64) :
    aggMsg (F := Ideal) dst out (ix2 n j)
      = ∑ e : Fin 800000,
          if (dst (ix1 e)).toNat = n.val then out (ix2 (⟨e.val, by omega⟩ : Fin 819200) j) else 0 := by
  unfold aggMsg
  show Host.scatterAdd (rowScatterDims 50000 800000 64 scatter_S50000x64_S800000x1_S800000x64_1_0_0_1_wf) _ _ _
    (ix2 n j) = _
  rw [scatterAdd_ideal', scatterAdd_rows_apply]
  have hz : (broadcastInDim S50000x64 ![] bcast_S_S50000x64 (constant (F := Ideal) S_ .f32 0x00000000#32)
      : FVec Ideal S50000x64 .f32) (ix2 n j) = 0 := by
    show Ideal.ofBits .f32 0x00000000#32 = 0
    exact Cert.Lib.GnnLaws.ofBits_zero
  rw [hz, zero_add]
  refine Finset.sum_congr rfl fun e _ => ?_
  have h31 : (dst (ix1 e)).toNat < 2 ^ 31 := by have := hdst e; omega
  rw [broadcastInDim_apply _ _ dst (ix2 e ⟨0, Nat.one_pos⟩) (ix1 e) (fun a => match a with | ⟨0, _⟩ => rfl)]
  rw [extractStridedSlice_apply ![0, 0] out slices_S819200x64_S800000x64_0_0 (ix2 e j)
    (ix2 (⟨e.val, by omega⟩ : Fin 819200) j) (fun a => match a with | ⟨0, _⟩ => by simp | ⟨1, _⟩ => by simp)]
  have hiff : (dst (ix1 e)).toInt = (n.val : Int) ↔ (dst (ix1 e)).toNat = n.val := by
    rw [BitVec.toInt_eq_toNat_cond]
    split <;> omega
  simp only [hiff]

end AggMsg

end Cert.Proof.KernelHostAt

end
-- ==== Proof.RefLayer.lean ====
import proofs.«215677_g32066225832048_cont_9to1_32_28_alg».proof.Proof.RefStages

/-!
# A layer of the reference read at an index

The stage readings of `RefStages` composed: where every edge's source and destination words name nodes, layer `l` of
the reference at node `n` and column `j` is `relu(h[n] · Ws[l] + bs[l] + Σ_{e into n} m_e)`, the message of edge `e` being
`m_e = relu([h[src e], h[dst e]] · W1[l] + b1[l]) · W2[l] + b2[l]` (`layer0_apply` … `layer2_apply`). Where the node
features and the message weights are real numbers the sum over the edges into `n` moves inside the second product —
the hidden messages are added up per node, the second matrix applied once, the second bias weighted by the node's
in-degree (`layer0_apply_summed` …): the arrangement a kernel that aggregates before the second product computes.
-/

noncomputable section

open scoped BigOperators

namespace Cert.ReferenceIdeal.RefLayer

open Cert.ReferenceIdeal Idealize.ShloMosaic Idealize.ShloMosaic.ValueIdx
open Cert.ReferenceIdeal.RefRun Cert.ReferenceIdeal.RefStages Cert.Lib.GnnLaws

variable [Cert.ReferenceIdeal.Facts]

/-- The two rows an edge gathers, side by side: `h[src e]` in columns `[0, 64)`, `h[dst e]` in columns `[64, 128)`. -/
def edgeCat (h : FVec Ideal S50000x64 .f32) (src dst : IVec S800000 32)
    (hsrc : ∀ e : Fin 800000, (src (ix1 e)).toNat < 50000) (hdst : ∀ e : Fin 800000, (dst (ix1 e)).toNat < 50000)
    (e : Fin 800000) (k' : Fin 128) : EReal :=
  if hk : k'.val < 64 then h (ix2 ⟨(src (ix1 e)).toNat, hsrc e⟩ ⟨k'.val, hk⟩)
  else h (ix2 ⟨(dst (ix1 e)).toNat, hdst e⟩ ⟨k'.val - 64, by omega⟩)

/-- The concatenation of the two gathers is that pair of rows. -/
theorem edgeCat_eq (h : FVec Ideal S50000x64 .f32) (src dst : IVec S800000 32)
    (hsrc : ∀ e : Fin 800000, (src (ix1 e)).toNat < 50000) (hdst : ∀ e : Fin 800000, (dst (ix1 e)).toNat < 50000)
    (e : Fin 800000) (k' : Fin 128) :
    catE (takeE (F := Ideal) h src) (takeE (F := Ideal) h dst) (ix2 e k') = edgeCat h src dst hsrc hdst e k' := by
  unfold edgeCat
  split
  · next hk => rw [catE_apply_left _ _ _ _ hk, takeE_apply _ _ _ _ (hsrc e)]
  · next hk => rw [catE_apply_right _ _ _ _ (by omega), takeE_apply _ _ _ _ (hdst e)]

/-- Edge `e`'s hidden message in layer `l`: `relu([h[src e], h[dst e]] · W1[l] + b1[l])` at hidden column `k`. -/
def hiddenMsg (h : FVec Ideal S50000x64 .f32) (src dst : IVec S800000 32)
    (hsrc : ∀ e : Fin 800000, (src (ix1 e)).toNat < 50000) (hdst : ∀ e : Fin 800000, (dst (ix1 e)).toNat < 50000)
    (a3 : FVec Ideal S3x128x64 .f32) (a4 : FVec Ideal S3x64 .f32) (l : Fin 3) (e : Fin 800000) (k : Fin 64) : EReal :=
  max ((∑ k' : Fin 128, edgeCat h src dst hsrc hdst e k' * a3 (ix3 l k' k)) + a4 (ix2 l k)) 0

/-- With real node features and real first-product weights the hidden messages are real. -/
theorem hiddenMsg_isReal (h : FVec Ideal S50000x64 .f32) (src dst : IVec S800000 32)
    (hsrc : ∀ e : Fin 800000, (src (ix1 e)).toNat < 50000) (hdst : ∀ e : Fin 800000, (dst (ix1 e)).toNat < 50000)
    (a3 : FVec Ideal S3x128x64 .f32) (a4 : FVec Ideal S3x64 .f32)
    (hh : ∀ i, IsReal (h i)) (h3 : ∀ i, IsReal (a3 i)) (h4 : ∀ i, IsReal (a4 i)) (l : Fin 3) (e : Fin 800000) (k : Fin 64) :
    IsReal (hiddenMsg h src dst hsrc hdst a3 a4 l e k) := by
  unfold hiddenMsg
  refine IsReal.relu (IsReal.add (IsReal.dot _ _ (fun k' => ?_) (fun k' => h3 _)) (h4 _))
  unfold edgeCat
  split <;> exact hh _

/-- LAYER 0 READ AT `(n, j)`, where every edge's two words name nodes: the update of node `n`'s row by the sum, over
    the edges into `n`, of the messages computed from the two gathered rows. -/
theorem layer0_apply (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (n : Fin 50000) (j : Fin 64) :
    layer0 (F := Ideal) h src dst a3 a4 a5 a6 a7 a8 (ix2 n j)
      = max ((∑ k : Fin 64, h (ix2 n k) * a7 (ix3 (⟨0, by decide⟩ : Fin 3) k j))
            + a8 (ix2 (⟨0, by decide⟩ : Fin 3) j)
            + ∑ e : Fin 800000, if (dst (ix1 e)).toNat = n.val then
                ((∑ k : Fin 64, hiddenMsg h src dst hsrc hdst a3 a4 (⟨0, by decide⟩ : Fin 3) e k
                    * a5 (ix3 (⟨0, by decide⟩ : Fin 3) k j))
                  + a6 (ix2 (⟨0, by decide⟩ : Fin 3) j))
              else 0) 0 := by
  unfold layer0
  rw [upd0_apply, agg_apply _ _ hdst]
  simp only [msg0_apply, edgeCat_eq h src dst hsrc hdst, hiddenMsg]

/-- The same with the sum over the edges into `n` taken INSIDE the second product — the hidden messages are added up
    per node first, the second weight matrix applied once, the bias weighted by the in-degree — where the node
    features and the message weights are real numbers. -/
theorem layer0_apply_summed (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer0 (F := Ideal) h src dst a3 a4 a5 a6 a7 a8 (ix2 n j)
      = max ((∑ k : Fin 64, h (ix2 n k) * a7 (ix3 (⟨0, by decide⟩ : Fin 3) k j))
            + a8 (ix2 (⟨0, by decide⟩ : Fin 3) j)
            + ((∑ k : Fin 64,
                  (∑ e ∈ Finset.univ.filter (fun e : Fin 800000 => (dst (ix1 e)).toNat = n.val),
                      hiddenMsg h src dst hsrc hdst a3 a4 (⟨0, by decide⟩ : Fin 3) e k)
                    * a5 (ix3 (⟨0, by decide⟩ : Fin 3) k j))
                + (∑ e : Fin 800000, if (dst (ix1 e)).toNat = n.val then (1 : EReal) else 0)
                    * a6 (ix2 (⟨0, by decide⟩ : Fin 3) j))) 0 := by
  rw [layer0_apply h src dst a3 a4 a5 a6 a7 a8 hsrc hdst n j, ← Finset.sum_filter]
  rw [sum_into_node_affine (fun e : Fin 800000 => (dst (ix1 e)).toNat) n.val
    (fun e k => hiddenMsg h src dst hsrc hdst a3 a4 (⟨0, by decide⟩ : Fin 3) e k)
    (fun k => a5 (ix3 (⟨0, by decide⟩ : Fin 3) k j)) (a6 (ix2 (⟨0, by decide⟩ : Fin 3) j))
    (fun e k => hiddenMsg_isReal h src dst hsrc hdst a3 a4 hh h3 h4 _ e k) (fun k => h5 _) (h6 _)]

/-- LAYER 1 READ AT `(n, j)`, where every edge's two words name nodes: the update of node `n`'s row by the sum, over
    the edges into `n`, of the messages computed from the two gathered rows. -/
theorem layer1_apply (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (n : Fin 50000) (j : Fin 64) :
    layer1 (F := Ideal) h src dst a3 a4 a5 a6 a7 a8 (ix2 n j)
      = max ((∑ k : Fin 64, h (ix2 n k) * a7 (ix3 (⟨1, by decide⟩ : Fin 3) k j))
            + a8 (ix2 (⟨1, by decide⟩ : Fin 3) j)
            + ∑ e : Fin 800000, if (dst (ix1 e)).toNat = n.val then
                ((∑ k : Fin 64, hiddenMsg h src dst hsrc hdst a3 a4 (⟨1, by decide⟩ : Fin 3) e k
                    * a5 (ix3 (⟨1, by decide⟩ : Fin 3) k j))
                  + a6 (ix2 (⟨1, by decide⟩ : Fin 3) j))
              else 0) 0 := by
  unfold layer1
  rw [upd1_apply, agg_apply _ _ hdst]
  simp only [msg1_apply, edgeCat_eq h src dst hsrc hdst, hiddenMsg]

/-- The same with the sum over the edges into `n` taken INSIDE the second product — the hidden messages are added up
    per node first, the second weight matrix applied once, the bias weighted by the in-degree — where the node
    features and the message weights are real numbers. -/
theorem layer1_apply_summed (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer1 (F := Ideal) h src dst a3 a4 a5 a6 a7 a8 (ix2 n j)
      = max ((∑ k : Fin 64, h (ix2 n k) * a7 (ix3 (⟨1, by decide⟩ : Fin 3) k j))
            + a8 (ix2 (⟨1, by decide⟩ : Fin 3) j)
            + ((∑ k : Fin 64,
                  (∑ e ∈ Finset.univ.filter (fun e : Fin 800000 => (dst (ix1 e)).toNat = n.val),
                      hiddenMsg h src dst hsrc hdst a3 a4 (⟨1, by decide⟩ : Fin 3) e k)
                    * a5 (ix3 (⟨1, by decide⟩ : Fin 3) k j))
                + (∑ e : Fin 800000, if (dst (ix1 e)).toNat = n.val then (1 : EReal) else 0)
                    * a6 (ix2 (⟨1, by decide⟩ : Fin 3) j))) 0 := by
  rw [layer1_apply h src dst a3 a4 a5 a6 a7 a8 hsrc hdst n j, ← Finset.sum_filter]
  rw [sum_into_node_affine (fun e : Fin 800000 => (dst (ix1 e)).toNat) n.val
    (fun e k => hiddenMsg h src dst hsrc hdst a3 a4 (⟨1, by decide⟩ : Fin 3) e k)
    (fun k => a5 (ix3 (⟨1, by decide⟩ : Fin 3) k j)) (a6 (ix2 (⟨1, by decide⟩ : Fin 3) j))
    (fun e k => hiddenMsg_isReal h src dst hsrc hdst a3 a4 hh h3 h4 _ e k) (fun k => h5 _) (h6 _)]

/-- LAYER 2 READ AT `(n, j)`, where every edge's two words name nodes: the update of node `n`'s row by the sum, over
    the edges into `n`, of the messages computed from the two gathered rows. -/
theorem layer2_apply (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (n : Fin 50000) (j : Fin 64) :
    layer2 (F := Ideal) h src dst a3 a4 a5 a6 a7 a8 (ix2 n j)
      = max ((∑ k : Fin 64, h (ix2 n k) * a7 (ix3 (⟨2, by decide⟩ : Fin 3) k j))
            + a8 (ix2 (⟨2, by decide⟩ : Fin 3) j)
            + ∑ e : Fin 800000, if (dst (ix1 e)).toNat = n.val then
                ((∑ k : Fin 64, hiddenMsg h src dst hsrc hdst a3 a4 (⟨2, by decide⟩ : Fin 3) e k
                    * a5 (ix3 (⟨2, by decide⟩ : Fin 3) k j))
                  + a6 (ix2 (⟨2, by decide⟩ : Fin 3) j))
              else 0) 0 := by
  unfold layer2
  rw [upd2_apply, agg_apply _ _ hdst]
  simp only [msg2_apply, edgeCat_eq h src dst hsrc hdst, hiddenMsg]

/-- The same with the sum over the edges into `n` taken INSIDE the second product — the hidden messages are added up
    per node first, the second weight matrix applied once, the bias weighted by the in-degree — where the node
    features and the message weights are real numbers. -/
theorem layer2_apply_summed (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer2 (F := Ideal) h src dst a3 a4 a5 a6 a7 a8 (ix2 n j)
      = max ((∑ k : Fin 64, h (ix2 n k) * a7 (ix3 (⟨2, by decide⟩ : Fin 3) k j))
            + a8 (ix2 (⟨2, by decide⟩ : Fin 3) j)
            + ((∑ k : Fin 64,
                  (∑ e ∈ Finset.univ.filter (fun e : Fin 800000 => (dst (ix1 e)).toNat = n.val),
                      hiddenMsg h src dst hsrc hdst a3 a4 (⟨2, by decide⟩ : Fin 3) e k)
                    * a5 (ix3 (⟨2, by decide⟩ : Fin 3) k j))
                + (∑ e : Fin 800000, if (dst (ix1 e)).toNat = n.val then (1 : EReal) else 0)
                    * a6 (ix2 (⟨2, by decide⟩ : Fin 3) j))) 0 := by
  rw [layer2_apply h src dst a3 a4 a5 a6 a7 a8 hsrc hdst n j, ← Finset.sum_filter]
  rw [sum_into_node_affine (fun e : Fin 800000 => (dst (ix1 e)).toNat) n.val
    (fun e k => hiddenMsg h src dst hsrc hdst a3 a4 (⟨2, by decide⟩ : Fin 3) e k)
    (fun k => a5 (ix3 (⟨2, by decide⟩ : Fin 3) k j)) (a6 (ix2 (⟨2, by decide⟩ : Fin 3) j))
    (fun e k => hiddenMsg_isReal h src dst hsrc hdst a3 a4 hh h3 h4 _ e k) (fun k => h5 _) (h6 _)]

end Cert.ReferenceIdeal.RefLayer

end
-- ==== Proof.LibGnnLayer.lean ====
import proofs.«215677_g32066225832048_cont_9to1_32_28_alg».proof.Proof.LibGnnLaws

/-!
# Two arrangements of a message-passing layer

A layer updates node `n` by `relu(h n · Ws + bs + Σ_{e into n} m_e)` with the edge message
`m_e = relu([h (src e), h (dst e)] · W1 + b1) · W2 + b2`. A kernel can arrange the same computation around a
per-NODE table `T n = h n · [W1_top | W1_bottom] + [0 | b1]` (128 wide: the node's row against the top half of `W1`
in columns `[0, 64)`, against the bottom half plus `b1` in columns `[64, 128)`): edge `e`'s hidden message is then
`relu(T (src e) [k] + T (dst e) [64 + k])`, the hidden messages are added up per node, `W2` is applied once and `b2`
is weighted by the node's in-degree. This module proves the two arrangements equal over the extended reals, for real
entries, over an abstract finite type of edges; "edge `e` goes into the node" is any decidable predicate, and the rows
an edge reads are any two rows, so that the statement instantiates at index words read as natural numbers.
-/

noncomputable section

open scoped BigOperators

namespace Cert.Lib.GnnLayer

open Cert.Lib.GnnLaws

/-! ## The table -/

/-- Two 64-wide rows side by side. -/
def catRow (hs hd : Fin 64 → EReal) (k' : Fin 128) : EReal :=
  if hk : k'.val < 64 then hs ⟨k'.val, hk⟩ else hd ⟨k'.val - 64, by omega⟩

theorem catRow_castAdd (hs hd : Fin 64 → EReal) (k : Fin 64) : catRow hs hd (Fin.castAdd 64 k) = hs k := by
  unfold catRow
  rw [dif_pos (by simp)]
  rfl

theorem catRow_natAdd (hs hd : Fin 64 → EReal) (k : Fin 64) : catRow hs hd (Fin.natAdd 64 k) = hd k := by
  unfold catRow
  rw [dif_neg (by simp)]
  congr 1
  exact Fin.ext (by simp)

/-- A row of real entries beside a row of real entries is a row of real entries. -/
theorem catRow_isReal (hs hd : Fin 64 → EReal) (h1 : ∀ k, IsReal (hs k)) (h2 : ∀ k, IsReal (hd k)) (k' : Fin 128) :
    IsReal (catRow hs hd k') := by
  unfold catRow
  split
  · exact h1 _
  · exact h2 _

/-- The table's weight: the top half of the 128-row matrix in columns `[0, 64)`, the bottom half in `[64, 128)`. -/
def tableW (W1 : Fin 128 → Fin 64 → EReal) (k' : Fin 64) (j : Fin 128) : EReal :=
  if hj : j.val < 64 then W1 (Fin.castAdd 64 k') ⟨j.val, hj⟩ else W1 (Fin.natAdd 64 k') ⟨j.val - 64, by omega⟩

/-- The table's bias: 64 zeros, then the bias. -/
def tableB (b1 : Fin 64 → EReal) (j : Fin 128) : EReal :=
  if hj : j.val < 64 then 0 else b1 ⟨j.val - 64, by omega⟩

/-- A node's table row: its feature row against the laid-out weight, plus the laid-out bias. -/
def table (hrow : Fin 64 → EReal) (W1 : Fin 128 → Fin 64 → EReal) (b1 : Fin 64 → EReal) (j : Fin 128) : EReal :=
  (∑ k' : Fin 64, hrow k' * tableW W1 k' j) + tableB b1 j

/-- Column `k` of the table's left half: the row against the top half of the matrix, plus zero. -/
theorem table_left (hrow : Fin 64 → EReal) (W1 : Fin 128 → Fin 64 → EReal) (b1 : Fin 64 → EReal) (k : Fin 64) :
    table hrow W1 b1 ⟨k.val, by omega⟩ = (∑ k' : Fin 64, hrow k' * W1 (Fin.castAdd 64 k') k) + 0 := by
  unfold table tableW tableB
  simp only [dif_pos k.isLt]

/-- Column `64 + k` of the table: the row against the bottom half of the matrix, plus the bias. -/
theorem table_right (hrow : Fin 64 → EReal) (W1 : Fin 128 → Fin 64 → EReal) (b1 : Fin 64 → EReal) (k : Fin 64) :
    table hrow W1 b1 ⟨64 + k.val, by omega⟩ = (∑ k' : Fin 64, hrow k' * W1 (Fin.natAdd 64 k') k) + b1 k := by
  unfold table tableW tableB
  have hn : ¬ (64 + k.val < 64) := by omega
  have hk : (⟨64 + k.val - 64, by omega⟩ : Fin 64) = k := Fin.ext (by simp)
  simp only [dif_neg hn, hk]

/-! ## An edge's hidden message, both ways -/

/-- THE HIDDEN MESSAGE FROM THE TABLE: the source's left-half entry plus the destination's right-half entry, under
    `relu`, is `relu([hs, hd] · W1 + b1)` at the hidden column. No finiteness: only `x + 0 = x`, associativity, and the
    split of the 128-term contraction in two. -/
theorem hidden_of_table (hs hd : Fin 64 → EReal) (W1 : Fin 128 → Fin 64 → EReal) (b1 : Fin 64 → EReal) (k : Fin 64) :
    max (table hs W1 b1 ⟨k.val, by omega⟩ + table hd W1 b1 ⟨64 + k.val, by omega⟩) 0
      = max ((∑ k' : Fin 128, catRow hs hd k' * W1 k' k) + b1 k) 0 := by
  rw [table_left, table_right, add_zero, ← add_assoc, sum_fin128_split (fun k' => catRow hs hd k') (fun k' => W1 k' k)]
  simp only [catRow_castAdd, catRow_natAdd]

/-- The hidden message of real rows against real weights is real. -/
theorem hidden_isReal (hs hd : Fin 64 → EReal) (W1 : Fin 128 → Fin 64 → EReal) (b1 : Fin 64 → EReal)
    (h1 : ∀ k, IsReal (hs k)) (h2 : ∀ k, IsReal (hd k)) (hW : ∀ k' k, IsReal (W1 k' k)) (hb : ∀ k, IsReal (b1 k))
    (k : Fin 64) : IsReal (max ((∑ k' : Fin 128, catRow hs hd k' * W1 k' k) + b1 k) 0) :=
  IsReal.relu (IsReal.add (IsReal.dot _ _ (catRow_isReal hs hd h1 h2) (fun k' => hW k' k)) (hb k))

/-! ## The layer, both ways -/

section Layer

variable {E : Type*} [Fintype E]

/-- The aggregation law with "goes into the node" any decidable predicate on the edges. -/
theorem sum_into_affine (p : E → Prop) [DecidablePred p] {K : Type*} [Fintype K] (r : E → K → EReal) (w : K → EReal)
    (b : EReal) (hr : ∀ e k, IsReal (r e k)) (hw : ∀ k, IsReal (w k)) (hb : IsReal b) :
    (∑ e, if p e then ((∑ k, r e k * w k) + b) else 0)
      = (∑ k, (∑ e, if p e then r e k else 0) * w k) + (∑ e, if p e then (1 : EReal) else 0) * b := by
  rw [← Finset.sum_filter, sum_edges_affine_of_isReal _ r w b hr hw hb, card_filter_eq_sum_ite]
  simp only [Finset.sum_filter]

/-- THE TWO ARRANGEMENTS OF A LAYER AGREE. Left: the table arrangement — hidden messages from the per-node table, added
    up over the edges into the node, the second matrix applied once, the second bias weighted by the in-degree. Right:
    the per-edge arrangement — each edge's message `relu([hs e, hd e] · W1 + b1) · W2 + b2`, summed over the edges
    into the node. `hn` is the node's own row, `hs e` / `hd e` the rows edge `e` gathers, `p e` says that `e` goes into
    the node; the rows and the message weights are real. -/
theorem layer_table_eq_edges (p : E → Prop) [DecidablePred p] (hn : Fin 64 → EReal) (hs hd : E → Fin 64 → EReal)
    (W1 : Fin 128 → Fin 64 → EReal) (b1 : Fin 64 → EReal) (W2 : Fin 64 → Fin 64 → EReal) (b2 : Fin 64 → EReal)
    (Ws : Fin 64 → Fin 64 → EReal) (bs : Fin 64 → EReal)
    (h1 : ∀ e k, IsReal (hs e k)) (h2 : ∀ e k, IsReal (hd e k)) (hW1 : ∀ k' k, IsReal (W1 k' k)) (hb1 : ∀ k, IsReal (b1 k))
    (hW2 : ∀ k j, IsReal (W2 k j)) (hb2 : ∀ j, IsReal (b2 j)) (j : Fin 64) :
    max (((∑ k : Fin 64, hn k * Ws k j) + bs j)
          + ((∑ k : Fin 64,
                (∑ e, if p e then
                    max (table (hs e) W1 b1 ⟨k.val, by omega⟩ + table (hd e) W1 b1 ⟨64 + k.val, by omega⟩) 0
                  else 0) * W2 k j)
              + (∑ e, if p e then (1 : EReal) else 0) * b2 j)) 0
      = max ((∑ k : Fin 64, hn k * Ws k j) + bs j
          + ∑ e, if p e then
              ((∑ k : Fin 64, max ((∑ k' : Fin 128, catRow (hs e) (hd e) k' * W1 k' k) + b1 k) 0 * W2 k j) + b2 j)
            else 0) 0 := by
  simp only [hidden_of_table]
  rw [sum_into_affine p (fun e k => max ((∑ k' : Fin 128, catRow (hs e) (hd e) k' * W1 k' k) + b1 k) 0)
    (fun k => W2 k j) (b2 j)
    (fun e k => hidden_isReal (hs e) (hd e) W1 b1 (h1 e) (h2 e) hW1 hb1 k) (fun k => hW2 k j) (hb2 j)]

end Layer

end Cert.Lib.GnnLayer

end
-- ==== Proof.RefLayerTable.lean ====
import proofs.«215677_g32066225832048_cont_9to1_32_28_alg».proof.Proof.RefLayer
import proofs.«215677_g32066225832048_cont_9to1_32_28_alg».proof.Proof.LibGnnLayer

/-!
# A layer of the reference in the table arrangement

`RefLayer` reads a layer of the reference at an index in the per-edge arrangement. Here the same layer, for real node
features and message weights, in the arrangement a kernel built around a per-node table computes (`LibGnnLayer`):
the table row of node `m` is `h[m] · [W1_top | W1_bottom] + [0 | b1]`, edge `e`'s hidden message is
`relu(T (src e) [k] + T (dst e) [64 + k])`, the hidden messages are added up over the edges into the node, the
second matrix is applied once and the second bias is weighted by the in-degree (`layer0_apply_table` …).
-/

noncomputable section

open scoped BigOperators

namespace Cert.ReferenceIdeal.RefLayer

open Cert.ReferenceIdeal Idealize.ShloMosaic Idealize.ShloMosaic.ValueIdx
open Cert.ReferenceIdeal.RefRun Cert.ReferenceIdeal.RefStages Cert.Lib.GnnLaws Cert.Lib.GnnLayer

variable [Cert.ReferenceIdeal.Facts]

/-- The row of `h` an index word of edge `e` names. -/
def rowAt (h : FVec Ideal S50000x64 .f32) (idx : IVec S800000 32) (hidx : ∀ e : Fin 800000, (idx (ix1 e)).toNat < 50000)
    (e : Fin 800000) (c : Fin 64) : EReal :=
  h (ix2 ⟨(idx (ix1 e)).toNat, hidx e⟩ c)

/-- Layer `l`'s first message matrix and bias out of the stacked arguments. -/
def w1Of (a3 : FVec Ideal S3x128x64 .f32) (l : Fin 3) (k' : Fin 128) (k : Fin 64) : EReal := a3 (ix3 l k' k)
def b1Of (a4 : FVec Ideal S3x64 .f32) (l : Fin 3) (k : Fin 64) : EReal := a4 (ix2 l k)

/-- An edge's hidden message with its two gathered rows as a pair of rows side by side. -/
theorem hiddenMsg_eq (h : FVec Ideal S50000x64 .f32) (src dst : IVec S800000 32)
    (hsrc : ∀ e : Fin 800000, (src (ix1 e)).toNat < 50000) (hdst : ∀ e : Fin 800000, (dst (ix1 e)).toNat < 50000)
    (a3 : FVec Ideal S3x128x64 .f32) (a4 : FVec Ideal S3x64 .f32) (l : Fin 3) (e : Fin 800000) (k : Fin 64) :
    hiddenMsg h src dst hsrc hdst a3 a4 l e k
      = max ((∑ k' : Fin 128, catRow (rowAt h src hsrc e) (rowAt h dst hdst e) k' * w1Of a3 l k' k) + b1Of a4 l k) 0 := rfl

/-- LAYER 0 IN THE TABLE ARRANGEMENT: the reference's layer at `(n, j)`, for real node features and message weights,
    is the update of node `n`'s row by the hidden messages — read off the per-node table at the edge's two ends —
    added up over the edges into `n`, times the second matrix, plus the in-degree times the second bias. -/
theorem layer0_apply_table (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer0 (F := Ideal) h src dst a3 a4 a5 a6 a7 a8 (ix2 n j)
      = max (((∑ k : Fin 64, h (ix2 n k) * a7 (ix3 (⟨0, by decide⟩ : Fin 3) k j))
              + a8 (ix2 (⟨0, by decide⟩ : Fin 3) j))
          + ((∑ k : Fin 64,
                (∑ e : Fin 800000, if (dst (ix1 e)).toNat = n.val then
                    max (table (rowAt h src hsrc e) (w1Of a3 (⟨0, by decide⟩ : Fin 3)) (b1Of a4 (⟨0, by decide⟩ : Fin 3))
                            ⟨k.val, by omega⟩
                          + table (rowAt h dst hdst e) (w1Of a3 (⟨0, by decide⟩ : Fin 3)) (b1Of a4 (⟨0, by decide⟩ : Fin 3))
                            ⟨64 + k.val, by omega⟩) 0
                  else 0) * a5 (ix3 (⟨0, by decide⟩ : Fin 3) k j))
              + (∑ e : Fin 800000, if (dst (ix1 e)).toNat = n.val then (1 : EReal) else 0)
                  * a6 (ix2 (⟨0, by decide⟩ : Fin 3) j))) 0 := by
  rw [layer0_apply h src dst a3 a4 a5 a6 a7 a8 hsrc hdst n j]
  simp only [hiddenMsg_eq]
  exact (layer_table_eq_edges (fun e : Fin 800000 => (dst (ix1 e)).toNat = n.val) (fun k => h (ix2 n k))
    (rowAt h src hsrc) (rowAt h dst hdst) (w1Of a3 (⟨0, by decide⟩ : Fin 3)) (b1Of a4 (⟨0, by decide⟩ : Fin 3))
    (fun k j => a5 (ix3 (⟨0, by decide⟩ : Fin 3) k j)) (fun j => a6 (ix2 (⟨0, by decide⟩ : Fin 3) j))
    (fun k j => a7 (ix3 (⟨0, by decide⟩ : Fin 3) k j)) (fun j => a8 (ix2 (⟨0, by decide⟩ : Fin 3) j))
    (fun e k => hh _) (fun e k => hh _) (fun _ _ => h3 _) (fun _ => h4 _) (fun _ _ => h5 _) (fun _ => h6 _) j).symm

/-- LAYER 1 IN THE TABLE ARRANGEMENT: the reference's layer at `(n, j)`, for real node features and message weights,
    is the update of node `n`'s row by the hidden messages — read off the per-node table at the edge's two ends —
    added up over the edges into `n`, times the second matrix, plus the in-degree times the second bias. -/
theorem layer1_apply_table (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer1 (F := Ideal) h src dst a3 a4 a5 a6 a7 a8 (ix2 n j)
      = max (((∑ k : Fin 64, h (ix2 n k) * a7 (ix3 (⟨1, by decide⟩ : Fin 3) k j))
              + a8 (ix2 (⟨1, by decide⟩ : Fin 3) j))
          + ((∑ k : Fin 64,
                (∑ e : Fin 800000, if (dst (ix1 e)).toNat = n.val then
                    max (table (rowAt h src hsrc e) (w1Of a3 (⟨1, by decide⟩ : Fin 3)) (b1Of a4 (⟨1, by decide⟩ : Fin 3))
                            ⟨k.val, by omega⟩
                          + table (rowAt h dst hdst e) (w1Of a3 (⟨1, by decide⟩ : Fin 3)) (b1Of a4 (⟨1, by decide⟩ : Fin 3))
                            ⟨64 + k.val, by omega⟩) 0
                  else 0) * a5 (ix3 (⟨1, by decide⟩ : Fin 3) k j))
              + (∑ e : Fin 800000, if (dst (ix1 e)).toNat = n.val then (1 : EReal) else 0)
                  * a6 (ix2 (⟨1, by decide⟩ : Fin 3) j))) 0 := by
  rw [layer1_apply h src dst a3 a4 a5 a6 a7 a8 hsrc hdst n j]
  simp only [hiddenMsg_eq]
  exact (layer_table_eq_edges (fun e : Fin 800000 => (dst (ix1 e)).toNat = n.val) (fun k => h (ix2 n k))
    (rowAt h src hsrc) (rowAt h dst hdst) (w1Of a3 (⟨1, by decide⟩ : Fin 3)) (b1Of a4 (⟨1, by decide⟩ : Fin 3))
    (fun k j => a5 (ix3 (⟨1, by decide⟩ : Fin 3) k j)) (fun j => a6 (ix2 (⟨1, by decide⟩ : Fin 3) j))
    (fun k j => a7 (ix3 (⟨1, by decide⟩ : Fin 3) k j)) (fun j => a8 (ix2 (⟨1, by decide⟩ : Fin 3) j))
    (fun e k => hh _) (fun e k => hh _) (fun _ _ => h3 _) (fun _ => h4 _) (fun _ _ => h5 _) (fun _ => h6 _) j).symm

/-- LAYER 2 IN THE TABLE ARRANGEMENT: the reference's layer at `(n, j)`, for real node features and message weights,
    is the update of node `n`'s row by the hidden messages — read off the per-node table at the edge's two ends —
    added up over the edges into `n`, times the second matrix, plus the in-degree times the second bias. -/
theorem layer2_apply_table (h : FVec Ideal S50000x64 .f32) (src dst : IVec S800000 32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (hh : ∀ i, IsReal (h i)) (h3 : ∀ i, IsReal (a3 i)) (h4 : ∀ i, IsReal (a4 i)) (h5 : ∀ i, IsReal (a5 i))
    (h6 : ∀ i, IsReal (a6 i)) (n : Fin 50000) (j : Fin 64) :
    layer2 (F := Ideal) h src dst a3 a4 a5 a6 a7 a8 (ix2 n j)
      = max (((∑ k : Fin 64, h (ix2 n k) * a7 (ix3 (⟨2, by decide⟩ : Fin 3) k j))
              + a8 (ix2 (⟨2, by decide⟩ : Fin 3) j))
          + ((∑ k : Fin 64,
                (∑ e : Fin 800000, if (dst (ix1 e)).toNat = n.val then
                    max (table (rowAt h src hsrc e) (w1Of a3 (⟨2, by decide⟩ : Fin 3)) (b1Of a4 (⟨2, by decide⟩ : Fin 3))
                            ⟨k.val, by omega⟩
                          + table (rowAt h dst hdst e) (w1Of a3 (⟨2, by decide⟩ : Fin 3)) (b1Of a4 (⟨2, by decide⟩ : Fin 3))
                            ⟨64 + k.val, by omega⟩) 0
                  else 0) * a5 (ix3 (⟨2, by decide⟩ : Fin 3) k j))
              + (∑ e : Fin 800000, if (dst (ix1 e)).toNat = n.val then (1 : EReal) else 0)
                  * a6 (ix2 (⟨2, by decide⟩ : Fin 3) j))) 0 := by
  rw [layer2_apply h src dst a3 a4 a5 a6 a7 a8 hsrc hdst n j]
  simp only [hiddenMsg_eq]
  exact (layer_table_eq_edges (fun e : Fin 800000 => (dst (ix1 e)).toNat = n.val) (fun k => h (ix2 n k))
    (rowAt h src hsrc) (rowAt h dst hdst) (w1Of a3 (⟨2, by decide⟩ : Fin 3)) (b1Of a4 (⟨2, by decide⟩ : Fin 3))
    (fun k j => a5 (ix3 (⟨2, by decide⟩ : Fin 3) k j)) (fun j => a6 (ix2 (⟨2, by decide⟩ : Fin 3) j))
    (fun k j => a7 (ix3 (⟨2, by decide⟩ : Fin 3) k j)) (fun j => a8 (ix2 (⟨2, by decide⟩ : Fin 3) j))
    (fun e k => hh _) (fun e k => hh _) (fun _ _ => h3 _) (fun _ => h4 _) (fun _ _ => h5 _) (fun _ => h6 _) j).symm

end Cert.ReferenceIdeal.RefLayer

end
-- ==== Proof.Layer1Match.lean ====
import proofs.«215677_g32066225832048_cont_9to1_32_28_alg».proof.Proof.KernelHostAt
import proofs.«215677_g32066225832048_cont_9to1_32_28_alg».proof.Proof.RefLayerTable

/-!
# The first layer: the kernel's formula is the reference's layer

The kernel program's state after its second region is, at node `n` and feature `j`,
`relu((h0[n] · Ws + bs) + (agg[n] · W2 + deg[n] · b2))` with `agg` the first call's output rows added up per destination
node and `deg` the in-degree. This module shows that formula equal to the reference's first layer at `(n, j)`, over
ABSTRACT arrays, from exactly the facts about those arrays that the two programs' runs provide: the call's output row of
edge `e` is `relu(tab[src e][k] + tab[dst e][64 + k])` (`H_out`), the table's row of node `m` is the per-node table of
`LibGnnLayer` over `h0` (`H_tab`), the in-degree column counts the edges into the node (`H_deg`), the index words name
nodes, and the node features and message weights are real numbers.
-/

noncomputable section

open scoped BigOperators

namespace Cert.Proof.IdealValue

open Cert.KernelIdeal Idealize.ShloMosaic Idealize.ShloMosaic.ValueIdx
open Cert.Proof.KernelHost1 Cert.Proof.KernelHostAt
open Cert.Lib.GnnLaws Cert.Lib.GnnLayer
open Cert.ReferenceIdeal.RefLayer (rowAt w1Of b1Of layer0_apply_table)

variable [Cert.KernelIdeal.Facts] [Cert.ReferenceIdeal.Facts]

/-- THE FIRST LAYER MATCH, over abstract arrays. `H0`: the state array the first region leaves; `TAB`: the first table
    (50008 rows, 128 wide); `OUT`: the first call's output (819200 rows); `src` / `dst`: the edge list's two rows;
    `deg`: the in-degree column; `a3 … a8`: the stacked weight arguments. -/
theorem layer1_formula_match
    (H0 : FVec Ideal S50000x64 .f32) (TAB : FVec Ideal S50008x128 .f32) (OUT : FVec Ideal S819200x64 .f32)
    (src dst : IVec S800000 32) (deg : FVec Ideal S50000x1 .f32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (H_out : ∀ (e : Fin 800000) (k : Fin 64) (s t : Fin 50008), s.val = (src (ix1 e)).toNat → t.val = (dst (ix1 e)).toNat →
      OUT (ix2 (⟨e.val, by omega⟩ : Fin 819200) k)
        = max (TAB (ix2 s (⟨k.val, by omega⟩ : Fin 128)) + TAB (ix2 t (⟨64 + k.val, by omega⟩ : Fin 128))) 0)
    (H_tab : ∀ (n : Fin 50000) (s : Fin 50008) (j : Fin 128), s.val = n.val →
      TAB (ix2 s j) = table (fun k => H0 (ix2 n k)) (w1Of a3 (⟨0, by decide⟩ : Fin 3)) (b1Of a4 (⟨0, by decide⟩ : Fin 3)) j)
    (H_deg : ∀ n : Fin 50000, deg (ix2 n (0 : Fin 1))
      = ∑ e : Fin 800000, if (dst (ix1 e)).toNat = n.val then (1 : EReal) else 0)
    (hh : ∀ i, IsReal (H0 i)) (h3 : ∀ i, IsReal (a3 i)) (h4 : ∀ i, IsReal (a4 i)) (h5 : ∀ i, IsReal (a5 i))
    (h6 : ∀ i, IsReal (a6 i)) (n : Fin 50000) (j : Fin 64) :
    max (((∑ k : Fin 64, H0 (ix2 n k) * mat0 (F := Ideal) a7 (ix2 k j)) + row0 (F := Ideal) a8 (ix2 (0 : Fin 1) j))
          + ((∑ k : Fin 64, aggMsg (F := Ideal) dst OUT (ix2 n k) * mat0 (F := Ideal) a5 (ix2 k j))
              + deg (ix2 n (0 : Fin 1)) * row0 (F := Ideal) a6 (ix2 (0 : Fin 1) j))) 0
      = Cert.ReferenceIdeal.RefRun.layer0 (F := Ideal) H0 src dst a3 a4 a5 a6 a7 a8 (ix2 n j) := by
  rw [layer0_apply_table H0 src dst a3 a4 a5 a6 a7 a8 hsrc hdst hh h3 h4 h5 h6 n j]
  have e7 : ∀ k : Fin 64, mat0 (F := Ideal) a7 (ix2 k j) = a7 (ix3 (⟨0, by decide⟩ : Fin 3) k j) := fun k => mat0_apply a7 k j
  have e5 : ∀ k : Fin 64, mat0 (F := Ideal) a5 (ix2 k j) = a5 (ix3 (⟨0, by decide⟩ : Fin 3) k j) := fun k => mat0_apply a5 k j
  have e8 : row0 (F := Ideal) a8 (ix2 (0 : Fin 1) j) = a8 (ix2 (⟨0, by decide⟩ : Fin 3) j) := row0_apply a8 j
  have e6 : row0 (F := Ideal) a6 (ix2 (0 : Fin 1) j) = a6 (ix2 (⟨0, by decide⟩ : Fin 3) j) := row0_apply a6 j
  have eagg : ∀ k : Fin 64, aggMsg (F := Ideal) dst OUT (ix2 n k)
      = ∑ e : Fin 800000, if (dst (ix1 e)).toNat = n.val then
          max (table (rowAt H0 src hsrc e) (w1Of a3 (⟨0, by decide⟩ : Fin 3)) (b1Of a4 (⟨0, by decide⟩ : Fin 3)) ⟨k.val, by omega⟩
            + table (rowAt H0 dst hdst e) (w1Of a3 (⟨0, by decide⟩ : Fin 3)) (b1Of a4 (⟨0, by decide⟩ : Fin 3)) ⟨64 + k.val, by omega⟩) 0
        else 0 := by
    intro k
    rw [aggMsg_apply dst OUT hdst n k]
    refine Finset.sum_congr rfl fun e _ => ?_
    split
    · rw [H_out e k ⟨(src (ix1 e)).toNat, by have := hsrc e; omega⟩ ⟨(dst (ix1 e)).toNat, by have := hdst e; omega⟩ rfl rfl,
        H_tab ⟨(src (ix1 e)).toNat, hsrc e⟩ _ _ rfl, H_tab ⟨(dst (ix1 e)).toNat, hdst e⟩ _ _ rfl]
      rfl
    · rfl
  simp only [e7, e5, e8, e6, eagg, H_deg]

end Cert.Proof.IdealValue

end
-- ==== Proof.LayerStep.lean ====
/-
  The first layer of the kernel program as one formula. After the second TensorCore region the state array holds, at
  node n and feature j,
      max( (h0[n,·]·Ws + bs)[j] + ( (Σ over edges into n of the first call's rows)·W2 + deg[n]·b2 )[j], 0 ),
  with h0 the first region's state array, the call's rows max(tab[src e,·] + tab[dst e, 64+·], 0), deg the in-degree
  column, and Ws, bs, W2, b2 layer 0's slices of the launch memory's stacked arguments: helper lemmas of the chain
  put each array the region reads in those terms.
-/
import proofs.«215677_g32066225832048_cont_9to1_32_28_alg».proof.Proof.ChainGlue
import proofs.«215677_g32066225832048_cont_9to1_32_28_alg».proof.Proof.RegionMath

noncomputable section

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23 Cert.Proof.IdealMath

open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-! ## The rest of what the second region reads -/

theorem V4_sb (d : Dev nD) : V4 m h d (Proc.devRef .tc main_v34) = row0 (F := Ideal) (launchContents m d (Proc.devRef .tc main_arg8)) := by
  have e := v34_eq (F := Ideal) (V3 m h d)
  rw [show V3 m h d (main_arg8 : DevRef τ sig) = launchContents m d (Proc.devRef .tc main_arg8) from arg_at m d _ (k3 m h d) main_arg8 (by decide)] at e
  exact e

theorem V4_b2 (d : Dev nD) : V4 m h d (Proc.devRef .tc main_v39) = row0 (F := Ideal) (launchContents m d (Proc.devRef .tc main_arg6)) := by
  have e := v39_eq (F := Ideal) (V3 m h d)
  rw [show V3 m h d (main_arg6 : DevRef τ sig) = launchContents m d (Proc.devRef .tc main_arg6) from arg_at m d _ (k3 m h d) main_arg6 (by decide)] at e
  exact e

/-- The in-degree column is the first stretch's. -/
theorem V4_deg (d : Dev nD) : V4 m h d (Proc.devRef .tc main_v13) = V1 m d (Proc.devRef .tc main_v13) := f4 m h d main_v13 (by decide)

/-- The first region's state array is untouched by the first call and the second stretch. -/
theorem V4_h0 (d : Dev nD) : V4 m h d (Proc.devRef .tc main_v24_0) = V2 m d (Proc.devRef .tc main_v24_0) :=
  ((keeps_update (L := [main_v24_0]) (o := main_v25) (V2 m d) (OUT0 m h d) (by decide)).trans
    (keeps_after (L := [main_v24_0]) ops1_writes (by decide) (V3 m h d))) main_v24_0 (by decide)

/-! ## The state arrays the regions leave -/

theorem V2_state (d : Dev nD) : V2 m d (Proc.devRef .tc main_v24_0) = G0_4 (F := Ideal) (fun _ => V1 m d) d :=
  (Wout0_arr (fun _ => V1 m d) (OtcV (F := Ideal) 0) (RcV (F := Ideal) 0) d 4).trans (final0_4 _ _ _ d)

theorem V5_state (d : Dev nD) : V5 m h d (Proc.devRef .tc main_v50_0) = G2_9 (F := Ideal) (fun _ => V4 m h d) d :=
  (Wout2_arr (fun _ => V4 m h d) (OtcV (F := Ideal) 1) (RcV (F := Ideal) 1) d 9).trans (final2_9 _ _ _ d)

/-- The first layer's states, at node `n` and feature `j`. -/
theorem V5_state_at (d : Dev nD) (n : Fin 50000) (j : Fin 64) :
    asReals (S := S50000x64) (V5 m h d (Proc.devRef .tc main_v50_0)) (ix2 n j)
      = max (((∑ k : Fin 64, asReals (S := S50000x64) (V2 m d (Proc.devRef .tc main_v24_0)) (ix2 n k)
                  * asReals (S := S64x64) (mat0 (F := Ideal) (launchContents m d (Proc.devRef .tc main_arg7))) (ix2 k j))
              + asReals (S := S1x64) (row0 (F := Ideal) (launchContents m d (Proc.devRef .tc main_arg8))) (ix2 (0 : Fin 1) j))
          + ((∑ k : Fin 64, asReals (S := S50000x64) (aggMsg (F := Ideal) (V1 m d (Proc.devRef .tc main_v4)) (OUT0 m h d)) (ix2 n k)
                  * asReals (S := S64x64) (mat0 (F := Ideal) (launchContents m d (Proc.devRef .tc main_arg5))) (ix2 k j))
            + asReals (S := S50000x1) (V1 m d (Proc.devRef .tc main_v13)) (ix2 n (0 : Fin 1))
                * asReals (S := S1x64) (row0 (F := Ideal) (launchContents m d (Proc.devRef .tc main_arg6))) (ix2 (0 : Fin 1) j))) 0 := by
  rw [V5_state m h d]
  have e := G2_9_apply (fun _ => V4 m h d) d n j
  rw [V4_h0 m h d, V4_sw m h d, V4_sb m h d, V4_agg m h d, V4_w2 m h d, V4_deg m h d, V4_b2 m h d] at e
  exact e

end Cert.Proof.IdealValue

end
-- ==== Proof.Layer1Chain.lean ====
import proofs.«215677_g32066225832048_cont_9to1_32_28_alg».proof.Proof.Layer1Match
import proofs.«215677_g32066225832048_cont_9to1_32_28_alg».proof.Proof.LayerStep

/-!
# The first layer match along the kernel program's chain

`Layer1Match.layer1_formula_match` at the chain's arrays: the state array after the kernel program's second region, at
node `n` and feature `j`, is the reference's first layer of the first region's state array, from the facts about the
chain's arrays that remain to be supplied (the call's output rows, the table's rows, the in-degree column, the
destination row, reality).
-/

noncomputable section

open scoped BigOperators

namespace Cert.Proof.IdealValue

open Cert.KernelIdeal Cert.KernelIdeal.Gen Cert.KernelIdeal.HostOps Cert.Proof.IdealLaunch
open Cert.Proof.KernelHost0 Cert.Proof.KernelHost1 Cert.Proof.IdealMath
open Idealize.ShloMosaic Idealize.ShloMosaic.StableHlo Idealize.ShloMosaic.TcCoe Idealize.ShloMosaic.ValueIdx
open Idealize.SL.Sem
open Cert.Lib.GnnLaws Cert.Lib.GnnLayer
open Cert.ReferenceIdeal.RefLayer (w1Of b1Of)

variable [Cert.ReferenceIdeal.Facts]
variable (m : (ℓ : Loc nD τ sig) → Buf (Elt Ideal) ℓ) (h : IdxOK (conts m))

/-- The first layer match along the chain. -/
theorem layer1_match (d : Dev nD) (src dst : IVec S800000 32)
    (hsrc : ∀ e : Fin 800000, (src (ix1 e)).toNat < 50000) (hdst : ∀ e : Fin 800000, (dst (ix1 e)).toNat < 50000)
    (hdst4 : (V1 m d (Proc.devRef .tc main_v4) : IVec S800000 32) = dst)
    (H_out : ∀ (e : Fin 800000) (k : Fin 64) (s t : Fin 50008), s.val = (src (ix1 e)).toNat → t.val = (dst (ix1 e)).toNat →
      asReals (S := S819200x64) (OUT0 m h d) (ix2 (⟨e.val, by omega⟩ : Fin 819200) k)
        = max (asReals (S := S50008x128) (V2 m d (Proc.devRef .tc main_v24_1)) (ix2 s (⟨k.val, by omega⟩ : Fin 128))
            + asReals (S := S50008x128) (V2 m d (Proc.devRef .tc main_v24_1)) (ix2 t (⟨64 + k.val, by omega⟩ : Fin 128))) 0)
    (H_tab : ∀ (n : Fin 50000) (s : Fin 50008) (j : Fin 128), s.val = n.val →
      asReals (S := S50008x128) (V2 m d (Proc.devRef .tc main_v24_1)) (ix2 s j)
        = table (fun k => asReals (S := S50000x64) (V2 m d (Proc.devRef .tc main_v24_0)) (ix2 n k))
            (w1Of (launchContents m d (Proc.devRef .tc main_arg3)) (⟨0, by decide⟩ : Fin 3))
            (b1Of (launchContents m d (Proc.devRef .tc main_arg4)) (⟨0, by decide⟩ : Fin 3)) j)
    (H_deg : ∀ n : Fin 50000, asReals (S := S50000x1) (V1 m d (Proc.devRef .tc main_v13)) (ix2 n (0 : Fin 1))
      = ∑ e : Fin 800000, if (dst (ix1 e)).toNat = n.val then (1 : EReal) else 0)
    (hh : ∀ i, IsReal (asReals (S := S50000x64) (V2 m d (Proc.devRef .tc main_v24_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    asReals (S := S50000x64) (V5 m h d (Proc.devRef .tc main_v50_0)) (ix2 n j)
      = Cert.ReferenceIdeal.RefRun.layer0 (F := Ideal) (V2 m d (Proc.devRef .tc main_v24_0)) src dst
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) := by
  rw [V5_state_at m h d n j]
  simp only [asReals]
  rw [hdst4]
  exact layer1_formula_match _ _ _ src dst _ _ _ _ _ _ _ hsrc hdst H_out H_tab H_deg hh h3 h4 h5 h6 n j

end Cert.Proof.IdealValue

end
-- ==== Proof.Deg0Chain.lean ====
import proofs.«215677_g32066225832048_cont_9to1_32_28_alg».proof.Proof.Layer1Chain
import proofs.«215677_g32066225832048_cont_9to1_32_28_alg».proof.Proof.IdxRange
import proofs.«215677_g32066225832048_cont_9to1_32_28_alg».proof.Proof.KernelPre

/-!
# The edge list's rows and the in-degree column along the chain

The first host stretch leaves the edge list's two rows at `main_v2` and `main_v4` (`srcRow`, `dstRow` of the launch
memory's edge list) and the in-degree column at `main_v13`. Under the precondition every word of either row names a
node, and the in-degree of node `n` is the number of edges whose destination word is `n`: `hdst4`, `hsrc`, `hdst` and
`H_deg` of `layer1_match`, proved.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem

/-- The edges' sources and destinations: rows 0 and 1 of the edge list. -/
def srcRow (ei : IVec S2x800000 32) : IVec S800000 32 :=
  shapeCast S800000 (extractStridedSlice S1x800000 ![0, 0] ei slices_S2x800000_S1x800000_0_0) shapeCasts_S1x800000_S800000
def dstRow (ei : IVec S2x800000 32) : IVec S800000 32 :=
  shapeCast S800000 (extractStridedSlice S1x800000 ![1, 0] ei slices_S2x800000_S1x800000_1_0) shapeCasts_S1x800000_S800000

theorem srcRow_apply (ei : IVec S2x800000 32) (e : Fin 800000) : srcRow ei (ix1 e) = ei (ix2 (0 : Fin 2) e) := by
  unfold srcRow
  rw [shapeCast_apply _ shapeCasts_S1x800000_S800000 (ix1 e) (ix2 (0 : Fin 1) e)
    (by rw [Shape.rowMajor_val_one, Shape.rowMajor_val_two]; simp)]
  exact extractStridedSlice_apply _ ei slices_S2x800000_S1x800000_0_0 _ (ix2 (0 : Fin 2) e)
    (fun a => match a with | ⟨0, _⟩ => rfl | ⟨1, _⟩ => by simp)

theorem dstRow_apply (ei : IVec S2x800000 32) (e : Fin 800000) : dstRow ei (ix1 e) = ei (ix2 (1 : Fin 2) e) := by
  unfold dstRow
  rw [shapeCast_apply _ shapeCasts_S1x800000_S800000 (ix1 e) (ix2 (0 : Fin 1) e)
    (by rw [Shape.rowMajor_val_one, Shape.rowMajor_val_two]; simp)]
  exact extractStridedSlice_apply _ ei slices_S2x800000_S1x800000_1_0 _ (ix2 (1 : Fin 2) e)
    (fun a => match a with | ⟨0, _⟩ => rfl | ⟨1, _⟩ => by simp)

/-- The first host stretch leaves the destination row at `main_v4`. -/
theorem v4_eq (V : Valuation τ sig (Elt Ideal)) :
    after (ops0 (F := Ideal)) V (main_v4 : DevRef τ sig) = dstRow (V (main_arg1 : DevRef τ sig)) := by
  after_results_simp <;> rfl

variable (m : (ℓ : Loc nD τ sig) → Buf (Elt Ideal) ℓ)

/-- `hdst4` of `layer1_match`. -/
theorem dst4_chain (d : Dev nD) :
    (V1 m d (Proc.devRef .tc main_v4) : IVec S800000 32) = dstRow (launchContents m d (Proc.devRef .tc main_arg1)) :=
  v4_eq (launchContents m d)

/-- Under the precondition the source and destination words name nodes. -/
theorem srcRow_lt (hpre : Cert.Pre_KernelIdeal (hPre_input_domain := Cert.Pre_input_domain.Gen.facts) m) (d : Dev nD)
    (e : Fin 800000) : (srcRow (launchContents m d (Proc.devRef .tc main_arg1)) (ix1 e)).toNat < 50000 := by
  rw [srcRow_apply]
  exact Cert.Proof.IdxRange.edge_lt (F := Ideal) m hpre d _

theorem dstRow_lt (hpre : Cert.Pre_KernelIdeal (hPre_input_domain := Cert.Pre_input_domain.Gen.facts) m) (d : Dev nD)
    (e : Fin 800000) : (dstRow (launchContents m d (Proc.devRef .tc main_arg1)) (ix1 e)).toNat < 50000 := by
  rw [dstRow_apply]
  exact Cert.Proof.IdxRange.edge_lt (F := Ideal) m hpre d _

/-- `H_deg` of `layer1_match`: the in-degree column counts the edges whose destination word is the node. -/
theorem deg0_chain (hpre : Cert.Pre_KernelIdeal (hPre_input_domain := Cert.Pre_input_domain.Gen.facts) m) (d : Dev nD)
    (n : Fin 50000) :
    asReals (S := S50000x1) (V1 m d (Proc.devRef .tc main_v13)) (ix2 n (0 : Fin 1))
      = ∑ e : Fin 800000,
          if (dstRow (launchContents m d (Proc.devRef .tc main_arg1)) (ix1 e)).toNat = n.val then (1 : EReal) else 0 := by
  have e := v13_at (launchContents m d) (fun e => Cert.Proof.IdxRange.edge_lt (F := Ideal) m hpre d _) n
  simp only [dstRow_apply]
  exact e

end Cert.Proof.IdealValue

end
-- ==== Proof.ValueEq.lean ====
/-
  The assembly of the value equation from its links. The reference's result is its read-out of the third layer of
  the second of the first of the embedded node features; the kernel program's is the end of its chain of valuations.
  Given that the chain's four state arrays are the reference's four stages (as arrays), and that the two programs' edge
  rows are the same arrays, the results agree: the one entry of the kernel's [1,1] result is the read-out formula over
  the last states' column sums, which is the reference's read-out.
-/
import proofs.«215677_g32066225832048_cont_9to1_32_28_alg».proof.Proof.ReadoutStep
import proofs.«215677_g32066225832048_cont_9to1_32_28_alg».proof.Proof.ReadoutMatch
import proofs.«215677_g32066225832048_cont_9to1_32_28_alg».proof.Proof.Deg0Chain

noncomputable section

namespace Cert.Proof.IdealValue

open Cert.KernelIdeal Cert.KernelIdeal.Gen Cert.Proof.IdealLaunch Cert.Proof.IdealMath Cert.Lib.GnnLaws
open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-- The launch memory's array behind a reference. -/
abbrev argOf (d : Dev nD) (r : Ref sig .tc) := launchContents m d (Proc.devRef .tc r)

/-- A [1,1] array has one index. -/
theorem idx11 (i : S1x1.Idx) : i = ix2 (0 : Fin 1) (0 : Fin 1) := by
  have h0 : (i 0).val < 1 := (i 0).isLt
  have h1 : (i 1).val < 1 := (i 1).isLt
  rw [eq_ix2 i]
  congr 1
  · exact Fin.ext (by show (i 0).val = 0; omega)
  · exact Fin.ext (by show (i 1).val = 0; omega)

set_option maxHeartbeats 4000000 in
set_option maxRecDepth 65536 in
/-- The kernel's result is the reference's read-out of the last layer's states. -/
theorem result_readout [Cert.ReferenceIdeal.Facts] (d : Dev nD) :
    (result m h d : FVec Ideal S1x1 .f32)
      = Cert.ReferenceIdeal.RefRun.readout (F := Ideal) (fun i => stateAll (fun _ => V10 m h d) d i)
          (argOf m d main_arg9) (argOf m d main_arg10) (argOf m d main_arg11) (argOf m d main_arg12) := by
  funext i
  rw [idx11 i]
  have e1 := result_at m h d
  have e2 := readout_formula_match
    (fun n j => stateAll (fun _ => V10 m h d) d (ix2 n j))
    (fun j k => asReals (S := S64x64) (argOf m d main_arg9) (ix2 j k))
    (fun k => asReals (S := S1x64) (shapeCast S1x64 (argOf m d main_arg10 : FVec Ideal S64 .f32) shapeCasts_S64_S1x64) (ix2 (0 : Fin 1) k))
    (fun k => asReals (S := S64x1) (argOf m d main_arg11) (ix2 k (0 : Fin 1)))
    (asReals (S := S1x1) (shapeCast S1x1 (argOf m d main_arg12 : FVec Ideal S1 .f32) shapeCasts_S1_S1x1) (ix2 (0 : Fin 1) (0 : Fin 1)))
    (fun i => stateAll (fun _ => V10 m h d) d i) (argOf m d main_arg9) (argOf m d main_arg10) (argOf m d main_arg11) (argOf m d main_arg12)
    (fun _ _ => rfl) (fun _ _ => rfl) (fun k => shapeCast_a_1a_apply _ _ (0 : Fin 1) k) (fun _ => rfl)
    (shapeCast_a_1a_apply _ _ (0 : Fin 1) (0 : Fin 1))
  exact e1.trans e2

set_option maxHeartbeats 4000000 in
set_option maxRecDepth 65536 in
/-- The value equation from its links. -/
theorem value_eq_of [Cert.ReferenceIdeal.Facts] (d : Dev nD)
    (E0 : (V2 m d (Proc.devRef .tc main_v24_0) : FVec Ideal S50000x64 .f32)
        = Cert.ReferenceIdeal.RefRun.take0 (F := Ideal) (argOf m d main_arg2) (argOf m d main_arg0))
    (E1 : (V5 m h d (Proc.devRef .tc main_v50_0) : FVec Ideal S50000x64 .f32)
        = Cert.ReferenceIdeal.RefRun.layer0 (F := Ideal) (V2 m d (Proc.devRef .tc main_v24_0)) (srcRow (argOf m d main_arg1)) (dstRow (argOf m d main_arg1))
            (argOf m d main_arg3) (argOf m d main_arg4) (argOf m d main_arg5) (argOf m d main_arg6) (argOf m d main_arg7) (argOf m d main_arg8))
    (E2 : (V8 m h d (Proc.devRef .tc main_v76_0) : FVec Ideal S50000x64 .f32)
        = Cert.ReferenceIdeal.RefRun.layer1 (F := Ideal) (V5 m h d (Proc.devRef .tc main_v50_0)) (srcRow (argOf m d main_arg1)) (dstRow (argOf m d main_arg1))
            (argOf m d main_arg3) (argOf m d main_arg4) (argOf m d main_arg5) (argOf m d main_arg6) (argOf m d main_arg7) (argOf m d main_arg8))
    (E3 : (fun i => stateAll (fun _ => V10 m h d) d i : FVec Ideal S50000x64 .f32)
        = Cert.ReferenceIdeal.RefRun.layer2 (F := Ideal) (V8 m h d (Proc.devRef .tc main_v76_0)) (srcRow (argOf m d main_arg1)) (dstRow (argOf m d main_arg1))
            (argOf m d main_arg3) (argOf m d main_arg4) (argOf m d main_arg5) (argOf m d main_arg6) (argOf m d main_arg7) (argOf m d main_arg8))
    (Es : srcRow (argOf m d main_arg1) = Cert.ReferenceIdeal.RefRun.rowSrc (F := Ideal) (argOf m d main_arg1))
    (Ed : dstRow (argOf m d main_arg1) = Cert.ReferenceIdeal.RefRun.rowDst (F := Ideal) (argOf m d main_arg1)) :
    Cert.ReferenceIdeal.RefRun.result (F := Ideal) (argOf m d main_arg0) (argOf m d main_arg1) (argOf m d main_arg2) (argOf m d main_arg3)
        (argOf m d main_arg4) (argOf m d main_arg5) (argOf m d main_arg6) (argOf m d main_arg7) (argOf m d main_arg8) (argOf m d main_arg9)
        (argOf m d main_arg10) (argOf m d main_arg11) (argOf m d main_arg12)
      = result m h d := by
  rw [result_readout m h d, E3, E2, E1, E0, Es, Ed]
  rfl

end Cert.Proof.IdealValue

end
-- ==== Proof.EdgeValueIdeal.lean ====
/-
  The edge kernel's output over the extended reals. At the ideal floats an `f32` is an extended real, addition and
  maximum are the extended reals' own and the word `0x00000000` is zero, so element `(e, j)` of the kernel's output is
  `max (tab (src2 e, j) + tab (dst2 e, 64 + j)) 0`, the two index words read as row numbers of the table; it is a real
  number whenever the table's entries are.
-/
import proofs.«215677_g32066225832048_cont_9to1_32_28_alg».proof.Proof.EdgeTileB
import proofs.«215677_g32066225832048_cont_9to1_32_28_alg».proof.Proof.LibGnnLaws

noncomputable section

namespace Cert.Proof.EdgeTile

open Cert.KernelIdeal Cert.KernelIdeal.Gen
open Idealize.ShloMosaic
open Cert.Lib.GnnLaws

/-- The clamped sum over the extended reals. -/
theorem relu2_ideal (a b : Ideal .f32) : relu2 (F := Ideal) a b = max (a + b) 0 := by
  unfold relu2
  show max (a + b) (Ideal.ofBits .f32 0x00000000#32) = max (a + b) 0
  rw [ofBits_zero]

/-- Element `x = (e, j)` of the kernel's output over the extended reals. -/
theorem outVal_ideal (TABr : S50008x128.Idx → Ideal .f32) (SRCr DSTr : S819200.Idx → Elt Ideal .i32)
    (hs : ∀ j, (SRCr j).toNat < 50008) (hd : ∀ j, (DSTr j).toNat < 50008) (x : S819200x64.Idx) :
    outVal (F := Ideal) TABr SRCr DSTr hs hd x
      = max (TABr (ixT (SRCr (ix1 (x 0).val (x 0).isLt)).toNat (hs _) (x 1).val (Nat.lt_of_lt_of_le (x 1).isLt (by decide)))
          + TABr (ixT (DSTr (ix1 (x 0).val (x 0).isLt)).toNat (hd _) (64 + (x 1).val) (by have h : (x 1).val < 64 := (x 1).isLt; omega))) 0 := by
  unfold outVal
  rw [relu2_ideal]

/-- It is a real number when the table's entries are. -/
theorem outVal_isReal (TABr : S50008x128.Idx → Ideal .f32) (SRCr DSTr : S819200.Idx → Elt Ideal .i32)
    (hs : ∀ j, (SRCr j).toNat < 50008) (hd : ∀ j, (DSTr j).toNat < 50008) (hT : ∀ i, IsReal (TABr i)) (x : S819200x64.Idx) :
    IsReal (outVal (F := Ideal) TABr SRCr DSTr hs hd x) := by
  rw [outVal_ideal]
  exact ((hT _).add (hT _)).relu

/-- The table's entry at an index, as an extended real. -/
abbrev tabAt (d : Dev nD) (TAB : Buf (Elt Ideal) ((SparseCore.T (τ := τ) d).loc main_v24_1)) (i : S50008x128.Idx) : Ideal .f32 := TAB i

/-- The same for the output array as the tiles leave it: at `(e, j)`, from the table's and the two index arrays' contents. -/
theorem outBuf_ideal (d : Dev nD) (TAB : Buf (Elt Ideal) ((SparseCore.T (τ := τ) d).loc main_v24_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (x : S819200x64.Idx) :
    @Eq (Ideal .f32) (outBuf (F := Ideal) d TAB SRC DST hsrc hdst x)
      (max (tabAt d TAB (ixT (SRC (ix1 (x 0).val (x 0).isLt)).toNat (hsrc _) (x 1).val (Nat.lt_of_lt_of_le (x 1).isLt (by decide)))
          + tabAt d TAB (ixT (DST (ix1 (x 0).val (x 0).isLt)).toNat (hdst _) (64 + (x 1).val) (by have h : (x 1).val < 64 := (x 1).isLt; omega))) 0) :=
  outVal_ideal _ _ _ _ _ x

theorem outBuf_isReal (d : Dev nD) (TAB : Buf (Elt Ideal) ((SparseCore.T (τ := τ) d).loc main_v24_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (hT : ∀ i : S50008x128.Idx, IsReal (tabAt d TAB i)) (x : S819200x64.Idx) :
    IsReal (outBuf (F := Ideal) d TAB SRC DST hsrc hdst x : Ideal .f32) :=
  outVal_isReal _ _ _ _ _ (fun i => hT i) x

end Cert.Proof.EdgeTile

end
-- ==== Proof.Out0Chain.lean ====
import proofs.«215677_g32066225832048_cont_9to1_32_28_alg».proof.Proof.Deg0Chain
import proofs.«215677_g32066225832048_cont_9to1_32_28_alg».proof.Proof.EdgeValueIdeal

/-!
# The first call's output rows along the chain

The first SparseCore call's output, at edge `e` (a row below 800000) and column `k`, is
`relu(tab[src e][k] + tab[dst e][64 + k])` with `tab` the first table and `src e`, `dst e` the edge list's words: the
padded index arrays the call gathers with are the edge list's rows on their first 800000 entries. This is `H_out` of
`layer1_match`, proved.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem

/-- The padded source array, at an entry below 800000, is the edge list's source row there. -/
theorem srcPad_at (ei : IVec S2x800000 32) (e : Fin 800000) (j : S819200.Idx) (hj : (j ⟨0, by decide⟩).val = e.val) :
    Cert.Proof.IdxRange.srcPad ei j = srcRow ei (ix1 e) := by
  unfold Cert.Proof.IdxRange.srcPad
  rw [concatenate_pair_apply_left _ _ _ concatenates_S800000_S19200_S819200_d0 j rfl (ix1 e)
    (fun b => match b with | ⟨0, _⟩ => hj.symm)]
  rfl

theorem dstPad_at (ei : IVec S2x800000 32) (e : Fin 800000) (j : S819200.Idx) (hj : (j ⟨0, by decide⟩).val = e.val) :
    Cert.Proof.IdxRange.dstPad ei j = dstRow ei (ix1 e) := by
  unfold Cert.Proof.IdxRange.dstPad
  rw [concatenate_pair_apply_left _ _ _ concatenates_S800000_S19200_S819200_d0 j rfl (ix1 e)
    (fun b => match b with | ⟨0, _⟩ => hj.symm)]
  rfl

variable (m : (ℓ : Loc nD τ sig) → Buf (Elt Ideal) ℓ) (h : IdxOK (conts m))

/-- The source array the calls gather with, at an entry below 800000. -/
theorem conts_src_at (d : Dev nD) (e : Fin 800000) (j : S819200.Idx) (hj : (j ⟨0, by decide⟩).val = e.val) :
    ((conts m).src d : IVec S819200 32) j = srcRow (launchContents m d (Proc.devRef .tc main_arg1)) (ix1 e) := by
  rw [conts_src, Cert.Proof.IdxRange.v6_eq]
  exact srcPad_at _ e j hj

theorem conts_dst_at (d : Dev nD) (e : Fin 800000) (j : S819200.Idx) (hj : (j ⟨0, by decide⟩).val = e.val) :
    ((conts m).dst d : IVec S819200 32) j = dstRow (launchContents m d (Proc.devRef .tc main_arg1)) (ix1 e) := by
  rw [conts_dst, Cert.Proof.IdxRange.v8_eq]
  exact dstPad_at _ e j hj

set_option maxHeartbeats 1600000 in
/-- `H_out` of `layer1_match`. -/
theorem out0_chain (d : Dev nD) (e : Fin 800000) (k : Fin 64) (s t : Fin 50008)
    (hs : s.val = (srcRow (launchContents m d (Proc.devRef .tc main_arg1)) (ix1 e)).toNat)
    (ht : t.val = (dstRow (launchContents m d (Proc.devRef .tc main_arg1)) (ix1 e)).toNat) :
    asReals (S := S819200x64) (OUT0 m h d) (ix2 (⟨e.val, by omega⟩ : Fin 819200) k)
      = max (asReals (S := S50008x128) (V2 m d (Proc.devRef .tc main_v24_1)) (ix2 s (⟨k.val, by omega⟩ : Fin 128))
          + asReals (S := S50008x128) (V2 m d (Proc.devRef .tc main_v24_1)) (ix2 t (⟨64 + k.val, by omega⟩ : Fin 128))) 0 := by
  unfold OUT0
  simp only [asReals]
  rw [Cert.Proof.EdgeTile.outBuf_ideal]
  congr 1
  congr 1
  · show (V2 m d (Proc.devRef .tc main_v24_1) : S50008x128.Idx → EReal) _ = (V2 m d (Proc.devRef .tc main_v24_1) : S50008x128.Idx → EReal) _
    congr 1
    funext a
    match a with
    | ⟨0, _⟩ => exact Fin.ext ((congrArg BitVec.toNat (conts_src_at m d e _ rfl)).trans hs.symm)
    | ⟨1, _⟩ => rfl
  · show (V2 m d (Proc.devRef .tc main_v24_1) : S50008x128.Idx → EReal) _ = (V2 m d (Proc.devRef .tc main_v24_1) : S50008x128.Idx → EReal) _
    congr 1
    funext a
    match a with
    | ⟨0, _⟩ => exact Fin.ext ((congrArg BitVec.toNat (conts_dst_at m d e _ rfl)).trans ht.symm)
    | ⟨1, _⟩ => rfl

end Cert.Proof.IdealValue

end
-- ==== Proof.TableAt.lean ====
/-
  The message tables the first three regions leave, at one row below 50000: the affine map of the same row of the
  states the region leaves.
-/
import proofs.«215677_g32066225832048_cont_9to1_32_28_alg».proof.Proof.HeadMath

set_option maxRecDepth 16384

noncomputable section

open scoped BigOperators

namespace Cert.Proof.IdealMath

open Cert.KernelIdeal Cert.KernelIdeal.Gen
open Idealize.ShloMosaic Idealize.ShloMosaic.ValueIdx
open Cert.Proof.IdealLaunch
open Idealize.ShloMosaic.SparseCore.Cfg (HIx)
open Idealize.ShloMosaic.TcCoe

/-! ## The table after region 0, at a row inside the blocks -/

/-- No block of the table window is cut: 25 bands of 2000 rows lie inside the 50008-row array. -/
theorem clip0_5 : ∀ t : Fin cfg0.N, ∀ a : Fin 2, win0_5.xsize (grid0.coords t) a = S2000x128.size a :=
  (by decide +kernel : ∀ t : Fin grid0.N, ∀ a : Fin 2, win0_5.xsize (grid0.coords t) a = S2000x128.size a)

/-- The table window's block index at point `t` is `(t, 0)`. -/
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- THE TABLE AT A ROW below 50000: what the region leaves at `(n, j)` is entry `(n mod 2000, j)` of the body's table
    payload of the input blocks of point `n / 2000`. -/
theorem table0_at {F : FTy → Type} [FloatOps F] [Named F] (V : Dev nD → Valuation τ sig (Elt F)) (O : Dev nD → CellTallies nD τ sig (HIx 3))
    (Rc : Dev nD → Set (SemLoc sig × HIx 3)) (c : Dev nD) (n : Fin 50000) (j : Fin 128) :
    ((pdatsAt V O Rc 0 c).arrAt 5 cfg0.N : S50008x128.Idx → Elt F .f32)
        (ix2 (⟨n.val, by have := n.isLt; omega⟩ : Fin 50008) j)
      = k0_pay2 (Cert.KernelIdeal.Embed.iblk c (Vtc V c) 0 (ptOf0 n)) (Cert.KernelIdeal.Embed.iblk c (Vtc V c) 1 (ptOf0 n)) (Cert.KernelIdeal.Embed.iblk c (Vtc V c) 2 (ptOf0 n)) (Cert.KernelIdeal.Embed.iblk c (Vtc V c) 3 (ptOf0 n)) (ix2 (⟨n.val % 2000, Nat.mod_lt _ (by decide)⟩ : Fin 2000) j) := by
  have hn : n.val < 50000 := n.isLt
  have hx := clip0_5 (ptOf0 n)
  obtain ⟨e0, e1⟩ := idx0_5 (ptOf0 n)
  -- the block index of the row, at the block's (uncut) sizes
  have key := (pdatsAt V O Rc 0 c).arrAt_emb_eq_flushed 5 disjoint0_5 (ptOf0 n) (flush0_5 (ptOf0 n))
    (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
  have hemb : ((cfg0.win 5).blk (ptOf0 n)).view.emb (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
      = (ix2 (⟨n.val, by omega⟩ : Fin 50008) j : S50008x128.Idx) := by
    funext ax
    match ax with
    | ⟨0, _⟩ =>
      exact Fin.ext (by
        show win0_5.index (ptOf0 n) (0 : Fin 2) * 2000 + 1 * (n.val % 2000) = n.val
        rw [e0]
        show n.val / 2000 * 2000 + 1 * (n.val % 2000) = n.val
        omega)
    | ⟨1, _⟩ =>
      exact Fin.ext (by
        show win0_5.index (ptOf0 n) (1 : Fin 2) * 128 + 1 * j.val = j.val
        rw [e1]; omega)
  refine ((congrArg (((pdatsAt V O Rc 0 c).arrAt 5 cfg0.N : S50008x128.Idx → Elt F .f32)) hemb).symm.trans key).trans ?_
  refine (cast_eq _ _).trans ?_
  show (pdatsAt V O Rc 0 c).after 5 (ptOf0 n) (ix2 (⟨n.val % 2000, Nat.mod_lt _ (by decide)⟩ : Fin 2000) j) = _
  rw [show (pdatsAt V O Rc 0 c).after 5 (ptOf0 n) = _ from Cert.KernelIdeal.Embed.after_5 c (Vtc V c) _ (O c) (Rc c) (ptOf0 n)]

/-- The two weight arrays of the table are whole at every point. -/
theorem idx0_wb : ∀ t : Fin cfg0.N, win0_2.index t (0 : Fin 2) = 0 ∧ win0_2.index t (1 : Fin 2) = 0 ∧ win0_3.index t (0 : Fin 2) = 0 ∧ win0_3.index t (1 : Fin 2) = 0 :=
  (by decide +kernel : ∀ t : Fin grid0.N, win0_2.index t (0 : Fin 2) = 0 ∧ win0_2.index t (1 : Fin 2) = 0 ∧ win0_3.index t (0 : Fin 2) = 0 ∧ win0_3.index t (1 : Fin 2) = 0)

/-- THE TABLE ROW after region 0: at a row `n` below 50000 and column `j`, the table the region leaves is row `n` of the
    states it leaves times column `j` of the weights, plus the bias entry. -/
theorem table0_row (V : Dev nD → Valuation τ sig (Elt Ideal)) (O : Dev nD → CellTallies nD τ sig (HIx 3)) (Rc : Dev nD → Set (SemLoc sig × HIx 3))
    (c : Dev nD) (n : Fin 50000) (j : Fin 128) :
    asReals (S := S50008x128) (Wout0 V O Rc c (Proc.devRef .tc main_v24_1)) (ix2 (⟨n.val, by have := n.isLt; omega⟩ : Fin 50008) j)
      = (∑ k : Fin 64, asReals (S := S50000x64) (Wout0 V O Rc c (Proc.devRef .tc main_v24_0)) (ix2 n k)
            * asReals (S := S64x128) (V c (Proc.devRef .tc main_v20)) (ix2 k j))
        + asReals (S := S1x128) (V c (Proc.devRef .tc main_v23)) (ix2 (0 : Fin 1) j) := by
  obtain ⟨a2, b2, a3, b3⟩ := idx0_wb (ptOf0 n)
  have hWC : ∀ k : Fin 64, Cert.KernelIdeal.Embed.iblk c (Vtc V c) 2 (ptOf0 n) (ix2 k j) = asReals (S := S64x128) (V c (Proc.devRef .tc main_v20)) (ix2 k j) :=
    fun k => by
    show asReals (S := S64x128) (V c (Proc.devRef .tc main_v20)) (((cfg0.win 2).blk (ptOf0 n)).view.emb (ix2 k j)) = _
    congr 1
    funext ax
    match ax with
    | ⟨0, _⟩ =>
      exact Fin.ext (by
          show win0_2.index (ptOf0 n) (0 : Fin 2) * 64 + 1 * (k).val = (k).val
          rw [a2]; omega)
    | ⟨1, _⟩ =>
      exact Fin.ext (by
          show win0_2.index (ptOf0 n) (1 : Fin 2) * 128 + 1 * (j).val = (j).val
          rw [b2]; omega)
  have hBC : Cert.KernelIdeal.Embed.iblk c (Vtc V c) 3 (ptOf0 n) (ix2 (0 : Fin 1) j) = asReals (S := S1x128) (V c (Proc.devRef .tc main_v23)) (ix2 (0 : Fin 1) j) :=
    by
    show asReals (S := S1x128) (V c (Proc.devRef .tc main_v23)) (((cfg0.win 3).blk (ptOf0 n)).view.emb (ix2 (0 : Fin 1) j)) = _
    congr 1
    funext ax
    match ax with
    | ⟨0, _⟩ =>
      exact Fin.ext (by
          show win0_3.index (ptOf0 n) (0 : Fin 2) * 1 + 1 * ((0 : Fin 1)).val = ((0 : Fin 1)).val
          rw [a3]; omega)
    | ⟨1, _⟩ =>
      exact Fin.ext (by
          show win0_3.index (ptOf0 n) (1 : Fin 2) * 128 + 1 * (j).val = (j).val
          rw [b3]; omega)
  have hTab : asReals (S := S50008x128) (Wout0 V O Rc c (Proc.devRef .tc main_v24_1)) = (pdatsAt V O Rc 0 c).arrAt 5 cfg0.N :=
    Wout0_arr V O Rc c 5
  have hSt : asReals (S := S50000x64) (Wout0 V O Rc c (Proc.devRef .tc main_v24_0)) = G0_4 (F := Ideal) V c :=
    (Wout0_arr V O Rc c 4).trans (final0_4 V O Rc c)
  rw [hTab, hSt]
  refine (table0_at V O Rc c n j).trans ?_
  refine (pay2_apply _ _ _ _ (⟨n.val % 2000, Nat.mod_lt _ (by decide)⟩ : Fin 2000) j).trans ?_
  simp only [hWC, hBC]
  rfl

/-! ## The table after region 1, at a row inside the blocks -/

/-- No block of the table window is cut: 25 bands of 2000 rows lie inside the 50008-row array. -/
theorem clip2_10 : ∀ t : Fin cfg2.N, ∀ a : Fin 2, win2_10.xsize (grid2.coords t) a = S2000x128.size a :=
  (by decide +kernel : ∀ t : Fin grid2.N, ∀ a : Fin 2, win2_10.xsize (grid2.coords t) a = S2000x128.size a)

/-- The table window's block index at point `t` is `(t, 0)`. -/
theorem idx2_10 : ∀ t : Fin cfg2.N, win2_10.index t (0 : Fin 2) = t.val ∧ win2_10.index t (1 : Fin 2) = 0 :=
  (by decide +kernel : ∀ t : Fin grid2.N, win2_10.index t (0 : Fin 2) = t.val ∧ win2_10.index t (1 : Fin 2) = 0)

/-- THE TABLE AT A ROW below 50000: what the region leaves at `(n, j)` is entry `(n mod 2000, j)` of the body's table
    payload of the input blocks of point `n / 2000`. -/
theorem table2_at {F : FTy → Type} [FloatOps F] [Named F] (V : Dev nD → Valuation τ sig (Elt F)) (O : Dev nD → CellTallies nD τ sig (HIx 3))
    (Rc : Dev nD → Set (SemLoc sig × HIx 3)) (c : Dev nD) (n : Fin 50000) (j : Fin 128) :
    ((pdatsAt V O Rc 1 c).arrAt 10 cfg2.N : S50008x128.Idx → Elt F .f32)
        (ix2 (⟨n.val, by have := n.isLt; omega⟩ : Fin 50008) j)
      = Cert.KernelIdeal.Upd2.out10 (Cert.KernelIdeal.Upd2.iblk c (Vtc V c) 0 (ptOf2 n)) (Cert.KernelIdeal.Upd2.iblk c (Vtc V c) 1 (ptOf2 n)) (Cert.KernelIdeal.Upd2.iblk c (Vtc V c) 2 (ptOf2 n)) (Cert.KernelIdeal.Upd2.iblk c (Vtc V c) 3 (ptOf2 n)) (Cert.KernelIdeal.Upd2.iblk c (Vtc V c) 4 (ptOf2 n)) (Cert.KernelIdeal.Upd2.iblk c (Vtc V c) 5 (ptOf2 n)) (Cert.KernelIdeal.Upd2.iblk c (Vtc V c) 6 (ptOf2 n)) (Cert.KernelIdeal.Upd2.iblk c (Vtc V c) 7 (ptOf2 n)) (Cert.KernelIdeal.Upd2.iblk c (Vtc V c) 8 (ptOf2 n)) (ix2 (⟨n.val % 2000, Nat.mod_lt _ (by decide)⟩ : Fin 2000) j) := by
  have hn : n.val < 50000 := n.isLt
  have hx := clip2_10 (ptOf2 n)
  obtain ⟨e0, e1⟩ := idx2_10 (ptOf2 n)
  -- the block index of the row, at the block's (uncut) sizes
  have key := (pdatsAt V O Rc 1 c).arrAt_emb_eq_flushed 10 disjoint2_10 (ptOf2 n) (flush2_10 (ptOf2 n))
    (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
  have hemb : ((cfg2.win 10).blk (ptOf2 n)).view.emb (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
      = (ix2 (⟨n.val, by omega⟩ : Fin 50008) j : S50008x128.Idx) := by
    funext ax
    match ax with
    | ⟨0, _⟩ =>
      exact Fin.ext (by
        show win2_10.index (ptOf2 n) (0 : Fin 2) * 2000 + 1 * (n.val % 2000) = n.val
        rw [e0]
        show n.val / 2000 * 2000 + 1 * (n.val % 2000) = n.val
        omega)
    | ⟨1, _⟩ =>
      exact Fin.ext (by
        show win2_10.index (ptOf2 n) (1 : Fin 2) * 128 + 1 * j.val = j.val
        rw [e1]; omega)
  refine ((congrArg (((pdatsAt V O Rc 1 c).arrAt 10 cfg2.N : S50008x128.Idx → Elt F .f32)) hemb).symm.trans key).trans ?_
  refine (cast_eq _ _).trans ?_
  show (pdatsAt V O Rc 1 c).after 10 (ptOf2 n) (ix2 (⟨n.val % 2000, Nat.mod_lt _ (by decide)⟩ : Fin 2000) j) = _
  rw [show (pdatsAt V O Rc 1 c).after 10 (ptOf2 n) = _ from Cert.KernelIdeal.Upd2.after_10 c (Vtc V c) _ (O c) (Rc c) (ptOf2 n)]

/-- The two weight arrays of the table are whole at every point. -/
theorem idx2_wb : ∀ t : Fin cfg2.N, win2_7.index t (0 : Fin 2) = 0 ∧ win2_7.index t (1 : Fin 2) = 0 ∧ win2_8.index t (0 : Fin 2) = 0 ∧ win2_8.index t (1 : Fin 2) = 0 :=
  (by decide +kernel : ∀ t : Fin grid2.N, win2_7.index t (0 : Fin 2) = 0 ∧ win2_7.index t (1 : Fin 2) = 0 ∧ win2_8.index t (0 : Fin 2) = 0 ∧ win2_8.index t (1 : Fin 2) = 0)

/-- THE TABLE ROW after region 1: at a row `n` below 50000 and column `j`, the table the region leaves is row `n` of the
    states it leaves times column `j` of the weights, plus the bias entry. -/
theorem table2_row (V : Dev nD → Valuation τ sig (Elt Ideal)) (O : Dev nD → CellTallies nD τ sig (HIx 3)) (Rc : Dev nD → Set (SemLoc sig × HIx 3))
    (c : Dev nD) (n : Fin 50000) (j : Fin 128) :
    asReals (S := S50008x128) (Wout2 V O Rc c (Proc.devRef .tc main_v50_1)) (ix2 (⟨n.val, by have := n.isLt; omega⟩ : Fin 50008) j)
      = (∑ k : Fin 64, asReals (S := S50000x64) (Wout2 V O Rc c (Proc.devRef .tc main_v50_0)) (ix2 n k)
            * asReals (S := S64x128) (V c (Proc.devRef .tc main_v46)) (ix2 k j))
        + asReals (S := S1x128) (V c (Proc.devRef .tc main_v49)) (ix2 (0 : Fin 1) j) := by
  obtain ⟨a7, b7, a8, b8⟩ := idx2_wb (ptOf2 n)
  have hWC : ∀ k : Fin 64, Cert.KernelIdeal.Upd2.iblk c (Vtc V c) 7 (ptOf2 n) (ix2 k j) = asReals (S := S64x128) (V c (Proc.devRef .tc main_v46)) (ix2 k j) :=
    fun k => by
    show asReals (S := S64x128) (V c (Proc.devRef .tc main_v46)) (((cfg2.win 7).blk (ptOf2 n)).view.emb (ix2 k j)) = _
    congr 1
    funext ax
    match ax with
    | ⟨0, _⟩ =>
      exact Fin.ext (by
          show win2_7.index (ptOf2 n) (0 : Fin 2) * 64 + 1 * (k).val = (k).val
          rw [a7]; omega)
    | ⟨1, _⟩ =>
      exact Fin.ext (by
          show win2_7.index (ptOf2 n) (1 : Fin 2) * 128 + 1 * (j).val = (j).val
          rw [b7]; omega)
  have hBC : Cert.KernelIdeal.Upd2.iblk c (Vtc V c) 8 (ptOf2 n) (ix2 (0 : Fin 1) j) = asReals (S := S1x128) (V c (Proc.devRef .tc main_v49)) (ix2 (0 : Fin 1) j) :=
    by
    show asReals (S := S1x128) (V c (Proc.devRef .tc main_v49)) (((cfg2.win 8).blk (ptOf2 n)).view.emb (ix2 (0 : Fin 1) j)) = _
    congr 1
    funext ax
    match ax with
    | ⟨0, _⟩ =>
      exact Fin.ext (by
          show win2_8.index (ptOf2 n) (0 : Fin 2) * 1 + 1 * ((0 : Fin 1)).val = ((0 : Fin 1)).val
          rw [a8]; omega)
    | ⟨1, _⟩ =>
      exact Fin.ext (by
          show win2_8.index (ptOf2 n) (1 : Fin 2) * 128 + 1 * (j).val = (j).val
          rw [b8]; omega)
  have hTab : asReals (S := S50008x128) (Wout2 V O Rc c (Proc.devRef .tc main_v50_1)) = (pdatsAt V O Rc 1 c).arrAt 10 cfg2.N :=
    Wout2_arr V O Rc c 10
  have hSt : asReals (S := S50000x64) (Wout2 V O Rc c (Proc.devRef .tc main_v50_0)) = G2_9 (F := Ideal) V c :=
    (Wout2_arr V O Rc c 9).trans (final2_9 V O Rc c)
  rw [hTab, hSt]
  refine (table2_at V O Rc c n j).trans ?_
  unfold Cert.KernelIdeal.Upd2.out10
  refine (k2_pay2_apply _ _ _ _ _ _ _ _ _ (⟨n.val % 2000, Nat.mod_lt _ (by decide)⟩ : Fin 2000) j).trans ?_
  simp only [hWC, hBC]
  rfl

/-! ## The table after region 2, at a row inside the blocks -/

/-- No block of the table window is cut: 25 bands of 2000 rows lie inside the 50008-row array. -/
theorem clip4_10 : ∀ t : Fin cfg4.N, ∀ a : Fin 2, win4_10.xsize (grid4.coords t) a = S2000x128.size a :=
  (by decide +kernel : ∀ t : Fin grid4.N, ∀ a : Fin 2, win4_10.xsize (grid4.coords t) a = S2000x128.size a)

/-- The table window's block index at point `t` is `(t, 0)`. -/
theorem idx4_10 : ∀ t : Fin cfg4.N, win4_10.index t (0 : Fin 2) = t.val ∧ win4_10.index t (1 : Fin 2) = 0 :=
  (by decide +kernel : ∀ t : Fin grid4.N, win4_10.index t (0 : Fin 2) = t.val ∧ win4_10.index t (1 : Fin 2) = 0)

/-- THE TABLE AT A ROW below 50000: what the region leaves at `(n, j)` is entry `(n mod 2000, j)` of the body's table
    payload of the input blocks of point `n / 2000`. -/
theorem table4_at {F : FTy → Type} [FloatOps F] [Named F] (V : Dev nD → Valuation τ sig (Elt F)) (O : Dev nD → CellTallies nD τ sig (HIx 3))
    (Rc : Dev nD → Set (SemLoc sig × HIx 3)) (c : Dev nD) (n : Fin 50000) (j : Fin 128) :
    ((pdatsAt V O Rc 2 c).arrAt 10 cfg4.N : S50008x128.Idx → Elt F .f32)
        (ix2 (⟨n.val, by have := n.isLt; omega⟩ : Fin 50008) j)
      = Cert.KernelIdeal.Upd4.out10 (Cert.KernelIdeal.Upd4.iblk c (Vtc V c) 0 (ptOf4 n)) (Cert.KernelIdeal.Upd4.iblk c (Vtc V c) 1 (ptOf4 n)) (Cert.KernelIdeal.Upd4.iblk c (Vtc V c) 2 (ptOf4 n)) (Cert.KernelIdeal.Upd4.iblk c (Vtc V c) 3 (ptOf4 n)) (Cert.KernelIdeal.Upd4.iblk c (Vtc V c) 4 (ptOf4 n)) (Cert.KernelIdeal.Upd4.iblk c (Vtc V c) 5 (ptOf4 n)) (Cert.KernelIdeal.Upd4.iblk c (Vtc V c) 6 (ptOf4 n)) (Cert.KernelIdeal.Upd4.iblk c (Vtc V c) 7 (ptOf4 n)) (Cert.KernelIdeal.Upd4.iblk c (Vtc V c) 8 (ptOf4 n)) (ix2 (⟨n.val % 2000, Nat.mod_lt _ (by decide)⟩ : Fin 2000) j) := by
  have hn : n.val < 50000 := n.isLt
  have hx := clip4_10 (ptOf4 n)
  obtain ⟨e0, e1⟩ := idx4_10 (ptOf4 n)
  -- the block index of the row, at the block's (uncut) sizes
  have key := (pdatsAt V O Rc 2 c).arrAt_emb_eq_flushed 10 disjoint4_10 (ptOf4 n) (flush4_10 (ptOf4 n))
    (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
  have hemb : ((cfg4.win 10).blk (ptOf4 n)).view.emb (fun a => ⟨(ix2 (⟨n.val % 2000, Nat.mod_lt _ (by decide)⟩ : Fin 2000) j a).val, lt_of_lt_of_eq (ix2 (⟨n.val % 2000, Nat.mod_lt _ (by decide)⟩ : Fin 2000) j a).isLt (hx a).symm⟩)
      = (ix2 (⟨n.val, by omega⟩ : Fin 50008) j : S50008x128.Idx) := by
    funext ax
    match ax with
    | ⟨0, _⟩ =>
      exact Fin.ext (by
        show win4_10.index (ptOf4 n) (0 : Fin 2) * 2000 + 1 * (n.val % 2000) = n.val
        rw [e0]
        show n.val / 2000 * 2000 + 1 * (n.val % 2000) = n.val
        omega)
    | ⟨1, _⟩ =>
      exact Fin.ext (by
        show win4_10.index (ptOf4 n) (1 : Fin 2) * 128 + 1 * j.val = j.val
        rw [e1]; omega)
  refine ((congrArg (((pdatsAt V O Rc 2 c).arrAt 10 cfg4.N : S50008x128.Idx → Elt F .f32)) hemb).symm.trans key).trans ?_
  refine (cast_eq _ _).trans ?_
  show (pdatsAt V O Rc 2 c).after 10 (ptOf4 n) (ix2 (⟨n.val % 2000, Nat.mod_lt _ (by decide)⟩ : Fin 2000) j) = _
  rw [show (pdatsAt V O Rc 2 c).after 10 (ptOf4 n) = _ from Cert.KernelIdeal.Upd4.after_10 c (Vtc V c) _ (O c) (Rc c) (ptOf4 n)]

/-- The two weight arrays of the table are whole at every point. -/
theorem idx4_wb : ∀ t : Fin cfg4.N, win4_7.index t (0 : Fin 2) = 0 ∧ win4_7.index t (1 : Fin 2) = 0 ∧ win4_8.index t (0 : Fin 2) = 0 ∧ win4_8.index t (1 : Fin 2) = 0 :=
  (by decide +kernel : ∀ t : Fin grid4.N, win4_7.index t (0 : Fin 2) = 0 ∧ win4_7.index t (1 : Fin 2) = 0 ∧ win4_8.index t (0 : Fin 2) = 0 ∧ win4_8.index t (1 : Fin 2) = 0)

/-- THE TABLE ROW after region 2: at a row `n` below 50000 and column `j`, the table the region leaves is row `n` of the
    states it leaves times column `j` of the weights, plus the bias entry. -/
theorem table4_row (V : Dev nD → Valuation τ sig (Elt Ideal)) (O : Dev nD → CellTallies nD τ sig (HIx 3)) (Rc : Dev nD → Set (SemLoc sig × HIx 3))
    (c : Dev nD) (n : Fin 50000) (j : Fin 128) :
    asReals (S := S50008x128) (Wout4 V O Rc c (Proc.devRef .tc main_v76_1)) (ix2 (⟨n.val, by have := n.isLt; omega⟩ : Fin 50008) j)
      = (∑ k : Fin 64, asReals (S := S50000x64) (Wout4 V O Rc c (Proc.devRef .tc main_v76_0)) (ix2 n k)
            * asReals (S := S64x128) (V c (Proc.devRef .tc main_v72)) (ix2 k j))
        + asReals (S := S1x128) (V c (Proc.devRef .tc main_v75)) (ix2 (0 : Fin 1) j) := by
  obtain ⟨a7, b7, a8, b8⟩ := idx4_wb (ptOf4 n)
  have hWC : ∀ k : Fin 64, Cert.KernelIdeal.Upd4.iblk c (Vtc V c) 7 (ptOf4 n) (ix2 k j) = asReals (S := S64x128) (V c (Proc.devRef .tc main_v72)) (ix2 k j) :=
    fun k => by
    show asReals (S := S64x128) (V c (Proc.devRef .tc main_v72)) (((cfg4.win 7).blk (ptOf4 n)).view.emb (ix2 k j)) = _
    congr 1
    funext ax
    match ax with
    | ⟨0, _⟩ =>
      exact Fin.ext (by
          show win4_7.index (ptOf4 n) (0 : Fin 2) * 64 + 1 * (k).val = (k).val
          rw [a7]; omega)
    | ⟨1, _⟩ =>
      exact Fin.ext (by
          show win4_7.index (ptOf4 n) (1 : Fin 2) * 128 + 1 * (j).val = (j).val
          rw [b7]; omega)
  have hBC : Cert.KernelIdeal.Upd4.iblk c (Vtc V c) 8 (ptOf4 n) (ix2 (0 : Fin 1) j) = asReals (S := S1x128) (V c (Proc.devRef .tc main_v75)) (ix2 (0 : Fin 1) j) :=
    by
    show asReals (S := S1x128) (V c (Proc.devRef .tc main_v75)) (((cfg4.win 8).blk (ptOf4 n)).view.emb (ix2 (0 : Fin 1) j)) = _
    congr 1
    funext ax
    match ax with
    | ⟨0, _⟩ =>
      exact Fin.ext (by
          show win4_8.index (ptOf4 n) (0 : Fin 2) * 1 + 1 * ((0 : Fin 1)).val = ((0 : Fin 1)).val
          rw [a8]; omega)
    | ⟨1, _⟩ =>
      exact Fin.ext (by
          show win4_8.index (ptOf4 n) (1 : Fin 2) * 128 + 1 * (j).val = (j).val
          rw [b8]; omega)
  have hTab : asReals (S := S50008x128) (Wout4 V O Rc c (Proc.devRef .tc main_v76_1)) = (pdatsAt V O Rc 2 c).arrAt 10 cfg4.N :=
    Wout4_arr V O Rc c 10
  have hSt : asReals (S := S50000x64) (Wout4 V O Rc c (Proc.devRef .tc main_v76_0)) = G4_9 (F := Ideal) V c :=
    (Wout4_arr V O Rc c 9).trans (final4_9 V O Rc c)
  rw [hTab, hSt]
  refine (table4_at V O Rc c n j).trans ?_
  unfold Cert.KernelIdeal.Upd4.out10
  refine (k4_pay2_apply _ _ _ _ _ _ _ _ _ (⟨n.val % 2000, Nat.mod_lt _ (by decide)⟩ : Fin 2000) j).trans ?_
  simp only [hWC, hBC]
  rfl

end Cert.Proof.IdealMath

end
-- ==== Proof.TableBridge.lean ====
import proofs.«215677_g32066225832048_cont_9to1_32_28_alg».proof.Proof.KernelHost0
import proofs.«215677_g32066225832048_cont_9to1_32_28_alg».proof.Proof.KernelHostAt
import proofs.«215677_g32066225832048_cont_9to1_32_28_alg».proof.Proof.RefLayerTable

/-!
# The kernel's laid-out weights are the table's

The kernel program lays a layer's 128-by-64 first message matrix out as a 64-by-128 matrix (the top half beside the
bottom half) and its bias as 64 zeros followed by the bias. Read at an index these are `LibGnnLayer`'s `tableW` and
`tableB` over the layer's matrix and bias, so a state row against the laid-out weight plus the laid-out bias is the
row's `table` entry (`table_of_wcat`, `table_of_wcat1`, `table_of_wcat2`): what the table a region leaves has to equal.
-/

noncomputable section

open scoped BigOperators

namespace Cert.Proof.IdealValue

open Cert.KernelIdeal Idealize.ShloMosaic Idealize.ShloMosaic.ValueIdx
open Cert.Proof.KernelHost0 Cert.Proof.KernelHost1 Cert.Proof.KernelHost23
open Cert.Lib.GnnLayer
open Cert.ReferenceIdeal.RefLayer (w1Of b1Of)

variable [Cert.KernelIdeal.Facts]

/-- Layer 0's laid-out message weight is the table's weight over the layer's 128-by-64 matrix … -/
theorem wcat_eq_tableW (W : FVec Ideal S3x128x64 .f32) (k : Fin 64) (j : Fin 128) :
    wcat (F := Ideal) W (ix2 k j) = tableW (w1Of W (⟨0, by decide⟩ : Fin 3)) k j := by
  unfold tableW w1Of
  split
  · next hj =>
    rw [Cert.Proof.KernelHost0.wcat_left W k j hj]
    congr 1
  · next hj =>
    rw [Cert.Proof.KernelHost0.wcat_right W k j (by omega)]
    congr 1

/-- … and its laid-out bias the table's bias over the layer's bias. -/
theorem bcat_eq_tableB (b : FVec Ideal S3x64 .f32) (j : Fin 128) :
    bcat (F := Ideal) b (ix2 (0 : Fin 1) j) = tableB (b1Of b (⟨0, by decide⟩ : Fin 3)) j := by
  unfold tableB b1Of
  split
  · next hj =>
    rw [Cert.Proof.KernelHost0.bcat_left b j hj]
    exact Cert.Lib.GnnLaws.ofBits_zero
  · next hj =>
    exact (Cert.Proof.KernelHost0.bcat_right b j (by omega)).trans rfl

/-- So a row against the laid-out weight, plus the laid-out bias, is the row's table entry. -/
theorem table_of_wcat (hrow : Fin 64 → EReal) (W : FVec Ideal S3x128x64 .f32) (b : FVec Ideal S3x64 .f32) (j : Fin 128) :
    (∑ k : Fin 64, hrow k * wcat (F := Ideal) W (ix2 k j)) + bcat (F := Ideal) b (ix2 (0 : Fin 1) j)
      = table hrow (w1Of W (⟨0, by decide⟩ : Fin 3)) (b1Of b (⟨0, by decide⟩ : Fin 3)) j := by
  unfold table
  simp only [wcat_eq_tableW, bcat_eq_tableB]

/-- Layer 1's laid-out message weight is the table's weight over the layer's 128-by-64 matrix … -/
theorem wcat1_eq_tableW (W : FVec Ideal S3x128x64 .f32) (k : Fin 64) (j : Fin 128) :
    wcat1 (F := Ideal) W (ix2 k j) = tableW (w1Of W (⟨1, by decide⟩ : Fin 3)) k j := by
  unfold tableW w1Of
  split
  · next hj =>
    rw [Cert.Proof.KernelHostAt.wcat1_left W k j hj]
    congr 1
  · next hj =>
    rw [Cert.Proof.KernelHostAt.wcat1_right W k j (by omega)]
    congr 1

/-- … and its laid-out bias the table's bias over the layer's bias. -/
theorem bcat1_eq_tableB (b : FVec Ideal S3x64 .f32) (j : Fin 128) :
    bcat1 (F := Ideal) b (ix2 (0 : Fin 1) j) = tableB (b1Of b (⟨1, by decide⟩ : Fin 3)) j := by
  unfold tableB b1Of
  split
  · next hj =>
    rw [Cert.Proof.KernelHostAt.bcat1_left b j hj]
    exact Cert.Lib.GnnLaws.ofBits_zero
  · next hj =>
    exact (Cert.Proof.KernelHostAt.bcat1_right b j (by omega)).trans rfl

/-- So a row against the laid-out weight, plus the laid-out bias, is the row's table entry. -/
theorem table_of_wcat1 (hrow : Fin 64 → EReal) (W : FVec Ideal S3x128x64 .f32) (b : FVec Ideal S3x64 .f32) (j : Fin 128) :
    (∑ k : Fin 64, hrow k * wcat1 (F := Ideal) W (ix2 k j)) + bcat1 (F := Ideal) b (ix2 (0 : Fin 1) j)
      = table hrow (w1Of W (⟨1, by decide⟩ : Fin 3)) (b1Of b (⟨1, by decide⟩ : Fin 3)) j := by
  unfold table
  simp only [wcat1_eq_tableW, bcat1_eq_tableB]

/-- Layer 2's laid-out message weight is the table's weight over the layer's 128-by-64 matrix … -/
theorem wcat2_eq_tableW (W : FVec Ideal S3x128x64 .f32) (k : Fin 64) (j : Fin 128) :
    wcat2 (F := Ideal) W (ix2 k j) = tableW (w1Of W (⟨2, by decide⟩ : Fin 3)) k j := by
  unfold tableW w1Of
  split
  · next hj =>
    rw [Cert.Proof.KernelHostAt.wcat2_left W k j hj]
    congr 1
  · next hj =>
    rw [Cert.Proof.KernelHostAt.wcat2_right W k j (by omega)]
    congr 1

/-- … and its laid-out bias the table's bias over the layer's bias. -/
theorem bcat2_eq_tableB (b : FVec Ideal S3x64 .f32) (j : Fin 128) :
    bcat2 (F := Ideal) b (ix2 (0 : Fin 1) j) = tableB (b1Of b (⟨2, by decide⟩ : Fin 3)) j := by
  unfold tableB b1Of
  split
  · next hj =>
    rw [Cert.Proof.KernelHostAt.bcat2_left b j hj]
    exact Cert.Lib.GnnLaws.ofBits_zero
  · next hj =>
    exact (Cert.Proof.KernelHostAt.bcat2_right b j (by omega)).trans rfl

/-- So a row against the laid-out weight, plus the laid-out bias, is the row's table entry. -/
theorem table_of_wcat2 (hrow : Fin 64 → EReal) (W : FVec Ideal S3x128x64 .f32) (b : FVec Ideal S3x64 .f32) (j : Fin 128) :
    (∑ k : Fin 64, hrow k * wcat2 (F := Ideal) W (ix2 k j)) + bcat2 (F := Ideal) b (ix2 (0 : Fin 1) j)
      = table hrow (w1Of W (⟨2, by decide⟩ : Fin 3)) (b1Of b (⟨2, by decide⟩ : Fin 3)) j := by
  unfold table
  simp only [wcat2_eq_tableW, bcat2_eq_tableB]

end Cert.Proof.IdealValue

end
-- ==== Proof.Table0Chain.lean ====
import proofs.«215677_g32066225832048_cont_9to1_32_28_alg».proof.Proof.Layer1Chain
import proofs.«215677_g32066225832048_cont_9to1_32_28_alg».proof.Proof.TableAt
import proofs.«215677_g32066225832048_cont_9to1_32_28_alg».proof.Proof.TableBridge

/-!
# The first table along the chain is the per-node table

The table the first region leaves, at a row below 50000, is `LibGnnLayer`'s `table` of the same row of the states the
region leaves, over layer 0's message matrix and bias of the launch memory (`H_tab` of `layer1_match`, proved): the
region's blocks give the row as the state row against the laid-out weight plus the laid-out bias, and those are the
table's weight and bias.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem
open Cert.Lib.GnnLayer
open Cert.ReferenceIdeal.RefLayer (w1Of b1Of)

variable (m : (ℓ : Loc nD τ sig) → Buf (Elt Ideal) ℓ)

/-- `H_tab` of `layer1_match`: the first table's row `s` (`s = n` below 50000) is the table of the state row `n`. -/
theorem tab0_chain (d : Dev nD) (n : Fin 50000) (s : Fin 50008) (j : Fin 128) (hs : s.val = n.val) :
    asReals (S := S50008x128) (V2 m d (Proc.devRef .tc main_v24_1)) (ix2 s j)
      = table (fun k => asReals (S := S50000x64) (V2 m d (Proc.devRef .tc main_v24_0)) (ix2 n k))
          (w1Of (launchContents m d (Proc.devRef .tc main_arg3)) (⟨0, by decide⟩ : Fin 3))
          (b1Of (launchContents m d (Proc.devRef .tc main_arg4)) (⟨0, by decide⟩ : Fin 3)) j := by
  have hs' : s = (⟨n.val, by have := n.isLt; omega⟩ : Fin 50008) := Fin.ext hs
  rw [hs']
  have e := table0_row (fun _ => V1 m d) (OtcV (F := Ideal) 0) (RcV (F := Ideal) 0) d n j
  have e20 : V1 m d (Proc.devRef .tc main_v20) = wcat (F := Ideal) (launchContents m d (Proc.devRef .tc main_arg3)) :=
    v20_eq (F := Ideal) (launchContents m d)
  have e23 : V1 m d (Proc.devRef .tc main_v23) = bcat (F := Ideal) (launchContents m d (Proc.devRef .tc main_arg4)) :=
    v23_eq (F := Ideal) (launchContents m d)
  rw [e20, e23] at e
  rw [← table_of_wcat]
  exact e

end Cert.Proof.IdealValue

end
-- ==== Proof.Layer1Pre.lean ====
import proofs.«215677_g32066225832048_cont_9to1_32_28_alg».proof.Proof.Out0Chain
import proofs.«215677_g32066225832048_cont_9to1_32_28_alg».proof.Proof.Table0Chain

/-!
# The first layer match from the precondition

`layer1_match` with every hypothesis about the chain's arrays discharged (`out0_chain`, `tab0_chain`, `deg0_chain`,
`dst4_chain`, `srcRow_lt`, `dstRow_lt`): under the certificate's precondition the state array after the kernel
program's second region is, entry by entry, the reference's first layer of the state array the first region leaves, over
the edge list's two rows and the launch memory's weights — for real state entries and real message weights, the one
kind of hypothesis left.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem
open Cert.Lib.GnnLaws

variable [Cert.ReferenceIdeal.Facts]
variable (m : (ℓ : Loc nD τ sig) → Buf (Elt Ideal) ℓ) (h : IdxOK (conts m))

/-- THE FIRST LAYER MATCH from the precondition and reality. -/
theorem layer1_match_pre (hpre : Cert.Pre_KernelIdeal (hPre_input_domain := Cert.Pre_input_domain.Gen.facts) m) (d : Dev nD)
    (hh : ∀ i, IsReal (asReals (S := S50000x64) (V2 m d (Proc.devRef .tc main_v24_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    asReals (S := S50000x64) (V5 m h d (Proc.devRef .tc main_v50_0)) (ix2 n j)
      = Cert.ReferenceIdeal.RefRun.layer0 (F := Ideal) (V2 m d (Proc.devRef .tc main_v24_0))
          (srcRow (launchContents m d (Proc.devRef .tc main_arg1))) (dstRow (launchContents m d (Proc.devRef .tc main_arg1)))
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) :=
  layer1_match m h d _ _ (srcRow_lt m hpre d) (dstRow_lt m hpre d) (dst4_chain m d) (out0_chain m h d) (tab0_chain m d)
    (deg0_chain m hpre d) hh h3 h4 h5 h6 n j

end Cert.Proof.IdealValue

end
-- ==== Proof.Layer2Match.lean ====
import proofs.«215677_g32066225832048_cont_9to1_32_28_alg».proof.Proof.KernelHostAt
import proofs.«215677_g32066225832048_cont_9to1_32_28_alg».proof.Proof.RefLayerTable

/-!
# The second layer: the kernel's formula is the reference's layer

The kernel program's state after its third region is, at node `n` and feature `j`,
`relu((h0[n] · Ws + bs) + (agg[n] · W2 + deg[n] · b2))` with `agg` the second call's output rows added up per destination
node and `deg` the in-degree. This module shows that formula equal to the reference's second layer at `(n, j)`, over
ABSTRACT arrays, from exactly the facts about those arrays that the two programs' runs provide: the call's output row of
edge `e` is `relu(tab[src e][k] + tab[dst e][64 + k])` (`H_out`), the table's row of node `m` is the per-node table of
`LibGnnLayer` over `h0` (`H_tab`), the in-degree column counts the edges into the node (`H_deg`), the index words name
nodes, and the node features and message weights are real numbers.
-/

noncomputable section

open scoped BigOperators

namespace Cert.Proof.IdealValue

open Cert.KernelIdeal Idealize.ShloMosaic Idealize.ShloMosaic.ValueIdx
open Cert.Proof.KernelHost1 Cert.Proof.KernelHost23 Cert.Proof.KernelHostAt
open Cert.Lib.GnnLaws Cert.Lib.GnnLayer
open Cert.ReferenceIdeal.RefLayer (rowAt w1Of b1Of layer1_apply_table)

variable [Cert.KernelIdeal.Facts] [Cert.ReferenceIdeal.Facts]

/-- THE SECOND LAYER MATCH, over abstract arrays. `H0`: the state array the second region leaves; `TAB`: the second table
    (50008 rows, 128 wide); `OUT`: the second call's output (819200 rows); `src` / `dst`: the edge list's two rows;
    `deg`: the in-degree column; `a3 … a8`: the stacked weight arguments. -/
theorem layer2_formula_match
    (H0 : FVec Ideal S50000x64 .f32) (TAB : FVec Ideal S50008x128 .f32) (OUT : FVec Ideal S819200x64 .f32)
    (src dst : IVec S800000 32) (deg : FVec Ideal S50000x1 .f32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (H_out : ∀ (e : Fin 800000) (k : Fin 64) (s t : Fin 50008), s.val = (src (ix1 e)).toNat → t.val = (dst (ix1 e)).toNat →
      OUT (ix2 (⟨e.val, by omega⟩ : Fin 819200) k)
        = max (TAB (ix2 s (⟨k.val, by omega⟩ : Fin 128)) + TAB (ix2 t (⟨64 + k.val, by omega⟩ : Fin 128))) 0)
    (H_tab : ∀ (n : Fin 50000) (s : Fin 50008) (j : Fin 128), s.val = n.val →
      TAB (ix2 s j) = table (fun k => H0 (ix2 n k)) (w1Of a3 (⟨1, by decide⟩ : Fin 3)) (b1Of a4 (⟨1, by decide⟩ : Fin 3)) j)
    (H_deg : ∀ n : Fin 50000, deg (ix2 n (0 : Fin 1))
      = ∑ e : Fin 800000, if (dst (ix1 e)).toNat = n.val then (1 : EReal) else 0)
    (hh : ∀ i, IsReal (H0 i)) (h3 : ∀ i, IsReal (a3 i)) (h4 : ∀ i, IsReal (a4 i)) (h5 : ∀ i, IsReal (a5 i))
    (h6 : ∀ i, IsReal (a6 i)) (n : Fin 50000) (j : Fin 64) :
    max (((∑ k : Fin 64, H0 (ix2 n k) * mat1 (F := Ideal) a7 (ix2 k j)) + row1 (F := Ideal) a8 (ix2 (0 : Fin 1) j))
          + ((∑ k : Fin 64, aggMsg (F := Ideal) dst OUT (ix2 n k) * mat1 (F := Ideal) a5 (ix2 k j))
              + deg (ix2 n (0 : Fin 1)) * row1 (F := Ideal) a6 (ix2 (0 : Fin 1) j))) 0
      = Cert.ReferenceIdeal.RefRun.layer1 (F := Ideal) H0 src dst a3 a4 a5 a6 a7 a8 (ix2 n j) := by
  rw [layer1_apply_table H0 src dst a3 a4 a5 a6 a7 a8 hsrc hdst hh h3 h4 h5 h6 n j]
  have e7 : ∀ k : Fin 64, mat1 (F := Ideal) a7 (ix2 k j) = a7 (ix3 (⟨1, by decide⟩ : Fin 3) k j) := fun k => mat1_apply a7 k j
  have e5 : ∀ k : Fin 64, mat1 (F := Ideal) a5 (ix2 k j) = a5 (ix3 (⟨1, by decide⟩ : Fin 3) k j) := fun k => mat1_apply a5 k j
  have e8 : row1 (F := Ideal) a8 (ix2 (0 : Fin 1) j) = a8 (ix2 (⟨1, by decide⟩ : Fin 3) j) := row1_apply a8 j
  have e6 : row1 (F := Ideal) a6 (ix2 (0 : Fin 1) j) = a6 (ix2 (⟨1, by decide⟩ : Fin 3) j) := row1_apply a6 j
  have eagg : ∀ k : Fin 64, aggMsg (F := Ideal) dst OUT (ix2 n k)
      = ∑ e : Fin 800000, if (dst (ix1 e)).toNat = n.val then
          max (table (rowAt H0 src hsrc e) (w1Of a3 (⟨1, by decide⟩ : Fin 3)) (b1Of a4 (⟨1, by decide⟩ : Fin 3)) ⟨k.val, by omega⟩
            + table (rowAt H0 dst hdst e) (w1Of a3 (⟨1, by decide⟩ : Fin 3)) (b1Of a4 (⟨1, by decide⟩ : Fin 3)) ⟨64 + k.val, by omega⟩) 0
        else 0 := by
    intro k
    rw [aggMsg_apply dst OUT hdst n k]
    refine Finset.sum_congr rfl fun e _ => ?_
    split
    · rw [H_out e k ⟨(src (ix1 e)).toNat, by have := hsrc e; omega⟩ ⟨(dst (ix1 e)).toNat, by have := hdst e; omega⟩ rfl rfl,
        H_tab ⟨(src (ix1 e)).toNat, hsrc e⟩ _ _ rfl, H_tab ⟨(dst (ix1 e)).toNat, hdst e⟩ _ _ rfl]
      rfl
    · rfl
  simp only [e7, e5, e8, e6, eagg, H_deg]

end Cert.Proof.IdealValue

end
-- ==== Proof.LayerStep23.lean ====
/-
  The second layer of the kernel program as one formula. After the third TensorCore region the state array holds, at
  node n and feature j,
      max( (h1[n,·]·Ws + bs)[j] + ( (Σ over edges into n of the second call's rows)·W2 + deg[n]·b2 )[j], 0 ),
  with h1 the second region's state array, the call's rows max(tab[src e,·] + tab[dst e, 64+·], 0) over the second
  table, deg the in-degree column, and Ws, bs, W2, b2 layer 1's slices of the launch memory's stacked arguments:
  helper lemmas of the chain put each array the region reads in those terms.
-/
import proofs.«215677_g32066225832048_cont_9to1_32_28_alg».proof.Proof.LayerStep

noncomputable section

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23 Cert.Proof.IdealMath

open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-! ## What the third region reads -/

theorem V7_sw (d : Dev nD) : V7 m h d (Proc.devRef .tc main_v57) = mat1 (F := Ideal) (launchContents m d (Proc.devRef .tc main_arg7)) := by
  have e := v57_eq (F := Ideal) (V6 m h d)
  rw [show V6 m h d (main_arg7 : DevRef τ sig) = launchContents m d (Proc.devRef .tc main_arg7) from arg_at m d _ (k6 m h d) main_arg7 (by decide)] at e
  exact e

theorem V7_sb (d : Dev nD) : V7 m h d (Proc.devRef .tc main_v60) = row1 (F := Ideal) (launchContents m d (Proc.devRef .tc main_arg8)) := by
  have e := v60_eq (F := Ideal) (V6 m h d)
  rw [show V6 m h d (main_arg8 : DevRef τ sig) = launchContents m d (Proc.devRef .tc main_arg8) from arg_at m d _ (k6 m h d) main_arg8 (by decide)] at e
  exact e

theorem V7_w2 (d : Dev nD) : V7 m h d (Proc.devRef .tc main_v62) = mat1 (F := Ideal) (launchContents m d (Proc.devRef .tc main_arg5)) := by
  have e := v62_eq (F := Ideal) (V6 m h d)
  rw [show V6 m h d (main_arg5 : DevRef τ sig) = launchContents m d (Proc.devRef .tc main_arg5) from arg_at m d _ (k6 m h d) main_arg5 (by decide)] at e
  exact e

theorem V7_b2 (d : Dev nD) : V7 m h d (Proc.devRef .tc main_v65) = row1 (F := Ideal) (launchContents m d (Proc.devRef .tc main_arg6)) := by
  have e := v65_eq (F := Ideal) (V6 m h d)
  rw [show V6 m h d (main_arg6 : DevRef τ sig) = launchContents m d (Proc.devRef .tc main_arg6) from arg_at m d _ (k6 m h d) main_arg6 (by decide)] at e
  exact e

/-- The in-degree column is the first stretch's. -/
theorem V7_deg (d : Dev nD) : V7 m h d (Proc.devRef .tc main_v13) = V1 m d (Proc.devRef .tc main_v13) := f7 m h d main_v13 (by decide)

/-- The second region's state array is untouched by the second call and the third stretch. -/
theorem V7_h1 (d : Dev nD) : V7 m h d (Proc.devRef .tc main_v50_0) = V5 m h d (Proc.devRef .tc main_v50_0) :=
  ((keeps_update (L := [main_v50_0]) (o := main_v51) (V5 m h d) (OUT1 m h d) (by decide)).trans
    (keeps_after (L := [main_v50_0]) ops2_writes (by decide) (V6 m h d))) main_v50_0 (by decide)

/-! ## The state array the third region leaves -/

theorem V8_state (d : Dev nD) : V8 m h d (Proc.devRef .tc main_v76_0) = G4_9 (F := Ideal) (fun _ => V7 m h d) d :=
  (Wout4_arr (fun _ => V7 m h d) (OtcV (F := Ideal) 2) (RcV (F := Ideal) 2) d 9).trans (final4_9 _ _ _ d)

/-- The second layer's states, at node `n` and feature `j`. -/
theorem V8_state_at (d : Dev nD) (n : Fin 50000) (j : Fin 64) :
    asReals (S := S50000x64) (V8 m h d (Proc.devRef .tc main_v76_0)) (ix2 n j)
      = max (((∑ k : Fin 64, asReals (S := S50000x64) (V5 m h d (Proc.devRef .tc main_v50_0)) (ix2 n k)
                  * asReals (S := S64x64) (mat1 (F := Ideal) (launchContents m d (Proc.devRef .tc main_arg7))) (ix2 k j))
              + asReals (S := S1x64) (row1 (F := Ideal) (launchContents m d (Proc.devRef .tc main_arg8))) (ix2 (0 : Fin 1) j))
          + ((∑ k : Fin 64, asReals (S := S50000x64) (aggMsg (F := Ideal) (V1 m d (Proc.devRef .tc main_v4)) (OUT1 m h d)) (ix2 n k)
                  * asReals (S := S64x64) (mat1 (F := Ideal) (launchContents m d (Proc.devRef .tc main_arg5))) (ix2 k j))
            + asReals (S := S50000x1) (V1 m d (Proc.devRef .tc main_v13)) (ix2 n (0 : Fin 1))
                * asReals (S := S1x64) (row1 (F := Ideal) (launchContents m d (Proc.devRef .tc main_arg6))) (ix2 (0 : Fin 1) j))) 0 := by
  rw [V8_state m h d]
  have e := G4_9_apply (fun _ => V7 m h d) d n j
  rw [V7_h1 m h d, V7_sw m h d, V7_sb m h d, V7_agg m h d, V7_w2 m h d, V7_deg m h d, V7_b2 m h d] at e
  exact e

end Cert.Proof.IdealValue

end
-- ==== Proof.Layer2Chain.lean ====
import proofs.«215677_g32066225832048_cont_9to1_32_28_alg».proof.Proof.Layer2Match
import proofs.«215677_g32066225832048_cont_9to1_32_28_alg».proof.Proof.LayerStep23

/-!
# The second layer match along the kernel program's chain

`Layer2Match.layer2_formula_match` at the chain's arrays: the state array after the kernel program's third region, at
node `n` and feature `j`, is the reference's second layer of the second region's state array, from the facts about the
chain's arrays that remain to be supplied (the call's output rows, the table's rows, the in-degree column, the
destination row, reality).
-/

noncomputable section

open scoped BigOperators

namespace Cert.Proof.IdealValue

open Cert.KernelIdeal Cert.KernelIdeal.Gen Cert.KernelIdeal.HostOps Cert.Proof.IdealLaunch
open Cert.Proof.KernelHost0 Cert.Proof.KernelHost1 Cert.Proof.KernelHost23 Cert.Proof.IdealMath
open Idealize.ShloMosaic Idealize.ShloMosaic.StableHlo Idealize.ShloMosaic.TcCoe Idealize.ShloMosaic.ValueIdx
open Idealize.SL.Sem
open Cert.Lib.GnnLaws Cert.Lib.GnnLayer
open Cert.ReferenceIdeal.RefLayer (w1Of b1Of)

variable [Cert.ReferenceIdeal.Facts]
variable (m : (ℓ : Loc nD τ sig) → Buf (Elt Ideal) ℓ) (h : IdxOK (conts m))

/-- The second layer match along the chain. -/
theorem layer2_match (d : Dev nD) (src dst : IVec S800000 32)
    (hsrc : ∀ e : Fin 800000, (src (ix1 e)).toNat < 50000) (hdst : ∀ e : Fin 800000, (dst (ix1 e)).toNat < 50000)
    (hdst4 : (V1 m d (Proc.devRef .tc main_v4) : IVec S800000 32) = dst)
    (H_out : ∀ (e : Fin 800000) (k : Fin 64) (s t : Fin 50008), s.val = (src (ix1 e)).toNat → t.val = (dst (ix1 e)).toNat →
      asReals (S := S819200x64) (OUT1 m h d) (ix2 (⟨e.val, by omega⟩ : Fin 819200) k)
        = max (asReals (S := S50008x128) (V5 m h d (Proc.devRef .tc main_v50_1)) (ix2 s (⟨k.val, by omega⟩ : Fin 128))
            + asReals (S := S50008x128) (V5 m h d (Proc.devRef .tc main_v50_1)) (ix2 t (⟨64 + k.val, by omega⟩ : Fin 128))) 0)
    (H_tab : ∀ (n : Fin 50000) (s : Fin 50008) (j : Fin 128), s.val = n.val →
      asReals (S := S50008x128) (V5 m h d (Proc.devRef .tc main_v50_1)) (ix2 s j)
        = table (fun k => asReals (S := S50000x64) (V5 m h d (Proc.devRef .tc main_v50_0)) (ix2 n k))
            (w1Of (launchContents m d (Proc.devRef .tc main_arg3)) (⟨1, by decide⟩ : Fin 3))
            (b1Of (launchContents m d (Proc.devRef .tc main_arg4)) (⟨1, by decide⟩ : Fin 3)) j)
    (H_deg : ∀ n : Fin 50000, asReals (S := S50000x1) (V1 m d (Proc.devRef .tc main_v13)) (ix2 n (0 : Fin 1))
      = ∑ e : Fin 800000, if (dst (ix1 e)).toNat = n.val then (1 : EReal) else 0)
    (hh : ∀ i, IsReal (asReals (S := S50000x64) (V5 m h d (Proc.devRef .tc main_v50_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    asReals (S := S50000x64) (V8 m h d (Proc.devRef .tc main_v76_0)) (ix2 n j)
      = Cert.ReferenceIdeal.RefRun.layer1 (F := Ideal) (V5 m h d (Proc.devRef .tc main_v50_0)) src dst
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) := by
  rw [V8_state_at m h d n j]
  simp only [asReals]
  rw [hdst4]
  exact layer2_formula_match _ _ _ src dst _ _ _ _ _ _ _ hsrc hdst H_out H_tab H_deg hh h3 h4 h5 h6 n j

end Cert.Proof.IdealValue

end
-- ==== Proof.EdgeValueIdeal3.lean ====
/-
  The edge kernel's output over the extended reals. At the ideal floats an `f32` is an extended real, addition and
  maximum are the extended reals' own and the word `0x00000000` is zero, so element `(e, j)` of the kernel's output is
  `max (tab (src2 e, j) + tab (dst2 e, 64 + j)) 0`, the two index words read as row numbers of the table; it is a real
  number whenever the table's entries are.
-/
import proofs.«215677_g32066225832048_cont_9to1_32_28_alg».proof.Proof.EdgeTile3B
import proofs.«215677_g32066225832048_cont_9to1_32_28_alg».proof.Proof.LibGnnLaws

noncomputable section

namespace Cert.Proof.EdgeTile3

open Cert.KernelIdeal Cert.KernelIdeal.Gen
open Idealize.ShloMosaic
open Cert.Lib.GnnLaws

/-- The clamped sum over the extended reals. -/
theorem relu2_ideal (a b : Ideal .f32) : relu2 (F := Ideal) a b = max (a + b) 0 := by
  unfold relu2
  show max (a + b) (Ideal.ofBits .f32 0x00000000#32) = max (a + b) 0
  rw [ofBits_zero]

/-- Element `x = (e, j)` of the kernel's output over the extended reals. -/
theorem outVal_ideal (TABr : S50008x128.Idx → Ideal .f32) (SRCr DSTr : S819200.Idx → Elt Ideal .i32)
    (hs : ∀ j, (SRCr j).toNat < 50008) (hd : ∀ j, (DSTr j).toNat < 50008) (x : S819200x64.Idx) :
    outVal (F := Ideal) TABr SRCr DSTr hs hd x
      = max (TABr (ixT (SRCr (ix1 (x 0).val (x 0).isLt)).toNat (hs _) (x 1).val (Nat.lt_of_lt_of_le (x 1).isLt (by decide)))
          + TABr (ixT (DSTr (ix1 (x 0).val (x 0).isLt)).toNat (hd _) (64 + (x 1).val) (by have h : (x 1).val < 64 := (x 1).isLt; omega))) 0 := by
  unfold outVal
  rw [relu2_ideal]

/-- It is a real number when the table's entries are. -/
theorem outVal_isReal (TABr : S50008x128.Idx → Ideal .f32) (SRCr DSTr : S819200.Idx → Elt Ideal .i32)
    (hs : ∀ j, (SRCr j).toNat < 50008) (hd : ∀ j, (DSTr j).toNat < 50008) (hT : ∀ i, IsReal (TABr i)) (x : S819200x64.Idx) :
    IsReal (outVal (F := Ideal) TABr SRCr DSTr hs hd x) := by
  rw [outVal_ideal]
  exact ((hT _).add (hT _)).relu

/-- The table's entry at an index, as an extended real. -/
abbrev tabAt (d : Dev nD) (TAB : Buf (Elt Ideal) ((SparseCore.T (τ := τ) d).loc main_v50_1)) (i : S50008x128.Idx) : Ideal .f32 := TAB i

/-- The same for the output array as the tiles leave it: at `(e, j)`, from the table's and the two index arrays' contents. -/
theorem outBuf_ideal (d : Dev nD) (TAB : Buf (Elt Ideal) ((SparseCore.T (τ := τ) d).loc main_v50_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (x : S819200x64.Idx) :
    @Eq (Ideal .f32) (outBuf (F := Ideal) d TAB SRC DST hsrc hdst x)
      (max (tabAt d TAB (ixT (SRC (ix1 (x 0).val (x 0).isLt)).toNat (hsrc _) (x 1).val (Nat.lt_of_lt_of_le (x 1).isLt (by decide)))
          + tabAt d TAB (ixT (DST (ix1 (x 0).val (x 0).isLt)).toNat (hdst _) (64 + (x 1).val) (by have h : (x 1).val < 64 := (x 1).isLt; omega))) 0) :=
  outVal_ideal _ _ _ _ _ x

theorem outBuf_isReal (d : Dev nD) (TAB : Buf (Elt Ideal) ((SparseCore.T (τ := τ) d).loc main_v50_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (hT : ∀ i : S50008x128.Idx, IsReal (tabAt d TAB i)) (x : S819200x64.Idx) :
    IsReal (outBuf (F := Ideal) d TAB SRC DST hsrc hdst x : Ideal .f32) :=
  outVal_isReal _ _ _ _ _ (fun i => hT i) x

end Cert.Proof.EdgeTile3

end
-- ==== Proof.Out1Chain.lean ====
import proofs.«215677_g32066225832048_cont_9to1_32_28_alg».proof.Proof.Layer2Chain
import proofs.«215677_g32066225832048_cont_9to1_32_28_alg».proof.Proof.Out0Chain
import proofs.«215677_g32066225832048_cont_9to1_32_28_alg».proof.Proof.EdgeValueIdeal3

/-!
# The second call's output rows along the chain

The second SparseCore call's output, at edge `e` (a row below 800000) and column `k`, is
`relu(tab[src e][k] + tab[dst e][64 + k])` with `tab` the second table and `src e`, `dst e` the edge list's words
(`H_out` of `layer2_match`, proved): the call gathers with the same padded index arrays as the first.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

set_option maxHeartbeats 1600000 in
/-- `H_out` of `layer2_match`. -/
theorem out1_chain (d : Dev nD) (e : Fin 800000) (k : Fin 64) (s t : Fin 50008)
    (hs : s.val = (srcRow (launchContents m d (Proc.devRef .tc main_arg1)) (ix1 e)).toNat)
    (ht : t.val = (dstRow (launchContents m d (Proc.devRef .tc main_arg1)) (ix1 e)).toNat) :
    asReals (S := S819200x64) (OUT1 m h d) (ix2 (⟨e.val, by omega⟩ : Fin 819200) k)
      = max (asReals (S := S50008x128) (V5 m h d (Proc.devRef .tc main_v50_1)) (ix2 s (⟨k.val, by omega⟩ : Fin 128))
          + asReals (S := S50008x128) (V5 m h d (Proc.devRef .tc main_v50_1)) (ix2 t (⟨64 + k.val, by omega⟩ : Fin 128))) 0 := by
  unfold OUT1
  simp only [asReals]
  rw [Cert.Proof.EdgeTile3.outBuf_ideal]
  congr 1
  congr 1
  · show (V5 m h d (Proc.devRef .tc main_v50_1) : S50008x128.Idx → EReal) _ = (V5 m h d (Proc.devRef .tc main_v50_1) : S50008x128.Idx → EReal) _
    congr 1
    funext a
    match a with
    | ⟨0, _⟩ => exact Fin.ext ((congrArg BitVec.toNat (conts_src_at m d e _ rfl)).trans hs.symm)
    | ⟨1, _⟩ => rfl
  · show (V5 m h d (Proc.devRef .tc main_v50_1) : S50008x128.Idx → EReal) _ = (V5 m h d (Proc.devRef .tc main_v50_1) : S50008x128.Idx → EReal) _
    congr 1
    funext a
    match a with
    | ⟨0, _⟩ => exact Fin.ext ((congrArg BitVec.toNat (conts_dst_at m d e _ rfl)).trans ht.symm)
    | ⟨1, _⟩ => rfl

end Cert.Proof.IdealValue

end
-- ==== Proof.Table2Chain.lean ====
import proofs.«215677_g32066225832048_cont_9to1_32_28_alg».proof.Proof.Layer2Chain
import proofs.«215677_g32066225832048_cont_9to1_32_28_alg».proof.Proof.TableAt
import proofs.«215677_g32066225832048_cont_9to1_32_28_alg».proof.Proof.TableBridge

/-!
# The second table along the chain is the per-node table

The table the second region leaves, at a row below 50000, is `LibGnnLayer`'s `table` of the same row of the states that
region leaves, over layer 1's message matrix and bias of the launch memory (`H_tab` of `layer2_match`, proved): the
region's blocks give the row as the state row against the laid-out weight plus the laid-out bias, which the second
host stretch built from the launch memory's stacked arguments.
-/

noncomputable section

open scoped BigOperators

namespace Cert.Proof.IdealValue

open Cert.KernelIdeal Cert.KernelIdeal.Gen Cert.KernelIdeal.HostOps Cert.Proof.IdealLaunch
open Cert.Proof.KernelHost0 Cert.Proof.KernelHost1 Cert.Proof.IdealMath
open Idealize.ShloMosaic Idealize.ShloMosaic.StableHlo Idealize.ShloMosaic.TcCoe Idealize.ShloMosaic.ValueIdx
open Idealize.SL.Sem
open Cert.Lib.GnnLayer
open Cert.ReferenceIdeal.RefLayer (w1Of b1Of)

variable (m : (ℓ : Loc nD τ sig) → Buf (Elt Ideal) ℓ) (h : IdxOK (conts m))

/-- The second host stretch leaves layer 1's laid-out message bias at `main_v49`. -/
theorem V4_bc (d : Dev nD) :
    V4 m h d (Proc.devRef .tc main_v49) = bcat1 (F := Ideal) (launchContents m d (Proc.devRef .tc main_arg4)) := by
  have e := v49_eq (F := Ideal) (V3 m h d)
  rw [show V3 m h d (main_arg4 : DevRef τ sig) = launchContents m d (Proc.devRef .tc main_arg4) from
    arg_at m d _ (k3 m h d) main_arg4 (by decide)] at e
  exact e

/-- `H_tab` of `layer2_match`: the second table's row `s` (`s = n` below 50000) is the table of the state row `n`. -/
theorem tab2_chain (d : Dev nD) (n : Fin 50000) (s : Fin 50008) (j : Fin 128) (hs : s.val = n.val) :
    asReals (S := S50008x128) (V5 m h d (Proc.devRef .tc main_v50_1)) (ix2 s j)
      = table (fun k => asReals (S := S50000x64) (V5 m h d (Proc.devRef .tc main_v50_0)) (ix2 n k))
          (w1Of (launchContents m d (Proc.devRef .tc main_arg3)) (⟨1, by decide⟩ : Fin 3))
          (b1Of (launchContents m d (Proc.devRef .tc main_arg4)) (⟨1, by decide⟩ : Fin 3)) j := by
  have hs' : s = (⟨n.val, by have := n.isLt; omega⟩ : Fin 50008) := Fin.ext hs
  rw [hs']
  have e := table2_row (fun _ => V4 m h d) (OtcV (F := Ideal) 1) (RcV (F := Ideal) 1) d n j
  rw [V4_wc m h d, V4_bc m h d] at e
  rw [← table_of_wcat1]
  exact e

end Cert.Proof.IdealValue

end
-- ==== Proof.Layer2Pre.lean ====
import proofs.«215677_g32066225832048_cont_9to1_32_28_alg».proof.Proof.Out1Chain
import proofs.«215677_g32066225832048_cont_9to1_32_28_alg».proof.Proof.Table2Chain

/-!
# The second layer match from the precondition

`layer2_match` with every hypothesis about the chain's arrays discharged (`out1_chain`, `tab2_chain`, `deg0_chain`,
`dst4_chain`, `srcRow_lt`, `dstRow_lt`): under the certificate's precondition the state array after the kernel
program's third region is, entry by entry, the reference's second layer of the state array the second region leaves,
over the edge list's two rows and the launch memory's weights — for real state entries and real message weights, the
one kind of hypothesis left.
-/

noncomputable section

open scoped BigOperators

namespace Cert.Proof.IdealValue

open Cert.KernelIdeal Cert.KernelIdeal.Gen Cert.KernelIdeal.HostOps Cert.Proof.IdealLaunch
open Cert.Proof.KernelHost0 Cert.Proof.IdealMath
open Idealize.ShloMosaic Idealize.ShloMosaic.StableHlo Idealize.ShloMosaic.TcCoe Idealize.ShloMosaic.ValueIdx
open Idealize.SL.Sem
open Cert.Lib.GnnLaws

variable [Cert.ReferenceIdeal.Facts]
variable (m : (ℓ : Loc nD τ sig) → Buf (Elt Ideal) ℓ) (h : IdxOK (conts m))

/-- THE SECOND LAYER MATCH from the precondition and reality. -/
theorem layer2_match_pre (hpre : Cert.Pre_KernelIdeal (hPre_input_domain := Cert.Pre_input_domain.Gen.facts) m) (d : Dev nD)
    (hh : ∀ i, IsReal (asReals (S := S50000x64) (V5 m h d (Proc.devRef .tc main_v50_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    asReals (S := S50000x64) (V8 m h d (Proc.devRef .tc main_v76_0)) (ix2 n j)
      = Cert.ReferenceIdeal.RefRun.layer1 (F := Ideal) (V5 m h d (Proc.devRef .tc main_v50_0))
          (srcRow (launchContents m d (Proc.devRef .tc main_arg1))) (dstRow (launchContents m d (Proc.devRef .tc main_arg1)))
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) :=
  layer2_match m h d _ _ (srcRow_lt m hpre d) (dstRow_lt m hpre d) (dst4_chain m d) (out1_chain m h d) (tab2_chain m h d)
    (deg0_chain m hpre d) hh h3 h4 h5 h6 n j

end Cert.Proof.IdealValue

end
-- ==== Proof.LayerStepHead.lean ====
/-
  The third layer of the kernel program as one formula. The last TensorCore region computes, block by block, the new
  state of every node before summing the columns; that array of new states holds, at node n and feature j,
      max( (h2[n,·]·Ws + bs)[j] + ( (Σ over edges into n of the third call's rows)·W2 + deg[n]·b2 )[j], 0 ),
  with h2 the third region's state array, deg the in-degree column, and Ws, bs, W2, b2 layer 2's slices of the launch
  memory's stacked arguments. First the array is read back from the region's input blocks to the arrays the region
  found, then each of those arrays is put in terms of the chain.
-/
import proofs.«215677_g32066225832048_cont_9to1_32_28_alg».proof.Proof.LayerStep23
import proofs.«215677_g32066225832048_cont_9to1_32_28_alg».proof.Proof.HeadMath

noncomputable section

open scoped BigOperators

namespace Cert.Proof.IdealMath

open Cert.KernelIdeal Cert.KernelIdeal.Gen
open Idealize.ShloMosaic Idealize.ShloMosaic.ValueIdx
open Cert.Proof.IdealLaunch
open Idealize.ShloMosaic.SparseCore.Cfg (HIx)
open Idealize.ShloMosaic.TcCoe

open Idealize.ShloMosaic.TcCoe

/-- The input windows' block indices: the three node arrays move in bands of 2000 rows, the four small arrays are whole. -/
theorem idx6_in : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0)

/-- THE LAST REGION'S NEW STATES, at node `n` and feature `j`, over the arrays as the region found them:
    `max(h · sw + sb + (p · w2 + deg · b2), 0)`. -/
theorem stateAll_apply (V : Dev nD → Valuation τ sig (Elt Ideal)) (c : Dev nD) (n : Fin 50000) (j : Fin 64) :
    stateAll V c (ix2 n j)
      = max (((∑ k : Fin 64, asReals (S := S50000x64) (V c (Proc.devRef .tc main_v76_0)) (ix2 n k) * asReals (S := S64x64) (V c (Proc.devRef .tc main_v83)) (ix2 k j)) + asReals (S := S1x64) (V c (Proc.devRef .tc main_v86)) (ix2 (0 : Fin 1) j))
          + ((∑ k : Fin 64, asReals (S := S50000x64) (V c (Proc.devRef .tc main_v81)) (ix2 n k) * asReals (S := S64x64) (V c (Proc.devRef .tc main_v88)) (ix2 k j))
            + asReals (S := S50000x1) (V c (Proc.devRef .tc main_v13)) (ix2 n (0 : Fin 1)) * asReals (S := S1x64) (V c (Proc.devRef .tc main_v91)) (ix2 (0 : Fin 1) j))) 0 := by
  have hn : n.val < 50000 := n.isLt
  obtain ⟨a0, b0, a1, b1, a2, b2, a3, b3, a4, b4, a5, b5, a6, b6⟩ := idx6_in (ptOf6 n)
  have hH : ∀ k : Fin 64, (Cert.KernelIdeal.Head.iblk c (Vtc V c) 0 (ptOf6 n)) (ix2 (⟨n.val % 2000, Nat.mod_lt _ (by decide)⟩ : Fin 2000) k) = asReals (S := S50000x64) (V c (Proc.devRef .tc main_v76_0)) (ix2 n k) := fun k => by
    show asReals (S := S50000x64) (V c (Proc.devRef .tc main_v76_0)) (((cfg6.win 0).blk (ptOf6 n)).view.emb (ix2 (⟨n.val % 2000, Nat.mod_lt _ (by decide)⟩ : Fin 2000) k)) = _
    congr 1
    funext ax
    match ax with
    | ⟨0, _⟩ =>
      exact Fin.ext (by
          show win6_0.index (ptOf6 n) (0 : Fin 2) * 2000 + 1 * (n.val % 2000) = n.val
          rw [a0]
          show n.val / 2000 * 2000 + 1 * (n.val % 2000) = n.val
          omega)
    | ⟨1, _⟩ =>
      exact Fin.ext (by
          show win6_0.index (ptOf6 n) (1 : Fin 2) * 64 + 1 * (k).val = (k).val
          rw [b0]; omega)
  have hP : ∀ k : Fin 64, (Cert.KernelIdeal.Head.iblk c (Vtc V c) 1 (ptOf6 n)) (ix2 (⟨n.val % 2000, Nat.mod_lt _ (by decide)⟩ : Fin 2000) k) = asReals (S := S50000x64) (V c (Proc.devRef .tc main_v81)) (ix2 n k) := fun k => by
    show asReals (S := S50000x64) (V c (Proc.devRef .tc main_v81)) (((cfg6.win 1).blk (ptOf6 n)).view.emb (ix2 (⟨n.val % 2000, Nat.mod_lt _ (by decide)⟩ : Fin 2000) k)) = _
    congr 1
    funext ax
    match ax with
    | ⟨0, _⟩ =>
      exact Fin.ext (by
          show win6_1.index (ptOf6 n) (0 : Fin 2) * 2000 + 1 * (n.val % 2000) = n.val
          rw [a1]
          show n.val / 2000 * 2000 + 1 * (n.val % 2000) = n.val
          omega)
    | ⟨1, _⟩ =>
      exact Fin.ext (by
          show win6_1.index (ptOf6 n) (1 : Fin 2) * 64 + 1 * (k).val = (k).val
          rw [b1]; omega)
  have hD : (Cert.KernelIdeal.Head.iblk c (Vtc V c) 2 (ptOf6 n)) (ix2 (⟨n.val % 2000, Nat.mod_lt _ (by decide)⟩ : Fin 2000) (0 : Fin 1)) = asReals (S := S50000x1) (V c (Proc.devRef .tc main_v13)) (ix2 n (0 : Fin 1)) := by
    show asReals (S := S50000x1) (V c (Proc.devRef .tc main_v13)) (((cfg6.win 2).blk (ptOf6 n)).view.emb (ix2 (⟨n.val % 2000, Nat.mod_lt _ (by decide)⟩ : Fin 2000) (0 : Fin 1))) = _
    congr 1
    funext ax
    match ax with
    | ⟨0, _⟩ =>
      exact Fin.ext (by
          show win6_2.index (ptOf6 n) (0 : Fin 2) * 2000 + 1 * (n.val % 2000) = n.val
          rw [a2]
          show n.val / 2000 * 2000 + 1 * (n.val % 2000) = n.val
          omega)
    | ⟨1, _⟩ =>
      exact Fin.ext (by
          show win6_2.index (ptOf6 n) (1 : Fin 2) * 1 + 1 * ((0 : Fin 1)).val = ((0 : Fin 1)).val
          rw [b2]; omega)
  have hSW : ∀ k : Fin 64, (Cert.KernelIdeal.Head.iblk c (Vtc V c) 3 (ptOf6 n)) (ix2 k j) = asReals (S := S64x64) (V c (Proc.devRef .tc main_v83)) (ix2 k j) := fun k => by
    show asReals (S := S64x64) (V c (Proc.devRef .tc main_v83)) (((cfg6.win 3).blk (ptOf6 n)).view.emb (ix2 k j)) = _
    congr 1
    funext ax
    match ax with
    | ⟨0, _⟩ =>
      exact Fin.ext (by
          show win6_3.index (ptOf6 n) (0 : Fin 2) * 64 + 1 * (k).val = (k).val
          rw [a3]; omega)
    | ⟨1, _⟩ =>
      exact Fin.ext (by
          show win6_3.index (ptOf6 n) (1 : Fin 2) * 64 + 1 * (j).val = (j).val
          rw [b3]; omega)
  have hSB : (Cert.KernelIdeal.Head.iblk c (Vtc V c) 4 (ptOf6 n)) (ix2 (0 : Fin 1) j) = asReals (S := S1x64) (V c (Proc.devRef .tc main_v86)) (ix2 (0 : Fin 1) j) := by
    show asReals (S := S1x64) (V c (Proc.devRef .tc main_v86)) (((cfg6.win 4).blk (ptOf6 n)).view.emb (ix2 (0 : Fin 1) j)) = _
    congr 1
    funext ax
    match ax with
    | ⟨0, _⟩ =>
      exact Fin.ext (by
          show win6_4.index (ptOf6 n) (0 : Fin 2) * 1 + 1 * ((0 : Fin 1)).val = ((0 : Fin 1)).val
          rw [a4]; omega)
    | ⟨1, _⟩ =>
      exact Fin.ext (by
          show win6_4.index (ptOf6 n) (1 : Fin 2) * 64 + 1 * (j).val = (j).val
          rw [b4]; omega)
  have hW2 : ∀ k : Fin 64, (Cert.KernelIdeal.Head.iblk c (Vtc V c) 5 (ptOf6 n)) (ix2 k j) = asReals (S := S64x64) (V c (Proc.devRef .tc main_v88)) (ix2 k j) := fun k => by
    show asReals (S := S64x64) (V c (Proc.devRef .tc main_v88)) (((cfg6.win 5).blk (ptOf6 n)).view.emb (ix2 k j)) = _
    congr 1
    funext ax
    match ax with
    | ⟨0, _⟩ =>
      exact Fin.ext (by
          show win6_5.index (ptOf6 n) (0 : Fin 2) * 64 + 1 * (k).val = (k).val
          rw [a5]; omega)
    | ⟨1, _⟩ =>
      exact Fin.ext (by
          show win6_5.index (ptOf6 n) (1 : Fin 2) * 64 + 1 * (j).val = (j).val
          rw [b5]; omega)
  have hB2 : (Cert.KernelIdeal.Head.iblk c (Vtc V c) 6 (ptOf6 n)) (ix2 (0 : Fin 1) j) = asReals (S := S1x64) (V c (Proc.devRef .tc main_v91)) (ix2 (0 : Fin 1) j) := by
    show asReals (S := S1x64) (V c (Proc.devRef .tc main_v91)) (((cfg6.win 6).blk (ptOf6 n)).view.emb (ix2 (0 : Fin 1) j)) = _
    congr 1
    funext ax
    match ax with
    | ⟨0, _⟩ =>
      exact Fin.ext (by
          show win6_6.index (ptOf6 n) (0 : Fin 2) * 1 + 1 * ((0 : Fin 1)).val = ((0 : Fin 1)).val
          rw [a6]; omega)
    | ⟨1, _⟩ =>
      exact Fin.ext (by
          show win6_6.index (ptOf6 n) (1 : Fin 2) * 64 + 1 * (j).val = (j).val
          rw [b6]; omega)
  unfold stateAll blockState
  refine (k2_pay1_apply (Cert.KernelIdeal.Head.iblk c (Vtc V c) 1 (ptOf6 n)) (Cert.KernelIdeal.Head.iblk c (Vtc V c) 5 (ptOf6 n)) (Cert.KernelIdeal.Head.iblk c (Vtc V c) 2 (ptOf6 n)) (Cert.KernelIdeal.Head.iblk c (Vtc V c) 6 (ptOf6 n)) (Cert.KernelIdeal.Head.iblk c (Vtc V c) 0 (ptOf6 n)) (Cert.KernelIdeal.Head.iblk c (Vtc V c) 3 (ptOf6 n)) (Cert.KernelIdeal.Head.iblk c (Vtc V c) 4 (ptOf6 n)) (⟨n.val % 2000, Nat.mod_lt _ (by decide)⟩ : Fin 2000) j).trans ?_
  simp only [hH, hP, hD, hSW, hSB, hW2, hB2]

end Cert.Proof.IdealMath

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23 Cert.Proof.IdealMath

open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-! ## What the last region reads -/

theorem V10_sw (d : Dev nD) : V10 m h d (Proc.devRef .tc main_v83) = mat2 (F := Ideal) (launchContents m d (Proc.devRef .tc main_arg7)) := by
  have e := v83_eq (F := Ideal) (V9 m h d)
  rw [show V9 m h d (main_arg7 : DevRef τ sig) = launchContents m d (Proc.devRef .tc main_arg7) from arg_at m d _ (k9 m h d) main_arg7 (by decide)] at e
  exact e

theorem V10_sb (d : Dev nD) : V10 m h d (Proc.devRef .tc main_v86) = row2 (F := Ideal) (launchContents m d (Proc.devRef .tc main_arg8)) := by
  have e := v86_eq (F := Ideal) (V9 m h d)
  rw [show V9 m h d (main_arg8 : DevRef τ sig) = launchContents m d (Proc.devRef .tc main_arg8) from arg_at m d _ (k9 m h d) main_arg8 (by decide)] at e
  exact e

theorem V10_w2 (d : Dev nD) : V10 m h d (Proc.devRef .tc main_v88) = mat2 (F := Ideal) (launchContents m d (Proc.devRef .tc main_arg5)) := by
  have e := v88_eq (F := Ideal) (V9 m h d)
  rw [show V9 m h d (main_arg5 : DevRef τ sig) = launchContents m d (Proc.devRef .tc main_arg5) from arg_at m d _ (k9 m h d) main_arg5 (by decide)] at e
  exact e

theorem V10_b2 (d : Dev nD) : V10 m h d (Proc.devRef .tc main_v91) = row2 (F := Ideal) (launchContents m d (Proc.devRef .tc main_arg6)) := by
  have e := v91_eq (F := Ideal) (V9 m h d)
  rw [show V9 m h d (main_arg6 : DevRef τ sig) = launchContents m d (Proc.devRef .tc main_arg6) from arg_at m d _ (k9 m h d) main_arg6 (by decide)] at e
  exact e

/-- The in-degree column is the first stretch's. -/
theorem V10_deg (d : Dev nD) : V10 m h d (Proc.devRef .tc main_v13) = V1 m d (Proc.devRef .tc main_v13) := f10 m h d main_v13 (by decide)

/-- The third region's state array is untouched by the third call and the fourth stretch. -/
theorem V10_h2 (d : Dev nD) : V10 m h d (Proc.devRef .tc main_v76_0) = V8 m h d (Proc.devRef .tc main_v76_0) :=
  ((keeps_update (L := [main_v76_0]) (o := main_v77) (V8 m h d) (OUT2 m h d) (by decide)).trans
    (keeps_after (L := [main_v76_0]) ops3_writes (by decide) (V9 m h d))) main_v76_0 (by decide)

/-- The third layer's states, at node `n` and feature `j`. -/
theorem head_state_at (d : Dev nD) (n : Fin 50000) (j : Fin 64) :
    stateAll (fun _ => V10 m h d) d (ix2 n j)
      = max (((∑ k : Fin 64, asReals (S := S50000x64) (V8 m h d (Proc.devRef .tc main_v76_0)) (ix2 n k)
                  * asReals (S := S64x64) (mat2 (F := Ideal) (launchContents m d (Proc.devRef .tc main_arg7))) (ix2 k j))
              + asReals (S := S1x64) (row2 (F := Ideal) (launchContents m d (Proc.devRef .tc main_arg8))) (ix2 (0 : Fin 1) j))
          + ((∑ k : Fin 64, asReals (S := S50000x64) (aggMsg (F := Ideal) (V1 m d (Proc.devRef .tc main_v4)) (OUT2 m h d)) (ix2 n k)
                  * asReals (S := S64x64) (mat2 (F := Ideal) (launchContents m d (Proc.devRef .tc main_arg5))) (ix2 k j))
            + asReals (S := S50000x1) (V1 m d (Proc.devRef .tc main_v13)) (ix2 n (0 : Fin 1))
                * asReals (S := S1x64) (row2 (F := Ideal) (launchContents m d (Proc.devRef .tc main_arg6))) (ix2 (0 : Fin 1) j))) 0 := by
  have e := stateAll_apply (fun _ => V10 m h d) d n j
  rw [V10_h2 m h d, V10_sw m h d, V10_sb m h d, V10_agg m h d, V10_w2 m h d, V10_deg m h d, V10_b2 m h d] at e
  exact e

end Cert.Proof.IdealValue

end
-- ==== Proof.EdgeValueIdeal5.lean ====
/-
  The edge kernel's output over the extended reals. At the ideal floats an `f32` is an extended real, addition and
  maximum are the extended reals' own and the word `0x00000000` is zero, so element `(e, j)` of the kernel's output is
  `max (tab (src2 e, j) + tab (dst2 e, 64 + j)) 0`, the two index words read as row numbers of the table; it is a real
  number whenever the table's entries are.
-/
import proofs.«215677_g32066225832048_cont_9to1_32_28_alg».proof.Proof.EdgeTile5B
import proofs.«215677_g32066225832048_cont_9to1_32_28_alg».proof.Proof.LibGnnLaws

noncomputable section

namespace Cert.Proof.EdgeTile5

open Cert.KernelIdeal Cert.KernelIdeal.Gen
open Idealize.ShloMosaic
open Cert.Lib.GnnLaws

/-- The clamped sum over the extended reals. -/
theorem relu2_ideal (a b : Ideal .f32) : relu2 (F := Ideal) a b = max (a + b) 0 := by
  unfold relu2
  show max (a + b) (Ideal.ofBits .f32 0x00000000#32) = max (a + b) 0
  rw [ofBits_zero]

/-- Element `x = (e, j)` of the kernel's output over the extended reals. -/
theorem outVal_ideal (TABr : S50008x128.Idx → Ideal .f32) (SRCr DSTr : S819200.Idx → Elt Ideal .i32)
    (hs : ∀ j, (SRCr j).toNat < 50008) (hd : ∀ j, (DSTr j).toNat < 50008) (x : S819200x64.Idx) :
    outVal (F := Ideal) TABr SRCr DSTr hs hd x
      = max (TABr (ixT (SRCr (ix1 (x 0).val (x 0).isLt)).toNat (hs _) (x 1).val (Nat.lt_of_lt_of_le (x 1).isLt (by decide)))
          + TABr (ixT (DSTr (ix1 (x 0).val (x 0).isLt)).toNat (hd _) (64 + (x 1).val) (by have h : (x 1).val < 64 := (x 1).isLt; omega))) 0 := by
  unfold outVal
  rw [relu2_ideal]

/-- It is a real number when the table's entries are. -/
theorem outVal_isReal (TABr : S50008x128.Idx → Ideal .f32) (SRCr DSTr : S819200.Idx → Elt Ideal .i32)
    (hs : ∀ j, (SRCr j).toNat < 50008) (hd : ∀ j, (DSTr j).toNat < 50008) (hT : ∀ i, IsReal (TABr i)) (x : S819200x64.Idx) :
    IsReal (outVal (F := Ideal) TABr SRCr DSTr hs hd x) := by
  rw [outVal_ideal]
  exact ((hT _).add (hT _)).relu

/-- The table's entry at an index, as an extended real. -/
abbrev tabAt (d : Dev nD) (TAB : Buf (Elt Ideal) ((SparseCore.T (τ := τ) d).loc main_v76_1)) (i : S50008x128.Idx) : Ideal .f32 := TAB i

/-- The same for the output array as the tiles leave it: at `(e, j)`, from the table's and the two index arrays' contents. -/
theorem outBuf_ideal (d : Dev nD) (TAB : Buf (Elt Ideal) ((SparseCore.T (τ := τ) d).loc main_v76_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (x : S819200x64.Idx) :
    @Eq (Ideal .f32) (outBuf (F := Ideal) d TAB SRC DST hsrc hdst x)
      (max (tabAt d TAB (ixT (SRC (ix1 (x 0).val (x 0).isLt)).toNat (hsrc _) (x 1).val (Nat.lt_of_lt_of_le (x 1).isLt (by decide)))
          + tabAt d TAB (ixT (DST (ix1 (x 0).val (x 0).isLt)).toNat (hdst _) (64 + (x 1).val) (by have h : (x 1).val < 64 := (x 1).isLt; omega))) 0) :=
  outVal_ideal _ _ _ _ _ x

theorem outBuf_isReal (d : Dev nD) (TAB : Buf (Elt Ideal) ((SparseCore.T (τ := τ) d).loc main_v76_1))
    (SRC : Buf (Elt Ideal) ((SparseCore.T (τ := τ) d).loc main_v6)) (DST : Buf (Elt Ideal) ((SparseCore.T (τ := τ) d).loc main_v8))
    (hsrc : ∀ j, (SRC j).toNat < 50008) (hdst : ∀ j, (DST j).toNat < 50008) (hT : ∀ i : S50008x128.Idx, IsReal (tabAt d TAB i)) (x : S819200x64.Idx) :
    IsReal (outBuf (F := Ideal) d TAB SRC DST hsrc hdst x : Ideal .f32) :=
  outVal_isReal _ _ _ _ _ (fun i => hT i) x

end Cert.Proof.EdgeTile5

end
-- ==== Proof.Layer3Pre.lean ====
/-
  The third layer: the kernel program's new states in its last region are the reference's third layer. The last
  region's array of new states is, at node n and feature j, relu((h2[n]·Ws + bs) + (agg[n]·W2 + deg[n]·b2)) with agg
  the third call's output rows added up per destination node; the call's output row of edge e is
  relu(tab[src e][k] + tab[dst e][64 + k]) over the third table; the third table's row of node n is the per-node table
  of the state row n over layer 2's message matrix and bias; the in-degree column counts the edges into the node. From
  these the formula is the reference's layer at (n, j), for real states and real message weights.
-/
import proofs.«215677_g32066225832048_cont_9to1_32_28_alg».proof.Proof.Layer1Pre
import proofs.«215677_g32066225832048_cont_9to1_32_28_alg».proof.Proof.LayerStepHead
import proofs.«215677_g32066225832048_cont_9to1_32_28_alg».proof.Proof.EdgeValueIdeal5

noncomputable section

open scoped BigOperators

namespace Cert.Proof.IdealValue

open Cert.KernelIdeal Cert.KernelIdeal.Gen Cert.KernelIdeal.HostOps Cert.Lib.AfterAssign Cert.Proof.IdealLaunch
open Cert.Proof.KernelHost0 Cert.Proof.KernelHost1 Cert.Proof.KernelHost23 Cert.Proof.KernelHostAt Cert.Proof.IdealMath
open Idealize.ShloMosaic Idealize.ShloMosaic.StableHlo Idealize.ShloMosaic.TcCoe Idealize.ShloMosaic.ValueIdx
open Idealize.SL.Sem
open Cert.Lib.GnnLaws Cert.Lib.GnnLayer
open Cert.ReferenceIdeal.RefLayer (rowAt w1Of b1Of layer2_apply_table)

variable [Cert.KernelIdeal.Facts] [Cert.ReferenceIdeal.Facts]

/-- THE THIRD LAYER MATCH, over abstract arrays. `H0`: the state array the third region leaves; `TAB`: the third table
    (50008 rows, 128 wide); `OUT`: the third call's output (819200 rows); `src` / `dst`: the edge list's two rows;
    `deg`: the in-degree column; `a3 … a8`: the stacked weight arguments. -/
theorem layer3_formula_match
    (H0 : FVec Ideal S50000x64 .f32) (TAB : FVec Ideal S50008x128 .f32) (OUT : FVec Ideal S819200x64 .f32)
    (src dst : IVec S800000 32) (deg : FVec Ideal S50000x1 .f32)
    (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32)
    (hsrc : ∀ e : Fin 800000, (src (ix1 e)).toNat < 50000) (hdst : ∀ e : Fin 800000, (dst (ix1 e)).toNat < 50000)
    (H_out : ∀ (e : Fin 800000) (k : Fin 64) (s t : Fin 50008), s.val = (src (ix1 e)).toNat → t.val = (dst (ix1 e)).toNat →
      OUT (ix2 (⟨e.val, by omega⟩ : Fin 819200) k)
        = max (TAB (ix2 s (⟨k.val, by omega⟩ : Fin 128)) + TAB (ix2 t (⟨64 + k.val, by omega⟩ : Fin 128))) 0)
    (H_tab : ∀ (n : Fin 50000) (s : Fin 50008) (j : Fin 128), s.val = n.val →
      TAB (ix2 s j) = table (fun k => H0 (ix2 n k)) (w1Of a3 (⟨2, by decide⟩ : Fin 3)) (b1Of a4 (⟨2, by decide⟩ : Fin 3)) j)
    (H_deg : ∀ n : Fin 50000, deg (ix2 n (0 : Fin 1))
      = ∑ e : Fin 800000, if (dst (ix1 e)).toNat = n.val then (1 : EReal) else 0)
    (hh : ∀ i, IsReal (H0 i)) (h3 : ∀ i, IsReal (a3 i)) (h4 : ∀ i, IsReal (a4 i)) (h5 : ∀ i, IsReal (a5 i))
    (h6 : ∀ i, IsReal (a6 i)) (n : Fin 50000) (j : Fin 64) :
    max (((∑ k : Fin 64, H0 (ix2 n k) * mat2 (F := Ideal) a7 (ix2 k j)) + row2 (F := Ideal) a8 (ix2 (0 : Fin 1) j))
          + ((∑ k : Fin 64, aggMsg (F := Ideal) dst OUT (ix2 n k) * mat2 (F := Ideal) a5 (ix2 k j))
              + deg (ix2 n (0 : Fin 1)) * row2 (F := Ideal) a6 (ix2 (0 : Fin 1) j))) 0
      = Cert.ReferenceIdeal.RefRun.layer2 (F := Ideal) H0 src dst a3 a4 a5 a6 a7 a8 (ix2 n j) := by
  rw [layer2_apply_table H0 src dst a3 a4 a5 a6 a7 a8 hsrc hdst hh h3 h4 h5 h6 n j]
  have e7 : ∀ k : Fin 64, mat2 (F := Ideal) a7 (ix2 k j) = a7 (ix3 (⟨2, by decide⟩ : Fin 3) k j) := fun k => mat2_apply a7 k j
  have e5 : ∀ k : Fin 64, mat2 (F := Ideal) a5 (ix2 k j) = a5 (ix3 (⟨2, by decide⟩ : Fin 3) k j) := fun k => mat2_apply a5 k j
  have e8 : row2 (F := Ideal) a8 (ix2 (0 : Fin 1) j) = a8 (ix2 (⟨2, by decide⟩ : Fin 3) j) := row2_apply a8 j
  have e6 : row2 (F := Ideal) a6 (ix2 (0 : Fin 1) j) = a6 (ix2 (⟨2, by decide⟩ : Fin 3) j) := row2_apply a6 j
  have eagg : ∀ k : Fin 64, aggMsg (F := Ideal) dst OUT (ix2 n k)
      = ∑ e : Fin 800000, if (dst (ix1 e)).toNat = n.val then
          max (table (rowAt H0 src hsrc e) (w1Of a3 (⟨2, by decide⟩ : Fin 3)) (b1Of a4 (⟨2, by decide⟩ : Fin 3)) ⟨k.val, by omega⟩
            + table (rowAt H0 dst hdst e) (w1Of a3 (⟨2, by decide⟩ : Fin 3)) (b1Of a4 (⟨2, by decide⟩ : Fin 3)) ⟨64 + k.val, by omega⟩) 0
        else 0 := by
    intro k
    rw [aggMsg_apply dst OUT hdst n k]
    refine Finset.sum_congr rfl fun e _ => ?_
    split
    · rw [H_out e k ⟨(src (ix1 e)).toNat, by have := hsrc e; omega⟩ ⟨(dst (ix1 e)).toNat, by have := hdst e; omega⟩ rfl rfl,
        H_tab ⟨(src (ix1 e)).toNat, hsrc e⟩ _ _ rfl, H_tab ⟨(dst (ix1 e)).toNat, hdst e⟩ _ _ rfl]
      rfl
    · rfl
  simp only [e7, e5, e8, e6, eagg, H_deg]

variable (m : (ℓ : Loc nD τ sig) → Buf (Elt Ideal) ℓ) (h : IdxOK (conts m))

set_option maxHeartbeats 1600000 in
/-- `H_out` of `layer3_match`. -/
theorem out2_chain (d : Dev nD) (e : Fin 800000) (k : Fin 64) (s t : Fin 50008)
    (hs : s.val = (srcRow (launchContents m d (Proc.devRef .tc main_arg1)) (ix1 e)).toNat)
    (ht : t.val = (dstRow (launchContents m d (Proc.devRef .tc main_arg1)) (ix1 e)).toNat) :
    asReals (S := S819200x64) (OUT2 m h d) (ix2 (⟨e.val, by omega⟩ : Fin 819200) k)
      = max (asReals (S := S50008x128) (V8 m h d (Proc.devRef .tc main_v76_1)) (ix2 s (⟨k.val, by omega⟩ : Fin 128))
          + asReals (S := S50008x128) (V8 m h d (Proc.devRef .tc main_v76_1)) (ix2 t (⟨64 + k.val, by omega⟩ : Fin 128))) 0 := by
  unfold OUT2
  simp only [asReals]
  rw [Cert.Proof.EdgeTile5.outBuf_ideal]
  congr 1
  congr 1
  · show (V8 m h d (Proc.devRef .tc main_v76_1) : S50008x128.Idx → EReal) _ = (V8 m h d (Proc.devRef .tc main_v76_1) : S50008x128.Idx → EReal) _
    congr 1
    funext a
    match a with
    | ⟨0, _⟩ => exact Fin.ext ((congrArg BitVec.toNat (conts_src_at m d e _ rfl)).trans hs.symm)
    | ⟨1, _⟩ => rfl
  · show (V8 m h d (Proc.devRef .tc main_v76_1) : S50008x128.Idx → EReal) _ = (V8 m h d (Proc.devRef .tc main_v76_1) : S50008x128.Idx → EReal) _
    congr 1
    funext a
    match a with
    | ⟨0, _⟩ => exact Fin.ext ((congrArg BitVec.toNat (conts_dst_at m d e _ rfl)).trans ht.symm)
    | ⟨1, _⟩ => rfl

/-- `H_tab` of `layer3_match`: the third table's row `s` (`s = n` below 50000) is the table of the state row `n`. -/
theorem tab4_chain (d : Dev nD) (n : Fin 50000) (s : Fin 50008) (j : Fin 128) (hs : s.val = n.val) :
    asReals (S := S50008x128) (V8 m h d (Proc.devRef .tc main_v76_1)) (ix2 s j)
      = table (fun k => asReals (S := S50000x64) (V8 m h d (Proc.devRef .tc main_v76_0)) (ix2 n k))
          (w1Of (launchContents m d (Proc.devRef .tc main_arg3)) (⟨2, by decide⟩ : Fin 3))
          (b1Of (launchContents m d (Proc.devRef .tc main_arg4)) (⟨2, by decide⟩ : Fin 3)) j := by
  have hs' : s = (⟨n.val, by have := n.isLt; omega⟩ : Fin 50008) := Fin.ext hs
  rw [hs']
  have e := table4_row (fun _ => V7 m h d) (OtcV (F := Ideal) 2) (RcV (F := Ideal) 2) d n j
  have e72 := v72_eq (F := Ideal) (V6 m h d)
  rw [show V6 m h d (main_arg3 : DevRef τ sig) = launchContents m d (Proc.devRef .tc main_arg3) from arg_at m d _ (k6 m h d) main_arg3 (by decide)] at e72
  have e75 := v75_eq (F := Ideal) (V6 m h d)
  rw [show V6 m h d (main_arg4 : DevRef τ sig) = launchContents m d (Proc.devRef .tc main_arg4) from arg_at m d _ (k6 m h d) main_arg4 (by decide)] at e75
  have e72' : V7 m h d (Proc.devRef .tc main_v72) = wcat2 (F := Ideal) (launchContents m d (Proc.devRef .tc main_arg3)) := e72
  have e75' : V7 m h d (Proc.devRef .tc main_v75) = bcat2 (F := Ideal) (launchContents m d (Proc.devRef .tc main_arg4)) := e75
  rw [e72', e75'] at e
  rw [← table_of_wcat2]
  exact e

/-- The third layer match along the chain. -/
theorem layer3_match (d : Dev nD) (src dst : IVec S800000 32)
    (hsrc : ∀ e : Fin 800000, (src (ix1 e)).toNat < 50000) (hdst : ∀ e : Fin 800000, (dst (ix1 e)).toNat < 50000)
    (hdst4 : (V1 m d (Proc.devRef .tc main_v4) : IVec S800000 32) = dst)
    (H_out : ∀ (e : Fin 800000) (k : Fin 64) (s t : Fin 50008), s.val = (src (ix1 e)).toNat → t.val = (dst (ix1 e)).toNat →
      asReals (S := S819200x64) (OUT2 m h d) (ix2 (⟨e.val, by omega⟩ : Fin 819200) k)
        = max (asReals (S := S50008x128) (V8 m h d (Proc.devRef .tc main_v76_1)) (ix2 s (⟨k.val, by omega⟩ : Fin 128))
            + asReals (S := S50008x128) (V8 m h d (Proc.devRef .tc main_v76_1)) (ix2 t (⟨64 + k.val, by omega⟩ : Fin 128))) 0)
    (H_tab : ∀ (n : Fin 50000) (s : Fin 50008) (j : Fin 128), s.val = n.val →
      asReals (S := S50008x128) (V8 m h d (Proc.devRef .tc main_v76_1)) (ix2 s j)
        = table (fun k => asReals (S := S50000x64) (V8 m h d (Proc.devRef .tc main_v76_0)) (ix2 n k))
            (w1Of (launchContents m d (Proc.devRef .tc main_arg3)) (⟨2, by decide⟩ : Fin 3))
            (b1Of (launchContents m d (Proc.devRef .tc main_arg4)) (⟨2, by decide⟩ : Fin 3)) j)
    (H_deg : ∀ n : Fin 50000, asReals (S := S50000x1) (V1 m d (Proc.devRef .tc main_v13)) (ix2 n (0 : Fin 1))
      = ∑ e : Fin 800000, if (dst (ix1 e)).toNat = n.val then (1 : EReal) else 0)
    (hh : ∀ i, IsReal (asReals (S := S50000x64) (V8 m h d (Proc.devRef .tc main_v76_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    stateAll (fun _ => V10 m h d) d (ix2 n j)
      = Cert.ReferenceIdeal.RefRun.layer2 (F := Ideal) (V8 m h d (Proc.devRef .tc main_v76_0)) src dst
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) := by
  rw [head_state_at m h d n j]
  simp only [asReals]
  rw [hdst4]
  exact layer3_formula_match _ _ _ src dst _ _ _ _ _ _ _ hsrc hdst H_out H_tab H_deg hh h3 h4 h5 h6 n j

/-- THE THIRD LAYER MATCH from the precondition and reality. -/
theorem layer3_match_pre (hpre : Cert.Pre_KernelIdeal (hPre_input_domain := Cert.Pre_input_domain.Gen.facts) m) (d : Dev nD)
    (hh : ∀ i, IsReal (asReals (S := S50000x64) (V8 m h d (Proc.devRef .tc main_v76_0)) i))
    (h3 : ∀ i, IsReal (asReals (S := S3x128x64) (launchContents m d (Proc.devRef .tc main_arg3)) i))
    (h4 : ∀ i, IsReal (asReals (S := S3x64) (launchContents m d (Proc.devRef .tc main_arg4)) i))
    (h5 : ∀ i, IsReal (asReals (S := S3x64x64) (launchContents m d (Proc.devRef .tc main_arg5)) i))
    (h6 : ∀ i, IsReal (asReals (S := S3x64) (launchContents m d (Proc.devRef .tc main_arg6)) i))
    (n : Fin 50000) (j : Fin 64) :
    stateAll (fun _ => V10 m h d) d (ix2 n j)
      = Cert.ReferenceIdeal.RefRun.layer2 (F := Ideal) (V8 m h d (Proc.devRef .tc main_v76_0))
          (srcRow (launchContents m d (Proc.devRef .tc main_arg1))) (dstRow (launchContents m d (Proc.devRef .tc main_arg1)))
          (launchContents m d (Proc.devRef .tc main_arg3)) (launchContents m d (Proc.devRef .tc main_arg4))
          (launchContents m d (Proc.devRef .tc main_arg5)) (launchContents m d (Proc.devRef .tc main_arg6))
          (launchContents m d (Proc.devRef .tc main_arg7)) (launchContents m d (Proc.devRef .tc main_arg8)) (ix2 n j) :=
  layer3_match m h d _ _ (srcRow_lt m hpre d) (dstRow_lt m hpre d) (dst4_chain m d) (out2_chain m h d) (tab4_chain m h d)
    (deg0_chain m hpre d) hh h3 h4 h5 h6 n j

end Cert.Proof.IdealValue

end
-- ==== Proof.FiniteInputs.lean ====
/-
  The float inputs under the precondition, at the extended reals: the precondition conjoins, array by array,
  "every entry's absolute value is below +∞"; an extended real whose absolute value is below +∞ is neither +∞ nor
  −∞ (nor the one value that stands for "not a number", which is −∞ here), so it is a real. Every entry of each of
  the eleven float arguments is therefore the coercion of a real number.
-/
import proofs.«215677_g32066225832048_cont_9to1_32_28_alg».proof.Defs
import proofs.«215677_g32066225832048_cont_9to1_32_28_alg».proof.Proof.Gen.Pre_input_domain
import proofs.«215677_g32066225832048_cont_9to1_32_28_alg».proof.Proof.LibGnnLaws
import Idealize.ShloMosaic.Lib.ReduceAll
import Idealize.ShloMosaic.Lib.ValueIdx
import Idealize.ShloMosaic.PureOps.Ideal.Laws

noncomputable section

namespace Cert.Proof.FiniteInputs

open Idealize.ShloMosaic Idealize.ShloMosaic.ValueIdx Cert.Lib.GnnLaws
open Cert.Pre_input_domain Cert.Pre_input_domain.Facts

variable [Cert.Pre_input_domain.Facts]

/-- The single-precision word of +∞ denotes +∞. -/
theorem ofBits_inf : Ideal.ofBits .f32 0x7F800000#32 = ⊤ := by simp [Ideal.ofBits, Ideal.ieee]

/-- An extended real whose absolute value is below +∞ is a real. -/
theorem isReal_of_abs_lt_top (a : EReal) (h : max a (-a) < ⊤) : IsReal a :=
  isReal_of_ne (fun e => by rw [e] at h; simp at h) (fun e => by rw [e] at h; simp at h)

/-- One conjunct of the precondition: all of an array's entries have absolute value below +∞. -/
abbrev conj {s : Shape} (a : FVec Ideal s .f32) (hb : S_.BroadcastsInDim s (![] : Fin 0 → Fin s.rank)) {axes : List (Fin s.rank)} (hr : s.ReducesTo axes S_) : IVec S_ 1 :=
  Host.reduce IntOp.andi (cmpf .olt (Host.absf a) (broadcastInDim s ![] hb (constant S_ .f32 0x7F800000#32))) (constantI S_ 1 1#1) hr h_S_

theorem real_of_conj {s : Shape} (a : FVec Ideal s .f32) (hb : S_.BroadcastsInDim s (![] : Fin 0 → Fin s.rank)) {axes : List (Fin s.rank)} (hr : s.ReducesTo axes S_)
    (e : conj a hb hr ix0 = 1#1) (i : s.Idx) : IsReal (a i) := by
  have e1 := Host.reduce_andi_all _ _ _ _ _ e i
  have e2 : Ideal.cmp .olt (max (a i) (-(a i))) (Ideal.ofBits .f32 0x7F800000#32) = 1#1 := e1
  rw [ofBits_inf] at e2
  by_cases hlt : max (a i) (-(a i)) < ⊤
  · exact isReal_of_abs_lt_top (a i) hlt
  · exfalso
    have h0 : Ideal.cmp .olt (max (a i) (-(a i))) ⊤ = 0#1 := by
      unfold Ideal.cmp
      simp only [decide_eq_false hlt]
      rfl
    rw [h0] at e2
    exact absurd e2 (by decide)

theorem and_left {A B : IVec S_ 1} (h : (andi A B) ix0 = 1#1) : A ix0 = 1#1 := (IntOp.andi_eq_one.1 h).1
theorem and_right {A B : IVec S_ 1} (h : (andi A B) ix0 = 1#1) : B ix0 = 1#1 := (IntOp.andi_eq_one.1 h).2

set_option maxHeartbeats 4000000 in
set_option maxRecDepth 65536 in
/-- Under the precondition every entry of every float argument is a real. -/
theorem all_real (a0 : IVec S50000 32) (a1 : IVec S2x800000 32)
    (a2 : FVec Ideal S120x64 .f32) (a3 : FVec Ideal S3x128x64 .f32) (a4 : FVec Ideal S3x64 .f32) (a5 : FVec Ideal S3x64x64 .f32)
    (a6 : FVec Ideal S3x64 .f32) (a7 : FVec Ideal S3x64x64 .f32) (a8 : FVec Ideal S3x64 .f32) (a9 : FVec Ideal S64x64 .f32)
    (a10 : FVec Ideal S64 .f32) (a11 : FVec Ideal S64x1 .f32) (a12 : FVec Ideal S1 .f32)
    (h : Cert.Pre_input_domain.fn (F := Ideal) a0 a1 a2 a3 a4 a5 a6 a7 a8 a9 a10 a11 a12 = fun _ => 1#1) :
    (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  obtain ⟨X, Y, hXY⟩ : ∃ X Y : IVec S_ 1,
      Cert.Pre_input_domain.fn (F := Ideal) a0 a1 a2 a3 a4 a5 a6 a7 a8 a9 a10 a11 a12
        = andi (andi (andi (andi (andi (andi (andi (andi (andi (andi (andi (andi (conj a2 bcast_S_S120x64 reducesTo_S120x64_S_d0_1) (conj a3 bcast_S_S3x128x64 reducesTo_S3x128x64_S_d0_1_2)) (conj a4 bcast_S_S3x64 reducesTo_S3x64_S_d0_1)) (conj a5 bcast_S_S3x64x64 reducesTo_S3x64x64_S_d0_1_2)) (conj a6 bcast_S_S3x64 reducesTo_S3x64_S_d0_1)) (conj a7 bcast_S_S3x64x64 reducesTo_S3x64x64_S_d0_1_2)) (conj a8 bcast_S_S3x64 reducesTo_S3x64_S_d0_1)) (conj a9 bcast_S_S64x64 reducesTo_S64x64_S_d0_1)) (conj a10 bcast_S_S64 reducesTo_S64_S_d0)) (conj a11 bcast_S_S64x1 reducesTo_S64x1_S_d0_1)) (conj a12 bcast_S_S1 reducesTo_S1_S_d0)) X) Y := ⟨_, _, rfl⟩
  rw [hXY] at h
  have e := congrFun h ix0
  have q12 := and_left (and_left e)
  have r10 := and_left q12
  have r9 := and_left r10
  have r8 := and_left r9
  have r7 := and_left r8
  have r6 := and_left r7
  have r5 := and_left r6
  have r4 := and_left r5
  have r3 := and_left r4
  have r2 := and_left r3
  have r1 := and_left r2
  exact ⟨fun i => real_of_conj a2 _ _ r1 i,
    fun i => real_of_conj a3 _ _ (and_right r2) i,
    fun i => real_of_conj a4 _ _ (and_right r3) i,
    fun i => real_of_conj a5 _ _ (and_right r4) i,
    fun i => real_of_conj a6 _ _ (and_right r5) i,
    fun i => real_of_conj a7 _ _ (and_right r6) i,
    fun i => real_of_conj a8 _ _ (and_right r7) i,
    fun i => real_of_conj a9 _ _ (and_right r8) i,
    fun i => real_of_conj a10 _ _ (and_right r9) i,
    fun i => real_of_conj a11 _ _ (and_right r10) i,
    fun i => real_of_conj a12 _ _ (and_right q12) i⟩

/-- The same over the idealized kernel program's launch memory, from its precondition. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i)) :=
  all_real _ _ _ _ _ _ _ _ _ _ _ _ _ (hpre c)

end Cert.Proof.FiniteInputs

end
-- ==== Proof.LibGnnReal.lean ====
/-
  The reals carried through one layer of a message-passing network on extended reals (a general lemma file).

  A layer's state at a node is max(h·Ws + bs + (P·W2 + deg·b2), 0), where P is the per-node sum of the hidden messages of
  the incoming edges and deg their number. If the incoming states, the weights and the hidden messages are reals
  (coercions of real numbers), so are the per-node sums, the in-degree, and the new state: every step is a finite sum,
  a product, a sum or a maximum of reals.
-/
import proofs.«215677_g32066225832048_cont_9to1_32_28_alg».proof.Proof.LibGnnLaws

noncomputable section

namespace Cert.Lib.GnnReal

open Cert.Lib.GnnLaws

/-- A conditional term of a sum is a real when the term is. -/
theorem isReal_ite {p : Prop} [Decidable p] {x : EReal} (hx : IsReal x) : IsReal (if p then x else 0) := by
  split
  · exact hx
  · exact IsReal.zero

/-- The sum over the edges into a node of real terms is a real. -/
theorem isReal_sum_into {E : Type*} [Fintype E] (p : E → Prop) [DecidablePred p] (r : E → EReal) (hr : ∀ e, IsReal (r e)) :
    IsReal (∑ e, if p e then r e else 0) :=
  IsReal.sum _ _ fun e _ => isReal_ite (hr e)

/-- The number of edges into a node, as a sum of ones, is a real. -/
theorem isReal_count {E : Type*} [Fintype E] (p : E → Prop) [DecidablePred p] : IsReal (∑ e, if p e then (1 : EReal) else 0) :=
  isReal_sum_into p (fun _ => 1) fun _ => IsReal.one

/-- The layer's new state at a node and feature is a real when everything it reads is. -/
theorem isReal_layer {K : Type*} [Fintype K] (hn Ws P W2 : K → EReal) (bs deg b2 : EReal)
    (h1 : ∀ k, IsReal (hn k)) (h2 : ∀ k, IsReal (Ws k)) (h3 : IsReal bs) (h4 : ∀ k, IsReal (P k)) (h5 : ∀ k, IsReal (W2 k))
    (h6 : IsReal deg) (h7 : IsReal b2) :
    IsReal (max (((∑ k, hn k * Ws k) + bs) + ((∑ k, P k * W2 k) + deg * b2)) 0) :=
  IsReal.relu (IsReal.add (IsReal.add (IsReal.dot hn Ws h1 h2) h3) (IsReal.add (IsReal.dot P W2 h4 h5) (IsReal.mul h6 h7)))

/-- A hidden message max(x·W + b, 0) is a real when the row, the weights and the bias are. -/
theorem isReal_hidden {K : Type*} [Fintype K] (x W : K → EReal) (b : EReal) (hx : ∀ k, IsReal (x k)) (hW : ∀ k, IsReal (W k)) (hb : IsReal b) :
    IsReal (max ((∑ k, x k * W k) + b) 0) :=
  IsReal.relu (IsReal.add (IsReal.dot x W hx hW) hb)

end Cert.Lib.GnnReal

end
-- ==== Proof.RealChain.lean ====
/-
  The kernel program's input side and the reals along its chain. Under the precondition every node label names a row
  of the embedding table, so the states the first region leaves are the reference's embedding lookup; and the
  argument arrays hold reals, so those states do too; and so do the states the two update regions leave, every step
  from one state array to the next being finite sums, products and maxima of reals.
-/
import proofs.«215677_g32066225832048_cont_9to1_32_28_alg».proof.Proof.Layer1Pre
import proofs.«215677_g32066225832048_cont_9to1_32_28_alg».proof.Proof.RefStages
import proofs.«215677_g32066225832048_cont_9to1_32_28_alg».proof.Proof.FiniteInputs
import proofs.«215677_g32066225832048_cont_9to1_32_28_alg».proof.Proof.LibGnnReal
import proofs.«215677_g32066225832048_cont_9to1_32_28_alg».proof.Proof.ChainGlue
import proofs.«215677_g32066225832048_cont_9to1_32_28_alg».proof.Proof.KernelHostAt
import proofs.«215677_g32066225832048_cont_9to1_32_28_alg».proof.Proof.LayerStep23
import proofs.«215677_g32066225832048_cont_9to1_32_28_alg».proof.Proof.EdgeValueIdeal3

noncomputable section

open scoped BigOperators

namespace Cert.Proof.IdealValue

open Cert.KernelIdeal Cert.KernelIdeal.Gen Cert.KernelIdeal.HostOps Cert.Proof.IdealLaunch
open Cert.Proof.KernelHost0 Cert.Proof.KernelHost1 Cert.Proof.IdealMath
open Idealize.ShloMosaic Idealize.ShloMosaic.StableHlo Idealize.ShloMosaic.TcCoe Idealize.ShloMosaic.ValueIdx
open Idealize.SL.Sem
open Cert.Lib.GnnLaws

variable [Cert.ReferenceIdeal.Facts]
variable (m : (ℓ : Loc nD τ sig) → Buf (Elt Ideal) ℓ)

/-- THE INPUT SIDE: the states the first region leaves are the reference's embedding lookup of the launch memory's
    table at the launch memory's labels. -/
theorem h0_match (hpre : Cert.Pre_KernelIdeal (hPre_input_domain := Cert.Pre_input_domain.Gen.facts) m) (d : Dev nD)
    (n : Fin 50000) (j : Fin 64) :
    asReals (S := S50000x64) (V2 m d (Proc.devRef .tc main_v24_0)) (ix2 n j)
      = Cert.ReferenceIdeal.RefRun.take0 (F := Ideal) (launchContents m d (Proc.devRef .tc main_arg2))
          (launchContents m d (Proc.devRef .tc main_arg0)) (ix2 n j) := by
  have hx : ((launchContents m d (main_arg0 : DevRef τ sig) : IVec S50000 32) (ix1 n)).toNat < 120 :=
    Cert.Proof.KernelPre.x_lt m hpre d (ix1 n)
  rw [Cert.ReferenceIdeal.RefStages.take0_apply _ _ n j hx]
  have hSt : asReals (S := S50000x64) (V2 m d (Proc.devRef .tc main_v24_0)) = G0_4 (F := Ideal) (fun _ => V1 m d) d :=
    (Wout0_arr (fun _ => V1 m d) (OtcV (F := Ideal) 0) (RcV (F := Ideal) 0) d 4).trans (final0_4 _ _ _ d)
  rw [hSt]
  refine (G0_4_apply (fun _ => V1 m d) d n j ⟨_, hx⟩ ?_).trans ?_
  · refine (v0_at (launchContents m d) n).trans ?_
    exact ((BitVec.ofNat_toNat 32 _).trans (BitVec.setWidth_eq _)).symm
  · rw [k1 m d main_arg2 (by decide)]

/-- The launch memory's argument arrays hold reals, as the valuation reads them. -/
theorem arg2_real (hpre : Cert.Pre_KernelIdeal (hPre_input_domain := Cert.Pre_input_domain.Gen.facts) m) (d : Dev nD) (i : S120x64.Idx) :
    IsReal (asReals (S := S120x64) (launchContents m d (Proc.devRef .tc main_arg2)) i) :=
  (Cert.Proof.FiniteInputs.args_real m hpre d).1 i

/-- THE STATES THE FIRST REGION LEAVES ARE REALS: each is an entry of the embedding table. -/
theorem h0_real (hpre : Cert.Pre_KernelIdeal (hPre_input_domain := Cert.Pre_input_domain.Gen.facts) m) (d : Dev nD) (i : S50000x64.Idx) :
    IsReal (asReals (S := S50000x64) (V2 m d (Proc.devRef .tc main_v24_0)) i) := by
  obtain ⟨n, j, rfl⟩ : ∃ (n : Fin 50000) (j : Fin 64), i = ix2 n j := ⟨i 0, i 1, eq_ix2 i⟩
  have hx : ((launchContents m d (main_arg0 : DevRef τ sig) : IVec S50000 32) (ix1 n)).toNat < 120 :=
    Cert.Proof.KernelPre.x_lt m hpre d (ix1 n)
  rw [h0_match m hpre d n j, Cert.ReferenceIdeal.RefStages.take0_apply _ _ n j hx]
  exact arg2_real m hpre d _

variable (h : IdxOK (conts m))

/-! ## The reals after the first update region -/

/-- The laid-out message weight and bias of layer 0 hold reals when the launch memory's arrays do. -/
theorem wcat_real (W : FVec Ideal S3x128x64 .f32) (hW : ∀ i, IsReal (W i)) (k : Fin 64) (j : Fin 128) :
    IsReal (wcat (F := Ideal) W (ix2 k j)) := by
  by_cases hj : j.val < 64
  · exact (congrArg IsReal (wcat_left W k j hj)).mpr (hW _)
  · exact (congrArg IsReal (wcat_right W k j (by omega))).mpr (hW _)

theorem bcat_real (b : FVec Ideal S3x64 .f32) (hb : ∀ i, IsReal (b i)) (j : Fin 128) :
    IsReal (bcat (F := Ideal) b (ix2 (0 : Fin 1) j)) := by
  by_cases hj : j.val < 64
  · refine (congrArg IsReal (bcat_left b j hj)).mpr ?_
    show IsReal (Ideal.ofBits .f32 0x00000000#32)
    rw [ofBits_zero]; exact IsReal.zero
  · exact (congrArg IsReal (bcat_right b j (by omega))).mpr (hb _)

/-- A row below 50000 of the first table holds reals: it is the state row against real weights plus a real bias. -/
theorem tab0_real (hpre : Cert.Pre_KernelIdeal (hPre_input_domain := Cert.Pre_input_domain.Gen.facts) m) (d : Dev nD)
    (n : Fin 50000) (j : Fin 128) :
    IsReal (asReals (S := S50008x128) (V2 m d (Proc.devRef .tc main_v24_1)) (ix2 (⟨n.val, by have := n.isLt; omega⟩ : Fin 50008) j)) := by
  have e := table0_row (fun _ => V1 m d) (OtcV (F := Ideal) 0) (RcV (F := Ideal) 0) d n j
  have e20 : V1 m d (Proc.devRef .tc main_v20) = wcat (F := Ideal) (launchContents m d (Proc.devRef .tc main_arg3)) :=
    v20_eq (F := Ideal) (launchContents m d)
  have e23 : V1 m d (Proc.devRef .tc main_v23) = bcat (F := Ideal) (launchContents m d (Proc.devRef .tc main_arg4)) :=
    v23_eq (F := Ideal) (launchContents m d)
  rw [e20, e23] at e
  have hA := Cert.Proof.FiniteInputs.args_real m hpre d
  refine (congrArg IsReal e).mpr ?_
  exact IsReal.add (IsReal.dot _ _ (fun k => h0_real m hpre d (ix2 n k)) (fun k => wcat_real _ hA.2.1 k j)) (bcat_real _ hA.2.2.1 j)

/-- The first call's output rows of the real edges hold reals. -/
theorem out0_real (hpre : Cert.Pre_KernelIdeal (hPre_input_domain := Cert.Pre_input_domain.Gen.facts) m) (d : Dev nD)
    (e : Fin 800000) (k : Fin 64) :
    IsReal (asReals (S := S819200x64) (OUT0 m h d) (ix2 (⟨e.val, by have := e.isLt; omega⟩ : Fin 819200) k)) := by
  have hs := srcRow_lt m hpre d e
  have ht := dstRow_lt m hpre d e
  refine (congrArg IsReal (out0_chain m h d e k
      ⟨(srcRow (launchContents m d (Proc.devRef .tc main_arg1)) (ix1 e)).toNat, by omega⟩
      ⟨(dstRow (launchContents m d (Proc.devRef .tc main_arg1)) (ix1 e)).toNat, by omega⟩ rfl rfl)).mpr ?_
  exact IsReal.relu (IsReal.add (tab0_real m hpre d ⟨_, hs⟩ _) (tab0_real m hpre d ⟨_, ht⟩ _))

/-- THE STATES THE FIRST UPDATE REGION LEAVES ARE REALS. -/
theorem state1_real (hpre : Cert.Pre_KernelIdeal (hPre_input_domain := Cert.Pre_input_domain.Gen.facts) m) (d : Dev nD)
    (i : S50000x64.Idx) : IsReal (asReals (S := S50000x64) (V5 m h d (Proc.devRef .tc main_v50_0)) i) := by
  obtain ⟨n, j, rfl⟩ : ∃ (n : Fin 50000) (j : Fin 64), i = ix2 n j := ⟨i 0, i 1, eq_ix2 i⟩
  have hA := Cert.Proof.FiniteInputs.args_real m hpre d
  refine (congrArg IsReal (V5_state_at m h d n j)).mpr ?_
  refine Cert.Lib.GnnReal.isReal_layer _ _ _ _ _ _ _ (fun k => h0_real m hpre d (ix2 n k)) (fun k => ?_) ?_ (fun k => ?_) (fun k => ?_) ?_ ?_
  · exact (congrArg IsReal (Cert.Proof.KernelHostAt.mat0_apply (F := Ideal) _ k j)).mpr (hA.2.2.2.2.2.1 _)
  · exact (congrArg IsReal (Cert.Proof.KernelHostAt.row0_apply (F := Ideal) _ j)).mpr (hA.2.2.2.2.2.2.1 _)
  · show IsReal (aggMsg (F := Ideal) (V1 m d (Proc.devRef .tc main_v4)) (OUT0 m h d) (ix2 n k))
    rw [dst4_chain m d]
    refine (congrArg IsReal (Cert.Proof.KernelHostAt.aggMsg_apply _ _ (dstRow_lt m hpre d) n k)).mpr ?_
    exact Cert.Lib.GnnReal.isReal_sum_into _ _ fun e => out0_real m h hpre d e k
  · exact (congrArg IsReal (Cert.Proof.KernelHostAt.mat0_apply (F := Ideal) _ k j)).mpr (hA.2.2.2.1 _)
  · refine (congrArg IsReal (deg0_chain m hpre d n)).mpr ?_
    exact Cert.Lib.GnnReal.isReal_count _
  · exact (congrArg IsReal (Cert.Proof.KernelHostAt.row0_apply (F := Ideal) _ j)).mpr (hA.2.2.2.2.1 _)

/-! ## The reals after the second update region -/

/-- The second stretch lays layer 1's message bias out at `main_v49`. -/
theorem rc_V4_bc (d : Dev nD) : V4 m h d (Proc.devRef .tc main_v49) = bcat1 (F := Ideal) (launchContents m d (Proc.devRef .tc main_arg4)) := by
  have e := v49_eq (F := Ideal) (V3 m h d)
  rw [show V3 m h d (main_arg4 : DevRef τ sig) = launchContents m d (Proc.devRef .tc main_arg4) from arg_at m d _ (k3 m h d) main_arg4 (by decide)] at e
  exact e

theorem rc_wcat1_real (W : FVec Ideal S3x128x64 .f32) (hW : ∀ i, IsReal (W i)) (k : Fin 64) (j : Fin 128) :
    IsReal (wcat1 (F := Ideal) W (ix2 k j)) := by
  by_cases hj : j.val < 64
  · exact (congrArg IsReal (Cert.Proof.KernelHostAt.wcat1_left W k j hj)).mpr (hW _)
  · exact (congrArg IsReal (Cert.Proof.KernelHostAt.wcat1_right W k j (by omega))).mpr (hW _)

theorem rc_bcat1_real (b : FVec Ideal S3x64 .f32) (hb : ∀ i, IsReal (b i)) (j : Fin 128) :
    IsReal (bcat1 (F := Ideal) b (ix2 (0 : Fin 1) j)) := by
  by_cases hj : j.val < 64
  · refine (congrArg IsReal (Cert.Proof.KernelHostAt.bcat1_left b j hj)).mpr ?_
    show IsReal (Ideal.ofBits .f32 0x00000000#32)
    rw [ofBits_zero]; exact IsReal.zero
  · exact (congrArg IsReal (Cert.Proof.KernelHostAt.bcat1_right b j (by omega))).mpr (hb _)

/-- A row below 50000 of the second table holds reals. -/
theorem rc_tab1_real (hpre : Cert.Pre_KernelIdeal (hPre_input_domain := Cert.Pre_input_domain.Gen.facts) m) (d : Dev nD)
    (n : Fin 50000) (j : Fin 128) :
    IsReal (asReals (S := S50008x128) (V5 m h d (Proc.devRef .tc main_v50_1)) (ix2 (⟨n.val, by have := n.isLt; omega⟩ : Fin 50008) j)) := by
  have e := table2_row (fun _ => V4 m h d) (OtcV (F := Ideal) 1) (RcV (F := Ideal) 1) d n j
  rw [V4_wc m h d, rc_V4_bc m h d] at e
  have hA := Cert.Proof.FiniteInputs.args_real m hpre d
  refine (congrArg IsReal e).mpr ?_
  exact IsReal.add (IsReal.dot _ _ (fun k => state1_real m h hpre d (ix2 n k)) (fun k => rc_wcat1_real _ hA.2.1 k j)) (rc_bcat1_real _ hA.2.2.1 j)

set_option maxHeartbeats 1600000 in
/-- The second call's output at a real edge and feature: the rectified sum of the two table entries it gathers. -/
theorem rc_out1_at (d : Dev nD) (e : Fin 800000) (k : Fin 64) (s t : Fin 50008)
    (hs : s.val = (srcRow (launchContents m d (Proc.devRef .tc main_arg1)) (ix1 e)).toNat)
    (ht : t.val = (dstRow (launchContents m d (Proc.devRef .tc main_arg1)) (ix1 e)).toNat) :
    asReals (S := S819200x64) (OUT1 m h d) (ix2 (⟨e.val, by have := e.isLt; omega⟩ : Fin 819200) k)
      = max (asReals (S := S50008x128) (V5 m h d (Proc.devRef .tc main_v50_1)) (ix2 s (⟨k.val, by have := k.isLt; omega⟩ : Fin 128))
          + asReals (S := S50008x128) (V5 m h d (Proc.devRef .tc main_v50_1)) (ix2 t (⟨64 + k.val, by have := k.isLt; omega⟩ : Fin 128))) 0 := by
  unfold OUT1
  simp only [asReals]
  rw [Cert.Proof.EdgeTile3.outBuf_ideal]
  congr 1
  congr 1
  · show (V5 m h d (Proc.devRef .tc main_v50_1) : S50008x128.Idx → EReal) _ = (V5 m h d (Proc.devRef .tc main_v50_1) : S50008x128.Idx → EReal) _
    congr 1
    funext a
    match a with
    | ⟨0, _⟩ => exact Fin.ext ((congrArg BitVec.toNat (conts_src_at m d e _ rfl)).trans hs.symm)
    | ⟨1, _⟩ => rfl
  · show (V5 m h d (Proc.devRef .tc main_v50_1) : S50008x128.Idx → EReal) _ = (V5 m h d (Proc.devRef .tc main_v50_1) : S50008x128.Idx → EReal) _
    congr 1
    funext a
    match a with
    | ⟨0, _⟩ => exact Fin.ext ((congrArg BitVec.toNat (conts_dst_at m d e _ rfl)).trans ht.symm)
    | ⟨1, _⟩ => rfl

theorem rc_out1_real (hpre : Cert.Pre_KernelIdeal (hPre_input_domain := Cert.Pre_input_domain.Gen.facts) m) (d : Dev nD)
    (e : Fin 800000) (k : Fin 64) :
    IsReal (asReals (S := S819200x64) (OUT1 m h d) (ix2 (⟨e.val, by have := e.isLt; omega⟩ : Fin 819200) k)) := by
  have hs := srcRow_lt m hpre d e
  have ht := dstRow_lt m hpre d e
  refine (congrArg IsReal (rc_out1_at m h d e k
      ⟨(srcRow (launchContents m d (Proc.devRef .tc main_arg1)) (ix1 e)).toNat, by omega⟩
      ⟨(dstRow (launchContents m d (Proc.devRef .tc main_arg1)) (ix1 e)).toNat, by omega⟩ rfl rfl)).mpr ?_
  exact IsReal.relu (IsReal.add (rc_tab1_real m h hpre d ⟨_, hs⟩ _) (rc_tab1_real m h hpre d ⟨_, ht⟩ _))

/-- THE STATES THE SECOND UPDATE REGION LEAVES ARE REALS. -/
theorem state2_real (hpre : Cert.Pre_KernelIdeal (hPre_input_domain := Cert.Pre_input_domain.Gen.facts) m) (d : Dev nD)
    (i : S50000x64.Idx) : IsReal (asReals (S := S50000x64) (V8 m h d (Proc.devRef .tc main_v76_0)) i) := by
  obtain ⟨n, j, rfl⟩ : ∃ (n : Fin 50000) (j : Fin 64), i = ix2 n j := ⟨i 0, i 1, eq_ix2 i⟩
  have hA := Cert.Proof.FiniteInputs.args_real m hpre d
  refine (congrArg IsReal (V8_state_at m h d n j)).mpr ?_
  refine Cert.Lib.GnnReal.isReal_layer _ _ _ _ _ _ _ (fun k => state1_real m h hpre d (ix2 n k)) (fun k => ?_) ?_ (fun k => ?_) (fun k => ?_) ?_ ?_
  · exact (congrArg IsReal (Cert.Proof.KernelHostAt.mat1_apply (F := Ideal) _ k j)).mpr (hA.2.2.2.2.2.1 _)
  · exact (congrArg IsReal (Cert.Proof.KernelHostAt.row1_apply (F := Ideal) _ j)).mpr (hA.2.2.2.2.2.2.1 _)
  · show IsReal (aggMsg (F := Ideal) (V1 m d (Proc.devRef .tc main_v4)) (OUT1 m h d) (ix2 n k))
    rw [dst4_chain m d]
    refine (congrArg IsReal (Cert.Proof.KernelHostAt.aggMsg_apply _ _ (dstRow_lt m hpre d) n k)).mpr ?_
    exact Cert.Lib.GnnReal.isReal_sum_into _ _ fun e => rc_out1_real m h hpre d e k
  · exact (congrArg IsReal (Cert.Proof.KernelHostAt.mat1_apply (F := Ideal) _ k j)).mpr (hA.2.2.2.1 _)
  · refine (congrArg IsReal (deg0_chain m hpre d n)).mpr ?_
    exact Cert.Lib.GnnReal.isReal_count _
  · exact (congrArg IsReal (Cert.Proof.KernelHostAt.row1_apply (F := Ideal) _ j)).mpr (hA.2.2.2.2.1 _)

end Cert.Proof.IdealValue

end
-- ==== Proof.ValueClose.lean ====
/-
  The value equation, closed: the chain's four state arrays are the reference's four stages — the embedded features
  (the one-hot product is the row selection), then three times "the kernel's layer formula is the reference's layer"
  with every state a real —, the two programs' edge rows are the same arrays, hence the results agree.
-/
import proofs.«215677_g32066225832048_cont_9to1_32_28_alg».proof.Proof.ValueEq
import proofs.«215677_g32066225832048_cont_9to1_32_28_alg».proof.Proof.Layer1Pre
import proofs.«215677_g32066225832048_cont_9to1_32_28_alg».proof.Proof.Layer2Pre
import proofs.«215677_g32066225832048_cont_9to1_32_28_alg».proof.Proof.Layer3Pre
import proofs.«215677_g32066225832048_cont_9to1_32_28_alg».proof.Proof.RealChain
import proofs.«215677_g32066225832048_cont_9to1_32_28_alg».proof.Proof.FiniteInputs

noncomputable section

namespace Cert.Proof.IdealValue

open Cert.KernelIdeal Cert.KernelIdeal.Gen Cert.Proof.IdealLaunch Cert.Proof.IdealMath Cert.Lib.GnnLaws
open Idealize.ShloMosaic Idealize.ShloMosaic.StableHlo Idealize.ShloMosaic.TcCoe Idealize.ShloMosaic.ValueIdx
open Idealize.SL.Sem

variable (m : (ℓ : Loc nD τ sig) → Buf (Elt Ideal) ℓ) (h : IdxOK (conts m))

/-- Two [50000,64] arrays that agree at every (n, j) are equal. -/
theorem arr_ext {f g : FVec Ideal S50000x64 .f32} (hfg : ∀ (n : Fin 50000) (j : Fin 64), f (ix2 n j) = g (ix2 n j)) : f = g := by
  funext i
  rw [eq_ix2 i]
  exact hfg (i 0) (i 1)

set_option maxHeartbeats 4000000 in
set_option maxRecDepth 65536 in
theorem value_eq_closed [Cert.ReferenceIdeal.Facts] (hpre : Cert.Pre_KernelIdeal (hPre_input_domain := Cert.Pre_input_domain.Gen.facts) m) (d : Dev nD) :
    Cert.ReferenceIdeal.RefRun.result (F := Ideal) (argOf m d main_arg0) (argOf m d main_arg1) (argOf m d main_arg2) (argOf m d main_arg3)
        (argOf m d main_arg4) (argOf m d main_arg5) (argOf m d main_arg6) (argOf m d main_arg7) (argOf m d main_arg8) (argOf m d main_arg9)
        (argOf m d main_arg10) (argOf m d main_arg11) (argOf m d main_arg12)
      = result m h d := by
  obtain ⟨r2, r3, r4, r5, r6, r7, r8, r9, r10, r11, r12⟩ := Cert.Proof.FiniteInputs.args_real m hpre d
  refine value_eq_of m h d
    (arr_ext fun n j => h0_match m hpre d n j)
    (arr_ext fun n j => layer1_match_pre m h hpre d (h0_real m hpre d) r3 r4 r5 r6 n j)
    (arr_ext fun n j => layer2_match_pre m h hpre d (state1_real m h hpre d) r3 r4 r5 r6 n j)
    (arr_ext fun n j => layer3_match_pre m h hpre d (state2_real m h hpre d) r3 r4 r5 r6 n j)
    rfl rfl

end Cert.Proof.IdealValue

end
-- ==== Proof.lean ====
/-
  The certificate's five conjuncts, assembled from the parts.
  - The reference (a host-only program) runs and keeps its arguments: its run read off operation by operation.
  - The idealized kernel is the kernel's sanctioned idealization: the one named constant, 1/50000.
  - The idealized kernel program — @main on the TensorCore with four regions, three SparseCore calls of 32 tasks each —
    runs and keeps its arguments, from the tasks' obligations, @main's composition, the index arrays' ranges under the
    precondition and the four regions' rules.
  - The word-level kernel program's frame is the same argument at the word-level instance.
  - The two idealized programs compute the same [1,1] result (one equation between two pure terms of the arguments,
    `value_eq`): a three-layer message-passing network; per layer the
    kernel's sum over incoming edges of the hidden messages times the second weight matrix, plus the in-degree times
    the second bias, is the reference's sum of the per-edge outputs (distributivity over a finite sum of reals, which is
    where the inputs' finiteness is used), and the mean over the 50000 nodes is the product with the named 1/50000.
-/
import proofs.«215677_g32066225832048_cont_9to1_32_28_alg».proof.Defs
import proofs.«215677_g32066225832048_cont_9to1_32_28_alg».proof.Proof.Gen.Kernel
import proofs.«215677_g32066225832048_cont_9to1_32_28_alg».proof.Proof.Gen.Kernel.Skeleton
import proofs.«215677_g32066225832048_cont_9to1_32_28_alg».proof.Proof.Gen.Kernel.Launch
import proofs.«215677_g32066225832048_cont_9to1_32_28_alg».proof.Proof.Gen.Kernel.Regions
import proofs.«215677_g32066225832048_cont_9to1_32_28_alg».proof.Proof.Gen.Kernel.Points
import proofs.«215677_g32066225832048_cont_9to1_32_28_alg».proof.Proof.Gen.KernelIdeal
import proofs.«215677_g32066225832048_cont_9to1_32_28_alg».proof.Proof.Gen.KernelIdeal.Skeleton
import proofs.«215677_g32066225832048_cont_9to1_32_28_alg».proof.Proof.Gen.KernelIdeal.Launch
import proofs.«215677_g32066225832048_cont_9to1_32_28_alg».proof.Proof.Gen.KernelIdeal.Regions
import proofs.«215677_g32066225832048_cont_9to1_32_28_alg».proof.Proof.Gen.KernelIdeal.Points
import proofs.«215677_g32066225832048_cont_9to1_32_28_alg».proof.Proof.Gen.ReferenceIdeal
import proofs.«215677_g32066225832048_cont_9to1_32_28_alg».proof.Proof.Gen.Pre_input_domain
import proofs.«215677_g32066225832048_cont_9to1_32_28_alg».proof.Proof.Preserves
import proofs.«215677_g32066225832048_cont_9to1_32_28_alg».proof.Proof.RefRun
import proofs.«215677_g32066225832048_cont_9to1_32_28_alg».proof.Proof.FrameIdeal
import proofs.«215677_g32066225832048_cont_9to1_32_28_alg».proof.Proof.IdxRange
import proofs.«215677_g32066225832048_cont_9to1_32_28_alg».proof.Proof.LaunchRegion
import proofs.«215677_g32066225832048_cont_9to1_32_28_alg».proof.Proof.FrameIdealW
import proofs.«215677_g32066225832048_cont_9to1_32_28_alg».proof.Proof.IdxRangeW
import proofs.«215677_g32066225832048_cont_9to1_32_28_alg».proof.Proof.LaunchRegionW
import proofs.«215677_g32066225832048_cont_9to1_32_28_alg».proof.Proof.FrameValue
import proofs.«215677_g32066225832048_cont_9to1_32_28_alg».proof.Proof.LaunchRegionV
import proofs.«215677_g32066225832048_cont_9to1_32_28_alg».proof.Proof.ValueClose
import Idealize.ShloMosaic.Adequacy
import Idealize.ShloMosaic.Init

noncomputable section

namespace Cert.Proof

open Idealize.ShloMosaic Idealize.SL.Sem

/-- The idealized kernel program runs and keeps its thirteen arguments. -/
theorem frame_ki : Cert.frame_KernelIdeal (hKernelIdeal := Cert.KernelIdeal.Gen.facts) (hPre_input_domain := Cert.Pre_input_domain.Gen.facts) := by
  intro m g hpre
  letI : Cert.KernelIdeal.Facts := Cert.KernelIdeal.Gen.facts
  have hOK : IdealLaunch.IdxOK (IdealLaunch.conts (F := Ideal) m) :=
    fun d => ⟨fun j => IdxRange.src_lt_ideal m hpre d j, fun j => IdxRange.dst_lt_ideal m hpre d j⟩
  refine (θ_run (Cert.KernelIdeal.defs (F := Ideal)) _ _).mono (fun r h c => ?_)
    (IdealLaunch.run_args (F := Ideal) m g hOK (IdealLaunch.region0 _) (IdealLaunch.region1 _) (IdealLaunch.region2 _) (IdealLaunch.region3 _))
  exact ⟨h c _ (by simp), h c _ (by simp), h c _ (by simp), h c _ (by simp), h c _ (by simp), h c _ (by simp), h c _ (by simp),
    h c _ (by simp), h c _ (by simp), h c _ (by simp), h c _ (by simp), h c _ (by simp), h c _ (by simp)⟩

/-- The word-level kernel program runs and keeps its thirteen arguments: the same argument at the word-level instance. -/
theorem frame_k : Cert.frame_Kernel (hKernel := Cert.Kernel.Gen.facts) (hPre_input_domain := Cert.Pre_input_domain.Gen.facts) := by
  intro m g hpre
  letI : Cert.Kernel.Facts := Cert.Kernel.Gen.facts
  have hOK : WordLaunch.IdxOK (WordLaunch.conts (F := Bits) m) :=
    fun d => ⟨fun j => IdxRangeW.src_lt_bits m hpre d j, fun j => IdxRangeW.dst_lt_bits m hpre d j⟩
  refine (θ_run (Cert.Kernel.defs (F := Bits)) _ _).mono (fun r h c => ?_)
    (WordLaunch.run_args (F := Bits) m g hOK (WordLaunch.region0 _) (WordLaunch.region1 _) (WordLaunch.region2 _) (WordLaunch.region3 _))
  exact ⟨h c _ (by simp), h c _ (by simp), h c _ (by simp), h c _ (by simp), h c _ (by simp), h c _ (by simp), h c _ (by simp),
    h c _ (by simp), h c _ (by simp), h c _ (by simp), h c _ (by simp), h c _ (by simp), h c _ (by simp)⟩

/-- The one equation the algebraic conjunct rests on: at Ideal, the reference's composed stages of the thirteen
    arguments and the kernel program's chain of valuations end at the same [1,1] array. -/
theorem value_eq (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m)
    (h : IdealLaunch.IdxOK (IdealLaunch.conts (F := Ideal) m)) (c : Dev Cert.KernelIdeal.nD) :
    Cert.ReferenceIdeal.RefRun.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      = IdealValue.result (F := Ideal) m h c :=
  IdealValue.value_eq_closed m h hpre c

set_option maxHeartbeats 4000000 in
/-- The two idealized programs, from memories agreeing on the arguments, end with the same result: the kernel's is
    the end of its chain of valuations, the reference's its composed stages, and the two are one array (`value_eq`). -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  letI : Cert.KernelIdeal.Facts := Cert.KernelIdeal.Gen.facts
  have hOK : IdealLaunch.IdxOK (IdealLaunch.conts (F := Ideal) m) :=
    fun d => ⟨fun j => IdxRange.src_lt_ideal m hpre d j, fun j => IdxRange.dst_lt_ideal m hpre d j⟩
  refine ⟨fun c => IdealValue.result (F := Ideal) m hOK c, ?_, ?_⟩
  · refine (θ_run (Cert.KernelIdeal.defs (F := Ideal)) _ _).mono (fun r h c => ?_)
      (IdealValue.run_val (F := Ideal) m hOK g (IdealValue.regionV0 _) (IdealValue.regionV1 _) (IdealValue.regionV2 _) (IdealValue.regionV3 _))
    exact ⟨(h c).1, (h c).2 _ (by simp), (h c).2 _ (by simp), (h c).2 _ (by simp), (h c).2 _ (by simp), (h c).2 _ (by simp), (h c).2 _ (by simp),
      (h c).2 _ (by simp), (h c).2 _ (by simp), (h c).2 _ (by simp), (h c).2 _ (by simp), (h c).2 _ (by simp), (h c).2 _ (by simp), (h c).2 _ (by simp)⟩
  · refine (θ_run (Cert.ReferenceIdeal.defs (F := Ideal)) _ _).mono (fun r h c => ⟨(h c).1.trans ?_, (h c).2⟩)
      (Cert.ReferenceIdeal.RefRun.run (F := Ideal) (hRef := Cert.ReferenceIdeal.Gen.facts) m' g')
    obtain ⟨e0, e1, e2, e3, e4, e5, e6, e7, e8, e9, e10, e11, e12⟩ := hagree c
    rw [e0, e1, e2, e3, e4, e5, e6, e7, e8, e9, e10, e11, e12]
    exact value_eq m hpre hOK c

theorem claim : Cert.Claim := ⟨Cert.Kernel.Gen.facts, Cert.KernelIdeal.Gen.facts, Cert.ReferenceIdeal.Gen.facts, Cert.Pre_input_domain.Gen.facts,
  frame_k, frame_ki, Cert.ReferenceIdeal.RefRun.frame_ri, Cert.Proof.preserves, algebraic⟩

end Cert.Proof

end
